-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v73)) (v3 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_v107) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v178) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S128x784 : Shape := ⟨2, ![128, 784]⟩
abbrev S128 : Shape := ⟨1, ![128]⟩
abbrev S128x128 : Shape := ⟨2, ![128, 128]⟩
abbrev S10x128 : Shape := ⟨2, ![10, 128]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S128x784 : S_.BroadcastsInDim S128x784 (![] : Fin 0 → Fin S128x784.rank)
  reducesTo_S128x784_S_d0_1 : S128x784.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_arg12 : FVec F S10 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg7 : FVec F S128 .f32) (main_arg8 : FVec F S128 .f32) (main_arg9 : FVec F S10x128 .f32) (main_arg10 : FVec F S10 .f32) (main_arg11 : FVec F S10 .f32) (main_arg12 : FVec F S10 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg9
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S10x128 .f32) (main_arg10 : FVec F S10 .f32) (main_arg11 : FVec F S10 .f32) (main_arg12 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x784 .f32) (main_arg1 : FVec F S128x784 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S10x128 .f32) (main_arg10 : FVec F S10 .f32) (main_arg11 : FVec F S10 .f32) (main_arg12 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S128x784 .f32 := Host.absf main_arg1
  let main_cst_0 : FVec F S_ .f32 := constant S_ .f32 0x7F800000#32
  let main_v5 : FVec F S128x784 .f32 := broadcastInDim S128x784 ![] bcast_S_S128x784 main_cst_0
  let main_v6 : IVec S128x784 1 := cmpf .olt main_v4 main_v5
  let main_c_1 : IVec S_ 1 := constantI S_ 1 1#1
  let main_v7 : IVec S_ 1 := (fun x v => Host.reduce IntOp.andi x v reducesTo_S128x784_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S65536x784 : Shape := ⟨2, ![65536, 784]⟩
abbrev S128x784 : Shape := ⟨2, ![128, 784]⟩
abbrev S128 : Shape := ⟨1, ![128]⟩
abbrev S128x128 : Shape := ⟨2, ![128, 128]⟩
abbrev S10x128 : Shape := ⟨2, ![10, 128]⟩
abbrev S10 : Shape := ⟨1, ![10]⟩
abbrev S1x1 : Shape := ⟨2, ![1, 1]⟩
abbrev S1024x784 : Shape := ⟨2, ![1024, 784]⟩
abbrev S1024 : Shape := ⟨1, ![1024]⟩
abbrev S1024x1 : Shape := ⟨2, ![1024, 1]⟩
abbrev S1 : Shape := ⟨1, ![1]⟩
abbrev S_ : Shape := ⟨0, ![]⟩
abbrev S784x128 : Shape := ⟨2, ![784, 128]⟩
abbrev S1x128 : Shape := ⟨2, ![1, 128]⟩
abbrev S65536x128 : Shape := ⟨2, ![65536, 128]⟩
abbrev S2048x784 : Shape := ⟨2, ![2048, 784]⟩
abbrev S2048x128 : Shape := ⟨2, ![2048, 128]⟩
abbrev S2048 : Shape := ⟨1, ![2048]⟩
abbrev S2048x1 : Shape := ⟨2, ![2048, 1]⟩
abbrev S128x10 : Shape := ⟨2, ![128, 10]⟩
abbrev S1x10 : Shape := ⟨2, ![1, 10]⟩
abbrev S65536x10 : Shape := ⟨2, ![65536, 10]⟩
abbrev S2048x10 : Shape := ⟨2, ![2048, 10]⟩

abbrev nBuf : Space → Nat
  | .hbm => 171
  | .vmem => 86
  | .smem => 0
  | _ => 0

abbrev hbmTy0_0 (i : Nat) : BufTy := match i % 128 with
  | 0 => ⟨S65536x784, .f32⟩
  | 1 => ⟨S128x784, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S10x128, .f32⟩
  | 10 => ⟨S10, .f32⟩
  | 11 => ⟨S10, .f32⟩
  | 12 => ⟨S10, .f32⟩
  | 13 => ⟨S1x1, .f32⟩
  | 14 => ⟨S_, .f32⟩
  | 15 => ⟨S1x1, .f32⟩
  | 16 => ⟨S1x1, .f32⟩
  | 17 => ⟨S_, .f32⟩
  | 18 => ⟨S1x1, .f32⟩
  | 19 => ⟨S1x1, .f32⟩
  | 20 => ⟨S65536x784, .f32⟩
  | 21 => ⟨S_, .f32⟩
  | 22 => ⟨S128x784, .f32⟩
  | 23 => ⟨S128x784, .i1⟩
  | 24 => ⟨S_, .f32⟩
  | 25 => ⟨S_, .f32⟩
  | 26 => ⟨S128x784, .f32⟩
  | 27 => ⟨S128x784, .f32⟩
  | 28 => ⟨S128x784, .f32⟩
  | 29 => ⟨S128x784, .f32⟩
  | 30 => ⟨S784x128, .f32⟩
  | 31 => ⟨S1x128, .f32⟩
  | 32 => ⟨S65536x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S65536x128, .f32⟩
  | 55 => ⟨S1x1, .f32⟩
  | 56 => ⟨S_, .f32⟩
  | 57 => ⟨S1x1, .f32⟩
  | 58 => ⟨S1x1, .f32⟩
  | 59 => ⟨S_, .f32⟩
  | 60 => ⟨S1x1, .f32⟩
  | 61 => ⟨S1x1, .f32⟩
  | 62 => ⟨S65536x128, .f32⟩
  | 63 => ⟨S1x1, .f32⟩
  | 64 => ⟨S_, .f32⟩
  | 65 => ⟨S1x1, .f32⟩
  | 66 => ⟨S1x1, .f32⟩
  | 67 => ⟨S_, .f32⟩
  | 68 => ⟨S1x1, .f32⟩
  | 69 => ⟨S1x1, .f32⟩
  | 70 => ⟨S65536x128, .f32⟩
  | 71 => ⟨S_, .f32⟩
  | 72 => ⟨S128x128, .f32⟩
  | 73 => ⟨S128x128, .i1⟩
  | 74 => ⟨S_, .f32⟩
  | 75 => ⟨S_, .f32⟩
  | 76 => ⟨S128x128, .f32⟩
  | 77 => ⟨S128x128, .f32⟩
  | 78 => ⟨S128x128, .f32⟩
  | 79 => ⟨S128x128, .f32⟩
  | 80 => ⟨S128x128, .f32⟩
  | 81 => ⟨S1x128, .f32⟩
  | 82 => ⟨S65536x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S65536x128, .f32⟩
  | 105 => ⟨S1x1, .f32⟩
  | 106 => ⟨S_, .f32⟩
  | 107 => ⟨S1x1, .f32⟩
  | 108 => ⟨S1x1, .f32⟩
  | 109 => ⟨S_, .f32⟩
  | 110 => ⟨S1x1, .f32⟩
  | 111 => ⟨S1x1, .f32⟩
  | 112 => ⟨S65536x128, .f32⟩
  | 113 => ⟨S1x1, .f32⟩
  | 114 => ⟨S_, .f32⟩
  | 115 => ⟨S1x1, .f32⟩
  | 116 => ⟨S1x1, .f32⟩
  | 117 => ⟨S_, .f32⟩
  | 118 => ⟨S1x1, .f32⟩
  | 119 => ⟨S1x1, .f32⟩
  | 120 => ⟨S65536x128, .f32⟩
  | 121 => ⟨S_, .f32⟩
  | 122 => ⟨S10x128, .f32⟩
  | 123 => ⟨S10x128, .i1⟩
  | 124 => ⟨S_, .f32⟩
  | 125 => ⟨S_, .f32⟩
  | 126 => ⟨S10x128, .f32⟩
  | 127 => ⟨S10x128, .f32⟩
  | _ => ⟨S65536x784, .f32⟩

abbrev hbmTy0_1 (i : Nat) : BufTy := match i % 128 with
  | 0 => ⟨S10x128, .f32⟩
  | 1 => ⟨S10x128, .f32⟩
  | 2 => ⟨S128x10, .f32⟩
  | 3 => ⟨S1x10, .f32⟩
  | 4 => ⟨S65536x10, .f32⟩
  | 5 => ⟨S1x10, .f32⟩
  | 6 => ⟨S1x10, .f32⟩
  | 7 => ⟨S_, .f32⟩
  | 8 => ⟨S1x10, .f32⟩
  | 9 => ⟨S1x10, .f32⟩
  | 10 => ⟨S_, .f32⟩
  | 11 => ⟨S1x10, .f32⟩
  | 12 => ⟨S1x10, .f32⟩
  | 13 => ⟨S1x10, .f32⟩
  | 14 => ⟨S1x10, .f32⟩
  | 15 => ⟨S_, .f32⟩
  | 16 => ⟨S1x10, .f32⟩
  | 17 => ⟨S1x10, .f32⟩
  | 18 => ⟨S1x10, .f32⟩
  | 19 => ⟨S1x10, .f32⟩
  | 20 => ⟨S1x10, .f32⟩
  | 21 => ⟨S1x10, .f32⟩
  | 22 => ⟨S1x10, .f32⟩
  | 23 => ⟨S1x10, .f32⟩
  | 24 => ⟨S1x10, .f32⟩
  | 25 => ⟨S1x10, .f32⟩
  | 26 => ⟨S65536x10, .f32⟩
  | 27 => ⟨S1x1, .f32⟩
  | 28 => ⟨S_, .f32⟩
  | 29 => ⟨S1x1, .f32⟩
  | 30 => ⟨S1x1, .f32⟩
  | 31 => ⟨S_, .f32⟩
  | 32 => ⟨S1x1, .f32⟩
  | 33 => ⟨S1x1, .f32⟩
  | 34 => ⟨S65536x10, .f32⟩
  | 35 => ⟨S1x1, .f32⟩
  | 36 => ⟨S_, .f32⟩
  | 37 => ⟨S1x1, .f32⟩
  | 38 => ⟨S1x1, .f32⟩
  | 39 => ⟨S_, .f32⟩
  | 40 => ⟨S1x1, .f32⟩
  | 41 => ⟨S1x1, .f32⟩
  | 42 => ⟨S65536x10, .f32⟩
  | _ => ⟨S65536x784, .f32⟩

abbrev hbmTy (i : Nat) : BufTy := match i / 128 with
  | 0 => hbmTy0_0 i
  | 1 => hbmTy0_1 i
  | _ => ⟨S65536x784, .f32⟩

abbrev bufTy : (tb : Table) → Fin (tcTables nBuf tb) → BufTy
  | .hbm, ⟨i, _⟩ => hbmTy i
  | .local _ .vmem, ⟨0, _⟩ => ⟨S1024x784, .f32⟩
  | .local _ .vmem, ⟨1, _⟩ => ⟨S1024x784, .f32⟩
  | .local _ .vmem, ⟨2, _⟩ => ⟨S1x1, .f32⟩
  | .local _ .vmem, ⟨3, _⟩ => ⟨S1024x784, .f32⟩
  | .local _ .vmem, ⟨4, _⟩ => ⟨S1024x784, .f32⟩
  | .local _ .vmem, ⟨5, _⟩ => ⟨S1x1, .f32⟩
  | .local _ .vmem, ⟨6, _⟩ => ⟨S1024x784, .f32⟩
  | .local _ .vmem, ⟨7, _⟩ => ⟨S1024x784, .f32⟩
  | .local _ .vmem, ⟨8, _⟩ => ⟨S2048x784, .f32⟩
  | .local _ .vmem, ⟨9, _⟩ => ⟨S2048x784, .f32⟩
  | .local _ .vmem, ⟨10, _⟩ => ⟨S784x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S1x128, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | .local _ .vmem, ⟨18, _⟩ => ⟨S1x128, .f32⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | .local _ .vmem, ⟨22, _⟩ => ⟨S1x1, .f32⟩
  | .local _ .vmem, ⟨23, _⟩ => ⟨S2048x128, .f32⟩
  | .local _ .vmem, ⟨24, _⟩ => ⟨S2048x128, .f32⟩
  | .local _ .vmem, ⟨25, _⟩ => ⟨S1x1, .f32⟩
  | .local _ .vmem, ⟨26, _⟩ => ⟨S2048x128, .f32⟩
  | .local _ .vmem, ⟨27, _⟩ => ⟨S2048x128, .f32⟩
  | .local _ .vmem, ⟨28, _⟩ => ⟨S1x1, .f32⟩
  | .local _ .vmem, ⟨29, _⟩ => ⟨S2048x128, .f32⟩
  | .local _ .vmem, ⟨30, _⟩ => ⟨S2048x128, .f32⟩
  | .local _ .vmem, ⟨31, _⟩ => ⟨S1x1, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S128x128, .f32⟩
  | .local _ .vmem, ⟨37, _⟩ => ⟨S1x128, .f32⟩
  | .local _ .vmem, ⟨38, _⟩ => ⟨S2048x128, .f32⟩
  | .local _ .vmem, ⟨39, _⟩ => ⟨S2048x128, .f32⟩
  | .local _ .vmem, ⟨40, _⟩ => ⟨S1x128, .f32⟩
  | .local _ .vmem, ⟨41, _⟩ => ⟨S1x128, .f32⟩
  | .local _ .vmem, ⟨42, _⟩ => ⟨S2048x128, .f32⟩
  | .local _ .vmem, ⟨43, _⟩ => ⟨S2048x128, .f32⟩
  | .local _ .vmem, ⟨44, _⟩ => ⟨S1x128, .f32⟩
  | .local _ .vmem, ⟨45, _⟩ => ⟨S1x128, .f32⟩
  | .local _ .vmem, ⟨46, _⟩ => ⟨S2048x128, .f32⟩
  | .local _ .vmem, ⟨47, _⟩ => ⟨S2048x128, .f32⟩
  | .local _ .vmem, ⟨48, _⟩ => ⟨S1x1, .f32⟩
  | .local _ .vmem, ⟨49, _⟩ => ⟨S2048x128, .f32⟩
  | .local _ .vmem, ⟨50, _⟩ => ⟨S2048x128, .f32⟩
  | .local _ .vmem, ⟨51, _⟩ => ⟨S1x1, .f32⟩
  | .local _ .vmem, ⟨52, _⟩ => ⟨S2048x128, .f32⟩
  | .local _ .vmem, ⟨53, _⟩ => ⟨S2048x128, .f32⟩
  | .local _ .vmem, ⟨54, _⟩ => ⟨S1x1, .f32⟩
  | .local _ .vmem, ⟨55, _⟩ => ⟨S2048x128, .f32⟩
  | .local _ .vmem, ⟨56, _⟩ => ⟨S2048x128, .f32⟩
  | .local _ .vmem, ⟨57, _⟩ => ⟨S1x1, .f32⟩
  | .local _ .vmem, ⟨58, _⟩ => ⟨S2048x128, .f32⟩
  | .local _ .vmem, ⟨59, _⟩ => ⟨S2048x128, .f32⟩
  | .local _ .vmem, ⟨60, _⟩ => ⟨S2048x128, .f32⟩
  | .local _ .vmem, ⟨61, _⟩ => ⟨S2048x128, .f32⟩
  | .local _ .vmem, ⟨62, _⟩ => ⟨S128x10, .f32⟩
  | .local _ .vmem, ⟨63, _⟩ => ⟨S1x10, .f32⟩
  | .local _ .vmem, ⟨64, _⟩ => ⟨S2048x10, .f32⟩
  | .local _ .vmem, ⟨65, _⟩ => ⟨S2048x10, .f32⟩
  | .local _ .vmem, ⟨66, _⟩ => ⟨S1x10, .f32⟩
  | .local _ .vmem, ⟨67, _⟩ => ⟨S1x10, .f32⟩
  | .local _ .vmem, ⟨68, _⟩ => ⟨S2048x10, .f32⟩
  | .local _ .vmem, ⟨69, _⟩ => ⟨S2048x10, .f32⟩
  | .local _ .vmem, ⟨70, _⟩ => ⟨S1x10, .f32⟩
  | .local _ .vmem, ⟨71, _⟩ => ⟨S1x10, .f32⟩
  | .local _ .vmem, ⟨72, _⟩ => ⟨S2048x10, .f32⟩
  | .local _ .vmem, ⟨73, _⟩ => ⟨S2048x10, .f32⟩
  | .local _ .vmem, ⟨74, _⟩ => ⟨S1x1, .f32⟩
  | .local _ .vmem, ⟨75, _⟩ => ⟨S2048x10, .f32⟩
  | .local _ .vmem, ⟨76, _⟩ => ⟨S2048x10, .f32⟩
  | .local _ .vmem, ⟨77, _⟩ => ⟨S1x1, .f32⟩
  | .local _ .vmem, ⟨78, _⟩ => ⟨S2048x10, .f32⟩
  | .local _ .vmem, ⟨79, _⟩ => ⟨S2048x10, .f32⟩
  | .local _ .vmem, ⟨80, _⟩ => ⟨S1x1, .f32⟩
  | .local _ .vmem, ⟨81, _⟩ => ⟨S2048x10, .f32⟩
  | .local _ .vmem, ⟨82, _⟩ => ⟨S2048x10, .f32⟩
  | .local _ .vmem, ⟨83, _⟩ => ⟨S1x1, .f32⟩
  | .local _ .vmem, ⟨84, _⟩ => ⟨S2048x10, .f32⟩
  | .local _ .vmem, ⟨85, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_cst_4 : Ref sig .tc := ⟨.hbm, 35, rfl⟩
abbrev main_v13 : Ref sig .tc := ⟨.hbm, 36, rfl⟩
abbrev main_v14 : Ref sig .tc := ⟨.hbm, 37, rfl⟩
abbrev main_cst_5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_cst_8 : Ref sig .tc := ⟨.hbm, 59, rfl⟩
abbrev main_v32 : Ref sig .tc := ⟨.hbm, 60, rfl⟩
abbrev main_v33 : Ref sig .tc := ⟨.hbm, 61, rfl⟩
abbrev main_v34_0 : Ref sig .tc := ⟨.hbm, 62, rfl⟩
abbrev main_v34_1 : Ref sig .tc := ⟨.hbm, 63, rfl⟩
abbrev main_cst_9 : Ref sig .tc := ⟨.hbm, 64, rfl⟩
abbrev main_v35 : Ref sig .tc := ⟨.hbm, 65, rfl⟩
abbrev main_v36 : Ref sig .tc := ⟨.hbm, 66, rfl⟩
abbrev main_cst_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_11 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_cst_13 : Ref sig .tc := ⟨.hbm, 75, rfl⟩
abbrev main_call1_v0 : Ref sig .tc := ⟨.hbm, 76, rfl⟩
abbrev main_call1_v1 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46_0 : Ref sig .tc := ⟨.hbm, 82, rfl⟩
abbrev main_v46_1 : Ref sig .tc := ⟨.hbm, 83, rfl⟩
abbrev main_v46_2 : Ref sig .tc := ⟨.hbm, 84, rfl⟩
abbrev main_cst_14 : Ref sig .tc := ⟨.hbm, 85, rfl⟩
abbrev main_v47 : Ref sig .tc := ⟨.hbm, 86, rfl⟩
abbrev main_v48 : Ref sig .tc := ⟨.hbm, 87, rfl⟩
abbrev main_cst_15 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_16 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63_0 : Ref sig .tc := ⟨.hbm, 104, rfl⟩
abbrev main_v63_1 : Ref sig .tc := ⟨.hbm, 105, rfl⟩
abbrev main_cst_17 : Ref sig .tc := ⟨.hbm, 106, rfl⟩
abbrev main_v64 : Ref sig .tc := ⟨.hbm, 107, rfl⟩
abbrev main_v65 : Ref sig .tc := ⟨.hbm, 108, rfl⟩
abbrev main_cst_18 : Ref sig .tc := ⟨.hbm, 109, rfl⟩
abbrev main_v66 : Ref sig .tc := ⟨.hbm, 110, rfl⟩
abbrev main_v67 : Ref sig .tc := ⟨.hbm, 111, rfl⟩
abbrev main_v68_0 : Ref sig .tc := ⟨.hbm, 112, rfl⟩
abbrev main_v68_1 : Ref sig .tc := ⟨.hbm, 113, rfl⟩
abbrev main_cst_19 : Ref sig .tc := ⟨.hbm, 114, rfl⟩
abbrev main_v69 : Ref sig .tc := ⟨.hbm, 115, rfl⟩
abbrev main_v70 : Ref sig .tc := ⟨.hbm, 116, rfl⟩
abbrev main_cst_20 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_21 : Ref sig .tc := ⟨.hbm, 121, rfl⟩
abbrev main_v74 : Ref sig .tc := ⟨.hbm, 122, rfl⟩
abbrev main_v75 : Ref sig .tc := ⟨.hbm, 123, rfl⟩
abbrev main_cst_22 : Ref sig .tc := ⟨.hbm, 124, rfl⟩
abbrev main_cst_23 : Ref sig .tc := ⟨.hbm, 125, rfl⟩
abbrev main_call2_v0 : Ref sig .tc := ⟨.hbm, 126, rfl⟩
abbrev main_call2_v1 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80_0 : Ref sig .tc := ⟨.hbm, 132, rfl⟩
abbrev main_v80_1 : Ref sig .tc := ⟨.hbm, 133, rfl⟩
abbrev main_v80_2 : Ref sig .tc := ⟨.hbm, 134, rfl⟩
abbrev main_cst_24 : Ref sig .tc := ⟨.hbm, 135, rfl⟩
abbrev main_v81 : Ref sig .tc := ⟨.hbm, 136, rfl⟩
abbrev main_v82 : Ref sig .tc := ⟨.hbm, 137, rfl⟩
abbrev main_cst_25 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_26 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97_0 : Ref sig .tc := ⟨.hbm, 154, rfl⟩
abbrev main_v97_1 : Ref sig .tc := ⟨.hbm, 155, rfl⟩
abbrev main_cst_27 : Ref sig .tc := ⟨.hbm, 156, rfl⟩
abbrev main_v98 : Ref sig .tc := ⟨.hbm, 157, rfl⟩
abbrev main_v99 : Ref sig .tc := ⟨.hbm, 158, rfl⟩
abbrev main_cst_28 : Ref sig .tc := ⟨.hbm, 159, rfl⟩
abbrev main_v100 : Ref sig .tc := ⟨.hbm, 160, rfl⟩
abbrev main_v101 : Ref sig .tc := ⟨.hbm, 161, rfl⟩
abbrev main_v102_0 : Ref sig .tc := ⟨.hbm, 162, rfl⟩
abbrev main_v102_1 : Ref sig .tc := ⟨.hbm, 163, rfl⟩
abbrev main_cst_29 : Ref sig .tc := ⟨.hbm, 164, rfl⟩
abbrev main_v103 : Ref sig .tc := ⟨.hbm, 165, rfl⟩
abbrev main_v104 : Ref sig .tc := ⟨.hbm, 166, rfl⟩
abbrev main_cst_30 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg3_1 : Ref sig .tc := ⟨.vmem, 13, rfl⟩
abbrev cc2_stg4_0 : Ref sig .tc := ⟨.vmem, 14, rfl⟩
abbrev cc2_stg5_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc6_stg4_0 : Ref sig .tc := ⟨.vmem, 40, rfl⟩
abbrev cc6_stg5_0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc7_stg4_0 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg2_1 : Ref sig .tc := ⟨.vmem, 53, rfl⟩
abbrev cc8_stg3_0 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg3_0 : Ref sig .tc := ⟨.vmem, 64, rfl⟩
abbrev cc10_stg3_1 : Ref sig .tc := ⟨.vmem, 65, rfl⟩
abbrev cc10_stg4_0 : Ref sig .tc := ⟨.vmem, 66, rfl⟩
abbrev cc10_stg5_0 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg2_0 : Ref sig .tc := ⟨.vmem, 71, rfl⟩
abbrev cc11_stg3_0 : Ref sig .tc := ⟨.vmem, 72, rfl⟩
abbrev cc11_stg3_1 : Ref sig .tc := ⟨.vmem, 73, rfl⟩
abbrev cc11_stg4_0 : Ref sig .tc := ⟨.vmem, 74, rfl⟩
abbrev cc12_stg0_0 : Ref sig .tc := ⟨.vmem, 75, rfl⟩
abbrev cc12_stg0_1 : Ref sig .tc := ⟨.vmem, 76, rfl⟩
abbrev cc12_stg1_0 : Ref sig .tc := ⟨.vmem, 77, rfl⟩
abbrev cc12_stg2_0 : Ref sig .tc := ⟨.vmem, 78, rfl⟩
abbrev cc12_stg2_1 : Ref sig .tc := ⟨.vmem, 79, rfl⟩
abbrev cc12_stg3_0 : Ref sig .tc := ⟨.vmem, 80, rfl⟩
abbrev cc13_stg0_0 : Ref sig .tc := ⟨.vmem, 81, rfl⟩
abbrev cc13_stg0_1 : Ref sig .tc := ⟨.vmem, 82, rfl⟩
abbrev cc13_stg1_0 : Ref sig .tc := ⟨.vmem, 83, rfl⟩
abbrev cc13_stg2_0 : Ref sig .tc := ⟨.vmem, 84, rfl⟩
abbrev cc13_stg2_1 : Ref sig .tc := ⟨.vmem, 85, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13
abbrev cc2_sem4_0 : DmaSem sig := 14
abbrev cc2_sem5_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc3_sem4_0 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39
abbrev cc6_sem4_0 : DmaSem sig := 40
abbrev cc6_sem5_0 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc7_sem4_0 : DmaSem sig := 48
abbrev cc8_sem0_0 : DmaSem sig := 49
abbrev cc8_sem0_1 : DmaSem sig := 50
abbrev cc8_sem1_0 : DmaSem sig := 51
abbrev cc8_sem2_0 : DmaSem sig := 52
abbrev cc8_sem2_1 : DmaSem sig := 53
abbrev cc8_sem3_0 : DmaSem sig := 54
abbrev cc9_sem0_0 : DmaSem sig := 55
abbrev cc9_sem0_1 : DmaSem sig := 56
abbrev cc9_sem1_0 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem3_0 : DmaSem sig := 64
abbrev cc10_sem3_1 : DmaSem sig := 65
abbrev cc10_sem4_0 : DmaSem sig := 66
abbrev cc10_sem5_0 : DmaSem sig := 67
abbrev cc11_sem0_0 : DmaSem sig := 68
abbrev cc11_sem0_1 : DmaSem sig := 69
abbrev cc11_sem1_0 : DmaSem sig := 70
abbrev cc11_sem2_0 : DmaSem sig := 71
abbrev cc11_sem3_0 : DmaSem sig := 72
abbrev cc11_sem3_1 : DmaSem sig := 73
abbrev cc11_sem4_0 : DmaSem sig := 74
abbrev cc12_sem0_0 : DmaSem sig := 75
abbrev cc12_sem0_1 : DmaSem sig := 76
abbrev cc12_sem1_0 : DmaSem sig := 77
abbrev cc12_sem2_0 : DmaSem sig := 78
abbrev cc12_sem2_1 : DmaSem sig := 79
abbrev cc12_sem3_0 : DmaSem sig := 80
abbrev cc13_sem0_0 : DmaSem sig := 81
abbrev cc13_sem0_1 : DmaSem sig := 82
abbrev cc13_sem1_0 : DmaSem sig := 83
abbrev cc13_sem2_0 : DmaSem sig := 84
abbrev cc13_sem2_1 : DmaSem sig := 85

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x784 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x784 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S784x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2048x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2048x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2048x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![32], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2048x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2048x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![32], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2048x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x10 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x10 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2048x10 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S1x10 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x10 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev grid11 : Pipeline.Grid := ⟨1, ![32], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2048x10 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x10 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x10 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2048x10 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S1x1 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev grid12 : Pipeline.Grid := ⟨1, ![32], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2048x10 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S2048x10 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev grid13 : Pipeline.Grid := ⟨1, ![32], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2048x10 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x1 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2048x10 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

class Facts₀ : Prop where
  inb_S1x1_S1x1_0_0 : ∀ a, (![0, 0] : Fin 2 → Nat) a + S1x1.size a ≤ S1x1.size a
  h_S1x1 : 0 < S1x1.numel
  inb_S1024x784_S1024x784_0_0 : ∀ a, (![0, 0] : Fin 2 → Nat) a + S1024x784.size a ≤ S1024x784.size a
  h_S1024x784 : 0 < S1024x784.numel
  reduces_S1024x784_S1024 : S1024x784.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  broadcasts_S1x1_S1024x784 : S1x1.Broadcasts S1024x784
  bcast_S_S128x784 : S_.BroadcastsInDim S128x784 (![] : Fin 0 → Fin S128x784.rank)
  transposes_S128x784_S784x128_1_0 : S128x784.Transposes [1, 0] S784x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2048x784_S2048x784_0_0 : ∀ a, (![0, 0] : Fin 2 → Nat) a + S2048x784.size a ≤ S2048x784.size a
  h_S2048x784 : 0 < S2048x784.numel
  shapeCasts_S2048x784_S2048x784 : S2048x784.ShapeCasts S2048x784
  bitsLt_bf16_f32 : FTy.bits .bf16 < FTy.bits .f32
  inb_S784x128_S784x128_0_0 : ∀ a, (![0, 0] : Fin 2 → Nat) a + S784x128.size a ≤ S784x128.size a
  h_S784x128 : 0 < S784x128.numel
  shapeCasts_S784x128_S784x128 : S784x128.ShapeCasts S784x128
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  reduces_S2048x128_S128 : S2048x128.Reduces [0] S128
  bcast_S_S1x128 : S_.BroadcastsInDim S1x128 (![] : Fin 0 → Fin S1x128.rank)
  shapeCasts_S2048x128_S2048x128 : S2048x128.ShapeCasts S2048x128
  reduces_S2048x128_S2048 : S2048x128.Reduces [1] S2048
  shapeCasts_S2048_S2048x1 : S2048.ShapeCasts S2048x1
  reduces_S2048x1_S1 : S2048x1.Reduces [0] S1
  broadcasts_S1x1_S2048x128 : S1x1.Broadcasts S2048x128
  bcast_S_S128x128 : S_.BroadcastsInDim S128x128 (![] : Fin 0 → Fin S128x128.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S10x128 : S_.BroadcastsInDim S10x128 (![] : Fin 0 → Fin S10x128.rank)
  transposes_S10x128_S128x10_1_0 : S10x128.Transposes [1, 0] S128x10
  shapeCasts_S10_S1x10 : S10.ShapeCasts S1x10
  inb_S1x10_S1x10_0_0 : ∀ a, (![0, 0] : Fin 2 → Nat) a + S1x10.size a ≤ S1x10.size a
  h_S1x10 : 0 < S1x10.numel
  inb_S128x10_S128x10_0_0 : ∀ a, (![0, 0] : Fin 2 → Nat) a + S128x10.size a ≤ S128x10.size a
  h_S128x10 : 0 < S128x10.numel
  shapeCasts_S128x10_S128x10 : S128x10.ShapeCasts S128x10
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  reduces_S2048x10_S10 : S2048x10.Reduces [0] S10
  bcast_S_S1x10 : S_.BroadcastsInDim S1x10 (![] : Fin 0 → Fin S1x10.rank)
  shapeCasts_S2048x10_S2048x10 : S2048x10.ShapeCasts S2048x10
  reduces_S2048x10_S2048 : S2048x10.Reduces [1] S2048
  broadcasts_S1x1_S2048x10 : S1x1.Broadcasts S2048x10
  dot_S2048x784_S784x128_S2048x128_1_0_0_1_n_n_wf : DotDims.WF S2048x784 S784x128 S2048x128 [1] [0] [0] [1] [] []
  dot_S2048x128_S128x128_S2048x128_1_0_0_1_n_n_wf : DotDims.WF S2048x128 S128x128 S2048x128 [1] [0] [0] [1] [] []
  dot_S2048x128_S128x10_S2048x10_1_0_0_1_n_n_wf : DotDims.WF S2048x128 S128x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x784.size a ≤ S65536x784.size a
  hwx1_0 : ∀ i : grid1.Coords, EltTy.bits .f32 = 32 ∨ (Rect.block (s := S65536x784) S1024x784.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x784.size a ≤ S65536x784.size a
  hwx1_2 : ∀ i : grid1.Coords, EltTy.bits .f32 = 32 ∨ (Rect.block (s := S65536x784) S1024x784.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x784.size a ≤ S65536x784.size a
  hwx2_0 : ∀ i : grid2.Coords, EltTy.bits .f32 = 32 ∨ (Rect.block (s := S65536x784) S2048x784.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S784x128.size a ≤ S784x128.size a
  hwx2_1 : ∀ i : grid2.Coords, EltTy.bits .f32 = 32 ∨ (Rect.block (s := S784x128) S784x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S65536x128.size a
  hwx2_3 : ∀ i : grid2.Coords, EltTy.bits .f32 = 32 ∨ (Rect.block (s := S65536x128) S2048x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S65536x128.size a
  hwx3_0 : ∀ i : grid3.Coords, EltTy.bits .f32 = 32 ∨ (Rect.block (s := S65536x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S65536x128.size a
  hwx3_3 : ∀ i : grid3.Coords, EltTy.bits .f32 = 32 ∨ (Rect.block (s := S65536x128) S2048x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S65536x128.size a
  hwx4_0 : ∀ i : grid4.Coords, EltTy.bits .f32 = 32 ∨ (Rect.block (s := S65536x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x128.size a ≤ S65536x128.size a
  hwx4_2 : ∀ i : grid4.Coords, EltTy.bits .f32 = 32 ∨ (Rect.block (s := S65536x128) S2048x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S65536x128.size a
  hwx5_0 : ∀ i : grid5.Coords, EltTy.bits .f32 = 32 ∨ (Rect.block (s := S65536x128) S2048x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x128.size a ≤ S65536x128.size a
  hwx5_2 : ∀ i : grid5.Coords, EltTy.bits .f32 = 32 ∨ (Rect.block (s := S65536x128) S2048x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S65536x128.size a
  hwx6_0 : ∀ i : grid6.Coords, EltTy.bits .f32 = 32 ∨ (Rect.block (s := S65536x128) S2048x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x128.size a ≤ S65536x128.size a
  hwx6_3 : ∀ i : grid6.Coords, EltTy.bits .f32 = 32 ∨ (Rect.block (s := S65536x128) S2048x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x128.size a ≤ S65536x128.size a
  hwx7_0 : ∀ i : grid7.Coords, EltTy.bits .f32 = 32 ∨ (Rect.block (s := S65536x128) S2048x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x128.size a ≤ S65536x128.size a
  hwx7_3 : ∀ i : grid7.Coords, EltTy.bits .f32 = 32 ∨ (Rect.block (s := S65536x128) S2048x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S65536x128.size a
  hwx8_0 : ∀ i : grid8.Coords, EltTy.bits .f32 = 32 ∨ (Rect.block (s := S65536x128) S2048x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1.size a ≤ S1x1.size a
  hwx8_1 : ∀ i : grid8.Coords, EltTy.bits .f32 = 32 ∨ (Rect.block (s := S1x1) S1x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x128.size a ≤ S65536x128.size a
  hwx8_2 : ∀ i : grid8.Coords, EltTy.bits .f32 = 32 ∨ (Rect.block (s := S65536x128) S2048x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048x128.size a ≤ S65536x128.size a
  hwx9_0 : ∀ i : grid9.Coords, EltTy.bits .f32 = 32 ∨ (Rect.block (s := S65536x128) S2048x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x1.size a ≤ S1x1.size a
  hwx9_1 : ∀ i : grid9.Coords, EltTy.bits .f32 = 32 ∨ (Rect.block (s := S1x1) S1x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x128.size a ≤ S65536x128.size a
  hwx9_2 : ∀ i : grid9.Coords, EltTy.bits .f32 = 32 ∨ (Rect.block (s := S65536x128) S2048x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x128.size a ≤ S65536x128.size a
  hwx10_0 : ∀ i : grid10.Coords, EltTy.bits .f32 = 32 ∨ (Rect.block (s := S65536x128) S2048x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x10.size a ≤ S128x10.size a
  hwx10_1 : ∀ i : grid10.Coords, EltTy.bits .f32 = 32 ∨ (Rect.block (s := S128x10) S128x10.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x10.size a ≤ S1x10.size a
  hwx10_2 : ∀ i : grid10.Coords, EltTy.bits .f32 = 32 ∨ (Rect.block (s := S1x10) S1x10.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2048x10.size a ≤ S65536x10.size a
  hwx10_3 : ∀ i : grid10.Coords, EltTy.bits .f32 = 32 ∨ (Rect.block (s := S65536x10) S2048x10.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x10.size a ≤ S1x10.size a
  hwx10_4 : ∀ i : grid10.Coords, EltTy.bits .f32 = 32 ∨ (Rect.block (s := S1x10) S1x10.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x10.size a ≤ S1x10.size a
  hwx10_5 : ∀ i : grid10.Coords, EltTy.bits .f32 = 32 ∨ (Rect.block (s := S1x10) S1x10.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048x10.size a ≤ S65536x10.size a
  hwx11_0 : ∀ i : grid11.Coords, EltTy.bits .f32 = 32 ∨ (Rect.block (s := S65536x10) S2048x10.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x10.size a ≤ S1x10.size a
  hwx11_1 : ∀ i : grid11.Coords, EltTy.bits .f32 = 32 ∨ (Rect.block (s := S1x10) S1x10.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x10.size a ≤ S1x10.size a
  hwx11_2 : ∀ i : grid11.Coords, EltTy.bits .f32 = 32 ∨ (Rect.block (s := S1x10) S1x10.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2048x10.size a ≤ S65536x10.size a
  hwx11_3 : ∀ i : grid11.Coords, EltTy.bits .f32 = 32 ∨ (Rect.block (s := S65536x10) S2048x10.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x1.size a ≤ S1x1.size a
  hwx11_4 : ∀ i : grid11.Coords, EltTy.bits .f32 = 32 ∨ (Rect.block (s := S1x1) S1x1.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2048x10.size a ≤ S65536x10.size a
  hwx12_0 : ∀ i : grid12.Coords, EltTy.bits .f32 = 32 ∨ (Rect.block (s := S65536x10) S2048x10.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x1.size a ≤ S1x1.size a
  hwx12_1 : ∀ i : grid12.Coords, EltTy.bits .f32 = 32 ∨ (Rect.block (s := S1x1) S1x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2048x10.size a ≤ S65536x10.size a
  hwx12_2 : ∀ i : grid12.Coords, EltTy.bits .f32 = 32 ∨ (Rect.block (s := S65536x10) S2048x10.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x1.size a ≤ S1x1.size a
  hwx12_3 : ∀ i : grid12.Coords, EltTy.bits .f32 = 32 ∨ (Rect.block (s := S1x1) S1x1.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048x10.size a ≤ S65536x10.size a
  hwx13_0 : ∀ i : grid13.Coords, EltTy.bits .f32 = 32 ∨ (Rect.block (s := S65536x10) S2048x10.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x1.size a ≤ S1x1.size a
  hwx13_1 : ∀ i : grid13.Coords, EltTy.bits .f32 = 32 ∨ (Rect.block (s := S1x1) S1x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2048x10.size a ≤ S65536x10.size a
  hwx13_2 : ∀ i : grid13.Coords, EltTy.bits .f32 = 32 ∨ (Rect.block (s := S65536x10) S2048x10.size (cc13_transform_2 i) (hinb13_2 i)).WholeWords (EltTy.packing .f32)

variable [Facts₀]

def dot_S2048x784_S784x128_S2048x128_1_0_0_1_n_n : DotDims S2048x784 S784x128 S2048x128 where
  lhsContracting := [1]
  rhsContracting := [0]
  lhsNonContracting := [0]
  rhsNonContracting := [1]
  lhsBatch := []
  rhsBatch := []
  wf := dot_S2048x784_S784x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x10_S2048x10_1_0_0_1_n_n : DotDims S2048x128 S128x10 S2048x10 where
  lhsContracting := [1]
  rhsContracting := [0]
  lhsNonContracting := [0]
  rhsNonContracting := [1]
  lhsBatch := []
  rhsBatch := []
  wf := dot_S2048x128_S128x10_S2048x10_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x784.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x784.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S2048x784.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S784x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12_0) S2048x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v12_0) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29_0) S2048x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v29_1) S1x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v29_0) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34_0) S2048x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v34_1) S1x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v34_0) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v39) S2048x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v39) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v45) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v46_0) S2048x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v46_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v46_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v46_0) S2048x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v57) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v62) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v63_0) S2048x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v63_1) S1x1.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v63_0) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v67) S1x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v68_0) S2048x128.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v68_1) S1x1.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v68_0) S2048x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v72) S1x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v73) S2048x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v73) S2048x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v78) S128x10.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v79) S1x10.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v80_0) S2048x10.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v80_1) S1x10.size cc10_transform_4 reads10_4 true true 1 stage10_4 sem10_4
    hrank10 hreads10_4 hinb10_4 nbuf10_4 (Memref.isWhole_whole _) hwx10_4 hstage10_4

abbrev win10_5 : Pipeline.Window sig grid10 :=
  Pipeline.Window.ofSpec (Memref.whole main_v80_2) S1x10.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v80_0) S2048x10.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v91) S1x10.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v96) S1x10.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v97_0) S2048x10.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v97_1) S1x1.size cc11_transform_4 reads11_4 true true 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v97_0) S2048x10.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v101) S1x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v102_0) S2048x10.size cc12_transform_2 reads12_2 true false 2 stage12_2 sem12_2
    hrank12 hreads12_2 hinb12_2 nbuf12_2 (Memref.isWhole_whole _) hwx12_2 hstage12_2

abbrev win12_3 : Pipeline.Window sig grid12 :=
  Pipeline.Window.ofSpec (Memref.whole main_v102_1) S1x1.size cc12_transform_3 reads12_3 true true 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v102_0) S2048x10.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v106) S1x1.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v107) S2048x10.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S65536x784 : Shape := ⟨2, ![65536, 784]⟩
abbrev S128x784 : Shape := ⟨2, ![128, 784]⟩
abbrev S128 : Shape := ⟨1, ![128]⟩
abbrev S128x128 : Shape := ⟨2, ![128, 128]⟩
abbrev S10x128 : Shape := ⟨2, ![10, 128]⟩
abbrev S10 : Shape := ⟨1, ![10]⟩
abbrev S_ : Shape := ⟨0, ![]⟩
abbrev S65536x128 : Shape := ⟨2, ![65536, 128]⟩
abbrev S1x128 : Shape := ⟨2, ![1, 128]⟩
abbrev S65536x10 : Shape := ⟨2, ![65536, 10]⟩
abbrev S1x10 : Shape := ⟨2, ![1, 10]⟩

abbrev nBuf : Space → Nat
  | .hbm => 358
  | .vmem => 0
  | .smem => 0
  | _ => 0

abbrev hbmTy0_0 (i : Nat) : BufTy := match i % 128 with
  | 0 => ⟨S65536x784, .f32⟩
  | 1 => ⟨S128x784, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S10x128, .f32⟩
  | 10 => ⟨S10, .f32⟩
  | 11 => ⟨S10, .f32⟩
  | 12 => ⟨S10, .f32⟩
  | 13 => ⟨S65536x784, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S65536x784, .f32⟩
  | 21 => ⟨S65536x784, .f32⟩
  | 22 => ⟨S65536x784, .f32⟩
  | 23 => ⟨S_, .i32⟩
  | 24 => ⟨S_, .i32⟩
  | 25 => ⟨S_, .f32⟩
  | 26 => ⟨S65536x784, .f32⟩
  | 27 => ⟨S65536x784, .f32⟩
  | 28 => ⟨S_, .f32⟩
  | 29 => ⟨S65536x784, .f32⟩
  | 30 => ⟨S65536x784, .f32⟩
  | 31 => ⟨S65536x784, .f32⟩
  | 32 => ⟨S65536x784, .f32⟩
  | 33 => ⟨S65536x784, .f32⟩
  | 34 => ⟨S65536x784, .f32⟩
  | 35 => ⟨S_, .f32⟩
  | 36 => ⟨S128x784, .f32⟩
  | 37 => ⟨S128x784, .i1⟩
  | 38 => ⟨S_, .f32⟩
  | 39 => ⟨S_, .f32⟩
  | 40 => ⟨S128x784, .f32⟩
  | 41 => ⟨S128x784, .f32⟩
  | 42 => ⟨S128x784, .f32⟩
  | 43 => ⟨S128x784, .f32⟩
  | 44 => ⟨S128x784, .f32⟩
  | 45 => ⟨S128x784, .f32⟩
  | 46 => ⟨S65536x128, .f32⟩
  | 47 => ⟨S1x128, .f32⟩
  | 48 => ⟨S65536x128, .f32⟩
  | 49 => ⟨S65536x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S65536x128, .f32⟩
  | 63 => ⟨S65536x128, .f32⟩
  | 64 => ⟨S65536x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S65536x128, .f32⟩
  | 80 => ⟨S65536x128, .f32⟩
  | 81 => ⟨S1x128, .f32⟩
  | 82 => ⟨S65536x128, .f32⟩
  | 83 => ⟨S65536x128, .f32⟩
  | 84 => ⟨S_, .f32⟩
  | 85 => ⟨S128, .f32⟩
  | 86 => ⟨S128, .f32⟩
  | 87 => ⟨S128, .f32⟩
  | 88 => ⟨S1x128, .f32⟩
  | 89 => ⟨S65536x128, .f32⟩
  | 90 => ⟨S65536x128, .f32⟩
  | 91 => ⟨S1x128, .f32⟩
  | 92 => ⟨S65536x128, .f32⟩
  | 93 => ⟨S65536x128, .f32⟩
  | 94 => ⟨S65536x128, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S65536x128, .f32⟩
  | 102 => ⟨S65536x128, .f32⟩
  | 103 => ⟨S65536x128, .f32⟩
  | 104 => ⟨S_, .i32⟩
  | 105 => ⟨S_, .i32⟩
  | 106 => ⟨S_, .f32⟩
  | 107 => ⟨S65536x128, .f32⟩
  | 108 => ⟨S65536x128, .f32⟩
  | 109 => ⟨S_, .f32⟩
  | 110 => ⟨S65536x128, .f32⟩
  | 111 => ⟨S65536x128, .f32⟩
  | 112 => ⟨S65536x128, .f32⟩
  | 113 => ⟨S65536x128, .f32⟩
  | 114 => ⟨S65536x128, .f32⟩
  | 115 => ⟨S65536x128, .f32⟩
  | 116 => ⟨S_, .f32⟩
  | 117 => ⟨S65536x128, .f32⟩
  | 118 => ⟨S65536x128, .f32⟩
  | 119 => ⟨S65536x128, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S65536x128, .f32⟩
  | 127 => ⟨S65536x128, .f32⟩
  | _ => ⟨S65536x784, .f32⟩

abbrev hbmTy0_1 (i : Nat) : BufTy := match i % 128 with
  | 0 => ⟨S65536x128, .f32⟩
  | 1 => ⟨S_, .i32⟩
  | 2 => ⟨S_, .i32⟩
  | 3 => ⟨S_, .f32⟩
  | 4 => ⟨S65536x128, .f32⟩
  | 5 => ⟨S65536x128, .f32⟩
  | 6 => ⟨S_, .f32⟩
  | 7 => ⟨S65536x128, .f32⟩
  | 8 => ⟨S65536x128, .f32⟩
  | 9 => ⟨S65536x128, .f32⟩
  | 10 => ⟨S65536x128, .f32⟩
  | 11 => ⟨S65536x128, .f32⟩
  | 12 => ⟨S65536x128, .f32⟩
  | 13 => ⟨S_, .f32⟩
  | 14 => ⟨S128x128, .f32⟩
  | 15 => ⟨S128x128, .i1⟩
  | 16 => ⟨S_, .f32⟩
  | 17 => ⟨S_, .f32⟩
  | 18 => ⟨S128x128, .f32⟩
  | 19 => ⟨S128x128, .f32⟩
  | 20 => ⟨S128x128, .f32⟩
  | 21 => ⟨S128x128, .f32⟩
  | 22 => ⟨S128x128, .f32⟩
  | 23 => ⟨S128x128, .f32⟩
  | 24 => ⟨S65536x128, .f32⟩
  | 25 => ⟨S1x128, .f32⟩
  | 26 => ⟨S65536x128, .f32⟩
  | 27 => ⟨S65536x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S65536x128, .f32⟩
  | 41 => ⟨S65536x128, .f32⟩
  | 42 => ⟨S65536x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S65536x128, .f32⟩
  | 58 => ⟨S65536x128, .f32⟩
  | 59 => ⟨S1x128, .f32⟩
  | 60 => ⟨S65536x128, .f32⟩
  | 61 => ⟨S65536x128, .f32⟩
  | 62 => ⟨S_, .f32⟩
  | 63 => ⟨S128, .f32⟩
  | 64 => ⟨S128, .f32⟩
  | 65 => ⟨S128, .f32⟩
  | 66 => ⟨S1x128, .f32⟩
  | 67 => ⟨S65536x128, .f32⟩
  | 68 => ⟨S65536x128, .f32⟩
  | 69 => ⟨S1x128, .f32⟩
  | 70 => ⟨S65536x128, .f32⟩
  | 71 => ⟨S65536x128, .f32⟩
  | 72 => ⟨S65536x128, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S65536x128, .f32⟩
  | 80 => ⟨S65536x128, .f32⟩
  | 81 => ⟨S65536x128, .f32⟩
  | 82 => ⟨S_, .i32⟩
  | 83 => ⟨S_, .i32⟩
  | 84 => ⟨S_, .f32⟩
  | 85 => ⟨S65536x128, .f32⟩
  | 86 => ⟨S65536x128, .f32⟩
  | 87 => ⟨S_, .f32⟩
  | 88 => ⟨S65536x128, .f32⟩
  | 89 => ⟨S65536x128, .f32⟩
  | 90 => ⟨S65536x128, .f32⟩
  | 91 => ⟨S65536x128, .f32⟩
  | 92 => ⟨S65536x128, .f32⟩
  | 93 => ⟨S65536x128, .f32⟩
  | 94 => ⟨S_, .f32⟩
  | 95 => ⟨S65536x128, .f32⟩
  | 96 => ⟨S65536x128, .f32⟩
  | 97 => ⟨S65536x128, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S65536x128, .f32⟩
  | 105 => ⟨S65536x128, .f32⟩
  | 106 => ⟨S65536x128, .f32⟩
  | 107 => ⟨S_, .i32⟩
  | 108 => ⟨S_, .i32⟩
  | 109 => ⟨S_, .f32⟩
  | 110 => ⟨S65536x128, .f32⟩
  | 111 => ⟨S65536x128, .f32⟩
  | 112 => ⟨S_, .f32⟩
  | 113 => ⟨S65536x128, .f32⟩
  | 114 => ⟨S65536x128, .f32⟩
  | 115 => ⟨S65536x128, .f32⟩
  | 116 => ⟨S65536x128, .f32⟩
  | 117 => ⟨S65536x128, .f32⟩
  | 118 => ⟨S65536x128, .f32⟩
  | 119 => ⟨S_, .f32⟩
  | 120 => ⟨S10x128, .f32⟩
  | 121 => ⟨S10x128, .i1⟩
  | 122 => ⟨S_, .f32⟩
  | 123 => ⟨S_, .f32⟩
  | 124 => ⟨S10x128, .f32⟩
  | 125 => ⟨S10x128, .f32⟩
  | 126 => ⟨S10x128, .f32⟩
  | 127 => ⟨S10x128, .f32⟩
  | _ => ⟨S65536x784, .f32⟩

abbrev hbmTy0_2 (i : Nat) : BufTy := match i % 128 with
  | 0 => ⟨S10x128, .f32⟩
  | 1 => ⟨S10x128, .f32⟩
  | 2 => ⟨S65536x10, .f32⟩
  | 3 => ⟨S1x10, .f32⟩
  | 4 => ⟨S65536x10, .f32⟩
  | 5 => ⟨S65536x10, .f32⟩
  | 6 => ⟨S_, .f32⟩
  | 7 => ⟨S10, .f32⟩
  | 8 => ⟨S_, .f32⟩
  | 9 => ⟨S10, .f32⟩
  | 10 => ⟨S10, .f32⟩
  | 11 => ⟨S_, .i32⟩
  | 12 => ⟨S_, .f32⟩
  | 13 => ⟨S10, .f32⟩
  | 14 => ⟨S1x10, .f32⟩
  | 15 => ⟨S_, .f32⟩
  | 16 => ⟨S1x10, .f32⟩
  | 17 => ⟨S1x10, .f32⟩
  | 18 => ⟨S65536x10, .f32⟩
  | 19 => ⟨S65536x10, .f32⟩
  | 20 => ⟨S65536x10, .f32⟩
  | 21 => ⟨S_, .f32⟩
  | 22 => ⟨S_, .f32⟩
  | 23 => ⟨S_, .f32⟩
  | 24 => ⟨S_, .f32⟩
  | 25 => ⟨S10, .f32⟩
  | 26 => ⟨S10, .f32⟩
  | 27 => ⟨S10, .f32⟩
  | 28 => ⟨S_, .f32⟩
  | 29 => ⟨S_, .i1⟩
  | 30 => ⟨S_, .f32⟩
  | 31 => ⟨S_, .f32⟩
  | 32 => ⟨S10, .f32⟩
  | 33 => ⟨S10, .f32⟩
  | 34 => ⟨S1x10, .f32⟩
  | 35 => ⟨S65536x10, .f32⟩
  | 36 => ⟨S65536x10, .f32⟩
  | 37 => ⟨S1x10, .f32⟩
  | 38 => ⟨S65536x10, .f32⟩
  | 39 => ⟨S65536x10, .f32⟩
  | 40 => ⟨S_, .f32⟩
  | 41 => ⟨S10, .f32⟩
  | 42 => ⟨S10, .f32⟩
  | 43 => ⟨S10, .f32⟩
  | 44 => ⟨S1x10, .f32⟩
  | 45 => ⟨S65536x10, .f32⟩
  | 46 => ⟨S65536x10, .f32⟩
  | 47 => ⟨S1x10, .f32⟩
  | 48 => ⟨S65536x10, .f32⟩
  | 49 => ⟨S65536x10, .f32⟩
  | 50 => ⟨S65536x10, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S65536x10, .f32⟩
  | 58 => ⟨S65536x10, .f32⟩
  | 59 => ⟨S65536x10, .f32⟩
  | 60 => ⟨S_, .i32⟩
  | 61 => ⟨S_, .i32⟩
  | 62 => ⟨S_, .f32⟩
  | 63 => ⟨S65536x10, .f32⟩
  | 64 => ⟨S65536x10, .f32⟩
  | 65 => ⟨S_, .f32⟩
  | 66 => ⟨S65536x10, .f32⟩
  | 67 => ⟨S65536x10, .f32⟩
  | 68 => ⟨S65536x10, .f32⟩
  | 69 => ⟨S65536x10, .f32⟩
  | 70 => ⟨S65536x10, .f32⟩
  | 71 => ⟨S65536x10, .f32⟩
  | 72 => ⟨S65536x10, .f32⟩
  | 73 => ⟨S65536x10, .f32⟩
  | 74 => ⟨S_, .f32⟩
  | 75 => ⟨S65536x10, .f32⟩
  | 76 => ⟨S65536x10, .f32⟩
  | 77 => ⟨S_, .f32⟩
  | 78 => ⟨S65536x10, .f32⟩
  | 79 => ⟨S65536x10, .f32⟩
  | 80 => ⟨S65536x10, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S65536x10, .f32⟩
  | 88 => ⟨S65536x10, .f32⟩
  | 89 => ⟨S65536x10, .f32⟩
  | 90 => ⟨S_, .i32⟩
  | 91 => ⟨S_, .i32⟩
  | 92 => ⟨S_, .f32⟩
  | 93 => ⟨S65536x10, .f32⟩
  | 94 => ⟨S65536x10, .f32⟩
  | 95 => ⟨S_, .f32⟩
  | 96 => ⟨S65536x10, .f32⟩
  | 97 => ⟨S65536x10, .f32⟩
  | 98 => ⟨S65536x10, .f32⟩
  | 99 => ⟨S65536x10, .f32⟩
  | 100 => ⟨S65536x10, .f32⟩
  | 101 => ⟨S65536x10, .f32⟩
  | _ => ⟨S65536x784, .f32⟩

abbrev hbmTy (i : Nat) : BufTy := match i / 128 with
  | 0 => hbmTy0_0 i
  | 1 => hbmTy0_1 i
  | 2 => hbmTy0_2 i
  | _ => ⟨S65536x784, .f32⟩

abbrev bufTy : (tb : Table) → Fin (tcTables nBuf tb) → BufTy
  | .hbm, ⟨i, _⟩ => hbmTy i
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_cst_4 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_6 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_v24 : Ref sig .tc := ⟨.hbm, 54, rfl⟩
abbrev main_c_8 : Ref sig .tc := ⟨.hbm, 55, rfl⟩
abbrev main_call3_cst : Ref sig .tc := ⟨.hbm, 56, rfl⟩
abbrev main_call3_v0 : Ref sig .tc := ⟨.hbm, 57, rfl⟩
abbrev main_call3_v1 : Ref sig .tc := ⟨.hbm, 58, rfl⟩
abbrev main_call3_cst_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_cst_1 : Ref sig .tc := ⟨.hbm, 66, rfl⟩
abbrev main_call3_v8 : Ref sig .tc := ⟨.hbm, 67, rfl⟩
abbrev main_call3_cst_2 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_cst_3 : Ref sig .tc := ⟨.hbm, 72, rfl⟩
abbrev main_call3_v12 : Ref sig .tc := ⟨.hbm, 73, rfl⟩
abbrev main_call3_cst_4 : Ref sig .tc := ⟨.hbm, 74, rfl⟩
abbrev main_call3_call0_v0 : Ref sig .tc := ⟨.hbm, 75, rfl⟩
abbrev main_call3_call0_v1 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_9 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_10 : Ref sig .tc := ⟨.hbm, 95, rfl⟩
abbrev main_v42 : Ref sig .tc := ⟨.hbm, 96, rfl⟩
abbrev main_cst_11 : Ref sig .tc := ⟨.hbm, 97, rfl⟩
abbrev main_v43 : Ref sig .tc := ⟨.hbm, 98, rfl⟩
abbrev main_cst_12 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_c_13 : Ref sig .tc := ⟨.hbm, 104, rfl⟩
abbrev main_c_14 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_call6_cst : Ref sig .tc := ⟨.hbm, 116, rfl⟩
abbrev main_call6_v0 : Ref sig .tc := ⟨.hbm, 117, rfl⟩
abbrev main_v53 : Ref sig .tc := ⟨.hbm, 118, rfl⟩
abbrev main_v54 : Ref sig .tc := ⟨.hbm, 119, rfl⟩
abbrev main_cst_15 : Ref sig .tc := ⟨.hbm, 120, rfl⟩
abbrev main_v55 : Ref sig .tc := ⟨.hbm, 121, rfl⟩
abbrev main_cst_16 : Ref sig .tc := ⟨.hbm, 122, rfl⟩
abbrev main_v56 : Ref sig .tc := ⟨.hbm, 123, rfl⟩
abbrev main_cst_17 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_c_18 : Ref sig .tc := ⟨.hbm, 129, rfl⟩
abbrev main_c_19 : Ref sig .tc := ⟨.hbm, 130, rfl⟩
abbrev main_call8_v0 : Ref sig .tc := ⟨.hbm, 131, rfl⟩
abbrev main_call8_v1 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_cst_20 : Ref sig .tc := ⟨.hbm, 141, rfl⟩
abbrev main_v66 : Ref sig .tc := ⟨.hbm, 142, rfl⟩
abbrev main_v67 : Ref sig .tc := ⟨.hbm, 143, rfl⟩
abbrev main_cst_21 : Ref sig .tc := ⟨.hbm, 144, rfl⟩
abbrev main_cst_22 : Ref sig .tc := ⟨.hbm, 145, rfl⟩
abbrev main_call9_v0 : Ref sig .tc := ⟨.hbm, 146, rfl⟩
abbrev main_call9_v1 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_cst_23 : Ref sig .tc := ⟨.hbm, 156, rfl⟩
abbrev main_v76 : Ref sig .tc := ⟨.hbm, 157, rfl⟩
abbrev main_cst_24 : Ref sig .tc := ⟨.hbm, 158, rfl⟩
abbrev main_v77 : Ref sig .tc := ⟨.hbm, 159, rfl⟩
abbrev main_v78 : Ref sig .tc := ⟨.hbm, 160, rfl⟩
abbrev main_c_25 : Ref sig .tc := ⟨.hbm, 161, rfl⟩
abbrev main_call10_cst : Ref sig .tc := ⟨.hbm, 162, rfl⟩
abbrev main_call10_v0 : Ref sig .tc := ⟨.hbm, 163, rfl⟩
abbrev main_call10_v1 : Ref sig .tc := ⟨.hbm, 164, rfl⟩
abbrev main_call10_cst_0 : Ref sig .tc := ⟨.hbm, 165, rfl⟩
abbrev main_call10_v2 : Ref sig .tc := ⟨.hbm, 166, rfl⟩
abbrev main_call10_v3 : Ref sig .tc := ⟨.hbm, 167, rfl⟩
abbrev main_call10_v4 : Ref sig .tc := ⟨.hbm, 168, rfl⟩
abbrev main_call10_v5 : Ref sig .tc := ⟨.hbm, 169, rfl⟩
abbrev main_call10_v6 : Ref sig .tc := ⟨.hbm, 170, rfl⟩
abbrev main_call10_v7 : Ref sig .tc := ⟨.hbm, 171, rfl⟩
abbrev main_call10_cst_1 : Ref sig .tc := ⟨.hbm, 172, rfl⟩
abbrev main_call10_v8 : Ref sig .tc := ⟨.hbm, 173, rfl⟩
abbrev main_call10_cst_2 : Ref sig .tc := ⟨.hbm, 174, rfl⟩
abbrev main_call10_v9 : Ref sig .tc := ⟨.hbm, 175, rfl⟩
abbrev main_call10_v10 : Ref sig .tc := ⟨.hbm, 176, rfl⟩
abbrev main_call10_v11 : Ref sig .tc := ⟨.hbm, 177, rfl⟩
abbrev main_call10_cst_3 : Ref sig .tc := ⟨.hbm, 178, rfl⟩
abbrev main_call10_v12 : Ref sig .tc := ⟨.hbm, 179, rfl⟩
abbrev main_call10_cst_4 : Ref sig .tc := ⟨.hbm, 180, rfl⟩
abbrev main_call10_call0_v0 : Ref sig .tc := ⟨.hbm, 181, rfl⟩
abbrev main_call10_call0_v1 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_cst_26 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_cst_27 : Ref sig .tc := ⟨.hbm, 201, rfl⟩
abbrev main_v96 : Ref sig .tc := ⟨.hbm, 202, rfl⟩
abbrev main_cst_28 : Ref sig .tc := ⟨.hbm, 203, rfl⟩
abbrev main_v97 : Ref sig .tc := ⟨.hbm, 204, rfl⟩
abbrev main_cst_29 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_c_30 : Ref sig .tc := ⟨.hbm, 210, rfl⟩
abbrev main_c_31 : Ref sig .tc := ⟨.hbm, 211, rfl⟩
abbrev main_call12_v0 : Ref sig .tc := ⟨.hbm, 212, rfl⟩
abbrev main_call12_v1 : Ref sig .tc := ⟨.hbm, 213, rfl⟩
abbrev main_call12_v2 : Ref sig .tc := ⟨.hbm, 214, rfl⟩
abbrev main_call12_v3 : Ref sig .tc := ⟨.hbm, 215, rfl⟩
abbrev main_call12_v4 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_call13_cst : Ref sig .tc := ⟨.hbm, 222, rfl⟩
abbrev main_call13_v0 : Ref sig .tc := ⟨.hbm, 223, rfl⟩
abbrev main_v107 : Ref sig .tc := ⟨.hbm, 224, rfl⟩
abbrev main_v108 : Ref sig .tc := ⟨.hbm, 225, rfl⟩
abbrev main_cst_32 : Ref sig .tc := ⟨.hbm, 226, rfl⟩
abbrev main_v109 : Ref sig .tc := ⟨.hbm, 227, rfl⟩
abbrev main_cst_33 : Ref sig .tc := ⟨.hbm, 228, rfl⟩
abbrev main_v110 : Ref sig .tc := ⟨.hbm, 229, rfl⟩
abbrev main_cst_34 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_c_35 : Ref sig .tc := ⟨.hbm, 235, rfl⟩
abbrev main_c_36 : Ref sig .tc := ⟨.hbm, 236, rfl⟩
abbrev main_call15_v0 : Ref sig .tc := ⟨.hbm, 237, rfl⟩
abbrev main_call15_v1 : Ref sig .tc := ⟨.hbm, 238, rfl⟩
abbrev main_call15_v2 : Ref sig .tc := ⟨.hbm, 239, rfl⟩
abbrev main_call15_v3 : Ref sig .tc := ⟨.hbm, 240, rfl⟩
abbrev main_call15_v4 : Ref sig .tc := ⟨.hbm, 241, rfl⟩
abbrev main_v115 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_cst_37 : Ref sig .tc := ⟨.hbm, 247, rfl⟩
abbrev main_v120 : Ref sig .tc := ⟨.hbm, 248, rfl⟩
abbrev main_v121 : Ref sig .tc := ⟨.hbm, 249, rfl⟩
abbrev main_cst_38 : Ref sig .tc := ⟨.hbm, 250, rfl⟩
abbrev main_cst_39 : Ref sig .tc := ⟨.hbm, 251, rfl⟩
abbrev main_call16_v0 : Ref sig .tc := ⟨.hbm, 252, rfl⟩
abbrev main_call16_v1 : Ref sig .tc := ⟨.hbm, 253, rfl⟩
abbrev main_v122 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_v126 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_cst_40 : Ref sig .tc := ⟨.hbm, 262, rfl⟩
abbrev main_v130 : Ref sig .tc := ⟨.hbm, 263, rfl⟩
abbrev main_cst_41 : Ref sig .tc := ⟨.hbm, 264, rfl⟩
abbrev main_v131 : Ref sig .tc := ⟨.hbm, 265, rfl⟩
abbrev main_v132 : Ref sig .tc := ⟨.hbm, 266, rfl⟩
abbrev main_c_42 : Ref sig .tc := ⟨.hbm, 267, rfl⟩
abbrev main_call17_cst : Ref sig .tc := ⟨.hbm, 268, rfl⟩
abbrev main_call17_v0 : Ref sig .tc := ⟨.hbm, 269, rfl⟩
abbrev main_call17_v1 : Ref sig .tc := ⟨.hbm, 270, rfl⟩
abbrev main_call17_cst_0 : Ref sig .tc := ⟨.hbm, 271, rfl⟩
abbrev main_call17_v2 : Ref sig .tc := ⟨.hbm, 272, rfl⟩
abbrev main_call17_v3 : Ref sig .tc := ⟨.hbm, 273, rfl⟩
abbrev main_call17_v4 : Ref sig .tc := ⟨.hbm, 274, rfl⟩
abbrev main_call17_v5 : Ref sig .tc := ⟨.hbm, 275, rfl⟩
abbrev main_call17_v6 : Ref sig .tc := ⟨.hbm, 276, rfl⟩
abbrev main_call17_v7 : Ref sig .tc := ⟨.hbm, 277, rfl⟩
abbrev main_call17_cst_1 : Ref sig .tc := ⟨.hbm, 278, rfl⟩
abbrev main_call17_v8 : Ref sig .tc := ⟨.hbm, 279, rfl⟩
abbrev main_call17_cst_2 : Ref sig .tc := ⟨.hbm, 280, rfl⟩
abbrev main_call17_v9 : Ref sig .tc := ⟨.hbm, 281, rfl⟩
abbrev main_call17_v10 : Ref sig .tc := ⟨.hbm, 282, rfl⟩
abbrev main_call17_v11 : Ref sig .tc := ⟨.hbm, 283, rfl⟩
abbrev main_call17_cst_3 : Ref sig .tc := ⟨.hbm, 284, rfl⟩
abbrev main_call17_v12 : Ref sig .tc := ⟨.hbm, 285, rfl⟩
abbrev main_call17_cst_4 : Ref sig .tc := ⟨.hbm, 286, rfl⟩
abbrev main_call17_call0_v0 : Ref sig .tc := ⟨.hbm, 287, rfl⟩
abbrev main_call17_call0_v1 : Ref sig .tc := ⟨.hbm, 288, rfl⟩
abbrev main_v133 : Ref sig .tc := ⟨.hbm, 289, rfl⟩
abbrev main_v134 : Ref sig .tc := ⟨.hbm, 290, rfl⟩
abbrev main_v135 : Ref sig .tc := ⟨.hbm, 291, rfl⟩
abbrev main_v136 : Ref sig .tc := ⟨.hbm, 292, rfl⟩
abbrev main_v137 : Ref sig .tc := ⟨.hbm, 293, rfl⟩
abbrev main_v138 : Ref sig .tc := ⟨.hbm, 294, rfl⟩
abbrev main_v139 : Ref sig .tc := ⟨.hbm, 295, rfl⟩
abbrev main_cst_43 : Ref sig .tc := ⟨.hbm, 296, rfl⟩
abbrev main_v140 : Ref sig .tc := ⟨.hbm, 297, rfl⟩
abbrev main_v141 : Ref sig .tc := ⟨.hbm, 298, rfl⟩
abbrev main_v142 : Ref sig .tc := ⟨.hbm, 299, rfl⟩
abbrev main_v143 : Ref sig .tc := ⟨.hbm, 300, rfl⟩
abbrev main_v144 : Ref sig .tc := ⟨.hbm, 301, rfl⟩
abbrev main_v145 : Ref sig .tc := ⟨.hbm, 302, rfl⟩
abbrev main_v146 : Ref sig .tc := ⟨.hbm, 303, rfl⟩
abbrev main_v147 : Ref sig .tc := ⟨.hbm, 304, rfl⟩
abbrev main_v148 : Ref sig .tc := ⟨.hbm, 305, rfl⟩
abbrev main_v149 : Ref sig .tc := ⟨.hbm, 306, rfl⟩
abbrev main_cst_44 : Ref sig .tc := ⟨.hbm, 307, rfl⟩
abbrev main_v150 : Ref sig .tc := ⟨.hbm, 308, rfl⟩
abbrev main_cst_45 : Ref sig .tc := ⟨.hbm, 309, rfl⟩
abbrev main_v151 : Ref sig .tc := ⟨.hbm, 310, rfl⟩
abbrev main_cst_46 : Ref sig .tc := ⟨.hbm, 311, rfl⟩
abbrev main_v152 : Ref sig .tc := ⟨.hbm, 312, rfl⟩
abbrev main_v153 : Ref sig .tc := ⟨.hbm, 313, rfl⟩
abbrev main_v154 : Ref sig .tc := ⟨.hbm, 314, rfl⟩
abbrev main_v155 : Ref sig .tc := ⟨.hbm, 315, rfl⟩
abbrev main_c_47 : Ref sig .tc := ⟨.hbm, 316, rfl⟩
abbrev main_c_48 : Ref sig .tc := ⟨.hbm, 317, rfl⟩
abbrev main_call19_v0 : Ref sig .tc := ⟨.hbm, 318, rfl⟩
abbrev main_call19_v1 : Ref sig .tc := ⟨.hbm, 319, rfl⟩
abbrev main_call19_v2 : Ref sig .tc := ⟨.hbm, 320, rfl⟩
abbrev main_call19_v3 : Ref sig .tc := ⟨.hbm, 321, rfl⟩
abbrev main_call19_v4 : Ref sig .tc := ⟨.hbm, 322, rfl⟩
abbrev main_v156 : Ref sig .tc := ⟨.hbm, 323, rfl⟩
abbrev main_v157 : Ref sig .tc := ⟨.hbm, 324, rfl⟩
abbrev main_v158 : Ref sig .tc := ⟨.hbm, 325, rfl⟩
abbrev main_v159 : Ref sig .tc := ⟨.hbm, 326, rfl⟩
abbrev main_v160 : Ref sig .tc := ⟨.hbm, 327, rfl⟩
abbrev main_v161 : Ref sig .tc := ⟨.hbm, 328, rfl⟩
abbrev main_v162 : Ref sig .tc := ⟨.hbm, 329, rfl⟩
abbrev main_cst_49 : Ref sig .tc := ⟨.hbm, 330, rfl⟩
abbrev main_v163 : Ref sig .tc := ⟨.hbm, 331, rfl⟩
abbrev main_v164 : Ref sig .tc := ⟨.hbm, 332, rfl⟩
abbrev main_cst_50 : Ref sig .tc := ⟨.hbm, 333, rfl⟩
abbrev main_v165 : Ref sig .tc := ⟨.hbm, 334, rfl⟩
abbrev main_v166 : Ref sig .tc := ⟨.hbm, 335, rfl⟩
abbrev main_v167 : Ref sig .tc := ⟨.hbm, 336, rfl⟩
abbrev main_cst_51 : Ref sig .tc := ⟨.hbm, 337, rfl⟩
abbrev main_v168 : Ref sig .tc := ⟨.hbm, 338, rfl⟩
abbrev main_cst_52 : Ref sig .tc := ⟨.hbm, 339, rfl⟩
abbrev main_v169 : Ref sig .tc := ⟨.hbm, 340, rfl⟩
abbrev main_cst_53 : Ref sig .tc := ⟨.hbm, 341, rfl⟩
abbrev main_v170 : Ref sig .tc := ⟨.hbm, 342, rfl⟩
abbrev main_v171 : Ref sig .tc := ⟨.hbm, 343, rfl⟩
abbrev main_v172 : Ref sig .tc := ⟨.hbm, 344, rfl⟩
abbrev main_v173 : Ref sig .tc := ⟨.hbm, 345, rfl⟩
abbrev main_c_54 : Ref sig .tc := ⟨.hbm, 346, rfl⟩
abbrev main_c_55 : Ref sig .tc := ⟨.hbm, 347, rfl⟩
abbrev main_call21_v0 : Ref sig .tc := ⟨.hbm, 348, rfl⟩
abbrev main_call21_v1 : Ref sig .tc := ⟨.hbm, 349, rfl⟩
abbrev main_call21_v2 : Ref sig .tc := ⟨.hbm, 350, rfl⟩
abbrev main_call21_v3 : Ref sig .tc := ⟨.hbm, 351, rfl⟩
abbrev main_call21_v4 : Ref sig .tc := ⟨.hbm, 352, rfl⟩
abbrev main_v174 : Ref sig .tc := ⟨.hbm, 353, rfl⟩
abbrev main_v175 : Ref sig .tc := ⟨.hbm, 354, rfl⟩
abbrev main_v176 : Ref sig .tc := ⟨.hbm, 355, rfl⟩
abbrev main_v177 : Ref sig .tc := ⟨.hbm, 356, rfl⟩
abbrev main_v178 : Ref sig .tc := ⟨.hbm, 357, rfl⟩

abbrev nD : Nat := 1
abbrev τ : Topo := Topo.v7x

variable {F : FTy → Type} [FloatOps F]

class Facts₀ : Prop where
  reducesTo_S65536x784_S_d0_1 : S65536x784.ReducesTo [0, 1] S_
  h_S_ : 0 < S_.numel
  bcast_S_S65536x784 : S_.BroadcastsInDim S65536x784 (![] : Fin 0 → Fin S65536x784.rank)
  bcast_S_S128x784 : S_.BroadcastsInDim S128x784 (![] : Fin 0 → Fin S128x784.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S128_d0 : S65536x128.ReducesTo [0] S128
  bcast_S_S128 : S_.BroadcastsInDim S128 (![] : Fin 0 → Fin S128.rank)
  bcast_S_S1x128 : S_.BroadcastsInDim S1x128 (![] : Fin 0 → Fin S1x128.rank)
  reducesTo_S65536x128_S_d0_1 : S65536x128.ReducesTo [0, 1] S_
  bcast_S_S65536x128 : S_.BroadcastsInDim S65536x128 (![] : Fin 0 → Fin S65536x128.rank)
  bcast_S_S128x128 : S_.BroadcastsInDim S128x128 (![] : Fin 0 → Fin S128x128.rank)
  bcast_S_S10x128 : S_.BroadcastsInDim S10x128 (![] : Fin 0 → Fin S10x128.rank)
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S10_d0 : S65536x10.ReducesTo [0] S10
  bcast_S_S10 : S_.BroadcastsInDim S10 (![] : Fin 0 → Fin S10.rank)
  bcast_S_S1x10 : S_.BroadcastsInDim S1x10 (![] : Fin 0 → Fin S1x10.rank)
  reducesTo_S65536x10_S_d0_1 : S65536x10.ReducesTo [0, 1] S_
  bcast_S_S65536x10 : S_.BroadcastsInDim S65536x10 (![] : Fin 0 → Fin S65536x10.rank)
  dot_S65536x784_S128x784_S65536x128_1_1_0_0_n_n_wf : DotDims.WF S65536x784 S128x784 S65536x128 [1] [1] [0] [0] [] []
  dot_S65536x128_S128x128_S65536x128_1_1_0_0_n_n_wf : DotDims.WF S65536x128 S128x128 S65536x128 [1] [1] [0] [0] [] []
  dot_S65536x128_S10x128_S65536x10_1_1_0_0_n_n_wf : DotDims.WF S65536x128 S10x128 S65536x10 [1] [1] [0] [0] [] []

variable [Facts₀]

def dot_S65536x784_S128x784_S65536x128_1_1_0_0_n_n : DotDims S65536x784 S128x784 S65536x128 where
  lhsContracting := [1]
  rhsContracting := [1]
  lhsNonContracting := [0]
  rhsNonContracting := [0]
  lhsBatch := []
  rhsBatch := []
  wf := dot_S65536x784_S128x784_S65536x128_1_1_0_0_n_n_wf
def dot_S65536x128_S128x128_S65536x128_1_1_0_0_n_n : DotDims S65536x128 S128x128 S65536x128 where
  lhsContracting := [1]
  rhsContracting := [1]
  lhsNonContracting := [0]
  rhsNonContracting := [0]
  lhsBatch := []
  rhsBatch := []
  wf := dot_S65536x128_S128x128_S65536x128_1_1_0_0_n_n_wf
def dot_S65536x128_S10x128_S65536x10_1_1_0_0_n_n : DotDims S65536x128 S10x128 S65536x10 where
  lhsContracting := [1]
  rhsContracting := [1]
  lhsNonContracting := [0]
  rhsNonContracting := [0]
  lhsBatch := []
  rhsBatch := []
  wf := dot_S65536x128_S10x128_S65536x10_1_1_0_0_n_n_wf

class Facts : Prop extends Facts₀ where

variable [Facts]
-- ==== Proof.KernelRun.lean ====
/-
  The idealized kernel's run with its final memory named: every weakly fair execution ends, nothing faulting, with each
  buffer that is not scoped to a region holding the last boundary's contents, the fold of the fourteen regions'
  write-backs and the host operations between them from the launch memory.
-/
import proofs.«131146_j57208964383148_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h => h)

/-- A TensorCore buffer that no region scopes, read off the final memory. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W33 m ρ c (Proc.devRef .tc b)) :=
  (θ_run defs _ _).mono (fun r h c b hb => h c _ (mem_uc b hb)) (run_all m ρ)

end Cert.KernelIdeal.RunAll

end
-- ==== Proof.Net.lean ====
/-
  The network both programs compute, written once over the extended reals.

  A tensor is a function of its coordinates.  One layer is: a product with the SIGNS of a weight matrix plus a bias;
  a per-column normalisation by the batch mean and variance; a symmetric 8-bit quantisation whose step is the largest
  magnitude of the tensor (floored at a tiny positive number) over 127; an activation; the same quantisation again.
  The whole map is: quantise the input, then three layers (rectifier, rectifier, logistic).

  Two spellings of every stage are given.  The FOLDED spelling is how a streaming implementation computes it: the
  largest magnitude is a running maximum started at zero, the variance is the mean square minus the squared mean,
  the normalisation is one multiply-add with precomputed per-column scale and shift, and a quantised value is used as
  it is.  The PLAIN spelling is the textbook one: the largest magnitude is the supremum, the variance is the mean of
  squared deviations, the normalisation subtracts the mean first, and a quantised value q of x is spelt x + (q - x),
  a weight sign s of w as w + (s - w).  On finite data the two spellings agree; that is proved elsewhere.
  Float literals are kept as the words the programs spell.
-/
import Idealize.ShloMosaic.PureOps.Ideal
import Mathlib.Data.EReal.Basic
import Mathlib.Algebra.BigOperators.Group.Finset.Basic

noncomputable section

namespace Cert.Net

open Idealize.ShloMosaic

/-- A 32-bit float word read exactly. -/
abbrev lit (w : BitVec 32) : EReal := Ideal.ofBits .f32 w

abbrev zero : EReal := lit 0x00000000#32     -- 0
abbrev one : EReal := lit 0x3F800000#32      -- 1
abbrev mone : EReal := lit 0xBF800000#32     -- -1
abbrev lo : EReal := lit 0xC3000000#32       -- -128
abbrev hi : EReal := lit 0x42FE0000#32       -- 127
abbrev tiny : EReal := lit 0x322BCC77#32     -- the floor of a quantisation step's numerator, about 1e-8
abbrev eps : EReal := lit 0x3727C5AC#32      -- the variance's regulariser, about 1e-5
abbrev cnt : EReal := lit 0x47800000#32      -- 65536, the number of rows
abbrev ninf : EReal := lit 0xFF800000#32     -- -∞

/-! ## Scalars -/

/-- The magnitude. -/
def mag (x : EReal) : EReal := max x (-x)
/-- Rounding to the nearest integer, ties to even. -/
def rnd (x : EReal) : EReal := Ideal.liftRound Ideal.roundHalfEven x
/-- The quantisation step from the largest magnitude `M`. -/
def step (M : EReal) : EReal := Ideal.div (max M tiny) hi
/-- Symmetric 8-bit quantisation of `x` with step `s`, the lower bound spelt `l` and the upper bound `h`. -/
def quantWith (l h s x : EReal) : EReal := min h (max l (rnd (Ideal.div x s))) * s
/-- The same with the bounds as float words. -/
def quant (s x : EReal) : EReal := quantWith lo hi s x
/-- The rectifier. -/
def relu (x : EReal) : EReal := max x zero
/-- The sign of a weight, as a float: 1 on the non-negative, -1 otherwise. -/
def sgn (w : EReal) : EReal := if zero ≤ w then one else mone

/-! ## Stages on matrices (rows `Fin B`, columns `Fin D` or `Fin H`) -/

variable {B D H : ℕ}

/-- The largest magnitude of a matrix (-∞ for an empty one). -/
def supMag (x : Fin B → Fin D → EReal) : EReal := Finset.univ.sup fun r => Finset.univ.sup fun c => mag (x r c)
/-- The running maximum started at zero. -/
def runMax (x : Fin B → Fin D → EReal) : EReal := max zero (supMag x)
/-- Quantisation of every entry. -/
def quantAll (s : EReal) (x : Fin B → Fin D → EReal) : Fin B → Fin D → EReal := fun r c => quant s (x r c)
/-- `x · w + b` with `w` input-major (`D` rows, `H` columns). -/
def dense (x : Fin B → Fin D → EReal) (w : Fin D → Fin H → EReal) (b : Fin H → EReal) : Fin B → Fin H → EReal :=
  fun r c => (∑ k, x r k * w k c) + b c
/-- The column sums. -/
def colSum (y : Fin B → Fin H → EReal) : Fin H → EReal := fun c => ∑ r, y r c
/-- The column sums of squares. -/
def colSumSq (y : Fin B → Fin H → EReal) : Fin H → EReal := fun c => ∑ r, y r c * y r c

/-! ### The folded normalisation: scale and shift from the two column sums -/

def meanF (s : Fin H → EReal) : Fin H → EReal := fun c => Ideal.div (s c) cnt
def varF (s ss : Fin H → EReal) : Fin H → EReal := fun c => Ideal.div (ss c) cnt - meanF s c * meanF s c
def invF (s ss : Fin H → EReal) : Fin H → EReal := fun c => Ideal.rsqrt (varF s ss c + eps)
def scaleF (g s ss : Fin H → EReal) : Fin H → EReal := fun c => g c * invF s ss c
def shiftF (g be s ss : Fin H → EReal) : Fin H → EReal := fun c => be c - meanF s c * g c * invF s ss c
/-- The multiply-add with a per-column scale and shift. -/
def affine (y : Fin B → Fin H → EReal) (a b : Fin H → EReal) : Fin B → Fin H → EReal := fun r c => y r c * a c + b c

/-- One layer, folded: `w` is the INPUT-MAJOR matrix of weight signs, `act` the activation. -/
def layerF (act : EReal → EReal) (x : Fin B → Fin D → EReal) (w : Fin D → Fin H → EReal) (b g be : Fin H → EReal) :
    Fin B → Fin H → EReal :=
  let y := dense x w b
  let s := colSum y
  let ss := colSumSq y
  let n := affine y (scaleF g s ss) (shiftF g be s ss)
  let a : Fin B → Fin H → EReal := fun r c => act (quant (step (runMax n)) (n r c))
  quantAll (step (runMax a)) a

/-- The input-major matrix of weight signs of an output-major weight matrix. -/
def signsT (W : Fin H → Fin D → EReal) : Fin D → Fin H → EReal := fun k c => sgn (W c k)

/-- The whole map, folded: the three results (first layer, second layer, third layer). -/
def netF {D1 H1 H2 H3 : ℕ} (x : Fin B → Fin D1 → EReal)
    (W1 : Fin H1 → Fin D1 → EReal) (b1 g1 be1 : Fin H1 → EReal)
    (W2 : Fin H2 → Fin H1 → EReal) (b2 g2 be2 : Fin H2 → EReal)
    (W3 : Fin H3 → Fin H2 → EReal) (b3 g3 be3 : Fin H3 → EReal) :
    (Fin B → Fin H1 → EReal) × (Fin B → Fin H2 → EReal) × (Fin B → Fin H3 → EReal) :=
  let x0 := quantAll (step (runMax x)) x
  let h1 := layerF relu x0 (signsT W1) b1 g1 be1
  let h2 := layerF relu h1 (signsT W2) b2 g2 be2
  let h3 := layerF Ideal.logistic h2 (signsT W3) b3 g3 be3
  (h1, h2, h3)

end Cert.Net

end
-- ==== Proof.Region1.lean ====
/-
  Region 1: every entry of the matrix is quantised with one step.

  The region walks the 65536 rows in 64 blocks of 1024 rows.  At each block it divides every entry by the step
  (a one-entry array), rounds to the nearest integer with ties to even, clamps to [-128, 127] and multiplies by the
  step again.  Row R of the matrix lies in block R / 1024, at row R % 1024 of that block, and no block is written
  twice, so after the last block the output holds the quantisation of every entry of the input as the region found it.
-/
import proofs.«131146_j57208964383148_1_alg».proof.Proof.Gen.KernelIdeal.Frame
import proofs.«131146_j57208964383148_1_alg».proof.Proof.Net
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem zero_offsets1 : (![0, 0] : Fin 2 → Nat) = fun _ => 0 := funext fun a => by fin_cases a <;> rfl

/-- A one-entry array spread over a matrix reads its one entry everywhere. -/
theorem spread_one1 {n0 n1 : Nat} (s : Vec Ideal S1x1 .f32) (h : S1x1.Broadcasts ⟨2, ![n0, n1]⟩) (r : Fin n0) (k : Fin n1) :
    broadcastTo ⟨2, ![n0, n1]⟩ s h (ix2 r k) = s (ix2 0 0) :=
  broadcastTo_apply s h (ix2 r k) (ix2 0 0) (fun a => by match a with | ⟨0, _⟩ => rfl | ⟨1, _⟩ => rfl)

/-- The body's arithmetic at one entry of a block: the quantisation of that entry with the step. -/
theorem body1_apply (s : Vec Ideal S1x1 .f32) (x : Vec Ideal S1024x784 .f32) (r : Fin 1024) (k : Fin 784) :
    k1_pay1 s x (ix2 r k) = Net.quant (s (ix2 0 0)) (x (ix2 r k)) := by
  have hb : broadcastTo S1024x784 (shapeCast S1x1 s shapeCasts_S1x1_S1x1) broadcasts_S1x1_S1024x784 (ix2 r k) = s (ix2 0 0) := by
    rw [shapeCast_self]; exact spread_one1 s _ r k
  show Net.quant (broadcastTo S1024x784 (shapeCast S1x1 s shapeCasts_S1x1_S1x1) broadcasts_S1x1_S1024x784 (ix2 r k)) (x (ix2 r k)) = _
  exact congrArg (fun b => Net.quant b (x (ix2 r k))) hb

/-- Where the blocks sit: at point t the matrix windows are at block row t, block column 0; the step's window does not move. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, k) of the input's block at point t is entry (1024 t + r, k) of the input. -/
theorem in_block1 (c : Dev nD) (t : Fin cfg1.N) (r : Fin 1024) (k : Fin 784) (R : Fin 65536) (hR : R.val = 1024 * t.val + r.val) :
    (iblk1 V c 0 t : Vec Ideal S1024x784 .f32) (ix2 r k)
      = (V c (Pipeline.arrRef spec1 0) : S65536x784.Idx → EReal) (ix2 R k) := by
  obtain ⟨e0, e1, -, -, -, -⟩ := block_index1 t
  unfold iblk1
  rw [View.read_apply]
  refine congrArg (V c (Pipeline.arrRef spec1 0) : S65536x784.Idx → EReal) ?_
  funext a
  apply Fin.ext
  match a with
  | ⟨0, _⟩ => show win1_0.index t (0 : Fin 2) * 1024 + 1 * r.val = R.val; rw [e0, hR]; omega
  | ⟨1, _⟩ => show win1_0.index t (1 : Fin 2) * 784 + 1 * k.val = k.val; rw [e1]; omega

/-- The step's block at any point is the step's one entry. -/
theorem step_block1 (c : Dev nD) (t : Fin cfg1.N) :
    (iblk1 V c 1 t : Vec Ideal S1x1 .f32) (ix2 0 0)
      = (V c (Pipeline.arrRef spec1 1) : S1x1.Idx → EReal) (ix2 0 0) := by
  obtain ⟨-, -, e2, e3, -, -⟩ := block_index1 t
  unfold iblk1
  rw [View.read_apply]
  refine congrArg (V c (Pipeline.arrRef spec1 1) : S1x1.Idx → EReal) ?_
  funext a
  apply Fin.ext
  match a with
  | ⟨0, _⟩ => show win1_1.index t (0 : Fin 2) * 1 + 1 * 0 = 0; rw [e2]
  | ⟨1, _⟩ => show win1_1.index t (1 : Fin 2) * 1 + 1 * 0 = 0; rw [e3]

/-- The whole output: the quantisation, with the step the region found, of every entry of the input it found. -/
abbrev quantised1 (c : Dev nD) : S65536x784.Idx → EReal := fun i =>
  Net.quant ((V c (Pipeline.arrRef spec1 1) : S1x1.Idx → EReal) (ix2 0 0))
    ((V c (Pipeline.arrRef spec1 0) : S65536x784.Idx → EReal) i)

/-- What point t writes back is block t of that matrix. -/
theorem written1 (c : Dev nD) (t : Fin cfg1.N) :
    (dat1 (F := Ideal) V c).flushed 2 t = ((cfg1.win 2).blk t).view.read (Elt Ideal) (quantised1 V c) := by
  show (cfg1.win 2).cut (grid1.coords t) ((dat1 V c).after 2 t) = _
  rw [after1_2]
  unfold out1_2
  rw [View.canon_unit_zero zero_offsets1]
  simp only [View.ld_unit_zero (S := S1024x784) zero_offsets1, View.ld_unit_zero (S := S1x1) zero_offsets1]
  obtain ⟨-, -, -, -, e4, e5⟩ := block_index1 t
  funext j
  obtain ⟨r, k, rfl⟩ : ∃ (r : Fin 1024) (k : Fin 784), j = ix2 r k := ⟨j 0, j 1, eq_ix2 j⟩
  have hN : t.val < 64 := lt_of_lt_of_eq t.isLt (show cfg1.N = 64 from N_1)
  have hr : r.val < 1024 := r.isLt
  have hemb : ((cfg1.win 2).blk t).view.emb (ix2 r k)
      = (ix2 (⟨1024 * t.val + r.val, by omega⟩ : Fin 65536) k : S65536x784.Idx) := by
    funext a
    apply Fin.ext
    match a with
    | ⟨0, _⟩ => show win1_2.index t (0 : Fin 2) * 1024 + 1 * r.val = 1024 * t.val + r.val; rw [e4]; omega
    | ⟨1, _⟩ => show win1_2.index t (1 : Fin 2) * 784 + 1 * k.val = k.val; rw [e5]; omega
  show k1_pay1 (iblk1 V c 1 t) (iblk1 V c 0 t) (ix2 r k) = quantised1 V c (((cfg1.win 2).blk t).view.emb (ix2 r k))
  rw [hemb]
  refine (body1_apply (iblk1 V c 1 t) (iblk1 V c 0 t) r k).trans ?_
  rw [step_block1 V c t, in_block1 V c t r k ⟨1024 * t.val + r.val, by omega⟩ rfl]

/-- An entry is in point t's block when its row is among the block's 1024 rows. -/
theorem in_written1 (t : Fin cfg1.N) (i : S65536x784.Idx) :
    i ∈ ((cfg1.win 2).blk t).view.set ↔ ∀ a : Fin 2, win1_2.index t a * S1024x784.size a ≤ (i a).val ∧ (i a).val < win1_2.index t a * S1024x784.size a + S1024x784.size a := by
  show i ∈ ((View.whole main_v5).slice (win1_2.rect t)).set ↔ _
  rw [View.set_slice_whole, Rect.mem_set_unit]
  exact Iff.rfl

/-- Every entry is written by the point of its row's block. -/
theorem all_written1 (i : S65536x784.Idx) :
    ∃ t : Fin cfg1.N, (cfg1.win 2).flush t = true ∧ i ∈ ((cfg1.win 2).blk t).view.set := by
  have hi0 : (i 0).val < 65536 := (i 0).isLt
  have hi1 : (i 1).val < 784 := (i 1).isLt
  have hN : cfg1.N = 64 := N_1
  have ht : (i 0).val / 1024 < cfg1.N := by rw [hN]; omega
  obtain ⟨-, -, -, -, e4, e5⟩ := block_index1 ⟨(i 0).val / 1024, ht⟩
  refine ⟨⟨(i 0).val / 1024, ht⟩, flush1_2 _, ?_⟩
  rw [in_written1]
  intro a
  match a with
  | ⟨0, _⟩ =>
    show win1_2.index ⟨(i 0).val / 1024, ht⟩ (0 : Fin 2) * 1024 ≤ (i 0).val ∧ (i 0).val < win1_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win1_2.index ⟨(i 0).val / 1024, ht⟩ (1 : Fin 2) * 784 ≤ (i 1).val ∧ (i 1).val < win1_2.index ⟨(i 0).val / 1024, ht⟩ (1 : Fin 2) * 784 + 784
    rw [e5]; omega

/-- After the region the output array is the quantised matrix. -/
theorem final1_2_all (c : Dev nD) : (dat1 (F := Ideal) V c).arrAt 2 cfg1.N = quantised1 V c :=
  (dat1 (F := Ideal) V c).arrAt_eq_of_cover 2 (quantised1 V c) (fun t _ => written1 V c t) (all_written1)

/-- The same, entry by entry. -/
theorem final1_2 (c : Dev nD) (r : Fin 65536) (k : Fin 784) :
    ((dat1 (F := Ideal) V c).arrAt 2 cfg1.N : S65536x784.Idx → EReal) (ix2 r k)
      = Net.quant ((V c (Pipeline.arrRef spec1 1) : S1x1.Idx → EReal) (ix2 0 0))
          ((V c (Pipeline.arrRef spec1 0) : S65536x784.Idx → EReal) (ix2 r k)) :=
  congrFun (final1_2_all V c) (ix2 r k)

end Cert.KernelIdeal.RegionValue

end
-- ==== Proof.Region5.lean ====
/-
  Region 5: every entry of the matrix is quantised with one step.

  The region walks the 65536 rows in 32 blocks of 2048 rows.  At each block it divides every entry by the step
  (a one-entry array), rounds to the nearest integer with ties to even, clamps to [-128, 127] and multiplies by the
  step again.  Row R of the matrix lies in block R / 2048, at row R % 2048 of that block, and no block is written
  twice, so after the last block the output holds the quantisation of every entry of the input as the region found it.
-/
import proofs.«131146_j57208964383148_1_alg».proof.Proof.Gen.KernelIdeal.Frame
import proofs.«131146_j57208964383148_1_alg».proof.Proof.Net
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem zero_offsets5 : (![0, 0] : Fin 2 → Nat) = fun _ => 0 := funext fun a => by fin_cases a <;> rfl

/-- A one-entry array spread over a matrix reads its one entry everywhere. -/
theorem spread_one5 {n0 n1 : Nat} (s : Vec Ideal S1x1 .f32) (h : S1x1.Broadcasts ⟨2, ![n0, n1]⟩) (r : Fin n0) (k : Fin n1) :
    broadcastTo ⟨2, ![n0, n1]⟩ s h (ix2 r k) = s (ix2 0 0) :=
  broadcastTo_apply s h (ix2 r k) (ix2 0 0) (fun a => by match a with | ⟨0, _⟩ => rfl | ⟨1, _⟩ => rfl)

/-- The body's arithmetic at one entry of a block: the quantisation of that entry with the step. -/
theorem body5_apply (s : Vec Ideal S1x1 .f32) (x : Vec Ideal S2048x128 .f32) (r : Fin 2048) (k : Fin 128) :
    k5_pay1 s x (ix2 r k) = Net.quant (s (ix2 0 0)) (x (ix2 r k)) := by
  have hb : broadcastTo S2048x128 (shapeCast S1x1 s shapeCasts_S1x1_S1x1) broadcasts_S1x1_S2048x128 (ix2 r k) = s (ix2 0 0) := by
    rw [shapeCast_self]; exact spread_one5 s _ r k
  have hx : shapeCast S2048x128 x shapeCasts_S2048x128_S2048x128 (ix2 r k) = x (ix2 r k) :=
    congrFun (shapeCast_self x _) _
  show Net.quant (broadcastTo S2048x128 (shapeCast S1x1 s shapeCasts_S1x1_S1x1) broadcasts_S1x1_S2048x128 (ix2 r k))
      (shapeCast S2048x128 x shapeCasts_S2048x128_S2048x128 (ix2 r k)) = _
  rw [hb, hx]

/-- Where the blocks sit: at point t the matrix windows are at block row t, block column 0; the step's window does not move. -/
theorem block_index5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (r, k) of the input's block at point t is entry (2048 t + r, k) of the input. -/
theorem in_block5 (c : Dev nD) (t : Fin cfg5.N) (r : Fin 2048) (k : Fin 128) (R : Fin 65536) (hR : R.val = 2048 * t.val + r.val) :
    (iblk5 V c 0 t : Vec Ideal S2048x128 .f32) (ix2 r k)
      = (V c (Pipeline.arrRef spec5 0) : S65536x128.Idx → EReal) (ix2 R k) := by
  obtain ⟨e0, e1, -, -, -, -⟩ := block_index5 t
  unfold iblk5
  rw [View.read_apply]
  refine congrArg (V c (Pipeline.arrRef spec5 0) : S65536x128.Idx → EReal) ?_
  funext a
  apply Fin.ext
  match a with
  | ⟨0, _⟩ => show win5_0.index t (0 : Fin 2) * 2048 + 1 * r.val = R.val; rw [e0, hR]; omega
  | ⟨1, _⟩ => show win5_0.index t (1 : Fin 2) * 128 + 1 * k.val = k.val; rw [e1]; omega

/-- The step's block at any point is the step's one entry. -/
theorem step_block5 (c : Dev nD) (t : Fin cfg5.N) :
    (iblk5 V c 1 t : Vec Ideal S1x1 .f32) (ix2 0 0)
      = (V c (Pipeline.arrRef spec5 1) : S1x1.Idx → EReal) (ix2 0 0) := by
  obtain ⟨-, -, e2, e3, -, -⟩ := block_index5 t
  unfold iblk5
  rw [View.read_apply]
  refine congrArg (V c (Pipeline.arrRef spec5 1) : S1x1.Idx → EReal) ?_
  funext a
  apply Fin.ext
  match a with
  | ⟨0, _⟩ => show win5_1.index t (0 : Fin 2) * 1 + 1 * 0 = 0; rw [e2]
  | ⟨1, _⟩ => show win5_1.index t (1 : Fin 2) * 1 + 1 * 0 = 0; rw [e3]

/-- The whole output: the quantisation, with the step the region found, of every entry of the input it found. -/
abbrev quantised5 (c : Dev nD) : S65536x128.Idx → EReal := fun i =>
  Net.quant ((V c (Pipeline.arrRef spec5 1) : S1x1.Idx → EReal) (ix2 0 0))
    ((V c (Pipeline.arrRef spec5 0) : S65536x128.Idx → EReal) i)

/-- What point t writes back is block t of that matrix. -/
theorem written5 (c : Dev nD) (t : Fin cfg5.N) :
    (dat5 (F := Ideal) V c).flushed 2 t = ((cfg5.win 2).blk t).view.read (Elt Ideal) (quantised5 V c) := by
  show (cfg5.win 2).cut (grid5.coords t) ((dat5 V c).after 2 t) = _
  rw [after5_2]
  unfold out5_2
  rw [View.canon_unit_zero zero_offsets5]
  simp only [View.ld_unit_zero (S := S2048x128) zero_offsets5, View.ld_unit_zero (S := S1x1) zero_offsets5]
  obtain ⟨-, -, -, -, e4, e5⟩ := block_index5 t
  funext j
  obtain ⟨r, k, rfl⟩ : ∃ (r : Fin 2048) (k : Fin 128), j = ix2 r k := ⟨j 0, j 1, eq_ix2 j⟩
  have hN : t.val < 32 := lt_of_lt_of_eq t.isLt (show cfg5.N = 32 from N_5)
  have hr : r.val < 2048 := r.isLt
  have hemb : ((cfg5.win 2).blk t).view.emb (ix2 r k)
      = (ix2 (⟨2048 * t.val + r.val, by omega⟩ : Fin 65536) k : S65536x128.Idx) := by
    funext a
    apply Fin.ext
    match a with
    | ⟨0, _⟩ => show win5_2.index t (0 : Fin 2) * 2048 + 1 * r.val = 2048 * t.val + r.val; rw [e4]; omega
    | ⟨1, _⟩ => show win5_2.index t (1 : Fin 2) * 128 + 1 * k.val = k.val; rw [e5]; omega
  show k5_pay1 (iblk5 V c 1 t) (iblk5 V c 0 t) (ix2 r k) = quantised5 V c (((cfg5.win 2).blk t).view.emb (ix2 r k))
  rw [hemb]
  refine (body5_apply (iblk5 V c 1 t) (iblk5 V c 0 t) r k).trans ?_
  rw [step_block5 V c t, in_block5 V c t r k ⟨2048 * t.val + r.val, by omega⟩ rfl]

/-- An entry is in point t's block when its row is among the block's 2048 rows. -/
theorem in_written5 (t : Fin cfg5.N) (i : S65536x128.Idx) :
    i ∈ ((cfg5.win 2).blk t).view.set ↔ ∀ a : Fin 2, win5_2.index t a * S2048x128.size a ≤ (i a).val ∧ (i a).val < win5_2.index t a * S2048x128.size a + S2048x128.size a := by
  show i ∈ ((View.whole main_v39).slice (win5_2.rect t)).set ↔ _
  rw [View.set_slice_whole, Rect.mem_set_unit]
  exact Iff.rfl

/-- Every entry is written by the point of its row's block. -/
theorem all_written5 (i : S65536x128.Idx) :
    ∃ t : Fin cfg5.N, (cfg5.win 2).flush t = true ∧ i ∈ ((cfg5.win 2).blk t).view.set := by
  have hi0 : (i 0).val < 65536 := (i 0).isLt
  have hi1 : (i 1).val < 128 := (i 1).isLt
  have hN : cfg5.N = 32 := N_5
  have ht : (i 0).val / 2048 < cfg5.N := by rw [hN]; omega
  obtain ⟨-, -, -, -, e4, e5⟩ := block_index5 ⟨(i 0).val / 2048, ht⟩
  refine ⟨⟨(i 0).val / 2048, ht⟩, flush5_2 _, ?_⟩
  rw [in_written5]
  intro a
  match a with
  | ⟨0, _⟩ =>
    show win5_2.index ⟨(i 0).val / 2048, ht⟩ (0 : Fin 2) * 2048 ≤ (i 0).val ∧ (i 0).val < win5_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win5_2.index ⟨(i 0).val / 2048, ht⟩ (1 : Fin 2) * 128 ≤ (i 1).val ∧ (i 1).val < win5_2.index ⟨(i 0).val / 2048, ht⟩ (1 : Fin 2) * 128 + 128
    rw [e5]; omega

/-- After the region the output array is the quantised matrix. -/
theorem final5_2_all (c : Dev nD) : (dat5 (F := Ideal) V c).arrAt 2 cfg5.N = quantised5 V c :=
  (dat5 (F := Ideal) V c).arrAt_eq_of_cover 2 (quantised5 V c) (fun t _ => written5 V c t) (all_written5)

/-- The same, entry by entry. -/
theorem final5_2 (c : Dev nD) (r : Fin 65536) (k : Fin 128) :
    ((dat5 (F := Ideal) V c).arrAt 2 cfg5.N : S65536x128.Idx → EReal) (ix2 r k)
      = Net.quant ((V c (Pipeline.arrRef spec5 1) : S1x1.Idx → EReal) (ix2 0 0))
          ((V c (Pipeline.arrRef spec5 0) : S65536x128.Idx → EReal) (ix2 r k)) :=
  congrFun (final5_2_all V c) (ix2 r k)

end Cert.KernelIdeal.RegionValue

end
-- ==== Proof.Region9.lean ====
/-
  Region 9: every entry of the matrix is quantised with one step.

  The region walks the 65536 rows in 32 blocks of 2048 rows.  At each block it divides every entry by the step
  (a one-entry array), rounds to the nearest integer with ties to even, clamps to [-128, 127] and multiplies by the
  step again.  Row R of the matrix lies in block R / 2048, at row R % 2048 of that block, and no block is written
  twice, so after the last block the output holds the quantisation of every entry of the input as the region found it.
-/
import proofs.«131146_j57208964383148_1_alg».proof.Proof.Gen.KernelIdeal.Frame
import proofs.«131146_j57208964383148_1_alg».proof.Proof.Net
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem zero_offsets9 : (![0, 0] : Fin 2 → Nat) = fun _ => 0 := funext fun a => by fin_cases a <;> rfl

/-- A one-entry array spread over a matrix reads its one entry everywhere. -/
theorem spread_one9 {n0 n1 : Nat} (s : Vec Ideal S1x1 .f32) (h : S1x1.Broadcasts ⟨2, ![n0, n1]⟩) (r : Fin n0) (k : Fin n1) :
    broadcastTo ⟨2, ![n0, n1]⟩ s h (ix2 r k) = s (ix2 0 0) :=
  broadcastTo_apply s h (ix2 r k) (ix2 0 0) (fun a => by match a with | ⟨0, _⟩ => rfl | ⟨1, _⟩ => rfl)

/-- The body's arithmetic at one entry of a block: the quantisation of that entry with the step. -/
theorem body9_apply (s : Vec Ideal S1x1 .f32) (x : Vec Ideal S2048x128 .f32) (r : Fin 2048) (k : Fin 128) :
    k9_pay1 s x (ix2 r k) = Net.quant (s (ix2 0 0)) (x (ix2 r k)) := by
  have hb : broadcastTo S2048x128 (shapeCast S1x1 s shapeCasts_S1x1_S1x1) broadcasts_S1x1_S2048x128 (ix2 r k) = s (ix2 0 0) := by
    rw [shapeCast_self]; exact spread_one9 s _ r k
  have hx : shapeCast S2048x128 x shapeCasts_S2048x128_S2048x128 (ix2 r k) = x (ix2 r k) :=
    congrFun (shapeCast_self x _) _
  show Net.quant (broadcastTo S2048x128 (shapeCast S1x1 s shapeCasts_S1x1_S1x1) broadcasts_S1x1_S2048x128 (ix2 r k))
      (shapeCast S2048x128 x shapeCasts_S2048x128_S2048x128 (ix2 r k)) = _
  rw [hb, hx]

/-- Where the blocks sit: at point t the matrix windows are at block row t, block column 0; the step's window does not move. -/
theorem block_index9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- Entry (r, k) of the input's block at point t is entry (2048 t + r, k) of the input. -/
theorem in_block9 (c : Dev nD) (t : Fin cfg9.N) (r : Fin 2048) (k : Fin 128) (R : Fin 65536) (hR : R.val = 2048 * t.val + r.val) :
    (iblk9 V c 0 t : Vec Ideal S2048x128 .f32) (ix2 r k)
      = (V c (Pipeline.arrRef spec9 0) : S65536x128.Idx → EReal) (ix2 R k) := by
  obtain ⟨e0, e1, -, -, -, -⟩ := block_index9 t
  unfold iblk9
  rw [View.read_apply]
  refine congrArg (V c (Pipeline.arrRef spec9 0) : S65536x128.Idx → EReal) ?_
  funext a
  apply Fin.ext
  match a with
  | ⟨0, _⟩ => show win9_0.index t (0 : Fin 2) * 2048 + 1 * r.val = R.val; rw [e0, hR]; omega
  | ⟨1, _⟩ => show win9_0.index t (1 : Fin 2) * 128 + 1 * k.val = k.val; rw [e1]; omega

/-- The step's block at any point is the step's one entry. -/
theorem step_block9 (c : Dev nD) (t : Fin cfg9.N) :
    (iblk9 V c 1 t : Vec Ideal S1x1 .f32) (ix2 0 0)
      = (V c (Pipeline.arrRef spec9 1) : S1x1.Idx → EReal) (ix2 0 0) := by
  obtain ⟨-, -, e2, e3, -, -⟩ := block_index9 t
  unfold iblk9
  rw [View.read_apply]
  refine congrArg (V c (Pipeline.arrRef spec9 1) : S1x1.Idx → EReal) ?_
  funext a
  apply Fin.ext
  match a with
  | ⟨0, _⟩ => show win9_1.index t (0 : Fin 2) * 1 + 1 * 0 = 0; rw [e2]
  | ⟨1, _⟩ => show win9_1.index t (1 : Fin 2) * 1 + 1 * 0 = 0; rw [e3]

/-- The whole output: the quantisation, with the step the region found, of every entry of the input it found. -/
abbrev quantised9 (c : Dev nD) : S65536x128.Idx → EReal := fun i =>
  Net.quant ((V c (Pipeline.arrRef spec9 1) : S1x1.Idx → EReal) (ix2 0 0))
    ((V c (Pipeline.arrRef spec9 0) : S65536x128.Idx → EReal) i)

/-- What point t writes back is block t of that matrix. -/
theorem written9 (c : Dev nD) (t : Fin cfg9.N) :
    (dat9 (F := Ideal) V c).flushed 2 t = ((cfg9.win 2).blk t).view.read (Elt Ideal) (quantised9 V c) := by
  show (cfg9.win 2).cut (grid9.coords t) ((dat9 V c).after 2 t) = _
  rw [after9_2]
  unfold out9_2
  rw [View.canon_unit_zero zero_offsets9]
  simp only [View.ld_unit_zero (S := S2048x128) zero_offsets9, View.ld_unit_zero (S := S1x1) zero_offsets9]
  obtain ⟨-, -, -, -, e4, e5⟩ := block_index9 t
  funext j
  obtain ⟨r, k, rfl⟩ : ∃ (r : Fin 2048) (k : Fin 128), j = ix2 r k := ⟨j 0, j 1, eq_ix2 j⟩
  have hN : t.val < 32 := lt_of_lt_of_eq t.isLt (show cfg9.N = 32 from N_9)
  have hr : r.val < 2048 := r.isLt
  have hemb : ((cfg9.win 2).blk t).view.emb (ix2 r k)
      = (ix2 (⟨2048 * t.val + r.val, by omega⟩ : Fin 65536) k : S65536x128.Idx) := by
    funext a
    apply Fin.ext
    match a with
    | ⟨0, _⟩ => show win9_2.index t (0 : Fin 2) * 2048 + 1 * r.val = 2048 * t.val + r.val; rw [e4]; omega
    | ⟨1, _⟩ => show win9_2.index t (1 : Fin 2) * 128 + 1 * k.val = k.val; rw [e5]; omega
  show k9_pay1 (iblk9 V c 1 t) (iblk9 V c 0 t) (ix2 r k) = quantised9 V c (((cfg9.win 2).blk t).view.emb (ix2 r k))
  rw [hemb]
  refine (body9_apply (iblk9 V c 1 t) (iblk9 V c 0 t) r k).trans ?_
  rw [step_block9 V c t, in_block9 V c t r k ⟨2048 * t.val + r.val, by omega⟩ rfl]

/-- An entry is in point t's block when its row is among the block's 2048 rows. -/
theorem in_written9 (t : Fin cfg9.N) (i : S65536x128.Idx) :
    i ∈ ((cfg9.win 2).blk t).view.set ↔ ∀ a : Fin 2, win9_2.index t a * S2048x128.size a ≤ (i a).val ∧ (i a).val < win9_2.index t a * S2048x128.size a + S2048x128.size a := by
  show i ∈ ((View.whole main_v73).slice (win9_2.rect t)).set ↔ _
  rw [View.set_slice_whole, Rect.mem_set_unit]
  exact Iff.rfl

/-- Every entry is written by the point of its row's block. -/
theorem all_written9 (i : S65536x128.Idx) :
    ∃ t : Fin cfg9.N, (cfg9.win 2).flush t = true ∧ i ∈ ((cfg9.win 2).blk t).view.set := by
  have hi0 : (i 0).val < 65536 := (i 0).isLt
  have hi1 : (i 1).val < 128 := (i 1).isLt
  have hN : cfg9.N = 32 := N_9
  have ht : (i 0).val / 2048 < cfg9.N := by rw [hN]; omega
  obtain ⟨-, -, -, -, e4, e5⟩ := block_index9 ⟨(i 0).val / 2048, ht⟩
  refine ⟨⟨(i 0).val / 2048, ht⟩, flush9_2 _, ?_⟩
  rw [in_written9]
  intro a
  match a with
  | ⟨0, _⟩ =>
    show win9_2.index ⟨(i 0).val / 2048, ht⟩ (0 : Fin 2) * 2048 ≤ (i 0).val ∧ (i 0).val < win9_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win9_2.index ⟨(i 0).val / 2048, ht⟩ (1 : Fin 2) * 128 ≤ (i 1).val ∧ (i 1).val < win9_2.index ⟨(i 0).val / 2048, ht⟩ (1 : Fin 2) * 128 + 128
    rw [e5]; omega

/-- After the region the output array is the quantised matrix. -/
theorem final9_2_all (c : Dev nD) : (dat9 (F := Ideal) V c).arrAt 2 cfg9.N = quantised9 V c :=
  (dat9 (F := Ideal) V c).arrAt_eq_of_cover 2 (quantised9 V c) (fun t _ => written9 V c t) (all_written9)

/-- The same, entry by entry. -/
theorem final9_2 (c : Dev nD) (r : Fin 65536) (k : Fin 128) :
    ((dat9 (F := Ideal) V c).arrAt 2 cfg9.N : S65536x128.Idx → EReal) (ix2 r k)
      = Net.quant ((V c (Pipeline.arrRef spec9 1) : S1x1.Idx → EReal) (ix2 0 0))
          ((V c (Pipeline.arrRef spec9 0) : S65536x128.Idx → EReal) (ix2 r k)) :=
  congrFun (final9_2_all V c) (ix2 r k)

end Cert.KernelIdeal.RegionValue

end
-- ==== Proof.Region13.lean ====
/-
  Region 13: every entry of the matrix is quantised with one step.

  The region walks the 65536 rows in 32 blocks of 2048 rows.  At each block it divides every entry by the step
  (a one-entry array), rounds to the nearest integer with ties to even, clamps to [-128, 127] and multiplies by the
  step again.  Row R of the matrix lies in block R / 2048, at row R % 2048 of that block, and no block is written
  twice, so after the last block the output holds the quantisation of every entry of the input as the region found it.
-/
import proofs.«131146_j57208964383148_1_alg».proof.Proof.Gen.KernelIdeal.Frame
import proofs.«131146_j57208964383148_1_alg».proof.Proof.Net
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem zero_offsets13 : (![0, 0] : Fin 2 → Nat) = fun _ => 0 := funext fun a => by fin_cases a <;> rfl

/-- A one-entry array spread over a matrix reads its one entry everywhere. -/
theorem spread_one13 {n0 n1 : Nat} (s : Vec Ideal S1x1 .f32) (h : S1x1.Broadcasts ⟨2, ![n0, n1]⟩) (r : Fin n0) (k : Fin n1) :
    broadcastTo ⟨2, ![n0, n1]⟩ s h (ix2 r k) = s (ix2 0 0) :=
  broadcastTo_apply s h (ix2 r k) (ix2 0 0) (fun a => by match a with | ⟨0, _⟩ => rfl | ⟨1, _⟩ => rfl)

/-- The body's arithmetic at one entry of a block: the quantisation of that entry with the step. -/
theorem body13_apply (s : Vec Ideal S1x1 .f32) (x : Vec Ideal S2048x10 .f32) (r : Fin 2048) (k : Fin 10) :
    k13_pay1 s x (ix2 r k) = Net.quant (s (ix2 0 0)) (x (ix2 r k)) := by
  have hb : broadcastTo S2048x10 (shapeCast S1x1 s shapeCasts_S1x1_S1x1) broadcasts_S1x1_S2048x10 (ix2 r k) = s (ix2 0 0) := by
    rw [shapeCast_self]; exact spread_one13 s _ r k
  have hx : shapeCast S2048x10 x shapeCasts_S2048x10_S2048x10 (ix2 r k) = x (ix2 r k) :=
    congrFun (shapeCast_self x _) _
  show Net.quant (broadcastTo S2048x10 (shapeCast S1x1 s shapeCasts_S1x1_S1x1) broadcasts_S1x1_S2048x10 (ix2 r k))
      (shapeCast S2048x10 x shapeCasts_S2048x10_S2048x10 (ix2 r k)) = _
  rw [hb, hx]

/-- Where the blocks sit: at point t the matrix windows are at block row t, block column 0; the step's window does not move. -/
theorem block_index13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- Entry (r, k) of the input's block at point t is entry (2048 t + r, k) of the input. -/
theorem in_block13 (c : Dev nD) (t : Fin cfg13.N) (r : Fin 2048) (k : Fin 10) (R : Fin 65536) (hR : R.val = 2048 * t.val + r.val) :
    (iblk13 V c 0 t : Vec Ideal S2048x10 .f32) (ix2 r k)
      = (V c (Pipeline.arrRef spec13 0) : S65536x10.Idx → EReal) (ix2 R k) := by
  obtain ⟨e0, e1, -, -, -, -⟩ := block_index13 t
  unfold iblk13
  rw [View.read_apply]
  refine congrArg (V c (Pipeline.arrRef spec13 0) : S65536x10.Idx → EReal) ?_
  funext a
  apply Fin.ext
  match a with
  | ⟨0, _⟩ => show win13_0.index t (0 : Fin 2) * 2048 + 1 * r.val = R.val; rw [e0, hR]; omega
  | ⟨1, _⟩ => show win13_0.index t (1 : Fin 2) * 10 + 1 * k.val = k.val; rw [e1]; omega

/-- The step's block at any point is the step's one entry. -/
theorem step_block13 (c : Dev nD) (t : Fin cfg13.N) :
    (iblk13 V c 1 t : Vec Ideal S1x1 .f32) (ix2 0 0)
      = (V c (Pipeline.arrRef spec13 1) : S1x1.Idx → EReal) (ix2 0 0) := by
  obtain ⟨-, -, e2, e3, -, -⟩ := block_index13 t
  unfold iblk13
  rw [View.read_apply]
  refine congrArg (V c (Pipeline.arrRef spec13 1) : S1x1.Idx → EReal) ?_
  funext a
  apply Fin.ext
  match a with
  | ⟨0, _⟩ => show win13_1.index t (0 : Fin 2) * 1 + 1 * 0 = 0; rw [e2]
  | ⟨1, _⟩ => show win13_1.index t (1 : Fin 2) * 1 + 1 * 0 = 0; rw [e3]

/-- The whole output: the quantisation, with the step the region found, of every entry of the input it found. -/
abbrev quantised13 (c : Dev nD) : S65536x10.Idx → EReal := fun i =>
  Net.quant ((V c (Pipeline.arrRef spec13 1) : S1x1.Idx → EReal) (ix2 0 0))
    ((V c (Pipeline.arrRef spec13 0) : S65536x10.Idx → EReal) i)

/-- What point t writes back is block t of that matrix. -/
theorem written13 (c : Dev nD) (t : Fin cfg13.N) :
    (dat13 (F := Ideal) V c).flushed 2 t = ((cfg13.win 2).blk t).view.read (Elt Ideal) (quantised13 V c) := by
  show (cfg13.win 2).cut (grid13.coords t) ((dat13 V c).after 2 t) = _
  rw [after13_2]
  unfold out13_2
  rw [View.canon_unit_zero zero_offsets13]
  simp only [View.ld_unit_zero (S := S2048x10) zero_offsets13, View.ld_unit_zero (S := S1x1) zero_offsets13]
  obtain ⟨-, -, -, -, e4, e5⟩ := block_index13 t
  funext j
  obtain ⟨r, k, rfl⟩ : ∃ (r : Fin 2048) (k : Fin 10), j = ix2 r k := ⟨j 0, j 1, eq_ix2 j⟩
  have hN : t.val < 32 := lt_of_lt_of_eq t.isLt (show cfg13.N = 32 from N_13)
  have hr : r.val < 2048 := r.isLt
  have hemb : ((cfg13.win 2).blk t).view.emb (ix2 r k)
      = (ix2 (⟨2048 * t.val + r.val, by omega⟩ : Fin 65536) k : S65536x10.Idx) := by
    funext a
    apply Fin.ext
    match a with
    | ⟨0, _⟩ => show win13_2.index t (0 : Fin 2) * 2048 + 1 * r.val = 2048 * t.val + r.val; rw [e4]; omega
    | ⟨1, _⟩ => show win13_2.index t (1 : Fin 2) * 10 + 1 * k.val = k.val; rw [e5]; omega
  show k13_pay1 (iblk13 V c 1 t) (iblk13 V c 0 t) (ix2 r k) = quantised13 V c (((cfg13.win 2).blk t).view.emb (ix2 r k))
  rw [hemb]
  refine (body13_apply (iblk13 V c 1 t) (iblk13 V c 0 t) r k).trans ?_
  rw [step_block13 V c t, in_block13 V c t r k ⟨2048 * t.val + r.val, by omega⟩ rfl]

/-- An entry is in point t's block when its row is among the block's 2048 rows. -/
theorem in_written13 (t : Fin cfg13.N) (i : S65536x10.Idx) :
    i ∈ ((cfg13.win 2).blk t).view.set ↔ ∀ a : Fin 2, win13_2.index t a * S2048x10.size a ≤ (i a).val ∧ (i a).val < win13_2.index t a * S2048x10.size a + S2048x10.size a := by
  show i ∈ ((View.whole main_v107).slice (win13_2.rect t)).set ↔ _
  rw [View.set_slice_whole, Rect.mem_set_unit]
  exact Iff.rfl

/-- Every entry is written by the point of its row's block. -/
theorem all_written13 (i : S65536x10.Idx) :
    ∃ t : Fin cfg13.N, (cfg13.win 2).flush t = true ∧ i ∈ ((cfg13.win 2).blk t).view.set := by
  have hi0 : (i 0).val < 65536 := (i 0).isLt
  have hi1 : (i 1).val < 10 := (i 1).isLt
  have hN : cfg13.N = 32 := N_13
  have ht : (i 0).val / 2048 < cfg13.N := by rw [hN]; omega
  obtain ⟨-, -, -, -, e4, e5⟩ := block_index13 ⟨(i 0).val / 2048, ht⟩
  refine ⟨⟨(i 0).val / 2048, ht⟩, flush13_2 _, ?_⟩
  rw [in_written13]
  intro a
  match a with
  | ⟨0, _⟩ =>
    show win13_2.index ⟨(i 0).val / 2048, ht⟩ (0 : Fin 2) * 2048 ≤ (i 0).val ∧ (i 0).val < win13_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win13_2.index ⟨(i 0).val / 2048, ht⟩ (1 : Fin 2) * 10 ≤ (i 1).val ∧ (i 1).val < win13_2.index ⟨(i 0).val / 2048, ht⟩ (1 : Fin 2) * 10 + 10
    rw [e5]; omega

/-- After the region the output array is the quantised matrix. -/
theorem final13_2_all (c : Dev nD) : (dat13 (F := Ideal) V c).arrAt 2 cfg13.N = quantised13 V c :=
  (dat13 (F := Ideal) V c).arrAt_eq_of_cover 2 (quantised13 V c) (fun t _ => written13 V c t) (all_written13)

/-- The same, entry by entry. -/
theorem final13_2 (c : Dev nD) (r : Fin 65536) (k : Fin 10) :
    ((dat13 (F := Ideal) V c).arrAt 2 cfg13.N : S65536x10.Idx → EReal) (ix2 r k)
      = Net.quant ((V c (Pipeline.arrRef spec13 1) : S1x1.Idx → EReal) (ix2 0 0))
          ((V c (Pipeline.arrRef spec13 0) : S65536x10.Idx → EReal) (ix2 r k)) :=
  congrFun (final13_2_all V c) (ix2 r k)

end Cert.KernelIdeal.RegionValue

end
-- ==== Proof.HostStep.lean ====
/-
  The quantisation steps computed between the regions.

  Seven times the program takes a 1×1 buffer holding a largest magnitude M, takes the maximum of M and a tiny positive
  word, and divides by the word for 127: the step max(M, tiny) / 127 of a symmetric 8-bit quantisation.  Each is read
  here as a function of the contents the stretch of operations starts from, whatever they are.
-/
import proofs.«131146_j57208964383148_1_alg».proof.Proof.Gen.KernelIdeal.Launch
import proofs.«131146_j57208964383148_1_alg».proof.Proof.Net
import Idealize.ShloMosaic.Lib.ValueIdx

noncomputable section

namespace Cert.KernelIdeal.HostValue

open Idealize.ShloMosaic Idealize.ShloMosaic.ValueIdx
open Cert.KernelIdeal.Gen

/-- A 1×1 buffer has one index. -/
theorem idx11 (y : S1x1.Idx) : y = ix2 (0 : Fin 1) (0 : Fin 1) := by
  funext a
  match a with
  | ⟨0, _⟩ => exact Subsingleton.elim (α := Fin 1) _ _
  | ⟨1, _⟩ => exact Subsingleton.elim (α := Fin 1) _ _

/-! Each stretch: a constant, its broadcast, the maximum, a constant, its broadcast, the quotient.  The fold over the
    six operations is evaluated at the result buffer; what is left is the step by definition. -/

theorem step1 (W : Valuation τ sig (Elt Ideal)) (y : S1x1.Idx) :
    StableHlo.after (hostOps1 (F := Ideal)) W (Proc.devRef .tc main_v4) y = Net.step (W (Proc.devRef .tc main_v0) (ix2 0 0)) := by
  obtain rfl := idx11 y
  after_results
  rfl

theorem step4 (W : Valuation τ sig (Elt Ideal)) (y : S1x1.Idx) :
    StableHlo.after (hostOps4 (F := Ideal)) W (Proc.devRef .tc main_v33) y = Net.step (W (Proc.devRef .tc main_v29_1) (ix2 0 0)) := by
  obtain rfl := idx11 y
  after_results
  rfl

theorem step5 (W : Valuation τ sig (Elt Ideal)) (y : S1x1.Idx) :
    StableHlo.after (hostOps5 (F := Ideal)) W (Proc.devRef .tc main_v38) y = Net.step (W (Proc.devRef .tc main_v34_1) (ix2 0 0)) := by
  obtain rfl := idx11 y
  after_results
  rfl

theorem step8 (W : Valuation τ sig (Elt Ideal)) (y : S1x1.Idx) :
    StableHlo.after (hostOps8 (F := Ideal)) W (Proc.devRef .tc main_v67) y = Net.step (W (Proc.devRef .tc main_v63_1) (ix2 0 0)) := by
  obtain rfl := idx11 y
  after_results
  rfl

theorem step9 (W : Valuation τ sig (Elt Ideal)) (y : S1x1.Idx) :
    StableHlo.after (hostOps9 (F := Ideal)) W (Proc.devRef .tc main_v72) y = Net.step (W (Proc.devRef .tc main_v68_1) (ix2 0 0)) := by
  obtain rfl := idx11 y
  after_results
  rfl

theorem step12 (W : Valuation τ sig (Elt Ideal)) (y : S1x1.Idx) :
    StableHlo.after (hostOps12 (F := Ideal)) W (Proc.devRef .tc main_v101) y = Net.step (W (Proc.devRef .tc main_v97_1) (ix2 0 0)) := by
  obtain rfl := idx11 y
  after_results
  rfl

theorem step13 (W : Valuation τ sig (Elt Ideal)) (y : S1x1.Idx) :
    StableHlo.after (hostOps13 (F := Ideal)) W (Proc.devRef .tc main_v106) y = Net.step (W (Proc.devRef .tc main_v102_1) (ix2 0 0)) := by
  obtain rfl := idx11 y
  after_results
  rfl

end Cert.KernelIdeal.HostValue
-- ==== Proof.HostNorm.lean ====
/-
  The normalisation's scale and shift rows computed between the regions.

  After a layer's matrix product the program holds, per column, the sum s and the sum of squares ss over the 65536
  rows.  From them, the scale vector g and the shift vector b it computes on the host
      mean = s / 65536,  var = ss / 65536 - mean · mean,  inv = 1 / sqrt(var + eps),
      scale = g · inv,   shift = b - (mean · g) · inv,
  as rows of one line.  Each of the three layers' stretches is read here as a function of the contents it starts from,
  whatever they are, column by column.
-/
import proofs.«131146_j57208964383148_1_alg».proof.Proof.Gen.KernelIdeal.Launch
import proofs.«131146_j57208964383148_1_alg».proof.Proof.Net
import Idealize.ShloMosaic.Lib.ValueIdx
import Idealize.ShloMosaic.Lib.ValueLayout

noncomputable section

namespace Cert.KernelIdeal.HostValue

open Idealize.ShloMosaic Idealize.ShloMosaic.ValueIdx
open Cert.KernelIdeal.Gen

/-- The shape of a row of `n` columns, and of a vector of `n` entries. -/
abbrev rowS (n : ℕ) : Shape := ⟨2, ![1, n]⟩
abbrev vecS (n : ℕ) : Shape := ⟨1, ![n]⟩

section Read
variable {n : ℕ}

/-- The inverse deviation as the program spells it: the mean square minus the squared mean, plus the regulariser, under
    the reciprocal square root; `s` and `ss` are the rows of column sums and of column sums of squares. -/
def invRow (hb : (⟨0, ![]⟩ : Shape).BroadcastsInDim (rowS n) (![] : Fin 0 → Fin 2)) (s ss : FVec Ideal (rowS n) .f32) : FVec Ideal (rowS n) .f32 :=
  Host.rsqrt (F := Ideal) (addf (subf (Host.divf (F := Ideal) ss (broadcastInDim (rowS n) ![] hb (constant (F := Ideal) ⟨0, ![]⟩ .f32 0x47800000#32)))
      (mulf (Host.divf (F := Ideal) s (broadcastInDim (rowS n) ![] hb (constant (F := Ideal) ⟨0, ![]⟩ .f32 0x47800000#32)))
            (Host.divf (F := Ideal) s (broadcastInDim (rowS n) ![] hb (constant (F := Ideal) ⟨0, ![]⟩ .f32 0x47800000#32)))))
    (broadcastInDim (rowS n) ![] hb (constant (F := Ideal) ⟨0, ![]⟩ .f32 0x3727C5AC#32)))

/-- The scale row at column `j`: the vector `g` laid out as a row, times the inverse deviation.  The product and the
    reshape are read at the index; the rest is the specification's own spelling. -/
theorem scale_read (hb : (⟨0, ![]⟩ : Shape).BroadcastsInDim (rowS n) (![] : Fin 0 → Fin 2)) (hc : (vecS n).ShapeCasts (rowS n))
    (g : FVec Ideal (vecS n) .f32) (s ss : FVec Ideal (rowS n) .f32) (j : Fin n) :
    mulf (shapeCast (rowS n) g hc) (invRow hb s ss) (ix2 0 j)
      = Net.scaleF (fun j : Fin n => g (ix1 j)) (fun j : Fin n => s (ix2 0 j)) (fun j : Fin n => ss (ix2 0 j)) j := by
  rw [mulf_apply, shapeCast_a_1a_apply]
  rfl

/-- The shift row at column `j`: the vector `be` as a row, minus mean times `g` times the inverse deviation. -/
theorem shift_read (hb : (⟨0, ![]⟩ : Shape).BroadcastsInDim (rowS n) (![] : Fin 0 → Fin 2)) (hc : (vecS n).ShapeCasts (rowS n))
    (g be : FVec Ideal (vecS n) .f32) (s ss : FVec Ideal (rowS n) .f32) (j : Fin n) :
    subf (shapeCast (rowS n) be hc)
        (mulf (mulf (Host.divf (F := Ideal) s (broadcastInDim (rowS n) ![] hb (constant (F := Ideal) ⟨0, ![]⟩ .f32 0x47800000#32))) (shapeCast (rowS n) g hc))
          (invRow hb s ss)) (ix2 0 j)
      = Net.shiftF (fun j : Fin n => g (ix1 j)) (fun j : Fin n => be (ix1 j)) (fun j : Fin n => s (ix2 0 j)) (fun j : Fin n => ss (ix2 0 j)) j := by
  rw [subf_apply, mulf_apply, mulf_apply, shapeCast_a_1a_apply, shapeCast_a_1a_apply]
  rfl

end Read

/-! Each layer's stretch of nineteen operations: the fold is evaluated at the result buffer in one pass, and what is left
    is the term read above. -/

theorem scale1 (W : Valuation τ sig (Elt Ideal)) (j : Fin 128) :
    StableHlo.after (hostOps3 (F := Ideal)) W (Proc.devRef .tc main_v23) (ix2 0 j)
      = Net.scaleF (fun j : Fin 128 => W (Proc.devRef .tc main_arg3) (ix1 j)) (fun j : Fin 128 => W (Proc.devRef .tc main_v12_1) (ix2 0 j))
          (fun j : Fin 128 => W (Proc.devRef .tc main_v12_2) (ix2 0 j)) j := by
  after_results_simp
  exact scale_read bcast_S_S1x128 shapeCasts_S128_S1x128 (W (Proc.devRef .tc main_arg3)) (W (Proc.devRef .tc main_v12_1)) (W (Proc.devRef .tc main_v12_2)) j

theorem shift1 (W : Valuation τ sig (Elt Ideal)) (j : Fin 128) :
    StableHlo.after (hostOps3 (F := Ideal)) W (Proc.devRef .tc main_v28) (ix2 0 j)
      = Net.shiftF (fun j : Fin 128 => W (Proc.devRef .tc main_arg3) (ix1 j)) (fun j : Fin 128 => W (Proc.devRef .tc main_arg4) (ix1 j))
          (fun j : Fin 128 => W (Proc.devRef .tc main_v12_1) (ix2 0 j)) (fun j : Fin 128 => W (Proc.devRef .tc main_v12_2) (ix2 0 j)) j := by
  after_results_simp
  exact shift_read bcast_S_S1x128 shapeCasts_S128_S1x128 (W (Proc.devRef .tc main_arg3)) (W (Proc.devRef .tc main_arg4)) (W (Proc.devRef .tc main_v12_1)) (W (Proc.devRef .tc main_v12_2)) j

theorem scale2 (W : Valuation τ sig (Elt Ideal)) (j : Fin 128) :
    StableHlo.after (hostOps7 (F := Ideal)) W (Proc.devRef .tc main_v57) (ix2 0 j)
      = Net.scaleF (fun j : Fin 128 => W (Proc.devRef .tc main_arg7) (ix1 j)) (fun j : Fin 128 => W (Proc.devRef .tc main_v46_1) (ix2 0 j))
          (fun j : Fin 128 => W (Proc.devRef .tc main_v46_2) (ix2 0 j)) j := by
  after_results_simp
  exact scale_read bcast_S_S1x128 shapeCasts_S128_S1x128 (W (Proc.devRef .tc main_arg7)) (W (Proc.devRef .tc main_v46_1)) (W (Proc.devRef .tc main_v46_2)) j

theorem shift2 (W : Valuation τ sig (Elt Ideal)) (j : Fin 128) :
    StableHlo.after (hostOps7 (F := Ideal)) W (Proc.devRef .tc main_v62) (ix2 0 j)
      = Net.shiftF (fun j : Fin 128 => W (Proc.devRef .tc main_arg7) (ix1 j)) (fun j : Fin 128 => W (Proc.devRef .tc main_arg8) (ix1 j))
          (fun j : Fin 128 => W (Proc.devRef .tc main_v46_1) (ix2 0 j)) (fun j : Fin 128 => W (Proc.devRef .tc main_v46_2) (ix2 0 j)) j := by
  after_results_simp
  exact shift_read bcast_S_S1x128 shapeCasts_S128_S1x128 (W (Proc.devRef .tc main_arg7)) (W (Proc.devRef .tc main_arg8)) (W (Proc.devRef .tc main_v46_1)) (W (Proc.devRef .tc main_v46_2)) j

theorem scale3 (W : Valuation τ sig (Elt Ideal)) (j : Fin 10) :
    StableHlo.after (hostOps11 (F := Ideal)) W (Proc.devRef .tc main_v91) (ix2 0 j)
      = Net.scaleF (fun j : Fin 10 => W (Proc.devRef .tc main_arg11) (ix1 j)) (fun j : Fin 10 => W (Proc.devRef .tc main_v80_1) (ix2 0 j))
          (fun j : Fin 10 => W (Proc.devRef .tc main_v80_2) (ix2 0 j)) j := by
  after_results_simp
  exact scale_read bcast_S_S1x10 shapeCasts_S10_S1x10 (W (Proc.devRef .tc main_arg11)) (W (Proc.devRef .tc main_v80_1)) (W (Proc.devRef .tc main_v80_2)) j

theorem shift3 (W : Valuation τ sig (Elt Ideal)) (j : Fin 10) :
    StableHlo.after (hostOps11 (F := Ideal)) W (Proc.devRef .tc main_v96) (ix2 0 j)
      = Net.shiftF (fun j : Fin 10 => W (Proc.devRef .tc main_arg11) (ix1 j)) (fun j : Fin 10 => W (Proc.devRef .tc main_arg12) (ix1 j))
          (fun j : Fin 10 => W (Proc.devRef .tc main_v80_1) (ix2 0 j)) (fun j : Fin 10 => W (Proc.devRef .tc main_v80_2) (ix2 0 j)) j := by
  after_results_simp
  exact shift_read bcast_S_S1x10 shapeCasts_S10_S1x10 (W (Proc.devRef .tc main_arg11)) (W (Proc.devRef .tc main_arg12)) (W (Proc.devRef .tc main_v80_1)) (W (Proc.devRef .tc main_v80_2)) j

end Cert.KernelIdeal.HostValue
-- ==== Proof.BlockMax.lean ====
/-
  The largest magnitude of a block of a matrix, as a streaming pass computes it, and the running maximum.

  A pass over a matrix that keeps "the largest magnitude so far" takes, at each block of rows, the maximum of every
  row, then the maximum of those row maxima, and joins it with the value it carried.  Every such maximum starts from
  the least extended real, so it is characterised by its upper bounds: it is below a bound exactly when every term
  is.  That is how the maxima are carried here; no order of evaluation enters.
-/
import proofs.«131146_j57208964383148_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.RegionValue

/-- The word a maximum starts from is the least extended real. -/
theorem least_word : FloatOps.ofBits (F := Ideal) .f32 0xFF800000#32 = (⊥ : EReal) := by
  show Ideal.ofBits .f32 0xFF800000#32 = ⊥
  simp [Ideal.ofBits, Ideal.ieee]

/-- A row's maximum is below a bound exactly when the row's entries are. -/
theorem row_max_le {n0 n1 : Nat} (v : FVec Ideal ⟨2, ![n0, n1]⟩ .f32) (h : Shape.Reduces ⟨2, ![n0, n1]⟩ [1] ⟨1, ![n0]⟩)
    (hφ : FKind.Formats .f32) (hacc : (0xFF800000#32 : BitVec 32) = 0xFF800000#32) (r : Fin n0) (b : EReal) :
    multiReduction .maximumf [1] ⟨1, ![n0]⟩ v 0xFF800000#32 h hφ hacc (ix1 r) ≤ b ↔ ∀ k : Fin n1, v (ix2 r k) ≤ b := by
  have e := Ideal.multiReduction_maximumf_single v 0xFF800000#32 h hφ hacc (ix1 r)
  have hl : ∀ k : Fin n1, h.lift (ix1 r) k = ix2 r k := fun k => funext fun a => Fin.ext (by
    match a with | ⟨0, _⟩ => rfl | ⟨1, _⟩ => rfl)
  rw [e, Finset.fold_max_le, least_word]
  constructor
  · intro ⟨_, h2⟩ k
    exact (congrArg v (hl k)).symm.trans_le (h2 k (Finset.mem_univ _))
  · intro h2
    exact ⟨bot_le, fun k _ => (congrArg v (hl k)).trans_le (h2 k)⟩

/-- The maximum down a one-column matrix is below a bound exactly when its entries are. -/
theorem col_max_le {n0 : Nat} (v : FVec Ideal ⟨2, ![n0, 1]⟩ .f32) (h : Shape.Reduces ⟨2, ![n0, 1]⟩ [0] ⟨1, ![1]⟩)
    (hφ : FKind.Formats .f32) (hacc : (0xFF800000#32 : BitVec 32) = 0xFF800000#32) (b : EReal) :
    multiReduction .maximumf [0] ⟨1, ![1]⟩ v 0xFF800000#32 h hφ hacc (ix1 0) ≤ b ↔ ∀ r : Fin n0, v (ix2 r 0) ≤ b := by
  have e := Ideal.multiReduction_maximumf_single v 0xFF800000#32 h hφ hacc (ix1 0)
  have hl : ∀ r : Fin n0, h.lift (ix1 0) r = ix2 r 0 := fun r => funext fun a => Fin.ext (by
    match a with | ⟨0, _⟩ => rfl | ⟨1, _⟩ => rfl)
  rw [e, Finset.fold_max_le, least_word]
  constructor
  · intro ⟨_, h2⟩ r
    exact (congrArg v (hl r)).symm.trans_le (h2 r (Finset.mem_univ _))
  · intro h2
    exact ⟨bot_le, fun r _ => (congrArg v (hl r)).trans_le (h2 r)⟩

/-- A vector stood up as a one-column matrix reads the vector's entry in each row. -/
theorem as_column {α : Type} {n0 : Nat} (x : (⟨1, ![n0]⟩ : Shape).Idx → α) (h : (⟨1, ![n0]⟩ : Shape).ShapeCasts ⟨2, ![n0, 1]⟩)
    (r : Fin n0) : shapeCast ⟨2, ![n0, 1]⟩ x h (ix2 r 0) = x (ix1 r) :=
  shapeCast_apply x h _ _ (by
    rw [Shape.rowMajor_val_two, Shape.rowMajor_val_one]
    show r.val = r.val * 1 + 0
    omega)

/-- The largest entry of a block, taken as a pass takes it (row maxima, then the maximum of those), is below a bound
    exactly when every entry is. -/
theorem block_max_le {n0 n1 : Nat} (v : FVec Ideal ⟨2, ![n0, n1]⟩ .f32)
    (h1 : Shape.Reduces ⟨2, ![n0, n1]⟩ [1] ⟨1, ![n0]⟩) (c1 : (⟨1, ![n0]⟩ : Shape).ShapeCasts ⟨2, ![n0, 1]⟩)
    (h2 : Shape.Reduces ⟨2, ![n0, 1]⟩ [0] ⟨1, ![1]⟩) (c2 : (⟨1, ![1]⟩ : Shape).ShapeCasts ⟨2, ![1, 1]⟩)
    (hφ : FKind.Formats .f32) (hacc : (0xFF800000#32 : BitVec 32) = 0xFF800000#32) (b : EReal) :
    shapeCast ⟨2, ![1, 1]⟩ (multiReduction .maximumf [0] ⟨1, ![1]⟩
        (shapeCast ⟨2, ![n0, 1]⟩ (multiReduction .maximumf [1] ⟨1, ![n0]⟩ v 0xFF800000#32 h1 hφ hacc) c1)
        0xFF800000#32 h2 hφ hacc) c2 (ix2 0 0) ≤ b
      ↔ ∀ (r : Fin n0) (k : Fin n1), v (ix2 r k) ≤ b := by
  rw [shapeCast_a_1a_apply, col_max_le]
  refine forall_congr' fun r => ?_
  rw [as_column, row_max_le]

/-- The running maximum of a whole matrix is below a bound exactly when zero and every magnitude are. -/
theorem runMax_le {B D : Nat} (x : Fin B → Fin D → EReal) (b : EReal) :
    Net.runMax x ≤ b ↔ Net.zero ≤ b ∧ ∀ (r : Fin B) (k : Fin D), Net.mag (x r k) ≤ b := by
  unfold Net.runMax Net.supMag
  rw [max_le_iff, Finset.sup_le_iff]
  exact and_congr Iff.rfl
    ⟨fun h r k => Finset.sup_le_iff.mp (h r (Finset.mem_univ r)) k (Finset.mem_univ k),
      fun h r _ => Finset.sup_le_iff.mpr fun k _ => h r k⟩

/-- A one-entry array spread over a matrix reads its one entry everywhere. -/
theorem spread_one {α : Type} {n0 n1 : Nat} (s : (⟨2, ![1, 1]⟩ : Shape).Idx → α) (h : (⟨2, ![1, 1]⟩ : Shape).Broadcasts ⟨2, ![n0, n1]⟩)
    (r : Fin n0) (k : Fin n1) : broadcastTo ⟨2, ![n0, n1]⟩ s h (ix2 r k) = s (ix2 0 0) :=
  broadcastTo_apply s h (ix2 r k) (ix2 0 0) (fun a => by match a with | ⟨0, _⟩ => rfl | ⟨1, _⟩ => rfl)

/-- A one-by-one index is the index (0, 0). -/
theorem one_index (y : (⟨2, ![1, 1]⟩ : Shape).Idx) : y = ix2 0 0 := by
  funext a
  apply Fin.ext
  match a with
  | ⟨0, _⟩ => have := idx2_lt0 y; show (y 0).val = 0; omega
  | ⟨1, _⟩ => have := idx2_lt1 y; show (y 1).val = 0; omega

end Cert.KernelIdeal.RegionValue

end
-- ==== Proof.Region0.lean ====
/-
  Region 0: the largest magnitude of the input matrix, started at zero.

  The region walks the 65536 rows in 64 blocks of 1024 rows and carries a one-entry array.  At the first block it
  stores zero there; at every block it replaces the entry by the maximum of the entry and the block's largest
  magnitude.  So after block n the entry is the least bound that is above zero and above the magnitude of every entry
  in rows 0 … 1024 (n + 1) - 1, and after the last block, which is the only one written back, it is the running
  maximum of the whole matrix.
-/
import proofs.«131146_j57208964383148_1_alg».proof.Proof.Gen.KernelIdeal.Frame
import proofs.«131146_j57208964383148_1_alg».proof.Proof.Net
import proofs.«131146_j57208964383148_1_alg».proof.Proof.BlockMax
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem zero_offsets0 : (![0, 0] : Fin 2 → Nat) = fun _ => 0 := funext fun a => by fin_cases a <;> rfl

section Pieces
variable {F : FTy → Type} [FloatOps F]

/-- The first point stores zero, reads it back and joins it with the block's largest magnitude. -/
theorem first_point0 (c : Dev nD) (i : grid0.Coords) (a1 : Memref sig .tc .vmem S1024x784 .f32) (h1 : a1.IsWhole)
    (a2 : Memref sig .tc .vmem S1x1 .f32) (h2 : a2.IsWhole) (hc : cond0_0 i) (x : Vec F S1024x784 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) zero_offsets0, View.readCov_unit_zero (S := S1x1) _ zero_offsets0]
  simp only [View.readAt_eq_ld, h1.read_unread, View.ld_unit_zero (S := S1024x784) zero_offsets0]

/-- A later point joins what the entry held with the block's largest magnitude. -/
theorem later_point0 (c : Dev nD) (i : grid0.Coords) (a1 : Memref sig .tc .vmem S1024x784 .f32) (h1 : a1.IsWhole)
    (a2 : Memref sig .tc .vmem S1x1 .f32) (h2 : a2.IsWhole) (hc : ¬cond0_0 i) (x : Vec F S1024x784 .f32) (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  try sl_unfold_words
  rw [View.canon_unit_zero zero_offsets0]
  simp only [View.readAt_eq_ld, h1.read_unread, h2.read_unread, View.ld_unit_zero (S := S1024x784) zero_offsets0,
    View.ld_unit_zero (S := S1x1) zero_offsets0]

end Pieces

/-- The new entry is below a bound exactly when the old entry and every magnitude of the block are. -/
theorem body0_le (x : Vec Ideal S1024x784 .f32) (a : Vec Ideal S1x1 .f32) (b : EReal) :
    k0_pay2 x a (ix2 0 0) ≤ b ↔ a (ix2 0 0) ≤ b ∧ ∀ (r : Fin 1024) (k : Fin 784), Net.mag (x (ix2 r k)) ≤ b := by
  unfold k0_pay2
  show max _ _ ≤ b ↔ _
  refine max_le_iff.trans (and_congr ?_ ?_)
  · rw [shapeCast_self]
  · exact block_max_le (absf x) _ _ _ _ _ _ b

/-- Where the blocks sit: at point t the matrix window is at block row t; the entry's window does not move. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Entry (r, k) of the input's block at point n is entry (1024 n + r, k) of the input. -/
theorem in_block0 (c : Dev nD) (n : ℕ) (hn : n < cfg0.N) (r : Fin 1024) (k : Fin 784) (R : Fin 65536) (hR : R.val = 1024 * n + r.val) :
    (iblk0 V c 0 ⟨n, hn⟩ : Vec Ideal S1024x784 .f32) (ix2 r k)
      = (V c (Pipeline.arrRef spec0 0) : S65536x784.Idx → EReal) (ix2 R k) := by
  obtain ⟨e0, e1, -, -⟩ := block_index0 ⟨n, hn⟩
  unfold iblk0
  rw [View.read_apply]
  refine congrArg (V c (Pipeline.arrRef spec0 0) : S65536x784.Idx → EReal) ?_
  funext a
  apply Fin.ext
  match a with
  | ⟨0, _⟩ => show win0_0.index ⟨n, hn⟩ (0 : Fin 2) * 1024 + 1 * r.val = R.val; rw [e0, hR]; show n * 1024 + 1 * r.val = 1024 * n + r.val; omega
  | ⟨1, _⟩ => show win0_0.index ⟨n, hn⟩ (1 : Fin 2) * 784 + 1 * k.val = k.val; rw [e1]; omega

/-- The magnitudes of block n are below a bound exactly when those of rows 1024 n … 1024 n + 1023 of the input are. -/
theorem block_rows0 (c : Dev nD) (n : ℕ) (hn : n < cfg0.N) (b : EReal) :
    (∀ (r : Fin 1024) (k : Fin 784), Net.mag ((iblk0 V c 0 ⟨n, hn⟩ : Vec Ideal S1024x784 .f32) (ix2 r k)) ≤ b)
      ↔ ∀ (R : Fin 65536) (k : Fin 784), 1024 * n ≤ R.val → R.val < 1024 * (n + 1) →
          Net.mag ((V c (Pipeline.arrRef spec0 0) : S65536x784.Idx → EReal) (ix2 R k)) ≤ b := by
  have hN : n < 64 := lt_of_lt_of_eq hn (show cfg0.N = 64 from N_0)
  constructor
  · intro h R k h1 h2
    have := h ⟨R.val - 1024 * n, by omega⟩ k
    rwa [in_block0 V c n hn ⟨R.val - 1024 * n, by omega⟩ k R (by show R.val = 1024 * n + (R.val - 1024 * n); omega)] at this
  · intro h r k
    have hr : r.val < 1024 := r.isLt
    rw [in_block0 V c n hn r k ⟨1024 * n + r.val, by omega⟩ rfl]
    exact h _ k (by show 1024 * n ≤ 1024 * n + r.val; omega) (by show 1024 * n + r.val < 1024 * (n + 1); omega)

/-- THE RUNNING MAXIMUM.  After point n the carried entry is below a bound exactly when zero is and the magnitude of
    every entry in the rows seen so far is. -/
theorem running0 (c : Dev nD) : ∀ (n : ℕ) (hn : n < cfg0.N) (b : EReal),
    (outsAt0 V c n hn : Vec Ideal S1x1 .f32) (ix2 0 0) ≤ b
      ↔ Net.zero ≤ b ∧ ∀ (R : Fin 65536) (k : Fin 784), R.val < 1024 * (n + 1) →
          Net.mag ((V c (Pipeline.arrRef spec0 0) : S65536x784.Idx → EReal) (ix2 R k)) ≤ b
  | 0, hn, b => by
    have e : outsAt0 V c 0 hn = k0_pay2 (iblk0 V c 0 ⟨0, hn⟩) (k0_pay1 (F := Ideal)) :=
      (outsAt0_A V c ⟨0, hn⟩ rfl).trans (first_point0 (F := Ideal) c _ _ _ _ _ _ _)
    rw [e]
    refine (body0_le (iblk0 V c 0 ⟨0, hn⟩) (k0_pay1 (F := Ideal)) b).trans (and_congr Iff.rfl ?_)
    rw [block_rows0 V c 0 hn b]
    exact ⟨fun h R k hR => h R k (by omega) hR, fun h R k _ hR => h R k hR⟩
  | n + 1, hn, b => by
    have hN : cfg0.N = 64 := N_0
    have hB : ¬(⟨n + 1, hn⟩ : Fin cfg0.N).val % 64 = 0 := by dsimp only; omega
    have e : outsAt0 V c (n + 1) hn = k0_pay2 (iblk0 V c 0 ⟨n + 1, hn⟩) (outsAt0 V c n (Nat.lt_of_succ_lt hn)) :=
      (outsAt0_B V c ⟨n + 1, hn⟩ hB).trans (later_point0 (F := Ideal) c _ _ _ _ _ _ _ _)
    rw [e]
    refine (body0_le (iblk0 V c 0 ⟨n + 1, hn⟩) (outsAt0 V c n (Nat.lt_of_succ_lt hn)) b).trans ?_
    rw [running0 c n (Nat.lt_of_succ_lt hn) b, block_rows0 V c (n + 1) hn b]
    constructor
    · rintro ⟨⟨h0, h1⟩, h2⟩
      refine ⟨h0, fun R k hR => ?_⟩
      by_cases hlt : R.val < 1024 * (n + 1)
      · exact h1 R k hlt
      · exact h2 R k (by omega) hR
    · rintro ⟨h0, h1⟩
      exact ⟨⟨h0, fun R k hR => h1 R k (by omega)⟩, fun R k _ hR => h1 R k hR⟩

/-- The output: the one entry at the running maximum of the whole input. -/
abbrev largest0 (c : Dev nD) : S1x1.Idx → EReal := fun _ =>
  Net.runMax (fun (r : Fin 65536) (k : Fin 784) => (V c (Pipeline.arrRef spec0 0) : S65536x784.Idx → EReal) (ix2 r k))

/-- The one write-back, after the last point, writes it. -/
theorem written0 (c : Dev nD) (t : Fin cfg0.N) (hf : (cfg0.win 1).flush t = true) :
    (dat0 (F := Ideal) V c).flushed 1 t = ((cfg0.win 1).blk t).view.read (Elt Ideal) (largest0 V c) := by
  have hN : cfg0.N = 64 := N_0
  have h63 : t.val = 63 := by have := (flush0_1 t).mp hf; have := t.isLt; omega
  show (cfg0.win 1).cut (grid0.coords t) ((dat0 V c).after 1 t) = _
  rw [after0_1]
  funext j
  obtain rfl : j = ix2 0 0 := one_index j
  show (outsAt0 V c t.val t.isLt : Vec Ideal S1x1 .f32) (ix2 0 0) = Net.runMax _
  refine eq_of_forall_ge_iff fun b => ?_
  rw [running0 V c t.val t.isLt b, runMax_le]
  exact and_congr Iff.rfl ⟨fun h R k => h R k (by have := R.isLt; omega), fun h R k _ => h R k⟩

/-- The one entry is in every point's block. -/
theorem in_written0 (t : Fin cfg0.N) (i : S1x1.Idx) :
    i ∈ ((cfg0.win 1).blk t).view.set ↔ ∀ a : Fin 2, win0_1.index t a * S1x1.size a ≤ (i a).val ∧ (i a).val < win0_1.index t a * S1x1.size a + S1x1.size a := by
  show i ∈ ((View.whole main_v0).slice (win0_1.rect t)).set ↔ _
  rw [View.set_slice_whole, Rect.mem_set_unit]
  exact Iff.rfl

/-- After the region the output array holds the running maximum. -/
theorem final0_1_all (c : Dev nD) : (dat0 (F := Ideal) V c).arrAt 1 cfg0.N = largest0 V c :=
  (dat0 (F := Ideal) V c).arrAt_eq_of_cover 1 (largest0 V c) (written0 V c) fun i => by
    have hlast : 63 < cfg0.N := by rw [show cfg0.N = 64 from N_0]; decide
    obtain ⟨-, -, e2, e3⟩ := block_index0 ⟨63, hlast⟩
    refine ⟨⟨63, hlast⟩, (flush0_1 _).mpr rfl, ?_⟩
    rw [in_written0]
    have h0 : (i 0).val < 1 := (i 0).isLt
    have h1 : (i 1).val < 1 := (i 1).isLt
    intro a
    match a with
    | ⟨0, _⟩ =>
      show win0_1.index ⟨63, hlast⟩ (0 : Fin 2) * 1 ≤ (i 0).val ∧ (i 0).val < win0_1.index ⟨63, hlast⟩ (0 : Fin 2) * 1 + 1
      rw [e2]; omega
    | ⟨1, _⟩ =>
      show win0_1.index ⟨63, hlast⟩ (1 : Fin 2) * 1 ≤ (i 1).val ∧ (i 1).val < win0_1.index ⟨63, hlast⟩ (1 : Fin 2) * 1 + 1
      rw [e3]; omega

/-- The same, at the array's one index. -/
theorem final0_1 (c : Dev nD) (y : S1x1.Idx) :
    ((dat0 (F := Ideal) V c).arrAt 1 cfg0.N : S1x1.Idx → EReal) y
      = Net.runMax (fun (r : Fin 65536) (k : Fin 784) => (V c (Pipeline.arrRef spec0 0) : S65536x784.Idx → EReal) (ix2 r k)) :=
  congrFun (final0_1_all V c) y

end Cert.KernelIdeal.RegionValue

end
-- ==== Proof.RegionLib.lean ====
import proofs.«131146_j57208964383148_1_alg».proof.Proof.Net
import Idealize.ShloMosaic.Lib.Pipeline.Value
import Idealize.ShloMosaic.Lib.ValueIdx
import Idealize.ShloMosaic.Lib.ValueLayout
import Idealize.ShloMosaic.PureOps.Ideal.Laws

/-!
  Facts shared by the value readings of the regions that walk the 65536 rows in 32 blocks of 2048: the word of negative
  infinity is the bottom of the extended reals; the cast of a column `[a]` to `[a, 1]` read at an index; a statement about
  the rows below `(b + 1) · 2048` splits into the rows below `b · 2048` and the 2048 rows of block `b`, as a universal
  statement (for a running maximum) and as a sum (for an accumulated column sum); and the running maximum of a matrix is
  below a bound exactly when zero and every magnitude are.
-/

noncomputable section

open Idealize.ShloMosaic Idealize.ShloMosaic.ValueIdx
open scoped BigOperators

namespace Cert.KernelIdeal.RegionValue

/-- The word of negative infinity is the bottom of the extended reals. -/
theorem ofBits_ninf : Ideal.ofBits .f32 0xFF800000#32 = ⊥ := by simp [Ideal.ofBits, Ideal.ieee]

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `p` of block `b` among the 65536 rows. -/
def rowOf (b : ℕ) (hb : b < 32) (p : Fin 2048) : Fin 65536 := ⟨b * 2048 + p.val, by have := p.isLt; omega⟩

/-- A statement about every row below `(b + 1) · 2048` is the statement about the rows below `b · 2048` together with the
    statement about the 2048 rows of block `b`. -/
theorem forall_rows_succ (P : Fin 65536 → Prop) (b : ℕ) (hb : b < 32) :
    (∀ r : Fin 65536, r.val < (b + 1) * 2048 → P r) ↔
      (∀ r : Fin 65536, r.val < b * 2048 → P r) ∧ ∀ p : Fin 2048, P (rowOf b hb p) := by
  constructor
  · intro h
    exact ⟨fun r hr => h r (by omega), fun p => h _ (by have := p.isLt; show b * 2048 + p.val < _; omega)⟩
  · rintro ⟨h1, h2⟩ r hr
    by_cases hlt : r.val < b * 2048
    · exact h1 r hlt
    · have e : r = rowOf b hb ⟨r.val - b * 2048, by omega⟩ := Fin.ext (by show r.val = b * 2048 + (r.val - b * 2048); omega)
      rw [e]; exact h2 _

/-- Below `0 · 2048` there is no row. -/
theorem forall_rows_zero (P : Fin 65536 → Prop) : (∀ r : Fin 65536, r.val < 0 * 2048 → P r) ↔ True :=
  ⟨fun _ => trivial, fun _ r hr => absurd hr (by omega)⟩

/-- Below `32 · 2048` is every row. -/
theorem forall_rows_all (P : Fin 65536 → Prop) : (∀ r : Fin 65536, r.val < 32 * 2048 → P r) ↔ ∀ r, P r :=
  ⟨fun h r => h r (by have := r.isLt; omega), fun h r _ => h r⟩

/-- A function of the rows extended by zero to every natural number. -/
def ext0 (f : Fin 65536 → EReal) (i : ℕ) : EReal := if h : i < 65536 then f ⟨i, h⟩ else 0

/-- The sum over the rows below `(b + 1) · 2048` is the sum over the rows below `b · 2048` plus the sum over block `b`. -/
theorem sum_rows_succ (f : Fin 65536 → EReal) (b : ℕ) (hb : b < 32) :
    ∑ i ∈ Finset.range ((b + 1) * 2048), ext0 f i
      = ∑ i ∈ Finset.range (b * 2048), ext0 f i + ∑ p : Fin 2048, f (rowOf b hb p) := by
  rw [show (b + 1) * 2048 = b * 2048 + 2048 by ring, Finset.sum_range_add]
  refine congrArg (_ + ·) ?_
  rw [Finset.sum_range]
  refine Finset.sum_congr rfl fun p _ => ?_
  unfold ext0
  rw [dif_pos (by have := p.isLt; omega)]
  rfl

/-- The sum over the rows below `32 · 2048` is the sum over every row. -/
theorem sum_rows_all (f : Fin 65536 → EReal) : ∑ i ∈ Finset.range (32 * 2048), ext0 f i = ∑ r, f r := by
  rw [show 32 * 2048 = 65536 by norm_num, Finset.sum_range]
  refine Finset.sum_congr rfl fun r _ => ?_
  unfold ext0
  rw [dif_pos r.isLt]

/-- The running maximum of a matrix is below a bound exactly when zero and the magnitude of every entry are. -/
theorem runMax_le_iff {B D : ℕ} (x : Fin B → Fin D → EReal) (z : EReal) :
    Net.runMax x ≤ z ↔ Net.zero ≤ z ∧ ∀ r c, Net.mag (x r c) ≤ z := by
  unfold Net.runMax Net.supMag
  rw [max_le_iff, Finset.sup_le_iff]
  refine and_congr_right fun _ => ⟨fun h r c => ?_, fun h r _ => ?_⟩
  · exact (Finset.sup_le_iff.mp (h r (Finset.mem_univ r))) c (Finset.mem_univ c)
  · exact Finset.sup_le fun c _ => h r c

end Cert.KernelIdeal.RegionValue

end
-- ==== Proof.Region3.lean ====
import proofs.«131146_j57208964383148_1_alg».proof.Proof.Gen.KernelIdeal.Frame
import proofs.«131146_j57208964383148_1_alg».proof.Proof.Net
import proofs.«131146_j57208964383148_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  The value of region 3 (the scale-and-shift of a 65536 × 128 matrix by a row of scales and a row of shifts, with the
  running maximum of the magnitudes of the result), read off its frame at any entry contents `V`: after the region the
  output array holds `y · a + b` entry by entry, and the one-element array holds the maximum of zero and every magnitude.

  The body at a point: it stores the affine payload of the point's blocks; the accumulator is set to zero at the first
  point, and at every point is left at the maximum of what it held and the largest magnitude of the block's affine
  payload. The accumulator is carried by its universal property: after point `n` it is below a bound exactly when zero
  and the magnitudes of the rows below `(n + 1) · 2048` are.
-/

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.RegionValue

open Cert.KernelIdeal Cert.KernelIdeal.Gen

section Pieces
variable {F : FTy → Type} [FloatOps F]

theorem hz3 : (![0, 0] : Fin 2 → Nat) = fun _ => 0 := funext fun a => by fin_cases a <;> rfl

/-- At the first point the body leaves the affine payload of its input blocks in the output block. -/
theorem out3_A_3_eq (c : Dev nD) (i : grid3.Coords) (a1 : Memref sig .tc .vmem S2048x128 .f32) (h1 : a1.IsWhole)
    (a2 : Memref sig .tc .vmem S1x128 .f32) (h2 : a2.IsWhole) (a3 : Memref sig .tc .vmem S1x128 .f32) (h3 : a3.IsWhole)
    (a4 : Memref sig .tc .vmem S2048x128 .f32) (h4 : a4.IsWhole) (a5 : Memref sig .tc .vmem S1x1 .f32) (h5 : a5.IsWhole)
    (hc : cond3_0 i) (x0 : Vec F S2048x128 .f32) (x1 x2 : Vec F S1x128 .f32) :
    out3_A_3 c i a1 h1 a2 h2 a3 h3 a4 h4 a5 h5 hc x0 x1 x2 = k3_pay2 x0 x1 x2 := by
  unfold out3_A_3
  rw [View.read_writes_eq_canon _ _ _ (cover3_A_3 c i a1 h1 a2 h2 a3 h3 a4 h4 a5 h5 hc x0 x1 x2)]
  unfold kernelRun3_A
  dsimp only
  rw [View.canon_unit_zero hz3]
  simp only [View.readAt_eq_ld, h1.read_unread, h2.read_unread, h3.read_unread, View.ld_unit_zero (S := S2048x128) hz3,
    View.ld_unit_zero (S := S1x128) hz3]

/-- At every later point likewise. -/
theorem out3_B_3_eq (c : Dev nD) (i : grid3.Coords) (a1 : Memref sig .tc .vmem S2048x128 .f32) (h1 : a1.IsWhole)
    (a2 : Memref sig .tc .vmem S1x128 .f32) (h2 : a2.IsWhole) (a3 : Memref sig .tc .vmem S1x128 .f32) (h3 : a3.IsWhole)
    (a4 : Memref sig .tc .vmem S2048x128 .f32) (h4 : a4.IsWhole) (a5 : Memref sig .tc .vmem S1x1 .f32) (h5 : a5.IsWhole)
    (hc : ¬cond3_0 i) (x0 : Vec F S2048x128 .f32) (x1 x2 : Vec F S1x128 .f32) (xo4 : Vec F S1x1 .f32) :
    out3_B_3 c i a1 h1 a2 h2 a3 h3 a4 h4 a5 h5 hc x0 x1 x2 xo4 = k3_pay2 x0 x1 x2 := by
  unfold out3_B_3
  rw [View.read_writes_eq_canon _ _ _ (cover3_B_3 c i a1 h1 a2 h2 a3 h3 a4 h4 a5 h5 hc x0 x1 x2 xo4)]
  unfold kernelRun3_B
  dsimp only
  rw [View.canon_unit_zero hz3]
  simp only [View.readAt_eq_ld, h1.read_unread, h2.read_unread, h3.read_unread, View.ld_unit_zero (S := S2048x128) hz3,
    View.ld_unit_zero (S := S1x128) hz3]

/-- At a later point the accumulator is left at the maximum payload over what the point before left. -/
theorem out3_B_4_eq (c : Dev nD) (i : grid3.Coords) (a1 : Memref sig .tc .vmem S2048x128 .f32) (h1 : a1.IsWhole)
    (a2 : Memref sig .tc .vmem S1x128 .f32) (h2 : a2.IsWhole) (a3 : Memref sig .tc .vmem S1x128 .f32) (h3 : a3.IsWhole)
    (a4 : Memref sig .tc .vmem S2048x128 .f32) (h4 : a4.IsWhole) (a5 : Memref sig .tc .vmem S1x1 .f32) (h5 : a5.IsWhole)
    (hc : ¬cond3_0 i) (x0 : Vec F S2048x128 .f32) (x1 x2 : Vec F S1x128 .f32) (xo4 : Vec F S1x1 .f32) :
    out3_B_4 c i a1 h1 a2 h2 a3 h3 a4 h4 a5 h5 hc x0 x1 x2 xo4 = k3_pay3 x0 x1 x2 xo4 := by
  unfold out3_B_4
  rw [View.read_writes_eq_canon _ _ _ (cover3_B_4 c i a1 h1 a2 h2 a3 h3 a4 h4 a5 h5 hc x0 x1 x2 xo4)]
  unfold kernelRun3_B
  dsimp only
  rw [View.canon_unit_zero hz3]
  simp only [View.readAt_eq_ld, h1.read_unread, h2.read_unread, h3.read_unread, h5.read_unread, View.ld_unit_zero (S := S2048x128) hz3,
    View.ld_unit_zero (S := S1x128) hz3, View.ld_unit_zero (S := S1x1) hz3]

/-- At the first point the accumulator is zeroed, read back, and left at the maximum payload over the zero block. -/
theorem out3_A_4_eq (c : Dev nD) (i : grid3.Coords) (a1 : Memref sig .tc .vmem S2048x128 .f32) (h1 : a1.IsWhole)
    (a2 : Memref sig .tc .vmem S1x128 .f32) (h2 : a2.IsWhole) (a3 : Memref sig .tc .vmem S1x128 .f32) (h3 : a3.IsWhole)
    (a4 : Memref sig .tc .vmem S2048x128 .f32) (h4 : a4.IsWhole) (a5 : Memref sig .tc .vmem S1x1 .f32) (h5 : a5.IsWhole)
    (hc : cond3_0 i) (x0 : Vec F S2048x128 .f32) (x1 x2 : Vec F S1x128 .f32) :
    out3_A_4 c i a1 h1 a2 h2 a3 h3 a4 h4 a5 h5 hc x0 x1 x2 = k3_pay3 x0 x1 x2 (k3_pay1 (F := F)) := by
  unfold out3_A_4
  rw [View.read_writes_eq_canon _ _ _ (cover3_A_4 c i a1 h1 a2 h2 a3 h3 a4 h4 a5 h5 hc x0 x1 x2)]
  unfold kernelRun3_A
  dsimp only
  sl_unfold_words
  rw [View.canon_cons_unit_zero (S := S1x1) hz3, View.readCov_unit_zero (S := S1x1) _ hz3]
  simp only [View.readAt_eq_ld, h1.read_unread, h2.read_unread, h3.read_unread, View.ld_unit_zero (S := S2048x128) hz3,
    View.ld_unit_zero (S := S1x128) hz3]

end Pieces

/-! ## The payloads at an index, on the extended reals -/

/-- The affine payload at an index: the entry times the column's scale plus the column's shift. -/
theorem pay3_2_apply (x0 : Vec Ideal S2048x128 .f32) (x1 x2 : Vec Ideal S1x128 .f32) (p : Fin 2048) (q : Fin 128) :
    k3_pay2 x0 x1 x2 (ix2 p q) = x0 (ix2 p q) * x1 (ix2 (0 : Fin 1) q) + x2 (ix2 (0 : Fin 1) q) := by
  unfold k3_pay2
  rw [shapeCast_self, shapeCast_self, shapeCast_self]
  refine (addf_apply _ _ _).trans ?_
  rw [broadcastTo_1b_ab_apply]
  refine congrArg (· + _) ?_
  refine (mulf_apply _ _ _).trans ?_
  rw [broadcastTo_1b_ab_apply]

/-- A row's largest entry is below a bound exactly when every entry of the row is. -/
theorem rowmax3_le_iff (v : FVec Ideal S2048x128 .f32) (k : Fin 2048) (z : EReal) :
    multiReduction (F := Ideal) .maximumf [1] S2048 v 0xFF800000#32 reduces_S2048x128_S2048 (.inl rfl) rfl (ix1 k) ≤ z
      ↔ ∀ q : Fin 128, v (ix2 k q) ≤ z := by
  have e := Ideal.multiReduction_maximumf_single v 0xFF800000#32 reduces_S2048x128_S2048 (.inl rfl) rfl (ix1 k)
  have hl : ∀ q : Fin 128, reduces_S2048x128_S2048.lift (ix1 k) q = ix2 k q := fun q => funext fun a => by
    match a with
    | ⟨0, _⟩ => rfl
    | ⟨1, _⟩ => rfl
  rw [e, Finset.fold_max_le]
  constructor
  · intro h q
    have := h.2 q (Finset.mem_univ _)
    rw [← hl q]; exact this
  · intro h
    refine ⟨?_, fun q _ => ?_⟩
    · rw [show (FloatOps.ofBits .f32 0xFF800000#32 : Ideal .f32) = (⊥ : EReal) from ofBits_ninf]; exact bot_le
    · rw [Function.comp_apply, hl q]; exact h q

/-- The largest of a column of 2048 entries is below a bound exactly when every entry is. -/
theorem colmax3_le_iff (v : FVec Ideal S2048x1 .f32) (z : EReal) :
    multiReduction (F := Ideal) .maximumf [0] S1 v 0xFF800000#32 reduces_S2048x1_S1 (.inl rfl) rfl (ix1 (0 : Fin 1)) ≤ z
      ↔ ∀ k : Fin 2048, v (ix2 k (0 : Fin 1)) ≤ z := by
  have e := Ideal.multiReduction_maximumf_single v 0xFF800000#32 reduces_S2048x1_S1 (.inl rfl) rfl (ix1 (0 : Fin 1))
  have hl : ∀ k : Fin 2048, reduces_S2048x1_S1.lift (ix1 (0 : Fin 1)) k = ix2 k (0 : Fin 1) := fun k => funext fun a => by
    match a with
    | ⟨0, _⟩ => rfl
    | ⟨1, _⟩ => rfl
  rw [e, Finset.fold_max_le]
  constructor
  · intro h k
    have := h.2 k (Finset.mem_univ _)
    rw [← hl k]; exact this
  · intro h
    refine ⟨?_, fun k _ => ?_⟩
    · rw [show (FloatOps.ofBits .f32 0xFF800000#32 : Ideal .f32) = (⊥ : EReal) from ofBits_ninf]; exact bot_le
    · rw [Function.comp_apply, hl k]; exact h k

/-- The running-maximum payload is below a bound exactly when the carried value and the magnitude of every affine entry of
    the block are. -/
theorem pay3_3_le_iff (x0 : Vec Ideal S2048x128 .f32) (x1 x2 : Vec Ideal S1x128 .f32) (v19 : Vec Ideal S1x1 .f32) (z : EReal) :
    k3_pay3 x0 x1 x2 v19 (ix2 (0 : Fin 1) (0 : Fin 1)) ≤ z ↔
      v19 (ix2 (0 : Fin 1) (0 : Fin 1)) ≤ z ∧ ∀ (p : Fin 2048) (q : Fin 128),
        max (x0 (ix2 p q) * x1 (ix2 (0 : Fin 1) q) + x2 (ix2 (0 : Fin 1) q)) (-(x0 (ix2 p q) * x1 (ix2 (0 : Fin 1) q) + x2 (ix2 (0 : Fin 1) q))) ≤ z := by
  unfold k3_pay3
  rw [shapeCast_self]
  refine (show _ ↔ max (v19 (ix2 (0 : Fin 1) (0 : Fin 1))) _ ≤ z from Iff.rfl).trans ?_
  rw [max_le_iff]
  refine and_congr_right fun _ => ?_
  rw [shapeCast_a_1a_apply, colmax3_le_iff]
  refine forall_congr' fun p => ?_
  rw [shapeCast_a_a1_apply, rowmax3_le_iff]
  refine forall_congr' fun q => ?_
  rw [show absf (k3_pay2 x0 x1 x2) (ix2 p q) = max (k3_pay2 x0 x1 x2 (ix2 p q)) (-(k3_pay2 x0 x1 x2 (ix2 p q))) from rfl, pay3_2_apply]

/-! ## The blocks read through their windows -/

/-- The printed index maps over the grid: the input and output blocks move with the point along the rows, the scale,
    shift and accumulator blocks stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0 :=
  (by decide +kernel : ∀ t : Fin grid3.N, _)

/-- Row `p` of the block of point `t`. -/
def row3 (t : Fin cfg3.N) (p : Fin 2048) : Fin 65536 := rowOf t.val (lt_of_lt_of_eq t.isLt N_3) p

/-- The one index of a one-element matrix. -/
private theorem idx1x1_eq (y : (⟨2, ![1, 1]⟩ : Shape).Idx) : y = ix2 (0 : Fin 1) (0 : Fin 1) := funext fun a => by
  match a with
  | ⟨0, _⟩ => exact Fin.ext (by have := idx2_lt0 y; show (y 0).val = 0; omega)
  | ⟨1, _⟩ => exact Fin.ext (by have := idx2_lt1 y; show (y 1).val = 0; omega)

section AtV
variable (V : (c : Dev nD) → (b : Ref sig .tc) → Buf (Elt Ideal) ((c : Thread nD τ).loc b))

/-- The input matrix, the scales and the shifts as the region finds them. -/
abbrev Y3 (c : Dev nD) : Fin 65536 → Fin 128 → EReal := fun r j => V c (Pipeline.arrRef spec3 0) (ix2 r j)
abbrev a3 (c : Dev nD) : Fin 128 → EReal := fun j => V c (Pipeline.arrRef spec3 1) (ix2 (0 : Fin 1) j)
abbrev b3 (c : Dev nD) : Fin 128 → EReal := fun j => V c (Pipeline.arrRef spec3 2) (ix2 (0 : Fin 1) j)

/-- The input block at point `t` holds the rows `2048 t …` of the input matrix. -/
theorem iblk3_0_apply (c : Dev nD) (t : Fin cfg3.N) (p : Fin 2048) (q : Fin 128) :
    iblk3 V c 0 t (ix2 p q) = Y3 V c (row3 t p) q := by
  obtain ⟨e0, e1, -⟩ := idx_facts3 t
  show V c (Pipeline.arrRef spec3 0) (((cfg3.win 0).blk t).view.emb (ix2 p q)) = V c (Pipeline.arrRef spec3 0) (ix2 (row3 t p) q)
  refine congrArg (V c (Pipeline.arrRef spec3 0)) (funext fun a => Fin.ext ?_)
  match a with
  | ⟨0, _⟩ => show win3_0.index t (0 : Fin 2) * 2048 + 1 * p.val = t.val * 2048 + p.val; rw [e0]; omega
  | ⟨1, _⟩ => show win3_0.index t (1 : Fin 2) * 128 + 1 * q.val = q.val; rw [e1]; omega

/-- The scale block at every point is the row of scales. -/
theorem iblk3_1_apply (c : Dev nD) (t : Fin cfg3.N) (q : Fin 128) :
    iblk3 V c 1 t (ix2 (0 : Fin 1) q) = a3 V c q := by
  obtain ⟨-, -, e0, e1, -⟩ := idx_facts3 t
  show V c (Pipeline.arrRef spec3 1) (((cfg3.win 1).blk t).view.emb (ix2 (0 : Fin 1) q)) = V c (Pipeline.arrRef spec3 1) (ix2 (0 : Fin 1) q)
  refine congrArg (V c (Pipeline.arrRef spec3 1)) (funext fun a => Fin.ext ?_)
  match a with
  | ⟨0, _⟩ => show win3_1.index t (0 : Fin 2) * 1 + 1 * 0 = 0; rw [e0]
  | ⟨1, _⟩ => show win3_1.index t (1 : Fin 2) * 128 + 1 * q.val = q.val; rw [e1]; omega

/-- The shift block at every point is the row of shifts. -/
theorem iblk3_2_apply (c : Dev nD) (t : Fin cfg3.N) (q : Fin 128) :
    iblk3 V c 2 t (ix2 (0 : Fin 1) q) = b3 V c q := by
  obtain ⟨-, -, -, -, e0, e1, -⟩ := idx_facts3 t
  show V c (Pipeline.arrRef spec3 2) (((cfg3.win 2).blk t).view.emb (ix2 (0 : Fin 1) q)) = V c (Pipeline.arrRef spec3 2) (ix2 (0 : Fin 1) q)
  refine congrArg (V c (Pipeline.arrRef spec3 2)) (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

/-! ## The affine output -/

/-- The affine map of the whole input matrix, index by index. -/
def affG3 (c : Dev nD) : S65536x128.Idx → EReal := fun i =>
  Net.affine (Y3 V c) (a3 V c) (b3 V c) ⟨(i 0).val, idx2_lt0 i⟩ ⟨(i 1).val, idx2_lt1 i⟩

/-- At every point the output's buffer is left at the affine payload of the point's blocks. -/
theorem outs3_fst (c : Dev nD) (t : Fin cfg3.N) :
    (outsAt3 V c t.val t.isLt).1 = k3_pay2 (iblk3 V c 0 t) (iblk3 V c 1 t) (iblk3 V c 2 t) := by
  by_cases h0 : t.val % 32 = 0
  · rw [outsAt3_A V c t h0]
    dsimp only
    exact out3_A_3_eq (F := Ideal) c (grid3.coords t) (ms3_0 t) (hs3_0 t) (ms3_1 t) (hs3_1 t) (ms3_2 t) (hs3_2 t) (ms3_3 t) (hs3_3 t)
      (ms3_4 t) (hs3_4 t) ((hcond3_0 t).mpr h0) (iblk3 V c 0 t) (iblk3 V c 1 t) (iblk3 V c 2 t)
  · rw [outsAt3_B V c t h0]
    dsimp only
    exact out3_B_3_eq (F := Ideal) c (grid3.coords t) (ms3_0 t) (hs3_0 t) (ms3_1 t) (hs3_1 t) (ms3_2 t) (hs3_2 t) (ms3_3 t) (hs3_3 t)
      (ms3_4 t) (hs3_4 t) (fun h => h0 ((hcond3_0 t).mp h)) (iblk3 V c 0 t) (iblk3 V c 1 t) (iblk3 V c 2 t)
      (outsAt3 V c (t.val - 1) (Nat.lt_of_le_of_lt (Nat.sub_le _ _) t.isLt)).2

/-- What point `t` writes back is block `t` of the affine map of the input matrix. -/
theorem flushed3_3_eq (c : Dev nD) (t : Fin cfg3.N) :
    (dat3 V c).flushed 3 t = ((cfg3.win 3).blk t).view.read (Elt Ideal) (affG3 V c) := by
  show (cfg3.win 3).cut (grid3.coords t) ((dat3 V c).after 3 t) = _
  rw [after3_3, outs3_fst]
  obtain ⟨-, -, -, -, -, -, e0, e1, -⟩ := idx_facts3 t
  funext y
  obtain ⟨p, q, rfl⟩ : ∃ (p : Fin 2048) (q : Fin 128), y = ix2 p q := ⟨y 0, y 1, eq_ix2 y⟩
  show k3_pay2 (iblk3 V c 0 t) (iblk3 V c 1 t) (iblk3 V c 2 t) (ix2 p q) = affG3 V c (((cfg3.win 3).blk t).view.emb (ix2 p q))
  refine (pay3_2_apply (iblk3 V c 0 t) (iblk3 V c 1 t) (iblk3 V c 2 t) p q).trans ?_
  rw [iblk3_0_apply, iblk3_1_apply, iblk3_2_apply]
  have hr : (⟨((((cfg3.win 3).blk t).view.emb (ix2 p q)) 0).val, idx2_lt0 _⟩ : Fin 65536) = row3 t p := Fin.ext (by
    show win3_3.index t (0 : Fin 2) * 2048 + 1 * p.val = t.val * 2048 + p.val; rw [e0]; omega)
  have hq : (⟨((((cfg3.win 3).blk t).view.emb (ix2 p q)) 1).val, idx2_lt1 _⟩ : Fin 128) = q := Fin.ext (by
    show win3_3.index t (1 : Fin 2) * 128 + 1 * q.val = q.val; rw [e1]; omega)
  unfold affG3
  rw [hr, hq]
  rfl

/-- An index of the output array is in point `t`'s block iff each coordinate is in the block's range on its axis. -/
theorem mem_blk3_3 (t : Fin cfg3.N) (i : S65536x128.Idx) :
    i ∈ ((cfg3.win 3).blk t).view.set ↔ ∀ a : Fin 2, win3_3.index t a * S2048x128.size a ≤ (i a).val ∧ (i a).val < win3_3.index t a * S2048x128.size a + S2048x128.size a := by
  show i ∈ ((View.whole main_v29_0).slice (win3_3.rect t)).set ↔ _
  rw [View.set_slice_whole, Rect.mem_set_unit]
  exact Iff.rfl

/-- Row `r` is in the block of point `r / 2048`. -/
theorem cover3_3 (i : S65536x128.Idx) : ∃ t : Fin cfg3.N, (cfg3.win 3).flush t = true ∧ i ∈ ((cfg3.win 3).blk t).view.set := by
  have h0 : (i 0).val < 65536 := idx2_lt0 i
  have h1 : (i 1).val < 128 := idx2_lt1 i
  obtain ⟨t, ht⟩ : ∃ t : Fin cfg3.N, t.val = (i 0).val / 2048 := ⟨⟨(i 0).val / 2048, by rw [show cfg3.N = 32 from N_3]; omega⟩, rfl⟩
  obtain ⟨-, -, -, -, -, -, e0, e1, -⟩ := idx_facts3 t
  refine ⟨t, flush3_3 t, ?_⟩
  rw [mem_blk3_3]
  intro a
  match a with
  | ⟨0, _⟩ => show win3_3.index t (0 : Fin 2) * 2048 ≤ (i 0).val ∧ (i 0).val < win3_3.index t (0 : Fin 2) * 2048 + 2048; rw [e0, ht]; omega
  | ⟨1, _⟩ => show win3_3.index t (1 : Fin 2) * 128 ≤ (i 1).val ∧ (i 1).val < win3_3.index t (1 : Fin 2) * 128 + 128; rw [e1]; omega

/-- THE AFFINE OUTPUT after the region: `y · a + b`, entry by entry. -/
theorem final3_3 (c : Dev nD) (r : Fin 65536) (j : Fin 128) :
    (dat3 (F := Ideal) V c).arrAt 3 cfg3.N (ix2 r j) = Net.affine (Y3 V c) (a3 V c) (b3 V c) r j := by
  rw [(dat3 V c).arrAt_eq_of_cover 3 (affG3 V c) (fun t _ => flushed3_3_eq V c t) cover3_3]
  rfl

/-! ## The running maximum -/

/-- The magnitudes of a block's affine payload are the magnitudes of the affine map on the block's rows. -/
theorem blk3_le_iff (c : Dev nD) (t : Fin cfg3.N) (z : EReal) (x0 : Vec Ideal S2048x128 .f32) (x1 x2 : Vec Ideal S1x128 .f32)
    (h0 : ∀ (p : Fin 2048) (q : Fin 128), x0 (ix2 p q) = Y3 V c (row3 t p) q)
    (h1 : ∀ q : Fin 128, x1 (ix2 (0 : Fin 1) q) = a3 V c q) (h2 : ∀ q : Fin 128, x2 (ix2 (0 : Fin 1) q) = b3 V c q) :
    (∀ (p : Fin 2048) (q : Fin 128),
        max (x0 (ix2 p q) * x1 (ix2 (0 : Fin 1) q) + x2 (ix2 (0 : Fin 1) q))
          (-(x0 (ix2 p q) * x1 (ix2 (0 : Fin 1) q) + x2 (ix2 (0 : Fin 1) q))) ≤ z)
      ↔ ∀ p : Fin 2048, ∀ j : Fin 128, Net.mag (Net.affine (Y3 V c) (a3 V c) (b3 V c) (row3 t p) j) ≤ z := by
  refine forall_congr' fun p => forall_congr' fun q => ?_
  rw [h0, h1, h2]
  exact Iff.rfl

/-- After point `n` the accumulator is below a bound exactly when zero and the magnitudes of the affine map on the rows
    below `(n + 1) · 2048` are. -/
theorem acc3_le_iff (c : Dev nD) : ∀ (n : ℕ) (hn : n < cfg3.N) (z : EReal),
    (outsAt3 V c n hn).2 (ix2 (0 : Fin 1) (0 : Fin 1)) ≤ z ↔
      Net.zero ≤ z ∧ ∀ r : Fin 65536, r.val < (n + 1) * 2048 → ∀ j : Fin 128, Net.mag (Net.affine (Y3 V c) (a3 V c) (b3 V c) r j) ≤ z
  | 0, hn, z => by
    rw [outsAt3_A V c ⟨0, hn⟩ rfl]
    dsimp only
    rw [out3_A_4_eq (F := Ideal) c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩)
      (ms3_3 ⟨0, hn⟩) (hs3_3 ⟨0, hn⟩) (ms3_4 ⟨0, hn⟩) (hs3_4 ⟨0, hn⟩) _ (iblk3 V c 0 ⟨0, hn⟩) (iblk3 V c 1 ⟨0, hn⟩) (iblk3 V c 2 ⟨0, hn⟩)]
    refine (pay3_3_le_iff _ _ _ _ z).trans ?_
    refine (and_congr Iff.rfl (blk3_le_iff V c ⟨0, hn⟩ z (iblk3 V c 0 ⟨0, hn⟩) (iblk3 V c 1 ⟨0, hn⟩) (iblk3 V c 2 ⟨0, hn⟩)
      (iblk3_0_apply V c ⟨0, hn⟩) (iblk3_1_apply V c ⟨0, hn⟩) (iblk3_2_apply V c ⟨0, hn⟩))).trans ?_
    refine and_congr_right fun _ => ?_
    refine Iff.trans ?_ (forall_rows_succ (fun r => ∀ j : Fin 128, Net.mag (Net.affine (Y3 V c) (a3 V c) (b3 V c) r j) ≤ z) 0 (by norm_num)).symm
    rw [forall_rows_zero, true_and]
    exact Iff.rfl
  | n + 1, hn, z => by
    have hN : n + 1 < 32 := lt_of_lt_of_eq hn N_3
    have hB : ¬(⟨n + 1, hn⟩ : Fin cfg3.N).val % 32 = 0 := by dsimp only; omega
    rw [outsAt3_B V c ⟨n + 1, hn⟩ hB]
    dsimp only
    rw [out3_B_4_eq (F := Ideal) c (grid3.coords ⟨n + 1, hn⟩) (ms3_0 ⟨n + 1, hn⟩) (hs3_0 ⟨n + 1, hn⟩) (ms3_1 ⟨n + 1, hn⟩) (hs3_1 ⟨n + 1, hn⟩)
      (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) _
      (iblk3 V c 0 ⟨n + 1, hn⟩) (iblk3 V c 1 ⟨n + 1, hn⟩) (iblk3 V c 2 ⟨n + 1, hn⟩) _]
    refine (pay3_3_le_iff _ _ _ _ z).trans ?_
    refine (and_congr (acc3_le_iff c n (Nat.lt_of_succ_lt hn) z) (blk3_le_iff V c ⟨n + 1, hn⟩ z (iblk3 V c 0 ⟨n + 1, hn⟩) (iblk3 V c 1 ⟨n + 1, hn⟩)
      (iblk3 V c 2 ⟨n + 1, hn⟩) (iblk3_0_apply V c ⟨n + 1, hn⟩) (iblk3_1_apply V c ⟨n + 1, hn⟩) (iblk3_2_apply V c ⟨n + 1, hn⟩))).trans ?_
    refine and_assoc.trans (and_congr_right fun _ => ?_)
    exact (forall_rows_succ (fun r => ∀ j : Fin 128, Net.mag (Net.affine (Y3 V c) (a3 V c) (b3 V c) r j) ≤ z) (n + 1) hN).symm

/-- The one write-back of the accumulator, at the last point, writes the running maximum of the affine map. -/
theorem flushed3_4_eq (c : Dev nD) (t : Fin cfg3.N) (hf : (cfg3.win 4).flush t = true) :
    (dat3 V c).flushed 4 t
      = ((cfg3.win 4).blk t).view.read (Elt Ideal) (fun _ => Net.runMax (Net.affine (Y3 V c) (a3 V c) (b3 V c))) := by
  have hN : t.val < 32 := lt_of_lt_of_eq t.isLt N_3
  have h31 : t.val = 31 := by have := (flush3_4 t).mp hf; omega
  show (cfg3.win 4).cut (grid3.coords t) ((dat3 V c).after 4 t) = _
  rw [after3_4]
  funext y
  rw [idx1x1_eq y]
  show (outsAt3 V c t.val t.isLt).2 (ix2 (0 : Fin 1) (0 : Fin 1)) = Net.runMax (Net.affine (Y3 V c) (a3 V c) (b3 V c))
  refine eq_of_forall_ge_iff fun z => ?_
  rw [acc3_le_iff V c t.val t.isLt z, runMax_le_iff, h31]
  exact and_congr_right fun _ => forall_rows_all (fun r => ∀ j : Fin 128, Net.mag (Net.affine (Y3 V c) (a3 V c) (b3 V c) r j) ≤ z)

/-- The last point's block is the whole one-element array. -/
theorem cover3_4 (i : S1x1.Idx) : ∃ t : Fin cfg3.N, (cfg3.win 4).flush t = true ∧ i ∈ ((cfg3.win 4).blk t).view.set := by
  have h0 : (i 0).val < 1 := idx2_lt0 i
  have h1 : (i 1).val < 1 := idx2_lt1 i
  obtain ⟨t, ht⟩ : ∃ t : Fin cfg3.N, t.val = 31 := ⟨⟨31, by rw [show cfg3.N = 32 from N_3]; norm_num⟩, rfl⟩
  obtain ⟨-, -, -, -, -, -, -, -, e0, e1⟩ := idx_facts3 t
  refine ⟨t, (flush3_4 t).mpr (by rw [ht]), ?_⟩
  show i ∈ ((View.whole main_v29_1).slice (win3_4.rect t)).set
  rw [View.set_slice_whole, Rect.mem_set_unit]
  intro a
  match a with
  | ⟨0, _⟩ => show win3_4.index t (0 : Fin 2) * 1 ≤ (i 0).val ∧ (i 0).val < win3_4.index t (0 : Fin 2) * 1 + 1; rw [e0]; omega
  | ⟨1, _⟩ => show win3_4.index t (1 : Fin 2) * 1 ≤ (i 1).val ∧ (i 1).val < win3_4.index t (1 : Fin 2) * 1 + 1; rw [e1]; omega

/-- THE RUNNING MAXIMUM after the region: the maximum of zero and the magnitude of every entry of `y · a + b`. -/
theorem final3_4 (c : Dev nD) (y : S1x1.Idx) :
    (dat3 (F := Ideal) V c).arrAt 4 cfg3.N y = Net.runMax (Net.affine (Y3 V c) (a3 V c) (b3 V c)) := by
  rw [(dat3 V c).arrAt_eq_of_cover 4 (fun _ => Net.runMax (Net.affine (Y3 V c) (a3 V c) (b3 V c))) (flushed3_4_eq V c) cover3_4]

end AtV

end Cert.KernelIdeal.RegionValue

end
-- ==== Proof.Region7.lean ====
import proofs.«131146_j57208964383148_1_alg».proof.Proof.Gen.KernelIdeal.Frame
import proofs.«131146_j57208964383148_1_alg».proof.Proof.Net
import proofs.«131146_j57208964383148_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  The value of region 7 (the scale-and-shift of a 65536 × 128 matrix by a row of scales and a row of shifts, with the
  running maximum of the magnitudes of the result), read off its frame at any entry contents `V`: after the region the
  output array holds `y · a + b` entry by entry, and the one-element array holds the maximum of zero and every magnitude.

  The body at a point: it stores the affine payload of the point's blocks; the accumulator is set to zero at the first
  point, and at every point is left at the maximum of what it held and the largest magnitude of the block's affine
  payload. The accumulator is carried by its universal property: after point `n` it is below a bound exactly when zero
  and the magnitudes of the rows below `(n + 1) · 2048` are.
-/

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.RegionValue

open Cert.KernelIdeal Cert.KernelIdeal.Gen

section Pieces
variable {F : FTy → Type} [FloatOps F]

theorem hz7 : (![0, 0] : Fin 2 → Nat) = fun _ => 0 := funext fun a => by fin_cases a <;> rfl

/-- At the first point the body leaves the affine payload of its input blocks in the output block. -/
theorem out7_A_3_eq (c : Dev nD) (i : grid7.Coords) (a1 : Memref sig .tc .vmem S2048x128 .f32) (h1 : a1.IsWhole)
    (a2 : Memref sig .tc .vmem S1x128 .f32) (h2 : a2.IsWhole) (a7 : Memref sig .tc .vmem S1x128 .f32) (h3 : a7.IsWhole)
    (a4 : Memref sig .tc .vmem S2048x128 .f32) (h4 : a4.IsWhole) (a5 : Memref sig .tc .vmem S1x1 .f32) (h5 : a5.IsWhole)
    (hc : cond7_0 i) (x0 : Vec F S2048x128 .f32) (x1 x2 : Vec F S1x128 .f32) :
    out7_A_3 c i a1 h1 a2 h2 a7 h3 a4 h4 a5 h5 hc x0 x1 x2 = k7_pay2 x0 x1 x2 := by
  unfold out7_A_3
  rw [View.read_writes_eq_canon _ _ _ (cover7_A_3 c i a1 h1 a2 h2 a7 h3 a4 h4 a5 h5 hc x0 x1 x2)]
  unfold kernelRun7_A
  dsimp only
  rw [View.canon_unit_zero hz7]
  simp only [View.readAt_eq_ld, h1.read_unread, h2.read_unread, h3.read_unread, View.ld_unit_zero (S := S2048x128) hz7,
    View.ld_unit_zero (S := S1x128) hz7]

/-- At every later point likewise. -/
theorem out7_B_3_eq (c : Dev nD) (i : grid7.Coords) (a1 : Memref sig .tc .vmem S2048x128 .f32) (h1 : a1.IsWhole)
    (a2 : Memref sig .tc .vmem S1x128 .f32) (h2 : a2.IsWhole) (a7 : Memref sig .tc .vmem S1x128 .f32) (h3 : a7.IsWhole)
    (a4 : Memref sig .tc .vmem S2048x128 .f32) (h4 : a4.IsWhole) (a5 : Memref sig .tc .vmem S1x1 .f32) (h5 : a5.IsWhole)
    (hc : ¬cond7_0 i) (x0 : Vec F S2048x128 .f32) (x1 x2 : Vec F S1x128 .f32) (xo4 : Vec F S1x1 .f32) :
    out7_B_3 c i a1 h1 a2 h2 a7 h3 a4 h4 a5 h5 hc x0 x1 x2 xo4 = k7_pay2 x0 x1 x2 := by
  unfold out7_B_3
  rw [View.read_writes_eq_canon _ _ _ (cover7_B_3 c i a1 h1 a2 h2 a7 h3 a4 h4 a5 h5 hc x0 x1 x2 xo4)]
  unfold kernelRun7_B
  dsimp only
  rw [View.canon_unit_zero hz7]
  simp only [View.readAt_eq_ld, h1.read_unread, h2.read_unread, h3.read_unread, View.ld_unit_zero (S := S2048x128) hz7,
    View.ld_unit_zero (S := S1x128) hz7]

/-- At a later point the accumulator is left at the maximum payload over what the point before left. -/
theorem out7_B_4_eq (c : Dev nD) (i : grid7.Coords) (a1 : Memref sig .tc .vmem S2048x128 .f32) (h1 : a1.IsWhole)
    (a2 : Memref sig .tc .vmem S1x128 .f32) (h2 : a2.IsWhole) (a7 : Memref sig .tc .vmem S1x128 .f32) (h3 : a7.IsWhole)
    (a4 : Memref sig .tc .vmem S2048x128 .f32) (h4 : a4.IsWhole) (a5 : Memref sig .tc .vmem S1x1 .f32) (h5 : a5.IsWhole)
    (hc : ¬cond7_0 i) (x0 : Vec F S2048x128 .f32) (x1 x2 : Vec F S1x128 .f32) (xo4 : Vec F S1x1 .f32) :
    out7_B_4 c i a1 h1 a2 h2 a7 h3 a4 h4 a5 h5 hc x0 x1 x2 xo4 = k7_pay3 x0 x1 x2 xo4 := by
  unfold out7_B_4
  rw [View.read_writes_eq_canon _ _ _ (cover7_B_4 c i a1 h1 a2 h2 a7 h3 a4 h4 a5 h5 hc x0 x1 x2 xo4)]
  unfold kernelRun7_B
  dsimp only
  rw [View.canon_unit_zero hz7]
  simp only [View.readAt_eq_ld, h1.read_unread, h2.read_unread, h3.read_unread, h5.read_unread, View.ld_unit_zero (S := S2048x128) hz7,
    View.ld_unit_zero (S := S1x128) hz7, View.ld_unit_zero (S := S1x1) hz7]

/-- At the first point the accumulator is zeroed, read back, and left at the maximum payload over the zero block. -/
theorem out7_A_4_eq (c : Dev nD) (i : grid7.Coords) (a1 : Memref sig .tc .vmem S2048x128 .f32) (h1 : a1.IsWhole)
    (a2 : Memref sig .tc .vmem S1x128 .f32) (h2 : a2.IsWhole) (a7 : Memref sig .tc .vmem S1x128 .f32) (h3 : a7.IsWhole)
    (a4 : Memref sig .tc .vmem S2048x128 .f32) (h4 : a4.IsWhole) (a5 : Memref sig .tc .vmem S1x1 .f32) (h5 : a5.IsWhole)
    (hc : cond7_0 i) (x0 : Vec F S2048x128 .f32) (x1 x2 : Vec F S1x128 .f32) :
    out7_A_4 c i a1 h1 a2 h2 a7 h3 a4 h4 a5 h5 hc x0 x1 x2 = k7_pay3 x0 x1 x2 (k7_pay1 (F := F)) := by
  unfold out7_A_4
  rw [View.read_writes_eq_canon _ _ _ (cover7_A_4 c i a1 h1 a2 h2 a7 h3 a4 h4 a5 h5 hc x0 x1 x2)]
  unfold kernelRun7_A
  dsimp only
  sl_unfold_words
  rw [View.canon_cons_unit_zero (S := S1x1) hz7, View.readCov_unit_zero (S := S1x1) _ hz7]
  simp only [View.readAt_eq_ld, h1.read_unread, h2.read_unread, h3.read_unread, View.ld_unit_zero (S := S2048x128) hz7,
    View.ld_unit_zero (S := S1x128) hz7]

end Pieces

/-! ## The payloads at an index, on the extended reals -/

/-- The affine payload at an index: the entry times the column's scale plus the column's shift. -/
theorem pay7_2_apply (x0 : Vec Ideal S2048x128 .f32) (x1 x2 : Vec Ideal S1x128 .f32) (p : Fin 2048) (q : Fin 128) :
    k7_pay2 x0 x1 x2 (ix2 p q) = x0 (ix2 p q) * x1 (ix2 (0 : Fin 1) q) + x2 (ix2 (0 : Fin 1) q) := by
  unfold k7_pay2
  rw [shapeCast_self, shapeCast_self, shapeCast_self]
  refine (addf_apply _ _ _).trans ?_
  rw [broadcastTo_1b_ab_apply]
  refine congrArg (· + _) ?_
  refine (mulf_apply _ _ _).trans ?_
  rw [broadcastTo_1b_ab_apply]

/-- A row's largest entry is below a bound exactly when every entry of the row is. -/
theorem rowmax7_le_iff (v : FVec Ideal S2048x128 .f32) (k : Fin 2048) (z : EReal) :
    multiReduction (F := Ideal) .maximumf [1] S2048 v 0xFF800000#32 reduces_S2048x128_S2048 (.inl rfl) rfl (ix1 k) ≤ z
      ↔ ∀ q : Fin 128, v (ix2 k q) ≤ z := by
  have e := Ideal.multiReduction_maximumf_single v 0xFF800000#32 reduces_S2048x128_S2048 (.inl rfl) rfl (ix1 k)
  have hl : ∀ q : Fin 128, reduces_S2048x128_S2048.lift (ix1 k) q = ix2 k q := fun q => funext fun a => by
    match a with
    | ⟨0, _⟩ => rfl
    | ⟨1, _⟩ => rfl
  rw [e, Finset.fold_max_le]
  constructor
  · intro h q
    have := h.2 q (Finset.mem_univ _)
    rw [← hl q]; exact this
  · intro h
    refine ⟨?_, fun q _ => ?_⟩
    · rw [show (FloatOps.ofBits .f32 0xFF800000#32 : Ideal .f32) = (⊥ : EReal) from ofBits_ninf]; exact bot_le
    · rw [Function.comp_apply, hl q]; exact h q

/-- The largest of a column of 2048 entries is below a bound exactly when every entry is. -/
theorem colmax7_le_iff (v : FVec Ideal S2048x1 .f32) (z : EReal) :
    multiReduction (F := Ideal) .maximumf [0] S1 v 0xFF800000#32 reduces_S2048x1_S1 (.inl rfl) rfl (ix1 (0 : Fin 1)) ≤ z
      ↔ ∀ k : Fin 2048, v (ix2 k (0 : Fin 1)) ≤ z := by
  have e := Ideal.multiReduction_maximumf_single v 0xFF800000#32 reduces_S2048x1_S1 (.inl rfl) rfl (ix1 (0 : Fin 1))
  have hl : ∀ k : Fin 2048, reduces_S2048x1_S1.lift (ix1 (0 : Fin 1)) k = ix2 k (0 : Fin 1) := fun k => funext fun a => by
    match a with
    | ⟨0, _⟩ => rfl
    | ⟨1, _⟩ => rfl
  rw [e, Finset.fold_max_le]
  constructor
  · intro h k
    have := h.2 k (Finset.mem_univ _)
    rw [← hl k]; exact this
  · intro h
    refine ⟨?_, fun k _ => ?_⟩
    · rw [show (FloatOps.ofBits .f32 0xFF800000#32 : Ideal .f32) = (⊥ : EReal) from ofBits_ninf]; exact bot_le
    · rw [Function.comp_apply, hl k]; exact h k

/-- The running-maximum payload is below a bound exactly when the carried value and the magnitude of every affine entry of
    the block are. -/
theorem pay7_3_le_iff (x0 : Vec Ideal S2048x128 .f32) (x1 x2 : Vec Ideal S1x128 .f32) (v19 : Vec Ideal S1x1 .f32) (z : EReal) :
    k7_pay3 x0 x1 x2 v19 (ix2 (0 : Fin 1) (0 : Fin 1)) ≤ z ↔
      v19 (ix2 (0 : Fin 1) (0 : Fin 1)) ≤ z ∧ ∀ (p : Fin 2048) (q : Fin 128),
        max (x0 (ix2 p q) * x1 (ix2 (0 : Fin 1) q) + x2 (ix2 (0 : Fin 1) q)) (-(x0 (ix2 p q) * x1 (ix2 (0 : Fin 1) q) + x2 (ix2 (0 : Fin 1) q))) ≤ z := by
  unfold k7_pay3
  rw [shapeCast_self]
  refine (show _ ↔ max (v19 (ix2 (0 : Fin 1) (0 : Fin 1))) _ ≤ z from Iff.rfl).trans ?_
  rw [max_le_iff]
  refine and_congr_right fun _ => ?_
  rw [shapeCast_a_1a_apply, colmax7_le_iff]
  refine forall_congr' fun p => ?_
  rw [shapeCast_a_a1_apply, rowmax7_le_iff]
  refine forall_congr' fun q => ?_
  rw [show absf (k7_pay2 x0 x1 x2) (ix2 p q) = max (k7_pay2 x0 x1 x2 (ix2 p q)) (-(k7_pay2 x0 x1 x2 (ix2 p q))) from rfl, pay7_2_apply]

/-! ## The blocks read through their windows -/

/-- The printed index maps over the grid: the input and output blocks move with the point along the rows, the scale,
    shift and accumulator blocks stay. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0 :=
  (by decide +kernel : ∀ t : Fin grid7.N, _)

/-- Row `p` of the block of point `t`. -/
def row7 (t : Fin cfg7.N) (p : Fin 2048) : Fin 65536 := rowOf t.val (lt_of_lt_of_eq t.isLt N_7) p

/-- The one index of a one-element matrix. -/
private theorem idx1x1_eq (y : (⟨2, ![1, 1]⟩ : Shape).Idx) : y = ix2 (0 : Fin 1) (0 : Fin 1) := funext fun a => by
  match a with
  | ⟨0, _⟩ => exact Fin.ext (by have := idx2_lt0 y; show (y 0).val = 0; omega)
  | ⟨1, _⟩ => exact Fin.ext (by have := idx2_lt1 y; show (y 1).val = 0; omega)

section AtV
variable (V : (c : Dev nD) → (b : Ref sig .tc) → Buf (Elt Ideal) ((c : Thread nD τ).loc b))

/-- The input matrix, the scales and the shifts as the region finds them. -/
abbrev Y7 (c : Dev nD) : Fin 65536 → Fin 128 → EReal := fun r j => V c (Pipeline.arrRef spec7 0) (ix2 r j)
abbrev a7 (c : Dev nD) : Fin 128 → EReal := fun j => V c (Pipeline.arrRef spec7 1) (ix2 (0 : Fin 1) j)
abbrev b7 (c : Dev nD) : Fin 128 → EReal := fun j => V c (Pipeline.arrRef spec7 2) (ix2 (0 : Fin 1) j)

/-- The input block at point `t` holds the rows `2048 t …` of the input matrix. -/
theorem iblk7_0_apply (c : Dev nD) (t : Fin cfg7.N) (p : Fin 2048) (q : Fin 128) :
    iblk7 V c 0 t (ix2 p q) = Y7 V c (row7 t p) q := by
  obtain ⟨e0, e1, -⟩ := idx_facts7 t
  show V c (Pipeline.arrRef spec7 0) (((cfg7.win 0).blk t).view.emb (ix2 p q)) = V c (Pipeline.arrRef spec7 0) (ix2 (row7 t p) q)
  refine congrArg (V c (Pipeline.arrRef spec7 0)) (funext fun a => Fin.ext ?_)
  match a with
  | ⟨0, _⟩ => show win7_0.index t (0 : Fin 2) * 2048 + 1 * p.val = t.val * 2048 + p.val; rw [e0]; omega
  | ⟨1, _⟩ => show win7_0.index t (1 : Fin 2) * 128 + 1 * q.val = q.val; rw [e1]; omega

/-- The scale block at every point is the row of scales. -/
theorem iblk7_1_apply (c : Dev nD) (t : Fin cfg7.N) (q : Fin 128) :
    iblk7 V c 1 t (ix2 (0 : Fin 1) q) = a7 V c q := by
  obtain ⟨-, -, e0, e1, -⟩ := idx_facts7 t
  show V c (Pipeline.arrRef spec7 1) (((cfg7.win 1).blk t).view.emb (ix2 (0 : Fin 1) q)) = V c (Pipeline.arrRef spec7 1) (ix2 (0 : Fin 1) q)
  refine congrArg (V c (Pipeline.arrRef spec7 1)) (funext fun a => Fin.ext ?_)
  match a with
  | ⟨0, _⟩ => show win7_1.index t (0 : Fin 2) * 1 + 1 * 0 = 0; rw [e0]
  | ⟨1, _⟩ => show win7_1.index t (1 : Fin 2) * 128 + 1 * q.val = q.val; rw [e1]; omega

/-- The shift block at every point is the row of shifts. -/
theorem iblk7_2_apply (c : Dev nD) (t : Fin cfg7.N) (q : Fin 128) :
    iblk7 V c 2 t (ix2 (0 : Fin 1) q) = b7 V c q := by
  obtain ⟨-, -, -, -, e0, e1, -⟩ := idx_facts7 t
  show V c (Pipeline.arrRef spec7 2) (((cfg7.win 2).blk t).view.emb (ix2 (0 : Fin 1) q)) = V c (Pipeline.arrRef spec7 2) (ix2 (0 : Fin 1) q)
  refine congrArg (V c (Pipeline.arrRef spec7 2)) (funext fun a => Fin.ext ?_)
  match a with
  | ⟨0, _⟩ => show win7_2.index t (0 : Fin 2) * 1 + 1 * 0 = 0; rw [e0]
  | ⟨1, _⟩ => show win7_2.index t (1 : Fin 2) * 128 + 1 * q.val = q.val; rw [e1]; omega

/-! ## The affine output -/

/-- The affine map of the whole input matrix, index by index. -/
def affG7 (c : Dev nD) : S65536x128.Idx → EReal := fun i =>
  Net.affine (Y7 V c) (a7 V c) (b7 V c) ⟨(i 0).val, idx2_lt0 i⟩ ⟨(i 1).val, idx2_lt1 i⟩

/-- At every point the output's buffer is left at the affine payload of the point's blocks. -/
theorem outs7_fst (c : Dev nD) (t : Fin cfg7.N) :
    (outsAt7 V c t.val t.isLt).1 = k7_pay2 (iblk7 V c 0 t) (iblk7 V c 1 t) (iblk7 V c 2 t) := by
  by_cases h0 : t.val % 32 = 0
  · rw [outsAt7_A V c t h0]
    dsimp only
    exact out7_A_3_eq (F := Ideal) c (grid7.coords t) (ms7_0 t) (hs7_0 t) (ms7_1 t) (hs7_1 t) (ms7_2 t) (hs7_2 t) (ms7_3 t) (hs7_3 t)
      (ms7_4 t) (hs7_4 t) ((hcond7_0 t).mpr h0) (iblk7 V c 0 t) (iblk7 V c 1 t) (iblk7 V c 2 t)
  · rw [outsAt7_B V c t h0]
    dsimp only
    exact out7_B_3_eq (F := Ideal) c (grid7.coords t) (ms7_0 t) (hs7_0 t) (ms7_1 t) (hs7_1 t) (ms7_2 t) (hs7_2 t) (ms7_3 t) (hs7_3 t)
      (ms7_4 t) (hs7_4 t) (fun h => h0 ((hcond7_0 t).mp h)) (iblk7 V c 0 t) (iblk7 V c 1 t) (iblk7 V c 2 t)
      (outsAt7 V c (t.val - 1) (Nat.lt_of_le_of_lt (Nat.sub_le _ _) t.isLt)).2

/-- What point `t` writes back is block `t` of the affine map of the input matrix. -/
theorem flushed7_3_eq (c : Dev nD) (t : Fin cfg7.N) :
    (dat7 V c).flushed 3 t = ((cfg7.win 3).blk t).view.read (Elt Ideal) (affG7 V c) := by
  show (cfg7.win 3).cut (grid7.coords t) ((dat7 V c).after 3 t) = _
  rw [after7_3, outs7_fst]
  obtain ⟨-, -, -, -, -, -, e0, e1, -⟩ := idx_facts7 t
  funext y
  obtain ⟨p, q, rfl⟩ : ∃ (p : Fin 2048) (q : Fin 128), y = ix2 p q := ⟨y 0, y 1, eq_ix2 y⟩
  show k7_pay2 (iblk7 V c 0 t) (iblk7 V c 1 t) (iblk7 V c 2 t) (ix2 p q) = affG7 V c (((cfg7.win 3).blk t).view.emb (ix2 p q))
  refine (pay7_2_apply (iblk7 V c 0 t) (iblk7 V c 1 t) (iblk7 V c 2 t) p q).trans ?_
  rw [iblk7_0_apply, iblk7_1_apply, iblk7_2_apply]
  have hr : (⟨((((cfg7.win 3).blk t).view.emb (ix2 p q)) 0).val, idx2_lt0 _⟩ : Fin 65536) = row7 t p := Fin.ext (by
    show win7_3.index t (0 : Fin 2) * 2048 + 1 * p.val = t.val * 2048 + p.val; rw [e0]; omega)
  have hq : (⟨((((cfg7.win 3).blk t).view.emb (ix2 p q)) 1).val, idx2_lt1 _⟩ : Fin 128) = q := Fin.ext (by
    show win7_3.index t (1 : Fin 2) * 128 + 1 * q.val = q.val; rw [e1]; omega)
  unfold affG7
  rw [hr, hq]
  rfl

/-- An index of the output array is in point `t`'s block iff each coordinate is in the block's range on its axis. -/
theorem mem_blk7_3 (t : Fin cfg7.N) (i : S65536x128.Idx) :
    i ∈ ((cfg7.win 3).blk t).view.set ↔ ∀ a : Fin 2, win7_3.index t a * S2048x128.size a ≤ (i a).val ∧ (i a).val < win7_3.index t a * S2048x128.size a + S2048x128.size a := by
  show i ∈ ((View.whole main_v63_0).slice (win7_3.rect t)).set ↔ _
  rw [View.set_slice_whole, Rect.mem_set_unit]
  exact Iff.rfl

/-- Row `r` is in the block of point `r / 2048`. -/
theorem cover7_3 (i : S65536x128.Idx) : ∃ t : Fin cfg7.N, (cfg7.win 3).flush t = true ∧ i ∈ ((cfg7.win 3).blk t).view.set := by
  have h0 : (i 0).val < 65536 := idx2_lt0 i
  have h1 : (i 1).val < 128 := idx2_lt1 i
  obtain ⟨t, ht⟩ : ∃ t : Fin cfg7.N, t.val = (i 0).val / 2048 := ⟨⟨(i 0).val / 2048, by rw [show cfg7.N = 32 from N_7]; omega⟩, rfl⟩
  obtain ⟨-, -, -, -, -, -, e0, e1, -⟩ := idx_facts7 t
  refine ⟨t, flush7_3 t, ?_⟩
  rw [mem_blk7_3]
  intro a
  match a with
  | ⟨0, _⟩ => show win7_3.index t (0 : Fin 2) * 2048 ≤ (i 0).val ∧ (i 0).val < win7_3.index t (0 : Fin 2) * 2048 + 2048; rw [e0, ht]; omega
  | ⟨1, _⟩ => show win7_3.index t (1 : Fin 2) * 128 ≤ (i 1).val ∧ (i 1).val < win7_3.index t (1 : Fin 2) * 128 + 128; rw [e1]; omega

/-- THE AFFINE OUTPUT after the region: `y · a + b`, entry by entry. -/
theorem final7_3 (c : Dev nD) (r : Fin 65536) (j : Fin 128) :
    (dat7 (F := Ideal) V c).arrAt 3 cfg7.N (ix2 r j) = Net.affine (Y7 V c) (a7 V c) (b7 V c) r j := by
  rw [(dat7 V c).arrAt_eq_of_cover 3 (affG7 V c) (fun t _ => flushed7_3_eq V c t) cover7_3]
  rfl

/-! ## The running maximum -/

/-- The magnitudes of a block's affine payload are the magnitudes of the affine map on the block's rows. -/
theorem blk7_le_iff (c : Dev nD) (t : Fin cfg7.N) (z : EReal) (x0 : Vec Ideal S2048x128 .f32) (x1 x2 : Vec Ideal S1x128 .f32)
    (h0 : ∀ (p : Fin 2048) (q : Fin 128), x0 (ix2 p q) = Y7 V c (row7 t p) q)
    (h1 : ∀ q : Fin 128, x1 (ix2 (0 : Fin 1) q) = a7 V c q) (h2 : ∀ q : Fin 128, x2 (ix2 (0 : Fin 1) q) = b7 V c q) :
    (∀ (p : Fin 2048) (q : Fin 128),
        max (x0 (ix2 p q) * x1 (ix2 (0 : Fin 1) q) + x2 (ix2 (0 : Fin 1) q))
          (-(x0 (ix2 p q) * x1 (ix2 (0 : Fin 1) q) + x2 (ix2 (0 : Fin 1) q))) ≤ z)
      ↔ ∀ p : Fin 2048, ∀ j : Fin 128, Net.mag (Net.affine (Y7 V c) (a7 V c) (b7 V c) (row7 t p) j) ≤ z := by
  refine forall_congr' fun p => forall_congr' fun q => ?_
  rw [h0, h1, h2]
  exact Iff.rfl

/-- After point `n` the accumulator is below a bound exactly when zero and the magnitudes of the affine map on the rows
    below `(n + 1) · 2048` are. -/
theorem acc7_le_iff (c : Dev nD) : ∀ (n : ℕ) (hn : n < cfg7.N) (z : EReal),
    (outsAt7 V c n hn).2 (ix2 (0 : Fin 1) (0 : Fin 1)) ≤ z ↔
      Net.zero ≤ z ∧ ∀ r : Fin 65536, r.val < (n + 1) * 2048 → ∀ j : Fin 128, Net.mag (Net.affine (Y7 V c) (a7 V c) (b7 V c) r j) ≤ z
  | 0, hn, z => by
    rw [outsAt7_A V c ⟨0, hn⟩ rfl]
    dsimp only
    rw [out7_A_4_eq (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩)
      (ms7_3 ⟨0, hn⟩) (hs7_3 ⟨0, hn⟩) (ms7_4 ⟨0, hn⟩) (hs7_4 ⟨0, hn⟩) _ (iblk7 V c 0 ⟨0, hn⟩) (iblk7 V c 1 ⟨0, hn⟩) (iblk7 V c 2 ⟨0, hn⟩)]
    refine (pay7_3_le_iff _ _ _ _ z).trans ?_
    refine (and_congr Iff.rfl (blk7_le_iff V c ⟨0, hn⟩ z (iblk7 V c 0 ⟨0, hn⟩) (iblk7 V c 1 ⟨0, hn⟩) (iblk7 V c 2 ⟨0, hn⟩)
      (iblk7_0_apply V c ⟨0, hn⟩) (iblk7_1_apply V c ⟨0, hn⟩) (iblk7_2_apply V c ⟨0, hn⟩))).trans ?_
    refine and_congr_right fun _ => ?_
    refine Iff.trans ?_ (forall_rows_succ (fun r => ∀ j : Fin 128, Net.mag (Net.affine (Y7 V c) (a7 V c) (b7 V c) r j) ≤ z) 0 (by norm_num)).symm
    rw [forall_rows_zero, true_and]
    exact Iff.rfl
  | n + 1, hn, z => by
    have hN : n + 1 < 32 := lt_of_lt_of_eq hn N_7
    have hB : ¬(⟨n + 1, hn⟩ : Fin cfg7.N).val % 32 = 0 := by dsimp only; omega
    rw [outsAt7_B V c ⟨n + 1, hn⟩ hB]
    dsimp only
    rw [out7_B_4_eq (F := Ideal) c (grid7.coords ⟨n + 1, hn⟩) (ms7_0 ⟨n + 1, hn⟩) (hs7_0 ⟨n + 1, hn⟩) (ms7_1 ⟨n + 1, hn⟩) (hs7_1 ⟨n + 1, hn⟩)
      (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) _
      (iblk7 V c 0 ⟨n + 1, hn⟩) (iblk7 V c 1 ⟨n + 1, hn⟩) (iblk7 V c 2 ⟨n + 1, hn⟩) _]
    refine (pay7_3_le_iff _ _ _ _ z).trans ?_
    refine (and_congr (acc7_le_iff c n (Nat.lt_of_succ_lt hn) z) (blk7_le_iff V c ⟨n + 1, hn⟩ z (iblk7 V c 0 ⟨n + 1, hn⟩) (iblk7 V c 1 ⟨n + 1, hn⟩)
      (iblk7 V c 2 ⟨n + 1, hn⟩) (iblk7_0_apply V c ⟨n + 1, hn⟩) (iblk7_1_apply V c ⟨n + 1, hn⟩) (iblk7_2_apply V c ⟨n + 1, hn⟩))).trans ?_
    refine and_assoc.trans (and_congr_right fun _ => ?_)
    exact (forall_rows_succ (fun r => ∀ j : Fin 128, Net.mag (Net.affine (Y7 V c) (a7 V c) (b7 V c) r j) ≤ z) (n + 1) hN).symm

/-- The one write-back of the accumulator, at the last point, writes the running maximum of the affine map. -/
theorem flushed7_4_eq (c : Dev nD) (t : Fin cfg7.N) (hf : (cfg7.win 4).flush t = true) :
    (dat7 V c).flushed 4 t
      = ((cfg7.win 4).blk t).view.read (Elt Ideal) (fun _ => Net.runMax (Net.affine (Y7 V c) (a7 V c) (b7 V c))) := by
  have hN : t.val < 32 := lt_of_lt_of_eq t.isLt N_7
  have h31 : t.val = 31 := by have := (flush7_4 t).mp hf; omega
  show (cfg7.win 4).cut (grid7.coords t) ((dat7 V c).after 4 t) = _
  rw [after7_4]
  funext y
  rw [idx1x1_eq y]
  show (outsAt7 V c t.val t.isLt).2 (ix2 (0 : Fin 1) (0 : Fin 1)) = Net.runMax (Net.affine (Y7 V c) (a7 V c) (b7 V c))
  refine eq_of_forall_ge_iff fun z => ?_
  rw [acc7_le_iff V c t.val t.isLt z, runMax_le_iff, h31]
  exact and_congr_right fun _ => forall_rows_all (fun r => ∀ j : Fin 128, Net.mag (Net.affine (Y7 V c) (a7 V c) (b7 V c) r j) ≤ z)

/-- The last point's block is the whole one-element array. -/
theorem cover7_4 (i : S1x1.Idx) : ∃ t : Fin cfg7.N, (cfg7.win 4).flush t = true ∧ i ∈ ((cfg7.win 4).blk t).view.set := by
  have h0 : (i 0).val < 1 := idx2_lt0 i
  have h1 : (i 1).val < 1 := idx2_lt1 i
  obtain ⟨t, ht⟩ : ∃ t : Fin cfg7.N, t.val = 31 := ⟨⟨31, by rw [show cfg7.N = 32 from N_7]; norm_num⟩, rfl⟩
  obtain ⟨-, -, -, -, -, -, -, -, e0, e1⟩ := idx_facts7 t
  refine ⟨t, (flush7_4 t).mpr (by rw [ht]), ?_⟩
  show i ∈ ((View.whole main_v63_1).slice (win7_4.rect t)).set
  rw [View.set_slice_whole, Rect.mem_set_unit]
  intro a
  match a with
  | ⟨0, _⟩ => show win7_4.index t (0 : Fin 2) * 1 ≤ (i 0).val ∧ (i 0).val < win7_4.index t (0 : Fin 2) * 1 + 1; rw [e0]; omega
  | ⟨1, _⟩ => show win7_4.index t (1 : Fin 2) * 1 ≤ (i 1).val ∧ (i 1).val < win7_4.index t (1 : Fin 2) * 1 + 1; rw [e1]; omega

/-- THE RUNNING MAXIMUM after the region: the maximum of zero and the magnitude of every entry of `y · a + b`. -/
theorem final7_4 (c : Dev nD) (y : S1x1.Idx) :
    (dat7 (F := Ideal) V c).arrAt 4 cfg7.N y = Net.runMax (Net.affine (Y7 V c) (a7 V c) (b7 V c)) := by
  rw [(dat7 V c).arrAt_eq_of_cover 4 (fun _ => Net.runMax (Net.affine (Y7 V c) (a7 V c) (b7 V c))) (flushed7_4_eq V c) cover7_4]

end AtV

end Cert.KernelIdeal.RegionValue

end
-- ==== Proof.Region11.lean ====
import proofs.«131146_j57208964383148_1_alg».proof.Proof.Gen.KernelIdeal.Frame
import proofs.«131146_j57208964383148_1_alg».proof.Proof.Net
import proofs.«131146_j57208964383148_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  The value of region 11 (the scale-and-shift of a 65536 × 10 matrix by a row of scales and a row of shifts, with the
  running maximum of the magnitudes of the result), read off its frame at any entry contents `V`: after the region the
  output array holds `y · a + b` entry by entry, and the one-element array holds the maximum of zero and every magnitude.

  The body at a point: it stores the affine payload of the point's blocks; the accumulator is set to zero at the first
  point, and at every point is left at the maximum of what it held and the largest magnitude of the block's affine
  payload. The accumulator is carried by its universal property: after point `n` it is below a bound exactly when zero
  and the magnitudes of the rows below `(n + 1) · 2048` are.
-/

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.RegionValue

open Cert.KernelIdeal Cert.KernelIdeal.Gen

section Pieces
variable {F : FTy → Type} [FloatOps F]

theorem hz11 : (![0, 0] : Fin 2 → Nat) = fun _ => 0 := funext fun a => by fin_cases a <;> rfl

/-- At the first point the body leaves the affine payload of its input blocks in the output block. -/
theorem out11_A_3_eq (c : Dev nD) (i : grid11.Coords) (a1 : Memref sig .tc .vmem S2048x10 .f32) (h1 : a1.IsWhole)
    (a2 : Memref sig .tc .vmem S1x10 .f32) (h2 : a2.IsWhole) (a11 : Memref sig .tc .vmem S1x10 .f32) (h3 : a11.IsWhole)
    (a4 : Memref sig .tc .vmem S2048x10 .f32) (h4 : a4.IsWhole) (a5 : Memref sig .tc .vmem S1x1 .f32) (h5 : a5.IsWhole)
    (hc : cond11_0 i) (x0 : Vec F S2048x10 .f32) (x1 x2 : Vec F S1x10 .f32) :
    out11_A_3 c i a1 h1 a2 h2 a11 h3 a4 h4 a5 h5 hc x0 x1 x2 = k11_pay2 x0 x1 x2 := by
  unfold out11_A_3
  rw [View.read_writes_eq_canon _ _ _ (cover11_A_3 c i a1 h1 a2 h2 a11 h3 a4 h4 a5 h5 hc x0 x1 x2)]
  unfold kernelRun11_A
  dsimp only
  rw [View.canon_unit_zero hz11]
  simp only [View.readAt_eq_ld, h1.read_unread, h2.read_unread, h3.read_unread, View.ld_unit_zero (S := S2048x10) hz11,
    View.ld_unit_zero (S := S1x10) hz11]

/-- At every later point likewise. -/
theorem out11_B_3_eq (c : Dev nD) (i : grid11.Coords) (a1 : Memref sig .tc .vmem S2048x10 .f32) (h1 : a1.IsWhole)
    (a2 : Memref sig .tc .vmem S1x10 .f32) (h2 : a2.IsWhole) (a11 : Memref sig .tc .vmem S1x10 .f32) (h3 : a11.IsWhole)
    (a4 : Memref sig .tc .vmem S2048x10 .f32) (h4 : a4.IsWhole) (a5 : Memref sig .tc .vmem S1x1 .f32) (h5 : a5.IsWhole)
    (hc : ¬cond11_0 i) (x0 : Vec F S2048x10 .f32) (x1 x2 : Vec F S1x10 .f32) (xo4 : Vec F S1x1 .f32) :
    out11_B_3 c i a1 h1 a2 h2 a11 h3 a4 h4 a5 h5 hc x0 x1 x2 xo4 = k11_pay2 x0 x1 x2 := by
  unfold out11_B_3
  rw [View.read_writes_eq_canon _ _ _ (cover11_B_3 c i a1 h1 a2 h2 a11 h3 a4 h4 a5 h5 hc x0 x1 x2 xo4)]
  unfold kernelRun11_B
  dsimp only
  rw [View.canon_unit_zero hz11]
  simp only [View.readAt_eq_ld, h1.read_unread, h2.read_unread, h3.read_unread, View.ld_unit_zero (S := S2048x10) hz11,
    View.ld_unit_zero (S := S1x10) hz11]

/-- At a later point the accumulator is left at the maximum payload over what the point before left. -/
theorem out11_B_4_eq (c : Dev nD) (i : grid11.Coords) (a1 : Memref sig .tc .vmem S2048x10 .f32) (h1 : a1.IsWhole)
    (a2 : Memref sig .tc .vmem S1x10 .f32) (h2 : a2.IsWhole) (a11 : Memref sig .tc .vmem S1x10 .f32) (h3 : a11.IsWhole)
    (a4 : Memref sig .tc .vmem S2048x10 .f32) (h4 : a4.IsWhole) (a5 : Memref sig .tc .vmem S1x1 .f32) (h5 : a5.IsWhole)
    (hc : ¬cond11_0 i) (x0 : Vec F S2048x10 .f32) (x1 x2 : Vec F S1x10 .f32) (xo4 : Vec F S1x1 .f32) :
    out11_B_4 c i a1 h1 a2 h2 a11 h3 a4 h4 a5 h5 hc x0 x1 x2 xo4 = k11_pay3 x0 x1 x2 xo4 := by
  unfold out11_B_4
  rw [View.read_writes_eq_canon _ _ _ (cover11_B_4 c i a1 h1 a2 h2 a11 h3 a4 h4 a5 h5 hc x0 x1 x2 xo4)]
  unfold kernelRun11_B
  dsimp only
  rw [View.canon_unit_zero hz11]
  simp only [View.readAt_eq_ld, h1.read_unread, h2.read_unread, h3.read_unread, h5.read_unread, View.ld_unit_zero (S := S2048x10) hz11,
    View.ld_unit_zero (S := S1x10) hz11, View.ld_unit_zero (S := S1x1) hz11]

/-- At the first point the accumulator is zeroed, read back, and left at the maximum payload over the zero block. -/
theorem out11_A_4_eq (c : Dev nD) (i : grid11.Coords) (a1 : Memref sig .tc .vmem S2048x10 .f32) (h1 : a1.IsWhole)
    (a2 : Memref sig .tc .vmem S1x10 .f32) (h2 : a2.IsWhole) (a11 : Memref sig .tc .vmem S1x10 .f32) (h3 : a11.IsWhole)
    (a4 : Memref sig .tc .vmem S2048x10 .f32) (h4 : a4.IsWhole) (a5 : Memref sig .tc .vmem S1x1 .f32) (h5 : a5.IsWhole)
    (hc : cond11_0 i) (x0 : Vec F S2048x10 .f32) (x1 x2 : Vec F S1x10 .f32) :
    out11_A_4 c i a1 h1 a2 h2 a11 h3 a4 h4 a5 h5 hc x0 x1 x2 = k11_pay3 x0 x1 x2 (k11_pay1 (F := F)) := by
  unfold out11_A_4
  rw [View.read_writes_eq_canon _ _ _ (cover11_A_4 c i a1 h1 a2 h2 a11 h3 a4 h4 a5 h5 hc x0 x1 x2)]
  unfold kernelRun11_A
  dsimp only
  sl_unfold_words
  rw [View.canon_cons_unit_zero (S := S1x1) hz11, View.readCov_unit_zero (S := S1x1) _ hz11]
  simp only [View.readAt_eq_ld, h1.read_unread, h2.read_unread, h3.read_unread, View.ld_unit_zero (S := S2048x10) hz11,
    View.ld_unit_zero (S := S1x10) hz11]

end Pieces

/-! ## The payloads at an index, on the extended reals -/

/-- The affine payload at an index: the entry times the column's scale plus the column's shift. -/
theorem pay11_2_apply (x0 : Vec Ideal S2048x10 .f32) (x1 x2 : Vec Ideal S1x10 .f32) (p : Fin 2048) (q : Fin 10) :
    k11_pay2 x0 x1 x2 (ix2 p q) = x0 (ix2 p q) * x1 (ix2 (0 : Fin 1) q) + x2 (ix2 (0 : Fin 1) q) := by
  unfold k11_pay2
  rw [shapeCast_self, shapeCast_self, shapeCast_self]
  refine (addf_apply _ _ _).trans ?_
  rw [broadcastTo_1b_ab_apply]
  refine congrArg (· + _) ?_
  refine (mulf_apply _ _ _).trans ?_
  rw [broadcastTo_1b_ab_apply]

/-- A row's largest entry is below a bound exactly when every entry of the row is. -/
theorem rowmax11_le_iff (v : FVec Ideal S2048x10 .f32) (k : Fin 2048) (z : EReal) :
    multiReduction (F := Ideal) .maximumf [1] S2048 v 0xFF800000#32 reduces_S2048x10_S2048 (.inl rfl) rfl (ix1 k) ≤ z
      ↔ ∀ q : Fin 10, v (ix2 k q) ≤ z := by
  have e := Ideal.multiReduction_maximumf_single v 0xFF800000#32 reduces_S2048x10_S2048 (.inl rfl) rfl (ix1 k)
  have hl : ∀ q : Fin 10, reduces_S2048x10_S2048.lift (ix1 k) q = ix2 k q := fun q => funext fun a => by
    match a with
    | ⟨0, _⟩ => rfl
    | ⟨1, _⟩ => rfl
  rw [e, Finset.fold_max_le]
  constructor
  · intro h q
    have := h.2 q (Finset.mem_univ _)
    rw [← hl q]; exact this
  · intro h
    refine ⟨?_, fun q _ => ?_⟩
    · rw [show (FloatOps.ofBits .f32 0xFF800000#32 : Ideal .f32) = (⊥ : EReal) from ofBits_ninf]; exact bot_le
    · rw [Function.comp_apply, hl q]; exact h q

/-- The largest of a column of 2048 entries is below a bound exactly when every entry is. -/
theorem colmax11_le_iff (v : FVec Ideal S2048x1 .f32) (z : EReal) :
    multiReduction (F := Ideal) .maximumf [0] S1 v 0xFF800000#32 reduces_S2048x1_S1 (.inl rfl) rfl (ix1 (0 : Fin 1)) ≤ z
      ↔ ∀ k : Fin 2048, v (ix2 k (0 : Fin 1)) ≤ z := by
  have e := Ideal.multiReduction_maximumf_single v 0xFF800000#32 reduces_S2048x1_S1 (.inl rfl) rfl (ix1 (0 : Fin 1))
  have hl : ∀ k : Fin 2048, reduces_S2048x1_S1.lift (ix1 (0 : Fin 1)) k = ix2 k (0 : Fin 1) := fun k => funext fun a => by
    match a with
    | ⟨0, _⟩ => rfl
    | ⟨1, _⟩ => rfl
  rw [e, Finset.fold_max_le]
  constructor
  · intro h k
    have := h.2 k (Finset.mem_univ _)
    rw [← hl k]; exact this
  · intro h
    refine ⟨?_, fun k _ => ?_⟩
    · rw [show (FloatOps.ofBits .f32 0xFF800000#32 : Ideal .f32) = (⊥ : EReal) from ofBits_ninf]; exact bot_le
    · rw [Function.comp_apply, hl k]; exact h k

/-- The running-maximum payload is below a bound exactly when the carried value and the magnitude of every affine entry of
    the block are. -/
theorem pay11_3_le_iff (x0 : Vec Ideal S2048x10 .f32) (x1 x2 : Vec Ideal S1x10 .f32) (v19 : Vec Ideal S1x1 .f32) (z : EReal) :
    k11_pay3 x0 x1 x2 v19 (ix2 (0 : Fin 1) (0 : Fin 1)) ≤ z ↔
      v19 (ix2 (0 : Fin 1) (0 : Fin 1)) ≤ z ∧ ∀ (p : Fin 2048) (q : Fin 10),
        max (x0 (ix2 p q) * x1 (ix2 (0 : Fin 1) q) + x2 (ix2 (0 : Fin 1) q)) (-(x0 (ix2 p q) * x1 (ix2 (0 : Fin 1) q) + x2 (ix2 (0 : Fin 1) q))) ≤ z := by
  unfold k11_pay3
  rw [shapeCast_self]
  refine (show _ ↔ max (v19 (ix2 (0 : Fin 1) (0 : Fin 1))) _ ≤ z from Iff.rfl).trans ?_
  rw [max_le_iff]
  refine and_congr_right fun _ => ?_
  rw [shapeCast_a_1a_apply, colmax11_le_iff]
  refine forall_congr' fun p => ?_
  rw [shapeCast_a_a1_apply, rowmax11_le_iff]
  refine forall_congr' fun q => ?_
  rw [show absf (k11_pay2 x0 x1 x2) (ix2 p q) = max (k11_pay2 x0 x1 x2 (ix2 p q)) (-(k11_pay2 x0 x1 x2 (ix2 p q))) from rfl, pay11_2_apply]

/-! ## The blocks read through their windows -/

/-- The printed index maps over the grid: the input and output blocks move with the point along the rows, the scale,
    shift and accumulator blocks stay. -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = 0 ∧ win11_4.index t (1 : Fin 2) = 0 :=
  (by decide +kernel : ∀ t : Fin grid11.N, _)

/-- Row `p` of the block of point `t`. -/
def row11 (t : Fin cfg11.N) (p : Fin 2048) : Fin 65536 := rowOf t.val (lt_of_lt_of_eq t.isLt N_11) p

/-- The one index of a one-element matrix. -/
private theorem idx1x1_eq (y : (⟨2, ![1, 1]⟩ : Shape).Idx) : y = ix2 (0 : Fin 1) (0 : Fin 1) := funext fun a => by
  match a with
  | ⟨0, _⟩ => exact Fin.ext (by have := idx2_lt0 y; show (y 0).val = 0; omega)
  | ⟨1, _⟩ => exact Fin.ext (by have := idx2_lt1 y; show (y 1).val = 0; omega)

section AtV
variable (V : (c : Dev nD) → (b : Ref sig .tc) → Buf (Elt Ideal) ((c : Thread nD τ).loc b))

/-- The input matrix, the scales and the shifts as the region finds them. -/
abbrev Y11 (c : Dev nD) : Fin 65536 → Fin 10 → EReal := fun r j => V c (Pipeline.arrRef spec11 0) (ix2 r j)
abbrev a11 (c : Dev nD) : Fin 10 → EReal := fun j => V c (Pipeline.arrRef spec11 1) (ix2 (0 : Fin 1) j)
abbrev b11 (c : Dev nD) : Fin 10 → EReal := fun j => V c (Pipeline.arrRef spec11 2) (ix2 (0 : Fin 1) j)

/-- The input block at point `t` holds the rows `2048 t …` of the input matrix. -/
theorem iblk11_0_apply (c : Dev nD) (t : Fin cfg11.N) (p : Fin 2048) (q : Fin 10) :
    iblk11 V c 0 t (ix2 p q) = Y11 V c (row11 t p) q := by
  obtain ⟨e0, e1, -⟩ := idx_facts11 t
  show V c (Pipeline.arrRef spec11 0) (((cfg11.win 0).blk t).view.emb (ix2 p q)) = V c (Pipeline.arrRef spec11 0) (ix2 (row11 t p) q)
  refine congrArg (V c (Pipeline.arrRef spec11 0)) (funext fun a => Fin.ext ?_)
  match a with
  | ⟨0, _⟩ => show win11_0.index t (0 : Fin 2) * 2048 + 1 * p.val = t.val * 2048 + p.val; rw [e0]; omega
  | ⟨1, _⟩ => show win11_0.index t (1 : Fin 2) * 10 + 1 * q.val = q.val; rw [e1]; omega

/-- The scale block at every point is the row of scales. -/
theorem iblk11_1_apply (c : Dev nD) (t : Fin cfg11.N) (q : Fin 10) :
    iblk11 V c 1 t (ix2 (0 : Fin 1) q) = a11 V c q := by
  obtain ⟨-, -, e0, e1, -⟩ := idx_facts11 t
  show V c (Pipeline.arrRef spec11 1) (((cfg11.win 1).blk t).view.emb (ix2 (0 : Fin 1) q)) = V c (Pipeline.arrRef spec11 1) (ix2 (0 : Fin 1) q)
  refine congrArg (V c (Pipeline.arrRef spec11 1)) (funext fun a => Fin.ext ?_)
  match a with
  | ⟨0, _⟩ => show win11_1.index t (0 : Fin 2) * 1 + 1 * 0 = 0; rw [e0]
  | ⟨1, _⟩ => show win11_1.index t (1 : Fin 2) * 10 + 1 * q.val = q.val; rw [e1]; omega

/-- The shift block at every point is the row of shifts. -/
theorem iblk11_2_apply (c : Dev nD) (t : Fin cfg11.N) (q : Fin 10) :
    iblk11 V c 2 t (ix2 (0 : Fin 1) q) = b11 V c q := by
  obtain ⟨-, -, -, -, e0, e1, -⟩ := idx_facts11 t
  show V c (Pipeline.arrRef spec11 2) (((cfg11.win 2).blk t).view.emb (ix2 (0 : Fin 1) q)) = V c (Pipeline.arrRef spec11 2) (ix2 (0 : Fin 1) q)
  refine congrArg (V c (Pipeline.arrRef spec11 2)) (funext fun a => Fin.ext ?_)
  match a with
  | ⟨0, _⟩ => show win11_2.index t (0 : Fin 2) * 1 + 1 * 0 = 0; rw [e0]
  | ⟨1, _⟩ => show win11_2.index t (1 : Fin 2) * 10 + 1 * q.val = q.val; rw [e1]; omega

/-! ## The affine output -/

/-- The affine map of the whole input matrix, index by index. -/
def affG11 (c : Dev nD) : S65536x10.Idx → EReal := fun i =>
  Net.affine (Y11 V c) (a11 V c) (b11 V c) ⟨(i 0).val, idx2_lt0 i⟩ ⟨(i 1).val, idx2_lt1 i⟩

/-- At every point the output's buffer is left at the affine payload of the point's blocks. -/
theorem outs11_fst (c : Dev nD) (t : Fin cfg11.N) :
    (outsAt11 V c t.val t.isLt).1 = k11_pay2 (iblk11 V c 0 t) (iblk11 V c 1 t) (iblk11 V c 2 t) := by
  by_cases h0 : t.val % 32 = 0
  · rw [outsAt11_A V c t h0]
    dsimp only
    exact out11_A_3_eq (F := Ideal) c (grid11.coords t) (ms11_0 t) (hs11_0 t) (ms11_1 t) (hs11_1 t) (ms11_2 t) (hs11_2 t) (ms11_3 t) (hs11_3 t)
      (ms11_4 t) (hs11_4 t) ((hcond11_0 t).mpr h0) (iblk11 V c 0 t) (iblk11 V c 1 t) (iblk11 V c 2 t)
  · rw [outsAt11_B V c t h0]
    dsimp only
    exact out11_B_3_eq (F := Ideal) c (grid11.coords t) (ms11_0 t) (hs11_0 t) (ms11_1 t) (hs11_1 t) (ms11_2 t) (hs11_2 t) (ms11_3 t) (hs11_3 t)
      (ms11_4 t) (hs11_4 t) (fun h => h0 ((hcond11_0 t).mp h)) (iblk11 V c 0 t) (iblk11 V c 1 t) (iblk11 V c 2 t)
      (outsAt11 V c (t.val - 1) (Nat.lt_of_le_of_lt (Nat.sub_le _ _) t.isLt)).2

/-- What point `t` writes back is block `t` of the affine map of the input matrix. -/
theorem flushed11_3_eq (c : Dev nD) (t : Fin cfg11.N) :
    (dat11 V c).flushed 3 t = ((cfg11.win 3).blk t).view.read (Elt Ideal) (affG11 V c) := by
  show (cfg11.win 3).cut (grid11.coords t) ((dat11 V c).after 3 t) = _
  rw [after11_3, outs11_fst]
  obtain ⟨-, -, -, -, -, -, e0, e1, -⟩ := idx_facts11 t
  funext y
  obtain ⟨p, q, rfl⟩ : ∃ (p : Fin 2048) (q : Fin 10), y = ix2 p q := ⟨y 0, y 1, eq_ix2 y⟩
  show k11_pay2 (iblk11 V c 0 t) (iblk11 V c 1 t) (iblk11 V c 2 t) (ix2 p q) = affG11 V c (((cfg11.win 3).blk t).view.emb (ix2 p q))
  refine (pay11_2_apply (iblk11 V c 0 t) (iblk11 V c 1 t) (iblk11 V c 2 t) p q).trans ?_
  rw [iblk11_0_apply, iblk11_1_apply, iblk11_2_apply]
  have hr : (⟨((((cfg11.win 3).blk t).view.emb (ix2 p q)) 0).val, idx2_lt0 _⟩ : Fin 65536) = row11 t p := Fin.ext (by
    show win11_3.index t (0 : Fin 2) * 2048 + 1 * p.val = t.val * 2048 + p.val; rw [e0]; omega)
  have hq : (⟨((((cfg11.win 3).blk t).view.emb (ix2 p q)) 1).val, idx2_lt1 _⟩ : Fin 10) = q := Fin.ext (by
    show win11_3.index t (1 : Fin 2) * 10 + 1 * q.val = q.val; rw [e1]; omega)
  unfold affG11
  rw [hr, hq]
  rfl

/-- An index of the output array is in point `t`'s block iff each coordinate is in the block's range on its axis. -/
theorem mem_blk11_3 (t : Fin cfg11.N) (i : S65536x10.Idx) :
    i ∈ ((cfg11.win 3).blk t).view.set ↔ ∀ a : Fin 2, win11_3.index t a * S2048x10.size a ≤ (i a).val ∧ (i a).val < win11_3.index t a * S2048x10.size a + S2048x10.size a := by
  show i ∈ ((View.whole main_v97_0).slice (win11_3.rect t)).set ↔ _
  rw [View.set_slice_whole, Rect.mem_set_unit]
  exact Iff.rfl

/-- Row `r` is in the block of point `r / 2048`. -/
theorem cover11_3 (i : S65536x10.Idx) : ∃ t : Fin cfg11.N, (cfg11.win 3).flush t = true ∧ i ∈ ((cfg11.win 3).blk t).view.set := by
  have h0 : (i 0).val < 65536 := idx2_lt0 i
  have h1 : (i 1).val < 10 := idx2_lt1 i
  obtain ⟨t, ht⟩ : ∃ t : Fin cfg11.N, t.val = (i 0).val / 2048 := ⟨⟨(i 0).val / 2048, by rw [show cfg11.N = 32 from N_11]; omega⟩, rfl⟩
  obtain ⟨-, -, -, -, -, -, e0, e1, -⟩ := idx_facts11 t
  refine ⟨t, flush11_3 t, ?_⟩
  rw [mem_blk11_3]
  intro a
  match a with
  | ⟨0, _⟩ => show win11_3.index t (0 : Fin 2) * 2048 ≤ (i 0).val ∧ (i 0).val < win11_3.index t (0 : Fin 2) * 2048 + 2048; rw [e0, ht]; omega
  | ⟨1, _⟩ => show win11_3.index t (1 : Fin 2) * 10 ≤ (i 1).val ∧ (i 1).val < win11_3.index t (1 : Fin 2) * 10 + 10; rw [e1]; omega

/-- THE AFFINE OUTPUT after the region: `y · a + b`, entry by entry. -/
theorem final11_3 (c : Dev nD) (r : Fin 65536) (j : Fin 10) :
    (dat11 (F := Ideal) V c).arrAt 3 cfg11.N (ix2 r j) = Net.affine (Y11 V c) (a11 V c) (b11 V c) r j := by
  rw [(dat11 V c).arrAt_eq_of_cover 3 (affG11 V c) (fun t _ => flushed11_3_eq V c t) cover11_3]
  rfl

/-! ## The running maximum -/

/-- The magnitudes of a block's affine payload are the magnitudes of the affine map on the block's rows. -/
theorem blk11_le_iff (c : Dev nD) (t : Fin cfg11.N) (z : EReal) (x0 : Vec Ideal S2048x10 .f32) (x1 x2 : Vec Ideal S1x10 .f32)
    (h0 : ∀ (p : Fin 2048) (q : Fin 10), x0 (ix2 p q) = Y11 V c (row11 t p) q)
    (h1 : ∀ q : Fin 10, x1 (ix2 (0 : Fin 1) q) = a11 V c q) (h2 : ∀ q : Fin 10, x2 (ix2 (0 : Fin 1) q) = b11 V c q) :
    (∀ (p : Fin 2048) (q : Fin 10),
        max (x0 (ix2 p q) * x1 (ix2 (0 : Fin 1) q) + x2 (ix2 (0 : Fin 1) q))
          (-(x0 (ix2 p q) * x1 (ix2 (0 : Fin 1) q) + x2 (ix2 (0 : Fin 1) q))) ≤ z)
      ↔ ∀ p : Fin 2048, ∀ j : Fin 10, Net.mag (Net.affine (Y11 V c) (a11 V c) (b11 V c) (row11 t p) j) ≤ z := by
  refine forall_congr' fun p => forall_congr' fun q => ?_
  rw [h0, h1, h2]
  exact Iff.rfl

/-- After point `n` the accumulator is below a bound exactly when zero and the magnitudes of the affine map on the rows
    below `(n + 1) · 2048` are. -/
theorem acc11_le_iff (c : Dev nD) : ∀ (n : ℕ) (hn : n < cfg11.N) (z : EReal),
    (outsAt11 V c n hn).2 (ix2 (0 : Fin 1) (0 : Fin 1)) ≤ z ↔
      Net.zero ≤ z ∧ ∀ r : Fin 65536, r.val < (n + 1) * 2048 → ∀ j : Fin 10, Net.mag (Net.affine (Y11 V c) (a11 V c) (b11 V c) r j) ≤ z
  | 0, hn, z => by
    rw [outsAt11_A V c ⟨0, hn⟩ rfl]
    dsimp only
    rw [out11_A_4_eq (F := Ideal) c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩)
      (ms11_3 ⟨0, hn⟩) (hs11_3 ⟨0, hn⟩) (ms11_4 ⟨0, hn⟩) (hs11_4 ⟨0, hn⟩) _ (iblk11 V c 0 ⟨0, hn⟩) (iblk11 V c 1 ⟨0, hn⟩) (iblk11 V c 2 ⟨0, hn⟩)]
    refine (pay11_3_le_iff _ _ _ _ z).trans ?_
    refine (and_congr Iff.rfl (blk11_le_iff V c ⟨0, hn⟩ z (iblk11 V c 0 ⟨0, hn⟩) (iblk11 V c 1 ⟨0, hn⟩) (iblk11 V c 2 ⟨0, hn⟩)
      (iblk11_0_apply V c ⟨0, hn⟩) (iblk11_1_apply V c ⟨0, hn⟩) (iblk11_2_apply V c ⟨0, hn⟩))).trans ?_
    refine and_congr_right fun _ => ?_
    refine Iff.trans ?_ (forall_rows_succ (fun r => ∀ j : Fin 10, Net.mag (Net.affine (Y11 V c) (a11 V c) (b11 V c) r j) ≤ z) 0 (by norm_num)).symm
    rw [forall_rows_zero, true_and]
    exact Iff.rfl
  | n + 1, hn, z => by
    have hN : n + 1 < 32 := lt_of_lt_of_eq hn N_11
    have hB : ¬(⟨n + 1, hn⟩ : Fin cfg11.N).val % 32 = 0 := by dsimp only; omega
    rw [outsAt11_B V c ⟨n + 1, hn⟩ hB]
    dsimp only
    rw [out11_B_4_eq (F := Ideal) c (grid11.coords ⟨n + 1, hn⟩) (ms11_0 ⟨n + 1, hn⟩) (hs11_0 ⟨n + 1, hn⟩) (ms11_1 ⟨n + 1, hn⟩) (hs11_1 ⟨n + 1, hn⟩)
      (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) _
      (iblk11 V c 0 ⟨n + 1, hn⟩) (iblk11 V c 1 ⟨n + 1, hn⟩) (iblk11 V c 2 ⟨n + 1, hn⟩) _]
    refine (pay11_3_le_iff _ _ _ _ z).trans ?_
    refine (and_congr (acc11_le_iff c n (Nat.lt_of_succ_lt hn) z) (blk11_le_iff V c ⟨n + 1, hn⟩ z (iblk11 V c 0 ⟨n + 1, hn⟩) (iblk11 V c 1 ⟨n + 1, hn⟩)
      (iblk11 V c 2 ⟨n + 1, hn⟩) (iblk11_0_apply V c ⟨n + 1, hn⟩) (iblk11_1_apply V c ⟨n + 1, hn⟩) (iblk11_2_apply V c ⟨n + 1, hn⟩))).trans ?_
    refine and_assoc.trans (and_congr_right fun _ => ?_)
    exact (forall_rows_succ (fun r => ∀ j : Fin 10, Net.mag (Net.affine (Y11 V c) (a11 V c) (b11 V c) r j) ≤ z) (n + 1) hN).symm

/-- The one write-back of the accumulator, at the last point, writes the running maximum of the affine map. -/
theorem flushed11_4_eq (c : Dev nD) (t : Fin cfg11.N) (hf : (cfg11.win 4).flush t = true) :
    (dat11 V c).flushed 4 t
      = ((cfg11.win 4).blk t).view.read (Elt Ideal) (fun _ => Net.runMax (Net.affine (Y11 V c) (a11 V c) (b11 V c))) := by
  have hN : t.val < 32 := lt_of_lt_of_eq t.isLt N_11
  have h31 : t.val = 31 := by have := (flush11_4 t).mp hf; omega
  show (cfg11.win 4).cut (grid11.coords t) ((dat11 V c).after 4 t) = _
  rw [after11_4]
  funext y
  rw [idx1x1_eq y]
  show (outsAt11 V c t.val t.isLt).2 (ix2 (0 : Fin 1) (0 : Fin 1)) = Net.runMax (Net.affine (Y11 V c) (a11 V c) (b11 V c))
  refine eq_of_forall_ge_iff fun z => ?_
  rw [acc11_le_iff V c t.val t.isLt z, runMax_le_iff, h31]
  exact and_congr_right fun _ => forall_rows_all (fun r => ∀ j : Fin 10, Net.mag (Net.affine (Y11 V c) (a11 V c) (b11 V c) r j) ≤ z)

/-- The last point's block is the whole one-element array. -/
theorem cover11_4 (i : S1x1.Idx) : ∃ t : Fin cfg11.N, (cfg11.win 4).flush t = true ∧ i ∈ ((cfg11.win 4).blk t).view.set := by
  have h0 : (i 0).val < 1 := idx2_lt0 i
  have h1 : (i 1).val < 1 := idx2_lt1 i
  obtain ⟨t, ht⟩ : ∃ t : Fin cfg11.N, t.val = 31 := ⟨⟨31, by rw [show cfg11.N = 32 from N_11]; norm_num⟩, rfl⟩
  obtain ⟨-, -, -, -, -, -, -, -, e0, e1⟩ := idx_facts11 t
  refine ⟨t, (flush11_4 t).mpr (by rw [ht]), ?_⟩
  show i ∈ ((View.whole main_v97_1).slice (win11_4.rect t)).set
  rw [View.set_slice_whole, Rect.mem_set_unit]
  intro a
  match a with
  | ⟨0, _⟩ => show win11_4.index t (0 : Fin 2) * 1 ≤ (i 0).val ∧ (i 0).val < win11_4.index t (0 : Fin 2) * 1 + 1; rw [e0]; omega
  | ⟨1, _⟩ => show win11_4.index t (1 : Fin 2) * 1 ≤ (i 1).val ∧ (i 1).val < win11_4.index t (1 : Fin 2) * 1 + 1; rw [e1]; omega

/-- THE RUNNING MAXIMUM after the region: the maximum of zero and the magnitude of every entry of `y · a + b`. -/
theorem final11_4 (c : Dev nD) (y : S1x1.Idx) :
    (dat11 (F := Ideal) V c).arrAt 4 cfg11.N y = Net.runMax (Net.affine (Y11 V c) (a11 V c) (b11 V c)) := by
  rw [(dat11 V c).arrAt_eq_of_cover 4 (fun _ => Net.runMax (Net.affine (Y11 V c) (a11 V c) (b11 V c))) (flushed11_4_eq V c) cover11_4]

end AtV

end Cert.KernelIdeal.RegionValue

end
-- ==== Proof.HostSigns.lean ====
/-
  The weight signs and the bias rows prepared between the regions.

  Before each layer's matrix product the program compares the layer's weight matrix (one row per output column) with
  zero, chooses 1 where the weight is non-negative and -1 elsewhere, and transposes the result so that it has one row
  per input column; it also lays the bias vector out as a row of one line.  Each layer's three stretches of operations,
  run one after the other, are read here as functions of the contents they start from, whatever they are: entry (k, j)
  of the transposed matrix is the sign of the weight at (j, k), and entry (0, j) of the row is the bias at j.
-/
import proofs.«131146_j57208964383148_1_alg».proof.Proof.Gen.KernelIdeal.Launch
import proofs.«131146_j57208964383148_1_alg».proof.Proof.Net
import Idealize.ShloMosaic.Lib.ValueIdx
import Idealize.ShloMosaic.Lib.ValueLayout

noncomputable section

namespace Cert.KernelIdeal.HostValue

open Idealize.ShloMosaic Idealize.ShloMosaic.ValueIdx
open Cert.KernelIdeal.Gen

/-- The comparison against zero followed by the choice between 1 and -1 is the sign. -/
theorem sgn_read (w : EReal) :
    Scalar.select (Ideal.cmp .oge w (Ideal.ofBits .f32 0x00000000#32)) (Ideal.ofBits .f32 0x3F800000#32) (Ideal.ofBits .f32 0xBF800000#32)
      = Net.sgn w := by
  unfold Net.sgn
  by_cases h : Net.zero ≤ w
  · rw [if_pos h]
    have e : Ideal.cmp .oge w (Ideal.ofBits .f32 0x00000000#32) = 1#1 := by
      show BitVec.ofBool (decide (Net.zero ≤ w)) = 1#1
      rw [decide_eq_true h]; rfl
    rw [e]; exact select_one _ _
  · rw [if_neg h]
    have e : Ideal.cmp .oge w (Ideal.ofBits .f32 0x00000000#32) = 0#1 := by
      show BitVec.ofBool (decide (Net.zero ≤ w)) = 0#1
      rw [decide_eq_false h]; rfl
    rw [e]; exact select_zero _ _

/-- The matrix of signs, transposed, read at an entry: the transpose reads the entry with the coordinates exchanged, and
    there the comparison and the choice are the sign of the weight. -/
theorem signs_read {a b : ℕ} (hb : (⟨0, ![]⟩ : Shape).BroadcastsInDim ⟨2, ![a, b]⟩ (![] : Fin 0 → Fin 2))
    (ht : (⟨2, ![a, b]⟩ : Shape).Transposes [1, 0] ⟨2, ![b, a]⟩) (x : FVec Ideal ⟨2, ![a, b]⟩ .f32) (k : Fin b) (j : Fin a) :
    transpose ⟨2, ![b, a]⟩ [1, 0]
        (select (cmpf .oge x (broadcastInDim ⟨2, ![a, b]⟩ ![] hb (constant (F := Ideal) ⟨0, ![]⟩ .f32 0x00000000#32)))
          (broadcastInDim ⟨2, ![a, b]⟩ ![] hb (constant (F := Ideal) ⟨0, ![]⟩ .f32 0x3F800000#32))
          (broadcastInDim ⟨2, ![a, b]⟩ ![] hb (constant (F := Ideal) ⟨0, ![]⟩ .f32 0xBF800000#32))) ht (ix2 k j)
      = Net.sgn (x (ix2 j k)) := by
  rw [transpose_ix2_apply]
  exact sgn_read _

/-! Each layer: the three folds are evaluated at the result buffer (the second stretch is the inlined choice between the
    two broadcast constants, the third the transpose and the bias's reshape); what is left is the term read above, up to
    the identity maps the inlining leaves. -/

theorem signs1 (W : Valuation τ sig (Elt Ideal)) (k : Fin 784) (j : Fin 128) :
    StableHlo.after (hostOps2_2 (F := Ideal)) (StableHlo.after (hostOps2_1 (F := Ideal)) (StableHlo.after (hostOps2 (F := Ideal)) W))
        (Proc.devRef .tc main_v10) (ix2 k j)
      = Net.sgn (W (Proc.devRef .tc main_arg1) (ix2 j k)) := by
  after_results
  exact signs_read bcast_S_S128x784 transposes_S128x784_S784x128_1_0 (W (Proc.devRef .tc main_arg1)) k j

theorem bias1 (W : Valuation τ sig (Elt Ideal)) (j : Fin 128) :
    StableHlo.after (hostOps2_2 (F := Ideal)) (StableHlo.after (hostOps2_1 (F := Ideal)) (StableHlo.after (hostOps2 (F := Ideal)) W))
        (Proc.devRef .tc main_v11) (ix2 0 j)
      = W (Proc.devRef .tc main_arg2) (ix1 j) := by
  after_results
  exact shapeCast_a_1a_apply (W (Proc.devRef .tc main_arg2)) shapeCasts_S128_S1x128 0 j

theorem signs2 (W : Valuation τ sig (Elt Ideal)) (k : Fin 128) (j : Fin 128) :
    StableHlo.after (hostOps6_2 (F := Ideal)) (StableHlo.after (hostOps6_1 (F := Ideal)) (StableHlo.after (hostOps6 (F := Ideal)) W))
        (Proc.devRef .tc main_v44) (ix2 k j)
      = Net.sgn (W (Proc.devRef .tc main_arg5) (ix2 j k)) := by
  after_results
  exact signs_read bcast_S_S128x128 transposes_S128x128_S128x128_1_0 (W (Proc.devRef .tc main_arg5)) k j

theorem bias2 (W : Valuation τ sig (Elt Ideal)) (j : Fin 128) :
    StableHlo.after (hostOps6_2 (F := Ideal)) (StableHlo.after (hostOps6_1 (F := Ideal)) (StableHlo.after (hostOps6 (F := Ideal)) W))
        (Proc.devRef .tc main_v45) (ix2 0 j)
      = W (Proc.devRef .tc main_arg6) (ix1 j) := by
  after_results
  exact shapeCast_a_1a_apply (W (Proc.devRef .tc main_arg6)) shapeCasts_S128_S1x128 0 j

theorem signs3 (W : Valuation τ sig (Elt Ideal)) (k : Fin 128) (j : Fin 10) :
    StableHlo.after (hostOps10_2 (F := Ideal)) (StableHlo.after (hostOps10_1 (F := Ideal)) (StableHlo.after (hostOps10 (F := Ideal)) W))
        (Proc.devRef .tc main_v78) (ix2 k j)
      = Net.sgn (W (Proc.devRef .tc main_arg9) (ix2 j k)) := by
  after_results
  exact signs_read bcast_S_S10x128 transposes_S10x128_S128x10_1_0 (W (Proc.devRef .tc main_arg9)) k j

theorem bias3 (W : Valuation τ sig (Elt Ideal)) (j : Fin 10) :
    StableHlo.after (hostOps10_2 (F := Ideal)) (StableHlo.after (hostOps10_1 (F := Ideal)) (StableHlo.after (hostOps10 (F := Ideal)) W))
        (Proc.devRef .tc main_v79) (ix2 0 j)
      = W (Proc.devRef .tc main_arg10) (ix1 j) := by
  after_results
  exact shapeCast_a_1a_apply (W (Proc.devRef .tc main_arg10)) shapeCasts_S10_S1x10 0 j

end Cert.KernelIdeal.HostValue
-- ==== Proof.Region2.lean ====
import proofs.«131146_j57208964383148_1_alg».proof.Proof.Gen.KernelIdeal.Frame
import proofs.«131146_j57208964383148_1_alg».proof.Proof.Net
import proofs.«131146_j57208964383148_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  The value of region 2 (the product of a 65536 × 784 matrix with a 784 × 128 matrix of weights plus a row of biases,
  with the column sums and the column sums of squares of the result), read off its frame at any entry contents `V`:
  after the region the output array holds `x · w + b` entry by entry, and the two rows hold, column by column, the sum
  and the sum of squares of the output's 65536 rows.

  The body at a point: it stores the product payload of the point's blocks; the two accumulators are set to zero at
  the first point, and at every point are left at what they held plus the block's column sums (of the payload, and of
  its squares). After point `n` an accumulator holds the sum over the rows below `(n + 1) · 2048`.
-/

noncomputable section

open Idealize.ShloMosaic Idealize.ShloMosaic.TcCoe Idealize.SL.Sem Idealize.ShloMosaic.Tactic
open Idealize.ShloMosaic.Pipeline (Dat)
open Idealize.ShloMosaic.ValueIdx
open scoped BigOperators

namespace Cert.KernelIdeal.RegionValue

open Cert.KernelIdeal Cert.KernelIdeal.Gen

section Pieces
variable {F : FTy → Type} [FloatOps F]

theorem hz2 : (![0, 0] : Fin 2 → Nat) = fun _ => 0 := funext fun a => by fin_cases a <;> rfl

/-- At the first point the body leaves the product payload of its input blocks in the output block. -/
theorem out2_A_3_eq (c : Dev nD) (i : grid2.Coords) (a1 : Memref sig .tc .vmem S2048x784 .f32) (h1 : a1.IsWhole)
    (a2 : Memref sig .tc .vmem S784x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : cond2_0 i) (x0 : Vec F S2048x784 .f32) (x1 : Vec F S784x128 .f32) (x2 : Vec F S1x128 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  rw [View.canon_unit_zero hz2]
  simp only [View.readAt_eq_ld, h1.read_unread, h2.read_unread, h3.read_unread,
    View.ld_unit_zero (S := S2048x784) hz2, View.ld_unit_zero (S := S784x128) hz2, View.ld_unit_zero (S := S1x128) hz2]

/-- At every later point likewise. -/
theorem out2_B_3_eq (c : Dev nD) (i : grid2.Coords) (a1 : Memref sig .tc .vmem S2048x784 .f32) (h1 : a1.IsWhole)
    (a2 : Memref sig .tc .vmem S784x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : ¬cond2_0 i) (x0 : Vec F S2048x784 .f32) (x1 : Vec F S784x128 .f32) (x2 : Vec F S1x128 .f32) (xo4 xo5 : Vec F S1x128 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  rw [View.canon_unit_zero hz2]
  simp only [View.readAt_eq_ld, h1.read_unread, h2.read_unread, h3.read_unread,
    View.ld_unit_zero (S := S2048x784) hz2, View.ld_unit_zero (S := S784x128) hz2, View.ld_unit_zero (S := S1x128) hz2]

/-- At a later point the column-sum accumulator is left at its payload over what the point before left. -/
theorem out2_B_4_eq (c : Dev nD) (i : grid2.Coords) (a1 : Memref sig .tc .vmem S2048x784 .f32) (h1 : a1.IsWhole)
    (a2 : Memref sig .tc .vmem S784x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : ¬cond2_0 i) (x0 : Vec F S2048x784 .f32) (x1 : Vec F S784x128 .f32) (x2 : Vec F S1x128 .f32) (xo4 xo5 : Vec F S1x128 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  rw [View.canon_unit_zero hz2]
  simp only [View.readAt_eq_ld, h1.read_unread, h2.read_unread, h3.read_unread, h5.read_unread, h6.read_unread,
    View.ld_unit_zero (S := S2048x784) hz2, View.ld_unit_zero (S := S784x128) hz2, View.ld_unit_zero (S := S1x128) hz2]

/-- At a later point the accumulator of the squares is left at its payload over what the point before left. -/
theorem out2_B_5_eq (c : Dev nD) (i : grid2.Coords) (a1 : Memref sig .tc .vmem S2048x784 .f32) (h1 : a1.IsWhole)
    (a2 : Memref sig .tc .vmem S784x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : ¬cond2_0 i) (x0 : Vec F S2048x784 .f32) (x1 : Vec F S784x128 .f32) (x2 : Vec F S1x128 .f32) (xo4 xo5 : Vec F S1x128 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  rw [View.canon_unit_zero hz2]
  simp only [View.readAt_eq_ld, h1.read_unread, h2.read_unread, h3.read_unread, h5.read_unread, h6.read_unread,
    View.ld_unit_zero (S := S2048x784) hz2, View.ld_unit_zero (S := S784x128) hz2, View.ld_unit_zero (S := S1x128) hz2]

/-- At the first point the column-sum accumulator is zeroed, read back, and left at its payload over the zero row. -/
theorem out2_A_4_eq (c : Dev nD) (i : grid2.Coords) (a1 : Memref sig .tc .vmem S2048x784 .f32) (h1 : a1.IsWhole)
    (a2 : Memref sig .tc .vmem S784x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : cond2_0 i) (x0 : Vec F S2048x784 .f32) (x1 : Vec F S784x128 .f32) (x2 : Vec F S1x128 .f32) :
    out2_A_4 c i a1 h1 a2 h2 a3 h3 a4 h4 a5 h5 a6 h6 hc x0 x1 x2 = k2_pay4 x0 x1 x2 (k2_pay1 (F := F)) := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S2048x784) hz2, View.ld_unit_zero (S := S784x128) hz2, View.ld_unit_zero (S := S1x128) hz2]

/-- At the first point the accumulator of the squares likewise. -/
theorem out2_A_5_eq (c : Dev nD) (i : grid2.Coords) (a1 : Memref sig .tc .vmem S2048x784 .f32) (h1 : a1.IsWhole)
    (a2 : Memref sig .tc .vmem S784x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : cond2_0 i) (x0 : Vec F S2048x784 .f32) (x1 : Vec F S784x128 .f32) (x2 : Vec F S1x128 .f32) :
    out2_A_5 c i a1 h1 a2 h2 a3 h3 a4 h4 a5 h5 a6 h6 hc x0 x1 x2 = k2_pay5 x0 x1 x2 (k2_pay2 (F := F)) := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S2048x784) hz2, View.ld_unit_zero (S := S784x128) hz2, View.ld_unit_zero (S := S1x128) hz2]

end Pieces

/-! ## The payloads at an index, on the extended reals -/

/-- A column's sum over the 2048 rows of a block, read at the column. -/
theorem colsum2_apply (v : FVec Ideal S2048x128 .f32) (q : Fin 128) :
    multiReduction (F := Ideal) .add [0] S128 v 0x00000000#32 reduces_S2048x128_S128 (.inl rfl) rfl (ix1 q)
      = ∑ p : Fin 2048, v (ix2 p q) := by
  have e := Ideal.multiReduction_add_single v 0x00000000#32 reduces_S2048x128_S128 (.inl rfl) rfl (ix1 q)
  have hl : ∀ p : Fin 2048, reduces_S2048x128_S128.lift (ix1 q) p = ix2 p q := fun p => funext fun a => by
    match a with
    | ⟨0, _⟩ => rfl
    | ⟨1, _⟩ => rfl
  rw [e]
  exact Finset.sum_congr rfl fun p _ => congrArg v (hl p)

/-- The product payload at an index: the row of the input block against the column of the weights, plus the bias. -/
theorem pay2_3_apply (v3 : Vec Ideal S2048x784 .f32) (v6 : Vec Ideal S784x128 .f32) (v10 : Vec Ideal S1x128 .f32)
    (p : Fin 2048) (q : Fin 128) :
    k2_pay3 v3 v6 v10 (ix2 p q) = (∑ k : Fin 784, v3 (ix2 p k) * v6 (ix2 k q)) + v10 (ix2 (0 : Fin 1) q) := by
  unfold k2_pay3
  rw [shapeCast_self, shapeCast_self, shapeCast_self]
  refine (addf_apply _ _ _).trans ?_
  rw [broadcastTo_1b_ab_apply]
  refine congrArg (· + _) ?_
  refine (Ideal.matmul_constant_zero_apply dot_S2048x784_S784x128_S2048x128_1_0_0_1_n_n none _ _ (ix2 p q)).trans ?_
  rw [← Equiv.sum_comp (contrEquiv1 dot_S2048x784_S784x128_S2048x128_1_0_0_1_n_n 784 rfl rfl).symm]
  refine Finset.sum_congr rfl fun k _ => ?_
  have hL : dot_S2048x784_S784x128_S2048x128_1_0_0_1_n_n.lhsIdx (ix2 p q)
      ((contrEquiv1 dot_S2048x784_S784x128_S2048x128_1_0_0_1_n_n 784 rfl rfl).symm k) = ix2 p k := funext fun a => Fin.ext (by
    match a with
    | ⟨0, _⟩ => rfl
    | ⟨1, _⟩ => exact (DotDims.lhsIdx_val_of_single _ (cl := (1 : Fin 2)) rfl _ _).trans (contrEquiv1_symm_val dot_S2048x784_S784x128_S2048x128_1_0_0_1_n_n 784 rfl rfl k))
  have hR : dot_S2048x784_S784x128_S2048x128_1_0_0_1_n_n.rhsIdx (ix2 p q)
      ((contrEquiv1 dot_S2048x784_S784x128_S2048x128_1_0_0_1_n_n 784 rfl rfl).symm k) = ix2 k q := funext fun a => Fin.ext (by
    match a with
    | ⟨0, _⟩ => exact (DotDims.rhsIdx_val_of_single _ (cr := (0 : Fin 2)) rfl _ _).trans (contrEquiv1_symm_val dot_S2048x784_S784x128_S2048x128_1_0_0_1_n_n 784 rfl rfl k)
    | ⟨1, _⟩ => rfl)
  show v3 _ * v6 _ = _
  rw [hL, hR]

/-- The column-sum payload at a column: the carried sum plus the sum of the block's column. -/
theorem pay2_4_apply (v3 : Vec Ideal S2048x784 .f32) (v6 : Vec Ideal S784x128 .f32) (v10 v15 : Vec Ideal S1x128 .f32) (q : Fin 128) :
    k2_pay4 v3 v6 v10 v15 (ix2 (0 : Fin 1) q) = v15 (ix2 (0 : Fin 1) q) + ∑ p : Fin 2048, k2_pay3 v3 v6 v10 (ix2 p q) := by
  unfold k2_pay4
  rw [shapeCast_self]
  refine (addf_apply _ _ _).trans ?_
  rw [shapeCast_a_1a_apply, colsum2_apply]

/-- The payload of the column sums of squares at a column: the carried sum plus the sum of the squares of the block's column. -/
theorem pay2_5_apply (v3 : Vec Ideal S2048x784 .f32) (v6 : Vec Ideal S784x128 .f32) (v10 v21 : Vec Ideal S1x128 .f32) (q : Fin 128) :
    k2_pay5 v3 v6 v10 v21 (ix2 (0 : Fin 1) q)
      = v21 (ix2 (0 : Fin 1) q) + ∑ p : Fin 2048, k2_pay3 v3 v6 v10 (ix2 p q) * k2_pay3 v3 v6 v10 (ix2 p q) := by
  unfold k2_pay5
  rw [shapeCast_self]
  refine (addf_apply _ _ _).trans ?_
  rw [shapeCast_a_1a_apply, colsum2_apply]
  rfl

/-! ## The blocks read through their windows -/

/-- The printed index maps over the grid: the input and output blocks move with the point along the rows, the weights,
    the bias row and the two accumulator rows stay. -/
theorem idx2_w0 : ∀ t : Fin cfg2.N, win2_0.index t (0 : Fin 2) = t.val ∧ win2_0.index t (1 : Fin 2) = 0 :=
  (by decide +kernel : ∀ t : Fin grid2.N, _)
theorem idx2_w1 : ∀ t : Fin cfg2.N, win2_1.index t (0 : Fin 2) = 0 ∧ win2_1.index t (1 : Fin 2) = 0 :=
  (by decide +kernel : ∀ t : Fin grid2.N, _)
theorem idx2_w2 : ∀ t : Fin cfg2.N, win2_2.index t (0 : Fin 2) = 0 ∧ win2_2.index t (1 : Fin 2) = 0 :=
  (by decide +kernel : ∀ t : Fin grid2.N, _)
theorem idx2_w3 : ∀ t : Fin cfg2.N, win2_3.index t (0 : Fin 2) = t.val ∧ win2_3.index t (1 : Fin 2) = 0 :=
  (by decide +kernel : ∀ t : Fin grid2.N, _)
theorem idx2_w4 : ∀ t : Fin cfg2.N, win2_4.index t (0 : Fin 2) = 0 ∧ win2_4.index t (1 : Fin 2) = 0 :=
  (by decide +kernel : ∀ t : Fin grid2.N, _)
theorem idx2_w5 : ∀ t : Fin cfg2.N, win2_5.index t (0 : Fin 2) = 0 ∧ win2_5.index t (1 : Fin 2) = 0 :=
  (by decide +kernel : ∀ t : Fin grid2.N, _)

/-- Row `p` of the block of point `t`. -/
def row2 (t : Fin cfg2.N) (p : Fin 2048) : Fin 65536 := rowOf t.val (lt_of_lt_of_eq t.isLt N_2) p

section AtV
variable (V : (c : Dev nD) → (b : Ref sig .tc) → Buf (Elt Ideal) ((c : Thread nD τ).loc b))

/-- The input matrix, the weights (input-major) and the biases as the region finds them. -/
abbrev X2 (c : Dev nD) : Fin 65536 → Fin 784 → EReal := fun r k => V c (Pipeline.arrRef spec2 0) (ix2 r k)
abbrev W2 (c : Dev nD) : Fin 784 → Fin 128 → EReal := fun k j => V c (Pipeline.arrRef spec2 1) (ix2 k j)
abbrev bias2 (c : Dev nD) : Fin 128 → EReal := fun j => V c (Pipeline.arrRef spec2 2) (ix2 (0 : Fin 1) j)

/-- The input block at point `t` holds the rows `2048 t …` of the input matrix. -/
theorem iblk2_0_apply (c : Dev nD) (t : Fin cfg2.N) (p : Fin 2048) (k : Fin 784) :
    iblk2 V c 0 t (ix2 p k) = X2 V c (row2 t p) k := by
  obtain ⟨e0, e1⟩ := idx2_w0 t
  show V c (Pipeline.arrRef spec2 0) (((cfg2.win 0).blk t).view.emb (ix2 p k)) = V c (Pipeline.arrRef spec2 0) (ix2 (row2 t p) k)
  refine congrArg (V c (Pipeline.arrRef spec2 0)) (funext fun a => Fin.ext ?_)
  match a with
  | ⟨0, _⟩ => show win2_0.index t (0 : Fin 2) * 2048 + 1 * p.val = t.val * 2048 + p.val; rw [e0]; omega
  | ⟨1, _⟩ => show win2_0.index t (1 : Fin 2) * 784 + 1 * k.val = k.val; rw [e1]; omega

/-- The weight block at every point is the whole weight matrix. -/
theorem iblk2_1_apply (c : Dev nD) (t : Fin cfg2.N) (k : Fin 784) (j : Fin 128) :
    iblk2 V c 1 t (ix2 k j) = W2 V c k j := by
  obtain ⟨e0, e1⟩ := idx2_w1 t
  show V c (Pipeline.arrRef spec2 1) (((cfg2.win 1).blk t).view.emb (ix2 k j)) = V c (Pipeline.arrRef spec2 1) (ix2 k j)
  refine congrArg (V c (Pipeline.arrRef spec2 1)) (funext fun a => Fin.ext ?_)
  match a with
  | ⟨0, _⟩ => show win2_1.index t (0 : Fin 2) * 784 + 1 * k.val = k.val; rw [e0]; omega
  | ⟨1, _⟩ => show win2_1.index t (1 : Fin 2) * 128 + 1 * j.val = j.val; rw [e1]; omega

/-- The bias block at every point is the row of biases. -/
theorem iblk2_2_apply (c : Dev nD) (t : Fin cfg2.N) (j : Fin 128) :
    iblk2 V c 2 t (ix2 (0 : Fin 1) j) = bias2 V c j := by
  obtain ⟨e0, e1⟩ := idx2_w2 t
  show V c (Pipeline.arrRef spec2 2) (((cfg2.win 2).blk t).view.emb (ix2 (0 : Fin 1) j)) = V c (Pipeline.arrRef spec2 2) (ix2 (0 : Fin 1) j)
  refine congrArg (V c (Pipeline.arrRef spec2 2)) (funext fun a => Fin.ext ?_)
  match a with
  | ⟨0, _⟩ => show win2_2.index t (0 : Fin 2) * 1 + 1 * 0 = 0; rw [e0]
  | ⟨1, _⟩ => show win2_2.index t (1 : Fin 2) * 128 + 1 * j.val = j.val; rw [e1]; omega

/-- The product payload of blocks that hold the rows of block `t`, the weights and the biases is the product map on those rows. -/
theorem blk2_dense (c : Dev nD) (t : Fin cfg2.N) (x0 : Vec Ideal S2048x784 .f32) (x1 : Vec Ideal S784x128 .f32) (x2 : Vec Ideal S1x128 .f32)
    (h0 : ∀ (p : Fin 2048) (k : Fin 784), x0 (ix2 p k) = X2 V c (row2 t p) k)
    (h1 : ∀ (k : Fin 784) (j : Fin 128), x1 (ix2 k j) = W2 V c k j) (h2 : ∀ j : Fin 128, x2 (ix2 (0 : Fin 1) j) = bias2 V c j)
    (p : Fin 2048) (j : Fin 128) :
    k2_pay3 x0 x1 x2 (ix2 p j) = Net.dense (X2 V c) (W2 V c) (bias2 V c) (row2 t p) j := by
  rw [pay2_3_apply, h2]
  unfold Net.dense
  refine congrArg (· + _) (Finset.sum_congr rfl fun k _ => ?_)
  rw [h0, h1]

/-- The same for the square of the payload. -/
theorem blk2_dense_sq (c : Dev nD) (t : Fin cfg2.N) (x0 : Vec Ideal S2048x784 .f32) (x1 : Vec Ideal S784x128 .f32) (x2 : Vec Ideal S1x128 .f32)
    (h0 : ∀ (p : Fin 2048) (k : Fin 784), x0 (ix2 p k) = X2 V c (row2 t p) k)
    (h1 : ∀ (k : Fin 784) (j : Fin 128), x1 (ix2 k j) = W2 V c k j) (h2 : ∀ j : Fin 128, x2 (ix2 (0 : Fin 1) j) = bias2 V c j)
    (p : Fin 2048) (j : Fin 128) :
    k2_pay3 x0 x1 x2 (ix2 p j) * k2_pay3 x0 x1 x2 (ix2 p j) = Net.dense (X2 V c) (W2 V c) (bias2 V c) (row2 t p) j * Net.dense (X2 V c) (W2 V c) (bias2 V c) (row2 t p) j := by
  rw [blk2_dense V c t x0 x1 x2 h0 h1 h2 p j]

/-! ## The product output -/

/-- The product map of the whole input matrix, index by index. -/
def denseG2 (c : Dev nD) : S65536x128.Idx → EReal := fun i =>
  Net.dense (X2 V c) (W2 V c) (bias2 V c) ⟨(i 0).val, idx2_lt0 i⟩ ⟨(i 1).val, idx2_lt1 i⟩

/-- At every point the output's buffer is left at the product payload of the point's blocks. -/
theorem outs2_fst (c : Dev nD) (t : Fin cfg2.N) :
    (outsAt2 V c t.val t.isLt).1 = k2_pay3 (iblk2 V c 0 t) (iblk2 V c 1 t) (iblk2 V c 2 t) := by
  by_cases h0 : t.val % 32 = 0
  · rw [outsAt2_A V c t h0]
    dsimp only
    exact out2_A_3_eq (F := Ideal) c (grid2.coords t) (ms2_0 t) (hs2_0 t) (ms2_1 t) (hs2_1 t) (ms2_2 t) (hs2_2 t) (ms2_3 t) (hs2_3 t)
      (ms2_4 t) (hs2_4 t) (ms2_5 t) (hs2_5 t) ((hcond2_0 t).mpr h0) (iblk2 V c 0 t) (iblk2 V c 1 t) (iblk2 V c 2 t)
  · rw [outsAt2_B V c t h0]
    dsimp only
    exact out2_B_3_eq (F := Ideal) c (grid2.coords t) (ms2_0 t) (hs2_0 t) (ms2_1 t) (hs2_1 t) (ms2_2 t) (hs2_2 t) (ms2_3 t) (hs2_3 t)
      (ms2_4 t) (hs2_4 t) (ms2_5 t) (hs2_5 t) (fun h => h0 ((hcond2_0 t).mp h)) (iblk2 V c 0 t) (iblk2 V c 1 t) (iblk2 V c 2 t)
      (outsAt2 V c (t.val - 1) (Nat.lt_of_le_of_lt (Nat.sub_le _ _) t.isLt)).2.1
      (outsAt2 V c (t.val - 1) (Nat.lt_of_le_of_lt (Nat.sub_le _ _) t.isLt)).2.2

/-- What point `t` writes back is block `t` of the product map of the input matrix. -/
theorem flushed2_3_eq (c : Dev nD) (t : Fin cfg2.N) :
    (dat2 V c).flushed 3 t = ((cfg2.win 3).blk t).view.read (Elt Ideal) (denseG2 V c) := by
  show (cfg2.win 3).cut (grid2.coords t) ((dat2 V c).after 3 t) = _
  rw [after2_3, outs2_fst]
  obtain ⟨e0, e1⟩ := idx2_w3 t
  funext y
  obtain ⟨p, q, rfl⟩ : ∃ (p : Fin 2048) (q : Fin 128), y = ix2 p q := ⟨y 0, y 1, eq_ix2 y⟩
  show k2_pay3 (iblk2 V c 0 t) (iblk2 V c 1 t) (iblk2 V c 2 t) (ix2 p q) = denseG2 V c (((cfg2.win 3).blk t).view.emb (ix2 p q))
  refine (blk2_dense V c t _ _ _ (iblk2_0_apply V c t) (iblk2_1_apply V c t) (iblk2_2_apply V c t) p q).trans ?_
  have hr : (⟨((((cfg2.win 3).blk t).view.emb (ix2 p q)) 0).val, idx2_lt0 _⟩ : Fin 65536) = row2 t p := Fin.ext (by
    show win2_3.index t (0 : Fin 2) * 2048 + 1 * p.val = t.val * 2048 + p.val; rw [e0]; omega)
  have hq : (⟨((((cfg2.win 3).blk t).view.emb (ix2 p q)) 1).val, idx2_lt1 _⟩ : Fin 128) = q := Fin.ext (by
    show win2_3.index t (1 : Fin 2) * 128 + 1 * q.val = q.val; rw [e1]; omega)
  unfold denseG2
  rw [hr, hq]

/-- An index of the output array is in point `t`'s block iff each coordinate is in the block's range on its axis. -/
theorem mem_blk2_3 (t : Fin cfg2.N) (i : S65536x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v12_0).slice (win2_3.rect t)).set ↔ _
  rw [View.set_slice_whole, Rect.mem_set_unit]
  exact Iff.rfl

/-- Row `r` is in the block of point `r / 2048`. -/
theorem cover2_3 (i : S65536x128.Idx) : ∃ t : Fin cfg2.N, (cfg2.win 3).flush t = true ∧ i ∈ ((cfg2.win 3).blk t).view.set := by
  have h0 : (i 0).val < 65536 := idx2_lt0 i
  have h1 : (i 1).val < 128 := idx2_lt1 i
  obtain ⟨t, ht⟩ : ∃ t : Fin cfg2.N, t.val = (i 0).val / 2048 := ⟨⟨(i 0).val / 2048, by rw [show cfg2.N = 32 from N_2]; omega⟩, rfl⟩
  obtain ⟨e0, e1⟩ := idx2_w3 t
  refine ⟨t, flush2_3 t, ?_⟩
  rw [mem_blk2_3]
  intro a
  match a with
  | ⟨0, _⟩ => show win2_3.index t (0 : Fin 2) * 2048 ≤ (i 0).val ∧ (i 0).val < win2_3.index t (0 : Fin 2) * 2048 + 2048; rw [e0, ht]; omega
  | ⟨1, _⟩ => show win2_3.index t (1 : Fin 2) * 128 ≤ (i 1).val ∧ (i 1).val < win2_3.index t (1 : Fin 2) * 128 + 128; rw [e1]; omega

/-- THE PRODUCT OUTPUT after the region: `x · w + b`, entry by entry. -/
theorem final2_3 (c : Dev nD) (r : Fin 65536) (j : Fin 128) :
    (dat2 (F := Ideal) V c).arrAt 3 cfg2.N (ix2 r j) = Net.dense (X2 V c) (W2 V c) (bias2 V c) r j := by
  rw [(dat2 V c).arrAt_eq_of_cover 3 (denseG2 V c) (fun t _ => flushed2_3_eq V c t) cover2_3]
  rfl

/-! ## The two accumulated rows -/

/-- After point `n` the column-sum accumulator holds, at column `j`, the sum of the product map over the rows below `(n + 1) · 2048`. -/
theorem acc2_4_eq (c : Dev nD) : ∀ (n : ℕ) (hn : n < cfg2.N) (j : Fin 128),
    (outsAt2 V c n hn).2.1 (ix2 (0 : Fin 1) j)
      = ∑ i ∈ Finset.range ((n + 1) * 2048), ext0 (fun r => Net.dense (X2 V c) (W2 V c) (bias2 V c) r j) i
  | 0, hn, j => by
    rw [outsAt2_A V c ⟨0, hn⟩ rfl]
    dsimp only
    rw [out2_A_4_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩)
      (ms2_4 ⟨0, hn⟩) (hs2_4 ⟨0, hn⟩) (ms2_5 ⟨0, hn⟩) (hs2_5 ⟨0, hn⟩) _ (iblk2 V c 0 ⟨0, hn⟩) (iblk2 V c 1 ⟨0, hn⟩) (iblk2 V c 2 ⟨0, hn⟩)]
    refine (pay2_4_apply _ _ _ _ j).trans ?_
    rw [sum_rows_succ _ 0 (by norm_num), Nat.zero_mul, Finset.sum_range_zero]
    refine congrArg₂ (· + ·) ?_ (Finset.sum_congr rfl fun p _ => ?_)
    · show Ideal.ofBits .f32 0x00000000#32 = 0
      exact Ideal.ofBits_zero_f32
    · exact blk2_dense V c ⟨0, hn⟩ _ _ _ (iblk2_0_apply V c ⟨0, hn⟩) (iblk2_1_apply V c ⟨0, hn⟩) (iblk2_2_apply V c ⟨0, hn⟩) p j
  | n + 1, hn, j => by
    have hN : n + 1 < 32 := lt_of_lt_of_eq hn N_2
    have hB : ¬(⟨n + 1, hn⟩ : Fin cfg2.N).val % 32 = 0 := by dsimp only; omega
    rw [outsAt2_B V c ⟨n + 1, hn⟩ hB]
    dsimp only
    rw [out2_B_4_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
      (ms2_4 ⟨n + 1, hn⟩) (hs2_4 ⟨n + 1, hn⟩) (ms2_5 ⟨n + 1, hn⟩) (hs2_5 ⟨n + 1, hn⟩) _ (iblk2 V c 0 ⟨n + 1, hn⟩) (iblk2 V c 1 ⟨n + 1, hn⟩) (iblk2 V c 2 ⟨n + 1, hn⟩) _ _]
    refine (pay2_4_apply _ _ _ _ j).trans ?_
    rw [sum_rows_succ _ (n + 1) hN]
    refine congrArg₂ (· + ·) (acc2_4_eq c n (Nat.lt_of_succ_lt hn) j) (Finset.sum_congr rfl fun p _ => ?_)
    exact blk2_dense V c ⟨n + 1, hn⟩ _ _ _ (iblk2_0_apply V c ⟨n + 1, hn⟩) (iblk2_1_apply V c ⟨n + 1, hn⟩) (iblk2_2_apply V c ⟨n + 1, hn⟩) p j

/-- After point `n` the accumulator of the squares holds, at column `j`, the sum of the squares of the product map over the rows below `(n + 1) · 2048`. -/
theorem acc2_5_eq (c : Dev nD) : ∀ (n : ℕ) (hn : n < cfg2.N) (j : Fin 128),
    (outsAt2 V c n hn).2.2 (ix2 (0 : Fin 1) j)
      = ∑ i ∈ Finset.range ((n + 1) * 2048), ext0 (fun r => Net.dense (X2 V c) (W2 V c) (bias2 V c) r j * Net.dense (X2 V c) (W2 V c) (bias2 V c) r j) i
  | 0, hn, j => by
    rw [outsAt2_A V c ⟨0, hn⟩ rfl]
    dsimp only
    rw [out2_A_5_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩)
      (ms2_4 ⟨0, hn⟩) (hs2_4 ⟨0, hn⟩) (ms2_5 ⟨0, hn⟩) (hs2_5 ⟨0, hn⟩) _ (iblk2 V c 0 ⟨0, hn⟩) (iblk2 V c 1 ⟨0, hn⟩) (iblk2 V c 2 ⟨0, hn⟩)]
    refine (pay2_5_apply _ _ _ _ j).trans ?_
    rw [sum_rows_succ _ 0 (by norm_num), Nat.zero_mul, Finset.sum_range_zero]
    refine congrArg₂ (· + ·) ?_ (Finset.sum_congr rfl fun p _ => ?_)
    · show Ideal.ofBits .f32 0x00000000#32 = 0
      exact Ideal.ofBits_zero_f32
    · exact blk2_dense_sq V c ⟨0, hn⟩ _ _ _ (iblk2_0_apply V c ⟨0, hn⟩) (iblk2_1_apply V c ⟨0, hn⟩) (iblk2_2_apply V c ⟨0, hn⟩) p j
  | n + 1, hn, j => by
    have hN : n + 1 < 32 := lt_of_lt_of_eq hn N_2
    have hB : ¬(⟨n + 1, hn⟩ : Fin cfg2.N).val % 32 = 0 := by dsimp only; omega
    rw [outsAt2_B V c ⟨n + 1, hn⟩ hB]
    dsimp only
    rw [out2_B_5_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
      (ms2_4 ⟨n + 1, hn⟩) (hs2_4 ⟨n + 1, hn⟩) (ms2_5 ⟨n + 1, hn⟩) (hs2_5 ⟨n + 1, hn⟩) _ (iblk2 V c 0 ⟨n + 1, hn⟩) (iblk2 V c 1 ⟨n + 1, hn⟩) (iblk2 V c 2 ⟨n + 1, hn⟩) _ _]
    refine (pay2_5_apply _ _ _ _ j).trans ?_
    rw [sum_rows_succ _ (n + 1) hN]
    refine congrArg₂ (· + ·) (acc2_5_eq c n (Nat.lt_of_succ_lt hn) j) (Finset.sum_congr rfl fun p _ => ?_)
    exact blk2_dense_sq V c ⟨n + 1, hn⟩ _ _ _ (iblk2_0_apply V c ⟨n + 1, hn⟩) (iblk2_1_apply V c ⟨n + 1, hn⟩) (iblk2_2_apply V c ⟨n + 1, hn⟩) p j

/-- The column sums of the product map, as a row. -/
def colG2 (c : Dev nD) : S1x128.Idx → EReal := fun i => Net.colSum (Net.dense (X2 V c) (W2 V c) (bias2 V c)) ⟨(i 1).val, idx2_lt1 i⟩

/-- The accumulator row's window is not cut: what is written back is the buffer. -/
theorem cut2_4 (t : Fin cfg2.N) (X : Vec Ideal S1x128 .f32) : (cfg2.win 4).cut (grid2.coords t) X = X := rfl

/-- A row read through the accumulator's block, for ANY row `G`. -/
theorem read2_4 (t : Fin cfg2.N) (G : S1x128.Idx → EReal) (y : S1x128.Idx) :
    ((cfg2.win 4).blk t).view.read (Elt Ideal) G y = G (((cfg2.win 4).blk t).view.emb y) := rfl

/-- The one write-back of this accumulator, at the last point, writes the sums over all the rows. -/
theorem flushed2_4_eq (c : Dev nD) (t : Fin cfg2.N) (hf : (cfg2.win 4).flush t = true) :
    (dat2 V c).flushed 4 t = ((cfg2.win 4).blk t).view.read (Elt Ideal) (colG2 V c) := by
  have hN : t.val < 32 := lt_of_lt_of_eq t.isLt N_2
  have h31 : t.val = 31 := by have := (flush2_4 t).mp hf; omega
  obtain ⟨e0, e1⟩ := idx2_w4 t
  show (cfg2.win 4).cut (grid2.coords t) ((dat2 V c).after 4 t) = _
  rw [after2_4, cut2_4]
  funext y
  rw [read2_4]
  obtain ⟨u, q, rfl⟩ : ∃ (u : Fin 1) (q : Fin 128), y = ix2 u q := ⟨y 0, y 1, eq_ix2 y⟩
  obtain rfl : u = 0 := Subsingleton.elim _ _
  rw [acc2_4_eq V c t.val t.isLt q]
  have hq : (⟨((((cfg2.win 4).blk t).view.emb (ix2 (0 : Fin 1) q)) 1).val, idx2_lt1 _⟩ : Fin 128) = q := Fin.ext (by
    show win2_4.index t (1 : Fin 2) * 128 + 1 * q.val = q.val; rw [e1]; omega)
  unfold colG2 Net.colSum
  rw [hq, h31]
  exact sum_rows_all _

/-- The last point's block is the whole row. -/
theorem cover2_4 (i : S1x128.Idx) : ∃ t : Fin cfg2.N, (cfg2.win 4).flush t = true ∧ i ∈ ((cfg2.win 4).blk t).view.set := by
  have h0 : (i 0).val < 1 := idx2_lt0 i
  have h1 : (i 1).val < 128 := idx2_lt1 i
  obtain ⟨t, ht⟩ : ∃ t : Fin cfg2.N, t.val = 31 := ⟨⟨31, by rw [show cfg2.N = 32 from N_2]; norm_num⟩, rfl⟩
  obtain ⟨e0, e1⟩ := idx2_w4 t
  refine ⟨t, (flush2_4 t).mpr (by rw [ht]), ?_⟩
  show i ∈ ((View.whole main_v12_1).slice (win2_4.rect t)).set
  rw [View.set_slice_whole, Rect.mem_set_unit]
  intro a
  match a with
  | ⟨0, _⟩ => show win2_4.index t (0 : Fin 2) * 1 ≤ (i 0).val ∧ (i 0).val < win2_4.index t (0 : Fin 2) * 1 + 1; rw [e0]; omega
  | ⟨1, _⟩ => show win2_4.index t (1 : Fin 2) * 128 ≤ (i 1).val ∧ (i 1).val < win2_4.index t (1 : Fin 2) * 128 + 128; rw [e1]; omega

/-- THE COLUMN SUMS after the region. -/
theorem final2_4 (c : Dev nD) (j : Fin 128) :
    (dat2 (F := Ideal) V c).arrAt 4 cfg2.N (ix2 (0 : Fin 1) j) = Net.colSum (Net.dense (X2 V c) (W2 V c) (bias2 V c)) j := by
  rw [(dat2 V c).arrAt_eq_of_cover 4 (colG2 V c) (flushed2_4_eq V c) cover2_4]
  rfl

/-- The column sums of squares of the product map, as a row. -/
def colSqG2 (c : Dev nD) : S1x128.Idx → EReal := fun i => Net.colSumSq (Net.dense (X2 V c) (W2 V c) (bias2 V c)) ⟨(i 1).val, idx2_lt1 i⟩

/-- The accumulator row's window is not cut: what is written back is the buffer. -/
theorem cut2_5 (t : Fin cfg2.N) (X : Vec Ideal S1x128 .f32) : (cfg2.win 5).cut (grid2.coords t) X = X := rfl

/-- A row read through the accumulator's block, for ANY row `G`. -/
theorem read2_5 (t : Fin cfg2.N) (G : S1x128.Idx → EReal) (y : S1x128.Idx) :
    ((cfg2.win 5).blk t).view.read (Elt Ideal) G y = G (((cfg2.win 5).blk t).view.emb y) := rfl

/-- The one write-back of this accumulator, at the last point, writes the sums over all the rows. -/
theorem flushed2_5_eq (c : Dev nD) (t : Fin cfg2.N) (hf : (cfg2.win 5).flush t = true) :
    (dat2 V c).flushed 5 t = ((cfg2.win 5).blk t).view.read (Elt Ideal) (colSqG2 V c) := by
  have hN : t.val < 32 := lt_of_lt_of_eq t.isLt N_2
  have h31 : t.val = 31 := by have := (flush2_5 t).mp hf; omega
  obtain ⟨e0, e1⟩ := idx2_w5 t
  show (cfg2.win 5).cut (grid2.coords t) ((dat2 V c).after 5 t) = _
  rw [after2_5, cut2_5]
  funext y
  rw [read2_5]
  obtain ⟨u, q, rfl⟩ : ∃ (u : Fin 1) (q : Fin 128), y = ix2 u q := ⟨y 0, y 1, eq_ix2 y⟩
  obtain rfl : u = 0 := Subsingleton.elim _ _
  rw [acc2_5_eq V c t.val t.isLt q]
  have hq : (⟨((((cfg2.win 5).blk t).view.emb (ix2 (0 : Fin 1) q)) 1).val, idx2_lt1 _⟩ : Fin 128) = q := Fin.ext (by
    show win2_5.index t (1 : Fin 2) * 128 + 1 * q.val = q.val; rw [e1]; omega)
  unfold colSqG2 Net.colSumSq
  rw [hq, h31]
  exact sum_rows_all _

/-- The last point's block is the whole row. -/
theorem cover2_5 (i : S1x128.Idx) : ∃ t : Fin cfg2.N, (cfg2.win 5).flush t = true ∧ i ∈ ((cfg2.win 5).blk t).view.set := by
  have h0 : (i 0).val < 1 := idx2_lt0 i
  have h1 : (i 1).val < 128 := idx2_lt1 i
  obtain ⟨t, ht⟩ : ∃ t : Fin cfg2.N, t.val = 31 := ⟨⟨31, by rw [show cfg2.N = 32 from N_2]; norm_num⟩, rfl⟩
  obtain ⟨e0, e1⟩ := idx2_w5 t
  refine ⟨t, (flush2_5 t).mpr (by rw [ht]), ?_⟩
  show i ∈ ((View.whole main_v12_2).slice (win2_5.rect t)).set
  rw [View.set_slice_whole, Rect.mem_set_unit]
  intro a
  match a with
  | ⟨0, _⟩ => show win2_5.index t (0 : Fin 2) * 1 ≤ (i 0).val ∧ (i 0).val < win2_5.index t (0 : Fin 2) * 1 + 1; rw [e0]; omega
  | ⟨1, _⟩ => show win2_5.index t (1 : Fin 2) * 128 ≤ (i 1).val ∧ (i 1).val < win2_5.index t (1 : Fin 2) * 128 + 128; rw [e1]; omega

/-- THE COLUMN SUMS OF SQUARES after the region. -/
theorem final2_5 (c : Dev nD) (j : Fin 128) :
    (dat2 (F := Ideal) V c).arrAt 5 cfg2.N (ix2 (0 : Fin 1) j) = Net.colSumSq (Net.dense (X2 V c) (W2 V c) (bias2 V c)) j := by
  rw [(dat2 V c).arrAt_eq_of_cover 5 (colSqG2 V c) (flushed2_5_eq V c) cover2_5]
  rfl

end AtV

end Cert.KernelIdeal.RegionValue

end
-- ==== Proof.Region4.lean ====
/-
  Region 4: quantise every entry of the matrix with one step, apply the rectifier, store the result, and keep the largest
  magnitude of the results, started at zero.

  The region walks the 65536 rows in 32 blocks of 2048 rows.  At each block it divides every entry by the step (a
  one-entry array), rounds to the nearest integer with ties to even, clamps to [-128, 127], multiplies by the step and
  applies the rectifier; that block is stored.  It also carries a one-entry array: zero is stored there at the first block,
  and at every block the entry is joined with the largest magnitude of the block just stored.  Row R of the matrix lies
  in block R / 2048 and no block is written twice, so the stored matrix is the activation of the quantisation of every
  entry; and after block n the carried entry is the least bound above zero and above the magnitudes of the results in
  rows 0 … 2048 (n + 1) - 1, so after the last block, the only one written back, it is their running maximum.
-/
import proofs.«131146_j57208964383148_1_alg».proof.Proof.Gen.KernelIdeal.Frame
import proofs.«131146_j57208964383148_1_alg».proof.Proof.Net
import proofs.«131146_j57208964383148_1_alg».proof.Proof.BlockMax
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem zero_offsets4 : (![0, 0] : Fin 2 → Nat) = fun _ => 0 := funext fun a => by fin_cases a <;> rfl

section Pieces
variable {F : FTy → Type} [FloatOps F]

/-- At the first point the stored block is the body's first product of the step and the input block. -/
theorem first_stored4 (c : Dev nD) (i : grid4.Coords) (a1 : Memref sig .tc .vmem S2048x128 .f32) (h1 : a1.IsWhole)
    (a2 : Memref sig .tc .vmem S1x1 .f32) (h2 : a2.IsWhole) (a3 : Memref sig .tc .vmem S2048x128 .f32) (h3 : a3.IsWhole)
    (a4 : Memref sig .tc .vmem S1x1 .f32) (h4 : a4.IsWhole) (hc : cond4_0 i) (x : Vec F S2048x128 .f32) (s : Vec F S1x1 .f32) :
    out4_A_2 c i a1 h1 a2 h2 a3 h3 a4 h4 hc x s = k4_pay2 s x := by
  unfold out4_A_2
  rw [View.read_writes_eq_canon _ _ _ (cover4_A_2 c i a1 h1 a2 h2 a3 h3 a4 h4 hc x s)]
  unfold kernelRun4_A
  dsimp only
  try sl_unfold_words
  rw [View.canon_unit_zero zero_offsets4]
  simp only [View.readAt_eq_ld, h1.read_unread, h2.read_unread, View.ld_unit_zero (S := S2048x128) zero_offsets4,
    View.ld_unit_zero (S := S1x1) zero_offsets4]

/-- At the first point the carried entry is zero joined with the block's largest magnitude. -/
theorem first_carried4 (c : Dev nD) (i : grid4.Coords) (a1 : Memref sig .tc .vmem S2048x128 .f32) (h1 : a1.IsWhole)
    (a2 : Memref sig .tc .vmem S1x1 .f32) (h2 : a2.IsWhole) (a3 : Memref sig .tc .vmem S2048x128 .f32) (h3 : a3.IsWhole)
    (a4 : Memref sig .tc .vmem S1x1 .f32) (h4 : a4.IsWhole) (hc : cond4_0 i) (x : Vec F S2048x128 .f32) (s : Vec F S1x1 .f32) :
    out4_A_3 c i a1 h1 a2 h2 a3 h3 a4 h4 hc x s = k4_pay3 s x (k4_pay1 (F := F)) := by
  unfold out4_A_3
  rw [View.read_writes_eq_canon _ _ _ (cover4_A_3 c i a1 h1 a2 h2 a3 h3 a4 h4 hc x s)]
  unfold kernelRun4_A
  dsimp only
  try sl_unfold_words
  rw [View.canon_cons_unit_zero (S := S1x1) zero_offsets4, View.readCov_unit_zero (S := S1x1) _ zero_offsets4]
  simp only [View.readAt_eq_ld, h1.read_unread, h2.read_unread, View.ld_unit_zero (S := S2048x128) zero_offsets4,
    View.ld_unit_zero (S := S1x1) zero_offsets4]

/-- At a later point the stored block is the same function of the step and the input block. -/
theorem later_stored4 (c : Dev nD) (i : grid4.Coords) (a1 : Memref sig .tc .vmem S2048x128 .f32) (h1 : a1.IsWhole)
    (a2 : Memref sig .tc .vmem S1x1 .f32) (h2 : a2.IsWhole) (a3 : Memref sig .tc .vmem S2048x128 .f32) (h3 : a3.IsWhole)
    (a4 : Memref sig .tc .vmem S1x1 .f32) (h4 : a4.IsWhole) (hc : ¬cond4_0 i) (x : Vec F S2048x128 .f32) (s : Vec F S1x1 .f32) (xo : Vec F S1x1 .f32) :
    out4_B_2 c i a1 h1 a2 h2 a3 h3 a4 h4 hc x s xo = k4_pay2 s x := by
  unfold out4_B_2
  rw [View.read_writes_eq_canon _ _ _ (cover4_B_2 c i a1 h1 a2 h2 a3 h3 a4 h4 hc x s xo)]
  unfold kernelRun4_B
  dsimp only
  try sl_unfold_words
  rw [View.canon_unit_zero zero_offsets4]
  simp only [View.readAt_eq_ld, h1.read_unread, h2.read_unread, View.ld_unit_zero (S := S2048x128) zero_offsets4,
    View.ld_unit_zero (S := S1x1) zero_offsets4]

/-- At a later point the carried entry is what it held joined with the block's largest magnitude. -/
theorem later_carried4 (c : Dev nD) (i : grid4.Coords) (a1 : Memref sig .tc .vmem S2048x128 .f32) (h1 : a1.IsWhole)
    (a2 : Memref sig .tc .vmem S1x1 .f32) (h2 : a2.IsWhole) (a3 : Memref sig .tc .vmem S2048x128 .f32) (h3 : a3.IsWhole)
    (a4 : Memref sig .tc .vmem S1x1 .f32) (h4 : a4.IsWhole) (hc : ¬cond4_0 i) (x : Vec F S2048x128 .f32) (s : Vec F S1x1 .f32) (xo : Vec F S1x1 .f32) :
    out4_B_3 c i a1 h1 a2 h2 a3 h3 a4 h4 hc x s xo = k4_pay3 s x xo := by
  unfold out4_B_3
  rw [View.read_writes_eq_canon _ _ _ (cover4_B_3 c i a1 h1 a2 h2 a3 h3 a4 h4 hc x s xo)]
  unfold kernelRun4_B
  dsimp only
  try sl_unfold_words
  rw [View.canon_unit_zero zero_offsets4]
  simp only [View.readAt_eq_ld, h1.read_unread, h2.read_unread, h4.read_unread, View.ld_unit_zero (S := S2048x128) zero_offsets4,
    View.ld_unit_zero (S := S1x1) zero_offsets4]

end Pieces

/-- The stored block at one entry: the rectifier of the quantisation of the input's entry with the step. -/
theorem stored4_apply (s : Vec Ideal S1x1 .f32) (x : Vec Ideal S2048x128 .f32) (r : Fin 2048) (k : Fin 128) :
    k4_pay2 s x (ix2 r k) = Net.relu (Net.quant (s (ix2 0 0)) (x (ix2 r k))) := by
  have hb : broadcastTo S2048x128 (shapeCast S1x1 s shapeCasts_S1x1_S1x1) broadcasts_S1x1_S2048x128 (ix2 r k) = s (ix2 0 0) := by
    rw [shapeCast_self]; exact spread_one s _ r k
  have hx : shapeCast S2048x128 x shapeCasts_S2048x128_S2048x128 (ix2 r k) = x (ix2 r k) :=
    congrFun (shapeCast_self x _) _
  show Net.relu (Net.quant (broadcastTo S2048x128 (shapeCast S1x1 s shapeCasts_S1x1_S1x1) broadcasts_S1x1_S2048x128 (ix2 r k))
      (shapeCast S2048x128 x shapeCasts_S2048x128_S2048x128 (ix2 r k))) = _
  rw [hb, hx]

/-- The new carried entry is below a bound exactly when the old one and every magnitude of the stored block are. -/
theorem carried4_le (s : Vec Ideal S1x1 .f32) (x : Vec Ideal S2048x128 .f32) (a : Vec Ideal S1x1 .f32) (b : EReal) :
    k4_pay3 s x a (ix2 0 0) ≤ b
      ↔ a (ix2 0 0) ≤ b ∧ ∀ (r : Fin 2048) (k : Fin 128), Net.mag (Net.relu (Net.quant (s (ix2 0 0)) (x (ix2 r k)))) ≤ b := by
  unfold k4_pay3
  show max _ _ ≤ b ↔ _
  refine max_le_iff.trans (and_congr ?_ ?_)
  · rw [shapeCast_self]
  · refine (block_max_le (absf (k4_pay2 s x)) _ _ _ _ _ _ b).trans ?_
    refine forall_congr' fun r => forall_congr' fun k => ?_
    show Net.mag (k4_pay2 s x (ix2 r k)) ≤ b ↔ _
    rw [stored4_apply]

/-- Where the blocks sit: at point t the two matrix windows are at block row t; the one-entry windows do not move. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0 :=
  (by decide +kernel : ∀ t : Fin grid4.N, _)

/-- Entry (r, k) of the input's block at point n is entry (2048 n + r, k) of the input. -/
theorem in_block4 (c : Dev nD) (n : ℕ) (hn : n < cfg4.N) (r : Fin 2048) (k : Fin 128) (R : Fin 65536) (hR : R.val = 2048 * n + r.val) :
    (iblk4 V c 0 ⟨n, hn⟩ : Vec Ideal S2048x128 .f32) (ix2 r k) = (V c (Pipeline.arrRef spec4 0) : S65536x128.Idx → EReal) (ix2 R k) := by
  obtain ⟨e0, e1, -, -, -, -, -, -⟩ := block_index4 ⟨n, hn⟩
  unfold iblk4
  rw [View.read_apply]
  refine congrArg (V c (Pipeline.arrRef spec4 0) : S65536x128.Idx → EReal) ?_
  funext a
  apply Fin.ext
  match a with
  | ⟨0, _⟩ => show win4_0.index ⟨n, hn⟩ (0 : Fin 2) * 2048 + 1 * r.val = R.val; rw [e0, hR]; show n * 2048 + 1 * r.val = 2048 * n + r.val; omega
  | ⟨1, _⟩ => show win4_0.index ⟨n, hn⟩ (1 : Fin 2) * 128 + 1 * k.val = k.val; rw [e1]; omega

/-- The step's block at any point is the step's one entry. -/
theorem step_block4 (c : Dev nD) (n : ℕ) (hn : n < cfg4.N) :
    (iblk4 V c 1 ⟨n, hn⟩ : Vec Ideal S1x1 .f32) (ix2 0 0) = (V c (Pipeline.arrRef spec4 1) : S1x1.Idx → EReal) (ix2 0 0) := by
  obtain ⟨-, -, e2, e3, -, -, -, -⟩ := block_index4 ⟨n, hn⟩
  unfold iblk4
  rw [View.read_apply]
  refine congrArg (V c (Pipeline.arrRef spec4 1) : S1x1.Idx → EReal) ?_
  funext a
  apply Fin.ext
  match a with
  | ⟨0, _⟩ => show win4_1.index ⟨n, hn⟩ (0 : Fin 2) * 1 + 1 * 0 = 0; rw [e2]
  | ⟨1, _⟩ => show win4_1.index ⟨n, hn⟩ (1 : Fin 2) * 1 + 1 * 0 = 0; rw [e3]

/-- What a first point leaves in the two output buffers. -/
theorem at_first4_2 (c : Dev nD) (t : Fin cfg4.N) (h0 : t.val % 32 = 0) :
    (outsAt4 V c t.val t.isLt).1 = k4_pay2 (iblk4 V c 1 t) (iblk4 V c 0 t) := by
  rw [outsAt4_A V c t h0]
  dsimp only
  exact first_stored4 (F := Ideal) c (grid4.coords t) (ms4_0 t) (hs4_0 t) (ms4_1 t) (hs4_1 t) (ms4_2 t) (hs4_2 t) (ms4_3 t) (hs4_3 t) ((hcond4_0 t).mpr h0) (iblk4 V c 0 t) (iblk4 V c 1 t)
theorem at_first4_3 (c : Dev nD) (t : Fin cfg4.N) (h0 : t.val % 32 = 0) :
    (outsAt4 V c t.val t.isLt).2 = k4_pay3 (iblk4 V c 1 t) (iblk4 V c 0 t) (k4_pay1 (F := Ideal)) := by
  rw [outsAt4_A V c t h0]
  dsimp only
  exact first_carried4 (F := Ideal) c (grid4.coords t) (ms4_0 t) (hs4_0 t) (ms4_1 t) (hs4_1 t) (ms4_2 t) (hs4_2 t) (ms4_3 t) (hs4_3 t) ((hcond4_0 t).mpr h0) (iblk4 V c 0 t) (iblk4 V c 1 t)

/-- What a later point leaves in them, the carried entry over what the point before left. -/
theorem at_later4_2 (c : Dev nD) (t : Fin cfg4.N) (h0 : ¬t.val % 32 = 0) :
    (outsAt4 V c t.val t.isLt).1 = k4_pay2 (iblk4 V c 1 t) (iblk4 V c 0 t) := by
  rw [outsAt4_B V c t h0]
  dsimp only
  exact later_stored4 (F := Ideal) c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (outsAt4 V c (t.val - 1) (Nat.lt_of_le_of_lt (Nat.sub_le _ _) t.isLt)).2
theorem at_later4_3 (c : Dev nD) (t : Fin cfg4.N) (h0 : ¬t.val % 32 = 0) :
    (outsAt4 V c t.val t.isLt).2 = k4_pay3 (iblk4 V c 1 t) (iblk4 V c 0 t) (outsAt4 V c (t.val - 1) (Nat.lt_of_le_of_lt (Nat.sub_le _ _) t.isLt)).2 := by
  rw [outsAt4_B V c t h0]
  dsimp only
  exact later_carried4 (F := Ideal) c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (outsAt4 V c (t.val - 1) (Nat.lt_of_le_of_lt (Nat.sub_le _ _) t.isLt)).2

/-- What every point leaves in the stored block's buffer: the body's product of the step's block and the input's block. -/
theorem stored_at4 (c : Dev nD) (t : Fin cfg4.N) :
    (outsAt4 V c t.val t.isLt).1 = k4_pay2 (iblk4 V c 1 t) (iblk4 V c 0 t) := by
  by_cases h0 : t.val % 32 = 0
  · exact at_first4_2 V c t h0
  · exact at_later4_2 V c t h0

/-- The results of block n are below a bound exactly when those of rows 2048 n … 2048 n + 2047 of the matrix are. -/
theorem block_rows4 (c : Dev nD) (n : ℕ) (hn : n < cfg4.N) (b : EReal) :
    (∀ (r : Fin 2048) (k : Fin 128), Net.mag (Net.relu (Net.quant ((iblk4 V c 1 ⟨n, hn⟩ : Vec Ideal S1x1 .f32) (ix2 0 0))
        ((iblk4 V c 0 ⟨n, hn⟩ : Vec Ideal S2048x128 .f32) (ix2 r k)))) ≤ b)
      ↔ ∀ (R : Fin 65536) (k : Fin 128), 2048 * n ≤ R.val → R.val < 2048 * (n + 1) →
          Net.mag (Net.relu (Net.quant ((V c (Pipeline.arrRef spec4 1) : S1x1.Idx → EReal) (ix2 0 0)) ((V c (Pipeline.arrRef spec4 0) : S65536x128.Idx → EReal) (ix2 R k)))) ≤ b := by
  have hN : n < 32 := lt_of_lt_of_eq hn (show cfg4.N = 32 from N_4)
  rw [step_block4 V c n hn]
  constructor
  · intro h R k h1 h2
    have := h ⟨R.val - 2048 * n, by omega⟩ k
    rwa [in_block4 V c n hn ⟨R.val - 2048 * n, by omega⟩ k R (by show R.val = 2048 * n + (R.val - 2048 * n); omega)] at this
  · intro h r k
    have hr : r.val < 2048 := r.isLt
    rw [in_block4 V c n hn r k ⟨2048 * n + r.val, by omega⟩ rfl]
    exact h _ k (by show 2048 * n ≤ 2048 * n + r.val; omega) (by show 2048 * n + r.val < 2048 * (n + 1); omega)

/-- THE RUNNING MAXIMUM.  After point n the carried entry is below a bound exactly when zero is and the magnitude of
    every result in the rows seen so far is. -/
theorem running4 (c : Dev nD) : ∀ (n : ℕ) (hn : n < cfg4.N) (b : EReal),
    ((outsAt4 V c n hn).2 : Vec Ideal S1x1 .f32) (ix2 0 0) ≤ b
      ↔ Net.zero ≤ b ∧ ∀ (R : Fin 65536) (k : Fin 128), R.val < 2048 * (n + 1) →
          Net.mag (Net.relu (Net.quant ((V c (Pipeline.arrRef spec4 1) : S1x1.Idx → EReal) (ix2 0 0)) ((V c (Pipeline.arrRef spec4 0) : S65536x128.Idx → EReal) (ix2 R k)))) ≤ b
  | 0, hn, b => by
    have e : (outsAt4 V c 0 hn).2 = k4_pay3 (iblk4 V c 1 ⟨0, hn⟩) (iblk4 V c 0 ⟨0, hn⟩) (k4_pay1 (F := Ideal)) :=
      at_first4_3 V c ⟨0, hn⟩ rfl
    rw [e]
    refine (carried4_le (iblk4 V c 1 ⟨0, hn⟩) (iblk4 V c 0 ⟨0, hn⟩) (k4_pay1 (F := Ideal)) b).trans (and_congr Iff.rfl ?_)
    rw [block_rows4 V c 0 hn b]
    exact ⟨fun h R k hR => h R k (by omega) hR, fun h R k _ hR => h R k hR⟩
  | n + 1, hn, b => by
    have hN : cfg4.N = 32 := N_4
    have hB : ¬(⟨n + 1, hn⟩ : Fin cfg4.N).val % 32 = 0 := by dsimp only; omega
    have e : (outsAt4 V c (n + 1) hn).2
        = k4_pay3 (iblk4 V c 1 ⟨n + 1, hn⟩) (iblk4 V c 0 ⟨n + 1, hn⟩) (outsAt4 V c n (Nat.lt_of_succ_lt hn)).2 :=
      at_later4_3 V c ⟨n + 1, hn⟩ hB
    rw [e]
    refine (carried4_le (iblk4 V c 1 ⟨n + 1, hn⟩) (iblk4 V c 0 ⟨n + 1, hn⟩) (outsAt4 V c n (Nat.lt_of_succ_lt hn)).2 b).trans ?_
    rw [running4 c n (Nat.lt_of_succ_lt hn) b, block_rows4 V c (n + 1) hn b]
    constructor
    · rintro ⟨⟨h0, h1⟩, h2⟩
      refine ⟨h0, fun R k hR => ?_⟩
      by_cases hlt : R.val < 2048 * (n + 1)
      · exact h1 R k hlt
      · exact h2 R k (by omega) hR
    · rintro ⟨h0, h1⟩
      exact ⟨⟨h0, fun R k hR => h1 R k (by omega)⟩, fun R k _ hR => h1 R k hR⟩

/-! ## The stored matrix -/

/-- The whole stored output: the rectifier of the quantisation of every entry. -/
abbrev activated4 (c : Dev nD) : S65536x128.Idx → EReal := fun i => Net.relu (Net.quant ((V c (Pipeline.arrRef spec4 1) : S1x1.Idx → EReal) (ix2 0 0)) ((V c (Pipeline.arrRef spec4 0) : S65536x128.Idx → EReal) i))

/-- What point t writes back to the stored output is block t of that matrix. -/
theorem written4_2 (c : Dev nD) (t : Fin cfg4.N) :
    (dat4 (F := Ideal) V c).flushed 2 t = ((cfg4.win 2).blk t).view.read (Elt Ideal) (activated4 V c) := by
  show (cfg4.win 2).cut (grid4.coords t) ((dat4 V c).after 2 t) = _
  rw [after4_2, stored_at4 V c t]
  obtain ⟨-, -, -, -, e4, e5, -, -⟩ := block_index4 t
  funext j
  obtain ⟨r, k, rfl⟩ : ∃ (r : Fin 2048) (k : Fin 128), j = ix2 r k := ⟨j 0, j 1, eq_ix2 j⟩
  have hN : t.val < 32 := lt_of_lt_of_eq t.isLt (show cfg4.N = 32 from N_4)
  have hr : r.val < 2048 := r.isLt
  have hemb : ((cfg4.win 2).blk t).view.emb (ix2 r k)
      = (ix2 (⟨2048 * t.val + r.val, by omega⟩ : Fin 65536) k : S65536x128.Idx) := by
    funext a
    apply Fin.ext
    match a with
    | ⟨0, _⟩ => show win4_2.index t (0 : Fin 2) * 2048 + 1 * r.val = 2048 * t.val + r.val; rw [e4]; omega
    | ⟨1, _⟩ => show win4_2.index t (1 : Fin 2) * 128 + 1 * k.val = k.val; rw [e5]; omega
  show k4_pay2 (iblk4 V c 1 ⟨t.val, t.isLt⟩) (iblk4 V c 0 ⟨t.val, t.isLt⟩) (ix2 r k)
    = activated4 V c (((cfg4.win 2).blk t).view.emb (ix2 r k))
  rw [hemb]
  refine (stored4_apply (iblk4 V c 1 ⟨t.val, t.isLt⟩) (iblk4 V c 0 ⟨t.val, t.isLt⟩) r k).trans ?_
  rw [step_block4 V c t.val t.isLt, in_block4 V c t.val t.isLt r k ⟨2048 * t.val + r.val, by omega⟩ rfl]

/-- An entry is in point t's stored block when its row is among the block's 2048 rows. -/
theorem in_written4_2 (t : Fin cfg4.N) (i : S65536x128.Idx) :
    i ∈ ((cfg4.win 2).blk t).view.set ↔ ∀ a : Fin 2, win4_2.index t a * S2048x128.size a ≤ (i a).val ∧ (i a).val < win4_2.index t a * S2048x128.size a + S2048x128.size a := by
  show i ∈ ((View.whole main_v34_0).slice (win4_2.rect t)).set ↔ _
  rw [View.set_slice_whole, Rect.mem_set_unit]
  exact Iff.rfl

/-- Every entry is written by the point of its row's block. -/
theorem all_written4_2 (i : S65536x128.Idx) :
    ∃ t : Fin cfg4.N, (cfg4.win 2).flush t = true ∧ i ∈ ((cfg4.win 2).blk t).view.set := by
  have hi0 : (i 0).val < 65536 := (i 0).isLt
  have hi1 : (i 1).val < 128 := (i 1).isLt
  have hN : cfg4.N = 32 := N_4
  have ht : (i 0).val / 2048 < cfg4.N := by rw [hN]; omega
  obtain ⟨-, -, -, -, e4, e5, -, -⟩ := block_index4 ⟨(i 0).val / 2048, ht⟩
  refine ⟨⟨(i 0).val / 2048, ht⟩, flush4_2 _, ?_⟩
  rw [in_written4_2]
  intro a
  match a with
  | ⟨0, _⟩ =>
    show win4_2.index ⟨(i 0).val / 2048, ht⟩ (0 : Fin 2) * 2048 ≤ (i 0).val ∧ (i 0).val < win4_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win4_2.index ⟨(i 0).val / 2048, ht⟩ (1 : Fin 2) * 128 ≤ (i 1).val ∧ (i 1).val < win4_2.index ⟨(i 0).val / 2048, ht⟩ (1 : Fin 2) * 128 + 128
    rw [e5]; omega

/-- After the region the stored output is the activated quantised matrix. -/
theorem final4_2_all (c : Dev nD) : (dat4 (F := Ideal) V c).arrAt 2 cfg4.N = activated4 V c :=
  (dat4 (F := Ideal) V c).arrAt_eq_of_cover 2 (activated4 V c) (fun t _ => written4_2 V c t) (all_written4_2)

/-- The same, entry by entry. -/
theorem final4_2 (c : Dev nD) (r : Fin 65536) (k : Fin 128) :
    ((dat4 (F := Ideal) V c).arrAt 2 cfg4.N : S65536x128.Idx → EReal) (ix2 r k) = Net.relu (Net.quant ((V c (Pipeline.arrRef spec4 1) : S1x1.Idx → EReal) (ix2 0 0)) ((V c (Pipeline.arrRef spec4 0) : S65536x128.Idx → EReal) (ix2 r k))) :=
  congrFun (final4_2_all V c) (ix2 r k)

/-! ## The largest magnitude -/

/-- The second output: the one entry at the running maximum of the whole stored matrix. -/
abbrev largest4 (c : Dev nD) : S1x1.Idx → EReal := fun _ =>
  Net.runMax (fun (r : Fin 65536) (k : Fin 128) => Net.relu (Net.quant ((V c (Pipeline.arrRef spec4 1) : S1x1.Idx → EReal) (ix2 0 0)) ((V c (Pipeline.arrRef spec4 0) : S65536x128.Idx → EReal) (ix2 r k))))

/-- The one write-back of the carried entry, after the last point, writes it. -/
theorem written4_3 (c : Dev nD) (t : Fin cfg4.N) (hf : (cfg4.win 3).flush t = true) :
    (dat4 (F := Ideal) V c).flushed 3 t = ((cfg4.win 3).blk t).view.read (Elt Ideal) (largest4 V c) := by
  have hN : cfg4.N = 32 := N_4
  have hlast : t.val = 31 := by have := (flush4_3 t).mp hf; have := t.isLt; omega
  show (cfg4.win 3).cut (grid4.coords t) ((dat4 V c).after 3 t) = _
  rw [after4_3]
  funext j
  obtain rfl : j = ix2 0 0 := one_index j
  show ((outsAt4 V c t.val t.isLt).2 : Vec Ideal S1x1 .f32) (ix2 0 0) = Net.runMax _
  refine eq_of_forall_ge_iff fun b => ?_
  rw [running4 V c t.val t.isLt b, runMax_le]
  exact and_congr Iff.rfl ⟨fun h R k => h R k (by have := R.isLt; omega), fun h R k _ => h R k⟩

/-- The one entry is in every point's block. -/
theorem in_written4_3 (t : Fin cfg4.N) (i : S1x1.Idx) :
    i ∈ ((cfg4.win 3).blk t).view.set ↔ ∀ a : Fin 2, win4_3.index t a * S1x1.size a ≤ (i a).val ∧ (i a).val < win4_3.index t a * S1x1.size a + S1x1.size a := by
  show i ∈ ((View.whole main_v34_1).slice (win4_3.rect t)).set ↔ _
  rw [View.set_slice_whole, Rect.mem_set_unit]
  exact Iff.rfl

/-- After the region the second output holds the running maximum. -/
theorem final4_3_all (c : Dev nD) : (dat4 (F := Ideal) V c).arrAt 3 cfg4.N = largest4 V c :=
  (dat4 (F := Ideal) V c).arrAt_eq_of_cover 3 (largest4 V c) (written4_3 V c) fun i => by
    have hlast : 31 < cfg4.N := by rw [show cfg4.N = 32 from N_4]; decide
    obtain ⟨-, -, -, -, -, -, e6, e7⟩ := block_index4 ⟨31, hlast⟩
    refine ⟨⟨31, hlast⟩, (flush4_3 _).mpr rfl, ?_⟩
    rw [in_written4_3]
    have h0 : (i 0).val < 1 := (i 0).isLt
    have h1 : (i 1).val < 1 := (i 1).isLt
    intro a
    match a with
    | ⟨0, _⟩ =>
      show win4_3.index ⟨31, hlast⟩ (0 : Fin 2) * 1 ≤ (i 0).val ∧ (i 0).val < win4_3.index ⟨31, hlast⟩ (0 : Fin 2) * 1 + 1
      rw [e6]; omega
    | ⟨1, _⟩ =>
      show win4_3.index ⟨31, hlast⟩ (1 : Fin 2) * 1 ≤ (i 1).val ∧ (i 1).val < win4_3.index ⟨31, hlast⟩ (1 : Fin 2) * 1 + 1
      rw [e7]; omega

/-- The same, at the array's one index. -/
theorem final4_3 (c : Dev nD) (y : S1x1.Idx) :
    ((dat4 (F := Ideal) V c).arrAt 3 cfg4.N : S1x1.Idx → EReal) y
      = Net.runMax (fun (r : Fin 65536) (k : Fin 128) => Net.relu (Net.quant ((V c (Pipeline.arrRef spec4 1) : S1x1.Idx → EReal) (ix2 0 0)) ((V c (Pipeline.arrRef spec4 0) : S65536x128.Idx → EReal) (ix2 r k)))) :=
  congrFun (final4_3_all V c) y

end Cert.KernelIdeal.RegionValue

end
-- ==== Proof.Region8.lean ====
/-
  Region 8: quantise every entry of the matrix with one step, apply the rectifier, store the result, and keep the largest
  magnitude of the results, started at zero.

  The region walks the 65536 rows in 32 blocks of 2048 rows.  At each block it divides every entry by the step (a
  one-entry array), rounds to the nearest integer with ties to even, clamps to [-128, 127], multiplies by the step and
  applies the rectifier; that block is stored.  It also carries a one-entry array: zero is stored there at the first block,
  and at every block the entry is joined with the largest magnitude of the block just stored.  Row R of the matrix lies
  in block R / 2048 and no block is written twice, so the stored matrix is the activation of the quantisation of every
  entry; and after block n the carried entry is the least bound above zero and above the magnitudes of the results in
  rows 0 … 2048 (n + 1) - 1, so after the last block, the only one written back, it is their running maximum.
-/
import proofs.«131146_j57208964383148_1_alg».proof.Proof.Gen.KernelIdeal.Frame
import proofs.«131146_j57208964383148_1_alg».proof.Proof.Net
import proofs.«131146_j57208964383148_1_alg».proof.Proof.BlockMax
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem zero_offsets8 : (![0, 0] : Fin 2 → Nat) = fun _ => 0 := funext fun a => by fin_cases a <;> rfl

section Pieces
variable {F : FTy → Type} [FloatOps F]

/-- At the first point the stored block is the body's first product of the step and the input block. -/
theorem first_stored8 (c : Dev nD) (i : grid8.Coords) (a1 : Memref sig .tc .vmem S2048x128 .f32) (h1 : a1.IsWhole)
    (a2 : Memref sig .tc .vmem S1x1 .f32) (h2 : a2.IsWhole) (a3 : Memref sig .tc .vmem S2048x128 .f32) (h3 : a3.IsWhole)
    (a4 : Memref sig .tc .vmem S1x1 .f32) (h4 : a4.IsWhole) (hc : cond8_0 i) (x : Vec F S2048x128 .f32) (s : Vec F S1x1 .f32) :
    out8_A_2 c i a1 h1 a2 h2 a3 h3 a4 h4 hc x s = k8_pay2 s x := by
  unfold out8_A_2
  rw [View.read_writes_eq_canon _ _ _ (cover8_A_2 c i a1 h1 a2 h2 a3 h3 a4 h4 hc x s)]
  unfold kernelRun8_A
  dsimp only
  try sl_unfold_words
  rw [View.canon_unit_zero zero_offsets8]
  simp only [View.readAt_eq_ld, h1.read_unread, h2.read_unread, View.ld_unit_zero (S := S2048x128) zero_offsets8,
    View.ld_unit_zero (S := S1x1) zero_offsets8]

/-- At the first point the carried entry is zero joined with the block's largest magnitude. -/
theorem first_carried8 (c : Dev nD) (i : grid8.Coords) (a1 : Memref sig .tc .vmem S2048x128 .f32) (h1 : a1.IsWhole)
    (a2 : Memref sig .tc .vmem S1x1 .f32) (h2 : a2.IsWhole) (a3 : Memref sig .tc .vmem S2048x128 .f32) (h3 : a3.IsWhole)
    (a4 : Memref sig .tc .vmem S1x1 .f32) (h4 : a4.IsWhole) (hc : cond8_0 i) (x : Vec F S2048x128 .f32) (s : Vec F S1x1 .f32) :
    out8_A_3 c i a1 h1 a2 h2 a3 h3 a4 h4 hc x s = k8_pay3 s x (k8_pay1 (F := F)) := by
  unfold out8_A_3
  rw [View.read_writes_eq_canon _ _ _ (cover8_A_3 c i a1 h1 a2 h2 a3 h3 a4 h4 hc x s)]
  unfold kernelRun8_A
  dsimp only
  try sl_unfold_words
  rw [View.canon_cons_unit_zero (S := S1x1) zero_offsets8, View.readCov_unit_zero (S := S1x1) _ zero_offsets8]
  simp only [View.readAt_eq_ld, h1.read_unread, h2.read_unread, View.ld_unit_zero (S := S2048x128) zero_offsets8,
    View.ld_unit_zero (S := S1x1) zero_offsets8]

/-- At a later point the stored block is the same function of the step and the input block. -/
theorem later_stored8 (c : Dev nD) (i : grid8.Coords) (a1 : Memref sig .tc .vmem S2048x128 .f32) (h1 : a1.IsWhole)
    (a2 : Memref sig .tc .vmem S1x1 .f32) (h2 : a2.IsWhole) (a3 : Memref sig .tc .vmem S2048x128 .f32) (h3 : a3.IsWhole)
    (a4 : Memref sig .tc .vmem S1x1 .f32) (h4 : a4.IsWhole) (hc : ¬cond8_0 i) (x : Vec F S2048x128 .f32) (s : Vec F S1x1 .f32) (xo : Vec F S1x1 .f32) :
    out8_B_2 c i a1 h1 a2 h2 a3 h3 a4 h4 hc x s xo = k8_pay2 s x := by
  unfold out8_B_2
  rw [View.read_writes_eq_canon _ _ _ (cover8_B_2 c i a1 h1 a2 h2 a3 h3 a4 h4 hc x s xo)]
  unfold kernelRun8_B
  dsimp only
  try sl_unfold_words
  rw [View.canon_unit_zero zero_offsets8]
  simp only [View.readAt_eq_ld, h1.read_unread, h2.read_unread, View.ld_unit_zero (S := S2048x128) zero_offsets8,
    View.ld_unit_zero (S := S1x1) zero_offsets8]

/-- At a later point the carried entry is what it held joined with the block's largest magnitude. -/
theorem later_carried8 (c : Dev nD) (i : grid8.Coords) (a1 : Memref sig .tc .vmem S2048x128 .f32) (h1 : a1.IsWhole)
    (a2 : Memref sig .tc .vmem S1x1 .f32) (h2 : a2.IsWhole) (a3 : Memref sig .tc .vmem S2048x128 .f32) (h3 : a3.IsWhole)
    (a4 : Memref sig .tc .vmem S1x1 .f32) (h4 : a4.IsWhole) (hc : ¬cond8_0 i) (x : Vec F S2048x128 .f32) (s : Vec F S1x1 .f32) (xo : Vec F S1x1 .f32) :
    out8_B_3 c i a1 h1 a2 h2 a3 h3 a4 h4 hc x s xo = k8_pay3 s x xo := by
  unfold out8_B_3
  rw [View.read_writes_eq_canon _ _ _ (cover8_B_3 c i a1 h1 a2 h2 a3 h3 a4 h4 hc x s xo)]
  unfold kernelRun8_B
  dsimp only
  try sl_unfold_words
  rw [View.canon_unit_zero zero_offsets8]
  simp only [View.readAt_eq_ld, h1.read_unread, h2.read_unread, h4.read_unread, View.ld_unit_zero (S := S2048x128) zero_offsets8,
    View.ld_unit_zero (S := S1x1) zero_offsets8]

end Pieces

/-- The stored block at one entry: the rectifier of the quantisation of the input's entry with the step. -/
theorem stored8_apply (s : Vec Ideal S1x1 .f32) (x : Vec Ideal S2048x128 .f32) (r : Fin 2048) (k : Fin 128) :
    k8_pay2 s x (ix2 r k) = Net.relu (Net.quant (s (ix2 0 0)) (x (ix2 r k))) := by
  have hb : broadcastTo S2048x128 (shapeCast S1x1 s shapeCasts_S1x1_S1x1) broadcasts_S1x1_S2048x128 (ix2 r k) = s (ix2 0 0) := by
    rw [shapeCast_self]; exact spread_one s _ r k
  have hx : shapeCast S2048x128 x shapeCasts_S2048x128_S2048x128 (ix2 r k) = x (ix2 r k) :=
    congrFun (shapeCast_self x _) _
  show Net.relu (Net.quant (broadcastTo S2048x128 (shapeCast S1x1 s shapeCasts_S1x1_S1x1) broadcasts_S1x1_S2048x128 (ix2 r k))
      (shapeCast S2048x128 x shapeCasts_S2048x128_S2048x128 (ix2 r k))) = _
  rw [hb, hx]

/-- The new carried entry is below a bound exactly when the old one and every magnitude of the stored block are. -/
theorem carried8_le (s : Vec Ideal S1x1 .f32) (x : Vec Ideal S2048x128 .f32) (a : Vec Ideal S1x1 .f32) (b : EReal) :
    k8_pay3 s x a (ix2 0 0) ≤ b
      ↔ a (ix2 0 0) ≤ b ∧ ∀ (r : Fin 2048) (k : Fin 128), Net.mag (Net.relu (Net.quant (s (ix2 0 0)) (x (ix2 r k)))) ≤ b := by
  unfold k8_pay3
  show max _ _ ≤ b ↔ _
  refine max_le_iff.trans (and_congr ?_ ?_)
  · rw [shapeCast_self]
  · refine (block_max_le (absf (k8_pay2 s x)) _ _ _ _ _ _ b).trans ?_
    refine forall_congr' fun r => forall_congr' fun k => ?_
    show Net.mag (k8_pay2 s x (ix2 r k)) ≤ b ↔ _
    rw [stored8_apply]

/-- Where the blocks sit: at point t the two matrix windows are at block row t; the one-entry windows do not move. -/
theorem block_index8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0 :=
  (by decide +kernel : ∀ t : Fin grid8.N, _)

/-- Entry (r, k) of the input's block at point n is entry (2048 n + r, k) of the input. -/
theorem in_block8 (c : Dev nD) (n : ℕ) (hn : n < cfg8.N) (r : Fin 2048) (k : Fin 128) (R : Fin 65536) (hR : R.val = 2048 * n + r.val) :
    (iblk8 V c 0 ⟨n, hn⟩ : Vec Ideal S2048x128 .f32) (ix2 r k) = (V c (Pipeline.arrRef spec8 0) : S65536x128.Idx → EReal) (ix2 R k) := by
  obtain ⟨e0, e1, -, -, -, -, -, -⟩ := block_index8 ⟨n, hn⟩
  unfold iblk8
  rw [View.read_apply]
  refine congrArg (V c (Pipeline.arrRef spec8 0) : S65536x128.Idx → EReal) ?_
  funext a
  apply Fin.ext
  match a with
  | ⟨0, _⟩ => show win8_0.index ⟨n, hn⟩ (0 : Fin 2) * 2048 + 1 * r.val = R.val; rw [e0, hR]; show n * 2048 + 1 * r.val = 2048 * n + r.val; omega
  | ⟨1, _⟩ => show win8_0.index ⟨n, hn⟩ (1 : Fin 2) * 128 + 1 * k.val = k.val; rw [e1]; omega

/-- The step's block at any point is the step's one entry. -/
theorem step_block8 (c : Dev nD) (n : ℕ) (hn : n < cfg8.N) :
    (iblk8 V c 1 ⟨n, hn⟩ : Vec Ideal S1x1 .f32) (ix2 0 0) = (V c (Pipeline.arrRef spec8 1) : S1x1.Idx → EReal) (ix2 0 0) := by
  obtain ⟨-, -, e2, e3, -, -, -, -⟩ := block_index8 ⟨n, hn⟩
  unfold iblk8
  rw [View.read_apply]
  refine congrArg (V c (Pipeline.arrRef spec8 1) : S1x1.Idx → EReal) ?_
  funext a
  apply Fin.ext
  match a with
  | ⟨0, _⟩ => show win8_1.index ⟨n, hn⟩ (0 : Fin 2) * 1 + 1 * 0 = 0; rw [e2]
  | ⟨1, _⟩ => show win8_1.index ⟨n, hn⟩ (1 : Fin 2) * 1 + 1 * 0 = 0; rw [e3]

/-- What a first point leaves in the two output buffers. -/
theorem at_first8_2 (c : Dev nD) (t : Fin cfg8.N) (h0 : t.val % 32 = 0) :
    (outsAt8 V c t.val t.isLt).1 = k8_pay2 (iblk8 V c 1 t) (iblk8 V c 0 t) := by
  rw [outsAt8_A V c t h0]
  dsimp only
  exact first_stored8 (F := Ideal) c (grid8.coords t) (ms8_0 t) (hs8_0 t) (ms8_1 t) (hs8_1 t) (ms8_2 t) (hs8_2 t) (ms8_3 t) (hs8_3 t) ((hcond8_0 t).mpr h0) (iblk8 V c 0 t) (iblk8 V c 1 t)
theorem at_first8_3 (c : Dev nD) (t : Fin cfg8.N) (h0 : t.val % 32 = 0) :
    (outsAt8 V c t.val t.isLt).2 = k8_pay3 (iblk8 V c 1 t) (iblk8 V c 0 t) (k8_pay1 (F := Ideal)) := by
  rw [outsAt8_A V c t h0]
  dsimp only
  exact first_carried8 (F := Ideal) c (grid8.coords t) (ms8_0 t) (hs8_0 t) (ms8_1 t) (hs8_1 t) (ms8_2 t) (hs8_2 t) (ms8_3 t) (hs8_3 t) ((hcond8_0 t).mpr h0) (iblk8 V c 0 t) (iblk8 V c 1 t)

/-- What a later point leaves in them, the carried entry over what the point before left. -/
theorem at_later8_2 (c : Dev nD) (t : Fin cfg8.N) (h0 : ¬t.val % 32 = 0) :
    (outsAt8 V c t.val t.isLt).1 = k8_pay2 (iblk8 V c 1 t) (iblk8 V c 0 t) := by
  rw [outsAt8_B V c t h0]
  dsimp only
  exact later_stored8 (F := Ideal) c (grid8.coords t) (ms8_0 t) (hs8_0 t) (ms8_1 t) (hs8_1 t) (ms8_2 t) (hs8_2 t) (ms8_3 t) (hs8_3 t) (fun h => h0 ((hcond8_0 t).mp h)) (iblk8 V c 0 t) (iblk8 V c 1 t) (outsAt8 V c (t.val - 1) (Nat.lt_of_le_of_lt (Nat.sub_le _ _) t.isLt)).2
theorem at_later8_3 (c : Dev nD) (t : Fin cfg8.N) (h0 : ¬t.val % 32 = 0) :
    (outsAt8 V c t.val t.isLt).2 = k8_pay3 (iblk8 V c 1 t) (iblk8 V c 0 t) (outsAt8 V c (t.val - 1) (Nat.lt_of_le_of_lt (Nat.sub_le _ _) t.isLt)).2 := by
  rw [outsAt8_B V c t h0]
  dsimp only
  exact later_carried8 (F := Ideal) c (grid8.coords t) (ms8_0 t) (hs8_0 t) (ms8_1 t) (hs8_1 t) (ms8_2 t) (hs8_2 t) (ms8_3 t) (hs8_3 t) (fun h => h0 ((hcond8_0 t).mp h)) (iblk8 V c 0 t) (iblk8 V c 1 t) (outsAt8 V c (t.val - 1) (Nat.lt_of_le_of_lt (Nat.sub_le _ _) t.isLt)).2

/-- What every point leaves in the stored block's buffer: the body's product of the step's block and the input's block. -/
theorem stored_at8 (c : Dev nD) (t : Fin cfg8.N) :
    (outsAt8 V c t.val t.isLt).1 = k8_pay2 (iblk8 V c 1 t) (iblk8 V c 0 t) := by
  by_cases h0 : t.val % 32 = 0
  · exact at_first8_2 V c t h0
  · exact at_later8_2 V c t h0

/-- The results of block n are below a bound exactly when those of rows 2048 n … 2048 n + 2047 of the matrix are. -/
theorem block_rows8 (c : Dev nD) (n : ℕ) (hn : n < cfg8.N) (b : EReal) :
    (∀ (r : Fin 2048) (k : Fin 128), Net.mag (Net.relu (Net.quant ((iblk8 V c 1 ⟨n, hn⟩ : Vec Ideal S1x1 .f32) (ix2 0 0))
        ((iblk8 V c 0 ⟨n, hn⟩ : Vec Ideal S2048x128 .f32) (ix2 r k)))) ≤ b)
      ↔ ∀ (R : Fin 65536) (k : Fin 128), 2048 * n ≤ R.val → R.val < 2048 * (n + 1) →
          Net.mag (Net.relu (Net.quant ((V c (Pipeline.arrRef spec8 1) : S1x1.Idx → EReal) (ix2 0 0)) ((V c (Pipeline.arrRef spec8 0) : S65536x128.Idx → EReal) (ix2 R k)))) ≤ b := by
  have hN : n < 32 := lt_of_lt_of_eq hn (show cfg8.N = 32 from N_8)
  rw [step_block8 V c n hn]
  constructor
  · intro h R k h1 h2
    have := h ⟨R.val - 2048 * n, by omega⟩ k
    rwa [in_block8 V c n hn ⟨R.val - 2048 * n, by omega⟩ k R (by show R.val = 2048 * n + (R.val - 2048 * n); omega)] at this
  · intro h r k
    have hr : r.val < 2048 := r.isLt
    rw [in_block8 V c n hn r k ⟨2048 * n + r.val, by omega⟩ rfl]
    exact h _ k (by show 2048 * n ≤ 2048 * n + r.val; omega) (by show 2048 * n + r.val < 2048 * (n + 1); omega)

/-- THE RUNNING MAXIMUM.  After point n the carried entry is below a bound exactly when zero is and the magnitude of
    every result in the rows seen so far is. -/
theorem running8 (c : Dev nD) : ∀ (n : ℕ) (hn : n < cfg8.N) (b : EReal),
    ((outsAt8 V c n hn).2 : Vec Ideal S1x1 .f32) (ix2 0 0) ≤ b
      ↔ Net.zero ≤ b ∧ ∀ (R : Fin 65536) (k : Fin 128), R.val < 2048 * (n + 1) →
          Net.mag (Net.relu (Net.quant ((V c (Pipeline.arrRef spec8 1) : S1x1.Idx → EReal) (ix2 0 0)) ((V c (Pipeline.arrRef spec8 0) : S65536x128.Idx → EReal) (ix2 R k)))) ≤ b
  | 0, hn, b => by
    have e : (outsAt8 V c 0 hn).2 = k8_pay3 (iblk8 V c 1 ⟨0, hn⟩) (iblk8 V c 0 ⟨0, hn⟩) (k8_pay1 (F := Ideal)) :=
      at_first8_3 V c ⟨0, hn⟩ rfl
    rw [e]
    refine (carried8_le (iblk8 V c 1 ⟨0, hn⟩) (iblk8 V c 0 ⟨0, hn⟩) (k8_pay1 (F := Ideal)) b).trans (and_congr Iff.rfl ?_)
    rw [block_rows8 V c 0 hn b]
    exact ⟨fun h R k hR => h R k (by omega) hR, fun h R k _ hR => h R k hR⟩
  | n + 1, hn, b => by
    have hN : cfg8.N = 32 := N_8
    have hB : ¬(⟨n + 1, hn⟩ : Fin cfg8.N).val % 32 = 0 := by dsimp only; omega
    have e : (outsAt8 V c (n + 1) hn).2
        = k8_pay3 (iblk8 V c 1 ⟨n + 1, hn⟩) (iblk8 V c 0 ⟨n + 1, hn⟩) (outsAt8 V c n (Nat.lt_of_succ_lt hn)).2 :=
      at_later8_3 V c ⟨n + 1, hn⟩ hB
    rw [e]
    refine (carried8_le (iblk8 V c 1 ⟨n + 1, hn⟩) (iblk8 V c 0 ⟨n + 1, hn⟩) (outsAt8 V c n (Nat.lt_of_succ_lt hn)).2 b).trans ?_
    rw [running8 c n (Nat.lt_of_succ_lt hn) b, block_rows8 V c (n + 1) hn b]
    constructor
    · rintro ⟨⟨h0, h1⟩, h2⟩
      refine ⟨h0, fun R k hR => ?_⟩
      by_cases hlt : R.val < 2048 * (n + 1)
      · exact h1 R k hlt
      · exact h2 R k (by omega) hR
    · rintro ⟨h0, h1⟩
      exact ⟨⟨h0, fun R k hR => h1 R k (by omega)⟩, fun R k _ hR => h1 R k hR⟩

/-! ## The stored matrix -/

/-- The whole stored output: the rectifier of the quantisation of every entry. -/
abbrev activated8 (c : Dev nD) : S65536x128.Idx → EReal := fun i => Net.relu (Net.quant ((V c (Pipeline.arrRef spec8 1) : S1x1.Idx → EReal) (ix2 0 0)) ((V c (Pipeline.arrRef spec8 0) : S65536x128.Idx → EReal) i))

/-- What point t writes back to the stored output is block t of that matrix. -/
theorem written8_2 (c : Dev nD) (t : Fin cfg8.N) :
    (dat8 (F := Ideal) V c).flushed 2 t = ((cfg8.win 2).blk t).view.read (Elt Ideal) (activated8 V c) := by
  show (cfg8.win 2).cut (grid8.coords t) ((dat8 V c).after 2 t) = _
  rw [after8_2, stored_at8 V c t]
  obtain ⟨-, -, -, -, e4, e5, -, -⟩ := block_index8 t
  funext j
  obtain ⟨r, k, rfl⟩ : ∃ (r : Fin 2048) (k : Fin 128), j = ix2 r k := ⟨j 0, j 1, eq_ix2 j⟩
  have hN : t.val < 32 := lt_of_lt_of_eq t.isLt (show cfg8.N = 32 from N_8)
  have hr : r.val < 2048 := r.isLt
  have hemb : ((cfg8.win 2).blk t).view.emb (ix2 r k)
      = (ix2 (⟨2048 * t.val + r.val, by omega⟩ : Fin 65536) k : S65536x128.Idx) := by
    funext a
    apply Fin.ext
    match a with
    | ⟨0, _⟩ => show win8_2.index t (0 : Fin 2) * 2048 + 1 * r.val = 2048 * t.val + r.val; rw [e4]; omega
    | ⟨1, _⟩ => show win8_2.index t (1 : Fin 2) * 128 + 1 * k.val = k.val; rw [e5]; omega
  show k8_pay2 (iblk8 V c 1 ⟨t.val, t.isLt⟩) (iblk8 V c 0 ⟨t.val, t.isLt⟩) (ix2 r k)
    = activated8 V c (((cfg8.win 2).blk t).view.emb (ix2 r k))
  rw [hemb]
  refine (stored8_apply (iblk8 V c 1 ⟨t.val, t.isLt⟩) (iblk8 V c 0 ⟨t.val, t.isLt⟩) r k).trans ?_
  rw [step_block8 V c t.val t.isLt, in_block8 V c t.val t.isLt r k ⟨2048 * t.val + r.val, by omega⟩ rfl]

/-- An entry is in point t's stored block when its row is among the block's 2048 rows. -/
theorem in_written8_2 (t : Fin cfg8.N) (i : S65536x128.Idx) :
    i ∈ ((cfg8.win 2).blk t).view.set ↔ ∀ a : Fin 2, win8_2.index t a * S2048x128.size a ≤ (i a).val ∧ (i a).val < win8_2.index t a * S2048x128.size a + S2048x128.size a := by
  show i ∈ ((View.whole main_v68_0).slice (win8_2.rect t)).set ↔ _
  rw [View.set_slice_whole, Rect.mem_set_unit]
  exact Iff.rfl

/-- Every entry is written by the point of its row's block. -/
theorem all_written8_2 (i : S65536x128.Idx) :
    ∃ t : Fin cfg8.N, (cfg8.win 2).flush t = true ∧ i ∈ ((cfg8.win 2).blk t).view.set := by
  have hi0 : (i 0).val < 65536 := (i 0).isLt
  have hi1 : (i 1).val < 128 := (i 1).isLt
  have hN : cfg8.N = 32 := N_8
  have ht : (i 0).val / 2048 < cfg8.N := by rw [hN]; omega
  obtain ⟨-, -, -, -, e4, e5, -, -⟩ := block_index8 ⟨(i 0).val / 2048, ht⟩
  refine ⟨⟨(i 0).val / 2048, ht⟩, flush8_2 _, ?_⟩
  rw [in_written8_2]
  intro a
  match a with
  | ⟨0, _⟩ =>
    show win8_2.index ⟨(i 0).val / 2048, ht⟩ (0 : Fin 2) * 2048 ≤ (i 0).val ∧ (i 0).val < win8_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win8_2.index ⟨(i 0).val / 2048, ht⟩ (1 : Fin 2) * 128 ≤ (i 1).val ∧ (i 1).val < win8_2.index ⟨(i 0).val / 2048, ht⟩ (1 : Fin 2) * 128 + 128
    rw [e5]; omega

/-- After the region the stored output is the activated quantised matrix. -/
theorem final8_2_all (c : Dev nD) : (dat8 (F := Ideal) V c).arrAt 2 cfg8.N = activated8 V c :=
  (dat8 (F := Ideal) V c).arrAt_eq_of_cover 2 (activated8 V c) (fun t _ => written8_2 V c t) (all_written8_2)

/-- The same, entry by entry. -/
theorem final8_2 (c : Dev nD) (r : Fin 65536) (k : Fin 128) :
    ((dat8 (F := Ideal) V c).arrAt 2 cfg8.N : S65536x128.Idx → EReal) (ix2 r k) = Net.relu (Net.quant ((V c (Pipeline.arrRef spec8 1) : S1x1.Idx → EReal) (ix2 0 0)) ((V c (Pipeline.arrRef spec8 0) : S65536x128.Idx → EReal) (ix2 r k))) :=
  congrFun (final8_2_all V c) (ix2 r k)

/-! ## The largest magnitude -/

/-- The second output: the one entry at the running maximum of the whole stored matrix. -/
abbrev largest8 (c : Dev nD) : S1x1.Idx → EReal := fun _ =>
  Net.runMax (fun (r : Fin 65536) (k : Fin 128) => Net.relu (Net.quant ((V c (Pipeline.arrRef spec8 1) : S1x1.Idx → EReal) (ix2 0 0)) ((V c (Pipeline.arrRef spec8 0) : S65536x128.Idx → EReal) (ix2 r k))))

/-- The one write-back of the carried entry, after the last point, writes it. -/
theorem written8_3 (c : Dev nD) (t : Fin cfg8.N) (hf : (cfg8.win 3).flush t = true) :
    (dat8 (F := Ideal) V c).flushed 3 t = ((cfg8.win 3).blk t).view.read (Elt Ideal) (largest8 V c) := by
  have hN : cfg8.N = 32 := N_8
  have hlast : t.val = 31 := by have := (flush8_3 t).mp hf; have := t.isLt; omega
  show (cfg8.win 3).cut (grid8.coords t) ((dat8 V c).after 3 t) = _
  rw [after8_3]
  funext j
  obtain rfl : j = ix2 0 0 := one_index j
  show ((outsAt8 V c t.val t.isLt).2 : Vec Ideal S1x1 .f32) (ix2 0 0) = Net.runMax _
  refine eq_of_forall_ge_iff fun b => ?_
  rw [running8 V c t.val t.isLt b, runMax_le]
  exact and_congr Iff.rfl ⟨fun h R k => h R k (by have := R.isLt; omega), fun h R k _ => h R k⟩

/-- The one entry is in every point's block. -/
theorem in_written8_3 (t : Fin cfg8.N) (i : S1x1.Idx) :
    i ∈ ((cfg8.win 3).blk t).view.set ↔ ∀ a : Fin 2, win8_3.index t a * S1x1.size a ≤ (i a).val ∧ (i a).val < win8_3.index t a * S1x1.size a + S1x1.size a := by
  show i ∈ ((View.whole main_v68_1).slice (win8_3.rect t)).set ↔ _
  rw [View.set_slice_whole, Rect.mem_set_unit]
  exact Iff.rfl

/-- After the region the second output holds the running maximum. -/
theorem final8_3_all (c : Dev nD) : (dat8 (F := Ideal) V c).arrAt 3 cfg8.N = largest8 V c :=
  (dat8 (F := Ideal) V c).arrAt_eq_of_cover 3 (largest8 V c) (written8_3 V c) fun i => by
    have hlast : 31 < cfg8.N := by rw [show cfg8.N = 32 from N_8]; decide
    obtain ⟨-, -, -, -, -, -, e6, e7⟩ := block_index8 ⟨31, hlast⟩
    refine ⟨⟨31, hlast⟩, (flush8_3 _).mpr rfl, ?_⟩
    rw [in_written8_3]
    have h0 : (i 0).val < 1 := (i 0).isLt
    have h1 : (i 1).val < 1 := (i 1).isLt
    intro a
    match a with
    | ⟨0, _⟩ =>
      show win8_3.index ⟨31, hlast⟩ (0 : Fin 2) * 1 ≤ (i 0).val ∧ (i 0).val < win8_3.index ⟨31, hlast⟩ (0 : Fin 2) * 1 + 1
      rw [e6]; omega
    | ⟨1, _⟩ =>
      show win8_3.index ⟨31, hlast⟩ (1 : Fin 2) * 1 ≤ (i 1).val ∧ (i 1).val < win8_3.index ⟨31, hlast⟩ (1 : Fin 2) * 1 + 1
      rw [e7]; omega

/-- The same, at the array's one index. -/
theorem final8_3 (c : Dev nD) (y : S1x1.Idx) :
    ((dat8 (F := Ideal) V c).arrAt 3 cfg8.N : S1x1.Idx → EReal) y
      = Net.runMax (fun (r : Fin 65536) (k : Fin 128) => Net.relu (Net.quant ((V c (Pipeline.arrRef spec8 1) : S1x1.Idx → EReal) (ix2 0 0)) ((V c (Pipeline.arrRef spec8 0) : S65536x128.Idx → EReal) (ix2 r k)))) :=
  congrFun (final8_3_all V c) y

end Cert.KernelIdeal.RegionValue

end
-- ==== Proof.Region12.lean ====
/-
  Region 12: quantise every entry of the matrix with one step, apply the logistic function, store the result, and keep the largest
  magnitude of the results, started at zero.

  The region walks the 65536 rows in 32 blocks of 2048 rows.  At each block it divides every entry by the step (a
  one-entry array), rounds to the nearest integer with ties to even, clamps to [-128, 127], multiplies by the step and
  applies the logistic function; that block is stored.  It also carries a one-entry array: zero is stored there at the first block,
  and at every block the entry is joined with the largest magnitude of the block just stored.  Row R of the matrix lies
  in block R / 2048 and no block is written twice, so the stored matrix is the activation of the quantisation of every
  entry; and after block n the carried entry is the least bound above zero and above the magnitudes of the results in
  rows 0 … 2048 (n + 1) - 1, so after the last block, the only one written back, it is their running maximum.
-/
import proofs.«131146_j57208964383148_1_alg».proof.Proof.Gen.KernelIdeal.Frame
import proofs.«131146_j57208964383148_1_alg».proof.Proof.Net
import proofs.«131146_j57208964383148_1_alg».proof.Proof.BlockMax
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

theorem zero_offsets12 : (![0, 0] : Fin 2 → Nat) = fun _ => 0 := funext fun a => by fin_cases a <;> rfl

section Pieces
variable {F : FTy → Type} [FloatOps F]

/-- At the first point the stored block is the body's first product of the step and the input block. -/
theorem first_stored12 (c : Dev nD) (i : grid12.Coords) (a1 : Memref sig .tc .vmem S2048x10 .f32) (h1 : a1.IsWhole)
    (a2 : Memref sig .tc .vmem S1x1 .f32) (h2 : a2.IsWhole) (a3 : Memref sig .tc .vmem S2048x10 .f32) (h3 : a3.IsWhole)
    (a4 : Memref sig .tc .vmem S1x1 .f32) (h4 : a4.IsWhole) (hc : cond12_0 i) (x : Vec F S2048x10 .f32) (s : Vec F S1x1 .f32) :
    out12_A_2 c i a1 h1 a2 h2 a3 h3 a4 h4 hc x s = k12_pay2 s x := by
  unfold out12_A_2
  rw [View.read_writes_eq_canon _ _ _ (cover12_A_2 c i a1 h1 a2 h2 a3 h3 a4 h4 hc x s)]
  unfold kernelRun12_A
  dsimp only
  try sl_unfold_words
  rw [View.canon_unit_zero zero_offsets12]
  simp only [View.readAt_eq_ld, h1.read_unread, h2.read_unread, View.ld_unit_zero (S := S2048x10) zero_offsets12,
    View.ld_unit_zero (S := S1x1) zero_offsets12]

/-- At the first point the carried entry is zero joined with the block's largest magnitude. -/
theorem first_carried12 (c : Dev nD) (i : grid12.Coords) (a1 : Memref sig .tc .vmem S2048x10 .f32) (h1 : a1.IsWhole)
    (a2 : Memref sig .tc .vmem S1x1 .f32) (h2 : a2.IsWhole) (a3 : Memref sig .tc .vmem S2048x10 .f32) (h3 : a3.IsWhole)
    (a4 : Memref sig .tc .vmem S1x1 .f32) (h4 : a4.IsWhole) (hc : cond12_0 i) (x : Vec F S2048x10 .f32) (s : Vec F S1x1 .f32) :
    out12_A_3 c i a1 h1 a2 h2 a3 h3 a4 h4 hc x s = k12_pay3 s x (k12_pay1 (F := F)) := by
  unfold out12_A_3
  rw [View.read_writes_eq_canon _ _ _ (cover12_A_3 c i a1 h1 a2 h2 a3 h3 a4 h4 hc x s)]
  unfold kernelRun12_A
  dsimp only
  try sl_unfold_words
  rw [View.canon_cons_unit_zero (S := S1x1) zero_offsets12, View.readCov_unit_zero (S := S1x1) _ zero_offsets12]
  simp only [View.readAt_eq_ld, h1.read_unread, h2.read_unread, View.ld_unit_zero (S := S2048x10) zero_offsets12,
    View.ld_unit_zero (S := S1x1) zero_offsets12]

/-- At a later point the stored block is the same function of the step and the input block. -/
theorem later_stored12 (c : Dev nD) (i : grid12.Coords) (a1 : Memref sig .tc .vmem S2048x10 .f32) (h1 : a1.IsWhole)
    (a2 : Memref sig .tc .vmem S1x1 .f32) (h2 : a2.IsWhole) (a3 : Memref sig .tc .vmem S2048x10 .f32) (h3 : a3.IsWhole)
    (a4 : Memref sig .tc .vmem S1x1 .f32) (h4 : a4.IsWhole) (hc : ¬cond12_0 i) (x : Vec F S2048x10 .f32) (s : Vec F S1x1 .f32) (xo : Vec F S1x1 .f32) :
    out12_B_2 c i a1 h1 a2 h2 a3 h3 a4 h4 hc x s xo = k12_pay2 s x := by
  unfold out12_B_2
  rw [View.read_writes_eq_canon _ _ _ (cover12_B_2 c i a1 h1 a2 h2 a3 h3 a4 h4 hc x s xo)]
  unfold kernelRun12_B
  dsimp only
  try sl_unfold_words
  rw [View.canon_unit_zero zero_offsets12]
  simp only [View.readAt_eq_ld, h1.read_unread, h2.read_unread, View.ld_unit_zero (S := S2048x10) zero_offsets12,
    View.ld_unit_zero (S := S1x1) zero_offsets12]

/-- At a later point the carried entry is what it held joined with the block's largest magnitude. -/
theorem later_carried12 (c : Dev nD) (i : grid12.Coords) (a1 : Memref sig .tc .vmem S2048x10 .f32) (h1 : a1.IsWhole)
    (a2 : Memref sig .tc .vmem S1x1 .f32) (h2 : a2.IsWhole) (a3 : Memref sig .tc .vmem S2048x10 .f32) (h3 : a3.IsWhole)
    (a4 : Memref sig .tc .vmem S1x1 .f32) (h4 : a4.IsWhole) (hc : ¬cond12_0 i) (x : Vec F S2048x10 .f32) (s : Vec F S1x1 .f32) (xo : Vec F S1x1 .f32) :
    out12_B_3 c i a1 h1 a2 h2 a3 h3 a4 h4 hc x s xo = k12_pay3 s x xo := by
  unfold out12_B_3
  rw [View.read_writes_eq_canon _ _ _ (cover12_B_3 c i a1 h1 a2 h2 a3 h3 a4 h4 hc x s xo)]
  unfold kernelRun12_B
  dsimp only
  try sl_unfold_words
  rw [View.canon_unit_zero zero_offsets12]
  simp only [View.readAt_eq_ld, h1.read_unread, h2.read_unread, h4.read_unread, View.ld_unit_zero (S := S2048x10) zero_offsets12,
    View.ld_unit_zero (S := S1x1) zero_offsets12]

end Pieces

/-- The stored block at one entry: the logistic function of the quantisation of the input's entry with the step. -/
theorem stored12_apply (s : Vec Ideal S1x1 .f32) (x : Vec Ideal S2048x10 .f32) (r : Fin 2048) (k : Fin 10) :
    k12_pay2 s x (ix2 r k) = Ideal.logistic (Net.quant (s (ix2 0 0)) (x (ix2 r k))) := by
  have hb : broadcastTo S2048x10 (shapeCast S1x1 s shapeCasts_S1x1_S1x1) broadcasts_S1x1_S2048x10 (ix2 r k) = s (ix2 0 0) := by
    rw [shapeCast_self]; exact spread_one s _ r k
  have hx : shapeCast S2048x10 x shapeCasts_S2048x10_S2048x10 (ix2 r k) = x (ix2 r k) :=
    congrFun (shapeCast_self x _) _
  show Ideal.logistic (Net.quant (broadcastTo S2048x10 (shapeCast S1x1 s shapeCasts_S1x1_S1x1) broadcasts_S1x1_S2048x10 (ix2 r k))
      (shapeCast S2048x10 x shapeCasts_S2048x10_S2048x10 (ix2 r k))) = _
  rw [hb, hx]

/-- The new carried entry is below a bound exactly when the old one and every magnitude of the stored block are. -/
theorem carried12_le (s : Vec Ideal S1x1 .f32) (x : Vec Ideal S2048x10 .f32) (a : Vec Ideal S1x1 .f32) (b : EReal) :
    k12_pay3 s x a (ix2 0 0) ≤ b
      ↔ a (ix2 0 0) ≤ b ∧ ∀ (r : Fin 2048) (k : Fin 10), Net.mag (Ideal.logistic (Net.quant (s (ix2 0 0)) (x (ix2 r k)))) ≤ b := by
  unfold k12_pay3
  show max _ _ ≤ b ↔ _
  refine max_le_iff.trans (and_congr ?_ ?_)
  · rw [shapeCast_self]
  · refine (block_max_le (absf (k12_pay2 s x)) _ _ _ _ _ _ b).trans ?_
    refine forall_congr' fun r => forall_congr' fun k => ?_
    show Net.mag (k12_pay2 s x (ix2 r k)) ≤ b ↔ _
    rw [stored12_apply]

/-- Where the blocks sit: at point t the two matrix windows are at block row t; the one-entry windows do not move. -/
theorem block_index12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0 :=
  (by decide +kernel : ∀ t : Fin grid12.N, _)

/-- Entry (r, k) of the input's block at point n is entry (2048 n + r, k) of the input. -/
theorem in_block12 (c : Dev nD) (n : ℕ) (hn : n < cfg12.N) (r : Fin 2048) (k : Fin 10) (R : Fin 65536) (hR : R.val = 2048 * n + r.val) :
    (iblk12 V c 0 ⟨n, hn⟩ : Vec Ideal S2048x10 .f32) (ix2 r k) = (V c (Pipeline.arrRef spec12 0) : S65536x10.Idx → EReal) (ix2 R k) := by
  obtain ⟨e0, e1, -, -, -, -, -, -⟩ := block_index12 ⟨n, hn⟩
  unfold iblk12
  rw [View.read_apply]
  refine congrArg (V c (Pipeline.arrRef spec12 0) : S65536x10.Idx → EReal) ?_
  funext a
  apply Fin.ext
  match a with
  | ⟨0, _⟩ => show win12_0.index ⟨n, hn⟩ (0 : Fin 2) * 2048 + 1 * r.val = R.val; rw [e0, hR]; show n * 2048 + 1 * r.val = 2048 * n + r.val; omega
  | ⟨1, _⟩ => show win12_0.index ⟨n, hn⟩ (1 : Fin 2) * 10 + 1 * k.val = k.val; rw [e1]; omega

/-- The step's block at any point is the step's one entry. -/
theorem step_block12 (c : Dev nD) (n : ℕ) (hn : n < cfg12.N) :
    (iblk12 V c 1 ⟨n, hn⟩ : Vec Ideal S1x1 .f32) (ix2 0 0) = (V c (Pipeline.arrRef spec12 1) : S1x1.Idx → EReal) (ix2 0 0) := by
  obtain ⟨-, -, e2, e3, -, -, -, -⟩ := block_index12 ⟨n, hn⟩
  unfold iblk12
  rw [View.read_apply]
  refine congrArg (V c (Pipeline.arrRef spec12 1) : S1x1.Idx → EReal) ?_
  funext a
  apply Fin.ext
  match a with
  | ⟨0, _⟩ => show win12_1.index ⟨n, hn⟩ (0 : Fin 2) * 1 + 1 * 0 = 0; rw [e2]
  | ⟨1, _⟩ => show win12_1.index ⟨n, hn⟩ (1 : Fin 2) * 1 + 1 * 0 = 0; rw [e3]

/-- What a first point leaves in the two output buffers. -/
theorem at_first12_2 (c : Dev nD) (t : Fin cfg12.N) (h0 : t.val % 32 = 0) :
    (outsAt12 V c t.val t.isLt).1 = k12_pay2 (iblk12 V c 1 t) (iblk12 V c 0 t) := by
  rw [outsAt12_A V c t h0]
  dsimp only
  exact first_stored12 (F := Ideal) c (grid12.coords t) (ms12_0 t) (hs12_0 t) (ms12_1 t) (hs12_1 t) (ms12_2 t) (hs12_2 t) (ms12_3 t) (hs12_3 t) ((hcond12_0 t).mpr h0) (iblk12 V c 0 t) (iblk12 V c 1 t)
theorem at_first12_3 (c : Dev nD) (t : Fin cfg12.N) (h0 : t.val % 32 = 0) :
    (outsAt12 V c t.val t.isLt).2 = k12_pay3 (iblk12 V c 1 t) (iblk12 V c 0 t) (k12_pay1 (F := Ideal)) := by
  rw [outsAt12_A V c t h0]
  dsimp only
  exact first_carried12 (F := Ideal) c (grid12.coords t) (ms12_0 t) (hs12_0 t) (ms12_1 t) (hs12_1 t) (ms12_2 t) (hs12_2 t) (ms12_3 t) (hs12_3 t) ((hcond12_0 t).mpr h0) (iblk12 V c 0 t) (iblk12 V c 1 t)

/-- What a later point leaves in them, the carried entry over what the point before left. -/
theorem at_later12_2 (c : Dev nD) (t : Fin cfg12.N) (h0 : ¬t.val % 32 = 0) :
    (outsAt12 V c t.val t.isLt).1 = k12_pay2 (iblk12 V c 1 t) (iblk12 V c 0 t) := by
  rw [outsAt12_B V c t h0]
  dsimp only
  exact later_stored12 (F := Ideal) c (grid12.coords t) (ms12_0 t) (hs12_0 t) (ms12_1 t) (hs12_1 t) (ms12_2 t) (hs12_2 t) (ms12_3 t) (hs12_3 t) (fun h => h0 ((hcond12_0 t).mp h)) (iblk12 V c 0 t) (iblk12 V c 1 t) (outsAt12 V c (t.val - 1) (Nat.lt_of_le_of_lt (Nat.sub_le _ _) t.isLt)).2
theorem at_later12_3 (c : Dev nD) (t : Fin cfg12.N) (h0 : ¬t.val % 32 = 0) :
    (outsAt12 V c t.val t.isLt).2 = k12_pay3 (iblk12 V c 1 t) (iblk12 V c 0 t) (outsAt12 V c (t.val - 1) (Nat.lt_of_le_of_lt (Nat.sub_le _ _) t.isLt)).2 := by
  rw [outsAt12_B V c t h0]
  dsimp only
  exact later_carried12 (F := Ideal) c (grid12.coords t) (ms12_0 t) (hs12_0 t) (ms12_1 t) (hs12_1 t) (ms12_2 t) (hs12_2 t) (ms12_3 t) (hs12_3 t) (fun h => h0 ((hcond12_0 t).mp h)) (iblk12 V c 0 t) (iblk12 V c 1 t) (outsAt12 V c (t.val - 1) (Nat.lt_of_le_of_lt (Nat.sub_le _ _) t.isLt)).2

/-- What every point leaves in the stored block's buffer: the body's product of the step's block and the input's block. -/
theorem stored_at12 (c : Dev nD) (t : Fin cfg12.N) :
    (outsAt12 V c t.val t.isLt).1 = k12_pay2 (iblk12 V c 1 t) (iblk12 V c 0 t) := by
  by_cases h0 : t.val % 32 = 0
  · exact at_first12_2 V c t h0
  · exact at_later12_2 V c t h0

/-- The results of block n are below a bound exactly when those of rows 2048 n … 2048 n + 2047 of the matrix are. -/
theorem block_rows12 (c : Dev nD) (n : ℕ) (hn : n < cfg12.N) (b : EReal) :
    (∀ (r : Fin 2048) (k : Fin 10), Net.mag (Ideal.logistic (Net.quant ((iblk12 V c 1 ⟨n, hn⟩ : Vec Ideal S1x1 .f32) (ix2 0 0))
        ((iblk12 V c 0 ⟨n, hn⟩ : Vec Ideal S2048x10 .f32) (ix2 r k)))) ≤ b)
      ↔ ∀ (R : Fin 65536) (k : Fin 10), 2048 * n ≤ R.val → R.val < 2048 * (n + 1) →
          Net.mag (Ideal.logistic (Net.quant ((V c (Pipeline.arrRef spec12 1) : S1x1.Idx → EReal) (ix2 0 0)) ((V c (Pipeline.arrRef spec12 0) : S65536x10.Idx → EReal) (ix2 R k)))) ≤ b := by
  have hN : n < 32 := lt_of_lt_of_eq hn (show cfg12.N = 32 from N_12)
  rw [step_block12 V c n hn]
  constructor
  · intro h R k h1 h2
    have := h ⟨R.val - 2048 * n, by omega⟩ k
    rwa [in_block12 V c n hn ⟨R.val - 2048 * n, by omega⟩ k R (by show R.val = 2048 * n + (R.val - 2048 * n); omega)] at this
  · intro h r k
    have hr : r.val < 2048 := r.isLt
    rw [in_block12 V c n hn r k ⟨2048 * n + r.val, by omega⟩ rfl]
    exact h _ k (by show 2048 * n ≤ 2048 * n + r.val; omega) (by show 2048 * n + r.val < 2048 * (n + 1); omega)

/-- THE RUNNING MAXIMUM.  After point n the carried entry is below a bound exactly when zero is and the magnitude of
    every result in the rows seen so far is. -/
theorem running12 (c : Dev nD) : ∀ (n : ℕ) (hn : n < cfg12.N) (b : EReal),
    ((outsAt12 V c n hn).2 : Vec Ideal S1x1 .f32) (ix2 0 0) ≤ b
      ↔ Net.zero ≤ b ∧ ∀ (R : Fin 65536) (k : Fin 10), R.val < 2048 * (n + 1) →
          Net.mag (Ideal.logistic (Net.quant ((V c (Pipeline.arrRef spec12 1) : S1x1.Idx → EReal) (ix2 0 0)) ((V c (Pipeline.arrRef spec12 0) : S65536x10.Idx → EReal) (ix2 R k)))) ≤ b
  | 0, hn, b => by
    have e : (outsAt12 V c 0 hn).2 = k12_pay3 (iblk12 V c 1 ⟨0, hn⟩) (iblk12 V c 0 ⟨0, hn⟩) (k12_pay1 (F := Ideal)) :=
      at_first12_3 V c ⟨0, hn⟩ rfl
    rw [e]
    refine (carried12_le (iblk12 V c 1 ⟨0, hn⟩) (iblk12 V c 0 ⟨0, hn⟩) (k12_pay1 (F := Ideal)) b).trans (and_congr Iff.rfl ?_)
    rw [block_rows12 V c 0 hn b]
    exact ⟨fun h R k hR => h R k (by omega) hR, fun h R k _ hR => h R k hR⟩
  | n + 1, hn, b => by
    have hN : cfg12.N = 32 := N_12
    have hB : ¬(⟨n + 1, hn⟩ : Fin cfg12.N).val % 32 = 0 := by dsimp only; omega
    have e : (outsAt12 V c (n + 1) hn).2
        = k12_pay3 (iblk12 V c 1 ⟨n + 1, hn⟩) (iblk12 V c 0 ⟨n + 1, hn⟩) (outsAt12 V c n (Nat.lt_of_succ_lt hn)).2 :=
      at_later12_3 V c ⟨n + 1, hn⟩ hB
    rw [e]
    refine (carried12_le (iblk12 V c 1 ⟨n + 1, hn⟩) (iblk12 V c 0 ⟨n + 1, hn⟩) (outsAt12 V c n (Nat.lt_of_succ_lt hn)).2 b).trans ?_
    rw [running12 c n (Nat.lt_of_succ_lt hn) b, block_rows12 V c (n + 1) hn b]
    constructor
    · rintro ⟨⟨h0, h1⟩, h2⟩
      refine ⟨h0, fun R k hR => ?_⟩
      by_cases hlt : R.val < 2048 * (n + 1)
      · exact h1 R k hlt
      · exact h2 R k (by omega) hR
    · rintro ⟨h0, h1⟩
      exact ⟨⟨h0, fun R k hR => h1 R k (by omega)⟩, fun R k _ hR => h1 R k hR⟩

/-! ## The stored matrix -/

/-- The whole stored output: the logistic function of the quantisation of every entry. -/
abbrev activated12 (c : Dev nD) : S65536x10.Idx → EReal := fun i => Ideal.logistic (Net.quant ((V c (Pipeline.arrRef spec12 1) : S1x1.Idx → EReal) (ix2 0 0)) ((V c (Pipeline.arrRef spec12 0) : S65536x10.Idx → EReal) i))

/-- What point t writes back to the stored output is block t of that matrix. -/
theorem written12_2 (c : Dev nD) (t : Fin cfg12.N) :
    (dat12 (F := Ideal) V c).flushed 2 t = ((cfg12.win 2).blk t).view.read (Elt Ideal) (activated12 V c) := by
  show (cfg12.win 2).cut (grid12.coords t) ((dat12 V c).after 2 t) = _
  rw [after12_2, stored_at12 V c t]
  obtain ⟨-, -, -, -, e4, e5, -, -⟩ := block_index12 t
  funext j
  obtain ⟨r, k, rfl⟩ : ∃ (r : Fin 2048) (k : Fin 10), j = ix2 r k := ⟨j 0, j 1, eq_ix2 j⟩
  have hN : t.val < 32 := lt_of_lt_of_eq t.isLt (show cfg12.N = 32 from N_12)
  have hr : r.val < 2048 := r.isLt
  have hemb : ((cfg12.win 2).blk t).view.emb (ix2 r k)
      = (ix2 (⟨2048 * t.val + r.val, by omega⟩ : Fin 65536) k : S65536x10.Idx) := by
    funext a
    apply Fin.ext
    match a with
    | ⟨0, _⟩ => show win12_2.index t (0 : Fin 2) * 2048 + 1 * r.val = 2048 * t.val + r.val; rw [e4]; omega
    | ⟨1, _⟩ => show win12_2.index t (1 : Fin 2) * 10 + 1 * k.val = k.val; rw [e5]; omega
  show k12_pay2 (iblk12 V c 1 ⟨t.val, t.isLt⟩) (iblk12 V c 0 ⟨t.val, t.isLt⟩) (ix2 r k)
    = activated12 V c (((cfg12.win 2).blk t).view.emb (ix2 r k))
  rw [hemb]
  refine (stored12_apply (iblk12 V c 1 ⟨t.val, t.isLt⟩) (iblk12 V c 0 ⟨t.val, t.isLt⟩) r k).trans ?_
  rw [step_block12 V c t.val t.isLt, in_block12 V c t.val t.isLt r k ⟨2048 * t.val + r.val, by omega⟩ rfl]

/-- An entry is in point t's stored block when its row is among the block's 2048 rows. -/
theorem in_written12_2 (t : Fin cfg12.N) (i : S65536x10.Idx) :
    i ∈ ((cfg12.win 2).blk t).view.set ↔ ∀ a : Fin 2, win12_2.index t a * S2048x10.size a ≤ (i a).val ∧ (i a).val < win12_2.index t a * S2048x10.size a + S2048x10.size a := by
  show i ∈ ((View.whole main_v102_0).slice (win12_2.rect t)).set ↔ _
  rw [View.set_slice_whole, Rect.mem_set_unit]
  exact Iff.rfl

/-- Every entry is written by the point of its row's block. -/
theorem all_written12_2 (i : S65536x10.Idx) :
    ∃ t : Fin cfg12.N, (cfg12.win 2).flush t = true ∧ i ∈ ((cfg12.win 2).blk t).view.set := by
  have hi0 : (i 0).val < 65536 := (i 0).isLt
  have hi1 : (i 1).val < 10 := (i 1).isLt
  have hN : cfg12.N = 32 := N_12
  have ht : (i 0).val / 2048 < cfg12.N := by rw [hN]; omega
  obtain ⟨-, -, -, -, e4, e5, -, -⟩ := block_index12 ⟨(i 0).val / 2048, ht⟩
  refine ⟨⟨(i 0).val / 2048, ht⟩, flush12_2 _, ?_⟩
  rw [in_written12_2]
  intro a
  match a with
  | ⟨0, _⟩ =>
    show win12_2.index ⟨(i 0).val / 2048, ht⟩ (0 : Fin 2) * 2048 ≤ (i 0).val ∧ (i 0).val < win12_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win12_2.index ⟨(i 0).val / 2048, ht⟩ (1 : Fin 2) * 10 ≤ (i 1).val ∧ (i 1).val < win12_2.index ⟨(i 0).val / 2048, ht⟩ (1 : Fin 2) * 10 + 10
    rw [e5]; omega

/-- After the region the stored output is the activated quantised matrix. -/
theorem final12_2_all (c : Dev nD) : (dat12 (F := Ideal) V c).arrAt 2 cfg12.N = activated12 V c :=
  (dat12 (F := Ideal) V c).arrAt_eq_of_cover 2 (activated12 V c) (fun t _ => written12_2 V c t) (all_written12_2)

/-- The same, entry by entry. -/
theorem final12_2 (c : Dev nD) (r : Fin 65536) (k : Fin 10) :
    ((dat12 (F := Ideal) V c).arrAt 2 cfg12.N : S65536x10.Idx → EReal) (ix2 r k) = Ideal.logistic (Net.quant ((V c (Pipeline.arrRef spec12 1) : S1x1.Idx → EReal) (ix2 0 0)) ((V c (Pipeline.arrRef spec12 0) : S65536x10.Idx → EReal) (ix2 r k))) :=
  congrFun (final12_2_all V c) (ix2 r k)

/-! ## The largest magnitude -/

/-- The second output: the one entry at the running maximum of the whole stored matrix. -/
abbrev largest12 (c : Dev nD) : S1x1.Idx → EReal := fun _ =>
  Net.runMax (fun (r : Fin 65536) (k : Fin 10) => Ideal.logistic (Net.quant ((V c (Pipeline.arrRef spec12 1) : S1x1.Idx → EReal) (ix2 0 0)) ((V c (Pipeline.arrRef spec12 0) : S65536x10.Idx → EReal) (ix2 r k))))

/-- The one write-back of the carried entry, after the last point, writes it. -/
theorem written12_3 (c : Dev nD) (t : Fin cfg12.N) (hf : (cfg12.win 3).flush t = true) :
    (dat12 (F := Ideal) V c).flushed 3 t = ((cfg12.win 3).blk t).view.read (Elt Ideal) (largest12 V c) := by
  have hN : cfg12.N = 32 := N_12
  have hlast : t.val = 31 := by have := (flush12_3 t).mp hf; have := t.isLt; omega
  show (cfg12.win 3).cut (grid12.coords t) ((dat12 V c).after 3 t) = _
  rw [after12_3]
  funext j
  obtain rfl : j = ix2 0 0 := one_index j
  show ((outsAt12 V c t.val t.isLt).2 : Vec Ideal S1x1 .f32) (ix2 0 0) = Net.runMax _
  refine eq_of_forall_ge_iff fun b => ?_
  rw [running12 V c t.val t.isLt b, runMax_le]
  exact and_congr Iff.rfl ⟨fun h R k => h R k (by have := R.isLt; omega), fun h R k _ => h R k⟩

/-- The one entry is in every point's block. -/
theorem in_written12_3 (t : Fin cfg12.N) (i : S1x1.Idx) :
    i ∈ ((cfg12.win 3).blk t).view.set ↔ ∀ a : Fin 2, win12_3.index t a * S1x1.size a ≤ (i a).val ∧ (i a).val < win12_3.index t a * S1x1.size a + S1x1.size a := by
  show i ∈ ((View.whole main_v102_1).slice (win12_3.rect t)).set ↔ _
  rw [View.set_slice_whole, Rect.mem_set_unit]
  exact Iff.rfl

/-- After the region the second output holds the running maximum. -/
theorem final12_3_all (c : Dev nD) : (dat12 (F := Ideal) V c).arrAt 3 cfg12.N = largest12 V c :=
  (dat12 (F := Ideal) V c).arrAt_eq_of_cover 3 (largest12 V c) (written12_3 V c) fun i => by
    have hlast : 31 < cfg12.N := by rw [show cfg12.N = 32 from N_12]; decide
    obtain ⟨-, -, -, -, -, -, e6, e7⟩ := block_index12 ⟨31, hlast⟩
    refine ⟨⟨31, hlast⟩, (flush12_3 _).mpr rfl, ?_⟩
    rw [in_written12_3]
    have h0 : (i 0).val < 1 := (i 0).isLt
    have h1 : (i 1).val < 1 := (i 1).isLt
    intro a
    match a with
    | ⟨0, _⟩ =>
      show win12_3.index ⟨31, hlast⟩ (0 : Fin 2) * 1 ≤ (i 0).val ∧ (i 0).val < win12_3.index ⟨31, hlast⟩ (0 : Fin 2) * 1 + 1
      rw [e6]; omega
    | ⟨1, _⟩ =>
      show win12_3.index ⟨31, hlast⟩ (1 : Fin 2) * 1 ≤ (i 1).val ∧ (i 1).val < win12_3.index ⟨31, hlast⟩ (1 : Fin 2) * 1 + 1
      rw [e7]; omega

/-- The same, at the array's one index. -/
theorem final12_3 (c : Dev nD) (y : S1x1.Idx) :
    ((dat12 (F := Ideal) V c).arrAt 3 cfg12.N : S1x1.Idx → EReal) y
      = Net.runMax (fun (r : Fin 65536) (k : Fin 10) => Ideal.logistic (Net.quant ((V c (Pipeline.arrRef spec12 1) : S1x1.Idx → EReal) (ix2 0 0)) ((V c (Pipeline.arrRef spec12 0) : S65536x10.Idx → EReal) (ix2 r k)))) :=
  congrFun (final12_3_all V c) y

end Cert.KernelIdeal.RegionValue

end
-- ==== Proof.Region6.lean ====
import proofs.«131146_j57208964383148_1_alg».proof.Proof.Gen.KernelIdeal.Frame
import proofs.«131146_j57208964383148_1_alg».proof.Proof.Net
import proofs.«131146_j57208964383148_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  The value of region 6 (the product of a 65536 × 128 matrix with a 128 × 128 matrix of weights plus a row of biases,
  with the column sums and the column sums of squares of the result), read off its frame at any entry contents `V`:
  after the region the output array holds `x · w + b` entry by entry, and the two rows hold, column by column, the sum
  and the sum of squares of the output's 65536 rows.

  The body at a point: it stores the product payload of the point's blocks; the two accumulators are set to zero at
  the first point, and at every point are left at what they held plus the block's column sums (of the payload, and of
  its squares). After point `n` an accumulator holds the sum over the rows below `(n + 1) · 2048`.
-/

noncomputable section

open Idealize.ShloMosaic Idealize.ShloMosaic.TcCoe Idealize.SL.Sem Idealize.ShloMosaic.Tactic
open Idealize.ShloMosaic.Pipeline (Dat)
open Idealize.ShloMosaic.ValueIdx
open scoped BigOperators

namespace Cert.KernelIdeal.RegionValue

open Cert.KernelIdeal Cert.KernelIdeal.Gen

section Pieces
variable {F : FTy → Type} [FloatOps F]

theorem hz6 : (![0, 0] : Fin 2 → Nat) = fun _ => 0 := funext fun a => by fin_cases a <;> rfl

/-- At the first point the body leaves the product payload of its input blocks in the output block. -/
theorem out6_A_3_eq (c : Dev nD) (i : grid6.Coords) (a1 : Memref sig .tc .vmem S2048x128 .f32) (h1 : a1.IsWhole)
    (a2 : Memref sig .tc .vmem S128x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : cond6_0 i) (x0 : Vec F S2048x128 .f32) (x1 : Vec F S128x128 .f32) (x2 : Vec F S1x128 .f32) :
    out6_A_3 c i a1 h1 a2 h2 a3 h3 a4 h4 a5 h5 a6 h6 hc x0 x1 x2 = k6_pay3 x0 x1 x2 := by
  unfold out6_A_3
  rw [View.read_writes_eq_canon _ _ _ (cover6_A_3 c i a1 h1 a2 h2 a3 h3 a4 h4 a5 h5 a6 h6 hc x0 x1 x2)]
  unfold kernelRun6_A
  dsimp only
  rw [View.canon_unit_zero hz6]
  simp only [View.readAt_eq_ld, h1.read_unread, h2.read_unread, h3.read_unread,
    View.ld_unit_zero (S := S2048x128) hz6, View.ld_unit_zero (S := S128x128) hz6, View.ld_unit_zero (S := S1x128) hz6]

/-- At every later point likewise. -/
theorem out6_B_3_eq (c : Dev nD) (i : grid6.Coords) (a1 : Memref sig .tc .vmem S2048x128 .f32) (h1 : a1.IsWhole)
    (a2 : Memref sig .tc .vmem S128x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : ¬cond6_0 i) (x0 : Vec F S2048x128 .f32) (x1 : Vec F S128x128 .f32) (x2 : Vec F S1x128 .f32) (xo4 xo5 : Vec F S1x128 .f32) :
    out6_B_3 c i a1 h1 a2 h2 a3 h3 a4 h4 a5 h5 a6 h6 hc x0 x1 x2 xo4 xo5 = k6_pay3 x0 x1 x2 := by
  unfold out6_B_3
  rw [View.read_writes_eq_canon _ _ _ (cover6_B_3 c i a1 h1 a2 h2 a3 h3 a4 h4 a5 h5 a6 h6 hc x0 x1 x2 xo4 xo5)]
  unfold kernelRun6_B
  dsimp only
  rw [View.canon_unit_zero hz6]
  simp only [View.readAt_eq_ld, h1.read_unread, h2.read_unread, h3.read_unread,
    View.ld_unit_zero (S := S2048x128) hz6, View.ld_unit_zero (S := S128x128) hz6, View.ld_unit_zero (S := S1x128) hz6]

/-- At a later point the column-sum accumulator is left at its payload over what the point before left. -/
theorem out6_B_4_eq (c : Dev nD) (i : grid6.Coords) (a1 : Memref sig .tc .vmem S2048x128 .f32) (h1 : a1.IsWhole)
    (a2 : Memref sig .tc .vmem S128x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : ¬cond6_0 i) (x0 : Vec F S2048x128 .f32) (x1 : Vec F S128x128 .f32) (x2 : Vec F S1x128 .f32) (xo4 xo5 : Vec F S1x128 .f32) :
    out6_B_4 c i a1 h1 a2 h2 a3 h3 a4 h4 a5 h5 a6 h6 hc x0 x1 x2 xo4 xo5 = k6_pay4 x0 x1 x2 xo4 := by
  unfold out6_B_4
  rw [View.read_writes_eq_canon _ _ _ (cover6_B_4 c i a1 h1 a2 h2 a3 h3 a4 h4 a5 h5 a6 h6 hc x0 x1 x2 xo4 xo5)]
  unfold kernelRun6_B
  dsimp only
  rw [View.canon_unit_zero hz6]
  simp only [View.readAt_eq_ld, h1.read_unread, h2.read_unread, h3.read_unread, h5.read_unread, h6.read_unread,
    View.ld_unit_zero (S := S2048x128) hz6, View.ld_unit_zero (S := S128x128) hz6, View.ld_unit_zero (S := S1x128) hz6]

/-- At a later point the accumulator of the squares is left at its payload over what the point before left. -/
theorem out6_B_5_eq (c : Dev nD) (i : grid6.Coords) (a1 : Memref sig .tc .vmem S2048x128 .f32) (h1 : a1.IsWhole)
    (a2 : Memref sig .tc .vmem S128x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : ¬cond6_0 i) (x0 : Vec F S2048x128 .f32) (x1 : Vec F S128x128 .f32) (x2 : Vec F S1x128 .f32) (xo4 xo5 : Vec F S1x128 .f32) :
    out6_B_5 c i a1 h1 a2 h2 a3 h3 a4 h4 a5 h5 a6 h6 hc x0 x1 x2 xo4 xo5 = k6_pay5 x0 x1 x2 xo5 := by
  unfold out6_B_5
  rw [View.read_writes_eq_canon _ _ _ (cover6_B_5 c i a1 h1 a2 h2 a3 h3 a4 h4 a5 h5 a6 h6 hc x0 x1 x2 xo4 xo5)]
  unfold kernelRun6_B
  dsimp only
  rw [View.canon_unit_zero hz6]
  simp only [View.readAt_eq_ld, h1.read_unread, h2.read_unread, h3.read_unread, h5.read_unread, h6.read_unread,
    View.ld_unit_zero (S := S2048x128) hz6, View.ld_unit_zero (S := S128x128) hz6, View.ld_unit_zero (S := S1x128) hz6]

/-- At the first point the column-sum accumulator is zeroed, read back, and left at its payload over the zero row. -/
theorem out6_A_4_eq (c : Dev nD) (i : grid6.Coords) (a1 : Memref sig .tc .vmem S2048x128 .f32) (h1 : a1.IsWhole)
    (a2 : Memref sig .tc .vmem S128x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : cond6_0 i) (x0 : Vec F S2048x128 .f32) (x1 : Vec F S128x128 .f32) (x2 : Vec F S1x128 .f32) :
    out6_A_4 c i a1 h1 a2 h2 a3 h3 a4 h4 a5 h5 a6 h6 hc x0 x1 x2 = k6_pay4 x0 x1 x2 (k6_pay1 (F := F)) := by
  unfold out6_A_4
  rw [View.read_writes_eq_canon _ _ _ (cover6_A_4 c i a1 h1 a2 h2 a3 h3 a4 h4 a5 h5 a6 h6 hc x0 x1 x2)]
  unfold kernelRun6_A
  dsimp only
  sl_unfold_words
  rw [View.canon_cons_unit_zero (S := S1x128) hz6, View.readCov_unit_zero (S := S1x128) _ hz6]
  simp only [View.readAt_eq_ld, h1.read_unread, h2.read_unread, h3.read_unread,
    View.ld_unit_zero (S := S2048x128) hz6, View.ld_unit_zero (S := S128x128) hz6, View.ld_unit_zero (S := S1x128) hz6]

/-- At the first point the accumulator of the squares likewise. -/
theorem out6_A_5_eq (c : Dev nD) (i : grid6.Coords) (a1 : Memref sig .tc .vmem S2048x128 .f32) (h1 : a1.IsWhole)
    (a2 : Memref sig .tc .vmem S128x128 .f32) (h2 : a2.IsWhole) (a3 : Memref sig .tc .vmem S1x128 .f32) (h3 : a3.IsWhole)
    (a4 : Memref sig .tc .vmem S2048x128 .f32) (h4 : a4.IsWhole) (a5 : Memref sig .tc .vmem S1x128 .f32) (h5 : a5.IsWhole)
    (a6 : Memref sig .tc .vmem S1x128 .f32) (h6 : a6.IsWhole)
    (hc : cond6_0 i) (x0 : Vec F S2048x128 .f32) (x1 : Vec F S128x128 .f32) (x2 : Vec F S1x128 .f32) :
    out6_A_5 c i a1 h1 a2 h2 a3 h3 a4 h4 a5 h5 a6 h6 hc x0 x1 x2 = k6_pay5 x0 x1 x2 (k6_pay2 (F := F)) := by
  unfold out6_A_5
  rw [View.read_writes_eq_canon _ _ _ (cover6_A_5 c i a1 h1 a2 h2 a3 h3 a4 h4 a5 h5 a6 h6 hc x0 x1 x2)]
  unfold kernelRun6_A
  dsimp only
  sl_unfold_words
  rw [View.canon_cons_unit_zero (S := S1x128) hz6, View.readCov_unit_zero (S := S1x128) _ hz6]
  simp only [View.readAt_eq_ld, h1.read_unread, h2.read_unread, h3.read_unread,
    View.ld_unit_zero (S := S2048x128) hz6, View.ld_unit_zero (S := S128x128) hz6, View.ld_unit_zero (S := S1x128) hz6]

end Pieces

/-! ## The payloads at an index, on the extended reals -/

/-- A column's sum over the 2048 rows of a block, read at the column. -/
theorem colsum6_apply (v : FVec Ideal S2048x128 .f32) (q : Fin 128) :
    multiReduction (F := Ideal) .add [0] S128 v 0x00000000#32 reduces_S2048x128_S128 (.inl rfl) rfl (ix1 q)
      = ∑ p : Fin 2048, v (ix2 p q) := by
  have e := Ideal.multiReduction_add_single v 0x00000000#32 reduces_S2048x128_S128 (.inl rfl) rfl (ix1 q)
  have hl : ∀ p : Fin 2048, reduces_S2048x128_S128.lift (ix1 q) p = ix2 p q := fun p => funext fun a => by
    match a with
    | ⟨0, _⟩ => rfl
    | ⟨1, _⟩ => rfl
  rw [e]
  exact Finset.sum_congr rfl fun p _ => congrArg v (hl p)

/-- The product payload at an index: the row of the input block against the column of the weights, plus the bias. -/
theorem pay6_3_apply (v3 : Vec Ideal S2048x128 .f32) (v6 : Vec Ideal S128x128 .f32) (v10 : Vec Ideal S1x128 .f32)
    (p : Fin 2048) (q : Fin 128) :
    k6_pay3 v3 v6 v10 (ix2 p q) = (∑ k : Fin 128, v3 (ix2 p k) * v6 (ix2 k q)) + v10 (ix2 (0 : Fin 1) q) := by
  unfold k6_pay3
  rw [shapeCast_self, shapeCast_self, shapeCast_self]
  refine (addf_apply _ _ _).trans ?_
  rw [broadcastTo_1b_ab_apply]
  refine congrArg (· + _) ?_
  refine (Ideal.matmul_constant_zero_apply dot_S2048x128_S128x128_S2048x128_1_0_0_1_n_n none _ _ (ix2 p q)).trans ?_
  rw [← Equiv.sum_comp (contrEquiv1 dot_S2048x128_S128x128_S2048x128_1_0_0_1_n_n 128 rfl rfl).symm]
  refine Finset.sum_congr rfl fun k _ => ?_
  have hL : dot_S2048x128_S128x128_S2048x128_1_0_0_1_n_n.lhsIdx (ix2 p q)
      ((contrEquiv1 dot_S2048x128_S128x128_S2048x128_1_0_0_1_n_n 128 rfl rfl).symm k) = ix2 p k := funext fun a => Fin.ext (by
    match a with
    | ⟨0, _⟩ => rfl
    | ⟨1, _⟩ => exact (DotDims.lhsIdx_val_of_single _ (cl := (1 : Fin 2)) rfl _ _).trans (contrEquiv1_symm_val dot_S2048x128_S128x128_S2048x128_1_0_0_1_n_n 128 rfl rfl k))
  have hR : dot_S2048x128_S128x128_S2048x128_1_0_0_1_n_n.rhsIdx (ix2 p q)
      ((contrEquiv1 dot_S2048x128_S128x128_S2048x128_1_0_0_1_n_n 128 rfl rfl).symm k) = ix2 k q := funext fun a => Fin.ext (by
    match a with
    | ⟨0, _⟩ => exact (DotDims.rhsIdx_val_of_single _ (cr := (0 : Fin 2)) rfl _ _).trans (contrEquiv1_symm_val dot_S2048x128_S128x128_S2048x128_1_0_0_1_n_n 128 rfl rfl k)
    | ⟨1, _⟩ => rfl)
  show v3 _ * v6 _ = _
  rw [hL, hR]

/-- The column-sum payload at a column: the carried sum plus the sum of the block's column. -/
theorem pay6_4_apply (v3 : Vec Ideal S2048x128 .f32) (v6 : Vec Ideal S128x128 .f32) (v10 v15 : Vec Ideal S1x128 .f32) (q : Fin 128) :
    k6_pay4 v3 v6 v10 v15 (ix2 (0 : Fin 1) q) = v15 (ix2 (0 : Fin 1) q) + ∑ p : Fin 2048, k6_pay3 v3 v6 v10 (ix2 p q) := by
  unfold k6_pay4
  rw [shapeCast_self]
  refine (addf_apply _ _ _).trans ?_
  rw [shapeCast_a_1a_apply, colsum6_apply]

/-- The payload of the column sums of squares at a column: the carried sum plus the sum of the squares of the block's column. -/
theorem pay6_5_apply (v3 : Vec Ideal S2048x128 .f32) (v6 : Vec Ideal S128x128 .f32) (v10 v21 : Vec Ideal S1x128 .f32) (q : Fin 128) :
    k6_pay5 v3 v6 v10 v21 (ix2 (0 : Fin 1) q)
      = v21 (ix2 (0 : Fin 1) q) + ∑ p : Fin 2048, k6_pay3 v3 v6 v10 (ix2 p q) * k6_pay3 v3 v6 v10 (ix2 p q) := by
  unfold k6_pay5
  rw [shapeCast_self]
  refine (addf_apply _ _ _).trans ?_
  rw [shapeCast_a_1a_apply, colsum6_apply]
  rfl

/-! ## The blocks read through their windows -/

/-- The printed index maps over the grid: the input and output blocks move with the point along the rows, the weights,
    the bias row and the two accumulator rows stay. -/
theorem idx6_w0 : ∀ t : Fin cfg6.N, win6_0.index t (0 : Fin 2) = t.val ∧ win6_0.index t (1 : Fin 2) = 0 :=
  (by decide +kernel : ∀ t : Fin grid6.N, _)
theorem idx6_w1 : ∀ t : Fin cfg6.N, win6_1.index t (0 : Fin 2) = 0 ∧ win6_1.index t (1 : Fin 2) = 0 :=
  (by decide +kernel : ∀ t : Fin grid6.N, _)
theorem idx6_w2 : ∀ t : Fin cfg6.N, win6_2.index t (0 : Fin 2) = 0 ∧ win6_2.index t (1 : Fin 2) = 0 :=
  (by decide +kernel : ∀ t : Fin grid6.N, _)
theorem idx6_w3 : ∀ t : Fin cfg6.N, win6_3.index t (0 : Fin 2) = t.val ∧ win6_3.index t (1 : Fin 2) = 0 :=
  (by decide +kernel : ∀ t : Fin grid6.N, _)
theorem idx6_w4 : ∀ t : Fin cfg6.N, win6_4.index t (0 : Fin 2) = 0 ∧ win6_4.index t (1 : Fin 2) = 0 :=
  (by decide +kernel : ∀ t : Fin grid6.N, _)
theorem idx6_w5 : ∀ t : Fin cfg6.N, win6_5.index t (0 : Fin 2) = 0 ∧ win6_5.index t (1 : Fin 2) = 0 :=
  (by decide +kernel : ∀ t : Fin grid6.N, _)

/-- Row `p` of the block of point `t`. -/
def row6 (t : Fin cfg6.N) (p : Fin 2048) : Fin 65536 := rowOf t.val (lt_of_lt_of_eq t.isLt N_6) p

section AtV
variable (V : (c : Dev nD) → (b : Ref sig .tc) → Buf (Elt Ideal) ((c : Thread nD τ).loc b))

/-- The input matrix, the weights (input-major) and the biases as the region finds them. -/
abbrev X6 (c : Dev nD) : Fin 65536 → Fin 128 → EReal := fun r k => V c (Pipeline.arrRef spec6 0) (ix2 r k)
abbrev W6 (c : Dev nD) : Fin 128 → Fin 128 → EReal := fun k j => V c (Pipeline.arrRef spec6 1) (ix2 k j)
abbrev bias6 (c : Dev nD) : Fin 128 → EReal := fun j => V c (Pipeline.arrRef spec6 2) (ix2 (0 : Fin 1) j)

/-- The input block at point `t` holds the rows `2048 t …` of the input matrix. -/
theorem iblk6_0_apply (c : Dev nD) (t : Fin cfg6.N) (p : Fin 2048) (k : Fin 128) :
    iblk6 V c 0 t (ix2 p k) = X6 V c (row6 t p) k := by
  obtain ⟨e0, e1⟩ := idx6_w0 t
  show V c (Pipeline.arrRef spec6 0) (((cfg6.win 0).blk t).view.emb (ix2 p k)) = V c (Pipeline.arrRef spec6 0) (ix2 (row6 t p) k)
  refine congrArg (V c (Pipeline.arrRef spec6 0)) (funext fun a => Fin.ext ?_)
  match a with
  | ⟨0, _⟩ => show win6_0.index t (0 : Fin 2) * 2048 + 1 * p.val = t.val * 2048 + p.val; rw [e0]; omega
  | ⟨1, _⟩ => show win6_0.index t (1 : Fin 2) * 128 + 1 * k.val = k.val; rw [e1]; omega

/-- The weight block at every point is the whole weight matrix. -/
theorem iblk6_1_apply (c : Dev nD) (t : Fin cfg6.N) (k : Fin 128) (j : Fin 128) :
    iblk6 V c 1 t (ix2 k j) = W6 V c k j := by
  obtain ⟨e0, e1⟩ := idx6_w1 t
  show V c (Pipeline.arrRef spec6 1) (((cfg6.win 1).blk t).view.emb (ix2 k j)) = V c (Pipeline.arrRef spec6 1) (ix2 k j)
  refine congrArg (V c (Pipeline.arrRef spec6 1)) (funext fun a => Fin.ext ?_)
  match a with
  | ⟨0, _⟩ => show win6_1.index t (0 : Fin 2) * 128 + 1 * k.val = k.val; rw [e0]; omega
  | ⟨1, _⟩ => show win6_1.index t (1 : Fin 2) * 128 + 1 * j.val = j.val; rw [e1]; omega

/-- The bias block at every point is the row of biases. -/
theorem iblk6_2_apply (c : Dev nD) (t : Fin cfg6.N) (j : Fin 128) :
    iblk6 V c 2 t (ix2 (0 : Fin 1) j) = bias6 V c j := by
  obtain ⟨e0, e1⟩ := idx6_w2 t
  show V c (Pipeline.arrRef spec6 2) (((cfg6.win 2).blk t).view.emb (ix2 (0 : Fin 1) j)) = V c (Pipeline.arrRef spec6 2) (ix2 (0 : Fin 1) j)
  refine congrArg (V c (Pipeline.arrRef spec6 2)) (funext fun a => Fin.ext ?_)
  match a with
  | ⟨0, _⟩ => show win6_2.index t (0 : Fin 2) * 1 + 1 * 0 = 0; rw [e0]
  | ⟨1, _⟩ => show win6_2.index t (1 : Fin 2) * 128 + 1 * j.val = j.val; rw [e1]; omega

/-- The product payload of blocks that hold the rows of block `t`, the weights and the biases is the product map on those rows. -/
theorem blk6_dense (c : Dev nD) (t : Fin cfg6.N) (x0 : Vec Ideal S2048x128 .f32) (x1 : Vec Ideal S128x128 .f32) (x2 : Vec Ideal S1x128 .f32)
    (h0 : ∀ (p : Fin 2048) (k : Fin 128), x0 (ix2 p k) = X6 V c (row6 t p) k)
    (h1 : ∀ (k : Fin 128) (j : Fin 128), x1 (ix2 k j) = W6 V c k j) (h2 : ∀ j : Fin 128, x2 (ix2 (0 : Fin 1) j) = bias6 V c j)
    (p : Fin 2048) (j : Fin 128) :
    k6_pay3 x0 x1 x2 (ix2 p j) = Net.dense (X6 V c) (W6 V c) (bias6 V c) (row6 t p) j := by
  rw [pay6_3_apply, h2]
  unfold Net.dense
  refine congrArg (· + _) (Finset.sum_congr rfl fun k _ => ?_)
  rw [h0, h1]

/-- The same for the square of the payload. -/
theorem blk6_dense_sq (c : Dev nD) (t : Fin cfg6.N) (x0 : Vec Ideal S2048x128 .f32) (x1 : Vec Ideal S128x128 .f32) (x2 : Vec Ideal S1x128 .f32)
    (h0 : ∀ (p : Fin 2048) (k : Fin 128), x0 (ix2 p k) = X6 V c (row6 t p) k)
    (h1 : ∀ (k : Fin 128) (j : Fin 128), x1 (ix2 k j) = W6 V c k j) (h2 : ∀ j : Fin 128, x2 (ix2 (0 : Fin 1) j) = bias6 V c j)
    (p : Fin 2048) (j : Fin 128) :
    k6_pay3 x0 x1 x2 (ix2 p j) * k6_pay3 x0 x1 x2 (ix2 p j) = Net.dense (X6 V c) (W6 V c) (bias6 V c) (row6 t p) j * Net.dense (X6 V c) (W6 V c) (bias6 V c) (row6 t p) j := by
  rw [blk6_dense V c t x0 x1 x2 h0 h1 h2 p j]

/-! ## The product output -/

/-- The product map of the whole input matrix, index by index. -/
def denseG6 (c : Dev nD) : S65536x128.Idx → EReal := fun i =>
  Net.dense (X6 V c) (W6 V c) (bias6 V c) ⟨(i 0).val, idx2_lt0 i⟩ ⟨(i 1).val, idx2_lt1 i⟩

/-- At every point the output's buffer is left at the product payload of the point's blocks. -/
theorem outs6_fst (c : Dev nD) (t : Fin cfg6.N) :
    (outsAt6 V c t.val t.isLt).1 = k6_pay3 (iblk6 V c 0 t) (iblk6 V c 1 t) (iblk6 V c 2 t) := by
  by_cases h0 : t.val % 32 = 0
  · rw [outsAt6_A V c t h0]
    dsimp only
    exact out6_A_3_eq (F := Ideal) c (grid6.coords t) (ms6_0 t) (hs6_0 t) (ms6_1 t) (hs6_1 t) (ms6_2 t) (hs6_2 t) (ms6_3 t) (hs6_3 t)
      (ms6_4 t) (hs6_4 t) (ms6_5 t) (hs6_5 t) ((hcond6_0 t).mpr h0) (iblk6 V c 0 t) (iblk6 V c 1 t) (iblk6 V c 2 t)
  · rw [outsAt6_B V c t h0]
    dsimp only
    exact out6_B_3_eq (F := Ideal) c (grid6.coords t) (ms6_0 t) (hs6_0 t) (ms6_1 t) (hs6_1 t) (ms6_2 t) (hs6_2 t) (ms6_3 t) (hs6_3 t)
      (ms6_4 t) (hs6_4 t) (ms6_5 t) (hs6_5 t) (fun h => h0 ((hcond6_0 t).mp h)) (iblk6 V c 0 t) (iblk6 V c 1 t) (iblk6 V c 2 t)
      (outsAt6 V c (t.val - 1) (Nat.lt_of_le_of_lt (Nat.sub_le _ _) t.isLt)).2.1
      (outsAt6 V c (t.val - 1) (Nat.lt_of_le_of_lt (Nat.sub_le _ _) t.isLt)).2.2

/-- What point `t` writes back is block `t` of the product map of the input matrix. -/
theorem flushed6_3_eq (c : Dev nD) (t : Fin cfg6.N) :
    (dat6 V c).flushed 3 t = ((cfg6.win 3).blk t).view.read (Elt Ideal) (denseG6 V c) := by
  show (cfg6.win 3).cut (grid6.coords t) ((dat6 V c).after 3 t) = _
  rw [after6_3, outs6_fst]
  obtain ⟨e0, e1⟩ := idx6_w3 t
  funext y
  obtain ⟨p, q, rfl⟩ : ∃ (p : Fin 2048) (q : Fin 128), y = ix2 p q := ⟨y 0, y 1, eq_ix2 y⟩
  show k6_pay3 (iblk6 V c 0 t) (iblk6 V c 1 t) (iblk6 V c 2 t) (ix2 p q) = denseG6 V c (((cfg6.win 3).blk t).view.emb (ix2 p q))
  refine (blk6_dense V c t _ _ _ (iblk6_0_apply V c t) (iblk6_1_apply V c t) (iblk6_2_apply V c t) p q).trans ?_
  have hr : (⟨((((cfg6.win 3).blk t).view.emb (ix2 p q)) 0).val, idx2_lt0 _⟩ : Fin 65536) = row6 t p := Fin.ext (by
    show win6_3.index t (0 : Fin 2) * 2048 + 1 * p.val = t.val * 2048 + p.val; rw [e0]; omega)
  have hq : (⟨((((cfg6.win 3).blk t).view.emb (ix2 p q)) 1).val, idx2_lt1 _⟩ : Fin 128) = q := Fin.ext (by
    show win6_3.index t (1 : Fin 2) * 128 + 1 * q.val = q.val; rw [e1]; omega)
  unfold denseG6
  rw [hr, hq]

/-- An index of the output array is in point `t`'s block iff each coordinate is in the block's range on its axis. -/
theorem mem_blk6_3 (t : Fin cfg6.N) (i : S65536x128.Idx) :
    i ∈ ((cfg6.win 3).blk t).view.set ↔ ∀ a : Fin 2, win6_3.index t a * S2048x128.size a ≤ (i a).val ∧ (i a).val < win6_3.index t a * S2048x128.size a + S2048x128.size a := by
  show i ∈ ((View.whole main_v46_0).slice (win6_3.rect t)).set ↔ _
  rw [View.set_slice_whole, Rect.mem_set_unit]
  exact Iff.rfl

/-- Row `r` is in the block of point `r / 2048`. -/
theorem cover6_3 (i : S65536x128.Idx) : ∃ t : Fin cfg6.N, (cfg6.win 3).flush t = true ∧ i ∈ ((cfg6.win 3).blk t).view.set := by
  have h0 : (i 0).val < 65536 := idx2_lt0 i
  have h1 : (i 1).val < 128 := idx2_lt1 i
  obtain ⟨t, ht⟩ : ∃ t : Fin cfg6.N, t.val = (i 0).val / 2048 := ⟨⟨(i 0).val / 2048, by rw [show cfg6.N = 32 from N_6]; omega⟩, rfl⟩
  obtain ⟨e0, e1⟩ := idx6_w3 t
  refine ⟨t, flush6_3 t, ?_⟩
  rw [mem_blk6_3]
  intro a
  match a with
  | ⟨0, _⟩ => show win6_3.index t (0 : Fin 2) * 2048 ≤ (i 0).val ∧ (i 0).val < win6_3.index t (0 : Fin 2) * 2048 + 2048; rw [e0, ht]; omega
  | ⟨1, _⟩ => show win6_3.index t (1 : Fin 2) * 128 ≤ (i 1).val ∧ (i 1).val < win6_3.index t (1 : Fin 2) * 128 + 128; rw [e1]; omega

/-- THE PRODUCT OUTPUT after the region: `x · w + b`, entry by entry. -/
theorem final6_3 (c : Dev nD) (r : Fin 65536) (j : Fin 128) :
    (dat6 (F := Ideal) V c).arrAt 3 cfg6.N (ix2 r j) = Net.dense (X6 V c) (W6 V c) (bias6 V c) r j := by
  rw [(dat6 V c).arrAt_eq_of_cover 3 (denseG6 V c) (fun t _ => flushed6_3_eq V c t) cover6_3]
  rfl

/-! ## The two accumulated rows -/

/-- After point `n` the column-sum accumulator holds, at column `j`, the sum of the product map over the rows below `(n + 1) · 2048`. -/
theorem acc6_4_eq (c : Dev nD) : ∀ (n : ℕ) (hn : n < cfg6.N) (j : Fin 128),
    (outsAt6 V c n hn).2.1 (ix2 (0 : Fin 1) j)
      = ∑ i ∈ Finset.range ((n + 1) * 2048), ext0 (fun r => Net.dense (X6 V c) (W6 V c) (bias6 V c) r j) i
  | 0, hn, j => by
    rw [outsAt6_A V c ⟨0, hn⟩ rfl]
    dsimp only
    rw [out6_A_4_eq (F := Ideal) c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩)
      (ms6_4 ⟨0, hn⟩) (hs6_4 ⟨0, hn⟩) (ms6_5 ⟨0, hn⟩) (hs6_5 ⟨0, hn⟩) _ (iblk6 V c 0 ⟨0, hn⟩) (iblk6 V c 1 ⟨0, hn⟩) (iblk6 V c 2 ⟨0, hn⟩)]
    refine (pay6_4_apply _ _ _ _ j).trans ?_
    rw [sum_rows_succ _ 0 (by norm_num), Nat.zero_mul, Finset.sum_range_zero]
    refine congrArg₂ (· + ·) ?_ (Finset.sum_congr rfl fun p _ => ?_)
    · show Ideal.ofBits .f32 0x00000000#32 = 0
      exact Ideal.ofBits_zero_f32
    · exact blk6_dense V c ⟨0, hn⟩ _ _ _ (iblk6_0_apply V c ⟨0, hn⟩) (iblk6_1_apply V c ⟨0, hn⟩) (iblk6_2_apply V c ⟨0, hn⟩) p j
  | n + 1, hn, j => by
    have hN : n + 1 < 32 := lt_of_lt_of_eq hn N_6
    have hB : ¬(⟨n + 1, hn⟩ : Fin cfg6.N).val % 32 = 0 := by dsimp only; omega
    rw [outsAt6_B V c ⟨n + 1, hn⟩ hB]
    dsimp only
    rw [out6_B_4_eq (F := Ideal) c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩)
      (ms6_4 ⟨n + 1, hn⟩) (hs6_4 ⟨n + 1, hn⟩) (ms6_5 ⟨n + 1, hn⟩) (hs6_5 ⟨n + 1, hn⟩) _ (iblk6 V c 0 ⟨n + 1, hn⟩) (iblk6 V c 1 ⟨n + 1, hn⟩) (iblk6 V c 2 ⟨n + 1, hn⟩) _ _]
    refine (pay6_4_apply _ _ _ _ j).trans ?_
    rw [sum_rows_succ _ (n + 1) hN]
    refine congrArg₂ (· + ·) (acc6_4_eq c n (Nat.lt_of_succ_lt hn) j) (Finset.sum_congr rfl fun p _ => ?_)
    exact blk6_dense V c ⟨n + 1, hn⟩ _ _ _ (iblk6_0_apply V c ⟨n + 1, hn⟩) (iblk6_1_apply V c ⟨n + 1, hn⟩) (iblk6_2_apply V c ⟨n + 1, hn⟩) p j

/-- After point `n` the accumulator of the squares holds, at column `j`, the sum of the squares of the product map over the rows below `(n + 1) · 2048`. -/
theorem acc6_5_eq (c : Dev nD) : ∀ (n : ℕ) (hn : n < cfg6.N) (j : Fin 128),
    (outsAt6 V c n hn).2.2 (ix2 (0 : Fin 1) j)
      = ∑ i ∈ Finset.range ((n + 1) * 2048), ext0 (fun r => Net.dense (X6 V c) (W6 V c) (bias6 V c) r j * Net.dense (X6 V c) (W6 V c) (bias6 V c) r j) i
  | 0, hn, j => by
    rw [outsAt6_A V c ⟨0, hn⟩ rfl]
    dsimp only
    rw [out6_A_5_eq (F := Ideal) c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩)
      (ms6_4 ⟨0, hn⟩) (hs6_4 ⟨0, hn⟩) (ms6_5 ⟨0, hn⟩) (hs6_5 ⟨0, hn⟩) _ (iblk6 V c 0 ⟨0, hn⟩) (iblk6 V c 1 ⟨0, hn⟩) (iblk6 V c 2 ⟨0, hn⟩)]
    refine (pay6_5_apply _ _ _ _ j).trans ?_
    rw [sum_rows_succ _ 0 (by norm_num), Nat.zero_mul, Finset.sum_range_zero]
    refine congrArg₂ (· + ·) ?_ (Finset.sum_congr rfl fun p _ => ?_)
    · show Ideal.ofBits .f32 0x00000000#32 = 0
      exact Ideal.ofBits_zero_f32
    · exact blk6_dense_sq V c ⟨0, hn⟩ _ _ _ (iblk6_0_apply V c ⟨0, hn⟩) (iblk6_1_apply V c ⟨0, hn⟩) (iblk6_2_apply V c ⟨0, hn⟩) p j
  | n + 1, hn, j => by
    have hN : n + 1 < 32 := lt_of_lt_of_eq hn N_6
    have hB : ¬(⟨n + 1, hn⟩ : Fin cfg6.N).val % 32 = 0 := by dsimp only; omega
    rw [outsAt6_B V c ⟨n + 1, hn⟩ hB]
    dsimp only
    rw [out6_B_5_eq (F := Ideal) c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩)
      (ms6_4 ⟨n + 1, hn⟩) (hs6_4 ⟨n + 1, hn⟩) (ms6_5 ⟨n + 1, hn⟩) (hs6_5 ⟨n + 1, hn⟩) _ (iblk6 V c 0 ⟨n + 1, hn⟩) (iblk6 V c 1 ⟨n + 1, hn⟩) (iblk6 V c 2 ⟨n + 1, hn⟩) _ _]
    refine (pay6_5_apply _ _ _ _ j).trans ?_
    rw [sum_rows_succ _ (n + 1) hN]
    refine congrArg₂ (· + ·) (acc6_5_eq c n (Nat.lt_of_succ_lt hn) j) (Finset.sum_congr rfl fun p _ => ?_)
    exact blk6_dense_sq V c ⟨n + 1, hn⟩ _ _ _ (iblk6_0_apply V c ⟨n + 1, hn⟩) (iblk6_1_apply V c ⟨n + 1, hn⟩) (iblk6_2_apply V c ⟨n + 1, hn⟩) p j

/-- The column sums of the product map, as a row. -/
def colG6 (c : Dev nD) : S1x128.Idx → EReal := fun i => Net.colSum (Net.dense (X6 V c) (W6 V c) (bias6 V c)) ⟨(i 1).val, idx2_lt1 i⟩

/-- The accumulator row's window is not cut: what is written back is the buffer. -/
theorem cut6_4 (t : Fin cfg6.N) (X : Vec Ideal S1x128 .f32) : (cfg6.win 4).cut (grid6.coords t) X = X := rfl

/-- A row read through the accumulator's block, for ANY row `G`. -/
theorem read6_4 (t : Fin cfg6.N) (G : S1x128.Idx → EReal) (y : S1x128.Idx) :
    ((cfg6.win 4).blk t).view.read (Elt Ideal) G y = G (((cfg6.win 4).blk t).view.emb y) := rfl

/-- The one write-back of this accumulator, at the last point, writes the sums over all the rows. -/
theorem flushed6_4_eq (c : Dev nD) (t : Fin cfg6.N) (hf : (cfg6.win 4).flush t = true) :
    (dat6 V c).flushed 4 t = ((cfg6.win 4).blk t).view.read (Elt Ideal) (colG6 V c) := by
  have hN : t.val < 32 := lt_of_lt_of_eq t.isLt N_6
  have h31 : t.val = 31 := by have := (flush6_4 t).mp hf; omega
  obtain ⟨e0, e1⟩ := idx6_w4 t
  show (cfg6.win 4).cut (grid6.coords t) ((dat6 V c).after 4 t) = _
  rw [after6_4, cut6_4]
  funext y
  rw [read6_4]
  obtain ⟨u, q, rfl⟩ : ∃ (u : Fin 1) (q : Fin 128), y = ix2 u q := ⟨y 0, y 1, eq_ix2 y⟩
  obtain rfl : u = 0 := Subsingleton.elim _ _
  rw [acc6_4_eq V c t.val t.isLt q]
  have hq : (⟨((((cfg6.win 4).blk t).view.emb (ix2 (0 : Fin 1) q)) 1).val, idx2_lt1 _⟩ : Fin 128) = q := Fin.ext (by
    show win6_4.index t (1 : Fin 2) * 128 + 1 * q.val = q.val; rw [e1]; omega)
  unfold colG6 Net.colSum
  rw [hq, h31]
  exact sum_rows_all _

/-- The last point's block is the whole row. -/
theorem cover6_4 (i : S1x128.Idx) : ∃ t : Fin cfg6.N, (cfg6.win 4).flush t = true ∧ i ∈ ((cfg6.win 4).blk t).view.set := by
  have h0 : (i 0).val < 1 := idx2_lt0 i
  have h1 : (i 1).val < 128 := idx2_lt1 i
  obtain ⟨t, ht⟩ : ∃ t : Fin cfg6.N, t.val = 31 := ⟨⟨31, by rw [show cfg6.N = 32 from N_6]; norm_num⟩, rfl⟩
  obtain ⟨e0, e1⟩ := idx6_w4 t
  refine ⟨t, (flush6_4 t).mpr (by rw [ht]), ?_⟩
  show i ∈ ((View.whole main_v46_1).slice (win6_4.rect t)).set
  rw [View.set_slice_whole, Rect.mem_set_unit]
  intro a
  match a with
  | ⟨0, _⟩ => show win6_4.index t (0 : Fin 2) * 1 ≤ (i 0).val ∧ (i 0).val < win6_4.index t (0 : Fin 2) * 1 + 1; rw [e0]; omega
  | ⟨1, _⟩ => show win6_4.index t (1 : Fin 2) * 128 ≤ (i 1).val ∧ (i 1).val < win6_4.index t (1 : Fin 2) * 128 + 128; rw [e1]; omega

/-- THE COLUMN SUMS after the region. -/
theorem final6_4 (c : Dev nD) (j : Fin 128) :
    (dat6 (F := Ideal) V c).arrAt 4 cfg6.N (ix2 (0 : Fin 1) j) = Net.colSum (Net.dense (X6 V c) (W6 V c) (bias6 V c)) j := by
  rw [(dat6 V c).arrAt_eq_of_cover 4 (colG6 V c) (flushed6_4_eq V c) cover6_4]
  rfl

/-- The column sums of squares of the product map, as a row. -/
def colSqG6 (c : Dev nD) : S1x128.Idx → EReal := fun i => Net.colSumSq (Net.dense (X6 V c) (W6 V c) (bias6 V c)) ⟨(i 1).val, idx2_lt1 i⟩

/-- The accumulator row's window is not cut: what is written back is the buffer. -/
theorem cut6_5 (t : Fin cfg6.N) (X : Vec Ideal S1x128 .f32) : (cfg6.win 5).cut (grid6.coords t) X = X := rfl

/-- A row read through the accumulator's block, for ANY row `G`. -/
theorem read6_5 (t : Fin cfg6.N) (G : S1x128.Idx → EReal) (y : S1x128.Idx) :
    ((cfg6.win 5).blk t).view.read (Elt Ideal) G y = G (((cfg6.win 5).blk t).view.emb y) := rfl

/-- The one write-back of this accumulator, at the last point, writes the sums over all the rows. -/
theorem flushed6_5_eq (c : Dev nD) (t : Fin cfg6.N) (hf : (cfg6.win 5).flush t = true) :
    (dat6 V c).flushed 5 t = ((cfg6.win 5).blk t).view.read (Elt Ideal) (colSqG6 V c) := by
  have hN : t.val < 32 := lt_of_lt_of_eq t.isLt N_6
  have h31 : t.val = 31 := by have := (flush6_5 t).mp hf; omega
  obtain ⟨e0, e1⟩ := idx6_w5 t
  show (cfg6.win 5).cut (grid6.coords t) ((dat6 V c).after 5 t) = _
  rw [after6_5, cut6_5]
  funext y
  rw [read6_5]
  obtain ⟨u, q, rfl⟩ : ∃ (u : Fin 1) (q : Fin 128), y = ix2 u q := ⟨y 0, y 1, eq_ix2 y⟩
  obtain rfl : u = 0 := Subsingleton.elim _ _
  rw [acc6_5_eq V c t.val t.isLt q]
  have hq : (⟨((((cfg6.win 5).blk t).view.emb (ix2 (0 : Fin 1) q)) 1).val, idx2_lt1 _⟩ : Fin 128) = q := Fin.ext (by
    show win6_5.index t (1 : Fin 2) * 128 + 1 * q.val = q.val; rw [e1]; omega)
  unfold colSqG6 Net.colSumSq
  rw [hq, h31]
  exact sum_rows_all _

/-- The last point's block is the whole row. -/
theorem cover6_5 (i : S1x128.Idx) : ∃ t : Fin cfg6.N, (cfg6.win 5).flush t = true ∧ i ∈ ((cfg6.win 5).blk t).view.set := by
  have h0 : (i 0).val < 1 := idx2_lt0 i
  have h1 : (i 1).val < 128 := idx2_lt1 i
  obtain ⟨t, ht⟩ : ∃ t : Fin cfg6.N, t.val = 31 := ⟨⟨31, by rw [show cfg6.N = 32 from N_6]; norm_num⟩, rfl⟩
  obtain ⟨e0, e1⟩ := idx6_w5 t
  refine ⟨t, (flush6_5 t).mpr (by rw [ht]), ?_⟩
  show i ∈ ((View.whole main_v46_2).slice (win6_5.rect t)).set
  rw [View.set_slice_whole, Rect.mem_set_unit]
  intro a
  match a with
  | ⟨0, _⟩ => show win6_5.index t (0 : Fin 2) * 1 ≤ (i 0).val ∧ (i 0).val < win6_5.index t (0 : Fin 2) * 1 + 1; rw [e0]; omega
  | ⟨1, _⟩ => show win6_5.index t (1 : Fin 2) * 128 ≤ (i 1).val ∧ (i 1).val < win6_5.index t (1 : Fin 2) * 128 + 128; rw [e1]; omega

/-- THE COLUMN SUMS OF SQUARES after the region. -/
theorem final6_5 (c : Dev nD) (j : Fin 128) :
    (dat6 (F := Ideal) V c).arrAt 5 cfg6.N (ix2 (0 : Fin 1) j) = Net.colSumSq (Net.dense (X6 V c) (W6 V c) (bias6 V c)) j := by
  rw [(dat6 V c).arrAt_eq_of_cover 5 (colSqG6 V c) (flushed6_5_eq V c) cover6_5]
  rfl

end AtV

end Cert.KernelIdeal.RegionValue

end
-- ==== Proof.Region10.lean ====
import proofs.«131146_j57208964383148_1_alg».proof.Proof.Gen.KernelIdeal.Frame
import proofs.«131146_j57208964383148_1_alg».proof.Proof.Net
import proofs.«131146_j57208964383148_1_alg».proof.Proof.RegionLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  The value of region 10 (the product of a 65536 × 128 matrix with a 128 × 10 matrix of weights plus a row of biases,
  with the column sums and the column sums of squares of the result), read off its frame at any entry contents `V`:
  after the region the output array holds `x · w + b` entry by entry, and the two rows hold, column by column, the sum
  and the sum of squares of the output's 65536 rows.

  The body at a point: it stores the product payload of the point's blocks; the two accumulators are set to zero at
  the first point, and at every point are left at what they held plus the block's column sums (of the payload, and of
  its squares). After point `n` an accumulator holds the sum over the rows below `(n + 1) · 2048`.
-/

noncomputable section

open Idealize.ShloMosaic Idealize.ShloMosaic.TcCoe Idealize.SL.Sem Idealize.ShloMosaic.Tactic
open Idealize.ShloMosaic.Pipeline (Dat)
open Idealize.ShloMosaic.ValueIdx
open scoped BigOperators

namespace Cert.KernelIdeal.RegionValue

open Cert.KernelIdeal Cert.KernelIdeal.Gen

section Pieces
variable {F : FTy → Type} [FloatOps F]

theorem hz10 : (![0, 0] : Fin 2 → Nat) = fun _ => 0 := funext fun a => by fin_cases a <;> rfl

/-- At the first point the body leaves the product payload of its input blocks in the output block. -/
theorem out10_A_3_eq (c : Dev nD) (i : grid10.Coords) (a1 : Memref sig .tc .vmem S2048x128 .f32) (h1 : a1.IsWhole)
    (a2 : Memref sig .tc .vmem S128x10 .f32) (h2 : a2.IsWhole) (a3 : Memref sig .tc .vmem S1x10 .f32) (h3 : a3.IsWhole)
    (a4 : Memref sig .tc .vmem S2048x10 .f32) (h4 : a4.IsWhole) (a5 : Memref sig .tc .vmem S1x10 .f32) (h5 : a5.IsWhole)
    (a6 : Memref sig .tc .vmem S1x10 .f32) (h6 : a6.IsWhole)
    (hc : cond10_0 i) (x0 : Vec F S2048x128 .f32) (x1 : Vec F S128x10 .f32) (x2 : Vec F S1x10 .f32) :
    out10_A_3 c i a1 h1 a2 h2 a3 h3 a4 h4 a5 h5 a6 h6 hc x0 x1 x2 = k10_pay3 x0 x1 x2 := by
  unfold out10_A_3
  rw [View.read_writes_eq_canon _ _ _ (cover10_A_3 c i a1 h1 a2 h2 a3 h3 a4 h4 a5 h5 a6 h6 hc x0 x1 x2)]
  unfold kernelRun10_A
  dsimp only
  rw [View.canon_unit_zero hz10]
  simp only [View.readAt_eq_ld, h1.read_unread, h2.read_unread, h3.read_unread,
    View.ld_unit_zero (S := S2048x128) hz10, View.ld_unit_zero (S := S128x10) hz10, View.ld_unit_zero (S := S1x10) hz10]

/-- At every later point likewise. -/
theorem out10_B_3_eq (c : Dev nD) (i : grid10.Coords) (a1 : Memref sig .tc .vmem S2048x128 .f32) (h1 : a1.IsWhole)
    (a2 : Memref sig .tc .vmem S128x10 .f32) (h2 : a2.IsWhole) (a3 : Memref sig .tc .vmem S1x10 .f32) (h3 : a3.IsWhole)
    (a4 : Memref sig .tc .vmem S2048x10 .f32) (h4 : a4.IsWhole) (a5 : Memref sig .tc .vmem S1x10 .f32) (h5 : a5.IsWhole)
    (a6 : Memref sig .tc .vmem S1x10 .f32) (h6 : a6.IsWhole)
    (hc : ¬cond10_0 i) (x0 : Vec F S2048x128 .f32) (x1 : Vec F S128x10 .f32) (x2 : Vec F S1x10 .f32) (xo4 xo5 : Vec F S1x10 .f32) :
    out10_B_3 c i a1 h1 a2 h2 a3 h3 a4 h4 a5 h5 a6 h6 hc x0 x1 x2 xo4 xo5 = k10_pay3 x0 x1 x2 := by
  unfold out10_B_3
  rw [View.read_writes_eq_canon _ _ _ (cover10_B_3 c i a1 h1 a2 h2 a3 h3 a4 h4 a5 h5 a6 h6 hc x0 x1 x2 xo4 xo5)]
  unfold kernelRun10_B
  dsimp only
  rw [View.canon_unit_zero hz10]
  simp only [View.readAt_eq_ld, h1.read_unread, h2.read_unread, h3.read_unread,
    View.ld_unit_zero (S := S2048x128) hz10, View.ld_unit_zero (S := S128x10) hz10, View.ld_unit_zero (S := S1x10) hz10]

/-- At a later point the column-sum accumulator is left at its payload over what the point before left. -/
theorem out10_B_4_eq (c : Dev nD) (i : grid10.Coords) (a1 : Memref sig .tc .vmem S2048x128 .f32) (h1 : a1.IsWhole)
    (a2 : Memref sig .tc .vmem S128x10 .f32) (h2 : a2.IsWhole) (a3 : Memref sig .tc .vmem S1x10 .f32) (h3 : a3.IsWhole)
    (a4 : Memref sig .tc .vmem S2048x10 .f32) (h4 : a4.IsWhole) (a5 : Memref sig .tc .vmem S1x10 .f32) (h5 : a5.IsWhole)
    (a6 : Memref sig .tc .vmem S1x10 .f32) (h6 : a6.IsWhole)
    (hc : ¬cond10_0 i) (x0 : Vec F S2048x128 .f32) (x1 : Vec F S128x10 .f32) (x2 : Vec F S1x10 .f32) (xo4 xo5 : Vec F S1x10 .f32) :
    out10_B_4 c i a1 h1 a2 h2 a3 h3 a4 h4 a5 h5 a6 h6 hc x0 x1 x2 xo4 xo5 = k10_pay4 x0 x1 x2 xo4 := by
  unfold out10_B_4
  rw [View.read_writes_eq_canon _ _ _ (cover10_B_4 c i a1 h1 a2 h2 a3 h3 a4 h4 a5 h5 a6 h6 hc x0 x1 x2 xo4 xo5)]
  unfold kernelRun10_B
  dsimp only
  rw [View.canon_unit_zero hz10]
  simp only [View.readAt_eq_ld, h1.read_unread, h2.read_unread, h3.read_unread, h5.read_unread, h6.read_unread,
    View.ld_unit_zero (S := S2048x128) hz10, View.ld_unit_zero (S := S128x10) hz10, View.ld_unit_zero (S := S1x10) hz10]

/-- At a later point the accumulator of the squares is left at its payload over what the point before left. -/
theorem out10_B_5_eq (c : Dev nD) (i : grid10.Coords) (a1 : Memref sig .tc .vmem S2048x128 .f32) (h1 : a1.IsWhole)
    (a2 : Memref sig .tc .vmem S128x10 .f32) (h2 : a2.IsWhole) (a3 : Memref sig .tc .vmem S1x10 .f32) (h3 : a3.IsWhole)
    (a4 : Memref sig .tc .vmem S2048x10 .f32) (h4 : a4.IsWhole) (a5 : Memref sig .tc .vmem S1x10 .f32) (h5 : a5.IsWhole)
    (a6 : Memref sig .tc .vmem S1x10 .f32) (h6 : a6.IsWhole)
    (hc : ¬cond10_0 i) (x0 : Vec F S2048x128 .f32) (x1 : Vec F S128x10 .f32) (x2 : Vec F S1x10 .f32) (xo4 xo5 : Vec F S1x10 .f32) :
    out10_B_5 c i a1 h1 a2 h2 a3 h3 a4 h4 a5 h5 a6 h6 hc x0 x1 x2 xo4 xo5 = k10_pay5 x0 x1 x2 xo5 := by
  unfold out10_B_5
  rw [View.read_writes_eq_canon _ _ _ (cover10_B_5 c i a1 h1 a2 h2 a3 h3 a4 h4 a5 h5 a6 h6 hc x0 x1 x2 xo4 xo5)]
  unfold kernelRun10_B
  dsimp only
  rw [View.canon_unit_zero hz10]
  simp only [View.readAt_eq_ld, h1.read_unread, h2.read_unread, h3.read_unread, h5.read_unread, h6.read_unread,
    View.ld_unit_zero (S := S2048x128) hz10, View.ld_unit_zero (S := S128x10) hz10, View.ld_unit_zero (S := S1x10) hz10]

/-- At the first point the column-sum accumulator is zeroed, read back, and left at its payload over the zero row. -/
theorem out10_A_4_eq (c : Dev nD) (i : grid10.Coords) (a1 : Memref sig .tc .vmem S2048x128 .f32) (h1 : a1.IsWhole)
    (a2 : Memref sig .tc .vmem S128x10 .f32) (h2 : a2.IsWhole) (a3 : Memref sig .tc .vmem S1x10 .f32) (h3 : a3.IsWhole)
    (a4 : Memref sig .tc .vmem S2048x10 .f32) (h4 : a4.IsWhole) (a5 : Memref sig .tc .vmem S1x10 .f32) (h5 : a5.IsWhole)
    (a6 : Memref sig .tc .vmem S1x10 .f32) (h6 : a6.IsWhole)
    (hc : cond10_0 i) (x0 : Vec F S2048x128 .f32) (x1 : Vec F S128x10 .f32) (x2 : Vec F S1x10 .f32) :
    out10_A_4 c i a1 h1 a2 h2 a3 h3 a4 h4 a5 h5 a6 h6 hc x0 x1 x2 = k10_pay4 x0 x1 x2 (k10_pay1 (F := F)) := by
  unfold out10_A_4
  rw [View.read_writes_eq_canon _ _ _ (cover10_A_4 c i a1 h1 a2 h2 a3 h3 a4 h4 a5 h5 a6 h6 hc x0 x1 x2)]
  unfold kernelRun10_A
  dsimp only
  sl_unfold_words
  rw [View.canon_cons_unit_zero (S := S1x10) hz10, View.readCov_unit_zero (S := S1x10) _ hz10]
  simp only [View.readAt_eq_ld, h1.read_unread, h2.read_unread, h3.read_unread,
    View.ld_unit_zero (S := S2048x128) hz10, View.ld_unit_zero (S := S128x10) hz10, View.ld_unit_zero (S := S1x10) hz10]

/-- At the first point the accumulator of the squares likewise. -/
theorem out10_A_5_eq (c : Dev nD) (i : grid10.Coords) (a1 : Memref sig .tc .vmem S2048x128 .f32) (h1 : a1.IsWhole)
    (a2 : Memref sig .tc .vmem S128x10 .f32) (h2 : a2.IsWhole) (a3 : Memref sig .tc .vmem S1x10 .f32) (h3 : a3.IsWhole)
    (a4 : Memref sig .tc .vmem S2048x10 .f32) (h4 : a4.IsWhole) (a5 : Memref sig .tc .vmem S1x10 .f32) (h5 : a5.IsWhole)
    (a6 : Memref sig .tc .vmem S1x10 .f32) (h6 : a6.IsWhole)
    (hc : cond10_0 i) (x0 : Vec F S2048x128 .f32) (x1 : Vec F S128x10 .f32) (x2 : Vec F S1x10 .f32) :
    out10_A_5 c i a1 h1 a2 h2 a3 h3 a4 h4 a5 h5 a6 h6 hc x0 x1 x2 = k10_pay5 x0 x1 x2 (k10_pay2 (F := F)) := by
  unfold out10_A_5
  rw [View.read_writes_eq_canon _ _ _ (cover10_A_5 c i a1 h1 a2 h2 a3 h3 a4 h4 a5 h5 a6 h6 hc x0 x1 x2)]
  unfold kernelRun10_A
  dsimp only
  sl_unfold_words
  rw [View.canon_cons_unit_zero (S := S1x10) hz10, View.readCov_unit_zero (S := S1x10) _ hz10]
  simp only [View.readAt_eq_ld, h1.read_unread, h2.read_unread, h3.read_unread,
    View.ld_unit_zero (S := S2048x128) hz10, View.ld_unit_zero (S := S128x10) hz10, View.ld_unit_zero (S := S1x10) hz10]

end Pieces

/-! ## The payloads at an index, on the extended reals -/

/-- A column's sum over the 2048 rows of a block, read at the column. -/
theorem colsum10_apply (v : FVec Ideal S2048x10 .f32) (q : Fin 10) :
    multiReduction (F := Ideal) .add [0] S10 v 0x00000000#32 reduces_S2048x10_S10 (.inl rfl) rfl (ix1 q)
      = ∑ p : Fin 2048, v (ix2 p q) := by
  have e := Ideal.multiReduction_add_single v 0x00000000#32 reduces_S2048x10_S10 (.inl rfl) rfl (ix1 q)
  have hl : ∀ p : Fin 2048, reduces_S2048x10_S10.lift (ix1 q) p = ix2 p q := fun p => funext fun a => by
    match a with
    | ⟨0, _⟩ => rfl
    | ⟨1, _⟩ => rfl
  rw [e]
  exact Finset.sum_congr rfl fun p _ => congrArg v (hl p)

/-- The product payload at an index: the row of the input block against the column of the weights, plus the bias. -/
theorem pay10_3_apply (v3 : Vec Ideal S2048x128 .f32) (v6 : Vec Ideal S128x10 .f32) (v10 : Vec Ideal S1x10 .f32)
    (p : Fin 2048) (q : Fin 10) :
    k10_pay3 v3 v6 v10 (ix2 p q) = (∑ k : Fin 128, v3 (ix2 p k) * v6 (ix2 k q)) + v10 (ix2 (0 : Fin 1) q) := by
  unfold k10_pay3
  rw [shapeCast_self, shapeCast_self, shapeCast_self]
  refine (addf_apply _ _ _).trans ?_
  rw [broadcastTo_1b_ab_apply]
  refine congrArg (· + _) ?_
  refine (Ideal.matmul_constant_zero_apply dot_S2048x128_S128x10_S2048x10_1_0_0_1_n_n none _ _ (ix2 p q)).trans ?_
  rw [← Equiv.sum_comp (contrEquiv1 dot_S2048x128_S128x10_S2048x10_1_0_0_1_n_n 128 rfl rfl).symm]
  refine Finset.sum_congr rfl fun k _ => ?_
  have hL : dot_S2048x128_S128x10_S2048x10_1_0_0_1_n_n.lhsIdx (ix2 p q)
      ((contrEquiv1 dot_S2048x128_S128x10_S2048x10_1_0_0_1_n_n 128 rfl rfl).symm k) = ix2 p k := funext fun a => Fin.ext (by
    match a with
    | ⟨0, _⟩ => rfl
    | ⟨1, _⟩ => exact (DotDims.lhsIdx_val_of_single _ (cl := (1 : Fin 2)) rfl _ _).trans (contrEquiv1_symm_val dot_S2048x128_S128x10_S2048x10_1_0_0_1_n_n 128 rfl rfl k))
  have hR : dot_S2048x128_S128x10_S2048x10_1_0_0_1_n_n.rhsIdx (ix2 p q)
      ((contrEquiv1 dot_S2048x128_S128x10_S2048x10_1_0_0_1_n_n 128 rfl rfl).symm k) = ix2 k q := funext fun a => Fin.ext (by
    match a with
    | ⟨0, _⟩ => exact (DotDims.rhsIdx_val_of_single _ (cr := (0 : Fin 2)) rfl _ _).trans (contrEquiv1_symm_val dot_S2048x128_S128x10_S2048x10_1_0_0_1_n_n 128 rfl rfl k)
    | ⟨1, _⟩ => rfl)
  show v3 _ * v6 _ = _
  rw [hL, hR]

/-- The column-sum payload at a column: the carried sum plus the sum of the block's column. -/
theorem pay10_4_apply (v3 : Vec Ideal S2048x128 .f32) (v6 : Vec Ideal S128x10 .f32) (v10 v15 : Vec Ideal S1x10 .f32) (q : Fin 10) :
    k10_pay4 v3 v6 v10 v15 (ix2 (0 : Fin 1) q) = v15 (ix2 (0 : Fin 1) q) + ∑ p : Fin 2048, k10_pay3 v3 v6 v10 (ix2 p q) := by
  unfold k10_pay4
  rw [shapeCast_self]
  refine (addf_apply _ _ _).trans ?_
  rw [shapeCast_a_1a_apply, colsum10_apply]

/-- The payload of the column sums of squares at a column: the carried sum plus the sum of the squares of the block's column. -/
theorem pay10_5_apply (v3 : Vec Ideal S2048x128 .f32) (v6 : Vec Ideal S128x10 .f32) (v10 v21 : Vec Ideal S1x10 .f32) (q : Fin 10) :
    k10_pay5 v3 v6 v10 v21 (ix2 (0 : Fin 1) q)
      = v21 (ix2 (0 : Fin 1) q) + ∑ p : Fin 2048, k10_pay3 v3 v6 v10 (ix2 p q) * k10_pay3 v3 v6 v10 (ix2 p q) := by
  unfold k10_pay5
  rw [shapeCast_self]
  refine (addf_apply _ _ _).trans ?_
  rw [shapeCast_a_1a_apply, colsum10_apply]
  rfl

/-! ## The blocks read through their windows -/

/-- The printed index maps over the grid: the input and output blocks move with the point along the rows, the weights,
    the bias row and the two accumulator rows stay. -/
theorem idx10_w0 : ∀ t : Fin cfg10.N, win10_0.index t (0 : Fin 2) = t.val ∧ win10_0.index t (1 : Fin 2) = 0 :=
  (by decide +kernel : ∀ t : Fin grid10.N, _)
theorem idx10_w1 : ∀ t : Fin cfg10.N, win10_1.index t (0 : Fin 2) = 0 ∧ win10_1.index t (1 : Fin 2) = 0 :=
  (by decide +kernel : ∀ t : Fin grid10.N, _)
theorem idx10_w2 : ∀ t : Fin cfg10.N, win10_2.index t (0 : Fin 2) = 0 ∧ win10_2.index t (1 : Fin 2) = 0 :=
  (by decide +kernel : ∀ t : Fin grid10.N, _)
theorem idx10_w3 : ∀ t : Fin cfg10.N, win10_3.index t (0 : Fin 2) = t.val ∧ win10_3.index t (1 : Fin 2) = 0 :=
  (by decide +kernel : ∀ t : Fin grid10.N, _)
theorem idx10_w4 : ∀ t : Fin cfg10.N, win10_4.index t (0 : Fin 2) = 0 ∧ win10_4.index t (1 : Fin 2) = 0 :=
  (by decide +kernel : ∀ t : Fin grid10.N, _)
theorem idx10_w5 : ∀ t : Fin cfg10.N, win10_5.index t (0 : Fin 2) = 0 ∧ win10_5.index t (1 : Fin 2) = 0 :=
  (by decide +kernel : ∀ t : Fin grid10.N, _)

/-- Row `p` of the block of point `t`. -/
def row10 (t : Fin cfg10.N) (p : Fin 2048) : Fin 65536 := rowOf t.val (lt_of_lt_of_eq t.isLt N_10) p

section AtV
variable (V : (c : Dev nD) → (b : Ref sig .tc) → Buf (Elt Ideal) ((c : Thread nD τ).loc b))

/-- The input matrix, the weights (input-major) and the biases as the region finds them. -/
abbrev X10 (c : Dev nD) : Fin 65536 → Fin 128 → EReal := fun r k => V c (Pipeline.arrRef spec10 0) (ix2 r k)
abbrev W10 (c : Dev nD) : Fin 128 → Fin 10 → EReal := fun k j => V c (Pipeline.arrRef spec10 1) (ix2 k j)
abbrev bias10 (c : Dev nD) : Fin 10 → EReal := fun j => V c (Pipeline.arrRef spec10 2) (ix2 (0 : Fin 1) j)

/-- The input block at point `t` holds the rows `2048 t …` of the input matrix. -/
theorem iblk10_0_apply (c : Dev nD) (t : Fin cfg10.N) (p : Fin 2048) (k : Fin 128) :
    iblk10 V c 0 t (ix2 p k) = X10 V c (row10 t p) k := by
  obtain ⟨e0, e1⟩ := idx10_w0 t
  show V c (Pipeline.arrRef spec10 0) (((cfg10.win 0).blk t).view.emb (ix2 p k)) = V c (Pipeline.arrRef spec10 0) (ix2 (row10 t p) k)
  refine congrArg (V c (Pipeline.arrRef spec10 0)) (funext fun a => Fin.ext ?_)
  match a with
  | ⟨0, _⟩ => show win10_0.index t (0 : Fin 2) * 2048 + 1 * p.val = t.val * 2048 + p.val; rw [e0]; omega
  | ⟨1, _⟩ => show win10_0.index t (1 : Fin 2) * 128 + 1 * k.val = k.val; rw [e1]; omega

/-- The weight block at every point is the whole weight matrix. -/
theorem iblk10_1_apply (c : Dev nD) (t : Fin cfg10.N) (k : Fin 128) (j : Fin 10) :
    iblk10 V c 1 t (ix2 k j) = W10 V c k j := by
  obtain ⟨e0, e1⟩ := idx10_w1 t
  show V c (Pipeline.arrRef spec10 1) (((cfg10.win 1).blk t).view.emb (ix2 k j)) = V c (Pipeline.arrRef spec10 1) (ix2 k j)
  refine congrArg (V c (Pipeline.arrRef spec10 1)) (funext fun a => Fin.ext ?_)
  match a with
  | ⟨0, _⟩ => show win10_1.index t (0 : Fin 2) * 128 + 1 * k.val = k.val; rw [e0]; omega
  | ⟨1, _⟩ => show win10_1.index t (1 : Fin 2) * 10 + 1 * j.val = j.val; rw [e1]; omega

/-- The bias block at every point is the row of biases. -/
theorem iblk10_2_apply (c : Dev nD) (t : Fin cfg10.N) (j : Fin 10) :
    iblk10 V c 2 t (ix2 (0 : Fin 1) j) = bias10 V c j := by
  obtain ⟨e0, e1⟩ := idx10_w2 t
  show V c (Pipeline.arrRef spec10 2) (((cfg10.win 2).blk t).view.emb (ix2 (0 : Fin 1) j)) = V c (Pipeline.arrRef spec10 2) (ix2 (0 : Fin 1) j)
  refine congrArg (V c (Pipeline.arrRef spec10 2)) (funext fun a => Fin.ext ?_)
  match a with
  | ⟨0, _⟩ => show win10_2.index t (0 : Fin 2) * 1 + 1 * 0 = 0; rw [e0]
  | ⟨1, _⟩ => show win10_2.index t (1 : Fin 2) * 10 + 1 * j.val = j.val; rw [e1]; omega

/-- The product payload of blocks that hold the rows of block `t`, the weights and the biases is the product map on those rows. -/
theorem blk10_dense (c : Dev nD) (t : Fin cfg10.N) (x0 : Vec Ideal S2048x128 .f32) (x1 : Vec Ideal S128x10 .f32) (x2 : Vec Ideal S1x10 .f32)
    (h0 : ∀ (p : Fin 2048) (k : Fin 128), x0 (ix2 p k) = X10 V c (row10 t p) k)
    (h1 : ∀ (k : Fin 128) (j : Fin 10), x1 (ix2 k j) = W10 V c k j) (h2 : ∀ j : Fin 10, x2 (ix2 (0 : Fin 1) j) = bias10 V c j)
    (p : Fin 2048) (j : Fin 10) :
    k10_pay3 x0 x1 x2 (ix2 p j) = Net.dense (X10 V c) (W10 V c) (bias10 V c) (row10 t p) j := by
  rw [pay10_3_apply, h2]
  unfold Net.dense
  refine congrArg (· + _) (Finset.sum_congr rfl fun k _ => ?_)
  rw [h0, h1]

/-- The same for the square of the payload. -/
theorem blk10_dense_sq (c : Dev nD) (t : Fin cfg10.N) (x0 : Vec Ideal S2048x128 .f32) (x1 : Vec Ideal S128x10 .f32) (x2 : Vec Ideal S1x10 .f32)
    (h0 : ∀ (p : Fin 2048) (k : Fin 128), x0 (ix2 p k) = X10 V c (row10 t p) k)
    (h1 : ∀ (k : Fin 128) (j : Fin 10), x1 (ix2 k j) = W10 V c k j) (h2 : ∀ j : Fin 10, x2 (ix2 (0 : Fin 1) j) = bias10 V c j)
    (p : Fin 2048) (j : Fin 10) :
    k10_pay3 x0 x1 x2 (ix2 p j) * k10_pay3 x0 x1 x2 (ix2 p j) = Net.dense (X10 V c) (W10 V c) (bias10 V c) (row10 t p) j * Net.dense (X10 V c) (W10 V c) (bias10 V c) (row10 t p) j := by
  rw [blk10_dense V c t x0 x1 x2 h0 h1 h2 p j]

/-! ## The product output -/

/-- The product map of the whole input matrix, index by index. -/
def denseG10 (c : Dev nD) : S65536x10.Idx → EReal := fun i =>
  Net.dense (X10 V c) (W10 V c) (bias10 V c) ⟨(i 0).val, idx2_lt0 i⟩ ⟨(i 1).val, idx2_lt1 i⟩

/-- At every point the output's buffer is left at the product payload of the point's blocks. -/
theorem outs10_fst (c : Dev nD) (t : Fin cfg10.N) :
    (outsAt10 V c t.val t.isLt).1 = k10_pay3 (iblk10 V c 0 t) (iblk10 V c 1 t) (iblk10 V c 2 t) := by
  by_cases h0 : t.val % 32 = 0
  · rw [outsAt10_A V c t h0]
    dsimp only
    exact out10_A_3_eq (F := Ideal) c (grid10.coords t) (ms10_0 t) (hs10_0 t) (ms10_1 t) (hs10_1 t) (ms10_2 t) (hs10_2 t) (ms10_3 t) (hs10_3 t)
      (ms10_4 t) (hs10_4 t) (ms10_5 t) (hs10_5 t) ((hcond10_0 t).mpr h0) (iblk10 V c 0 t) (iblk10 V c 1 t) (iblk10 V c 2 t)
  · rw [outsAt10_B V c t h0]
    dsimp only
    exact out10_B_3_eq (F := Ideal) c (grid10.coords t) (ms10_0 t) (hs10_0 t) (ms10_1 t) (hs10_1 t) (ms10_2 t) (hs10_2 t) (ms10_3 t) (hs10_3 t)
      (ms10_4 t) (hs10_4 t) (ms10_5 t) (hs10_5 t) (fun h => h0 ((hcond10_0 t).mp h)) (iblk10 V c 0 t) (iblk10 V c 1 t) (iblk10 V c 2 t)
      (outsAt10 V c (t.val - 1) (Nat.lt_of_le_of_lt (Nat.sub_le _ _) t.isLt)).2.1
      (outsAt10 V c (t.val - 1) (Nat.lt_of_le_of_lt (Nat.sub_le _ _) t.isLt)).2.2

/-- What point `t` writes back is block `t` of the product map of the input matrix. -/
theorem flushed10_3_eq (c : Dev nD) (t : Fin cfg10.N) :
    (dat10 V c).flushed 3 t = ((cfg10.win 3).blk t).view.read (Elt Ideal) (denseG10 V c) := by
  show (cfg10.win 3).cut (grid10.coords t) ((dat10 V c).after 3 t) = _
  rw [after10_3, outs10_fst]
  obtain ⟨e0, e1⟩ := idx10_w3 t
  funext y
  obtain ⟨p, q, rfl⟩ : ∃ (p : Fin 2048) (q : Fin 10), y = ix2 p q := ⟨y 0, y 1, eq_ix2 y⟩
  show k10_pay3 (iblk10 V c 0 t) (iblk10 V c 1 t) (iblk10 V c 2 t) (ix2 p q) = denseG10 V c (((cfg10.win 3).blk t).view.emb (ix2 p q))
  refine (blk10_dense V c t _ _ _ (iblk10_0_apply V c t) (iblk10_1_apply V c t) (iblk10_2_apply V c t) p q).trans ?_
  have hr : (⟨((((cfg10.win 3).blk t).view.emb (ix2 p q)) 0).val, idx2_lt0 _⟩ : Fin 65536) = row10 t p := Fin.ext (by
    show win10_3.index t (0 : Fin 2) * 2048 + 1 * p.val = t.val * 2048 + p.val; rw [e0]; omega)
  have hq : (⟨((((cfg10.win 3).blk t).view.emb (ix2 p q)) 1).val, idx2_lt1 _⟩ : Fin 10) = q := Fin.ext (by
    show win10_3.index t (1 : Fin 2) * 10 + 1 * q.val = q.val; rw [e1]; omega)
  unfold denseG10
  rw [hr, hq]

/-- An index of the output array is in point `t`'s block iff each coordinate is in the block's range on its axis. -/
theorem mem_blk10_3 (t : Fin cfg10.N) (i : S65536x10.Idx) :
    i ∈ ((cfg10.win 3).blk t).view.set ↔ ∀ a : Fin 2, win10_3.index t a * S2048x10.size a ≤ (i a).val ∧ (i a).val < win10_3.index t a * S2048x10.size a + S2048x10.size a := by
  show i ∈ ((View.whole main_v80_0).slice (win10_3.rect t)).set ↔ _
  rw [View.set_slice_whole, Rect.mem_set_unit]
  exact Iff.rfl

/-- Row `r` is in the block of point `r / 2048`. -/
theorem cover10_3 (i : S65536x10.Idx) : ∃ t : Fin cfg10.N, (cfg10.win 3).flush t = true ∧ i ∈ ((cfg10.win 3).blk t).view.set := by
  have h0 : (i 0).val < 65536 := idx2_lt0 i
  have h1 : (i 1).val < 10 := idx2_lt1 i
  obtain ⟨t, ht⟩ : ∃ t : Fin cfg10.N, t.val = (i 0).val / 2048 := ⟨⟨(i 0).val / 2048, by rw [show cfg10.N = 32 from N_10]; omega⟩, rfl⟩
  obtain ⟨e0, e1⟩ := idx10_w3 t
  refine ⟨t, flush10_3 t, ?_⟩
  rw [mem_blk10_3]
  intro a
  match a with
  | ⟨0, _⟩ => show win10_3.index t (0 : Fin 2) * 2048 ≤ (i 0).val ∧ (i 0).val < win10_3.index t (0 : Fin 2) * 2048 + 2048; rw [e0, ht]; omega
  | ⟨1, _⟩ => show win10_3.index t (1 : Fin 2) * 10 ≤ (i 1).val ∧ (i 1).val < win10_3.index t (1 : Fin 2) * 10 + 10; rw [e1]; omega

/-- THE PRODUCT OUTPUT after the region: `x · w + b`, entry by entry. -/
theorem final10_3 (c : Dev nD) (r : Fin 65536) (j : Fin 10) :
    (dat10 (F := Ideal) V c).arrAt 3 cfg10.N (ix2 r j) = Net.dense (X10 V c) (W10 V c) (bias10 V c) r j := by
  rw [(dat10 V c).arrAt_eq_of_cover 3 (denseG10 V c) (fun t _ => flushed10_3_eq V c t) cover10_3]
  rfl

/-! ## The two accumulated rows -/

/-- After point `n` the column-sum accumulator holds, at column `j`, the sum of the product map over the rows below `(n + 1) · 2048`. -/
theorem acc10_4_eq (c : Dev nD) : ∀ (n : ℕ) (hn : n < cfg10.N) (j : Fin 10),
    (outsAt10 V c n hn).2.1 (ix2 (0 : Fin 1) j)
      = ∑ i ∈ Finset.range ((n + 1) * 2048), ext0 (fun r => Net.dense (X10 V c) (W10 V c) (bias10 V c) r j) i
  | 0, hn, j => by
    rw [outsAt10_A V c ⟨0, hn⟩ rfl]
    dsimp only
    rw [out10_A_4_eq (F := Ideal) c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩)
      (ms10_4 ⟨0, hn⟩) (hs10_4 ⟨0, hn⟩) (ms10_5 ⟨0, hn⟩) (hs10_5 ⟨0, hn⟩) _ (iblk10 V c 0 ⟨0, hn⟩) (iblk10 V c 1 ⟨0, hn⟩) (iblk10 V c 2 ⟨0, hn⟩)]
    refine (pay10_4_apply _ _ _ _ j).trans ?_
    rw [sum_rows_succ _ 0 (by norm_num), Nat.zero_mul, Finset.sum_range_zero]
    refine congrArg₂ (· + ·) ?_ (Finset.sum_congr rfl fun p _ => ?_)
    · show Ideal.ofBits .f32 0x00000000#32 = 0
      exact Ideal.ofBits_zero_f32
    · exact blk10_dense V c ⟨0, hn⟩ _ _ _ (iblk10_0_apply V c ⟨0, hn⟩) (iblk10_1_apply V c ⟨0, hn⟩) (iblk10_2_apply V c ⟨0, hn⟩) p j
  | n + 1, hn, j => by
    have hN : n + 1 < 32 := lt_of_lt_of_eq hn N_10
    have hB : ¬(⟨n + 1, hn⟩ : Fin cfg10.N).val % 32 = 0 := by dsimp only; omega
    rw [outsAt10_B V c ⟨n + 1, hn⟩ hB]
    dsimp only
    rw [out10_B_4_eq (F := Ideal) c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩)
      (ms10_4 ⟨n + 1, hn⟩) (hs10_4 ⟨n + 1, hn⟩) (ms10_5 ⟨n + 1, hn⟩) (hs10_5 ⟨n + 1, hn⟩) _ (iblk10 V c 0 ⟨n + 1, hn⟩) (iblk10 V c 1 ⟨n + 1, hn⟩) (iblk10 V c 2 ⟨n + 1, hn⟩) _ _]
    refine (pay10_4_apply _ _ _ _ j).trans ?_
    rw [sum_rows_succ _ (n + 1) hN]
    refine congrArg₂ (· + ·) (acc10_4_eq c n (Nat.lt_of_succ_lt hn) j) (Finset.sum_congr rfl fun p _ => ?_)
    exact blk10_dense V c ⟨n + 1, hn⟩ _ _ _ (iblk10_0_apply V c ⟨n + 1, hn⟩) (iblk10_1_apply V c ⟨n + 1, hn⟩) (iblk10_2_apply V c ⟨n + 1, hn⟩) p j

/-- After point `n` the accumulator of the squares holds, at column `j`, the sum of the squares of the product map over the rows below `(n + 1) · 2048`. -/
theorem acc10_5_eq (c : Dev nD) : ∀ (n : ℕ) (hn : n < cfg10.N) (j : Fin 10),
    (outsAt10 V c n hn).2.2 (ix2 (0 : Fin 1) j)
      = ∑ i ∈ Finset.range ((n + 1) * 2048), ext0 (fun r => Net.dense (X10 V c) (W10 V c) (bias10 V c) r j * Net.dense (X10 V c) (W10 V c) (bias10 V c) r j) i
  | 0, hn, j => by
    rw [outsAt10_A V c ⟨0, hn⟩ rfl]
    dsimp only
    rw [out10_A_5_eq (F := Ideal) c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩)
      (ms10_4 ⟨0, hn⟩) (hs10_4 ⟨0, hn⟩) (ms10_5 ⟨0, hn⟩) (hs10_5 ⟨0, hn⟩) _ (iblk10 V c 0 ⟨0, hn⟩) (iblk10 V c 1 ⟨0, hn⟩) (iblk10 V c 2 ⟨0, hn⟩)]
    refine (pay10_5_apply _ _ _ _ j).trans ?_
    rw [sum_rows_succ _ 0 (by norm_num), Nat.zero_mul, Finset.sum_range_zero]
    refine congrArg₂ (· + ·) ?_ (Finset.sum_congr rfl fun p _ => ?_)
    · show Ideal.ofBits .f32 0x00000000#32 = 0
      exact Ideal.ofBits_zero_f32
    · exact blk10_dense_sq V c ⟨0, hn⟩ _ _ _ (iblk10_0_apply V c ⟨0, hn⟩) (iblk10_1_apply V c ⟨0, hn⟩) (iblk10_2_apply V c ⟨0, hn⟩) p j
  | n + 1, hn, j => by
    have hN : n + 1 < 32 := lt_of_lt_of_eq hn N_10
    have hB : ¬(⟨n + 1, hn⟩ : Fin cfg10.N).val % 32 = 0 := by dsimp only; omega
    rw [outsAt10_B V c ⟨n + 1, hn⟩ hB]
    dsimp only
    rw [out10_B_5_eq (F := Ideal) c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩)
      (ms10_4 ⟨n + 1, hn⟩) (hs10_4 ⟨n + 1, hn⟩) (ms10_5 ⟨n + 1, hn⟩) (hs10_5 ⟨n + 1, hn⟩) _ (iblk10 V c 0 ⟨n + 1, hn⟩) (iblk10 V c 1 ⟨n + 1, hn⟩) (iblk10 V c 2 ⟨n + 1, hn⟩) _ _]
    refine (pay10_5_apply _ _ _ _ j).trans ?_
    rw [sum_rows_succ _ (n + 1) hN]
    refine congrArg₂ (· + ·) (acc10_5_eq c n (Nat.lt_of_succ_lt hn) j) (Finset.sum_congr rfl fun p _ => ?_)
    exact blk10_dense_sq V c ⟨n + 1, hn⟩ _ _ _ (iblk10_0_apply V c ⟨n + 1, hn⟩) (iblk10_1_apply V c ⟨n + 1, hn⟩) (iblk10_2_apply V c ⟨n + 1, hn⟩) p j

/-- The column sums of the product map, as a row. -/
def colG10 (c : Dev nD) : S1x10.Idx → EReal := fun i => Net.colSum (Net.dense (X10 V c) (W10 V c) (bias10 V c)) ⟨(i 1).val, idx2_lt1 i⟩

/-- The accumulator row's window is not cut: what is written back is the buffer. -/
theorem cut10_4 (t : Fin cfg10.N) (X : Vec Ideal S1x10 .f32) : (cfg10.win 4).cut (grid10.coords t) X = X := rfl

/-- A row read through the accumulator's block, for ANY row `G`. -/
theorem read10_4 (t : Fin cfg10.N) (G : S1x10.Idx → EReal) (y : S1x10.Idx) :
    ((cfg10.win 4).blk t).view.read (Elt Ideal) G y = G (((cfg10.win 4).blk t).view.emb y) := rfl

/-- The one write-back of this accumulator, at the last point, writes the sums over all the rows. -/
theorem flushed10_4_eq (c : Dev nD) (t : Fin cfg10.N) (hf : (cfg10.win 4).flush t = true) :
    (dat10 V c).flushed 4 t = ((cfg10.win 4).blk t).view.read (Elt Ideal) (colG10 V c) := by
  have hN : t.val < 32 := lt_of_lt_of_eq t.isLt N_10
  have h31 : t.val = 31 := by have := (flush10_4 t).mp hf; omega
  obtain ⟨e0, e1⟩ := idx10_w4 t
  show (cfg10.win 4).cut (grid10.coords t) ((dat10 V c).after 4 t) = _
  rw [after10_4, cut10_4]
  funext y
  rw [read10_4]
  obtain ⟨u, q, rfl⟩ : ∃ (u : Fin 1) (q : Fin 10), y = ix2 u q := ⟨y 0, y 1, eq_ix2 y⟩
  obtain rfl : u = 0 := Subsingleton.elim _ _
  rw [acc10_4_eq V c t.val t.isLt q]
  have hq : (⟨((((cfg10.win 4).blk t).view.emb (ix2 (0 : Fin 1) q)) 1).val, idx2_lt1 _⟩ : Fin 10) = q := Fin.ext (by
    show win10_4.index t (1 : Fin 2) * 10 + 1 * q.val = q.val; rw [e1]; omega)
  unfold colG10 Net.colSum
  rw [hq, h31]
  exact sum_rows_all _

/-- The last point's block is the whole row. -/
theorem cover10_4 (i : S1x10.Idx) : ∃ t : Fin cfg10.N, (cfg10.win 4).flush t = true ∧ i ∈ ((cfg10.win 4).blk t).view.set := by
  have h0 : (i 0).val < 1 := idx2_lt0 i
  have h1 : (i 1).val < 10 := idx2_lt1 i
  obtain ⟨t, ht⟩ : ∃ t : Fin cfg10.N, t.val = 31 := ⟨⟨31, by rw [show cfg10.N = 32 from N_10]; norm_num⟩, rfl⟩
  obtain ⟨e0, e1⟩ := idx10_w4 t
  refine ⟨t, (flush10_4 t).mpr (by rw [ht]), ?_⟩
  show i ∈ ((View.whole main_v80_1).slice (win10_4.rect t)).set
  rw [View.set_slice_whole, Rect.mem_set_unit]
  intro a
  match a with
  | ⟨0, _⟩ => show win10_4.index t (0 : Fin 2) * 1 ≤ (i 0).val ∧ (i 0).val < win10_4.index t (0 : Fin 2) * 1 + 1; rw [e0]; omega
  | ⟨1, _⟩ => show win10_4.index t (1 : Fin 2) * 10 ≤ (i 1).val ∧ (i 1).val < win10_4.index t (1 : Fin 2) * 10 + 10; rw [e1]; omega

/-- THE COLUMN SUMS after the region. -/
theorem final10_4 (c : Dev nD) (j : Fin 10) :
    (dat10 (F := Ideal) V c).arrAt 4 cfg10.N (ix2 (0 : Fin 1) j) = Net.colSum (Net.dense (X10 V c) (W10 V c) (bias10 V c)) j := by
  rw [(dat10 V c).arrAt_eq_of_cover 4 (colG10 V c) (flushed10_4_eq V c) cover10_4]
  rfl

/-- The column sums of squares of the product map, as a row. -/
def colSqG10 (c : Dev nD) : S1x10.Idx → EReal := fun i => Net.colSumSq (Net.dense (X10 V c) (W10 V c) (bias10 V c)) ⟨(i 1).val, idx2_lt1 i⟩

/-- The accumulator row's window is not cut: what is written back is the buffer. -/
theorem cut10_5 (t : Fin cfg10.N) (X : Vec Ideal S1x10 .f32) : (cfg10.win 5).cut (grid10.coords t) X = X := rfl

/-- A row read through the accumulator's block, for ANY row `G`. -/
theorem read10_5 (t : Fin cfg10.N) (G : S1x10.Idx → EReal) (y : S1x10.Idx) :
    ((cfg10.win 5).blk t).view.read (Elt Ideal) G y = G (((cfg10.win 5).blk t).view.emb y) := rfl

/-- The one write-back of this accumulator, at the last point, writes the sums over all the rows. -/
theorem flushed10_5_eq (c : Dev nD) (t : Fin cfg10.N) (hf : (cfg10.win 5).flush t = true) :
    (dat10 V c).flushed 5 t = ((cfg10.win 5).blk t).view.read (Elt Ideal) (colSqG10 V c) := by
  have hN : t.val < 32 := lt_of_lt_of_eq t.isLt N_10
  have h31 : t.val = 31 := by have := (flush10_5 t).mp hf; omega
  obtain ⟨e0, e1⟩ := idx10_w5 t
  show (cfg10.win 5).cut (grid10.coords t) ((dat10 V c).after 5 t) = _
  rw [after10_5, cut10_5]
  funext y
  rw [read10_5]
  obtain ⟨u, q, rfl⟩ : ∃ (u : Fin 1) (q : Fin 10), y = ix2 u q := ⟨y 0, y 1, eq_ix2 y⟩
  obtain rfl : u = 0 := Subsingleton.elim _ _
  rw [acc10_5_eq V c t.val t.isLt q]
  have hq : (⟨((((cfg10.win 5).blk t).view.emb (ix2 (0 : Fin 1) q)) 1).val, idx2_lt1 _⟩ : Fin 10) = q := Fin.ext (by
    show win10_5.index t (1 : Fin 2) * 10 + 1 * q.val = q.val; rw [e1]; omega)
  unfold colSqG10 Net.colSumSq
  rw [hq, h31]
  exact sum_rows_all _

/-- The last point's block is the whole row. -/
theorem cover10_5 (i : S1x10.Idx) : ∃ t : Fin cfg10.N, (cfg10.win 5).flush t = true ∧ i ∈ ((cfg10.win 5).blk t).view.set := by
  have h0 : (i 0).val < 1 := idx2_lt0 i
  have h1 : (i 1).val < 10 := idx2_lt1 i
  obtain ⟨t, ht⟩ : ∃ t : Fin cfg10.N, t.val = 31 := ⟨⟨31, by rw [show cfg10.N = 32 from N_10]; norm_num⟩, rfl⟩
  obtain ⟨e0, e1⟩ := idx10_w5 t
  refine ⟨t, (flush10_5 t).mpr (by rw [ht]), ?_⟩
  show i ∈ ((View.whole main_v80_2).slice (win10_5.rect t)).set
  rw [View.set_slice_whole, Rect.mem_set_unit]
  intro a
  match a with
  | ⟨0, _⟩ => show win10_5.index t (0 : Fin 2) * 1 ≤ (i 0).val ∧ (i 0).val < win10_5.index t (0 : Fin 2) * 1 + 1; rw [e0]; omega
  | ⟨1, _⟩ => show win10_5.index t (1 : Fin 2) * 10 ≤ (i 1).val ∧ (i 1).val < win10_5.index t (1 : Fin 2) * 10 + 10; rw [e1]; omega

/-- THE COLUMN SUMS OF SQUARES after the region. -/
theorem final10_5 (c : Dev nD) (j : Fin 10) :
    (dat10 (F := Ideal) V c).arrAt 5 cfg10.N (ix2 (0 : Fin 1) j) = Net.colSumSq (Net.dense (X10 V c) (W10 V c) (bias10 V c)) j := by
  rw [(dat10 V c).arrAt_eq_of_cover 5 (colSqG10 V c) (flushed10_5_eq V c) cover10_5]
  rfl

end AtV

end Cert.KernelIdeal.RegionValue

end
-- ==== Proof.KernelChain.lean ====
/-
  The kernel's buffers at every boundary between its fourteen regions and the host operations between them, read as
  tensors of the thirteen inputs: the running maximum of the input's magnitudes, its quantisation step and the
  quantised input; then, per layer, the sign matrix and bias row, the product with its two column sums, the scale and
  shift rows, the normalised product with its running maximum, its step, the activated tensor with its running
  maximum, its step, and the layer's result.  Each fact is the region's or the stretch's own reading applied to the
  facts of the boundary before it; a buffer that a segment does not write is carried across it unchanged.  The last
  boundary's three result arrays are the folded network's three results.
-/
import proofs.«131146_j57208964383148_1_alg».proof.Proof.Gen.KernelIdeal.Frame
import proofs.«131146_j57208964383148_1_alg».proof.Proof.Net
import proofs.«131146_j57208964383148_1_alg».proof.Proof.Region1
import proofs.«131146_j57208964383148_1_alg».proof.Proof.Region5
import proofs.«131146_j57208964383148_1_alg».proof.Proof.Region9
import proofs.«131146_j57208964383148_1_alg».proof.Proof.Region13
import proofs.«131146_j57208964383148_1_alg».proof.Proof.HostStep
import proofs.«131146_j57208964383148_1_alg».proof.Proof.HostNorm
import proofs.«131146_j57208964383148_1_alg».proof.Proof.Region0
import proofs.«131146_j57208964383148_1_alg».proof.Proof.Region3
import proofs.«131146_j57208964383148_1_alg».proof.Proof.Region7
import proofs.«131146_j57208964383148_1_alg».proof.Proof.Region11
import proofs.«131146_j57208964383148_1_alg».proof.Proof.HostSigns
import proofs.«131146_j57208964383148_1_alg».proof.Proof.Region2
import proofs.«131146_j57208964383148_1_alg».proof.Proof.Region4
import proofs.«131146_j57208964383148_1_alg».proof.Proof.Region8
import proofs.«131146_j57208964383148_1_alg».proof.Proof.Region12
import proofs.«131146_j57208964383148_1_alg».proof.Proof.Region6
import proofs.«131146_j57208964383148_1_alg».proof.Proof.Region10
import Idealize.ShloMosaic.Lib.ValueIdx
set_option maxRecDepth 16384
noncomputable section
namespace Cert.KernelIdeal.Chain
open Idealize.ShloMosaic Idealize.ShloMosaic.TcCoe Idealize.SL.Sem
open Idealize.ShloMosaic.ValueIdx
open Cert.KernelIdeal Cert.KernelIdeal.Gen

/-- A stretch of host operations leaves a buffer none of them writes as it was. -/
macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg)

/-- The input array as a tensor. -/
abbrev X (c : Dev nD) : Fin 65536 → Fin 784 → EReal :=
  fun r k => (m ((c : Thread nD τ).loc main_arg0) : S65536x784.Idx → EReal) (ix2 r k)

theorem keep_arg0_0_2 (c : Dev nD) : W2 m ρ c (Proc.devRef .tc main_arg0) = W0 m ρ c (Proc.devRef .tc main_arg0) :=
  calc W2 m ρ c (Proc.devRef .tc main_arg0)
    _ = W1 m ρ c (Proc.devRef .tc main_arg0) := by host_keep hostOps1
    _ = W0 m ρ c (Proc.devRef .tc main_arg0) := (W1_arr m ρ c 0).trans (((dat0 (V0 m ρ) c).arrAt_in 0 rfl _).trans (A_eq0 (V0 m ρ) c 0))

/-- After the first region the running maximum of the input's magnitudes is in place. -/
theorem at1_v0 (c : Dev nD) (y : S1x1.Idx) : (W1 m ρ c (Proc.devRef .tc main_v0) : S1x1.Idx → EReal) y = Net.runMax (X m c) :=
  (congrFun (W1_arr m ρ c 1) y).trans (RegionValue.final0_1 (V0 m ρ) c y)

/-- The input's quantisation step. -/
theorem at2_v4 (c : Dev nD) (y : S1x1.Idx) : (W2 m ρ c (Proc.devRef .tc main_v4) : S1x1.Idx → EReal) y = Net.step (Net.runMax (X m c)) :=
  (HostValue.step1 (W1 m ρ c) y).trans (congrArg Net.step (at1_v0 m ρ c (ix2 0 0)))

/-- The quantised input. -/
theorem at3_v5 (c : Dev nD) (r : Fin 65536) (k : Fin 784) :
    (W3 m ρ c (Proc.devRef .tc main_v5) : S65536x784.Idx → EReal) (ix2 r k) = Net.quantAll (Net.step (Net.runMax (X m c))) (X m c) r k :=
  (congrFun (W3_arr m ρ c 2) (ix2 r k)).trans ((RegionValue.final1_2 (V2 m ρ) c r k).trans
    (congrArg₂ Net.quant (at2_v4 m ρ c (ix2 0 0)) (congrFun (keep_arg0_0_2 m ρ c) (ix2 r k))))

/-! ## Layer 1 -/

/-- Layer 1's weight matrix (output-major), bias, scale and shift vectors as tensors. -/
abbrev Wm1 (c : Dev nD) : Fin 128 → Fin 784 → EReal := fun j k => (m ((c : Thread nD τ).loc main_arg1) : S128x784.Idx → EReal) (ix2 j k)
abbrev bv1 (c : Dev nD) : Fin 128 → EReal := fun j => (m ((c : Thread nD τ).loc main_arg2) : S128.Idx → EReal) (ix1 j)
abbrev gv1 (c : Dev nD) : Fin 128 → EReal := fun j => (m ((c : Thread nD τ).loc main_arg3) : S128.Idx → EReal) (ix1 j)
abbrev bev1 (c : Dev nD) : Fin 128 → EReal := fun j => (m ((c : Thread nD τ).loc main_arg4) : S128.Idx → EReal) (ix1 j)
/-- Layer 1's input, product, normalised product and activated tensors. -/
abbrev xin1 (c : Dev nD) : Fin 65536 → Fin 784 → EReal := Net.quantAll (Net.step (Net.runMax (X m c))) (X m c)
abbrev y1 (c : Dev nD) : Fin 65536 → Fin 128 → EReal := Net.dense (xin1 m c) (Net.signsT (Wm1 m c)) (bv1 m c)
abbrev n1 (c : Dev nD) : Fin 65536 → Fin 128 → EReal :=
  Net.affine (y1 m c) (Net.scaleF (gv1 m c) (Net.colSum (y1 m c)) (Net.colSumSq (y1 m c))) (Net.shiftF (gv1 m c) (bev1 m c) (Net.colSum (y1 m c)) (Net.colSumSq (y1 m c)))
abbrev a1 (c : Dev nD) : Fin 65536 → Fin 128 → EReal := fun r j => Net.relu (Net.quant (Net.step (Net.runMax (n1 m c))) (n1 m c r j))
abbrev h1 (c : Dev nD) : Fin 65536 → Fin 128 → EReal := Net.quantAll (Net.step (Net.runMax (a1 m c))) (a1 m c)
theorem h1_eq (c : Dev nD) : h1 m c = Net.layerF Net.relu (xin1 m c) (Net.signsT (Wm1 m c)) (bv1 m c) (gv1 m c) (bev1 m c) := rfl

theorem keep_arg1_0_3 (c : Dev nD) : W3 m ρ c (Proc.devRef .tc main_arg1) = W0 m ρ c (Proc.devRef .tc main_arg1) :=
  calc W3 m ρ c (Proc.devRef .tc main_arg1)
    _ = W2 m ρ c (Proc.devRef .tc main_arg1) := W3_of_ne m ρ c main_arg1 (by decide)
    _ = W1 m ρ c (Proc.devRef .tc main_arg1) := by host_keep hostOps1
    _ = W0 m ρ c (Proc.devRef .tc main_arg1) := W1_of_ne m ρ c main_arg1 (by decide)

theorem keep_arg2_0_3 (c : Dev nD) : W3 m ρ c (Proc.devRef .tc main_arg2) = W0 m ρ c (Proc.devRef .tc main_arg2) :=
  calc W3 m ρ c (Proc.devRef .tc main_arg2)
    _ = W2 m ρ c (Proc.devRef .tc main_arg2) := W3_of_ne m ρ c main_arg2 (by decide)
    _ = W1 m ρ c (Proc.devRef .tc main_arg2) := by host_keep hostOps1
    _ = W0 m ρ c (Proc.devRef .tc main_arg2) := W1_of_ne m ρ c main_arg2 (by decide)

theorem keep_arg3_0_7 (c : Dev nD) : W7 m ρ c (Proc.devRef .tc main_arg3) = W0 m ρ c (Proc.devRef .tc main_arg3) :=
  calc W7 m ρ c (Proc.devRef .tc main_arg3)
    _ = W6 m ρ c (Proc.devRef .tc main_arg3) := W7_of_ne m ρ c main_arg3 (by decide)
    _ = W5 m ρ c (Proc.devRef .tc main_arg3) := by host_keep hostOps2_2
    _ = W4 m ρ c (Proc.devRef .tc main_arg3) := by host_keep hostOps2_1
    _ = W3 m ρ c (Proc.devRef .tc main_arg3) := by host_keep hostOps2
    _ = W2 m ρ c (Proc.devRef .tc main_arg3) := W3_of_ne m ρ c main_arg3 (by decide)
    _ = W1 m ρ c (Proc.devRef .tc main_arg3) := by host_keep hostOps1
    _ = W0 m ρ c (Proc.devRef .tc main_arg3) := W1_of_ne m ρ c main_arg3 (by decide)

theorem keep_arg4_0_7 (c : Dev nD) : W7 m ρ c (Proc.devRef .tc main_arg4) = W0 m ρ c (Proc.devRef .tc main_arg4) :=
  calc W7 m ρ c (Proc.devRef .tc main_arg4)
    _ = W6 m ρ c (Proc.devRef .tc main_arg4) := W7_of_ne m ρ c main_arg4 (by decide)
    _ = W5 m ρ c (Proc.devRef .tc main_arg4) := by host_keep hostOps2_2
    _ = W4 m ρ c (Proc.devRef .tc main_arg4) := by host_keep hostOps2_1
    _ = W3 m ρ c (Proc.devRef .tc main_arg4) := by host_keep hostOps2
    _ = W2 m ρ c (Proc.devRef .tc main_arg4) := W3_of_ne m ρ c main_arg4 (by decide)
    _ = W1 m ρ c (Proc.devRef .tc main_arg4) := by host_keep hostOps1
    _ = W0 m ρ c (Proc.devRef .tc main_arg4) := W1_of_ne m ρ c main_arg4 (by decide)

theorem keep_v5_3_6 (c : Dev nD) : W6 m ρ c (Proc.devRef .tc main_v5) = W3 m ρ c (Proc.devRef .tc main_v5) :=
  calc W6 m ρ c (Proc.devRef .tc main_v5)
    _ = W5 m ρ c (Proc.devRef .tc main_v5) := by host_keep hostOps2_2
    _ = W4 m ρ c (Proc.devRef .tc main_v5) := by host_keep hostOps2_1
    _ = W3 m ρ c (Proc.devRef .tc main_v5) := by host_keep hostOps2

theorem keep_v12_0_7_8 (c : Dev nD) : W8 m ρ c (Proc.devRef .tc main_v12_0) = W7 m ρ c (Proc.devRef .tc main_v12_0) :=
  calc W8 m ρ c (Proc.devRef .tc main_v12_0)
    _ = W7 m ρ c (Proc.devRef .tc main_v12_0) := by host_keep hostOps3

theorem keep_v29_0_9_10 (c : Dev nD) : W10 m ρ c (Proc.devRef .tc main_v29_0) = W9 m ρ c (Proc.devRef .tc main_v29_0) :=
  calc W10 m ρ c (Proc.devRef .tc main_v29_0)
    _ = W9 m ρ c (Proc.devRef .tc main_v29_0) := by host_keep hostOps4

theorem keep_v34_0_11_12 (c : Dev nD) : W12 m ρ c (Proc.devRef .tc main_v34_0) = W11 m ρ c (Proc.devRef .tc main_v34_0) :=
  calc W12 m ρ c (Proc.devRef .tc main_v34_0)
    _ = W11 m ρ c (Proc.devRef .tc main_v34_0) := by host_keep hostOps5

theorem at6_xin1 (c : Dev nD) (r : Fin 65536) (k : Fin 784) : (W6 m ρ c (Proc.devRef .tc main_v5) : S65536x784.Idx → EReal) (ix2 r k) = xin1 m c r k :=
  (congrFun (keep_v5_3_6 m ρ c) (ix2 r k)).trans (at3_v5 m ρ c r k)
theorem at6_wt1 (c : Dev nD) (k : Fin 784) (j : Fin 128) : (W6 m ρ c (Proc.devRef .tc main_v10) : S784x128.Idx → EReal) (ix2 k j) = Net.signsT (Wm1 m c) k j :=
  (HostValue.signs1 (W3 m ρ c) k j).trans (congrArg Net.sgn (congrFun (keep_arg1_0_3 m ρ c) (ix2 j k)))
theorem at6_brow1 (c : Dev nD) (j : Fin 128) : (W6 m ρ c (Proc.devRef .tc main_v11) : S1x128.Idx → EReal) (ix2 0 j) = bv1 m c j :=
  (HostValue.bias1 (W3 m ρ c) j).trans (congrFun (keep_arg2_0_3 m ρ c) (ix1 j))

theorem at7_lin1 (c : Dev nD) (r : Fin 65536) (j : Fin 128) : (W7 m ρ c (Proc.devRef .tc main_v12_0) : S65536x128.Idx → EReal) (ix2 r j) = y1 m c r j := by
  refine (congrFun (W7_arr m ρ c 3) (ix2 r j)).trans ((RegionValue.final2_3 (V6 m ρ) c r j).trans ?_)
  exact congrFun (congrFun (congr (congr (congrArg Net.dense (funext fun r => funext fun k => at6_xin1 m ρ c r k)) (funext fun k => funext fun j => at6_wt1 m ρ c k j)) (funext fun j => at6_brow1 m ρ c j)) r) j
theorem at7_s1 (c : Dev nD) (j : Fin 128) : (W7 m ρ c (Proc.devRef .tc main_v12_1) : S1x128.Idx → EReal) (ix2 0 j) = Net.colSum (y1 m c) j := by
  refine (congrFun (W7_arr m ρ c 4) (ix2 0 j)).trans ((RegionValue.final2_4 (V6 m ρ) c j).trans ?_)
  exact congrFun (congrArg Net.colSum (congr (congr (congrArg Net.dense (funext fun r => funext fun k => at6_xin1 m ρ c r k)) (funext fun k => funext fun j => at6_wt1 m ρ c k j)) (funext fun j => at6_brow1 m ρ c j))) j
theorem at7_ss1 (c : Dev nD) (j : Fin 128) : (W7 m ρ c (Proc.devRef .tc main_v12_2) : S1x128.Idx → EReal) (ix2 0 j) = Net.colSumSq (y1 m c) j := by
  refine (congrFun (W7_arr m ρ c 5) (ix2 0 j)).trans ((RegionValue.final2_5 (V6 m ρ) c j).trans ?_)
  exact congrFun (congrArg Net.colSumSq (congr (congr (congrArg Net.dense (funext fun r => funext fun k => at6_xin1 m ρ c r k)) (funext fun k => funext fun j => at6_wt1 m ρ c k j)) (funext fun j => at6_brow1 m ρ c j))) j

theorem at8_a1 (c : Dev nD) (j : Fin 128) : (W8 m ρ c (Proc.devRef .tc main_v23) : S1x128.Idx → EReal) (ix2 0 j) = Net.scaleF (gv1 m c) (Net.colSum (y1 m c)) (Net.colSumSq (y1 m c)) j := by
  refine (HostValue.scale1 (W7 m ρ c) j).trans ?_
  exact congrFun (congr (congr (congrArg Net.scaleF (funext fun j => congrFun (keep_arg3_0_7 m ρ c) (ix1 j))) (funext fun j => at7_s1 m ρ c j)) (funext fun j => at7_ss1 m ρ c j)) j
theorem at8_sh1 (c : Dev nD) (j : Fin 128) : (W8 m ρ c (Proc.devRef .tc main_v28) : S1x128.Idx → EReal) (ix2 0 j) = Net.shiftF (gv1 m c) (bev1 m c) (Net.colSum (y1 m c)) (Net.colSumSq (y1 m c)) j := by
  refine (HostValue.shift1 (W7 m ρ c) j).trans ?_
  exact congrFun (congr (congr (congr (congrArg Net.shiftF (funext fun j => congrFun (keep_arg3_0_7 m ρ c) (ix1 j))) (funext fun j => congrFun (keep_arg4_0_7 m ρ c) (ix1 j))) (funext fun j => at7_s1 m ρ c j)) (funext fun j => at7_ss1 m ρ c j)) j
theorem at8_lin1 (c : Dev nD) (r : Fin 65536) (j : Fin 128) : (W8 m ρ c (Proc.devRef .tc main_v12_0) : S65536x128.Idx → EReal) (ix2 r j) = y1 m c r j :=
  (congrFun (keep_v12_0_7_8 m ρ c) (ix2 r j)).trans (at7_lin1 m ρ c r j)

theorem at9_bn1 (c : Dev nD) (r : Fin 65536) (j : Fin 128) : (W9 m ρ c (Proc.devRef .tc main_v29_0) : S65536x128.Idx → EReal) (ix2 r j) = n1 m c r j := by
  refine (congrFun (W9_arr m ρ c 3) (ix2 r j)).trans ((RegionValue.final3_3 (V8 m ρ) c r j).trans ?_)
  exact congrFun (congrFun (congr (congr (congrArg Net.affine (funext fun r => funext fun j => at8_lin1 m ρ c r j)) (funext fun j => at8_a1 m ρ c j)) (funext fun j => at8_sh1 m ρ c j)) r) j
theorem at9_m11 (c : Dev nD) (y : S1x1.Idx) : (W9 m ρ c (Proc.devRef .tc main_v29_1) : S1x1.Idx → EReal) y = Net.runMax (n1 m c) := by
  refine (congrFun (W9_arr m ρ c 4) y).trans ((RegionValue.final3_4 (V8 m ρ) c y).trans ?_)
  exact congrArg Net.runMax (congr (congr (congrArg Net.affine (funext fun r => funext fun j => at8_lin1 m ρ c r j)) (funext fun j => at8_a1 m ρ c j)) (funext fun j => at8_sh1 m ρ c j))
theorem at10_s11 (c : Dev nD) (y : S1x1.Idx) : (W10 m ρ c (Proc.devRef .tc main_v33) : S1x1.Idx → EReal) y = Net.step (Net.runMax (n1 m c)) :=
  (HostValue.step4 (W9 m ρ c) y).trans (congrArg Net.step (at9_m11 m ρ c (ix2 0 0)))
theorem at10_bn1 (c : Dev nD) (r : Fin 65536) (j : Fin 128) : (W10 m ρ c (Proc.devRef .tc main_v29_0) : S65536x128.Idx → EReal) (ix2 r j) = n1 m c r j :=
  (congrFun (keep_v29_0_9_10 m ρ c) (ix2 r j)).trans (at9_bn1 m ρ c r j)

theorem at11_act1 (c : Dev nD) (r : Fin 65536) (j : Fin 128) : (W11 m ρ c (Proc.devRef .tc main_v34_0) : S65536x128.Idx → EReal) (ix2 r j) = a1 m c r j := by
  refine (congrFun (W11_arr m ρ c 2) (ix2 r j)).trans ((RegionValue.final4_2 (V10 m ρ) c r j).trans ?_)
  exact congrArg Net.relu (congrArg₂ Net.quant (at10_s11 m ρ c (ix2 0 0)) (at10_bn1 m ρ c r j))
theorem at11_m21 (c : Dev nD) (y : S1x1.Idx) : (W11 m ρ c (Proc.devRef .tc main_v34_1) : S1x1.Idx → EReal) y = Net.runMax (a1 m c) := by
  refine (congrFun (W11_arr m ρ c 3) y).trans ((RegionValue.final4_3 (V10 m ρ) c y).trans ?_)
  exact congrArg Net.runMax (funext fun r => funext fun j => congrArg Net.relu (congrArg₂ Net.quant (at10_s11 m ρ c (ix2 0 0)) (at10_bn1 m ρ c r j)))
theorem at12_s21 (c : Dev nD) (y : S1x1.Idx) : (W12 m ρ c (Proc.devRef .tc main_v38) : S1x1.Idx → EReal) y = Net.step (Net.runMax (a1 m c)) :=
  (HostValue.step5 (W11 m ρ c) y).trans (congrArg Net.step (at11_m21 m ρ c (ix2 0 0)))
theorem at12_act1 (c : Dev nD) (r : Fin 65536) (j : Fin 128) : (W12 m ρ c (Proc.devRef .tc main_v34_0) : S65536x128.Idx → EReal) (ix2 r j) = a1 m c r j :=
  (congrFun (keep_v34_0_11_12 m ρ c) (ix2 r j)).trans (at11_act1 m ρ c r j)
theorem at13_h1 (c : Dev nD) (r : Fin 65536) (j : Fin 128) : (W13 m ρ c (Proc.devRef .tc main_v39) : S65536x128.Idx → EReal) (ix2 r j) = h1 m c r j :=
  (congrFun (W13_arr m ρ c 2) (ix2 r j)).trans ((RegionValue.final5_2 (V12 m ρ) c r j).trans
    (congrArg₂ Net.quant (at12_s21 m ρ c (ix2 0 0)) (at12_act1 m ρ c r j)))

/-! ## Layer 2 -/

/-- Layer 2's weight matrix (output-major), bias, scale and shift vectors as tensors. -/
abbrev Wm2 (c : Dev nD) : Fin 128 → Fin 128 → EReal := fun j k => (m ((c : Thread nD τ).loc main_arg5) : S128x128.Idx → EReal) (ix2 j k)
abbrev bv2 (c : Dev nD) : Fin 128 → EReal := fun j => (m ((c : Thread nD τ).loc main_arg6) : S128.Idx → EReal) (ix1 j)
abbrev gv2 (c : Dev nD) : Fin 128 → EReal := fun j => (m ((c : Thread nD τ).loc main_arg7) : S128.Idx → EReal) (ix1 j)
abbrev bev2 (c : Dev nD) : Fin 128 → EReal := fun j => (m ((c : Thread nD τ).loc main_arg8) : S128.Idx → EReal) (ix1 j)
/-- Layer 2's input, product, normalised product and activated tensors. -/
abbrev xin2 (c : Dev nD) : Fin 65536 → Fin 128 → EReal := h1 m c
abbrev y2 (c : Dev nD) : Fin 65536 → Fin 128 → EReal := Net.dense (xin2 m c) (Net.signsT (Wm2 m c)) (bv2 m c)
abbrev n2 (c : Dev nD) : Fin 65536 → Fin 128 → EReal :=
  Net.affine (y2 m c) (Net.scaleF (gv2 m c) (Net.colSum (y2 m c)) (Net.colSumSq (y2 m c))) (Net.shiftF (gv2 m c) (bev2 m c) (Net.colSum (y2 m c)) (Net.colSumSq (y2 m c)))
abbrev a2 (c : Dev nD) : Fin 65536 → Fin 128 → EReal := fun r j => Net.relu (Net.quant (Net.step (Net.runMax (n2 m c))) (n2 m c r j))
abbrev h2 (c : Dev nD) : Fin 65536 → Fin 128 → EReal := Net.quantAll (Net.step (Net.runMax (a2 m c))) (a2 m c)
theorem h2_eq (c : Dev nD) : h2 m c = Net.layerF Net.relu (xin2 m c) (Net.signsT (Wm2 m c)) (bv2 m c) (gv2 m c) (bev2 m c) := rfl

theorem keep_arg5_0_13 (c : Dev nD) : W13 m ρ c (Proc.devRef .tc main_arg5) = W0 m ρ c (Proc.devRef .tc main_arg5) :=
  calc W13 m ρ c (Proc.devRef .tc main_arg5)
    _ = W12 m ρ c (Proc.devRef .tc main_arg5) := W13_of_ne m ρ c main_arg5 (by decide)
    _ = W11 m ρ c (Proc.devRef .tc main_arg5) := by host_keep hostOps5
    _ = W10 m ρ c (Proc.devRef .tc main_arg5) := W11_of_ne m ρ c main_arg5 (by decide)
    _ = W9 m ρ c (Proc.devRef .tc main_arg5) := by host_keep hostOps4
    _ = W8 m ρ c (Proc.devRef .tc main_arg5) := W9_of_ne m ρ c main_arg5 (by decide)
    _ = W7 m ρ c (Proc.devRef .tc main_arg5) := by host_keep hostOps3
    _ = W6 m ρ c (Proc.devRef .tc main_arg5) := W7_of_ne m ρ c main_arg5 (by decide)
    _ = W5 m ρ c (Proc.devRef .tc main_arg5) := by host_keep hostOps2_2
    _ = W4 m ρ c (Proc.devRef .tc main_arg5) := by host_keep hostOps2_1
    _ = W3 m ρ c (Proc.devRef .tc main_arg5) := by host_keep hostOps2
    _ = W2 m ρ c (Proc.devRef .tc main_arg5) := W3_of_ne m ρ c main_arg5 (by decide)
    _ = W1 m ρ c (Proc.devRef .tc main_arg5) := by host_keep hostOps1
    _ = W0 m ρ c (Proc.devRef .tc main_arg5) := W1_of_ne m ρ c main_arg5 (by decide)

theorem keep_arg6_0_13 (c : Dev nD) : W13 m ρ c (Proc.devRef .tc main_arg6) = W0 m ρ c (Proc.devRef .tc main_arg6) :=
  calc W13 m ρ c (Proc.devRef .tc main_arg6)
    _ = W12 m ρ c (Proc.devRef .tc main_arg6) := W13_of_ne m ρ c main_arg6 (by decide)
    _ = W11 m ρ c (Proc.devRef .tc main_arg6) := by host_keep hostOps5
    _ = W10 m ρ c (Proc.devRef .tc main_arg6) := W11_of_ne m ρ c main_arg6 (by decide)
    _ = W9 m ρ c (Proc.devRef .tc main_arg6) := by host_keep hostOps4
    _ = W8 m ρ c (Proc.devRef .tc main_arg6) := W9_of_ne m ρ c main_arg6 (by decide)
    _ = W7 m ρ c (Proc.devRef .tc main_arg6) := by host_keep hostOps3
    _ = W6 m ρ c (Proc.devRef .tc main_arg6) := W7_of_ne m ρ c main_arg6 (by decide)
    _ = W5 m ρ c (Proc.devRef .tc main_arg6) := by host_keep hostOps2_2
    _ = W4 m ρ c (Proc.devRef .tc main_arg6) := by host_keep hostOps2_1
    _ = W3 m ρ c (Proc.devRef .tc main_arg6) := by host_keep hostOps2
    _ = W2 m ρ c (Proc.devRef .tc main_arg6) := W3_of_ne m ρ c main_arg6 (by decide)
    _ = W1 m ρ c (Proc.devRef .tc main_arg6) := by host_keep hostOps1
    _ = W0 m ρ c (Proc.devRef .tc main_arg6) := W1_of_ne m ρ c main_arg6 (by decide)

theorem keep_arg7_0_17 (c : Dev nD) : W17 m ρ c (Proc.devRef .tc main_arg7) = W0 m ρ c (Proc.devRef .tc main_arg7) :=
  calc W17 m ρ c (Proc.devRef .tc main_arg7)
    _ = W16 m ρ c (Proc.devRef .tc main_arg7) := W17_of_ne m ρ c main_arg7 (by decide)
    _ = W15 m ρ c (Proc.devRef .tc main_arg7) := by host_keep hostOps6_2
    _ = W14 m ρ c (Proc.devRef .tc main_arg7) := by host_keep hostOps6_1
    _ = W13 m ρ c (Proc.devRef .tc main_arg7) := by host_keep hostOps6
    _ = W12 m ρ c (Proc.devRef .tc main_arg7) := W13_of_ne m ρ c main_arg7 (by decide)
    _ = W11 m ρ c (Proc.devRef .tc main_arg7) := by host_keep hostOps5
    _ = W10 m ρ c (Proc.devRef .tc main_arg7) := W11_of_ne m ρ c main_arg7 (by decide)
    _ = W9 m ρ c (Proc.devRef .tc main_arg7) := by host_keep hostOps4
    _ = W8 m ρ c (Proc.devRef .tc main_arg7) := W9_of_ne m ρ c main_arg7 (by decide)
    _ = W7 m ρ c (Proc.devRef .tc main_arg7) := by host_keep hostOps3
    _ = W6 m ρ c (Proc.devRef .tc main_arg7) := W7_of_ne m ρ c main_arg7 (by decide)
    _ = W5 m ρ c (Proc.devRef .tc main_arg7) := by host_keep hostOps2_2
    _ = W4 m ρ c (Proc.devRef .tc main_arg7) := by host_keep hostOps2_1
    _ = W3 m ρ c (Proc.devRef .tc main_arg7) := by host_keep hostOps2
    _ = W2 m ρ c (Proc.devRef .tc main_arg7) := W3_of_ne m ρ c main_arg7 (by decide)
    _ = W1 m ρ c (Proc.devRef .tc main_arg7) := by host_keep hostOps1
    _ = W0 m ρ c (Proc.devRef .tc main_arg7) := W1_of_ne m ρ c main_arg7 (by decide)

theorem keep_arg8_0_17 (c : Dev nD) : W17 m ρ c (Proc.devRef .tc main_arg8) = W0 m ρ c (Proc.devRef .tc main_arg8) :=
  calc W17 m ρ c (Proc.devRef .tc main_arg8)
    _ = W16 m ρ c (Proc.devRef .tc main_arg8) := W17_of_ne m ρ c main_arg8 (by decide)
    _ = W15 m ρ c (Proc.devRef .tc main_arg8) := by host_keep hostOps6_2
    _ = W14 m ρ c (Proc.devRef .tc main_arg8) := by host_keep hostOps6_1
    _ = W13 m ρ c (Proc.devRef .tc main_arg8) := by host_keep hostOps6
    _ = W12 m ρ c (Proc.devRef .tc main_arg8) := W13_of_ne m ρ c main_arg8 (by decide)
    _ = W11 m ρ c (Proc.devRef .tc main_arg8) := by host_keep hostOps5
    _ = W10 m ρ c (Proc.devRef .tc main_arg8) := W11_of_ne m ρ c main_arg8 (by decide)
    _ = W9 m ρ c (Proc.devRef .tc main_arg8) := by host_keep hostOps4
    _ = W8 m ρ c (Proc.devRef .tc main_arg8) := W9_of_ne m ρ c main_arg8 (by decide)
    _ = W7 m ρ c (Proc.devRef .tc main_arg8) := by host_keep hostOps3
    _ = W6 m ρ c (Proc.devRef .tc main_arg8) := W7_of_ne m ρ c main_arg8 (by decide)
    _ = W5 m ρ c (Proc.devRef .tc main_arg8) := by host_keep hostOps2_2
    _ = W4 m ρ c (Proc.devRef .tc main_arg8) := by host_keep hostOps2_1
    _ = W3 m ρ c (Proc.devRef .tc main_arg8) := by host_keep hostOps2
    _ = W2 m ρ c (Proc.devRef .tc main_arg8) := W3_of_ne m ρ c main_arg8 (by decide)
    _ = W1 m ρ c (Proc.devRef .tc main_arg8) := by host_keep hostOps1
    _ = W0 m ρ c (Proc.devRef .tc main_arg8) := W1_of_ne m ρ c main_arg8 (by decide)

theorem keep_v39_13_16 (c : Dev nD) : W16 m ρ c (Proc.devRef .tc main_v39) = W13 m ρ c (Proc.devRef .tc main_v39) :=
  calc W16 m ρ c (Proc.devRef .tc main_v39)
    _ = W15 m ρ c (Proc.devRef .tc main_v39) := by host_keep hostOps6_2
    _ = W14 m ρ c (Proc.devRef .tc main_v39) := by host_keep hostOps6_1
    _ = W13 m ρ c (Proc.devRef .tc main_v39) := by host_keep hostOps6

theorem keep_v46_0_17_18 (c : Dev nD) : W18 m ρ c (Proc.devRef .tc main_v46_0) = W17 m ρ c (Proc.devRef .tc main_v46_0) :=
  calc W18 m ρ c (Proc.devRef .tc main_v46_0)
    _ = W17 m ρ c (Proc.devRef .tc main_v46_0) := by host_keep hostOps7

theorem keep_v63_0_19_20 (c : Dev nD) : W20 m ρ c (Proc.devRef .tc main_v63_0) = W19 m ρ c (Proc.devRef .tc main_v63_0) :=
  calc W20 m ρ c (Proc.devRef .tc main_v63_0)
    _ = W19 m ρ c (Proc.devRef .tc main_v63_0) := by host_keep hostOps8

theorem keep_v68_0_21_22 (c : Dev nD) : W22 m ρ c (Proc.devRef .tc main_v68_0) = W21 m ρ c (Proc.devRef .tc main_v68_0) :=
  calc W22 m ρ c (Proc.devRef .tc main_v68_0)
    _ = W21 m ρ c (Proc.devRef .tc main_v68_0) := by host_keep hostOps9

theorem at16_xin2 (c : Dev nD) (r : Fin 65536) (k : Fin 128) : (W16 m ρ c (Proc.devRef .tc main_v39) : S65536x128.Idx → EReal) (ix2 r k) = xin2 m c r k :=
  (congrFun (keep_v39_13_16 m ρ c) (ix2 r k)).trans (at13_h1 m ρ c r k)
theorem at16_wt2 (c : Dev nD) (k : Fin 128) (j : Fin 128) : (W16 m ρ c (Proc.devRef .tc main_v44) : S128x128.Idx → EReal) (ix2 k j) = Net.signsT (Wm2 m c) k j :=
  (HostValue.signs2 (W13 m ρ c) k j).trans (congrArg Net.sgn (congrFun (keep_arg5_0_13 m ρ c) (ix2 j k)))
theorem at16_brow2 (c : Dev nD) (j : Fin 128) : (W16 m ρ c (Proc.devRef .tc main_v45) : S1x128.Idx → EReal) (ix2 0 j) = bv2 m c j :=
  (HostValue.bias2 (W13 m ρ c) j).trans (congrFun (keep_arg6_0_13 m ρ c) (ix1 j))

theorem at17_lin2 (c : Dev nD) (r : Fin 65536) (j : Fin 128) : (W17 m ρ c (Proc.devRef .tc main_v46_0) : S65536x128.Idx → EReal) (ix2 r j) = y2 m c r j := by
  refine (congrFun (W17_arr m ρ c 3) (ix2 r j)).trans ((RegionValue.final6_3 (V16 m ρ) c r j).trans ?_)
  exact congrFun (congrFun (congr (congr (congrArg Net.dense (funext fun r => funext fun k => at16_xin2 m ρ c r k)) (funext fun k => funext fun j => at16_wt2 m ρ c k j)) (funext fun j => at16_brow2 m ρ c j)) r) j
theorem at17_s2 (c : Dev nD) (j : Fin 128) : (W17 m ρ c (Proc.devRef .tc main_v46_1) : S1x128.Idx → EReal) (ix2 0 j) = Net.colSum (y2 m c) j := by
  refine (congrFun (W17_arr m ρ c 4) (ix2 0 j)).trans ((RegionValue.final6_4 (V16 m ρ) c j).trans ?_)
  exact congrFun (congrArg Net.colSum (congr (congr (congrArg Net.dense (funext fun r => funext fun k => at16_xin2 m ρ c r k)) (funext fun k => funext fun j => at16_wt2 m ρ c k j)) (funext fun j => at16_brow2 m ρ c j))) j
theorem at17_ss2 (c : Dev nD) (j : Fin 128) : (W17 m ρ c (Proc.devRef .tc main_v46_2) : S1x128.Idx → EReal) (ix2 0 j) = Net.colSumSq (y2 m c) j := by
  refine (congrFun (W17_arr m ρ c 5) (ix2 0 j)).trans ((RegionValue.final6_5 (V16 m ρ) c j).trans ?_)
  exact congrFun (congrArg Net.colSumSq (congr (congr (congrArg Net.dense (funext fun r => funext fun k => at16_xin2 m ρ c r k)) (funext fun k => funext fun j => at16_wt2 m ρ c k j)) (funext fun j => at16_brow2 m ρ c j))) j

theorem at18_a2 (c : Dev nD) (j : Fin 128) : (W18 m ρ c (Proc.devRef .tc main_v57) : S1x128.Idx → EReal) (ix2 0 j) = Net.scaleF (gv2 m c) (Net.colSum (y2 m c)) (Net.colSumSq (y2 m c)) j := by
  refine (HostValue.scale2 (W17 m ρ c) j).trans ?_
  exact congrFun (congr (congr (congrArg Net.scaleF (funext fun j => congrFun (keep_arg7_0_17 m ρ c) (ix1 j))) (funext fun j => at17_s2 m ρ c j)) (funext fun j => at17_ss2 m ρ c j)) j
theorem at18_sh2 (c : Dev nD) (j : Fin 128) : (W18 m ρ c (Proc.devRef .tc main_v62) : S1x128.Idx → EReal) (ix2 0 j) = Net.shiftF (gv2 m c) (bev2 m c) (Net.colSum (y2 m c)) (Net.colSumSq (y2 m c)) j := by
  refine (HostValue.shift2 (W17 m ρ c) j).trans ?_
  exact congrFun (congr (congr (congr (congrArg Net.shiftF (funext fun j => congrFun (keep_arg7_0_17 m ρ c) (ix1 j))) (funext fun j => congrFun (keep_arg8_0_17 m ρ c) (ix1 j))) (funext fun j => at17_s2 m ρ c j)) (funext fun j => at17_ss2 m ρ c j)) j
theorem at18_lin2 (c : Dev nD) (r : Fin 65536) (j : Fin 128) : (W18 m ρ c (Proc.devRef .tc main_v46_0) : S65536x128.Idx → EReal) (ix2 r j) = y2 m c r j :=
  (congrFun (keep_v46_0_17_18 m ρ c) (ix2 r j)).trans (at17_lin2 m ρ c r j)

theorem at19_bn2 (c : Dev nD) (r : Fin 65536) (j : Fin 128) : (W19 m ρ c (Proc.devRef .tc main_v63_0) : S65536x128.Idx → EReal) (ix2 r j) = n2 m c r j := by
  refine (congrFun (W19_arr m ρ c 3) (ix2 r j)).trans ((RegionValue.final7_3 (V18 m ρ) c r j).trans ?_)
  exact congrFun (congrFun (congr (congr (congrArg Net.affine (funext fun r => funext fun j => at18_lin2 m ρ c r j)) (funext fun j => at18_a2 m ρ c j)) (funext fun j => at18_sh2 m ρ c j)) r) j
theorem at19_m12 (c : Dev nD) (y : S1x1.Idx) : (W19 m ρ c (Proc.devRef .tc main_v63_1) : S1x1.Idx → EReal) y = Net.runMax (n2 m c) := by
  refine (congrFun (W19_arr m ρ c 4) y).trans ((RegionValue.final7_4 (V18 m ρ) c y).trans ?_)
  exact congrArg Net.runMax (congr (congr (congrArg Net.affine (funext fun r => funext fun j => at18_lin2 m ρ c r j)) (funext fun j => at18_a2 m ρ c j)) (funext fun j => at18_sh2 m ρ c j))
theorem at20_s12 (c : Dev nD) (y : S1x1.Idx) : (W20 m ρ c (Proc.devRef .tc main_v67) : S1x1.Idx → EReal) y = Net.step (Net.runMax (n2 m c)) :=
  (HostValue.step8 (W19 m ρ c) y).trans (congrArg Net.step (at19_m12 m ρ c (ix2 0 0)))
theorem at20_bn2 (c : Dev nD) (r : Fin 65536) (j : Fin 128) : (W20 m ρ c (Proc.devRef .tc main_v63_0) : S65536x128.Idx → EReal) (ix2 r j) = n2 m c r j :=
  (congrFun (keep_v63_0_19_20 m ρ c) (ix2 r j)).trans (at19_bn2 m ρ c r j)

theorem at21_act2 (c : Dev nD) (r : Fin 65536) (j : Fin 128) : (W21 m ρ c (Proc.devRef .tc main_v68_0) : S65536x128.Idx → EReal) (ix2 r j) = a2 m c r j := by
  refine (congrFun (W21_arr m ρ c 2) (ix2 r j)).trans ((RegionValue.final8_2 (V20 m ρ) c r j).trans ?_)
  exact congrArg Net.relu (congrArg₂ Net.quant (at20_s12 m ρ c (ix2 0 0)) (at20_bn2 m ρ c r j))
theorem at21_m22 (c : Dev nD) (y : S1x1.Idx) : (W21 m ρ c (Proc.devRef .tc main_v68_1) : S1x1.Idx → EReal) y = Net.runMax (a2 m c) := by
  refine (congrFun (W21_arr m ρ c 3) y).trans ((RegionValue.final8_3 (V20 m ρ) c y).trans ?_)
  exact congrArg Net.runMax (funext fun r => funext fun j => congrArg Net.relu (congrArg₂ Net.quant (at20_s12 m ρ c (ix2 0 0)) (at20_bn2 m ρ c r j)))
theorem at22_s22 (c : Dev nD) (y : S1x1.Idx) : (W22 m ρ c (Proc.devRef .tc main_v72) : S1x1.Idx → EReal) y = Net.step (Net.runMax (a2 m c)) :=
  (HostValue.step9 (W21 m ρ c) y).trans (congrArg Net.step (at21_m22 m ρ c (ix2 0 0)))
theorem at22_act2 (c : Dev nD) (r : Fin 65536) (j : Fin 128) : (W22 m ρ c (Proc.devRef .tc main_v68_0) : S65536x128.Idx → EReal) (ix2 r j) = a2 m c r j :=
  (congrFun (keep_v68_0_21_22 m ρ c) (ix2 r j)).trans (at21_act2 m ρ c r j)
theorem at23_h2 (c : Dev nD) (r : Fin 65536) (j : Fin 128) : (W23 m ρ c (Proc.devRef .tc main_v73) : S65536x128.Idx → EReal) (ix2 r j) = h2 m c r j :=
  (congrFun (W23_arr m ρ c 2) (ix2 r j)).trans ((RegionValue.final9_2 (V22 m ρ) c r j).trans
    (congrArg₂ Net.quant (at22_s22 m ρ c (ix2 0 0)) (at22_act2 m ρ c r j)))

/-! ## Layer 3 -/

/-- Layer 3's weight matrix (output-major), bias, scale and shift vectors as tensors. -/
abbrev Wm3 (c : Dev nD) : Fin 10 → Fin 128 → EReal := fun j k => (m ((c : Thread nD τ).loc main_arg9) : S10x128.Idx → EReal) (ix2 j k)
abbrev bv3 (c : Dev nD) : Fin 10 → EReal := fun j => (m ((c : Thread nD τ).loc main_arg10) : S10.Idx → EReal) (ix1 j)
abbrev gv3 (c : Dev nD) : Fin 10 → EReal := fun j => (m ((c : Thread nD τ).loc main_arg11) : S10.Idx → EReal) (ix1 j)
abbrev bev3 (c : Dev nD) : Fin 10 → EReal := fun j => (m ((c : Thread nD τ).loc main_arg12) : S10.Idx → EReal) (ix1 j)
/-- Layer 3's input, product, normalised product and activated tensors. -/
abbrev xin3 (c : Dev nD) : Fin 65536 → Fin 128 → EReal := h2 m c
abbrev y3 (c : Dev nD) : Fin 65536 → Fin 10 → EReal := Net.dense (xin3 m c) (Net.signsT (Wm3 m c)) (bv3 m c)
abbrev n3 (c : Dev nD) : Fin 65536 → Fin 10 → EReal :=
  Net.affine (y3 m c) (Net.scaleF (gv3 m c) (Net.colSum (y3 m c)) (Net.colSumSq (y3 m c))) (Net.shiftF (gv3 m c) (bev3 m c) (Net.colSum (y3 m c)) (Net.colSumSq (y3 m c)))
abbrev a3 (c : Dev nD) : Fin 65536 → Fin 10 → EReal := fun r j => Ideal.logistic (Net.quant (Net.step (Net.runMax (n3 m c))) (n3 m c r j))
abbrev h3 (c : Dev nD) : Fin 65536 → Fin 10 → EReal := Net.quantAll (Net.step (Net.runMax (a3 m c))) (a3 m c)
theorem h3_eq (c : Dev nD) : h3 m c = Net.layerF Ideal.logistic (xin3 m c) (Net.signsT (Wm3 m c)) (bv3 m c) (gv3 m c) (bev3 m c) := rfl

theorem keep_arg9_0_23 (c : Dev nD) : W23 m ρ c (Proc.devRef .tc main_arg9) = W0 m ρ c (Proc.devRef .tc main_arg9) :=
  calc W23 m ρ c (Proc.devRef .tc main_arg9)
    _ = W22 m ρ c (Proc.devRef .tc main_arg9) := W23_of_ne m ρ c main_arg9 (by decide)
    _ = W21 m ρ c (Proc.devRef .tc main_arg9) := by host_keep hostOps9
    _ = W20 m ρ c (Proc.devRef .tc main_arg9) := W21_of_ne m ρ c main_arg9 (by decide)
    _ = W19 m ρ c (Proc.devRef .tc main_arg9) := by host_keep hostOps8
    _ = W18 m ρ c (Proc.devRef .tc main_arg9) := W19_of_ne m ρ c main_arg9 (by decide)
    _ = W17 m ρ c (Proc.devRef .tc main_arg9) := by host_keep hostOps7
    _ = W16 m ρ c (Proc.devRef .tc main_arg9) := W17_of_ne m ρ c main_arg9 (by decide)
    _ = W15 m ρ c (Proc.devRef .tc main_arg9) := by host_keep hostOps6_2
    _ = W14 m ρ c (Proc.devRef .tc main_arg9) := by host_keep hostOps6_1
    _ = W13 m ρ c (Proc.devRef .tc main_arg9) := by host_keep hostOps6
    _ = W12 m ρ c (Proc.devRef .tc main_arg9) := W13_of_ne m ρ c main_arg9 (by decide)
    _ = W11 m ρ c (Proc.devRef .tc main_arg9) := by host_keep hostOps5
    _ = W10 m ρ c (Proc.devRef .tc main_arg9) := W11_of_ne m ρ c main_arg9 (by decide)
    _ = W9 m ρ c (Proc.devRef .tc main_arg9) := by host_keep hostOps4
    _ = W8 m ρ c (Proc.devRef .tc main_arg9) := W9_of_ne m ρ c main_arg9 (by decide)
    _ = W7 m ρ c (Proc.devRef .tc main_arg9) := by host_keep hostOps3
    _ = W6 m ρ c (Proc.devRef .tc main_arg9) := W7_of_ne m ρ c main_arg9 (by decide)
    _ = W5 m ρ c (Proc.devRef .tc main_arg9) := by host_keep hostOps2_2
    _ = W4 m ρ c (Proc.devRef .tc main_arg9) := by host_keep hostOps2_1
    _ = W3 m ρ c (Proc.devRef .tc main_arg9) := by host_keep hostOps2
    _ = W2 m ρ c (Proc.devRef .tc main_arg9) := W3_of_ne m ρ c main_arg9 (by decide)
    _ = W1 m ρ c (Proc.devRef .tc main_arg9) := by host_keep hostOps1
    _ = W0 m ρ c (Proc.devRef .tc main_arg9) := W1_of_ne m ρ c main_arg9 (by decide)

theorem keep_arg10_0_23 (c : Dev nD) : W23 m ρ c (Proc.devRef .tc main_arg10) = W0 m ρ c (Proc.devRef .tc main_arg10) :=
  calc W23 m ρ c (Proc.devRef .tc main_arg10)
    _ = W22 m ρ c (Proc.devRef .tc main_arg10) := W23_of_ne m ρ c main_arg10 (by decide)
    _ = W21 m ρ c (Proc.devRef .tc main_arg10) := by host_keep hostOps9
    _ = W20 m ρ c (Proc.devRef .tc main_arg10) := W21_of_ne m ρ c main_arg10 (by decide)
    _ = W19 m ρ c (Proc.devRef .tc main_arg10) := by host_keep hostOps8
    _ = W18 m ρ c (Proc.devRef .tc main_arg10) := W19_of_ne m ρ c main_arg10 (by decide)
    _ = W17 m ρ c (Proc.devRef .tc main_arg10) := by host_keep hostOps7
    _ = W16 m ρ c (Proc.devRef .tc main_arg10) := W17_of_ne m ρ c main_arg10 (by decide)
    _ = W15 m ρ c (Proc.devRef .tc main_arg10) := by host_keep hostOps6_2
    _ = W14 m ρ c (Proc.devRef .tc main_arg10) := by host_keep hostOps6_1
    _ = W13 m ρ c (Proc.devRef .tc main_arg10) := by host_keep hostOps6
    _ = W12 m ρ c (Proc.devRef .tc main_arg10) := W13_of_ne m ρ c main_arg10 (by decide)
    _ = W11 m ρ c (Proc.devRef .tc main_arg10) := by host_keep hostOps5
    _ = W10 m ρ c (Proc.devRef .tc main_arg10) := W11_of_ne m ρ c main_arg10 (by decide)
    _ = W9 m ρ c (Proc.devRef .tc main_arg10) := by host_keep hostOps4
    _ = W8 m ρ c (Proc.devRef .tc main_arg10) := W9_of_ne m ρ c main_arg10 (by decide)
    _ = W7 m ρ c (Proc.devRef .tc main_arg10) := by host_keep hostOps3
    _ = W6 m ρ c (Proc.devRef .tc main_arg10) := W7_of_ne m ρ c main_arg10 (by decide)
    _ = W5 m ρ c (Proc.devRef .tc main_arg10) := by host_keep hostOps2_2
    _ = W4 m ρ c (Proc.devRef .tc main_arg10) := by host_keep hostOps2_1
    _ = W3 m ρ c (Proc.devRef .tc main_arg10) := by host_keep hostOps2
    _ = W2 m ρ c (Proc.devRef .tc main_arg10) := W3_of_ne m ρ c main_arg10 (by decide)
    _ = W1 m ρ c (Proc.devRef .tc main_arg10) := by host_keep hostOps1
    _ = W0 m ρ c (Proc.devRef .tc main_arg10) := W1_of_ne m ρ c main_arg10 (by decide)

theorem keep_arg11_0_27 (c : Dev nD) : W27 m ρ c (Proc.devRef .tc main_arg11) = W0 m ρ c (Proc.devRef .tc main_arg11) :=
  calc W27 m ρ c (Proc.devRef .tc main_arg11)
    _ = W26 m ρ c (Proc.devRef .tc main_arg11) := W27_of_ne m ρ c main_arg11 (by decide)
    _ = W25 m ρ c (Proc.devRef .tc main_arg11) := by host_keep hostOps10_2
    _ = W24 m ρ c (Proc.devRef .tc main_arg11) := by host_keep hostOps10_1
    _ = W23 m ρ c (Proc.devRef .tc main_arg11) := by host_keep hostOps10
    _ = W22 m ρ c (Proc.devRef .tc main_arg11) := W23_of_ne m ρ c main_arg11 (by decide)
    _ = W21 m ρ c (Proc.devRef .tc main_arg11) := by host_keep hostOps9
    _ = W20 m ρ c (Proc.devRef .tc main_arg11) := W21_of_ne m ρ c main_arg11 (by decide)
    _ = W19 m ρ c (Proc.devRef .tc main_arg11) := by host_keep hostOps8
    _ = W18 m ρ c (Proc.devRef .tc main_arg11) := W19_of_ne m ρ c main_arg11 (by decide)
    _ = W17 m ρ c (Proc.devRef .tc main_arg11) := by host_keep hostOps7
    _ = W16 m ρ c (Proc.devRef .tc main_arg11) := W17_of_ne m ρ c main_arg11 (by decide)
    _ = W15 m ρ c (Proc.devRef .tc main_arg11) := by host_keep hostOps6_2
    _ = W14 m ρ c (Proc.devRef .tc main_arg11) := by host_keep hostOps6_1
    _ = W13 m ρ c (Proc.devRef .tc main_arg11) := by host_keep hostOps6
    _ = W12 m ρ c (Proc.devRef .tc main_arg11) := W13_of_ne m ρ c main_arg11 (by decide)
    _ = W11 m ρ c (Proc.devRef .tc main_arg11) := by host_keep hostOps5
    _ = W10 m ρ c (Proc.devRef .tc main_arg11) := W11_of_ne m ρ c main_arg11 (by decide)
    _ = W9 m ρ c (Proc.devRef .tc main_arg11) := by host_keep hostOps4
    _ = W8 m ρ c (Proc.devRef .tc main_arg11) := W9_of_ne m ρ c main_arg11 (by decide)
    _ = W7 m ρ c (Proc.devRef .tc main_arg11) := by host_keep hostOps3
    _ = W6 m ρ c (Proc.devRef .tc main_arg11) := W7_of_ne m ρ c main_arg11 (by decide)
    _ = W5 m ρ c (Proc.devRef .tc main_arg11) := by host_keep hostOps2_2
    _ = W4 m ρ c (Proc.devRef .tc main_arg11) := by host_keep hostOps2_1
    _ = W3 m ρ c (Proc.devRef .tc main_arg11) := by host_keep hostOps2
    _ = W2 m ρ c (Proc.devRef .tc main_arg11) := W3_of_ne m ρ c main_arg11 (by decide)
    _ = W1 m ρ c (Proc.devRef .tc main_arg11) := by host_keep hostOps1
    _ = W0 m ρ c (Proc.devRef .tc main_arg11) := W1_of_ne m ρ c main_arg11 (by decide)

theorem keep_arg12_0_27 (c : Dev nD) : W27 m ρ c (Proc.devRef .tc main_arg12) = W0 m ρ c (Proc.devRef .tc main_arg12) :=
  calc W27 m ρ c (Proc.devRef .tc main_arg12)
    _ = W26 m ρ c (Proc.devRef .tc main_arg12) := W27_of_ne m ρ c main_arg12 (by decide)
    _ = W25 m ρ c (Proc.devRef .tc main_arg12) := by host_keep hostOps10_2
    _ = W24 m ρ c (Proc.devRef .tc main_arg12) := by host_keep hostOps10_1
    _ = W23 m ρ c (Proc.devRef .tc main_arg12) := by host_keep hostOps10
    _ = W22 m ρ c (Proc.devRef .tc main_arg12) := W23_of_ne m ρ c main_arg12 (by decide)
    _ = W21 m ρ c (Proc.devRef .tc main_arg12) := by host_keep hostOps9
    _ = W20 m ρ c (Proc.devRef .tc main_arg12) := W21_of_ne m ρ c main_arg12 (by decide)
    _ = W19 m ρ c (Proc.devRef .tc main_arg12) := by host_keep hostOps8
    _ = W18 m ρ c (Proc.devRef .tc main_arg12) := W19_of_ne m ρ c main_arg12 (by decide)
    _ = W17 m ρ c (Proc.devRef .tc main_arg12) := by host_keep hostOps7
    _ = W16 m ρ c (Proc.devRef .tc main_arg12) := W17_of_ne m ρ c main_arg12 (by decide)
    _ = W15 m ρ c (Proc.devRef .tc main_arg12) := by host_keep hostOps6_2
    _ = W14 m ρ c (Proc.devRef .tc main_arg12) := by host_keep hostOps6_1
    _ = W13 m ρ c (Proc.devRef .tc main_arg12) := by host_keep hostOps6
    _ = W12 m ρ c (Proc.devRef .tc main_arg12) := W13_of_ne m ρ c main_arg12 (by decide)
    _ = W11 m ρ c (Proc.devRef .tc main_arg12) := by host_keep hostOps5
    _ = W10 m ρ c (Proc.devRef .tc main_arg12) := W11_of_ne m ρ c main_arg12 (by decide)
    _ = W9 m ρ c (Proc.devRef .tc main_arg12) := by host_keep hostOps4
    _ = W8 m ρ c (Proc.devRef .tc main_arg12) := W9_of_ne m ρ c main_arg12 (by decide)
    _ = W7 m ρ c (Proc.devRef .tc main_arg12) := by host_keep hostOps3
    _ = W6 m ρ c (Proc.devRef .tc main_arg12) := W7_of_ne m ρ c main_arg12 (by decide)
    _ = W5 m ρ c (Proc.devRef .tc main_arg12) := by host_keep hostOps2_2
    _ = W4 m ρ c (Proc.devRef .tc main_arg12) := by host_keep hostOps2_1
    _ = W3 m ρ c (Proc.devRef .tc main_arg12) := by host_keep hostOps2
    _ = W2 m ρ c (Proc.devRef .tc main_arg12) := W3_of_ne m ρ c main_arg12 (by decide)
    _ = W1 m ρ c (Proc.devRef .tc main_arg12) := by host_keep hostOps1
    _ = W0 m ρ c (Proc.devRef .tc main_arg12) := W1_of_ne m ρ c main_arg12 (by decide)

theorem keep_v73_23_26 (c : Dev nD) : W26 m ρ c (Proc.devRef .tc main_v73) = W23 m ρ c (Proc.devRef .tc main_v73) :=
  calc W26 m ρ c (Proc.devRef .tc main_v73)
    _ = W25 m ρ c (Proc.devRef .tc main_v73) := by host_keep hostOps10_2
    _ = W24 m ρ c (Proc.devRef .tc main_v73) := by host_keep hostOps10_1
    _ = W23 m ρ c (Proc.devRef .tc main_v73) := by host_keep hostOps10

theorem keep_v80_0_27_28 (c : Dev nD) : W28 m ρ c (Proc.devRef .tc main_v80_0) = W27 m ρ c (Proc.devRef .tc main_v80_0) :=
  calc W28 m ρ c (Proc.devRef .tc main_v80_0)
    _ = W27 m ρ c (Proc.devRef .tc main_v80_0) := by host_keep hostOps11

theorem keep_v97_0_29_30 (c : Dev nD) : W30 m ρ c (Proc.devRef .tc main_v97_0) = W29 m ρ c (Proc.devRef .tc main_v97_0) :=
  calc W30 m ρ c (Proc.devRef .tc main_v97_0)
    _ = W29 m ρ c (Proc.devRef .tc main_v97_0) := by host_keep hostOps12

theorem keep_v102_0_31_32 (c : Dev nD) : W32 m ρ c (Proc.devRef .tc main_v102_0) = W31 m ρ c (Proc.devRef .tc main_v102_0) :=
  calc W32 m ρ c (Proc.devRef .tc main_v102_0)
    _ = W31 m ρ c (Proc.devRef .tc main_v102_0) := by host_keep hostOps13

theorem at26_xin3 (c : Dev nD) (r : Fin 65536) (k : Fin 128) : (W26 m ρ c (Proc.devRef .tc main_v73) : S65536x128.Idx → EReal) (ix2 r k) = xin3 m c r k :=
  (congrFun (keep_v73_23_26 m ρ c) (ix2 r k)).trans (at23_h2 m ρ c r k)
theorem at26_wt3 (c : Dev nD) (k : Fin 128) (j : Fin 10) : (W26 m ρ c (Proc.devRef .tc main_v78) : S128x10.Idx → EReal) (ix2 k j) = Net.signsT (Wm3 m c) k j :=
  (HostValue.signs3 (W23 m ρ c) k j).trans (congrArg Net.sgn (congrFun (keep_arg9_0_23 m ρ c) (ix2 j k)))
theorem at26_brow3 (c : Dev nD) (j : Fin 10) : (W26 m ρ c (Proc.devRef .tc main_v79) : S1x10.Idx → EReal) (ix2 0 j) = bv3 m c j :=
  (HostValue.bias3 (W23 m ρ c) j).trans (congrFun (keep_arg10_0_23 m ρ c) (ix1 j))

theorem at27_lin3 (c : Dev nD) (r : Fin 65536) (j : Fin 10) : (W27 m ρ c (Proc.devRef .tc main_v80_0) : S65536x10.Idx → EReal) (ix2 r j) = y3 m c r j := by
  refine (congrFun (W27_arr m ρ c 3) (ix2 r j)).trans ((RegionValue.final10_3 (V26 m ρ) c r j).trans ?_)
  exact congrFun (congrFun (congr (congr (congrArg Net.dense (funext fun r => funext fun k => at26_xin3 m ρ c r k)) (funext fun k => funext fun j => at26_wt3 m ρ c k j)) (funext fun j => at26_brow3 m ρ c j)) r) j
theorem at27_s3 (c : Dev nD) (j : Fin 10) : (W27 m ρ c (Proc.devRef .tc main_v80_1) : S1x10.Idx → EReal) (ix2 0 j) = Net.colSum (y3 m c) j := by
  refine (congrFun (W27_arr m ρ c 4) (ix2 0 j)).trans ((RegionValue.final10_4 (V26 m ρ) c j).trans ?_)
  exact congrFun (congrArg Net.colSum (congr (congr (congrArg Net.dense (funext fun r => funext fun k => at26_xin3 m ρ c r k)) (funext fun k => funext fun j => at26_wt3 m ρ c k j)) (funext fun j => at26_brow3 m ρ c j))) j
theorem at27_ss3 (c : Dev nD) (j : Fin 10) : (W27 m ρ c (Proc.devRef .tc main_v80_2) : S1x10.Idx → EReal) (ix2 0 j) = Net.colSumSq (y3 m c) j := by
  refine (congrFun (W27_arr m ρ c 5) (ix2 0 j)).trans ((RegionValue.final10_5 (V26 m ρ) c j).trans ?_)
  exact congrFun (congrArg Net.colSumSq (congr (congr (congrArg Net.dense (funext fun r => funext fun k => at26_xin3 m ρ c r k)) (funext fun k => funext fun j => at26_wt3 m ρ c k j)) (funext fun j => at26_brow3 m ρ c j))) j

theorem at28_a3 (c : Dev nD) (j : Fin 10) : (W28 m ρ c (Proc.devRef .tc main_v91) : S1x10.Idx → EReal) (ix2 0 j) = Net.scaleF (gv3 m c) (Net.colSum (y3 m c)) (Net.colSumSq (y3 m c)) j := by
  refine (HostValue.scale3 (W27 m ρ c) j).trans ?_
  exact congrFun (congr (congr (congrArg Net.scaleF (funext fun j => congrFun (keep_arg11_0_27 m ρ c) (ix1 j))) (funext fun j => at27_s3 m ρ c j)) (funext fun j => at27_ss3 m ρ c j)) j
theorem at28_sh3 (c : Dev nD) (j : Fin 10) : (W28 m ρ c (Proc.devRef .tc main_v96) : S1x10.Idx → EReal) (ix2 0 j) = Net.shiftF (gv3 m c) (bev3 m c) (Net.colSum (y3 m c)) (Net.colSumSq (y3 m c)) j := by
  refine (HostValue.shift3 (W27 m ρ c) j).trans ?_
  exact congrFun (congr (congr (congr (congrArg Net.shiftF (funext fun j => congrFun (keep_arg11_0_27 m ρ c) (ix1 j))) (funext fun j => congrFun (keep_arg12_0_27 m ρ c) (ix1 j))) (funext fun j => at27_s3 m ρ c j)) (funext fun j => at27_ss3 m ρ c j)) j
theorem at28_lin3 (c : Dev nD) (r : Fin 65536) (j : Fin 10) : (W28 m ρ c (Proc.devRef .tc main_v80_0) : S65536x10.Idx → EReal) (ix2 r j) = y3 m c r j :=
  (congrFun (keep_v80_0_27_28 m ρ c) (ix2 r j)).trans (at27_lin3 m ρ c r j)

theorem at29_bn3 (c : Dev nD) (r : Fin 65536) (j : Fin 10) : (W29 m ρ c (Proc.devRef .tc main_v97_0) : S65536x10.Idx → EReal) (ix2 r j) = n3 m c r j := by
  refine (congrFun (W29_arr m ρ c 3) (ix2 r j)).trans ((RegionValue.final11_3 (V28 m ρ) c r j).trans ?_)
  exact congrFun (congrFun (congr (congr (congrArg Net.affine (funext fun r => funext fun j => at28_lin3 m ρ c r j)) (funext fun j => at28_a3 m ρ c j)) (funext fun j => at28_sh3 m ρ c j)) r) j
theorem at29_m13 (c : Dev nD) (y : S1x1.Idx) : (W29 m ρ c (Proc.devRef .tc main_v97_1) : S1x1.Idx → EReal) y = Net.runMax (n3 m c) := by
  refine (congrFun (W29_arr m ρ c 4) y).trans ((RegionValue.final11_4 (V28 m ρ) c y).trans ?_)
  exact congrArg Net.runMax (congr (congr (congrArg Net.affine (funext fun r => funext fun j => at28_lin3 m ρ c r j)) (funext fun j => at28_a3 m ρ c j)) (funext fun j => at28_sh3 m ρ c j))
theorem at30_s13 (c : Dev nD) (y : S1x1.Idx) : (W30 m ρ c (Proc.devRef .tc main_v101) : S1x1.Idx → EReal) y = Net.step (Net.runMax (n3 m c)) :=
  (HostValue.step12 (W29 m ρ c) y).trans (congrArg Net.step (at29_m13 m ρ c (ix2 0 0)))
theorem at30_bn3 (c : Dev nD) (r : Fin 65536) (j : Fin 10) : (W30 m ρ c (Proc.devRef .tc main_v97_0) : S65536x10.Idx → EReal) (ix2 r j) = n3 m c r j :=
  (congrFun (keep_v97_0_29_30 m ρ c) (ix2 r j)).trans (at29_bn3 m ρ c r j)

theorem at31_act3 (c : Dev nD) (r : Fin 65536) (j : Fin 10) : (W31 m ρ c (Proc.devRef .tc main_v102_0) : S65536x10.Idx → EReal) (ix2 r j) = a3 m c r j := by
  refine (congrFun (W31_arr m ρ c 2) (ix2 r j)).trans ((RegionValue.final12_2 (V30 m ρ) c r j).trans ?_)
  exact congrArg Ideal.logistic (congrArg₂ Net.quant (at30_s13 m ρ c (ix2 0 0)) (at30_bn3 m ρ c r j))
theorem at31_m23 (c : Dev nD) (y : S1x1.Idx) : (W31 m ρ c (Proc.devRef .tc main_v102_1) : S1x1.Idx → EReal) y = Net.runMax (a3 m c) := by
  refine (congrFun (W31_arr m ρ c 3) y).trans ((RegionValue.final12_3 (V30 m ρ) c y).trans ?_)
  exact congrArg Net.runMax (funext fun r => funext fun j => congrArg Ideal.logistic (congrArg₂ Net.quant (at30_s13 m ρ c (ix2 0 0)) (at30_bn3 m ρ c r j)))
theorem at32_s23 (c : Dev nD) (y : S1x1.Idx) : (W32 m ρ c (Proc.devRef .tc main_v106) : S1x1.Idx → EReal) y = Net.step (Net.runMax (a3 m c)) :=
  (HostValue.step13 (W31 m ρ c) y).trans (congrArg Net.step (at31_m23 m ρ c (ix2 0 0)))
theorem at32_act3 (c : Dev nD) (r : Fin 65536) (j : Fin 10) : (W32 m ρ c (Proc.devRef .tc main_v102_0) : S65536x10.Idx → EReal) (ix2 r j) = a3 m c r j :=
  (congrFun (keep_v102_0_31_32 m ρ c) (ix2 r j)).trans (at31_act3 m ρ c r j)
theorem at33_h3 (c : Dev nD) (r : Fin 65536) (j : Fin 10) : (W33 m ρ c (Proc.devRef .tc main_v107) : S65536x10.Idx → EReal) (ix2 r j) = h3 m c r j :=
  (congrFun (W33_arr m ρ c 2) (ix2 r j)).trans ((RegionValue.final13_2 (V32 m ρ) c r j).trans
    (congrArg₂ Net.quant (at32_s23 m ρ c (ix2 0 0)) (at32_act3 m ρ c r j)))

/-! ## The three results at the last boundary -/

theorem keep_v39_13_33 (c : Dev nD) : W33 m ρ c (Proc.devRef .tc main_v39) = W13 m ρ c (Proc.devRef .tc main_v39) :=
  calc W33 m ρ c (Proc.devRef .tc main_v39)
    _ = W32 m ρ c (Proc.devRef .tc main_v39) := W33_of_ne m ρ c main_v39 (by decide)
    _ = W31 m ρ c (Proc.devRef .tc main_v39) := by host_keep hostOps13
    _ = W30 m ρ c (Proc.devRef .tc main_v39) := W31_of_ne m ρ c main_v39 (by decide)
    _ = W29 m ρ c (Proc.devRef .tc main_v39) := by host_keep hostOps12
    _ = W28 m ρ c (Proc.devRef .tc main_v39) := W29_of_ne m ρ c main_v39 (by decide)
    _ = W27 m ρ c (Proc.devRef .tc main_v39) := by host_keep hostOps11
    _ = W26 m ρ c (Proc.devRef .tc main_v39) := W27_of_ne m ρ c main_v39 (by decide)
    _ = W25 m ρ c (Proc.devRef .tc main_v39) := by host_keep hostOps10_2
    _ = W24 m ρ c (Proc.devRef .tc main_v39) := by host_keep hostOps10_1
    _ = W23 m ρ c (Proc.devRef .tc main_v39) := by host_keep hostOps10
    _ = W22 m ρ c (Proc.devRef .tc main_v39) := W23_of_ne m ρ c main_v39 (by decide)
    _ = W21 m ρ c (Proc.devRef .tc main_v39) := by host_keep hostOps9
    _ = W20 m ρ c (Proc.devRef .tc main_v39) := W21_of_ne m ρ c main_v39 (by decide)
    _ = W19 m ρ c (Proc.devRef .tc main_v39) := by host_keep hostOps8
    _ = W18 m ρ c (Proc.devRef .tc main_v39) := W19_of_ne m ρ c main_v39 (by decide)
    _ = W17 m ρ c (Proc.devRef .tc main_v39) := by host_keep hostOps7
    _ = W16 m ρ c (Proc.devRef .tc main_v39) := (W17_arr m ρ c 0).trans (((dat6 (V16 m ρ) c).arrAt_in 0 rfl _).trans (A_eq6 (V16 m ρ) c 0))
    _ = W15 m ρ c (Proc.devRef .tc main_v39) := by host_keep hostOps6_2
    _ = W14 m ρ c (Proc.devRef .tc main_v39) := by host_keep hostOps6_1
    _ = W13 m ρ c (Proc.devRef .tc main_v39) := by host_keep hostOps6

theorem keep_v73_23_33 (c : Dev nD) : W33 m ρ c (Proc.devRef .tc main_v73) = W23 m ρ c (Proc.devRef .tc main_v73) :=
  calc W33 m ρ c (Proc.devRef .tc main_v73)
    _ = W32 m ρ c (Proc.devRef .tc main_v73) := W33_of_ne m ρ c main_v73 (by decide)
    _ = W31 m ρ c (Proc.devRef .tc main_v73) := by host_keep hostOps13
    _ = W30 m ρ c (Proc.devRef .tc main_v73) := W31_of_ne m ρ c main_v73 (by decide)
    _ = W29 m ρ c (Proc.devRef .tc main_v73) := by host_keep hostOps12
    _ = W28 m ρ c (Proc.devRef .tc main_v73) := W29_of_ne m ρ c main_v73 (by decide)
    _ = W27 m ρ c (Proc.devRef .tc main_v73) := by host_keep hostOps11
    _ = W26 m ρ c (Proc.devRef .tc main_v73) := (W27_arr m ρ c 0).trans (((dat10 (V26 m ρ) c).arrAt_in 0 rfl _).trans (A_eq10 (V26 m ρ) c 0))
    _ = W25 m ρ c (Proc.devRef .tc main_v73) := by host_keep hostOps10_2
    _ = W24 m ρ c (Proc.devRef .tc main_v73) := by host_keep hostOps10_1
    _ = W23 m ρ c (Proc.devRef .tc main_v73) := by host_keep hostOps10

/-- The folded network of the thirteen input tensors is the three layers' results. -/
theorem net_eq (c : Dev nD) :
    Net.netF (X m c) (Wm1 m c) (bv1 m c) (gv1 m c) (bev1 m c) (Wm2 m c) (bv2 m c) (gv2 m c) (bev2 m c) (Wm3 m c) (bv3 m c) (gv3 m c) (bev3 m c)
      = (h1 m c, h2 m c, h3 m c) := rfl

theorem out_h1 (c : Dev nD) (r : Fin 65536) (j : Fin 128) : (W33 m ρ c (Proc.devRef .tc main_v39) : S65536x128.Idx → EReal) (ix2 r j) = h1 m c r j :=
  (congrFun (keep_v39_13_33 m ρ c) (ix2 r j)).trans (at13_h1 m ρ c r j)
theorem out_h2 (c : Dev nD) (r : Fin 65536) (j : Fin 128) : (W33 m ρ c (Proc.devRef .tc main_v73) : S65536x128.Idx → EReal) (ix2 r j) = h2 m c r j :=
  (congrFun (keep_v73_23_33 m ρ c) (ix2 r j)).trans (at23_h2 m ρ c r j)
theorem out_h3 (c : Dev nD) (r : Fin 65536) (j : Fin 10) : (W33 m ρ c (Proc.devRef .tc main_v107) : S65536x10.Idx → EReal) (ix2 r j) = h3 m c r j :=
  at33_h3 m ρ c r j

/-- A two-axis tensor laid back into an array. -/
def arr2 {a b : ℕ} (f : Fin a → Fin b → EReal) : (⟨2, ![a, b]⟩ : Shape).Idx → EReal := fun i => f (i 0) (i 1)
theorem arr2_ix2 {a b : ℕ} (f : Fin a → Fin b → EReal) (r : Fin a) (k : Fin b) : arr2 f (ix2 r k) = f r k := rfl

theorem W33_v39 (c : Dev nD) : (W33 m ρ c (Proc.devRef .tc main_v39) : S65536x128.Idx → EReal) = arr2 (h1 m c) :=
  funext fun i => by rw [eq_ix2 i]; exact out_h1 m ρ c _ _
theorem W33_v73 (c : Dev nD) : (W33 m ρ c (Proc.devRef .tc main_v73) : S65536x128.Idx → EReal) = arr2 (h2 m c) :=
  funext fun i => by rw [eq_ix2 i]; exact out_h2 m ρ c _ _
theorem W33_v107 (c : Dev nD) : (W33 m ρ c (Proc.devRef .tc main_v107) : S65536x10.Idx → EReal) = arr2 (h3 m c) :=
  funext fun i => by rw [eq_ix2 i]; exact out_h3 m ρ c _ _

end Cert.KernelIdeal.Chain
end
-- ==== Proof.FinitePre.lean ====
/-
  Under the precondition every entry of every input array is a real number: the precondition is a conjunction, one
  conjunct per array, each saying that every magnitude lies strictly below +∞, and an extended real whose magnitude
  lies below +∞ is neither infinity.
-/
import proofs.«131146_j57208964383148_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.FinitePre

open Idealize.ShloMosaic Cert.Pre_finite_inputs

instance : Subsingleton S_.Idx := ⟨fun a b => funext fun d => d.elim0⟩

/-- An extended real whose magnitude is below the word of +∞ is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ a : ℝ, x = (a : EReal) := by
  induction x using EReal.rec with
  | bot => exfalso; revert h; show ¬ Ideal.cmp .olt (max (⊥ : EReal) (-⊥)) (Ideal.ofBits .f32 0x7F800000#32) = 1#1; simp [Ideal.ofBits, Ideal.ieee, Ideal.cmp]
  | coe a => exact ⟨a, rfl⟩
  | top => exfalso; revert h; show ¬ Ideal.cmp .olt (max (⊤ : EReal) (-⊤)) (Ideal.ofBits .f32 0x7F800000#32) = 1#1; simp [Ideal.ofBits, Ideal.ieee, Ideal.cmp]

/-- One conjunct: if "all magnitudes below +∞" reduces to one, every entry is real. -/
theorem real_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant S_ .f32 0x7F800000#32))) (constantI S_ 1 1#1) hr hu ValueIdx.ix0 = 1#1)
    (i : s.Idx) : ∃ r : ℝ, a i = (r : EReal) :=
  real_of_lt (a i) (Host.reduce_andi_all _ _ hr hu ValueIdx.ix0 e i)

/-- The precondition makes every input entry a real. -/
theorem real_inputs [Cert.Pre_finite_inputs.Facts] (a0 : FVec Ideal S65536x784 .f32) (a1 : FVec Ideal S128x784 .f32) (a2 a3 a4 : FVec Ideal S128 .f32)
    (a5 : FVec Ideal S128x128 .f32) (a6 a7 a8 : FVec Ideal S128 .f32) (a9 : FVec Ideal S10x128 .f32) (a10 a11 a12 : FVec Ideal S10 .f32)
    (h : fn (F := Ideal) a0 a1 a2 a3 a4 a5 a6 a7 a8 a9 a10 a11 a12 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) ∧ (∀ i, ∃ r : ℝ, a12 i = (r : EReal)) := by
  have h0 := congrFun h ValueIdx.ix0
  dsimp only [fn, fn_part1, fn_part2, fn_part3] at h0
  have split : ∀ (a b : IVec S_ 1), andi a b ValueIdx.ix0 = 1#1 → a ValueIdx.ix0 = 1#1 ∧ b ValueIdx.ix0 = 1#1 :=
    fun a b h => IntOp.andi_eq_one.mp h
  obtain ⟨h0, e12⟩ := split _ _ h0
  obtain ⟨h0, e11⟩ := split _ _ h0
  obtain ⟨h0, e10⟩ := split _ _ h0
  obtain ⟨h0, e9⟩ := split _ _ h0
  obtain ⟨h0, e8⟩ := split _ _ h0
  obtain ⟨h0, e7⟩ := split _ _ h0
  obtain ⟨h0, e6⟩ := split _ _ h0
  obtain ⟨h0, e5⟩ := split _ _ h0
  obtain ⟨h0, e4⟩ := split _ _ h0
  obtain ⟨h0, e3⟩ := split _ _ h0
  obtain ⟨h0, e2⟩ := split _ _ h0
  obtain ⟨h0, e1⟩ := split _ _ h0
  exact ⟨fun i => real_of_all a0 _ _ _ h0 i, fun i => real_of_all a1 _ _ _ e1 i, fun i => real_of_all a2 _ _ _ e2 i, fun i => real_of_all a3 _ _ _ e3 i, fun i => real_of_all a4 _ _ _ e4 i, fun i => real_of_all a5 _ _ _ e5 i, fun i => real_of_all a6 _ _ _ e6 i, fun i => real_of_all a7 _ _ _ e7 i, fun i => real_of_all a8 _ _ _ e8 i, fun i => real_of_all a9 _ _ _ e9 i, fun i => real_of_all a10 _ _ _ e10 i, fun i => real_of_all a11 _ _ _ e11 i, fun i => real_of_all a12 _ _ _ e12 i⟩

end Cert.FinitePre

end
-- ==== Proof.LibNetWords.lean ====
/-
  The float words of the network read as extended reals: each 32-bit pattern that the two spellings of the network
  mention denotes an explicit real number.  Zero, one, minus one, the clipping bounds -128 and 127 and the row count
  65536 are evaluated exactly; of the two small regularisers (the floor of a quantisation step's numerator and the
  variance's regulariser) only the fact that they are positive reals is used later, their dyadic values are given too.
-/
import proofs.«131146_j57208964383148_1_alg».proof.Proof.Net

noncomputable section

namespace Cert.Net

open Idealize.ShloMosaic

/-- The pattern of `+0.0` denotes `0`. -/
theorem zero_eq : zero = 0 := by
  simp [zero, lit, Ideal.ofBits, Ideal.ieee]

/-- The pattern `0x3F800000` denotes `1`. -/
theorem one_eq : one = ((1 : ℝ) : EReal) := by
  simp [one, lit, Ideal.ofBits, Ideal.ieee, -EReal.coe_mul]; norm_num

/-- The pattern `0xBF800000` denotes `-1`. -/
theorem mone_eq : mone = ((-1 : ℝ) : EReal) := by
  simp [mone, lit, Ideal.ofBits, Ideal.ieee, -EReal.coe_mul]; norm_num

/-- The pattern `0xC3000000` denotes `-128`. -/
theorem lo_eq : lo = ((-128 : ℝ) : EReal) := by
  simp [lo, lit, Ideal.ofBits, Ideal.ieee, -EReal.coe_mul]; norm_num

/-- The pattern `0x42FE0000` denotes `127`. -/
theorem hi_eq : hi = ((127 : ℝ) : EReal) := by
  simp [hi, lit, Ideal.ofBits, Ideal.ieee, -EReal.coe_mul]; norm_num

/-- The pattern `0x47800000` denotes `65536`. -/
theorem cnt_eq : cnt = ((65536 : ℝ) : EReal) := by
  simp [cnt, lit, Ideal.ofBits, Ideal.ieee, -EReal.coe_mul]; norm_num

/-- The pattern `0x322BCC77` denotes the dyadic rational `11258999 · 2⁻⁵⁰` (about `1e-8`). -/
theorem tiny_eq : tiny = (((11258999 : ℝ) * (2 : ℝ) ^ (-50 : ℤ) : ℝ) : EReal) := by
  simp [tiny, lit, Ideal.ofBits, Ideal.ieee, -EReal.coe_mul]

/-- The pattern `0x3727C5AC` denotes the dyadic rational `10995116 · 2⁻⁴⁰` (about `1e-5`). -/
theorem eps_eq : eps = (((10995116 : ℝ) * (2 : ℝ) ^ (-40 : ℤ) : ℝ) : EReal) := by
  simp [eps, lit, Ideal.ofBits, Ideal.ieee, -EReal.coe_mul]

/-- The floor of a quantisation step's numerator is a positive real. -/
theorem tiny_pos : ∃ t : ℝ, 0 < t ∧ tiny = (t : EReal) :=
  ⟨_, by positivity, tiny_eq⟩

/-- The variance's regulariser is a positive real. -/
theorem eps_pos : ∃ e : ℝ, 0 < e ∧ eps = (e : EReal) :=
  ⟨_, by positivity, eps_eq⟩

end Cert.Net

end
-- ==== Proof.NetPlain.lean ====
/-
  The plain spelling of the network (see Net.lean for the folded one): the largest magnitude is the supremum over the whole
  tensor; a quantised value q of x is spelt x + (q - x) and a weight sign s of w is spelt w + (s - w); the mean is the
  column sum over the row count; the variance is the mean of the squared deviations from the mean; the normalisation
  subtracts the mean, multiplies by the scale vector and by the reciprocal square root of the regularised variance, and
  adds the shift vector.  The clipping bounds are the integers -128 and 127; a sum starts from the zero word.
-/
import proofs.«131146_j57208964383148_1_alg».proof.Proof.Net

noncomputable section

namespace Cert.Net

open Idealize.ShloMosaic

variable {B D H : ℕ}

/-- The clipping bounds as integers. -/
def loI : EReal := ((-128 : ℝ) : EReal)
def hiI : EReal := ((127 : ℝ) : EReal)
/-- The integer zero subtracted from the row count in the variance's divisor. -/
def zeroI : EReal := ((0 : ℝ) : EReal)

/-- Quantisation with the step taken from the tensor itself, spelt as a correction of the input. -/
def fq (x : Fin B → Fin D → EReal) : Fin B → Fin D → EReal :=
  fun r c => x r c + (quantWith loI hiI (step (supMag x)) (x r c) - x r c)
/-- The weight signs (output-major, as the weights are given), spelt as a correction of the weights. -/
def signsP (W : Fin H → Fin D → EReal) : Fin H → Fin D → EReal := fun c k => W c k + (sgn (W c k) - W c k)
/-- `x · wᵀ + b` with `w` output-major. -/
def denseP (x : Fin B → Fin D → EReal) (w : Fin H → Fin D → EReal) (b : Fin H → EReal) : Fin B → Fin H → EReal :=
  fun r c => (∑ k, x r k * w c k) + b c
/-- The column means. -/
def meanP (y : Fin B → Fin H → EReal) : Fin H → EReal := fun c => Ideal.div (zero + ∑ r, y r c) cnt
/-- The column variances: the mean of the squared deviations. -/
def varP (y : Fin B → Fin H → EReal) : Fin H → EReal :=
  fun c => Ideal.div (zero + ∑ r, (y r c - meanP y c) * (y r c - meanP y c)) (cnt - zeroI)
/-- The normalisation. -/
def normP (y : Fin B → Fin H → EReal) (g be : Fin H → EReal) : Fin B → Fin H → EReal :=
  fun r c => g c * (y r c - meanP y c) * Ideal.rsqrt (varP y c + eps) + be c
/-- One layer, plain. -/
def layerP (act : EReal → EReal) (x : Fin B → Fin D → EReal) (W : Fin H → Fin D → EReal) (b g be : Fin H → EReal) :
    Fin B → Fin H → EReal :=
  let n := normP (denseP x (signsP W) b) g be
  let a : Fin B → Fin H → EReal := fun r c => act (fq n r c)
  fq a

/-- The whole map, plain: the three results (first layer, second layer, third layer). -/
def netP {D1 H1 H2 H3 : ℕ} (x : Fin B → Fin D1 → EReal)
    (W1 : Fin H1 → Fin D1 → EReal) (b1 g1 be1 : Fin H1 → EReal)
    (W2 : Fin H2 → Fin H1 → EReal) (b2 g2 be2 : Fin H2 → EReal)
    (W3 : Fin H3 → Fin H2 → EReal) (b3 g3 be3 : Fin H3 → EReal) :
    (Fin B → Fin H1 → EReal) × (Fin B → Fin H2 → EReal) × (Fin B → Fin H3 → EReal) :=
  let h1 := layerP relu (fq x) W1 b1 g1 be1
  let h2 := layerP relu h1 W2 b2 g2 be2
  let h3 := layerP Ideal.logistic h2 W3 b3 g3 be3
  (h1, h2, h3)

end Cert.Net

end
-- ==== Proof.LibNetReal.lean ====
/-
  Tools for tensors whose entries are all real numbers, and the stages of the network that do not involve the batch
  statistics.  The extended reals do not distribute or cancel at the infinities, so each identity between the two
  spellings of a stage is proved for real entries: the entries are written as coercions of real numbers, the
  coercions are pushed outwards, and the identity is finished in the real numbers.  Every stage is also shown to
  send real tensors to real tensors, so that the stages chain.
-/
import proofs.«131146_j57208964383148_1_alg».proof.Proof.LibNetWords
import proofs.«131146_j57208964383148_1_alg».proof.Proof.NetPlain

noncomputable section

namespace Cert.Net

open Idealize.ShloMosaic

variable {B D H : ℕ}

/-! ## Real-valued tensors -/

/-- A matrix all of whose entries are real numbers. -/
def RealM (x : Fin B → Fin D → EReal) : Prop := ∀ r c, ∃ a : ℝ, x r c = (a : EReal)

/-- A vector all of whose entries are real numbers. -/
def RealV (v : Fin H → EReal) : Prop := ∀ c, ∃ a : ℝ, v c = (a : EReal)

/-- A real-valued matrix is the entrywise coercion of a matrix of reals. -/
theorem RealM.eq_coe {x : Fin B → Fin D → EReal} (h : RealM x) :
    ∃ f : Fin B → Fin D → ℝ, x = fun r c => ((f r c : ℝ) : EReal) := by
  choose f hf using h
  exact ⟨f, funext fun r => funext fun c => hf r c⟩

/-- A real-valued vector is the entrywise coercion of a vector of reals. -/
theorem RealV.eq_coe {v : Fin H → EReal} (h : RealV v) : ∃ f : Fin H → ℝ, v = fun c => ((f c : ℝ) : EReal) := by
  choose f hf using h
  exact ⟨f, funext fun c => hf c⟩

/-! ## Coercions pushed outwards -/

/-- The coercion of the reals into the extended reals preserves maxima. -/
theorem coe_max (a b : ℝ) : ((max a b : ℝ) : EReal) = max (a : EReal) (b : EReal) :=
  EReal.coe_strictMono.monotone.map_max

/-- The coercion of the reals into the extended reals preserves minima. -/
theorem coe_min (a b : ℝ) : ((min a b : ℝ) : EReal) = min (a : EReal) (b : EReal) :=
  EReal.coe_strictMono.monotone.map_min

/-- The coercion of the reals into the extended reals preserves finite sums. -/
theorem coe_sum {ι : Type*} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The quotient of two reals, the divisor not zero, is the real quotient. -/
theorem div_coe_coe (a : ℝ) {s : ℝ} (hs : s ≠ 0) : Ideal.div (a : EReal) (s : EReal) = ((a / s : ℝ) : EReal) := by
  rw [Ideal.div_coe hs, ← EReal.coe_mul]
  congr 1
  ring

/-- For reals, `a + (b - a) = b` in the extended reals: a value spelt as a correction of another is that value. -/
theorem add_sub_cancel_coe (a b : ℝ) : (a : EReal) + ((b : EReal) - (a : EReal)) = (b : EReal) := by
  rw [← EReal.coe_sub, ← EReal.coe_add]
  congr 1
  ring

/-! ## The largest magnitude and the step -/

/-- The magnitude of a real is a real. -/
theorem mag_coe (a : ℝ) : mag (a : EReal) = ((max a (-a) : ℝ) : EReal) := by
  rw [mag, ← EReal.coe_neg, ← coe_max]

/-- The largest magnitude of a real-valued matrix is not `+∞` (it is `-∞` for an empty matrix, a real otherwise). -/
theorem supMag_ne_top {x : Fin B → Fin D → EReal} (hx : RealM x) : supMag x ≠ ⊤ := by
  unfold supMag
  rw [← lt_top_iff_ne_top, Finset.sup_lt_iff bot_lt_top]
  intro r _
  rw [Finset.sup_lt_iff bot_lt_top]
  intro c _
  obtain ⟨a, ha⟩ := hx r c
  rw [ha, mag_coe]
  exact EReal.coe_lt_top _

/-- The running maximum started at zero gives the same step as the supremum: the step's numerator is floored at a
    positive number, so flooring at zero first changes nothing. -/
theorem step_runMax (x : Fin B → Fin D → EReal) : step (runMax x) = step (supMag x) := by
  obtain ⟨t, ht, htiny⟩ := tiny_pos
  have h0 : (0 : EReal) ≤ tiny := by rw [htiny]; exact EReal.coe_nonneg.mpr ht.le
  unfold step runMax
  rw [zero_eq, max_comm (0 : EReal), max_assoc, max_eq_right h0]

/-- The step from a largest magnitude below `+∞` is a positive real. -/
theorem step_pos {M : EReal} (hM : M ≠ ⊤) : ∃ s : ℝ, 0 < s ∧ step M = (s : EReal) := by
  obtain ⟨t, ht, htiny⟩ := tiny_pos
  have hmax : ∃ m : ℝ, 0 < m ∧ max M tiny = (m : EReal) := by
    rw [htiny]
    rcases le_total M (t : EReal) with h | h
    · exact ⟨t, ht, max_eq_right h⟩
    · have hbot : M ≠ ⊥ := by
        intro hb
        rw [hb] at h
        exact absurd h (not_le.mpr (EReal.bot_lt_coe t))
      refine ⟨M.toReal, ?_, ?_⟩
      · have h' : (t : EReal) ≤ (M.toReal : EReal) := by rw [EReal.coe_toReal hM hbot]; exact h
        exact lt_of_lt_of_le ht (EReal.coe_le_coe_iff.mp h')
      · rw [max_eq_left h, EReal.coe_toReal hM hbot]
  obtain ⟨m, hm, hmax⟩ := hmax
  refine ⟨m / 127, by positivity, ?_⟩
  rw [step, hmax, hi_eq, div_coe_coe m (by norm_num : (127 : ℝ) ≠ 0)]

/-! ## Quantisation -/

/-- The quantisation of a real `a` with real bounds and a real step. -/
def quantR (l h s a : ℝ) : ℝ := min h (max l ((Ideal.roundHalfEven (a / s) : ℤ) : ℝ)) * s

/-- On reals, with a step that is not zero, the quantisation is the real quantisation. -/
theorem quantWith_coe (l h a : ℝ) {s : ℝ} (hs : s ≠ 0) :
    quantWith (l : EReal) (h : EReal) (s : EReal) (a : EReal) = ((quantR l h s a : ℝ) : EReal) := by
  rw [quantWith, div_coe_coe a hs, rnd, Ideal.liftRound_coe, ← coe_max, ← coe_min, ← EReal.coe_mul]
  rfl

/-- The clipping bounds spelt as float words are the integers `-128` and `127`. -/
theorem quant_eq (s x : EReal) : quant s x = quantWith loI hiI s x := by
  rw [quant, lo_eq, hi_eq]
  rfl

/-- A quantised real, the step a positive real, is a real. -/
theorem quant_real (a : ℝ) {s : EReal} (hs : ∃ t : ℝ, 0 < t ∧ s = (t : EReal)) : ∃ b : ℝ, quant s (a : EReal) = (b : EReal) := by
  obtain ⟨t, ht, rfl⟩ := hs
  exact ⟨quantR (-128) 127 t a, by rw [quant_eq, loI, hiI, quantWith_coe _ _ _ ht.ne']⟩

/-- Quantisation with a positive real step sends real-valued matrices to real-valued matrices. -/
theorem quantAll_real {x : Fin B → Fin D → EReal} (hx : RealM x) {s : EReal} (hs : ∃ t : ℝ, 0 < t ∧ s = (t : EReal)) :
    RealM (quantAll s x) := by
  intro r c
  obtain ⟨a, ha⟩ := hx r c
  show ∃ b : ℝ, quant s (x r c) = (b : EReal)
  rw [ha]
  exact quant_real a hs

/-- The step of a real-valued matrix (running maximum started at zero) is a positive real. -/
theorem step_runMax_pos {x : Fin B → Fin D → EReal} (hx : RealM x) : ∃ t : ℝ, 0 < t ∧ step (runMax x) = (t : EReal) := by
  rw [step_runMax]
  exact step_pos (supMag_ne_top hx)

/-- On a real-valued matrix the plain quantisation (step from the supremum, integer bounds, the quantised value
    spelt as a correction of the input) is the folded one (step from the running maximum, float-word bounds, the
    quantised value as it is). -/
theorem fq_eq {x : Fin B → Fin D → EReal} (hx : RealM x) : fq x = quantAll (step (runMax x)) x := by
  obtain ⟨s, hs, hstep⟩ := step_pos (supMag_ne_top hx)
  funext r c
  obtain ⟨a, ha⟩ := hx r c
  show x r c + (quantWith loI hiI (step (supMag x)) (x r c) - x r c) = quant (step (runMax x)) (x r c)
  rw [quant_eq, step_runMax, hstep, ha, loI, hiI, quantWith_coe _ _ _ hs.ne', add_sub_cancel_coe]

/-- The plain quantisation sends real-valued matrices to real-valued matrices. -/
theorem fq_real {x : Fin B → Fin D → EReal} (hx : RealM x) : RealM (fq x) := by
  rw [fq_eq hx]
  exact quantAll_real hx (step_runMax_pos hx)

/-! ## Weight signs and the product with them -/

/-- The sign of a weight is `1` or `-1`, a real. -/
theorem sgn_real (w : EReal) : ∃ s : ℝ, sgn w = (s : EReal) := by
  unfold sgn
  split_ifs
  · exact ⟨1, one_eq⟩
  · exact ⟨-1, mone_eq⟩

/-- The matrix of weight signs is real-valued. -/
theorem signsT_real (W : Fin H → Fin D → EReal) : RealM (signsT W) := fun k c => sgn_real (W c k)

/-- On a real weight, the sign spelt as a correction of the weight is the sign. -/
theorem signsP_eq {W : Fin H → Fin D → EReal} (hW : RealM W) (c : Fin H) (k : Fin D) :
    signsP W c k = sgn (W c k) := by
  obtain ⟨a, ha⟩ := hW c k
  obtain ⟨s, hs⟩ := sgn_real (W c k)
  show W c k + (sgn (W c k) - W c k) = sgn (W c k)
  rw [hs, ha, add_sub_cancel_coe]

/-- With real weights, the product with the output-major corrected signs is the product with the input-major signs. -/
theorem denseP_signsP {W : Fin H → Fin D → EReal} (hW : RealM W) (x : Fin B → Fin D → EReal) (b : Fin H → EReal) :
    denseP x (signsP W) b = dense x (signsT W) b := by
  funext r c
  show (∑ k, x r k * signsP W c k) + b c = (∑ k, x r k * sgn (W c k)) + b c
  simp_rw [signsP_eq hW]

/-- The product of real-valued matrices plus a real-valued bias is real-valued. -/
theorem dense_real {x : Fin B → Fin D → EReal} {w : Fin D → Fin H → EReal} {b : Fin H → EReal}
    (hx : RealM x) (hw : RealM w) (hb : RealV b) : RealM (dense x w b) := by
  obtain ⟨f, rfl⟩ := hx.eq_coe
  obtain ⟨g, rfl⟩ := hw.eq_coe
  obtain ⟨h, rfl⟩ := hb.eq_coe
  intro r c
  refine ⟨(∑ k, f r k * g k c) + h c, ?_⟩
  show (∑ k, ((f r k : ℝ) : EReal) * ((g k c : ℝ) : EReal)) + ((h c : ℝ) : EReal) = _
  simp_rw [← EReal.coe_mul]
  rw [← coe_sum, ← EReal.coe_add]

/-! ## The activations -/

/-- The rectifier of a real is a real. -/
theorem relu_real (a : ℝ) : ∃ b : ℝ, relu (a : EReal) = (b : EReal) :=
  ⟨max a 0, by rw [relu, zero_eq, ← EReal.coe_zero, ← coe_max]⟩

/-- The logistic function of a real is a real. -/
theorem logistic_real (a : ℝ) : ∃ b : ℝ, Ideal.logistic (a : EReal) = (b : EReal) :=
  ⟨_, Ideal.logistic_coe a⟩

end Cert.Net

end
-- ==== Proof.LibNetNorm.lean ====
/-
  The batch normalisation of the network, in its two spellings, on real-valued data.  The plain spelling takes the
  mean of a column, the mean of the squared deviations from it, and normalises by subtracting the mean; the folded
  spelling takes the column sum and the column sum of squares, forms the variance as the mean square minus the squared
  mean, and normalises by one multiply-add with a per-column scale and shift.  With as many rows as the row count's
  word says (65536) the two agree on real data: the variance identity is the classical one, proved in the reals, and
  the multiply-add is a rearrangement in the reals.  The regularised variance is a positive real, so its reciprocal
  square root is a real and the normalised tensor is real-valued again.
-/
import proofs.«131146_j57208964383148_1_alg».proof.Proof.LibNetReal

noncomputable section

namespace Cert.Net

open Idealize.ShloMosaic

variable {B D H : ℕ}

/-! ## The mean -/

/-- The plain mean is the folded mean of the column sums: a sum started from the zero word is the sum. -/
theorem meanP_eq (y : Fin B → Fin H → EReal) : meanP y = meanF (colSum y) := by
  funext c
  show Ideal.div (zero + ∑ r, y r c) cnt = Ideal.div (∑ r, y r c) cnt
  rw [zero_eq, zero_add]

/-- The mean of a real column is the real mean. -/
theorem meanF_coe (f : Fin B → Fin H → ℝ) (c : Fin H) :
    meanF (colSum fun r c => ((f r c : ℝ) : EReal)) c = (((∑ r, f r c) / 65536 : ℝ) : EReal) := by
  show Ideal.div (∑ r, ((f r c : ℝ) : EReal)) cnt = _
  rw [← coe_sum, cnt_eq, div_coe_coe _ (by norm_num : (65536 : ℝ) ≠ 0)]

/-! ## The variance -/

/-- Over the reals, with 65536 terms of mean `m`: the mean of the squared deviations from `m` is the mean square
    minus `m²`. -/
theorem var_identity (f : Fin B → ℝ) (hB : (B : ℝ) = 65536) (m : ℝ) (hm : ∑ r, f r = 65536 * m) :
    (∑ r, (f r - m) * (f r - m)) / 65536 = (∑ r, f r * f r) / 65536 - m * m := by
  have h : ∑ r, (f r - m) * (f r - m) = (∑ r, f r * f r) - 2 * m * (∑ r, f r) + (B : ℝ) * (m * m) := by
    simp_rw [show ∀ r, (f r - m) * (f r - m) = f r * f r - 2 * m * f r + m * m from fun r => by ring]
    rw [Finset.sum_add_distrib, Finset.sum_sub_distrib, ← Finset.mul_sum, Finset.sum_const, Finset.card_univ,
      Fintype.card_fin, nsmul_eq_mul]
  rw [h, hB, hm]
  ring

/-- The plain variance of a real column is the real mean of the squared deviations from the real mean. -/
theorem varP_coe (f : Fin B → Fin H → ℝ) (c : Fin H) :
    varP (fun r c => ((f r c : ℝ) : EReal)) c
      = (((∑ r, (f r c - (∑ r, f r c) / 65536) * (f r c - (∑ r, f r c) / 65536)) / 65536 : ℝ) : EReal) := by
  show Ideal.div (zero + ∑ r, (((f r c : ℝ) : EReal) - meanP (fun r c => ((f r c : ℝ) : EReal)) c)
      * (((f r c : ℝ) : EReal) - meanP (fun r c => ((f r c : ℝ) : EReal)) c)) (cnt - zeroI) = _
  rw [meanP_eq, meanF_coe]
  simp only [← EReal.coe_sub, ← EReal.coe_mul]
  rw [← coe_sum, zero_eq, zero_add, cnt_eq, zeroI, ← EReal.coe_sub, sub_zero,
    div_coe_coe _ (by norm_num : (65536 : ℝ) ≠ 0)]

/-- The folded variance of a real column is the real mean square minus the squared real mean. -/
theorem varF_coe (f : Fin B → Fin H → ℝ) (c : Fin H) :
    varF (colSum fun r c => ((f r c : ℝ) : EReal)) (colSumSq fun r c => ((f r c : ℝ) : EReal)) c
      = (((∑ r, f r c * f r c) / 65536 - (∑ r, f r c) / 65536 * ((∑ r, f r c) / 65536) : ℝ) : EReal) := by
  show Ideal.div (∑ r, ((f r c : ℝ) : EReal) * ((f r c : ℝ) : EReal)) cnt
      - meanF (colSum fun r c => ((f r c : ℝ) : EReal)) c * meanF (colSum fun r c => ((f r c : ℝ) : EReal)) c = _
  rw [meanF_coe]
  simp only [← EReal.coe_mul]
  rw [← coe_sum, cnt_eq, div_coe_coe _ (by norm_num : (65536 : ℝ) ≠ 0), ← EReal.coe_sub]

/-- On real-valued data with 65536 rows, the mean of the squared deviations is the mean square minus the squared
    mean: the plain variance is the folded one. -/
theorem varP_eq_varF {y : Fin B → Fin H → EReal} (hy : RealM y) (hB : (B : ℝ) = 65536) :
    varP y = varF (colSum y) (colSumSq y) := by
  obtain ⟨f, rfl⟩ := hy.eq_coe
  funext c
  rw [varP_coe f c, varF_coe f c, var_identity (fun r => f r c) hB _ (by ring)]

/-- The plain variance of a real column is a real that is not negative. -/
theorem varP_nonneg {y : Fin B → Fin H → EReal} (hy : RealM y) (c : Fin H) :
    ∃ v : ℝ, 0 ≤ v ∧ varP y c = (v : EReal) := by
  obtain ⟨f, rfl⟩ := hy.eq_coe
  exact ⟨_, div_nonneg (Finset.sum_nonneg fun r _ => mul_self_nonneg _) (by norm_num), varP_coe f c⟩

/-- The reciprocal square root of a positive real is a real. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The mean of a real-valued column is a real. -/
theorem meanF_real {y : Fin B → Fin H → EReal} (hy : RealM y) (c : Fin H) :
    ∃ m : ℝ, meanF (colSum y) c = (m : EReal) := by
  obtain ⟨f, rfl⟩ := hy.eq_coe
  exact ⟨_, meanF_coe f c⟩

/-- The reciprocal square root of the regularised variance of a real-valued column (65536 rows) is a real. -/
theorem invF_real {y : Fin B → Fin H → EReal} (hy : RealM y) (hB : (B : ℝ) = 65536) (c : Fin H) :
    ∃ i : ℝ, invF (colSum y) (colSumSq y) c = (i : EReal) := by
  obtain ⟨v, hv, hvar⟩ := varP_nonneg hy c
  obtain ⟨e, he, heps⟩ := eps_pos
  refine ⟨(Real.sqrt (v + e))⁻¹, ?_⟩
  show Ideal.rsqrt (varF (colSum y) (colSumSq y) c + eps) = _
  rw [← varP_eq_varF hy hB, hvar, heps, ← EReal.coe_add, rsqrt_coe_pos (by linarith)]

/-! ## The normalisation -/

/-- Over the reals: scaling the deviation from the mean and shifting is one multiply-add with the scale and a
    corrected shift. -/
theorem normalise_eq (g a m i b : ℝ) :
    (g : EReal) * ((a : EReal) - (m : EReal)) * (i : EReal) + (b : EReal)
      = (a : EReal) * ((g : EReal) * (i : EReal)) + ((b : EReal) - (m : EReal) * (g : EReal) * (i : EReal)) := by
  simp only [← EReal.coe_mul, ← EReal.coe_sub, ← EReal.coe_add]
  congr 1
  ring

/-- The normalised value of reals is a real. -/
theorem normalise_real (g a m i b : ℝ) :
    (g : EReal) * ((a : EReal) - (m : EReal)) * (i : EReal) + (b : EReal) = ((g * (a - m) * i + b : ℝ) : EReal) := by
  simp only [← EReal.coe_mul, ← EReal.coe_sub, ← EReal.coe_add]

/-- On real-valued data with 65536 rows, the plain normalisation (subtract the mean, scale, multiply by the
    reciprocal square root of the regularised variance, shift) is the folded multiply-add with the scale and shift
    computed from the column sums and the column sums of squares. -/
theorem normP_eq_affine {y : Fin B → Fin H → EReal} {g be : Fin H → EReal} (hy : RealM y) (hg : RealV g)
    (hbe : RealV be) (hB : (B : ℝ) = 65536) :
    normP y g be = affine y (scaleF g (colSum y) (colSumSq y)) (shiftF g be (colSum y) (colSumSq y)) := by
  funext r c
  obtain ⟨a, ha⟩ := hy r c
  obtain ⟨gg, hgg⟩ := hg c
  obtain ⟨bb, hbb⟩ := hbe c
  obtain ⟨m, hm⟩ := meanF_real hy c
  obtain ⟨i, hi⟩ := invF_real hy hB c
  show g c * (y r c - meanP y c) * Ideal.rsqrt (varP y c + eps) + be c
      = y r c * (g c * invF (colSum y) (colSumSq y) c)
        + (be c - meanF (colSum y) c * g c * invF (colSum y) (colSumSq y) c)
  rw [meanP_eq, varP_eq_varF hy hB]
  show g c * (y r c - meanF (colSum y) c) * invF (colSum y) (colSumSq y) c + be c = _
  rw [hm, hi, ha, hgg, hbb]
  exact normalise_eq gg a m i bb

/-- The normalisation sends real-valued data (65536 rows, real scale and shift vectors) to real-valued data. -/
theorem normP_real {y : Fin B → Fin H → EReal} {g be : Fin H → EReal} (hy : RealM y) (hg : RealV g)
    (hbe : RealV be) (hB : (B : ℝ) = 65536) : RealM (normP y g be) := by
  intro r c
  obtain ⟨a, ha⟩ := hy r c
  obtain ⟨gg, hgg⟩ := hg c
  obtain ⟨bb, hbb⟩ := hbe c
  obtain ⟨m, hm⟩ := meanF_real hy c
  obtain ⟨i, hi⟩ := invF_real hy hB c
  refine ⟨gg * (a - m) * i + bb, ?_⟩
  show g c * (y r c - meanP y c) * Ideal.rsqrt (varP y c + eps) + be c = _
  rw [meanP_eq, varP_eq_varF hy hB]
  show g c * (y r c - meanF (colSum y) c) * invF (colSum y) (colSumSq y) c + be c = _
  rw [hm, hi, ha, hgg, hbb]
  exact normalise_real gg a m i bb

end Cert.Net

end
-- ==== Proof.LibNetBridge.lean ====
/-
  The two spellings of the network agree on finite data.  One layer in the folded spelling (running maximum started at
  zero, variance as mean square minus squared mean, the normalisation as one multiply-add, quantised values used as
  they are, input-major weight signs) equals the layer in the plain spelling (supremum, variance as the mean of the
  squared deviations, the mean subtracted first, quantised values and weight signs spelt as corrections) whenever the
  layer's input, weights, bias, scale and shift are real-valued, the activation sends reals to reals and there are
  65536 rows; the layer's output is then real-valued again, so the three layers chain.
-/
import proofs.«131146_j57208964383148_1_alg».proof.Proof.LibNetNorm

noncomputable section

namespace Cert.Net

open Idealize.ShloMosaic

variable {B D H : ℕ}

/-- One layer: on real-valued input, weights, bias, scale and shift, with an activation that sends reals to reals and
    65536 rows, the folded spelling equals the plain spelling, and the result is real-valued. -/
theorem layerF_eq_layerP (act : EReal → EReal) (hact : ∀ a : ℝ, ∃ b : ℝ, act (a : EReal) = (b : EReal))
    {x : Fin B → Fin D → EReal} {W : Fin H → Fin D → EReal} {b g be : Fin H → EReal}
    (hx : RealM x) (hW : RealM W) (hb : RealV b) (hg : RealV g) (hbe : RealV be) (hB : (B : ℝ) = 65536) :
    layerF act x (signsT W) b g be = layerP act x W b g be ∧ RealM (layerP act x W b g be) := by
  have hyR : RealM (dense x (signsT W) b) := dense_real hx (signsT_real W) hb
  have hnR : RealM (normP (dense x (signsT W) b) g be) := normP_real hyR hg hbe hB
  have haR : RealM (fun r c => act (fq (normP (dense x (signsT W) b) g be) r c)) := by
    intro r c
    obtain ⟨a, ha⟩ := fq_real hnR r c
    show ∃ v : ℝ, act (fq (normP (dense x (signsT W) b) g be) r c) = (v : EReal)
    rw [ha]
    exact hact a
  have hP : layerP act x W b g be
      = fq (fun r c => act (fq (normP (dense x (signsT W) b) g be) r c)) := by
    show fq (fun r c => act (fq (normP (denseP x (signsP W) b) g be) r c)) = _
    rw [denseP_signsP hW]
  refine ⟨?_, ?_⟩
  · rw [hP, fq_eq haR, fq_eq hnR, normP_eq_affine hyR hg hbe hB]
    rfl
  · rw [hP]
    exact fq_real haR

/-- The whole map: on finite inputs (every entry of the thirteen arrays a real number, 65536 rows) the folded
    spelling of the three-layer network equals the plain spelling, result by result. -/
theorem netF_eq_netP {D1 H1 H2 H3 : ℕ}
    (x : Fin 65536 → Fin D1 → EReal)
    (W1 : Fin H1 → Fin D1 → EReal) (b1 g1 be1 : Fin H1 → EReal)
    (W2 : Fin H2 → Fin H1 → EReal) (b2 g2 be2 : Fin H2 → EReal)
    (W3 : Fin H3 → Fin H2 → EReal) (b3 g3 be3 : Fin H3 → EReal)
    (hx : ∀ r k, ∃ a : ℝ, x r k = (a : EReal))
    (hW1 : ∀ c k, ∃ a : ℝ, W1 c k = (a : EReal)) (hb1 : ∀ c, ∃ a : ℝ, b1 c = (a : EReal))
    (hg1 : ∀ c, ∃ a : ℝ, g1 c = (a : EReal)) (hbe1 : ∀ c, ∃ a : ℝ, be1 c = (a : EReal))
    (hW2 : ∀ c k, ∃ a : ℝ, W2 c k = (a : EReal)) (hb2 : ∀ c, ∃ a : ℝ, b2 c = (a : EReal))
    (hg2 : ∀ c, ∃ a : ℝ, g2 c = (a : EReal)) (hbe2 : ∀ c, ∃ a : ℝ, be2 c = (a : EReal))
    (hW3 : ∀ c k, ∃ a : ℝ, W3 c k = (a : EReal)) (hb3 : ∀ c, ∃ a : ℝ, b3 c = (a : EReal))
    (hg3 : ∀ c, ∃ a : ℝ, g3 c = (a : EReal)) (hbe3 : ∀ c, ∃ a : ℝ, be3 c = (a : EReal)) :
    netF x W1 b1 g1 be1 W2 b2 g2 be2 W3 b3 g3 be3 = netP x W1 b1 g1 be1 W2 b2 g2 be2 W3 b3 g3 be3 := by
  have hB : ((65536 : ℕ) : ℝ) = 65536 := by norm_num
  have h0 : quantAll (step (runMax x)) x = fq x := (fq_eq hx).symm
  have h0R : RealM (fq x) := fq_real hx
  obtain ⟨e1, r1⟩ := layerF_eq_layerP relu relu_real h0R hW1 hb1 hg1 hbe1 hB
  obtain ⟨e2, r2⟩ := layerF_eq_layerP relu relu_real r1 hW2 hb2 hg2 hbe2 hB
  obtain ⟨e3, _⟩ := layerF_eq_layerP Ideal.logistic logistic_real r2 hW3 hb3 hg3 hbe3 hB
  show (layerF relu (quantAll (step (runMax x)) x) (signsT W1) b1 g1 be1,
      layerF relu (layerF relu (quantAll (step (runMax x)) x) (signsT W1) b1 g1 be1) (signsT W2) b2 g2 be2,
      layerF Ideal.logistic
        (layerF relu (layerF relu (quantAll (step (runMax x)) x) (signsT W1) b1 g1 be1) (signsT W2) b2 g2 be2)
        (signsT W3) b3 g3 be3)
    = (layerP relu (fq x) W1 b1 g1 be1,
      layerP relu (layerP relu (fq x) W1 b1 g1 be1) W2 b2 g2 be2,
      layerP Ideal.logistic (layerP relu (layerP relu (fq x) W1 b1 g1 be1) W2 b2 g2 be2) W3 b3 g3 be3)
  rw [h0, e1, e2, e3]

end Cert.Net

end
-- ==== Proof.RefOps.lean ====
/- The reference program's @main as a list of its 345 host operations, the outlined functions' operations
   standing at their call sites over the calls' own buffers, cut into 12 consecutive windows; with, per window, the
   buffers it writes, and the contents of the device's buffers window after window (val0 … val12). -/
import proofs.«131146_j57208964383148_1_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 33 of 345. -/
abbrev w0 : List (HloOp τ sig (Elt F)) :=
  [ unary main_arg0 main_v0 (Host.absf : (⟨S65536x784, .f32⟩ : BufTy).Contents (Elt F) → (⟨S65536x784, .f32⟩ : BufTy).Contents (Elt F)),
    nullary main_cst (constant S_ .f32 0xFF800000#32),
    binary main_v0 main_cst main_v1 ((fun x v => Host.reduce FloatOps.maximumf x v reducesTo_S65536x784_S_d0_1 h_S_) : (⟨S65536x784, .f32⟩ : BufTy).Contents (Elt F) → (⟨S_, .f32⟩ : BufTy).Contents (Elt F) → (⟨S_, .f32⟩ : BufTy).Contents (Elt F)),
    nullary main_cst_0 (constant S_ .f32 0x322BCC77#32),
    binary main_v1 main_cst_0 main_v2 (maximumf : (⟨S_, .f32⟩ : BufTy).Contents (Elt F) → (⟨S_, .f32⟩ : BufTy).Contents (Elt F) → (⟨S_, .f32⟩ : BufTy).Contents (Elt F)),
    nullary main_cst_1 (constant S_ .f32 0x42FE0000#32),
    binary main_v2 main_cst_1 main_v3 (Host.divf : (⟨S_, .f32⟩ : BufTy).Contents (Elt F) → (⟨S_, .f32⟩ : BufTy).Contents (Elt F) → (⟨S_, .f32⟩ : BufTy).Contents (Elt F)),
    unary main_v3 main_v4 (broadcastInDim S65536x784 ![] bcast_S_S65536x784 : (⟨S_, .f32⟩ : BufTy).Contents (Elt F) → (⟨S65536x784, .f32⟩ : BufTy).Contents (Elt F)),
    binary main_arg0 main_v4 main_v5 (Host.divf : (⟨S65536x784, .f32⟩ : BufTy).Contents (Elt F) → (⟨S65536x784, .f32⟩ : BufTy).Contents (Elt F) → (⟨S65536x784, .f32⟩ : BufTy).Contents (Elt F)),
    unary main_v5 main_v6 (Host.roundeven : (⟨S65536x784, .f32⟩ : BufTy).Contents (Elt F) → (⟨S65536x784, .f32⟩ : BufTy).Contents (Elt F)),
    nullary main_c (constantI S_ 32 4294967168#32),
    nullary main_c_2 (constantI S_ 32 127#32),
    unary main_c main_call1_v0 (sitofp .f32 : (⟨S_, .i32⟩ : BufTy).Contents (Elt F) → (⟨S_, .f32⟩ : BufTy).Contents (Elt F)),
    unary main_call1_v0 main_call1_v1 (broadcastInDim S65536x784 ![] bcast_S_S65536x784 : (⟨S_, .f32⟩ : BufTy).Contents (Elt F) → (⟨S65536x784, .f32⟩ : BufTy).Contents (Elt F)),
    binary main_call1_v1 main_v6 main_call1_v2 (maximumf : (⟨S65536x784, .f32⟩ : BufTy).Contents (Elt F) → (⟨S65536x784, .f32⟩ : BufTy).Contents (Elt F) → (⟨S65536x784, .f32⟩ : BufTy).Contents (Elt F)),
    unary main_c_2 main_call1_v3 (sitofp .f32 : (⟨S_, .i32⟩ : BufTy).Contents (Elt F) → (⟨S_, .f32⟩ : BufTy).Contents (Elt F)),
    unary main_call1_v3 main_call1_v4 (broadcastInDim S65536x784 ![] bcast_S_S65536x784 : (⟨S_, .f32⟩ : BufTy).Contents (Elt F) → (⟨S65536x784, .f32⟩ : BufTy).Contents (Elt F)),
    binary main_call1_v4 main_call1_v2 main_v7 (minimumf : (⟨S65536x784, .f32⟩ : BufTy).Contents (Elt F) → (⟨S65536x784, .f32⟩ : BufTy).Contents (Elt F) → (⟨S65536x784, .f32⟩ : BufTy).Contents (Elt F)),
    unary main_v3 main_v8 (broadcastInDim S65536x784 ![] bcast_S_S65536x784 : (⟨S_, .f32⟩ : BufTy).Contents (Elt F) → (⟨S65536x784, .f32⟩ : BufTy).Contents (Elt F)),
    binary main_v7 main_v8 main_v9 (mulf : (⟨S65536x784, .f32⟩ : BufTy).Contents (Elt F) → (⟨S65536x784, .f32⟩ : BufTy).Contents (Elt F) → (⟨S65536x784, .f32⟩ : BufTy).Contents (Elt F)),
    binary main_v9 main_arg0 main_v10 (subf : (⟨S65536x784, .f32⟩ : BufTy).Contents (Elt F) → (⟨S65536x784, .f32⟩ : BufTy).Contents (Elt F) → (⟨S65536x784, .f32⟩ : BufTy).Contents (Elt F)),
    binary main_arg0 main_v10 main_v11 (addf : (⟨S65536x784, .f32⟩ : BufTy).Contents (Elt F) → (⟨S65536x784, .f32⟩ : BufTy).Contents (Elt F) → (⟨S65536x784, .f32⟩ : BufTy).Contents (Elt F)),
    nullary main_cst_3 (constant S_ .f32 0x00000000#32),
    unary main_cst_3 main_v12 (broadcastInDim S128x784 ![] bcast_S_S128x784 : (⟨S_, .f32⟩ : BufTy).Contents (Elt F) → (⟨S128x784, .f32⟩ : BufTy).Contents (Elt F)),
    binary main_arg1 main_v12 main_v13 (cmpf .oge : (⟨S128x784, .f32⟩ : BufTy).Contents (Elt F) → (⟨S128x784, .f32⟩ : BufTy).Contents (Elt F) → (⟨S128x784, .i1⟩ : BufTy).Contents (Elt F)),
    nullary main_cst_4 (constant S_ .f32 0x3F800000#32),
    nullary main_cst_5 (constant S_ .f32 0xBF800000#32),
    unary main_cst_4 main_call2_v0 (broadcastInDim S128x784 ![] bcast_S_S128x784 : (⟨S_, .f32⟩ : BufTy).Contents (Elt F) → (⟨S128x784, .f32⟩ : BufTy).Contents (Elt F)),
    unary main_cst_5 main_call2_v1 (broadcastInDim S128x784 ![] bcast_S_S128x784 : (⟨S_, .f32⟩ : BufTy).Contents (Elt F) → (⟨S128x784, .f32⟩ : BufTy).Contents (Elt F)),
    ternary main_v13 main_call2_v0 main_call2_v1 main_v14 (select : (⟨S128x784, .i1⟩ : BufTy).Contents (Elt F) → (⟨S128x784, .f32⟩ : BufTy).Contents (Elt F) → (⟨S128x784, .f32⟩ : BufTy).Contents (Elt F) → (⟨S128x784, .f32⟩ : BufTy).Contents (Elt F)),
    unary main_v14 main_v15 (id : (⟨S128x784, .f32⟩ : BufTy).Contents (Elt F) → (⟨S128x784, .f32⟩ : BufTy).Contents (Elt F)),
    binary main_v15 main_arg1 main_v16 (subf : (⟨S128x784, .f32⟩ : BufTy).Contents (Elt F) → (⟨S128x784, .f32⟩ : BufTy).Contents (Elt F) → (⟨S128x784, .f32⟩ : BufTy).Contents (Elt F)),
    binary main_arg1 main_v16 main_v17 (addf : (⟨S128x784, .f32⟩ : BufTy).Contents (Elt F) → (⟨S128x784, .f32⟩ : BufTy).Contents (Elt F) → (⟨S128x784, .f32⟩ : BufTy).Contents (Elt F)) ]

/-- Operations 34 … 65 of 345. -/
abbrev w1 : List (HloOp τ sig (Elt F)) :=
  [ binary main_v11 main_v17 main_v18 ((fun l r => Host.dotGeneral dot_S65536x784_S128x784_S65536x128_1_1_0_0_n_n none l r) : (⟨S65536x784, .f32⟩ : BufTy).Contents (Elt F) → (⟨S128x784, .f32⟩ : BufTy).Contents (Elt F) → (⟨S65536x128, .f32⟩ : BufTy).Contents (Elt F)),
    unary main_arg2 main_v19 (broadcastInDim S1x128 ![1] bcast_S128_S1x128_1 : (⟨S128, .f32⟩ : BufTy).Contents (Elt F) → (⟨S1x128, .f32⟩ : BufTy).Contents (Elt F)),
    unary main_v19 main_v20 (broadcastInDim S65536x128 ![0, 1] bcast_S1x128_S65536x128_0_1 : (⟨S1x128, .f32⟩ : BufTy).Contents (Elt F) → (⟨S65536x128, .f32⟩ : BufTy).Contents (Elt F)),
    binary main_v18 main_v20 main_v21 (addf : (⟨S65536x128, .f32⟩ : BufTy).Contents (Elt F) → (⟨S65536x128, .f32⟩ : BufTy).Contents (Elt F) → (⟨S65536x128, .f32⟩ : BufTy).Contents (Elt F)),
    nullary main_cst_6 (constant S_ .f32 0x00000000#32),
    binary main_v21 main_cst_6 main_v22 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    nullary main_cst_7 (constant S_ .f32 0x47800000#32),
    unary main_cst_7 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    nullary main_call3_cst (constant S_ .f32 0x00000000#32 : (⟨S_, .f32⟩ : BufTy).Contents (Elt F)),
    binary main_v21 main_call3_cst main_call3_v0 (fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)),
    unary main_call3_v0 main_call3_v1 (broadcastInDim S1x128 ![1] bcast_S128_S1x128_1 : (⟨S128, .f32⟩ : BufTy).Contents (Elt F) → (⟨S1x128, .f32⟩ : BufTy).Contents (Elt F)),
    nullary main_call3_cst_0 (constant S_ .f32 0x47800000#32 : (⟨S_, .f32⟩ : BufTy).Contents (Elt F)),
    unary main_call3_cst_0 main_call3_v2 (broadcastInDim S1x128 ![] bcast_S_S1x128 : (⟨S_, .f32⟩ : BufTy).Contents (Elt F) → (⟨S1x128, .f32⟩ : BufTy).Contents (Elt F)),
    binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
    unary main_call3_v3 main_call3_v4 (broadcastInDim S65536x128 ![0, 1] bcast_S1x128_S65536x128_0_1 : (⟨S1x128, .f32⟩ : BufTy).Contents (Elt F) → (⟨S65536x128, .f32⟩ : BufTy).Contents (Elt F)),
    binary main_v21 main_call3_v4 main_call3_v5 (subf : (⟨S65536x128, .f32⟩ : BufTy).Contents (Elt F) → (⟨S65536x128, .f32⟩ : BufTy).Contents (Elt F) → (⟨S65536x128, .f32⟩ : BufTy).Contents (Elt F)),
    binary main_call3_v5 main_call3_v5 main_call3_v6 (mulf : (⟨S65536x128, .f32⟩ : BufTy).Contents (Elt F) → (⟨S65536x128, .f32⟩ : BufTy).Contents (Elt F) → (⟨S65536x128, .f32⟩ : BufTy).Contents (Elt F)),
    unary main_c_8 main_call3_v7 (sitofp .f32 : (⟨S_, .i32⟩ : BufTy).Contents (Elt F) → (⟨S_, .f32⟩ : BufTy).Contents (Elt F)),
    nullary main_call3_cst_1 (constant S_ .f32 0x47800000#32 : (⟨S_, .f32⟩ : BufTy).Contents (Elt F)),
    binary main_call3_cst_1 main_call3_v7 main_call3_v8 (subf : (⟨S_, .f32⟩ : BufTy).Contents (Elt F) → (⟨S_, .f32⟩ : BufTy).Contents (Elt F) → (⟨S_, .f32⟩ : BufTy).Contents (Elt F)),
    nullary main_call3_cst_2 (constant S_ .f32 0x00000000#32 : (⟨S_, .f32⟩ : BufTy).Contents (Elt F)),
    binary main_call3_v6 main_call3_cst_2 main_call3_v9 (fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)),
    unary main_call3_v8 main_call3_v10 (broadcastInDim S128 ![] bcast_S_S128 : (⟨S_, .f32⟩ : BufTy).Contents (Elt F) → (⟨S128, .f32⟩ : BufTy).Contents (Elt F)),
    binary main_call3_v9 main_call3_v10 main_call3_v11 (Host.divf : (⟨S128, .f32⟩ : BufTy).Contents (Elt F) → (⟨S128, .f32⟩ : BufTy).Contents (Elt F) → (⟨S128, .f32⟩ : BufTy).Contents (Elt F)),
    nullary main_call3_cst_3 (constant S_ .f32 0x00000000#32 : (⟨S_, .f32⟩ : BufTy).Contents (Elt F)),
    binary main_call3_v8 main_call3_cst_3 main_call3_v12 (cmpf .ogt : (⟨S_, .f32⟩ : BufTy).Contents (Elt F) → (⟨S_, .f32⟩ : BufTy).Contents (Elt F) → (⟨S_, .i1⟩ : BufTy).Contents (Elt F)),
    nullary main_call3_cst_4 (constant S_ .f32 0x7FC00000#32 : (⟨S_, .f32⟩ : BufTy).Contents (Elt F)),
    unary main_call3_cst_4 main_call3_call0_v0 (id : (⟨S_, .f32⟩ : BufTy).Contents (Elt F) → (⟨S_, .f32⟩ : BufTy).Contents (Elt F)),
    unary main_call3_call0_v0 main_call3_call0_v1 (broadcastInDim S128 ![] bcast_S_S128 : (⟨S_, .f32⟩ : BufTy).Contents (Elt F) → (⟨S128, .f32⟩ : BufTy).Contents (Elt F)),
    ternary main_call3_v12 main_call3_v11 main_call3_call0_v1 main_v25 (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- Operations 66 … 88 of 345. -/
abbrev w2 : List (HloOp τ sig (Elt F)) :=
  [ unary main_v24 main_v26 (broadcastInDim S1x128 ![1] bcast_S128_S1x128_1 : (⟨S128, .f32⟩ : BufTy).Contents (Elt F) → (⟨S1x128, .f32⟩ : BufTy).Contents (Elt F)),
    unary main_v26 main_v27 (broadcastInDim S65536x128 ![0, 1] bcast_S1x128_S65536x128_0_1 : (⟨S1x128, .f32⟩ : BufTy).Contents (Elt F) → (⟨S65536x128, .f32⟩ : BufTy).Contents (Elt F)),
    binary main_v21 main_v27 main_v28 (subf : (⟨S65536x128, .f32⟩ : BufTy).Contents (Elt F) → (⟨S65536x128, .f32⟩ : BufTy).Contents (Elt F) → (⟨S65536x128, .f32⟩ : BufTy).Contents (Elt F)),
    unary main_arg3 main_v29 (broadcastInDim S1x128 ![1] bcast_S128_S1x128_1 : (⟨S128, .f32⟩ : BufTy).Contents (Elt F) → (⟨S1x128, .f32⟩ : BufTy).Contents (Elt F)),
    unary main_v29 main_v30 (broadcastInDim S65536x128 ![0, 1] bcast_S1x128_S65536x128_0_1 : (⟨S1x128, .f32⟩ : BufTy).Contents (Elt F) → (⟨S65536x128, .f32⟩ : BufTy).Contents (Elt F)),
    binary main_v30 main_v28 main_v31 (mulf : (⟨S65536x128, .f32⟩ : BufTy).Contents (Elt F) → (⟨S65536x128, .f32⟩ : BufTy).Contents (Elt F) → (⟨S65536x128, .f32⟩ : BufTy).Contents (Elt F)),
    nullary main_cst_9 (constant S_ .f32 0x3727C5AC#32),
    unary main_cst_9 main_v32 (broadcastInDim S128 ![] bcast_S_S128 : (⟨S_, .f32⟩ : BufTy).Contents (Elt F) → (⟨S128, .f32⟩ : BufTy).Contents (Elt F)),
    binary main_v25 main_v32 main_v33 (addf : (⟨S128, .f32⟩ : BufTy).Contents (Elt F) → (⟨S128, .f32⟩ : BufTy).Contents (Elt F) → (⟨S128, .f32⟩ : BufTy).Contents (Elt F)),
    unary main_v33 main_v34 (Host.rsqrt : (⟨S128, .f32⟩ : BufTy).Contents (Elt F) → (⟨S128, .f32⟩ : BufTy).Contents (Elt F)),
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S65536x128 ![0, 1] bcast_S1x128_S65536x128_0_1 : (⟨S1x128, .f32⟩ : BufTy).Contents (Elt F) → (⟨S65536x128, .f32⟩ : BufTy).Contents (Elt F)),
    binary main_v31 main_v36 main_v37 (mulf : (⟨S65536x128, .f32⟩ : BufTy).Contents (Elt F) → (⟨S65536x128, .f32⟩ : BufTy).Contents (Elt F) → (⟨S65536x128, .f32⟩ : BufTy).Contents (Elt F)),
    unary main_arg4 main_v38 (broadcastInDim S1x128 ![1] bcast_S128_S1x128_1 : (⟨S128, .f32⟩ : BufTy).Contents (Elt F) → (⟨S1x128, .f32⟩ : BufTy).Contents (Elt F)),
    unary main_v38 main_v39 (broadcastInDim S65536x128 ![0, 1] bcast_S1x128_S65536x128_0_1 : (⟨S1x128, .f32⟩ : BufTy).Contents (Elt F) → (⟨S65536x128, .f32⟩ : BufTy).Contents (Elt F)),
    binary main_v37 main_v39 main_v40 (addf : (⟨S65536x128, .f32⟩ : BufTy).Contents (Elt F) → (⟨S65536x128, .f32⟩ : BufTy).Contents (Elt F) → (⟨S65536x128, .f32⟩ : BufTy).Contents (Elt F)),
    unary main_v40 main_v41 (Host.absf : (⟨S65536x128, .f32⟩ : BufTy).Contents (Elt F) → (⟨S65536x128, .f32⟩ : BufTy).Contents (Elt F)),
    nullary main_cst_10 (constant S_ .f32 0xFF800000#32),
    binary main_v41 main_cst_10 main_v42 ((fun x v => Host.reduce FloatOps.maximumf x v reducesTo_S65536x128_S_d0_1 h_S_) : (⟨S65536x128, .f32⟩ : BufTy).Contents (Elt F) → (⟨S_, .f32⟩ : BufTy).Contents (Elt F) → (⟨S_, .f32⟩ : BufTy).Contents (Elt F)),
    nullary main_cst_11 (constant S_ .f32 0x322BCC77#32),
    binary main_v42 main_cst_11 main_v43 (maximumf : (⟨S_, .f32⟩ : BufTy).Contents (Elt F) → (⟨S_, .f32⟩ : BufTy).Contents (Elt F) → (⟨S_, .f32⟩ : BufTy).Contents (Elt F)),
    nullary main_cst_12 (constant S_ .f32 0x42FE0000#32),
    binary main_v43 main_cst_12 main_v44 (Host.divf : (⟨S_, .f32⟩ : BufTy).Contents (Elt F) → (⟨S_, .f32⟩ : BufTy).Contents (Elt F) → (⟨S_, .f32⟩ : BufTy).Contents (Elt F)) ]

/-- Operations 89 … 106 of 345. -/
abbrev w3 : List (HloOp τ sig (Elt F)) :=
  [ unary main_v44 main_v45 (broadcastInDim S65536x128 ![] bcast_S_S65536x128 : (⟨S_, .f32⟩ : BufTy).Contents (Elt F) → (⟨S65536x128, .f32⟩ : BufTy).Contents (Elt F)),
    binary main_v40 main_v45 main_v46 (Host.divf : (⟨S65536x128, .f32⟩ : BufTy).Contents (Elt F) → (⟨S65536x128, .f32⟩ : BufTy).Contents (Elt F) → (⟨S65536x128, .f32⟩ : BufTy).Contents (Elt F)),
    unary main_v46 main_v47 (Host.roundeven : (⟨S65536x128, .f32⟩ : BufTy).Contents (Elt F) → (⟨S65536x128, .f32⟩ : BufTy).Contents (Elt F)),
    nullary main_c_13 (constantI S_ 32 4294967168#32),
    nullary main_c_14 (constantI S_ 32 127#32),
    unary main_c_13 main_call5_v0 (sitofp .f32 : (⟨S_, .i32⟩ : BufTy).Contents (Elt F) → (⟨S_, .f32⟩ : BufTy).Contents (Elt F)),
    unary main_call5_v0 main_call5_v1 (broadcastInDim S65536x128 ![] bcast_S_S65536x128 : (⟨S_, .f32⟩ : BufTy).Contents (Elt F) → (⟨S65536x128, .f32⟩ : BufTy).Contents (Elt F)),
    binary main_call5_v1 main_v47 main_call5_v2 (maximumf : (⟨S65536x128, .f32⟩ : BufTy).Contents (Elt F) → (⟨S65536x128, .f32⟩ : BufTy).Contents (Elt F) → (⟨S65536x128, .f32⟩ : BufTy).Contents (Elt F)),
    unary main_c_14 main_call5_v3 (sitofp .f32 : (⟨S_, .i32⟩ : BufTy).Contents (Elt F) → (⟨S_, .f32⟩ : BufTy).Contents (Elt F)),
    unary main_call5_v3 main_call5_v4 (broadcastInDim S65536x128 ![] bcast_S_S65536x128 : (⟨S_, .f32⟩ : BufTy).Contents (Elt F) → (⟨S65536x128, .f32⟩ : BufTy).Contents (Elt F)),
    binary main_call5_v4 main_call5_v2 main_v48 (minimumf : (⟨S65536x128, .f32⟩ : BufTy).Contents (Elt F) → (⟨S65536x128, .f32⟩ : BufTy).Contents (Elt F) → (⟨S65536x128, .f32⟩ : BufTy).Contents (Elt F)),
    unary main_v44 main_v49 (broadcastInDim S65536x128 ![] bcast_S_S65536x128 : (⟨S_, .f32⟩ : BufTy).Contents (Elt F) → (⟨S65536x128, .f32⟩ : BufTy).Contents (Elt F)),
    binary main_v48 main_v49 main_v50 (mulf : (⟨S65536x128, .f32⟩ : BufTy).Contents (Elt F) → (⟨S65536x128, .f32⟩ : BufTy).Contents (Elt F) → (⟨S65536x128, .f32⟩ : BufTy).Contents (Elt F)),
    binary main_v50 main_v40 main_v51 (subf : (⟨S65536x128, .f32⟩ : BufTy).Contents (Elt F) → (⟨S65536x128, .f32⟩ : BufTy).Contents (Elt F) → (⟨S65536x128, .f32⟩ : BufTy).Contents (Elt F)),
    binary main_v40 main_v51 main_v52 (addf : (⟨S65536x128, .f32⟩ : BufTy).Contents (Elt F) → (⟨S65536x128, .f32⟩ : BufTy).Contents (Elt F) → (⟨S65536x128, .f32⟩ : BufTy).Contents (Elt F)),
    nullary main_call6_cst (constant S_ .f32 0x00000000#32 : (⟨S_, .f32⟩ : BufTy).Contents (Elt F)),
    unary main_call6_cst main_call6_v0 (broadcastInDim S65536x128 ![] bcast_S_S65536x128 : (⟨S_, .f32⟩ : BufTy).Contents (Elt F) → (⟨S65536x128, .f32⟩ : BufTy).Contents (Elt F)),
    binary main_v52 main_call6_v0 main_v53 (maximumf : (⟨S65536x128, .f32⟩ : BufTy).Contents (Elt F) → (⟨S65536x128, .f32⟩ : BufTy).Contents (Elt F) → (⟨S65536x128, .f32⟩ : BufTy).Contents (Elt F)) ]

/-- Operations 107 … 139 of 345. -/
abbrev w4 : List (HloOp τ sig (Elt F)) :=
  [ unary main_v53 main_v54 (Host.absf : (⟨S65536x128, .f32⟩ : BufTy).Contents (Elt F) → (⟨S65536x128, .f32⟩ : BufTy).Contents (Elt F)),
    nullary main_cst_15 (constant S_ .f32 0xFF800000#32),
    binary main_v54 main_cst_15 main_v55 ((fun x v => Host.reduce FloatOps.maximumf x v reducesTo_S65536x128_S_d0_1 h_S_) : (⟨S65536x128, .f32⟩ : BufTy).Contents (Elt F) → (⟨S_, .f32⟩ : BufTy).Contents (Elt F) → (⟨S_, .f32⟩ : BufTy).Contents (Elt F)),
    nullary main_cst_16 (constant S_ .f32 0x322BCC77#32),
    binary main_v55 main_cst_16 main_v56 (maximumf : (⟨S_, .f32⟩ : BufTy).Contents (Elt F) → (⟨S_, .f32⟩ : BufTy).Contents (Elt F) → (⟨S_, .f32⟩ : BufTy).Contents (Elt F)),
    nullary main_cst_17 (constant S_ .f32 0x42FE0000#32),
    binary main_v56 main_cst_17 main_v57 (Host.divf : (⟨S_, .f32⟩ : BufTy).Contents (Elt F) → (⟨S_, .f32⟩ : BufTy).Contents (Elt F) → (⟨S_, .f32⟩ : BufTy).Contents (Elt F)),
    unary main_v57 main_v58 (broadcastInDim S65536x128 ![] bcast_S_S65536x128 : (⟨S_, .f32⟩ : BufTy).Contents (Elt F) → (⟨S65536x128, .f32⟩ : BufTy).Contents (Elt F)),
    binary main_v53 main_v58 main_v59 (Host.divf : (⟨S65536x128, .f32⟩ : BufTy).Contents (Elt F) → (⟨S65536x128, .f32⟩ : BufTy).Contents (Elt F) → (⟨S65536x128, .f32⟩ : BufTy).Contents (Elt F)),
    unary main_v59 main_v60 (Host.roundeven : (⟨S65536x128, .f32⟩ : BufTy).Contents (Elt F) → (⟨S65536x128, .f32⟩ : BufTy).Contents (Elt F)),
    nullary main_c_18 (constantI S_ 32 4294967168#32),
    nullary main_c_19 (constantI S_ 32 127#32),
    unary main_c_18 main_call8_v0 (sitofp .f32 : (⟨S_, .i32⟩ : BufTy).Contents (Elt F) → (⟨S_, .f32⟩ : BufTy).Contents (Elt F)),
    unary main_call8_v0 main_call8_v1 (broadcastInDim S65536x128 ![] bcast_S_S65536x128 : (⟨S_, .f32⟩ : BufTy).Contents (Elt F) → (⟨S65536x128, .f32⟩ : BufTy).Contents (Elt F)),
    binary main_call8_v1 main_v60 main_call8_v2 (maximumf : (⟨S65536x128, .f32⟩ : BufTy).Contents (Elt F) → (⟨S65536x128, .f32⟩ : BufTy).Contents (Elt F) → (⟨S65536x128, .f32⟩ : BufTy).Contents (Elt F)),
    unary main_c_19 main_call8_v3 (sitofp .f32 : (⟨S_, .i32⟩ : BufTy).Contents (Elt F) → (⟨S_, .f32⟩ : BufTy).Contents (Elt F)),
    unary main_call8_v3 main_call8_v4 (broadcastInDim S65536x128 ![] bcast_S_S65536x128 : (⟨S_, .f32⟩ : BufTy).Contents (Elt F) → (⟨S65536x128, .f32⟩ : BufTy).Contents (Elt F)),
    binary main_call8_v4 main_call8_v2 main_v61 (minimumf : (⟨S65536x128, .f32⟩ : BufTy).Contents (Elt F) → (⟨S65536x128, .f32⟩ : BufTy).Contents (Elt F) → (⟨S65536x128, .f32⟩ : BufTy).Contents (Elt F)),
    unary main_v57 main_v62 (broadcastInDim S65536x128 ![] bcast_S_S65536x128 : (⟨S_, .f32⟩ : BufTy).Contents (Elt F) → (⟨S65536x128, .f32⟩ : BufTy).Contents (Elt F)),
    binary main_v61 main_v62 main_v63 (mulf : (⟨S65536x128, .f32⟩ : BufTy).Contents (Elt F) → (⟨S65536x128, .f32⟩ : BufTy).Contents (Elt F) → (⟨S65536x128, .f32⟩ : BufTy).Contents (Elt F)),
    binary main_v63 main_v53 main_v64 (subf : (⟨S65536x128, .f32⟩ : BufTy).Contents (Elt F) → (⟨S65536x128, .f32⟩ : BufTy).Contents (Elt F) → (⟨S65536x128, .f32⟩ : BufTy).Contents (Elt F)),
    binary main_v53 main_v64 main_v65 (addf : (⟨S65536x128, .f32⟩ : BufTy).Contents (Elt F) → (⟨S65536x128, .f32⟩ : BufTy).Contents (Elt F) → (⟨S65536x128, .f32⟩ : BufTy).Contents (Elt F)),
    nullary main_cst_20 (constant S_ .f32 0x00000000#32),
    unary main_cst_20 main_v66 (broadcastInDim S128x128 ![] bcast_S_S128x128 : (⟨S_, .f32⟩ : BufTy).Contents (Elt F) → (⟨S128x128, .f32⟩ : BufTy).Contents (Elt F)),
    binary main_arg5 main_v66 main_v67 (cmpf .oge : (⟨S128x128, .f32⟩ : BufTy).Contents (Elt F) → (⟨S128x128, .f32⟩ : BufTy).Contents (Elt F) → (⟨S128x128, .i1⟩ : BufTy).Contents (Elt F)),
    nullary main_cst_21 (constant S_ .f32 0x3F800000#32),
    nullary main_cst_22 (constant S_ .f32 0xBF800000#32),
    unary main_cst_21 main_call9_v0 (broadcastInDim S128x128 ![] bcast_S_S128x128 : (⟨S_, .f32⟩ : BufTy).Contents (Elt F) → (⟨S128x128, .f32⟩ : BufTy).Contents (Elt F)),
    unary main_cst_22 main_call9_v1 (broadcastInDim S128x128 ![] bcast_S_S128x128 : (⟨S_, .f32⟩ : BufTy).Contents (Elt F) → (⟨S128x128, .f32⟩ : BufTy).Contents (Elt F)),
    ternary main_v67 main_call9_v0 main_call9_v1 main_v68 (select : (⟨S128x128, .i1⟩ : BufTy).Contents (Elt F) → (⟨S128x128, .f32⟩ : BufTy).Contents (Elt F) → (⟨S128x128, .f32⟩ : BufTy).Contents (Elt F) → (⟨S128x128, .f32⟩ : BufTy).Contents (Elt F)),
    unary main_v68 main_v69 (id : (⟨S128x128, .f32⟩ : BufTy).Contents (Elt F) → (⟨S128x128, .f32⟩ : BufTy).Contents (Elt F)),
    binary main_v69 main_arg5 main_v70 (subf : (⟨S128x128, .f32⟩ : BufTy).Contents (Elt F) → (⟨S128x128, .f32⟩ : BufTy).Contents (Elt F) → (⟨S128x128, .f32⟩ : BufTy).Contents (Elt F)),
    binary main_arg5 main_v70 main_v71 (addf : (⟨S128x128, .f32⟩ : BufTy).Contents (Elt F) → (⟨S128x128, .f32⟩ : BufTy).Contents (Elt F) → (⟨S128x128, .f32⟩ : BufTy).Contents (Elt F)) ]

/-- Operations 140 … 171 of 345. -/
abbrev w5 : List (HloOp τ sig (Elt F)) :=
  [ binary main_v65 main_v71 main_v72 ((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)),
    unary main_arg6 main_v73 (broadcastInDim S1x128 ![1] bcast_S128_S1x128_1 : (⟨S128, .f32⟩ : BufTy).Contents (Elt F) → (⟨S1x128, .f32⟩ : BufTy).Contents (Elt F)),
    unary main_v73 main_v74 (broadcastInDim S65536x128 ![0, 1] bcast_S1x128_S65536x128_0_1 : (⟨S1x128, .f32⟩ : BufTy).Contents (Elt F) → (⟨S65536x128, .f32⟩ : BufTy).Contents (Elt F)),
    binary main_v72 main_v74 main_v75 (addf : (⟨S65536x128, .f32⟩ : BufTy).Contents (Elt F) → (⟨S65536x128, .f32⟩ : BufTy).Contents (Elt F) → (⟨S65536x128, .f32⟩ : BufTy).Contents (Elt F)),
    nullary main_cst_23 (constant S_ .f32 0x00000000#32),
    binary main_v75 main_cst_23 main_v76 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    nullary main_cst_24 (constant S_ .f32 0x47800000#32),
    unary main_cst_24 main_v77 (broadcastInDim S128 ![] bcast_S_S128 : (⟨S_, .f32⟩ : BufTy).Contents (Elt F) → (⟨S128, .f32⟩ : BufTy).Contents (Elt F)),
    binary main_v76 main_v77 main_v78 (Host.divf : (⟨S128, .f32⟩ : BufTy).Contents (Elt F) → (⟨S128, .f32⟩ : BufTy).Contents (Elt F) → (⟨S128, .f32⟩ : BufTy).Contents (Elt F)),
    nullary main_c_25 (constantI S_ 32 0#32),
    nullary main_call10_cst (constant S_ .f32 0x00000000#32 : (⟨S_, .f32⟩ : BufTy).Contents (Elt F)),
    binary main_v75 main_call10_cst main_call10_v0 (fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)),
    unary main_call10_v0 main_call10_v1 (broadcastInDim S1x128 ![1] bcast_S128_S1x128_1 : (⟨S128, .f32⟩ : BufTy).Contents (Elt F) → (⟨S1x128, .f32⟩ : BufTy).Contents (Elt F)),
    nullary main_call10_cst_0 (constant S_ .f32 0x47800000#32 : (⟨S_, .f32⟩ : BufTy).Contents (Elt F)),
    unary main_call10_cst_0 main_call10_v2 (broadcastInDim S1x128 ![] bcast_S_S1x128 : (⟨S_, .f32⟩ : BufTy).Contents (Elt F) → (⟨S1x128, .f32⟩ : BufTy).Contents (Elt F)),
    binary main_call10_v1 main_call10_v2 main_call10_v3 (Host.divf : (⟨S1x128, .f32⟩ : BufTy).Contents (Elt F) → (⟨S1x128, .f32⟩ : BufTy).Contents (Elt F) → (⟨S1x128, .f32⟩ : BufTy).Contents (Elt F)),
    unary main_call10_v3 main_call10_v4 (broadcastInDim S65536x128 ![0, 1] bcast_S1x128_S65536x128_0_1 : (⟨S1x128, .f32⟩ : BufTy).Contents (Elt F) → (⟨S65536x128, .f32⟩ : BufTy).Contents (Elt F)),
    binary main_v75 main_call10_v4 main_call10_v5 (subf : (⟨S65536x128, .f32⟩ : BufTy).Contents (Elt F) → (⟨S65536x128, .f32⟩ : BufTy).Contents (Elt F) → (⟨S65536x128, .f32⟩ : BufTy).Contents (Elt F)),
    binary main_call10_v5 main_call10_v5 main_call10_v6 (mulf : (⟨S65536x128, .f32⟩ : BufTy).Contents (Elt F) → (⟨S65536x128, .f32⟩ : BufTy).Contents (Elt F) → (⟨S65536x128, .f32⟩ : BufTy).Contents (Elt F)),
    unary main_c_25 main_call10_v7 (sitofp .f32 : (⟨S_, .i32⟩ : BufTy).Contents (Elt F) → (⟨S_, .f32⟩ : BufTy).Contents (Elt F)),
    nullary main_call10_cst_1 (constant S_ .f32 0x47800000#32 : (⟨S_, .f32⟩ : BufTy).Contents (Elt F)),
    binary main_call10_cst_1 main_call10_v7 main_call10_v8 (subf : (⟨S_, .f32⟩ : BufTy).Contents (Elt F) → (⟨S_, .f32⟩ : BufTy).Contents (Elt F) → (⟨S_, .f32⟩ : BufTy).Contents (Elt F)),
    nullary main_call10_cst_2 (constant S_ .f32 0x00000000#32 : (⟨S_, .f32⟩ : BufTy).Contents (Elt F)),
    binary main_call10_v6 main_call10_cst_2 main_call10_v9 (fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)),
    unary main_call10_v8 main_call10_v10 (broadcastInDim S128 ![] bcast_S_S128 : (⟨S_, .f32⟩ : BufTy).Contents (Elt F) → (⟨S128, .f32⟩ : BufTy).Contents (Elt F)),
    binary main_call10_v9 main_call10_v10 main_call10_v11 (Host.divf : (⟨S128, .f32⟩ : BufTy).Contents (Elt F) → (⟨S128, .f32⟩ : BufTy).Contents (Elt F) → (⟨S128, .f32⟩ : BufTy).Contents (Elt F)),
    nullary main_call10_cst_3 (constant S_ .f32 0x00000000#32 : (⟨S_, .f32⟩ : BufTy).Contents (Elt F)),
    binary main_call10_v8 main_call10_cst_3 main_call10_v12 (cmpf .ogt : (⟨S_, .f32⟩ : BufTy).Contents (Elt F) → (⟨S_, .f32⟩ : BufTy).Contents (Elt F) → (⟨S_, .i1⟩ : BufTy).Contents (Elt F)),
    nullary main_call10_cst_4 (constant S_ .f32 0x7FC00000#32 : (⟨S_, .f32⟩ : BufTy).Contents (Elt F)),
    unary main_call10_cst_4 main_call10_call0_v0 (id : (⟨S_, .f32⟩ : BufTy).Contents (Elt F) → (⟨S_, .f32⟩ : BufTy).Contents (Elt F)),
    unary main_call10_call0_v0 main_call10_call0_v1 (broadcastInDim S128 ![] bcast_S_S128 : (⟨S_, .f32⟩ : BufTy).Contents (Elt F) → (⟨S128, .f32⟩ : BufTy).Contents (Elt F)),
    ternary main_call10_v12 main_call10_v11 main_call10_call0_v1 main_v79 (fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- Operations 172 … 183 of 345. -/
abbrev w6 : List (HloOp τ sig (Elt F)) :=
  [ unary main_v78 main_v80 (broadcastInDim S1x128 ![1] bcast_S128_S1x128_1 : (⟨S128, .f32⟩ : BufTy).Contents (Elt F) → (⟨S1x128, .f32⟩ : BufTy).Contents (Elt F)),
    unary main_v80 main_v81 (broadcastInDim S65536x128 ![0, 1] bcast_S1x128_S65536x128_0_1 : (⟨S1x128, .f32⟩ : BufTy).Contents (Elt F) → (⟨S65536x128, .f32⟩ : BufTy).Contents (Elt F)),
    binary main_v75 main_v81 main_v82 (subf : (⟨S65536x128, .f32⟩ : BufTy).Contents (Elt F) → (⟨S65536x128, .f32⟩ : BufTy).Contents (Elt F) → (⟨S65536x128, .f32⟩ : BufTy).Contents (Elt F)),
    unary main_arg7 main_v83 (broadcastInDim S1x128 ![1] bcast_S128_S1x128_1 : (⟨S128, .f32⟩ : BufTy).Contents (Elt F) → (⟨S1x128, .f32⟩ : BufTy).Contents (Elt F)),
    unary main_v83 main_v84 (broadcastInDim S65536x128 ![0, 1] bcast_S1x128_S65536x128_0_1 : (⟨S1x128, .f32⟩ : BufTy).Contents (Elt F) → (⟨S65536x128, .f32⟩ : BufTy).Contents (Elt F)),
    binary main_v84 main_v82 main_v85 (mulf : (⟨S65536x128, .f32⟩ : BufTy).Contents (Elt F) → (⟨S65536x128, .f32⟩ : BufTy).Contents (Elt F) → (⟨S65536x128, .f32⟩ : BufTy).Contents (Elt F)),
    nullary main_cst_26 (constant S_ .f32 0x3727C5AC#32),
    unary main_cst_26 main_v86 (broadcastInDim S128 ![] bcast_S_S128 : (⟨S_, .f32⟩ : BufTy).Contents (Elt F) → (⟨S128, .f32⟩ : BufTy).Contents (Elt F)),
    binary main_v79 main_v86 main_v87 (addf : (⟨S128, .f32⟩ : BufTy).Contents (Elt F) → (⟨S128, .f32⟩ : BufTy).Contents (Elt F) → (⟨S128, .f32⟩ : BufTy).Contents (Elt F)),
    unary main_v87 main_v88 (Host.rsqrt : (⟨S128, .f32⟩ : BufTy).Contents (Elt F) → (⟨S128, .f32⟩ : BufTy).Contents (Elt F)),
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S65536x128 ![0, 1] bcast_S1x128_S65536x128_0_1 : (⟨S1x128, .f32⟩ : BufTy).Contents (Elt F) → (⟨S65536x128, .f32⟩ : BufTy).Contents (Elt F)) ]

/-- Operations 184 … 212 of 345. -/
abbrev w7 : List (HloOp τ sig (Elt F)) :=
  [ binary main_v85 main_v90 main_v91 (mulf : (⟨S65536x128, .f32⟩ : BufTy).Contents (Elt F) → (⟨S65536x128, .f32⟩ : BufTy).Contents (Elt F) → (⟨S65536x128, .f32⟩ : BufTy).Contents (Elt F)),
    unary main_arg8 main_v92 (broadcastInDim S1x128 ![1] bcast_S128_S1x128_1 : (⟨S128, .f32⟩ : BufTy).Contents (Elt F) → (⟨S1x128, .f32⟩ : BufTy).Contents (Elt F)),
    unary main_v92 main_v93 (broadcastInDim S65536x128 ![0, 1] bcast_S1x128_S65536x128_0_1 : (⟨S1x128, .f32⟩ : BufTy).Contents (Elt F) → (⟨S65536x128, .f32⟩ : BufTy).Contents (Elt F)),
    binary main_v91 main_v93 main_v94 (addf : (⟨S65536x128, .f32⟩ : BufTy).Contents (Elt F) → (⟨S65536x128, .f32⟩ : BufTy).Contents (Elt F) → (⟨S65536x128, .f32⟩ : BufTy).Contents (Elt F)),
    unary main_v94 main_v95 (Host.absf : (⟨S65536x128, .f32⟩ : BufTy).Contents (Elt F) → (⟨S65536x128, .f32⟩ : BufTy).Contents (Elt F)),
    nullary main_cst_27 (constant S_ .f32 0xFF800000#32),
    binary main_v95 main_cst_27 main_v96 ((fun x v => Host.reduce FloatOps.maximumf x v reducesTo_S65536x128_S_d0_1 h_S_) : (⟨S65536x128, .f32⟩ : BufTy).Contents (Elt F) → (⟨S_, .f32⟩ : BufTy).Contents (Elt F) → (⟨S_, .f32⟩ : BufTy).Contents (Elt F)),
    nullary main_cst_28 (constant S_ .f32 0x322BCC77#32),
    binary main_v96 main_cst_28 main_v97 (maximumf : (⟨S_, .f32⟩ : BufTy).Contents (Elt F) → (⟨S_, .f32⟩ : BufTy).Contents (Elt F) → (⟨S_, .f32⟩ : BufTy).Contents (Elt F)),
    nullary main_cst_29 (constant S_ .f32 0x42FE0000#32),
    binary main_v97 main_cst_29 main_v98 (Host.divf : (⟨S_, .f32⟩ : BufTy).Contents (Elt F) → (⟨S_, .f32⟩ : BufTy).Contents (Elt F) → (⟨S_, .f32⟩ : BufTy).Contents (Elt F)),
    unary main_v98 main_v99 (broadcastInDim S65536x128 ![] bcast_S_S65536x128 : (⟨S_, .f32⟩ : BufTy).Contents (Elt F) → (⟨S65536x128, .f32⟩ : BufTy).Contents (Elt F)),
    binary main_v94 main_v99 main_v100 (Host.divf : (⟨S65536x128, .f32⟩ : BufTy).Contents (Elt F) → (⟨S65536x128, .f32⟩ : BufTy).Contents (Elt F) → (⟨S65536x128, .f32⟩ : BufTy).Contents (Elt F)),
    unary main_v100 main_v101 (Host.roundeven : (⟨S65536x128, .f32⟩ : BufTy).Contents (Elt F) → (⟨S65536x128, .f32⟩ : BufTy).Contents (Elt F)),
    nullary main_c_30 (constantI S_ 32 4294967168#32),
    nullary main_c_31 (constantI S_ 32 127#32),
    unary main_c_30 main_call12_v0 (sitofp .f32 : (⟨S_, .i32⟩ : BufTy).Contents (Elt F) → (⟨S_, .f32⟩ : BufTy).Contents (Elt F)),
    unary main_call12_v0 main_call12_v1 (broadcastInDim S65536x128 ![] bcast_S_S65536x128 : (⟨S_, .f32⟩ : BufTy).Contents (Elt F) → (⟨S65536x128, .f32⟩ : BufTy).Contents (Elt F)),
    binary main_call12_v1 main_v101 main_call12_v2 (maximumf : (⟨S65536x128, .f32⟩ : BufTy).Contents (Elt F) → (⟨S65536x128, .f32⟩ : BufTy).Contents (Elt F) → (⟨S65536x128, .f32⟩ : BufTy).Contents (Elt F)),
    unary main_c_31 main_call12_v3 (sitofp .f32 : (⟨S_, .i32⟩ : BufTy).Contents (Elt F) → (⟨S_, .f32⟩ : BufTy).Contents (Elt F)),
    unary main_call12_v3 main_call12_v4 (broadcastInDim S65536x128 ![] bcast_S_S65536x128 : (⟨S_, .f32⟩ : BufTy).Contents (Elt F) → (⟨S65536x128, .f32⟩ : BufTy).Contents (Elt F)),
    binary main_call12_v4 main_call12_v2 main_v102 (minimumf : (⟨S65536x128, .f32⟩ : BufTy).Contents (Elt F) → (⟨S65536x128, .f32⟩ : BufTy).Contents (Elt F) → (⟨S65536x128, .f32⟩ : BufTy).Contents (Elt F)),
    unary main_v98 main_v103 (broadcastInDim S65536x128 ![] bcast_S_S65536x128 : (⟨S_, .f32⟩ : BufTy).Contents (Elt F) → (⟨S65536x128, .f32⟩ : BufTy).Contents (Elt F)),
    binary main_v102 main_v103 main_v104 (mulf : (⟨S65536x128, .f32⟩ : BufTy).Contents (Elt F) → (⟨S65536x128, .f32⟩ : BufTy).Contents (Elt F) → (⟨S65536x128, .f32⟩ : BufTy).Contents (Elt F)),
    binary main_v104 main_v94 main_v105 (subf : (⟨S65536x128, .f32⟩ : BufTy).Contents (Elt F) → (⟨S65536x128, .f32⟩ : BufTy).Contents (Elt F) → (⟨S65536x128, .f32⟩ : BufTy).Contents (Elt F)),
    binary main_v94 main_v105 main_v106 (addf : (⟨S65536x128, .f32⟩ : BufTy).Contents (Elt F) → (⟨S65536x128, .f32⟩ : BufTy).Contents (Elt F) → (⟨S65536x128, .f32⟩ : BufTy).Contents (Elt F)),
    nullary main_call13_cst (constant S_ .f32 0x00000000#32 : (⟨S_, .f32⟩ : BufTy).Contents (Elt F)),
    unary main_call13_cst main_call13_v0 (broadcastInDim S65536x128 ![] bcast_S_S65536x128 : (⟨S_, .f32⟩ : BufTy).Contents (Elt F) → (⟨S65536x128, .f32⟩ : BufTy).Contents (Elt F)),
    binary main_v106 main_call13_v0 main_v107 (maximumf : (⟨S65536x128, .f32⟩ : BufTy).Contents (Elt F) → (⟨S65536x128, .f32⟩ : BufTy).Contents (Elt F) → (⟨S65536x128, .f32⟩ : BufTy).Contents (Elt F)) ]

/-- Operations 213 … 245 of 345. -/
abbrev w8 : List (HloOp τ sig (Elt F)) :=
  [ unary main_v107 main_v108 (Host.absf : (⟨S65536x128, .f32⟩ : BufTy).Contents (Elt F) → (⟨S65536x128, .f32⟩ : BufTy).Contents (Elt F)),
    nullary main_cst_32 (constant S_ .f32 0xFF800000#32),
    binary main_v108 main_cst_32 main_v109 ((fun x v => Host.reduce FloatOps.maximumf x v reducesTo_S65536x128_S_d0_1 h_S_) : (⟨S65536x128, .f32⟩ : BufTy).Contents (Elt F) → (⟨S_, .f32⟩ : BufTy).Contents (Elt F) → (⟨S_, .f32⟩ : BufTy).Contents (Elt F)),
    nullary main_cst_33 (constant S_ .f32 0x322BCC77#32),
    binary main_v109 main_cst_33 main_v110 (maximumf : (⟨S_, .f32⟩ : BufTy).Contents (Elt F) → (⟨S_, .f32⟩ : BufTy).Contents (Elt F) → (⟨S_, .f32⟩ : BufTy).Contents (Elt F)),
    nullary main_cst_34 (constant S_ .f32 0x42FE0000#32),
    binary main_v110 main_cst_34 main_v111 (Host.divf : (⟨S_, .f32⟩ : BufTy).Contents (Elt F) → (⟨S_, .f32⟩ : BufTy).Contents (Elt F) → (⟨S_, .f32⟩ : BufTy).Contents (Elt F)),
    unary main_v111 main_v112 (broadcastInDim S65536x128 ![] bcast_S_S65536x128 : (⟨S_, .f32⟩ : BufTy).Contents (Elt F) → (⟨S65536x128, .f32⟩ : BufTy).Contents (Elt F)),
    binary main_v107 main_v112 main_v113 (Host.divf : (⟨S65536x128, .f32⟩ : BufTy).Contents (Elt F) → (⟨S65536x128, .f32⟩ : BufTy).Contents (Elt F) → (⟨S65536x128, .f32⟩ : BufTy).Contents (Elt F)),
    unary main_v113 main_v114 (Host.roundeven : (⟨S65536x128, .f32⟩ : BufTy).Contents (Elt F) → (⟨S65536x128, .f32⟩ : BufTy).Contents (Elt F)),
    nullary main_c_35 (constantI S_ 32 4294967168#32),
    nullary main_c_36 (constantI S_ 32 127#32),
    unary main_c_35 main_call15_v0 (sitofp .f32 : (⟨S_, .i32⟩ : BufTy).Contents (Elt F) → (⟨S_, .f32⟩ : BufTy).Contents (Elt F)),
    unary main_call15_v0 main_call15_v1 (broadcastInDim S65536x128 ![] bcast_S_S65536x128 : (⟨S_, .f32⟩ : BufTy).Contents (Elt F) → (⟨S65536x128, .f32⟩ : BufTy).Contents (Elt F)),
    binary main_call15_v1 main_v114 main_call15_v2 (maximumf : (⟨S65536x128, .f32⟩ : BufTy).Contents (Elt F) → (⟨S65536x128, .f32⟩ : BufTy).Contents (Elt F) → (⟨S65536x128, .f32⟩ : BufTy).Contents (Elt F)),
    unary main_c_36 main_call15_v3 (sitofp .f32 : (⟨S_, .i32⟩ : BufTy).Contents (Elt F) → (⟨S_, .f32⟩ : BufTy).Contents (Elt F)),
    unary main_call15_v3 main_call15_v4 (broadcastInDim S65536x128 ![] bcast_S_S65536x128 : (⟨S_, .f32⟩ : BufTy).Contents (Elt F) → (⟨S65536x128, .f32⟩ : BufTy).Contents (Elt F)),
    binary main_call15_v4 main_call15_v2 main_v115 (minimumf : (⟨S65536x128, .f32⟩ : BufTy).Contents (Elt F) → (⟨S65536x128, .f32⟩ : BufTy).Contents (Elt F) → (⟨S65536x128, .f32⟩ : BufTy).Contents (Elt F)),
    unary main_v111 main_v116 (broadcastInDim S65536x128 ![] bcast_S_S65536x128 : (⟨S_, .f32⟩ : BufTy).Contents (Elt F) → (⟨S65536x128, .f32⟩ : BufTy).Contents (Elt F)),
    binary main_v115 main_v116 main_v117 (mulf : (⟨S65536x128, .f32⟩ : BufTy).Contents (Elt F) → (⟨S65536x128, .f32⟩ : BufTy).Contents (Elt F) → (⟨S65536x128, .f32⟩ : BufTy).Contents (Elt F)),
    binary main_v117 main_v107 main_v118 (subf : (⟨S65536x128, .f32⟩ : BufTy).Contents (Elt F) → (⟨S65536x128, .f32⟩ : BufTy).Contents (Elt F) → (⟨S65536x128, .f32⟩ : BufTy).Contents (Elt F)),
    binary main_v107 main_v118 main_v119 (addf : (⟨S65536x128, .f32⟩ : BufTy).Contents (Elt F) → (⟨S65536x128, .f32⟩ : BufTy).Contents (Elt F) → (⟨S65536x128, .f32⟩ : BufTy).Contents (Elt F)),
    nullary main_cst_37 (constant S_ .f32 0x00000000#32),
    unary main_cst_37 main_v120 (broadcastInDim S10x128 ![] bcast_S_S10x128 : (⟨S_, .f32⟩ : BufTy).Contents (Elt F) → (⟨S10x128, .f32⟩ : BufTy).Contents (Elt F)),
    binary main_arg9 main_v120 main_v121 (cmpf .oge : (⟨S10x128, .f32⟩ : BufTy).Contents (Elt F) → (⟨S10x128, .f32⟩ : BufTy).Contents (Elt F) → (⟨S10x128, .i1⟩ : BufTy).Contents (Elt F)),
    nullary main_cst_38 (constant S_ .f32 0x3F800000#32),
    nullary main_cst_39 (constant S_ .f32 0xBF800000#32),
    unary main_cst_38 main_call16_v0 (broadcastInDim S10x128 ![] bcast_S_S10x128 : (⟨S_, .f32⟩ : BufTy).Contents (Elt F) → (⟨S10x128, .f32⟩ : BufTy).Contents (Elt F)),
    unary main_cst_39 main_call16_v1 (broadcastInDim S10x128 ![] bcast_S_S10x128 : (⟨S_, .f32⟩ : BufTy).Contents (Elt F) → (⟨S10x128, .f32⟩ : BufTy).Contents (Elt F)),
    ternary main_v121 main_call16_v0 main_call16_v1 main_v122 (select : (⟨S10x128, .i1⟩ : BufTy).Contents (Elt F) → (⟨S10x128, .f32⟩ : BufTy).Contents (Elt F) → (⟨S10x128, .f32⟩ : BufTy).Contents (Elt F) → (⟨S10x128, .f32⟩ : BufTy).Contents (Elt F)),
    unary main_v122 main_v123 (id : (⟨S10x128, .f32⟩ : BufTy).Contents (Elt F) → (⟨S10x128, .f32⟩ : BufTy).Contents (Elt F)),
    binary main_v123 main_arg9 main_v124 (subf : (⟨S10x128, .f32⟩ : BufTy).Contents (Elt F) → (⟨S10x128, .f32⟩ : BufTy).Contents (Elt F) → (⟨S10x128, .f32⟩ : BufTy).Contents (Elt F)),
    binary main_arg9 main_v124 main_v125 (addf : (⟨S10x128, .f32⟩ : BufTy).Contents (Elt F) → (⟨S10x128, .f32⟩ : BufTy).Contents (Elt F) → (⟨S10x128, .f32⟩ : BufTy).Contents (Elt F)) ]

/-- Operations 246 … 278 of 345. -/
abbrev w9 : List (HloOp τ sig (Elt F)) :=
  [ binary main_v119 main_v125 main_v126 ((fun l r => Host.dotGeneral dot_S65536x128_S10x128_S65536x10_1_1_0_0_n_n none l r) : (⟨S65536x128, .f32⟩ : BufTy).Contents (Elt F) → (⟨S10x128, .f32⟩ : BufTy).Contents (Elt F) → (⟨S65536x10, .f32⟩ : BufTy).Contents (Elt F)),
    unary main_arg10 main_v127 (broadcastInDim S1x10 ![1] bcast_S10_S1x10_1 : (⟨S10, .f32⟩ : BufTy).Contents (Elt F) → (⟨S1x10, .f32⟩ : BufTy).Contents (Elt F)),
    unary main_v127 main_v128 (broadcastInDim S65536x10 ![0, 1] bcast_S1x10_S65536x10_0_1 : (⟨S1x10, .f32⟩ : BufTy).Contents (Elt F) → (⟨S65536x10, .f32⟩ : BufTy).Contents (Elt F)),
    binary main_v126 main_v128 main_v129 (addf : (⟨S65536x10, .f32⟩ : BufTy).Contents (Elt F) → (⟨S65536x10, .f32⟩ : BufTy).Contents (Elt F) → (⟨S65536x10, .f32⟩ : BufTy).Contents (Elt F)),
    nullary main_cst_40 (constant S_ .f32 0x00000000#32),
    binary main_v129 main_cst_40 main_v130 ((fun x v => Host.reduceAdd x v reducesTo_S65536x10_S10_d0 h_S_) : (⟨S65536x10, .f32⟩ : BufTy).Contents (Elt F) → (⟨S_, .f32⟩ : BufTy).Contents (Elt F) → (⟨S10, .f32⟩ : BufTy).Contents (Elt F)),
    nullary main_cst_41 (constant S_ .f32 0x47800000#32),
    unary main_cst_41 main_v131 (broadcastInDim S10 ![] bcast_S_S10 : (⟨S_, .f32⟩ : BufTy).Contents (Elt F) → (⟨S10, .f32⟩ : BufTy).Contents (Elt F)),
    binary main_v130 main_v131 main_v132 (Host.divf : (⟨S10, .f32⟩ : BufTy).Contents (Elt F) → (⟨S10, .f32⟩ : BufTy).Contents (Elt F) → (⟨S10, .f32⟩ : BufTy).Contents (Elt F)),
    nullary main_c_42 (constantI S_ 32 0#32),
    nullary main_call17_cst (constant S_ .f32 0x00000000#32 : (⟨S_, .f32⟩ : BufTy).Contents (Elt F)),
    binary main_v129 main_call17_cst main_call17_v0 (fun x v => Host.reduceAdd x v reducesTo_S65536x10_S10_d0 h_S_ : (⟨S65536x10, .f32⟩ : BufTy).Contents (Elt F) → (⟨S_, .f32⟩ : BufTy).Contents (Elt F) → (⟨S10, .f32⟩ : BufTy).Contents (Elt F)),
    unary main_call17_v0 main_call17_v1 (broadcastInDim S1x10 ![1] bcast_S10_S1x10_1 : (⟨S10, .f32⟩ : BufTy).Contents (Elt F) → (⟨S1x10, .f32⟩ : BufTy).Contents (Elt F)),
    nullary main_call17_cst_0 (constant S_ .f32 0x47800000#32 : (⟨S_, .f32⟩ : BufTy).Contents (Elt F)),
    unary main_call17_cst_0 main_call17_v2 (broadcastInDim S1x10 ![] bcast_S_S1x10 : (⟨S_, .f32⟩ : BufTy).Contents (Elt F) → (⟨S1x10, .f32⟩ : BufTy).Contents (Elt F)),
    binary main_call17_v1 main_call17_v2 main_call17_v3 (Host.divf : (⟨S1x10, .f32⟩ : BufTy).Contents (Elt F) → (⟨S1x10, .f32⟩ : BufTy).Contents (Elt F) → (⟨S1x10, .f32⟩ : BufTy).Contents (Elt F)),
    unary main_call17_v3 main_call17_v4 (broadcastInDim S65536x10 ![0, 1] bcast_S1x10_S65536x10_0_1 : (⟨S1x10, .f32⟩ : BufTy).Contents (Elt F) → (⟨S65536x10, .f32⟩ : BufTy).Contents (Elt F)),
    binary main_v129 main_call17_v4 main_call17_v5 (subf : (⟨S65536x10, .f32⟩ : BufTy).Contents (Elt F) → (⟨S65536x10, .f32⟩ : BufTy).Contents (Elt F) → (⟨S65536x10, .f32⟩ : BufTy).Contents (Elt F)),
    binary main_call17_v5 main_call17_v5 main_call17_v6 (mulf : (⟨S65536x10, .f32⟩ : BufTy).Contents (Elt F) → (⟨S65536x10, .f32⟩ : BufTy).Contents (Elt F) → (⟨S65536x10, .f32⟩ : BufTy).Contents (Elt F)),
    unary main_c_42 main_call17_v7 (sitofp .f32 : (⟨S_, .i32⟩ : BufTy).Contents (Elt F) → (⟨S_, .f32⟩ : BufTy).Contents (Elt F)),
    nullary main_call17_cst_1 (constant S_ .f32 0x47800000#32 : (⟨S_, .f32⟩ : BufTy).Contents (Elt F)),
    binary main_call17_cst_1 main_call17_v7 main_call17_v8 (subf : (⟨S_, .f32⟩ : BufTy).Contents (Elt F) → (⟨S_, .f32⟩ : BufTy).Contents (Elt F) → (⟨S_, .f32⟩ : BufTy).Contents (Elt F)),
    nullary main_call17_cst_2 (constant S_ .f32 0x00000000#32 : (⟨S_, .f32⟩ : BufTy).Contents (Elt F)),
    binary main_call17_v6 main_call17_cst_2 main_call17_v9 (fun x v => Host.reduceAdd x v reducesTo_S65536x10_S10_d0 h_S_ : (⟨S65536x10, .f32⟩ : BufTy).Contents (Elt F) → (⟨S_, .f32⟩ : BufTy).Contents (Elt F) → (⟨S10, .f32⟩ : BufTy).Contents (Elt F)),
    unary main_call17_v8 main_call17_v10 (broadcastInDim S10 ![] bcast_S_S10 : (⟨S_, .f32⟩ : BufTy).Contents (Elt F) → (⟨S10, .f32⟩ : BufTy).Contents (Elt F)),
    binary main_call17_v9 main_call17_v10 main_call17_v11 (Host.divf : (⟨S10, .f32⟩ : BufTy).Contents (Elt F) → (⟨S10, .f32⟩ : BufTy).Contents (Elt F) → (⟨S10, .f32⟩ : BufTy).Contents (Elt F)),
    nullary main_call17_cst_3 (constant S_ .f32 0x00000000#32 : (⟨S_, .f32⟩ : BufTy).Contents (Elt F)),
    binary main_call17_v8 main_call17_cst_3 main_call17_v12 (cmpf .ogt : (⟨S_, .f32⟩ : BufTy).Contents (Elt F) → (⟨S_, .f32⟩ : BufTy).Contents (Elt F) → (⟨S_, .i1⟩ : BufTy).Contents (Elt F)),
    nullary main_call17_cst_4 (constant S_ .f32 0x7FC00000#32 : (⟨S_, .f32⟩ : BufTy).Contents (Elt F)),
    unary main_call17_cst_4 main_call17_call0_v0 (id : (⟨S_, .f32⟩ : BufTy).Contents (Elt F) → (⟨S_, .f32⟩ : BufTy).Contents (Elt F)),
    unary main_call17_call0_v0 main_call17_call0_v1 (broadcastInDim S10 ![] bcast_S_S10 : (⟨S_, .f32⟩ : BufTy).Contents (Elt F) → (⟨S10, .f32⟩ : BufTy).Contents (Elt F)),
    ternary main_call17_v12 main_call17_v11 main_call17_call0_v1 main_v133 (fun p a b => select (broadcastInDim S10 ![] bcast_S_S10 p) a b : (⟨S_, .i1⟩ : BufTy).Contents (Elt F) → (⟨S10, .f32⟩ : BufTy).Contents (Elt F) → (⟨S10, .f32⟩ : BufTy).Contents (Elt F) → (⟨S10, .f32⟩ : BufTy).Contents (Elt F)),
    unary main_v132 main_v134 (broadcastInDim S1x10 ![1] bcast_S10_S1x10_1 : (⟨S10, .f32⟩ : BufTy).Contents (Elt F) → (⟨S1x10, .f32⟩ : BufTy).Contents (Elt F)) ]

/-- Operations 279 … 315 of 345. -/
abbrev w10 : List (HloOp τ sig (Elt F)) :=
  [ unary main_v134 main_v135 (broadcastInDim S65536x10 ![0, 1] bcast_S1x10_S65536x10_0_1 : (⟨S1x10, .f32⟩ : BufTy).Contents (Elt F) → (⟨S65536x10, .f32⟩ : BufTy).Contents (Elt F)),
    binary main_v129 main_v135 main_v136 (subf : (⟨S65536x10, .f32⟩ : BufTy).Contents (Elt F) → (⟨S65536x10, .f32⟩ : BufTy).Contents (Elt F) → (⟨S65536x10, .f32⟩ : BufTy).Contents (Elt F)),
    unary main_arg11 main_v137 (broadcastInDim S1x10 ![1] bcast_S10_S1x10_1 : (⟨S10, .f32⟩ : BufTy).Contents (Elt F) → (⟨S1x10, .f32⟩ : BufTy).Contents (Elt F)),
    unary main_v137 main_v138 (broadcastInDim S65536x10 ![0, 1] bcast_S1x10_S65536x10_0_1 : (⟨S1x10, .f32⟩ : BufTy).Contents (Elt F) → (⟨S65536x10, .f32⟩ : BufTy).Contents (Elt F)),
    binary main_v138 main_v136 main_v139 (mulf : (⟨S65536x10, .f32⟩ : BufTy).Contents (Elt F) → (⟨S65536x10, .f32⟩ : BufTy).Contents (Elt F) → (⟨S65536x10, .f32⟩ : BufTy).Contents (Elt F)),
    nullary main_cst_43 (constant S_ .f32 0x3727C5AC#32),
    unary main_cst_43 main_v140 (broadcastInDim S10 ![] bcast_S_S10 : (⟨S_, .f32⟩ : BufTy).Contents (Elt F) → (⟨S10, .f32⟩ : BufTy).Contents (Elt F)),
    binary main_v133 main_v140 main_v141 (addf : (⟨S10, .f32⟩ : BufTy).Contents (Elt F) → (⟨S10, .f32⟩ : BufTy).Contents (Elt F) → (⟨S10, .f32⟩ : BufTy).Contents (Elt F)),
    unary main_v141 main_v142 (Host.rsqrt : (⟨S10, .f32⟩ : BufTy).Contents (Elt F) → (⟨S10, .f32⟩ : BufTy).Contents (Elt F)),
    unary main_v142 main_v143 (broadcastInDim S1x10 ![1] bcast_S10_S1x10_1 : (⟨S10, .f32⟩ : BufTy).Contents (Elt F) → (⟨S1x10, .f32⟩ : BufTy).Contents (Elt F)),
    unary main_v143 main_v144 (broadcastInDim S65536x10 ![0, 1] bcast_S1x10_S65536x10_0_1 : (⟨S1x10, .f32⟩ : BufTy).Contents (Elt F) → (⟨S65536x10, .f32⟩ : BufTy).Contents (Elt F)),
    binary main_v139 main_v144 main_v145 (mulf : (⟨S65536x10, .f32⟩ : BufTy).Contents (Elt F) → (⟨S65536x10, .f32⟩ : BufTy).Contents (Elt F) → (⟨S65536x10, .f32⟩ : BufTy).Contents (Elt F)),
    unary main_arg12 main_v146 (broadcastInDim S1x10 ![1] bcast_S10_S1x10_1 : (⟨S10, .f32⟩ : BufTy).Contents (Elt F) → (⟨S1x10, .f32⟩ : BufTy).Contents (Elt F)),
    unary main_v146 main_v147 (broadcastInDim S65536x10 ![0, 1] bcast_S1x10_S65536x10_0_1 : (⟨S1x10, .f32⟩ : BufTy).Contents (Elt F) → (⟨S65536x10, .f32⟩ : BufTy).Contents (Elt F)),
    binary main_v145 main_v147 main_v148 (addf : (⟨S65536x10, .f32⟩ : BufTy).Contents (Elt F) → (⟨S65536x10, .f32⟩ : BufTy).Contents (Elt F) → (⟨S65536x10, .f32⟩ : BufTy).Contents (Elt F)),
    unary main_v148 main_v149 (Host.absf : (⟨S65536x10, .f32⟩ : BufTy).Contents (Elt F) → (⟨S65536x10, .f32⟩ : BufTy).Contents (Elt F)),
    nullary main_cst_44 (constant S_ .f32 0xFF800000#32),
    binary main_v149 main_cst_44 main_v150 ((fun x v => Host.reduce FloatOps.maximumf x v reducesTo_S65536x10_S_d0_1 h_S_) : (⟨S65536x10, .f32⟩ : BufTy).Contents (Elt F) → (⟨S_, .f32⟩ : BufTy).Contents (Elt F) → (⟨S_, .f32⟩ : BufTy).Contents (Elt F)),
    nullary main_cst_45 (constant S_ .f32 0x322BCC77#32),
    binary main_v150 main_cst_45 main_v151 (maximumf : (⟨S_, .f32⟩ : BufTy).Contents (Elt F) → (⟨S_, .f32⟩ : BufTy).Contents (Elt F) → (⟨S_, .f32⟩ : BufTy).Contents (Elt F)),
    nullary main_cst_46 (constant S_ .f32 0x42FE0000#32),
    binary main_v151 main_cst_46 main_v152 (Host.divf : (⟨S_, .f32⟩ : BufTy).Contents (Elt F) → (⟨S_, .f32⟩ : BufTy).Contents (Elt F) → (⟨S_, .f32⟩ : BufTy).Contents (Elt F)),
    unary main_v152 main_v153 (broadcastInDim S65536x10 ![] bcast_S_S65536x10 : (⟨S_, .f32⟩ : BufTy).Contents (Elt F) → (⟨S65536x10, .f32⟩ : BufTy).Contents (Elt F)),
    binary main_v148 main_v153 main_v154 (Host.divf : (⟨S65536x10, .f32⟩ : BufTy).Contents (Elt F) → (⟨S65536x10, .f32⟩ : BufTy).Contents (Elt F) → (⟨S65536x10, .f32⟩ : BufTy).Contents (Elt F)),
    unary main_v154 main_v155 (Host.roundeven : (⟨S65536x10, .f32⟩ : BufTy).Contents (Elt F) → (⟨S65536x10, .f32⟩ : BufTy).Contents (Elt F)),
    nullary main_c_47 (constantI S_ 32 4294967168#32),
    nullary main_c_48 (constantI S_ 32 127#32),
    unary main_c_47 main_call19_v0 (sitofp .f32 : (⟨S_, .i32⟩ : BufTy).Contents (Elt F) → (⟨S_, .f32⟩ : BufTy).Contents (Elt F)),
    unary main_call19_v0 main_call19_v1 (broadcastInDim S65536x10 ![] bcast_S_S65536x10 : (⟨S_, .f32⟩ : BufTy).Contents (Elt F) → (⟨S65536x10, .f32⟩ : BufTy).Contents (Elt F)),
    binary main_call19_v1 main_v155 main_call19_v2 (maximumf : (⟨S65536x10, .f32⟩ : BufTy).Contents (Elt F) → (⟨S65536x10, .f32⟩ : BufTy).Contents (Elt F) → (⟨S65536x10, .f32⟩ : BufTy).Contents (Elt F)),
    unary main_c_48 main_call19_v3 (sitofp .f32 : (⟨S_, .i32⟩ : BufTy).Contents (Elt F) → (⟨S_, .f32⟩ : BufTy).Contents (Elt F)),
    unary main_call19_v3 main_call19_v4 (broadcastInDim S65536x10 ![] bcast_S_S65536x10 : (⟨S_, .f32⟩ : BufTy).Contents (Elt F) → (⟨S65536x10, .f32⟩ : BufTy).Contents (Elt F)),
    binary main_call19_v4 main_call19_v2 main_v156 (minimumf : (⟨S65536x10, .f32⟩ : BufTy).Contents (Elt F) → (⟨S65536x10, .f32⟩ : BufTy).Contents (Elt F) → (⟨S65536x10, .f32⟩ : BufTy).Contents (Elt F)),
    unary main_v152 main_v157 (broadcastInDim S65536x10 ![] bcast_S_S65536x10 : (⟨S_, .f32⟩ : BufTy).Contents (Elt F) → (⟨S65536x10, .f32⟩ : BufTy).Contents (Elt F)),
    binary main_v156 main_v157 main_v158 (mulf : (⟨S65536x10, .f32⟩ : BufTy).Contents (Elt F) → (⟨S65536x10, .f32⟩ : BufTy).Contents (Elt F) → (⟨S65536x10, .f32⟩ : BufTy).Contents (Elt F)),
    binary main_v158 main_v148 main_v159 (subf : (⟨S65536x10, .f32⟩ : BufTy).Contents (Elt F) → (⟨S65536x10, .f32⟩ : BufTy).Contents (Elt F) → (⟨S65536x10, .f32⟩ : BufTy).Contents (Elt F)),
    binary main_v148 main_v159 main_v160 (addf : (⟨S65536x10, .f32⟩ : BufTy).Contents (Elt F) → (⟨S65536x10, .f32⟩ : BufTy).Contents (Elt F) → (⟨S65536x10, .f32⟩ : BufTy).Contents (Elt F)) ]

/-- Operations 316 … 345 of 345. -/
abbrev w11 : List (HloOp τ sig (Elt F)) :=
  [ unary main_v160 main_v161 (Host.negf : (⟨S65536x10, .f32⟩ : BufTy).Contents (Elt F) → (⟨S65536x10, .f32⟩ : BufTy).Contents (Elt F)),
    unary main_v161 main_v162 (Host.exp : (⟨S65536x10, .f32⟩ : BufTy).Contents (Elt F) → (⟨S65536x10, .f32⟩ : BufTy).Contents (Elt F)),
    nullary main_cst_49 (constant S_ .f32 0x3F800000#32),
    unary main_cst_49 main_v163 (broadcastInDim S65536x10 ![] bcast_S_S65536x10 : (⟨S_, .f32⟩ : BufTy).Contents (Elt F) → (⟨S65536x10, .f32⟩ : BufTy).Contents (Elt F)),
    binary main_v163 main_v162 main_v164 (addf : (⟨S65536x10, .f32⟩ : BufTy).Contents (Elt F) → (⟨S65536x10, .f32⟩ : BufTy).Contents (Elt F) → (⟨S65536x10, .f32⟩ : BufTy).Contents (Elt F)),
    nullary main_cst_50 (constant S_ .f32 0x3F800000#32),
    unary main_cst_50 main_v165 (broadcastInDim S65536x10 ![] bcast_S_S65536x10 : (⟨S_, .f32⟩ : BufTy).Contents (Elt F) → (⟨S65536x10, .f32⟩ : BufTy).Contents (Elt F)),
    binary main_v165 main_v164 main_v166 (Host.divf : (⟨S65536x10, .f32⟩ : BufTy).Contents (Elt F) → (⟨S65536x10, .f32⟩ : BufTy).Contents (Elt F) → (⟨S65536x10, .f32⟩ : BufTy).Contents (Elt F)),
    unary main_v166 main_v167 (Host.absf : (⟨S65536x10, .f32⟩ : BufTy).Contents (Elt F) → (⟨S65536x10, .f32⟩ : BufTy).Contents (Elt F)),
    nullary main_cst_51 (constant S_ .f32 0xFF800000#32),
    binary main_v167 main_cst_51 main_v168 ((fun x v => Host.reduce FloatOps.maximumf x v reducesTo_S65536x10_S_d0_1 h_S_) : (⟨S65536x10, .f32⟩ : BufTy).Contents (Elt F) → (⟨S_, .f32⟩ : BufTy).Contents (Elt F) → (⟨S_, .f32⟩ : BufTy).Contents (Elt F)),
    nullary main_cst_52 (constant S_ .f32 0x322BCC77#32),
    binary main_v168 main_cst_52 main_v169 (maximumf : (⟨S_, .f32⟩ : BufTy).Contents (Elt F) → (⟨S_, .f32⟩ : BufTy).Contents (Elt F) → (⟨S_, .f32⟩ : BufTy).Contents (Elt F)),
    nullary main_cst_53 (constant S_ .f32 0x42FE0000#32),
    binary main_v169 main_cst_53 main_v170 (Host.divf : (⟨S_, .f32⟩ : BufTy).Contents (Elt F) → (⟨S_, .f32⟩ : BufTy).Contents (Elt F) → (⟨S_, .f32⟩ : BufTy).Contents (Elt F)),
    unary main_v170 main_v171 (broadcastInDim S65536x10 ![] bcast_S_S65536x10 : (⟨S_, .f32⟩ : BufTy).Contents (Elt F) → (⟨S65536x10, .f32⟩ : BufTy).Contents (Elt F)),
    binary main_v166 main_v171 main_v172 (Host.divf : (⟨S65536x10, .f32⟩ : BufTy).Contents (Elt F) → (⟨S65536x10, .f32⟩ : BufTy).Contents (Elt F) → (⟨S65536x10, .f32⟩ : BufTy).Contents (Elt F)),
    unary main_v172 main_v173 (Host.roundeven : (⟨S65536x10, .f32⟩ : BufTy).Contents (Elt F) → (⟨S65536x10, .f32⟩ : BufTy).Contents (Elt F)),
    nullary main_c_54 (constantI S_ 32 4294967168#32),
    nullary main_c_55 (constantI S_ 32 127#32),
    unary main_c_54 main_call21_v0 (sitofp .f32 : (⟨S_, .i32⟩ : BufTy).Contents (Elt F) → (⟨S_, .f32⟩ : BufTy).Contents (Elt F)),
    unary main_call21_v0 main_call21_v1 (broadcastInDim S65536x10 ![] bcast_S_S65536x10 : (⟨S_, .f32⟩ : BufTy).Contents (Elt F) → (⟨S65536x10, .f32⟩ : BufTy).Contents (Elt F)),
    binary main_call21_v1 main_v173 main_call21_v2 (maximumf : (⟨S65536x10, .f32⟩ : BufTy).Contents (Elt F) → (⟨S65536x10, .f32⟩ : BufTy).Contents (Elt F) → (⟨S65536x10, .f32⟩ : BufTy).Contents (Elt F)),
    unary main_c_55 main_call21_v3 (sitofp .f32 : (⟨S_, .i32⟩ : BufTy).Contents (Elt F) → (⟨S_, .f32⟩ : BufTy).Contents (Elt F)),
    unary main_call21_v3 main_call21_v4 (broadcastInDim S65536x10 ![] bcast_S_S65536x10 : (⟨S_, .f32⟩ : BufTy).Contents (Elt F) → (⟨S65536x10, .f32⟩ : BufTy).Contents (Elt F)),
    binary main_call21_v4 main_call21_v2 main_v174 (minimumf : (⟨S65536x10, .f32⟩ : BufTy).Contents (Elt F) → (⟨S65536x10, .f32⟩ : BufTy).Contents (Elt F) → (⟨S65536x10, .f32⟩ : BufTy).Contents (Elt F)),
    unary main_v170 main_v175 (broadcastInDim S65536x10 ![] bcast_S_S65536x10 : (⟨S_, .f32⟩ : BufTy).Contents (Elt F) → (⟨S65536x10, .f32⟩ : BufTy).Contents (Elt F)),
    binary main_v174 main_v175 main_v176 (mulf : (⟨S65536x10, .f32⟩ : BufTy).Contents (Elt F) → (⟨S65536x10, .f32⟩ : BufTy).Contents (Elt F) → (⟨S65536x10, .f32⟩ : BufTy).Contents (Elt F)),
    binary main_v176 main_v166 main_v177 (subf : (⟨S65536x10, .f32⟩ : BufTy).Contents (Elt F) → (⟨S65536x10, .f32⟩ : BufTy).Contents (Elt F) → (⟨S65536x10, .f32⟩ : BufTy).Contents (Elt F)),
    binary main_v166 main_v177 main_v178 (addf : (⟨S65536x10, .f32⟩ : BufTy).Contents (Elt F) → (⟨S65536x10, .f32⟩ : BufTy).Contents (Elt F) → (⟨S65536x10, .f32⟩ : BufTy).Contents (Elt F)) ]

/-- @main's 345 operations, in order: the windows of each printed part of @main, then the parts. -/
abbrev ops : List (HloOp τ sig (Elt F)) :=
  (w0 ++ (w1 ++ w2)) ++ ((w3 ++ (w4 ++ (w5 ++ w6))) ++ ((w7 ++ (w8 ++ w9)) ++ (w10 ++ w11)))

set_option maxRecDepth 8192 in
theorem w0_sub : (w0 : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., nullary_bufs_sub .., unary_bufs_sub .., binary_bufs_sub .., nullary_bufs_sub .., nullary_bufs_sub .., unary_bufs_sub .., unary_bufs_sub .., ternary_bufs_sub .., unary_bufs_sub .., binary_bufs_sub .., binary_bufs_sub ..⟩
set_option maxRecDepth 8192 in
theorem w0_fresh : (w0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem w1_sub : (w1 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem w2_sub : (w2 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., nullary_bufs_sub .., binary_bufs_sub .., nullary_bufs_sub .., binary_bufs_sub .., nullary_bufs_sub .., binary_bufs_sub ..⟩
set_option maxRecDepth 8192 in
theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
theorem w3_sub : (w3 : List (HloOp τ sig (Elt F))).Forall fun op => op.bufs ⊆ tcRefs τ sig :=
  ⟨unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., nullary_bufs_sub .., unary_bufs_sub .., binary_bufs_sub ..⟩
set_option maxRecDepth 8192 in
theorem w3_fresh : (w3 : List (HloOp τ sig (Elt F))).Forall fun op => op.fresh = ∅ :=
  ⟨rfl, rfl, rfl, rfl, rfl, rfl, rfl, rfl, rfl, rfl, rfl, rfl, rfl, rfl, rfl, rfl, rfl, rfl⟩
set_option maxRecDepth 8192 in
theorem w4_sub : (w4 : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., nullary_bufs_sub .., unary_bufs_sub .., binary_bufs_sub .., nullary_bufs_sub .., nullary_bufs_sub .., unary_bufs_sub .., unary_bufs_sub .., ternary_bufs_sub .., unary_bufs_sub .., binary_bufs_sub .., binary_bufs_sub ..⟩
set_option maxRecDepth 8192 in
theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem w5_sub : (w5 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w5_fresh : (w5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem w6_sub : (w6 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub ..⟩
set_option maxRecDepth 8192 in
theorem w6_fresh : (w6 : List (HloOp τ sig (Elt F))).Forall fun op => op.fresh = ∅ :=
  ⟨rfl, rfl, rfl, rfl, rfl, rfl, rfl, rfl, rfl, rfl, rfl, rfl⟩
set_option maxRecDepth 8192 in
theorem w7_sub : (w7 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., nullary_bufs_sub .., unary_bufs_sub .., binary_bufs_sub ..⟩
set_option maxRecDepth 8192 in
theorem w7_fresh : (w7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem w8_sub : (w8 : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., nullary_bufs_sub .., unary_bufs_sub .., binary_bufs_sub .., nullary_bufs_sub .., nullary_bufs_sub .., unary_bufs_sub .., unary_bufs_sub .., ternary_bufs_sub .., unary_bufs_sub .., binary_bufs_sub .., binary_bufs_sub ..⟩
set_option maxRecDepth 8192 in
theorem w8_fresh : (w8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem w9_sub : (w9 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
set_option maxRecDepth 8192 in
theorem w9_fresh : (w9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem w10_sub : (w10 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
set_option maxRecDepth 8192 in
theorem w10_fresh : (w10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem w11_sub : (w11 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
set_option maxRecDepth 8192 in
theorem w11_fresh : (w11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with (h | h | h) | (h | h | h | h) | (h | h | h) | (h | h)
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h]
theorem ops_fresh : ∀ op ∈ (ops : List (HloOp τ sig (Elt F))), op.fresh = ∅ :=
  List.forall_iff_forall_mem.mp (
    List.forall_iff_forall_mem.mpr fun op h => by
      simp only [ops, List.mem_append] at h
      rcases h with (h | h | h) | (h | h | h | h) | (h | h | h) | (h | h)
      exacts [List.forall_iff_forall_mem.mp w0_fresh op h, List.forall_iff_forall_mem.mp w1_fresh op h, List.forall_iff_forall_mem.mp w2_fresh op h, List.forall_iff_forall_mem.mp w3_fresh op h, List.forall_iff_forall_mem.mp w4_fresh op h, List.forall_iff_forall_mem.mp w5_fresh op h, List.forall_iff_forall_mem.mp w6_fresh op h, List.forall_iff_forall_mem.mp w7_fresh op h, List.forall_iff_forall_mem.mp w8_fresh op h, List.forall_iff_forall_mem.mp w9_fresh op h, List.forall_iff_forall_mem.mp w10_fresh op h, List.forall_iff_forall_mem.mp w11_fresh op h]
  )

/-- The device's buffer contents before the first window. -/
def val0 (V0 : Valuation τ sig (Elt F)) : Valuation τ sig (Elt F) := V0
theorem val0_main_arg0 (V0 : Valuation τ sig (Elt F)) : val0 V0 (Proc.devRef .tc main_arg0) = V0 (Proc.devRef .tc main_arg0) := rfl
theorem val0_main_arg1 (V0 : Valuation τ sig (Elt F)) : val0 V0 (Proc.devRef .tc main_arg1) = V0 (Proc.devRef .tc main_arg1) := rfl
theorem val0_main_arg2 (V0 : Valuation τ sig (Elt F)) : val0 V0 (Proc.devRef .tc main_arg2) = V0 (Proc.devRef .tc main_arg2) := rfl
theorem val0_main_arg3 (V0 : Valuation τ sig (Elt F)) : val0 V0 (Proc.devRef .tc main_arg3) = V0 (Proc.devRef .tc main_arg3) := rfl
theorem val0_main_arg4 (V0 : Valuation τ sig (Elt F)) : val0 V0 (Proc.devRef .tc main_arg4) = V0 (Proc.devRef .tc main_arg4) := rfl
theorem val0_main_arg5 (V0 : Valuation τ sig (Elt F)) : val0 V0 (Proc.devRef .tc main_arg5) = V0 (Proc.devRef .tc main_arg5) := rfl
theorem val0_main_arg6 (V0 : Valuation τ sig (Elt F)) : val0 V0 (Proc.devRef .tc main_arg6) = V0 (Proc.devRef .tc main_arg6) := rfl
theorem val0_main_arg7 (V0 : Valuation τ sig (Elt F)) : val0 V0 (Proc.devRef .tc main_arg7) = V0 (Proc.devRef .tc main_arg7) := rfl
theorem val0_main_arg8 (V0 : Valuation τ sig (Elt F)) : val0 V0 (Proc.devRef .tc main_arg8) = V0 (Proc.devRef .tc main_arg8) := rfl
theorem val0_main_arg9 (V0 : Valuation τ sig (Elt F)) : val0 V0 (Proc.devRef .tc main_arg9) = V0 (Proc.devRef .tc main_arg9) := rfl
theorem val0_main_arg10 (V0 : Valuation τ sig (Elt F)) : val0 V0 (Proc.devRef .tc main_arg10) = V0 (Proc.devRef .tc main_arg10) := rfl
theorem val0_main_arg11 (V0 : Valuation τ sig (Elt F)) : val0 V0 (Proc.devRef .tc main_arg11) = V0 (Proc.devRef .tc main_arg11) := rfl
theorem val0_main_arg12 (V0 : Valuation τ sig (Elt F)) : val0 V0 (Proc.devRef .tc main_arg12) = V0 (Proc.devRef .tc main_arg12) := rfl

/-- The device's buffer contents after the first 1 window. -/
def val1 (V0 : Valuation τ sig (Elt F)) : Valuation τ sig (Elt F) := after w0 (val0 V0)
/-- The buffers window w0 writes. -/
abbrev w0_W : List (Ref sig .tc) := [main_v0, main_cst, main_v1, main_cst_0, main_v2, main_cst_1, main_v3, main_v4, main_v5, main_v6, main_c, main_c_2, main_call1_v0, main_call1_v1, main_call1_v2, main_call1_v3, main_call1_v4, main_v7, main_v8, main_v9, main_v10, main_v11, main_cst_3, main_v12, main_v13, main_cst_4, main_cst_5, main_call2_v0, main_call2_v1, main_v14, main_v15, main_v16, main_v17]
set_option maxRecDepth 8192 in
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h
theorem val1_main_arg0 (V0 : Valuation τ sig (Elt F)) : val1 V0 (Proc.devRef .tc main_arg0) = V0 (Proc.devRef .tc main_arg0) :=
  (val1_keep V0 main_arg0 (by decide)).trans (val0_main_arg0 V0)
theorem val1_main_arg1 (V0 : Valuation τ sig (Elt F)) : val1 V0 (Proc.devRef .tc main_arg1) = V0 (Proc.devRef .tc main_arg1) :=
  (val1_keep V0 main_arg1 (by decide)).trans (val0_main_arg1 V0)
theorem val1_main_arg2 (V0 : Valuation τ sig (Elt F)) : val1 V0 (Proc.devRef .tc main_arg2) = V0 (Proc.devRef .tc main_arg2) :=
  (val1_keep V0 main_arg2 (by decide)).trans (val0_main_arg2 V0)
theorem val1_main_arg3 (V0 : Valuation τ sig (Elt F)) : val1 V0 (Proc.devRef .tc main_arg3) = V0 (Proc.devRef .tc main_arg3) :=
  (val1_keep V0 main_arg3 (by decide)).trans (val0_main_arg3 V0)
theorem val1_main_arg4 (V0 : Valuation τ sig (Elt F)) : val1 V0 (Proc.devRef .tc main_arg4) = V0 (Proc.devRef .tc main_arg4) :=
  (val1_keep V0 main_arg4 (by decide)).trans (val0_main_arg4 V0)
theorem val1_main_arg5 (V0 : Valuation τ sig (Elt F)) : val1 V0 (Proc.devRef .tc main_arg5) = V0 (Proc.devRef .tc main_arg5) :=
  (val1_keep V0 main_arg5 (by decide)).trans (val0_main_arg5 V0)
theorem val1_main_arg6 (V0 : Valuation τ sig (Elt F)) : val1 V0 (Proc.devRef .tc main_arg6) = V0 (Proc.devRef .tc main_arg6) :=
  (val1_keep V0 main_arg6 (by decide)).trans (val0_main_arg6 V0)
theorem val1_main_arg7 (V0 : Valuation τ sig (Elt F)) : val1 V0 (Proc.devRef .tc main_arg7) = V0 (Proc.devRef .tc main_arg7) :=
  (val1_keep V0 main_arg7 (by decide)).trans (val0_main_arg7 V0)
theorem val1_main_arg8 (V0 : Valuation τ sig (Elt F)) : val1 V0 (Proc.devRef .tc main_arg8) = V0 (Proc.devRef .tc main_arg8) :=
  (val1_keep V0 main_arg8 (by decide)).trans (val0_main_arg8 V0)
theorem val1_main_arg9 (V0 : Valuation τ sig (Elt F)) : val1 V0 (Proc.devRef .tc main_arg9) = V0 (Proc.devRef .tc main_arg9) :=
  (val1_keep V0 main_arg9 (by decide)).trans (val0_main_arg9 V0)
theorem val1_main_arg10 (V0 : Valuation τ sig (Elt F)) : val1 V0 (Proc.devRef .tc main_arg10) = V0 (Proc.devRef .tc main_arg10) :=
  (val1_keep V0 main_arg10 (by decide)).trans (val0_main_arg10 V0)
theorem val1_main_arg11 (V0 : Valuation τ sig (Elt F)) : val1 V0 (Proc.devRef .tc main_arg11) = V0 (Proc.devRef .tc main_arg11) :=
  (val1_keep V0 main_arg11 (by decide)).trans (val0_main_arg11 V0)
theorem val1_main_arg12 (V0 : Valuation τ sig (Elt F)) : val1 V0 (Proc.devRef .tc main_arg12) = V0 (Proc.devRef .tc main_arg12) :=
  (val1_keep V0 main_arg12 (by decide)).trans (val0_main_arg12 V0)

/-- The device's buffer contents after the first 2 windows. -/
def val2 (V0 : Valuation τ sig (Elt F)) : Valuation τ sig (Elt F) := after w1 (val1 V0)
/-- The buffers window w1 writes. -/
abbrev w1_W : List (Ref sig .tc) := [main_v18, main_v19, main_v20, main_v21, main_cst_6, main_v22, main_cst_7, main_v23, main_v24, main_c_8, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v25]
set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_main_arg0 (V0 : Valuation τ sig (Elt F)) : val2 V0 (Proc.devRef .tc main_arg0) = V0 (Proc.devRef .tc main_arg0) :=
  (val2_keep V0 main_arg0 (by decide)).trans (val1_main_arg0 V0)
theorem val2_main_arg1 (V0 : Valuation τ sig (Elt F)) : val2 V0 (Proc.devRef .tc main_arg1) = V0 (Proc.devRef .tc main_arg1) :=
  (val2_keep V0 main_arg1 (by decide)).trans (val1_main_arg1 V0)
theorem val2_main_arg2 (V0 : Valuation τ sig (Elt F)) : val2 V0 (Proc.devRef .tc main_arg2) = V0 (Proc.devRef .tc main_arg2) :=
  (val2_keep V0 main_arg2 (by decide)).trans (val1_main_arg2 V0)
theorem val2_main_arg3 (V0 : Valuation τ sig (Elt F)) : val2 V0 (Proc.devRef .tc main_arg3) = V0 (Proc.devRef .tc main_arg3) :=
  (val2_keep V0 main_arg3 (by decide)).trans (val1_main_arg3 V0)
theorem val2_main_arg4 (V0 : Valuation τ sig (Elt F)) : val2 V0 (Proc.devRef .tc main_arg4) = V0 (Proc.devRef .tc main_arg4) :=
  (val2_keep V0 main_arg4 (by decide)).trans (val1_main_arg4 V0)
theorem val2_main_arg5 (V0 : Valuation τ sig (Elt F)) : val2 V0 (Proc.devRef .tc main_arg5) = V0 (Proc.devRef .tc main_arg5) :=
  (val2_keep V0 main_arg5 (by decide)).trans (val1_main_arg5 V0)
theorem val2_main_arg6 (V0 : Valuation τ sig (Elt F)) : val2 V0 (Proc.devRef .tc main_arg6) = V0 (Proc.devRef .tc main_arg6) :=
  (val2_keep V0 main_arg6 (by decide)).trans (val1_main_arg6 V0)
theorem val2_main_arg7 (V0 : Valuation τ sig (Elt F)) : val2 V0 (Proc.devRef .tc main_arg7) = V0 (Proc.devRef .tc main_arg7) :=
  (val2_keep V0 main_arg7 (by decide)).trans (val1_main_arg7 V0)
theorem val2_main_arg8 (V0 : Valuation τ sig (Elt F)) : val2 V0 (Proc.devRef .tc main_arg8) = V0 (Proc.devRef .tc main_arg8) :=
  (val2_keep V0 main_arg8 (by decide)).trans (val1_main_arg8 V0)
theorem val2_main_arg9 (V0 : Valuation τ sig (Elt F)) : val2 V0 (Proc.devRef .tc main_arg9) = V0 (Proc.devRef .tc main_arg9) :=
  (val2_keep V0 main_arg9 (by decide)).trans (val1_main_arg9 V0)
theorem val2_main_arg10 (V0 : Valuation τ sig (Elt F)) : val2 V0 (Proc.devRef .tc main_arg10) = V0 (Proc.devRef .tc main_arg10) :=
  (val2_keep V0 main_arg10 (by decide)).trans (val1_main_arg10 V0)
theorem val2_main_arg11 (V0 : Valuation τ sig (Elt F)) : val2 V0 (Proc.devRef .tc main_arg11) = V0 (Proc.devRef .tc main_arg11) :=
  (val2_keep V0 main_arg11 (by decide)).trans (val1_main_arg11 V0)
theorem val2_main_arg12 (V0 : Valuation τ sig (Elt F)) : val2 V0 (Proc.devRef .tc main_arg12) = V0 (Proc.devRef .tc main_arg12) :=
  (val2_keep V0 main_arg12 (by decide)).trans (val1_main_arg12 V0)

/-- The device's buffer contents after the first 3 windows. -/
def val3 (V0 : Valuation τ sig (Elt F)) : Valuation τ sig (Elt F) := after w2 (val2 V0)
/-- The buffers window w2 writes. -/
abbrev w2_W : List (Ref sig .tc) := [main_v26, main_v27, main_v28, main_v29, main_v30, main_v31, main_cst_9, main_v32, main_v33, main_v34, main_v35, main_v36, main_v37, main_v38, main_v39, main_v40, main_v41, main_cst_10, main_v42, main_cst_11, main_v43, main_cst_12, main_v44]
set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_main_arg0 (V0 : Valuation τ sig (Elt F)) : val3 V0 (Proc.devRef .tc main_arg0) = V0 (Proc.devRef .tc main_arg0) :=
  (val3_keep V0 main_arg0 (by decide)).trans (val2_main_arg0 V0)
theorem val3_main_arg1 (V0 : Valuation τ sig (Elt F)) : val3 V0 (Proc.devRef .tc main_arg1) = V0 (Proc.devRef .tc main_arg1) :=
  (val3_keep V0 main_arg1 (by decide)).trans (val2_main_arg1 V0)
theorem val3_main_arg2 (V0 : Valuation τ sig (Elt F)) : val3 V0 (Proc.devRef .tc main_arg2) = V0 (Proc.devRef .tc main_arg2) :=
  (val3_keep V0 main_arg2 (by decide)).trans (val2_main_arg2 V0)
theorem val3_main_arg3 (V0 : Valuation τ sig (Elt F)) : val3 V0 (Proc.devRef .tc main_arg3) = V0 (Proc.devRef .tc main_arg3) :=
  (val3_keep V0 main_arg3 (by decide)).trans (val2_main_arg3 V0)
theorem val3_main_arg4 (V0 : Valuation τ sig (Elt F)) : val3 V0 (Proc.devRef .tc main_arg4) = V0 (Proc.devRef .tc main_arg4) :=
  (val3_keep V0 main_arg4 (by decide)).trans (val2_main_arg4 V0)
theorem val3_main_arg5 (V0 : Valuation τ sig (Elt F)) : val3 V0 (Proc.devRef .tc main_arg5) = V0 (Proc.devRef .tc main_arg5) :=
  (val3_keep V0 main_arg5 (by decide)).trans (val2_main_arg5 V0)
theorem val3_main_arg6 (V0 : Valuation τ sig (Elt F)) : val3 V0 (Proc.devRef .tc main_arg6) = V0 (Proc.devRef .tc main_arg6) :=
  (val3_keep V0 main_arg6 (by decide)).trans (val2_main_arg6 V0)
theorem val3_main_arg7 (V0 : Valuation τ sig (Elt F)) : val3 V0 (Proc.devRef .tc main_arg7) = V0 (Proc.devRef .tc main_arg7) :=
  (val3_keep V0 main_arg7 (by decide)).trans (val2_main_arg7 V0)
theorem val3_main_arg8 (V0 : Valuation τ sig (Elt F)) : val3 V0 (Proc.devRef .tc main_arg8) = V0 (Proc.devRef .tc main_arg8) :=
  (val3_keep V0 main_arg8 (by decide)).trans (val2_main_arg8 V0)
theorem val3_main_arg9 (V0 : Valuation τ sig (Elt F)) : val3 V0 (Proc.devRef .tc main_arg9) = V0 (Proc.devRef .tc main_arg9) :=
  (val3_keep V0 main_arg9 (by decide)).trans (val2_main_arg9 V0)
theorem val3_main_arg10 (V0 : Valuation τ sig (Elt F)) : val3 V0 (Proc.devRef .tc main_arg10) = V0 (Proc.devRef .tc main_arg10) :=
  (val3_keep V0 main_arg10 (by decide)).trans (val2_main_arg10 V0)
theorem val3_main_arg11 (V0 : Valuation τ sig (Elt F)) : val3 V0 (Proc.devRef .tc main_arg11) = V0 (Proc.devRef .tc main_arg11) :=
  (val3_keep V0 main_arg11 (by decide)).trans (val2_main_arg11 V0)
theorem val3_main_arg12 (V0 : Valuation τ sig (Elt F)) : val3 V0 (Proc.devRef .tc main_arg12) = V0 (Proc.devRef .tc main_arg12) :=
  (val3_keep V0 main_arg12 (by decide)).trans (val2_main_arg12 V0)

/-- The device's buffer contents after the first 4 windows. -/
def val4 (V0 : Valuation τ sig (Elt F)) : Valuation τ sig (Elt F) := after w3 (val3 V0)
/-- The buffers window w3 writes. -/
abbrev w3_W : List (Ref sig .tc) := [main_v45, main_v46, main_v47, main_c_13, main_c_14, main_call5_v0, main_call5_v1, main_call5_v2, main_call5_v3, main_call5_v4, main_v48, main_v49, main_v50, main_v51, main_v52, main_call6_cst, main_call6_v0, main_v53]
set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_main_arg0 (V0 : Valuation τ sig (Elt F)) : val4 V0 (Proc.devRef .tc main_arg0) = V0 (Proc.devRef .tc main_arg0) :=
  (val4_keep V0 main_arg0 (by decide)).trans (val3_main_arg0 V0)
theorem val4_main_arg1 (V0 : Valuation τ sig (Elt F)) : val4 V0 (Proc.devRef .tc main_arg1) = V0 (Proc.devRef .tc main_arg1) :=
  (val4_keep V0 main_arg1 (by decide)).trans (val3_main_arg1 V0)
theorem val4_main_arg2 (V0 : Valuation τ sig (Elt F)) : val4 V0 (Proc.devRef .tc main_arg2) = V0 (Proc.devRef .tc main_arg2) :=
  (val4_keep V0 main_arg2 (by decide)).trans (val3_main_arg2 V0)
theorem val4_main_arg3 (V0 : Valuation τ sig (Elt F)) : val4 V0 (Proc.devRef .tc main_arg3) = V0 (Proc.devRef .tc main_arg3) :=
  (val4_keep V0 main_arg3 (by decide)).trans (val3_main_arg3 V0)
theorem val4_main_arg4 (V0 : Valuation τ sig (Elt F)) : val4 V0 (Proc.devRef .tc main_arg4) = V0 (Proc.devRef .tc main_arg4) :=
  (val4_keep V0 main_arg4 (by decide)).trans (val3_main_arg4 V0)
theorem val4_main_arg5 (V0 : Valuation τ sig (Elt F)) : val4 V0 (Proc.devRef .tc main_arg5) = V0 (Proc.devRef .tc main_arg5) :=
  (val4_keep V0 main_arg5 (by decide)).trans (val3_main_arg5 V0)
theorem val4_main_arg6 (V0 : Valuation τ sig (Elt F)) : val4 V0 (Proc.devRef .tc main_arg6) = V0 (Proc.devRef .tc main_arg6) :=
  (val4_keep V0 main_arg6 (by decide)).trans (val3_main_arg6 V0)
theorem val4_main_arg7 (V0 : Valuation τ sig (Elt F)) : val4 V0 (Proc.devRef .tc main_arg7) = V0 (Proc.devRef .tc main_arg7) :=
  (val4_keep V0 main_arg7 (by decide)).trans (val3_main_arg7 V0)
theorem val4_main_arg8 (V0 : Valuation τ sig (Elt F)) : val4 V0 (Proc.devRef .tc main_arg8) = V0 (Proc.devRef .tc main_arg8) :=
  (val4_keep V0 main_arg8 (by decide)).trans (val3_main_arg8 V0)
theorem val4_main_arg9 (V0 : Valuation τ sig (Elt F)) : val4 V0 (Proc.devRef .tc main_arg9) = V0 (Proc.devRef .tc main_arg9) :=
  (val4_keep V0 main_arg9 (by decide)).trans (val3_main_arg9 V0)
theorem val4_main_arg10 (V0 : Valuation τ sig (Elt F)) : val4 V0 (Proc.devRef .tc main_arg10) = V0 (Proc.devRef .tc main_arg10) :=
  (val4_keep V0 main_arg10 (by decide)).trans (val3_main_arg10 V0)
theorem val4_main_arg11 (V0 : Valuation τ sig (Elt F)) : val4 V0 (Proc.devRef .tc main_arg11) = V0 (Proc.devRef .tc main_arg11) :=
  (val4_keep V0 main_arg11 (by decide)).trans (val3_main_arg11 V0)
theorem val4_main_arg12 (V0 : Valuation τ sig (Elt F)) : val4 V0 (Proc.devRef .tc main_arg12) = V0 (Proc.devRef .tc main_arg12) :=
  (val4_keep V0 main_arg12 (by decide)).trans (val3_main_arg12 V0)

/-- The device's buffer contents after the first 5 windows. -/
def val5 (V0 : Valuation τ sig (Elt F)) : Valuation τ sig (Elt F) := after w4 (val4 V0)
/-- The buffers window w4 writes. -/
abbrev w4_W : List (Ref sig .tc) := [main_v54, main_cst_15, main_v55, main_cst_16, main_v56, main_cst_17, main_v57, main_v58, main_v59, main_v60, main_c_18, main_c_19, main_call8_v0, main_call8_v1, main_call8_v2, main_call8_v3, main_call8_v4, main_v61, main_v62, main_v63, main_v64, main_v65, main_cst_20, main_v66, main_v67, main_cst_21, main_cst_22, main_call9_v0, main_call9_v1, main_v68, main_v69, main_v70, main_v71]
set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_main_arg0 (V0 : Valuation τ sig (Elt F)) : val5 V0 (Proc.devRef .tc main_arg0) = V0 (Proc.devRef .tc main_arg0) :=
  (val5_keep V0 main_arg0 (by decide)).trans (val4_main_arg0 V0)
theorem val5_main_arg1 (V0 : Valuation τ sig (Elt F)) : val5 V0 (Proc.devRef .tc main_arg1) = V0 (Proc.devRef .tc main_arg1) :=
  (val5_keep V0 main_arg1 (by decide)).trans (val4_main_arg1 V0)
theorem val5_main_arg2 (V0 : Valuation τ sig (Elt F)) : val5 V0 (Proc.devRef .tc main_arg2) = V0 (Proc.devRef .tc main_arg2) :=
  (val5_keep V0 main_arg2 (by decide)).trans (val4_main_arg2 V0)
theorem val5_main_arg3 (V0 : Valuation τ sig (Elt F)) : val5 V0 (Proc.devRef .tc main_arg3) = V0 (Proc.devRef .tc main_arg3) :=
  (val5_keep V0 main_arg3 (by decide)).trans (val4_main_arg3 V0)
theorem val5_main_arg4 (V0 : Valuation τ sig (Elt F)) : val5 V0 (Proc.devRef .tc main_arg4) = V0 (Proc.devRef .tc main_arg4) :=
  (val5_keep V0 main_arg4 (by decide)).trans (val4_main_arg4 V0)
theorem val5_main_arg5 (V0 : Valuation τ sig (Elt F)) : val5 V0 (Proc.devRef .tc main_arg5) = V0 (Proc.devRef .tc main_arg5) :=
  (val5_keep V0 main_arg5 (by decide)).trans (val4_main_arg5 V0)
theorem val5_main_arg6 (V0 : Valuation τ sig (Elt F)) : val5 V0 (Proc.devRef .tc main_arg6) = V0 (Proc.devRef .tc main_arg6) :=
  (val5_keep V0 main_arg6 (by decide)).trans (val4_main_arg6 V0)
theorem val5_main_arg7 (V0 : Valuation τ sig (Elt F)) : val5 V0 (Proc.devRef .tc main_arg7) = V0 (Proc.devRef .tc main_arg7) :=
  (val5_keep V0 main_arg7 (by decide)).trans (val4_main_arg7 V0)
theorem val5_main_arg8 (V0 : Valuation τ sig (Elt F)) : val5 V0 (Proc.devRef .tc main_arg8) = V0 (Proc.devRef .tc main_arg8) :=
  (val5_keep V0 main_arg8 (by decide)).trans (val4_main_arg8 V0)
theorem val5_main_arg9 (V0 : Valuation τ sig (Elt F)) : val5 V0 (Proc.devRef .tc main_arg9) = V0 (Proc.devRef .tc main_arg9) :=
  (val5_keep V0 main_arg9 (by decide)).trans (val4_main_arg9 V0)
theorem val5_main_arg10 (V0 : Valuation τ sig (Elt F)) : val5 V0 (Proc.devRef .tc main_arg10) = V0 (Proc.devRef .tc main_arg10) :=
  (val5_keep V0 main_arg10 (by decide)).trans (val4_main_arg10 V0)
theorem val5_main_arg11 (V0 : Valuation τ sig (Elt F)) : val5 V0 (Proc.devRef .tc main_arg11) = V0 (Proc.devRef .tc main_arg11) :=
  (val5_keep V0 main_arg11 (by decide)).trans (val4_main_arg11 V0)
theorem val5_main_arg12 (V0 : Valuation τ sig (Elt F)) : val5 V0 (Proc.devRef .tc main_arg12) = V0 (Proc.devRef .tc main_arg12) :=
  (val5_keep V0 main_arg12 (by decide)).trans (val4_main_arg12 V0)

/-- The device's buffer contents after the first 6 windows. -/
def val6 (V0 : Valuation τ sig (Elt F)) : Valuation τ sig (Elt F) := after w5 (val5 V0)
/-- The buffers window w5 writes. -/
abbrev w5_W : List (Ref sig .tc) := [main_v72, main_v73, main_v74, main_v75, main_cst_23, main_v76, main_cst_24, main_v77, main_v78, main_c_25, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v79]
set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_main_arg0 (V0 : Valuation τ sig (Elt F)) : val6 V0 (Proc.devRef .tc main_arg0) = V0 (Proc.devRef .tc main_arg0) :=
  (val6_keep V0 main_arg0 (by decide)).trans (val5_main_arg0 V0)
theorem val6_main_arg1 (V0 : Valuation τ sig (Elt F)) : val6 V0 (Proc.devRef .tc main_arg1) = V0 (Proc.devRef .tc main_arg1) :=
  (val6_keep V0 main_arg1 (by decide)).trans (val5_main_arg1 V0)
theorem val6_main_arg2 (V0 : Valuation τ sig (Elt F)) : val6 V0 (Proc.devRef .tc main_arg2) = V0 (Proc.devRef .tc main_arg2) :=
  (val6_keep V0 main_arg2 (by decide)).trans (val5_main_arg2 V0)
theorem val6_main_arg3 (V0 : Valuation τ sig (Elt F)) : val6 V0 (Proc.devRef .tc main_arg3) = V0 (Proc.devRef .tc main_arg3) :=
  (val6_keep V0 main_arg3 (by decide)).trans (val5_main_arg3 V0)
theorem val6_main_arg4 (V0 : Valuation τ sig (Elt F)) : val6 V0 (Proc.devRef .tc main_arg4) = V0 (Proc.devRef .tc main_arg4) :=
  (val6_keep V0 main_arg4 (by decide)).trans (val5_main_arg4 V0)
theorem val6_main_arg5 (V0 : Valuation τ sig (Elt F)) : val6 V0 (Proc.devRef .tc main_arg5) = V0 (Proc.devRef .tc main_arg5) :=
  (val6_keep V0 main_arg5 (by decide)).trans (val5_main_arg5 V0)
theorem val6_main_arg6 (V0 : Valuation τ sig (Elt F)) : val6 V0 (Proc.devRef .tc main_arg6) = V0 (Proc.devRef .tc main_arg6) :=
  (val6_keep V0 main_arg6 (by decide)).trans (val5_main_arg6 V0)
theorem val6_main_arg7 (V0 : Valuation τ sig (Elt F)) : val6 V0 (Proc.devRef .tc main_arg7) = V0 (Proc.devRef .tc main_arg7) :=
  (val6_keep V0 main_arg7 (by decide)).trans (val5_main_arg7 V0)
theorem val6_main_arg8 (V0 : Valuation τ sig (Elt F)) : val6 V0 (Proc.devRef .tc main_arg8) = V0 (Proc.devRef .tc main_arg8) :=
  (val6_keep V0 main_arg8 (by decide)).trans (val5_main_arg8 V0)
theorem val6_main_arg9 (V0 : Valuation τ sig (Elt F)) : val6 V0 (Proc.devRef .tc main_arg9) = V0 (Proc.devRef .tc main_arg9) :=
  (val6_keep V0 main_arg9 (by decide)).trans (val5_main_arg9 V0)
theorem val6_main_arg10 (V0 : Valuation τ sig (Elt F)) : val6 V0 (Proc.devRef .tc main_arg10) = V0 (Proc.devRef .tc main_arg10) :=
  (val6_keep V0 main_arg10 (by decide)).trans (val5_main_arg10 V0)
theorem val6_main_arg11 (V0 : Valuation τ sig (Elt F)) : val6 V0 (Proc.devRef .tc main_arg11) = V0 (Proc.devRef .tc main_arg11) :=
  (val6_keep V0 main_arg11 (by decide)).trans (val5_main_arg11 V0)
theorem val6_main_arg12 (V0 : Valuation τ sig (Elt F)) : val6 V0 (Proc.devRef .tc main_arg12) = V0 (Proc.devRef .tc main_arg12) :=
  (val6_keep V0 main_arg12 (by decide)).trans (val5_main_arg12 V0)

/-- The device's buffer contents after the first 7 windows. -/
def val7 (V0 : Valuation τ sig (Elt F)) : Valuation τ sig (Elt F) := after w6 (val6 V0)
/-- The buffers window w6 writes. -/
abbrev w6_W : List (Ref sig .tc) := [main_v80, main_v81, main_v82, main_v83, main_v84, main_v85, main_cst_26, main_v86, main_v87, main_v88, main_v89, main_v90]
set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_main_arg0 (V0 : Valuation τ sig (Elt F)) : val7 V0 (Proc.devRef .tc main_arg0) = V0 (Proc.devRef .tc main_arg0) :=
  (val7_keep V0 main_arg0 (by decide)).trans (val6_main_arg0 V0)
theorem val7_main_arg1 (V0 : Valuation τ sig (Elt F)) : val7 V0 (Proc.devRef .tc main_arg1) = V0 (Proc.devRef .tc main_arg1) :=
  (val7_keep V0 main_arg1 (by decide)).trans (val6_main_arg1 V0)
theorem val7_main_arg2 (V0 : Valuation τ sig (Elt F)) : val7 V0 (Proc.devRef .tc main_arg2) = V0 (Proc.devRef .tc main_arg2) :=
  (val7_keep V0 main_arg2 (by decide)).trans (val6_main_arg2 V0)
theorem val7_main_arg3 (V0 : Valuation τ sig (Elt F)) : val7 V0 (Proc.devRef .tc main_arg3) = V0 (Proc.devRef .tc main_arg3) :=
  (val7_keep V0 main_arg3 (by decide)).trans (val6_main_arg3 V0)
theorem val7_main_arg4 (V0 : Valuation τ sig (Elt F)) : val7 V0 (Proc.devRef .tc main_arg4) = V0 (Proc.devRef .tc main_arg4) :=
  (val7_keep V0 main_arg4 (by decide)).trans (val6_main_arg4 V0)
theorem val7_main_arg5 (V0 : Valuation τ sig (Elt F)) : val7 V0 (Proc.devRef .tc main_arg5) = V0 (Proc.devRef .tc main_arg5) :=
  (val7_keep V0 main_arg5 (by decide)).trans (val6_main_arg5 V0)
theorem val7_main_arg6 (V0 : Valuation τ sig (Elt F)) : val7 V0 (Proc.devRef .tc main_arg6) = V0 (Proc.devRef .tc main_arg6) :=
  (val7_keep V0 main_arg6 (by decide)).trans (val6_main_arg6 V0)
theorem val7_main_arg7 (V0 : Valuation τ sig (Elt F)) : val7 V0 (Proc.devRef .tc main_arg7) = V0 (Proc.devRef .tc main_arg7) :=
  (val7_keep V0 main_arg7 (by decide)).trans (val6_main_arg7 V0)
theorem val7_main_arg8 (V0 : Valuation τ sig (Elt F)) : val7 V0 (Proc.devRef .tc main_arg8) = V0 (Proc.devRef .tc main_arg8) :=
  (val7_keep V0 main_arg8 (by decide)).trans (val6_main_arg8 V0)
theorem val7_main_arg9 (V0 : Valuation τ sig (Elt F)) : val7 V0 (Proc.devRef .tc main_arg9) = V0 (Proc.devRef .tc main_arg9) :=
  (val7_keep V0 main_arg9 (by decide)).trans (val6_main_arg9 V0)
theorem val7_main_arg10 (V0 : Valuation τ sig (Elt F)) : val7 V0 (Proc.devRef .tc main_arg10) = V0 (Proc.devRef .tc main_arg10) :=
  (val7_keep V0 main_arg10 (by decide)).trans (val6_main_arg10 V0)
theorem val7_main_arg11 (V0 : Valuation τ sig (Elt F)) : val7 V0 (Proc.devRef .tc main_arg11) = V0 (Proc.devRef .tc main_arg11) :=
  (val7_keep V0 main_arg11 (by decide)).trans (val6_main_arg11 V0)
theorem val7_main_arg12 (V0 : Valuation τ sig (Elt F)) : val7 V0 (Proc.devRef .tc main_arg12) = V0 (Proc.devRef .tc main_arg12) :=
  (val7_keep V0 main_arg12 (by decide)).trans (val6_main_arg12 V0)

/-- The device's buffer contents after the first 8 windows. -/
def val8 (V0 : Valuation τ sig (Elt F)) : Valuation τ sig (Elt F) := after w7 (val7 V0)
/-- The buffers window w7 writes. -/
abbrev w7_W : List (Ref sig .tc) := [main_v91, main_v92, main_v93, main_v94, main_v95, main_cst_27, main_v96, main_cst_28, main_v97, main_cst_29, main_v98, main_v99, main_v100, main_v101, main_c_30, main_c_31, main_call12_v0, main_call12_v1, main_call12_v2, main_call12_v3, main_call12_v4, main_v102, main_v103, main_v104, main_v105, main_v106, main_call13_cst, main_call13_v0, main_v107]
set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_main_arg0 (V0 : Valuation τ sig (Elt F)) : val8 V0 (Proc.devRef .tc main_arg0) = V0 (Proc.devRef .tc main_arg0) :=
  (val8_keep V0 main_arg0 (by decide)).trans (val7_main_arg0 V0)
theorem val8_main_arg1 (V0 : Valuation τ sig (Elt F)) : val8 V0 (Proc.devRef .tc main_arg1) = V0 (Proc.devRef .tc main_arg1) :=
  (val8_keep V0 main_arg1 (by decide)).trans (val7_main_arg1 V0)
theorem val8_main_arg2 (V0 : Valuation τ sig (Elt F)) : val8 V0 (Proc.devRef .tc main_arg2) = V0 (Proc.devRef .tc main_arg2) :=
  (val8_keep V0 main_arg2 (by decide)).trans (val7_main_arg2 V0)
theorem val8_main_arg3 (V0 : Valuation τ sig (Elt F)) : val8 V0 (Proc.devRef .tc main_arg3) = V0 (Proc.devRef .tc main_arg3) :=
  (val8_keep V0 main_arg3 (by decide)).trans (val7_main_arg3 V0)
theorem val8_main_arg4 (V0 : Valuation τ sig (Elt F)) : val8 V0 (Proc.devRef .tc main_arg4) = V0 (Proc.devRef .tc main_arg4) :=
  (val8_keep V0 main_arg4 (by decide)).trans (val7_main_arg4 V0)
theorem val8_main_arg5 (V0 : Valuation τ sig (Elt F)) : val8 V0 (Proc.devRef .tc main_arg5) = V0 (Proc.devRef .tc main_arg5) :=
  (val8_keep V0 main_arg5 (by decide)).trans (val7_main_arg5 V0)
theorem val8_main_arg6 (V0 : Valuation τ sig (Elt F)) : val8 V0 (Proc.devRef .tc main_arg6) = V0 (Proc.devRef .tc main_arg6) :=
  (val8_keep V0 main_arg6 (by decide)).trans (val7_main_arg6 V0)
theorem val8_main_arg7 (V0 : Valuation τ sig (Elt F)) : val8 V0 (Proc.devRef .tc main_arg7) = V0 (Proc.devRef .tc main_arg7) :=
  (val8_keep V0 main_arg7 (by decide)).trans (val7_main_arg7 V0)
theorem val8_main_arg8 (V0 : Valuation τ sig (Elt F)) : val8 V0 (Proc.devRef .tc main_arg8) = V0 (Proc.devRef .tc main_arg8) :=
  (val8_keep V0 main_arg8 (by decide)).trans (val7_main_arg8 V0)
theorem val8_main_arg9 (V0 : Valuation τ sig (Elt F)) : val8 V0 (Proc.devRef .tc main_arg9) = V0 (Proc.devRef .tc main_arg9) :=
  (val8_keep V0 main_arg9 (by decide)).trans (val7_main_arg9 V0)
theorem val8_main_arg10 (V0 : Valuation τ sig (Elt F)) : val8 V0 (Proc.devRef .tc main_arg10) = V0 (Proc.devRef .tc main_arg10) :=
  (val8_keep V0 main_arg10 (by decide)).trans (val7_main_arg10 V0)
theorem val8_main_arg11 (V0 : Valuation τ sig (Elt F)) : val8 V0 (Proc.devRef .tc main_arg11) = V0 (Proc.devRef .tc main_arg11) :=
  (val8_keep V0 main_arg11 (by decide)).trans (val7_main_arg11 V0)
theorem val8_main_arg12 (V0 : Valuation τ sig (Elt F)) : val8 V0 (Proc.devRef .tc main_arg12) = V0 (Proc.devRef .tc main_arg12) :=
  (val8_keep V0 main_arg12 (by decide)).trans (val7_main_arg12 V0)

/-- The device's buffer contents after the first 9 windows. -/
def val9 (V0 : Valuation τ sig (Elt F)) : Valuation τ sig (Elt F) := after w8 (val8 V0)
/-- The buffers window w8 writes. -/
abbrev w8_W : List (Ref sig .tc) := [main_v108, main_cst_32, main_v109, main_cst_33, main_v110, main_cst_34, main_v111, main_v112, main_v113, main_v114, main_c_35, main_c_36, main_call15_v0, main_call15_v1, main_call15_v2, main_call15_v3, main_call15_v4, main_v115, main_v116, main_v117, main_v118, main_v119, main_cst_37, main_v120, main_v121, main_cst_38, main_cst_39, main_call16_v0, main_call16_v1, main_v122, main_v123, main_v124, main_v125]
set_option maxRecDepth 8192 in
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_main_arg0 (V0 : Valuation τ sig (Elt F)) : val9 V0 (Proc.devRef .tc main_arg0) = V0 (Proc.devRef .tc main_arg0) :=
  (val9_keep V0 main_arg0 (by decide)).trans (val8_main_arg0 V0)
theorem val9_main_arg1 (V0 : Valuation τ sig (Elt F)) : val9 V0 (Proc.devRef .tc main_arg1) = V0 (Proc.devRef .tc main_arg1) :=
  (val9_keep V0 main_arg1 (by decide)).trans (val8_main_arg1 V0)
theorem val9_main_arg2 (V0 : Valuation τ sig (Elt F)) : val9 V0 (Proc.devRef .tc main_arg2) = V0 (Proc.devRef .tc main_arg2) :=
  (val9_keep V0 main_arg2 (by decide)).trans (val8_main_arg2 V0)
theorem val9_main_arg3 (V0 : Valuation τ sig (Elt F)) : val9 V0 (Proc.devRef .tc main_arg3) = V0 (Proc.devRef .tc main_arg3) :=
  (val9_keep V0 main_arg3 (by decide)).trans (val8_main_arg3 V0)
theorem val9_main_arg4 (V0 : Valuation τ sig (Elt F)) : val9 V0 (Proc.devRef .tc main_arg4) = V0 (Proc.devRef .tc main_arg4) :=
  (val9_keep V0 main_arg4 (by decide)).trans (val8_main_arg4 V0)
theorem val9_main_arg5 (V0 : Valuation τ sig (Elt F)) : val9 V0 (Proc.devRef .tc main_arg5) = V0 (Proc.devRef .tc main_arg5) :=
  (val9_keep V0 main_arg5 (by decide)).trans (val8_main_arg5 V0)
theorem val9_main_arg6 (V0 : Valuation τ sig (Elt F)) : val9 V0 (Proc.devRef .tc main_arg6) = V0 (Proc.devRef .tc main_arg6) :=
  (val9_keep V0 main_arg6 (by decide)).trans (val8_main_arg6 V0)
theorem val9_main_arg7 (V0 : Valuation τ sig (Elt F)) : val9 V0 (Proc.devRef .tc main_arg7) = V0 (Proc.devRef .tc main_arg7) :=
  (val9_keep V0 main_arg7 (by decide)).trans (val8_main_arg7 V0)
theorem val9_main_arg8 (V0 : Valuation τ sig (Elt F)) : val9 V0 (Proc.devRef .tc main_arg8) = V0 (Proc.devRef .tc main_arg8) :=
  (val9_keep V0 main_arg8 (by decide)).trans (val8_main_arg8 V0)
theorem val9_main_arg9 (V0 : Valuation τ sig (Elt F)) : val9 V0 (Proc.devRef .tc main_arg9) = V0 (Proc.devRef .tc main_arg9) :=
  (val9_keep V0 main_arg9 (by decide)).trans (val8_main_arg9 V0)
theorem val9_main_arg10 (V0 : Valuation τ sig (Elt F)) : val9 V0 (Proc.devRef .tc main_arg10) = V0 (Proc.devRef .tc main_arg10) :=
  (val9_keep V0 main_arg10 (by decide)).trans (val8_main_arg10 V0)
theorem val9_main_arg11 (V0 : Valuation τ sig (Elt F)) : val9 V0 (Proc.devRef .tc main_arg11) = V0 (Proc.devRef .tc main_arg11) :=
  (val9_keep V0 main_arg11 (by decide)).trans (val8_main_arg11 V0)
theorem val9_main_arg12 (V0 : Valuation τ sig (Elt F)) : val9 V0 (Proc.devRef .tc main_arg12) = V0 (Proc.devRef .tc main_arg12) :=
  (val9_keep V0 main_arg12 (by decide)).trans (val8_main_arg12 V0)

/-- The device's buffer contents after the first 10 windows. -/
def val10 (V0 : Valuation τ sig (Elt F)) : Valuation τ sig (Elt F) := after w9 (val9 V0)
/-- The buffers window w9 writes. -/
abbrev w9_W : List (Ref sig .tc) := [main_v126, main_v127, main_v128, main_v129, main_cst_40, main_v130, main_cst_41, main_v131, main_v132, main_c_42, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_cst_3, main_call17_v12, main_call17_cst_4, main_call17_call0_v0, main_call17_call0_v1, main_v133, main_v134]
set_option maxRecDepth 8192 in
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val10_keep (V0 : Valuation τ sig (Elt F)) (r : Ref sig .tc) (h : r ∉ w9_W) :
    val10 V0 (Proc.devRef .tc r) = val9 V0 (Proc.devRef .tc r) :=
  after_of_writes_sub w9 _ w9_writes h
theorem val10_main_arg0 (V0 : Valuation τ sig (Elt F)) : val10 V0 (Proc.devRef .tc main_arg0) = V0 (Proc.devRef .tc main_arg0) :=
  (val10_keep V0 main_arg0 (by decide)).trans (val9_main_arg0 V0)
theorem val10_main_arg1 (V0 : Valuation τ sig (Elt F)) : val10 V0 (Proc.devRef .tc main_arg1) = V0 (Proc.devRef .tc main_arg1) :=
  (val10_keep V0 main_arg1 (by decide)).trans (val9_main_arg1 V0)
theorem val10_main_arg2 (V0 : Valuation τ sig (Elt F)) : val10 V0 (Proc.devRef .tc main_arg2) = V0 (Proc.devRef .tc main_arg2) :=
  (val10_keep V0 main_arg2 (by decide)).trans (val9_main_arg2 V0)
theorem val10_main_arg3 (V0 : Valuation τ sig (Elt F)) : val10 V0 (Proc.devRef .tc main_arg3) = V0 (Proc.devRef .tc main_arg3) :=
  (val10_keep V0 main_arg3 (by decide)).trans (val9_main_arg3 V0)
theorem val10_main_arg4 (V0 : Valuation τ sig (Elt F)) : val10 V0 (Proc.devRef .tc main_arg4) = V0 (Proc.devRef .tc main_arg4) :=
  (val10_keep V0 main_arg4 (by decide)).trans (val9_main_arg4 V0)
theorem val10_main_arg5 (V0 : Valuation τ sig (Elt F)) : val10 V0 (Proc.devRef .tc main_arg5) = V0 (Proc.devRef .tc main_arg5) :=
  (val10_keep V0 main_arg5 (by decide)).trans (val9_main_arg5 V0)
theorem val10_main_arg6 (V0 : Valuation τ sig (Elt F)) : val10 V0 (Proc.devRef .tc main_arg6) = V0 (Proc.devRef .tc main_arg6) :=
  (val10_keep V0 main_arg6 (by decide)).trans (val9_main_arg6 V0)
theorem val10_main_arg7 (V0 : Valuation τ sig (Elt F)) : val10 V0 (Proc.devRef .tc main_arg7) = V0 (Proc.devRef .tc main_arg7) :=
  (val10_keep V0 main_arg7 (by decide)).trans (val9_main_arg7 V0)
theorem val10_main_arg8 (V0 : Valuation τ sig (Elt F)) : val10 V0 (Proc.devRef .tc main_arg8) = V0 (Proc.devRef .tc main_arg8) :=
  (val10_keep V0 main_arg8 (by decide)).trans (val9_main_arg8 V0)
theorem val10_main_arg9 (V0 : Valuation τ sig (Elt F)) : val10 V0 (Proc.devRef .tc main_arg9) = V0 (Proc.devRef .tc main_arg9) :=
  (val10_keep V0 main_arg9 (by decide)).trans (val9_main_arg9 V0)
theorem val10_main_arg10 (V0 : Valuation τ sig (Elt F)) : val10 V0 (Proc.devRef .tc main_arg10) = V0 (Proc.devRef .tc main_arg10) :=
  (val10_keep V0 main_arg10 (by decide)).trans (val9_main_arg10 V0)
theorem val10_main_arg11 (V0 : Valuation τ sig (Elt F)) : val10 V0 (Proc.devRef .tc main_arg11) = V0 (Proc.devRef .tc main_arg11) :=
  (val10_keep V0 main_arg11 (by decide)).trans (val9_main_arg11 V0)
theorem val10_main_arg12 (V0 : Valuation τ sig (Elt F)) : val10 V0 (Proc.devRef .tc main_arg12) = V0 (Proc.devRef .tc main_arg12) :=
  (val10_keep V0 main_arg12 (by decide)).trans (val9_main_arg12 V0)

/-- The device's buffer contents after the first 11 windows. -/
def val11 (V0 : Valuation τ sig (Elt F)) : Valuation τ sig (Elt F) := after w10 (val10 V0)
/-- The buffers window w10 writes. -/
abbrev w10_W : List (Ref sig .tc) := [main_v135, main_v136, main_v137, main_v138, main_v139, main_cst_43, main_v140, main_v141, main_v142, main_v143, main_v144, main_v145, main_v146, main_v147, main_v148, main_v149, main_cst_44, main_v150, main_cst_45, main_v151, main_cst_46, main_v152, main_v153, main_v154, main_v155, main_c_47, main_c_48, main_call19_v0, main_call19_v1, main_call19_v2, main_call19_v3, main_call19_v4, main_v156, main_v157, main_v158, main_v159, main_v160]
set_option maxRecDepth 8192 in
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val11_keep (V0 : Valuation τ sig (Elt F)) (r : Ref sig .tc) (h : r ∉ w10_W) :
    val11 V0 (Proc.devRef .tc r) = val10 V0 (Proc.devRef .tc r) :=
  after_of_writes_sub w10 _ w10_writes h
theorem val11_main_arg0 (V0 : Valuation τ sig (Elt F)) : val11 V0 (Proc.devRef .tc main_arg0) = V0 (Proc.devRef .tc main_arg0) :=
  (val11_keep V0 main_arg0 (by decide)).trans (val10_main_arg0 V0)
theorem val11_main_arg1 (V0 : Valuation τ sig (Elt F)) : val11 V0 (Proc.devRef .tc main_arg1) = V0 (Proc.devRef .tc main_arg1) :=
  (val11_keep V0 main_arg1 (by decide)).trans (val10_main_arg1 V0)
theorem val11_main_arg2 (V0 : Valuation τ sig (Elt F)) : val11 V0 (Proc.devRef .tc main_arg2) = V0 (Proc.devRef .tc main_arg2) :=
  (val11_keep V0 main_arg2 (by decide)).trans (val10_main_arg2 V0)
theorem val11_main_arg3 (V0 : Valuation τ sig (Elt F)) : val11 V0 (Proc.devRef .tc main_arg3) = V0 (Proc.devRef .tc main_arg3) :=
  (val11_keep V0 main_arg3 (by decide)).trans (val10_main_arg3 V0)
theorem val11_main_arg4 (V0 : Valuation τ sig (Elt F)) : val11 V0 (Proc.devRef .tc main_arg4) = V0 (Proc.devRef .tc main_arg4) :=
  (val11_keep V0 main_arg4 (by decide)).trans (val10_main_arg4 V0)
theorem val11_main_arg5 (V0 : Valuation τ sig (Elt F)) : val11 V0 (Proc.devRef .tc main_arg5) = V0 (Proc.devRef .tc main_arg5) :=
  (val11_keep V0 main_arg5 (by decide)).trans (val10_main_arg5 V0)
theorem val11_main_arg6 (V0 : Valuation τ sig (Elt F)) : val11 V0 (Proc.devRef .tc main_arg6) = V0 (Proc.devRef .tc main_arg6) :=
  (val11_keep V0 main_arg6 (by decide)).trans (val10_main_arg6 V0)
theorem val11_main_arg7 (V0 : Valuation τ sig (Elt F)) : val11 V0 (Proc.devRef .tc main_arg7) = V0 (Proc.devRef .tc main_arg7) :=
  (val11_keep V0 main_arg7 (by decide)).trans (val10_main_arg7 V0)
theorem val11_main_arg8 (V0 : Valuation τ sig (Elt F)) : val11 V0 (Proc.devRef .tc main_arg8) = V0 (Proc.devRef .tc main_arg8) :=
  (val11_keep V0 main_arg8 (by decide)).trans (val10_main_arg8 V0)
theorem val11_main_arg9 (V0 : Valuation τ sig (Elt F)) : val11 V0 (Proc.devRef .tc main_arg9) = V0 (Proc.devRef .tc main_arg9) :=
  (val11_keep V0 main_arg9 (by decide)).trans (val10_main_arg9 V0)
theorem val11_main_arg10 (V0 : Valuation τ sig (Elt F)) : val11 V0 (Proc.devRef .tc main_arg10) = V0 (Proc.devRef .tc main_arg10) :=
  (val11_keep V0 main_arg10 (by decide)).trans (val10_main_arg10 V0)
theorem val11_main_arg11 (V0 : Valuation τ sig (Elt F)) : val11 V0 (Proc.devRef .tc main_arg11) = V0 (Proc.devRef .tc main_arg11) :=
  (val11_keep V0 main_arg11 (by decide)).trans (val10_main_arg11 V0)
theorem val11_main_arg12 (V0 : Valuation τ sig (Elt F)) : val11 V0 (Proc.devRef .tc main_arg12) = V0 (Proc.devRef .tc main_arg12) :=
  (val11_keep V0 main_arg12 (by decide)).trans (val10_main_arg12 V0)

/-- The device's buffer contents after the first 12 windows. -/
def val12 (V0 : Valuation τ sig (Elt F)) : Valuation τ sig (Elt F) := after w11 (val11 V0)
/-- The buffers window w11 writes. -/
abbrev w11_W : List (Ref sig .tc) := [main_v161, main_v162, main_cst_49, main_v163, main_v164, main_cst_50, main_v165, main_v166, main_v167, main_cst_51, main_v168, main_cst_52, main_v169, main_cst_53, main_v170, main_v171, main_v172, main_v173, main_c_54, main_c_55, main_call21_v0, main_call21_v1, main_call21_v2, main_call21_v3, main_call21_v4, main_v174, main_v175, main_v176, main_v177, main_v178]
set_option maxRecDepth 8192 in
theorem w11_writes : (w11 : List (HloOp τ sig (Elt F))).Forall fun op => op.writes ⊆ (w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the window does not write keeps its contents through it. -/
theorem val12_keep (V0 : Valuation τ sig (Elt F)) (r : Ref sig .tc) (h : r ∉ w11_W) :
    val12 V0 (Proc.devRef .tc r) = val11 V0 (Proc.devRef .tc r) :=
  after_of_writes_sub w11 _ w11_writes h
theorem val12_main_arg0 (V0 : Valuation τ sig (Elt F)) : val12 V0 (Proc.devRef .tc main_arg0) = V0 (Proc.devRef .tc main_arg0) :=
  (val12_keep V0 main_arg0 (by decide)).trans (val11_main_arg0 V0)
theorem val12_main_arg1 (V0 : Valuation τ sig (Elt F)) : val12 V0 (Proc.devRef .tc main_arg1) = V0 (Proc.devRef .tc main_arg1) :=
  (val12_keep V0 main_arg1 (by decide)).trans (val11_main_arg1 V0)
theorem val12_main_arg2 (V0 : Valuation τ sig (Elt F)) : val12 V0 (Proc.devRef .tc main_arg2) = V0 (Proc.devRef .tc main_arg2) :=
  (val12_keep V0 main_arg2 (by decide)).trans (val11_main_arg2 V0)
theorem val12_main_arg3 (V0 : Valuation τ sig (Elt F)) : val12 V0 (Proc.devRef .tc main_arg3) = V0 (Proc.devRef .tc main_arg3) :=
  (val12_keep V0 main_arg3 (by decide)).trans (val11_main_arg3 V0)
theorem val12_main_arg4 (V0 : Valuation τ sig (Elt F)) : val12 V0 (Proc.devRef .tc main_arg4) = V0 (Proc.devRef .tc main_arg4) :=
  (val12_keep V0 main_arg4 (by decide)).trans (val11_main_arg4 V0)
theorem val12_main_arg5 (V0 : Valuation τ sig (Elt F)) : val12 V0 (Proc.devRef .tc main_arg5) = V0 (Proc.devRef .tc main_arg5) :=
  (val12_keep V0 main_arg5 (by decide)).trans (val11_main_arg5 V0)
theorem val12_main_arg6 (V0 : Valuation τ sig (Elt F)) : val12 V0 (Proc.devRef .tc main_arg6) = V0 (Proc.devRef .tc main_arg6) :=
  (val12_keep V0 main_arg6 (by decide)).trans (val11_main_arg6 V0)
theorem val12_main_arg7 (V0 : Valuation τ sig (Elt F)) : val12 V0 (Proc.devRef .tc main_arg7) = V0 (Proc.devRef .tc main_arg7) :=
  (val12_keep V0 main_arg7 (by decide)).trans (val11_main_arg7 V0)
theorem val12_main_arg8 (V0 : Valuation τ sig (Elt F)) : val12 V0 (Proc.devRef .tc main_arg8) = V0 (Proc.devRef .tc main_arg8) :=
  (val12_keep V0 main_arg8 (by decide)).trans (val11_main_arg8 V0)
theorem val12_main_arg9 (V0 : Valuation τ sig (Elt F)) : val12 V0 (Proc.devRef .tc main_arg9) = V0 (Proc.devRef .tc main_arg9) :=
  (val12_keep V0 main_arg9 (by decide)).trans (val11_main_arg9 V0)
theorem val12_main_arg10 (V0 : Valuation τ sig (Elt F)) : val12 V0 (Proc.devRef .tc main_arg10) = V0 (Proc.devRef .tc main_arg10) :=
  (val12_keep V0 main_arg10 (by decide)).trans (val11_main_arg10 V0)
theorem val12_main_arg11 (V0 : Valuation τ sig (Elt F)) : val12 V0 (Proc.devRef .tc main_arg11) = V0 (Proc.devRef .tc main_arg11) :=
  (val12_keep V0 main_arg11 (by decide)).trans (val11_main_arg11 V0)
theorem val12_main_arg12 (V0 : Valuation τ sig (Elt F)) : val12 V0 (Proc.devRef .tc main_arg12) = V0 (Proc.devRef .tc main_arg12) :=
  (val12_keep V0 main_arg12 (by decide)).trans (val11_main_arg12 V0)

/-- The whole list's fold is the last window's contents. -/
theorem after_ops (V0 : Valuation τ sig (Elt F)) : after ops V0 = val12 V0 := by
  simp only [ops, after_append]
  rfl

end Cert.ReferenceIdeal.RefRun

end
-- ==== Proof.RefRun.lean ====
/- The reference program's run: @main is the straight line of the operation list, so every weakly fair execution
   terminates with each buffer at the list's fold over the launch contents; the argument arrays, which no operation
   writes, end as they began. -/
import proofs.«131146_j57208964383148_1_alg».proof.Defs
import proofs.«131146_j57208964383148_1_alg».proof.Proof.Gen.ReferenceIdeal
import proofs.«131146_j57208964383148_1_alg».proof.Proof.RefOps
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- Part 0 of @main is its windows' operations in order: the called functions unfold at their calls. -/
theorem main_part0_eq (c : Dev nD) : main_part0 (F := F) c = seq (w0 ++ (w1 ++ w2)) := rfl
set_option maxRecDepth 65536 in
set_option maxHeartbeats 4000000 in
/-- Part 1 of @main is its windows' operations in order: the called functions unfold at their calls. -/
theorem main_part1_eq (c : Dev nD) : main_part1 (F := F) c = seq (w3 ++ (w4 ++ (w5 ++ w6))) := rfl
set_option maxRecDepth 65536 in
set_option maxHeartbeats 4000000 in
/-- Part 2 of @main is its windows' operations in order: the called functions unfold at their calls. -/
theorem main_part2_eq (c : Dev nD) : main_part2 (F := F) c = seq (w7 ++ (w8 ++ w9)) := rfl
set_option maxRecDepth 65536 in
set_option maxHeartbeats 4000000 in
/-- Part 3 of @main is its windows' operations in order: the called functions unfold at their calls. -/
theorem main_part3_eq (c : Dev nD) : main_part3 (F := F) c = seq (w10 ++ w11) := rfl
theorem main_eq (c : Dev nD) : main (F := F) c = seq ops := by
  show main (F := F) c = seq ((w0 ++ (w1 ++ w2)) ++ ((w3 ++ (w4 ++ (w5 ++ w6))) ++ ((w7 ++ (w8 ++ w9)) ++ (w10 ++ w11))))
  rw [seq_append (w0 ++ (w1 ++ w2)) _, seq_append (w3 ++ (w4 ++ (w5 ++ w6))) _, seq_append (w7 ++ (w8 ++ w9)) _, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with every buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same with the three results named and the thirteen argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v178) = after ops (launchContents m c) (Proc.devRef .tc main_v178)
      ∧ r.2.mem ((c.tc : Thread nD τ).loc main_v65) = after ops (launchContents m c) (Proc.devRef .tc main_v65)
      ∧ r.2.mem ((c.tc : Thread nD τ).loc main_v119) = after ops (launchContents m c) (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v178,
      h c main_v65,
      h c main_v119,
      (h c main_arg0).trans (by rw [after_ops]; exact val12_main_arg0 (launchContents m c)),
      (h c main_arg1).trans (by rw [after_ops]; exact val12_main_arg1 (launchContents m c)),
      (h c main_arg2).trans (by rw [after_ops]; exact val12_main_arg2 (launchContents m c)),
      (h c main_arg3).trans (by rw [after_ops]; exact val12_main_arg3 (launchContents m c)),
      (h c main_arg4).trans (by rw [after_ops]; exact val12_main_arg4 (launchContents m c)),
      (h c main_arg5).trans (by rw [after_ops]; exact val12_main_arg5 (launchContents m c)),
      (h c main_arg6).trans (by rw [after_ops]; exact val12_main_arg6 (launchContents m c)),
      (h c main_arg7).trans (by rw [after_ops]; exact val12_main_arg7 (launchContents m c)),
      (h c main_arg8).trans (by rw [after_ops]; exact val12_main_arg8 (launchContents m c)),
      (h c main_arg9).trans (by rw [after_ops]; exact val12_main_arg9 (launchContents m c)),
      (h c main_arg10).trans (by rw [after_ops]; exact val12_main_arg10 (launchContents m c)),
      (h c main_arg11).trans (by rw [after_ops]; exact val12_main_arg11 (launchContents m c)),
      (h c main_arg12).trans (by rw [after_ops]; exact val12_main_arg12 (launchContents m c))⟩)
    (run_all m ρ)

/-- The reference's frame at the extended reals: it terminates, faults nowhere and leaves its arguments as they were. -/
theorem frame [Cert.Pre_finite_inputs.Facts] : Cert.frame_ReferenceIdeal := fun m g _ =>
  (θ_run (defs (F := Ideal)) _ _).mono (fun _ h c => (h c).2.2.2) (run (F := Ideal) m g)

end Cert.ReferenceIdeal.RefRun

end
-- ==== Proof.RefStages.lean ====
/- The reference's results stage by stage: each logical stage (an input's quantisation step and its quantisation, the weight
   signs, a layer's linear map, its column means and variances, the normalisation, the activation) as one function of the
   arrays it reads, composed of the operations' own array functions; and the contents of each stage's buffer after the run
   as the composition of the stages from the argument arrays. -/
import proofs.«131146_j57208964383148_1_alg».proof.Proof.RefOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stage that writes main_v3, as a function of the arrays it reads. -/
def st_main_v3 (x_main_arg0 : (⟨S65536x784, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (((fun x v => Host.reduce FloatOps.maximumf x v reducesTo_S65536x784_S_d0_1 h_S_) : (⟨S65536x784, .f32⟩ : BufTy).Contents (Elt F) → (⟨S_, .f32⟩ : BufTy).Contents (Elt F) → (⟨S_, .f32⟩ : BufTy).Contents (Elt F)) ((Host.absf : (⟨S65536x784, .f32⟩ : BufTy).Contents (Elt F) → (⟨S65536x784, .f32⟩ : BufTy).Contents (Elt F)) x_main_arg0) (constant S_ .f32 0xFF800000#32 : (⟨S_, .f32⟩ : BufTy).Contents (Elt F))) (constant S_ .f32 0x322BCC77#32 : (⟨S_, .f32⟩ : BufTy).Contents (Elt F))) (constant S_ .f32 0x42FE0000#32 : (⟨S_, .f32⟩ : BufTy).Contents (Elt F)))

/-- The stage that writes main_v11, as a function of the arrays it reads. -/
def st_main_v11 (x_main_arg0 : (⟨S65536x784, .f32⟩ : BufTy).Contents (Elt F)) (x_main_v3 : (⟨S_, .f32⟩ : BufTy).Contents (Elt F)) : (⟨S65536x784, .f32⟩ : BufTy).Contents (Elt F) :=
  ((addf : (⟨S65536x784, .f32⟩ : BufTy).Contents (Elt F) → (⟨S65536x784, .f32⟩ : BufTy).Contents (Elt F) → (⟨S65536x784, .f32⟩ : BufTy).Contents (Elt F)) x_main_arg0 ((subf : (⟨S65536x784, .f32⟩ : BufTy).Contents (Elt F) → (⟨S65536x784, .f32⟩ : BufTy).Contents (Elt F) → (⟨S65536x784, .f32⟩ : BufTy).Contents (Elt F)) ((mulf : (⟨S65536x784, .f32⟩ : BufTy).Contents (Elt F) → (⟨S65536x784, .f32⟩ : BufTy).Contents (Elt F) → (⟨S65536x784, .f32⟩ : BufTy).Contents (Elt F)) ((minimumf : (⟨S65536x784, .f32⟩ : BufTy).Contents (Elt F) → (⟨S65536x784, .f32⟩ : BufTy).Contents (Elt F) → (⟨S65536x784, .f32⟩ : BufTy).Contents (Elt F)) ((broadcastInDim S65536x784 ![] bcast_S_S65536x784 : (⟨S_, .f32⟩ : BufTy).Contents (Elt F) → (⟨S65536x784, .f32⟩ : BufTy).Contents (Elt F)) ((sitofp .f32 : (⟨S_, .i32⟩ : BufTy).Contents (Elt F) → (⟨S_, .f32⟩ : BufTy).Contents (Elt F)) (constantI S_ 32 127#32 : (⟨S_, .i32⟩ : BufTy).Contents (Elt F)))) ((maximumf : (⟨S65536x784, .f32⟩ : BufTy).Contents (Elt F) → (⟨S65536x784, .f32⟩ : BufTy).Contents (Elt F) → (⟨S65536x784, .f32⟩ : BufTy).Contents (Elt F)) ((broadcastInDim S65536x784 ![] bcast_S_S65536x784 : (⟨S_, .f32⟩ : BufTy).Contents (Elt F) → (⟨S65536x784, .f32⟩ : BufTy).Contents (Elt F)) ((sitofp .f32 : (⟨S_, .i32⟩ : BufTy).Contents (Elt F) → (⟨S_, .f32⟩ : BufTy).Contents (Elt F)) (constantI S_ 32 4294967168#32 : (⟨S_, .i32⟩ : BufTy).Contents (Elt F)))) ((Host.roundeven : (⟨S65536x784, .f32⟩ : BufTy).Contents (Elt F) → (⟨S65536x784, .f32⟩ : BufTy).Contents (Elt F)) ((Host.divf : (⟨S65536x784, .f32⟩ : BufTy).Contents (Elt F) → (⟨S65536x784, .f32⟩ : BufTy).Contents (Elt F) → (⟨S65536x784, .f32⟩ : BufTy).Contents (Elt F)) x_main_arg0 ((broadcastInDim S65536x784 ![] bcast_S_S65536x784 : (⟨S_, .f32⟩ : BufTy).Contents (Elt F) → (⟨S65536x784, .f32⟩ : BufTy).Contents (Elt F)) x_main_v3))))) ((broadcastInDim S65536x784 ![] bcast_S_S65536x784 : (⟨S_, .f32⟩ : BufTy).Contents (Elt F) → (⟨S65536x784, .f32⟩ : BufTy).Contents (Elt F)) x_main_v3)) x_main_arg0))

/-- The stage that writes main_v17, as a function of the arrays it reads. -/
def st_main_v17 (x_main_arg1 : (⟨S128x784, .f32⟩ : BufTy).Contents (Elt F)) : (⟨S128x784, .f32⟩ : BufTy).Contents (Elt F) :=
  ((addf : (⟨S128x784, .f32⟩ : BufTy).Contents (Elt F) → (⟨S128x784, .f32⟩ : BufTy).Contents (Elt F) → (⟨S128x784, .f32⟩ : BufTy).Contents (Elt F)) x_main_arg1 ((subf : (⟨S128x784, .f32⟩ : BufTy).Contents (Elt F) → (⟨S128x784, .f32⟩ : BufTy).Contents (Elt F) → (⟨S128x784, .f32⟩ : BufTy).Contents (Elt F)) ((id : (⟨S128x784, .f32⟩ : BufTy).Contents (Elt F) → (⟨S128x784, .f32⟩ : BufTy).Contents (Elt F)) ((select : (⟨S128x784, .i1⟩ : BufTy).Contents (Elt F) → (⟨S128x784, .f32⟩ : BufTy).Contents (Elt F) → (⟨S128x784, .f32⟩ : BufTy).Contents (Elt F) → (⟨S128x784, .f32⟩ : BufTy).Contents (Elt F)) ((cmpf .oge : (⟨S128x784, .f32⟩ : BufTy).Contents (Elt F) → (⟨S128x784, .f32⟩ : BufTy).Contents (Elt F) → (⟨S128x784, .i1⟩ : BufTy).Contents (Elt F)) x_main_arg1 ((broadcastInDim S128x784 ![] bcast_S_S128x784 : (⟨S_, .f32⟩ : BufTy).Contents (Elt F) → (⟨S128x784, .f32⟩ : BufTy).Contents (Elt F)) (constant S_ .f32 0x00000000#32 : (⟨S_, .f32⟩ : BufTy).Contents (Elt F)))) ((broadcastInDim S128x784 ![] bcast_S_S128x784 : (⟨S_, .f32⟩ : BufTy).Contents (Elt F) → (⟨S128x784, .f32⟩ : BufTy).Contents (Elt F)) (constant S_ .f32 0x3F800000#32 : (⟨S_, .f32⟩ : BufTy).Contents (Elt F))) ((broadcastInDim S128x784 ![] bcast_S_S128x784 : (⟨S_, .f32⟩ : BufTy).Contents (Elt F) → (⟨S128x784, .f32⟩ : BufTy).Contents (Elt F)) (constant S_ .f32 0xBF800000#32 : (⟨S_, .f32⟩ : BufTy).Contents (Elt F))))) x_main_arg1))

/-- The stage that writes main_v21, as a function of the arrays it reads. -/
def st_main_v21 (x_main_v11 : (⟨S65536x784, .f32⟩ : BufTy).Contents (Elt F)) (x_main_v17 : (⟨S128x784, .f32⟩ : BufTy).Contents (Elt F)) (x_main_arg2 : (⟨S128, .f32⟩ : BufTy).Contents (Elt F)) : (⟨S65536x128, .f32⟩ : BufTy).Contents (Elt F) :=
  ((addf : (⟨S65536x128, .f32⟩ : BufTy).Contents (Elt F) → (⟨S65536x128, .f32⟩ : BufTy).Contents (Elt F) → (⟨S65536x128, .f32⟩ : BufTy).Contents (Elt F)) (((fun l r => Host.dotGeneral dot_S65536x784_S128x784_S65536x128_1_1_0_0_n_n none l r) : (⟨S65536x784, .f32⟩ : BufTy).Contents (Elt F) → (⟨S128x784, .f32⟩ : BufTy).Contents (Elt F) → (⟨S65536x128, .f32⟩ : BufTy).Contents (Elt F)) x_main_v11 x_main_v17) ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg2)))

/-- The stage that writes main_v24, as a function of the arrays it reads. -/
def st_main_v24 (x_main_v21 : (⟨S65536x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)) x_main_v21 (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47800000#32 : (⟨S_, .f32⟩ : BufTy).Contents (Elt F))))

/-- The stage that writes main_v25, as a function of the arrays it reads. -/
def st_main_v25 (x_main_v21 : (⟨S65536x128, .f32⟩ : BufTy).Contents (Elt F)) : (⟨S128, .f32⟩ : BufTy).Contents (Elt F) :=
  ((fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47800000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S128, .f32⟩ : BufTy).Contents (Elt F) → (⟨S128, .f32⟩ : BufTy).Contents (Elt F) → (⟨S128, .f32⟩ : BufTy).Contents (Elt F)) ((fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) ((subf : (⟨S65536x128, .f32⟩ : BufTy).Contents (Elt F) → (⟨S65536x128, .f32⟩ : BufTy).Contents (Elt F) → (⟨S65536x128, .f32⟩ : BufTy).Contents (Elt F)) x_main_v21 ((broadcastInDim S65536x128 ![0, 1] bcast_S1x128_S65536x128_0_1 : (⟨S1x128, .f32⟩ : BufTy).Contents (Elt F) → (⟨S65536x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)) x_main_v21 (constant S_ .f32 0x00000000#32 : (⟨S_, .f32⟩ : BufTy).Contents (Elt F)))) ((broadcastInDim S1x128 ![] bcast_S_S1x128 : (⟨S_, .f32⟩ : BufTy).Contents (Elt F) → (⟨S1x128, .f32⟩ : BufTy).Contents (Elt F)) (constant S_ .f32 0x47800000#32 : (⟨S_, .f32⟩ : BufTy).Contents (Elt F)))))) ((subf : (⟨S65536x128, .f32⟩ : BufTy).Contents (Elt F) → (⟨S65536x128, .f32⟩ : BufTy).Contents (Elt F) → (⟨S65536x128, .f32⟩ : BufTy).Contents (Elt F)) x_main_v21 ((broadcastInDim S65536x128 ![0, 1] bcast_S1x128_S65536x128_0_1 : (⟨S1x128, .f32⟩ : BufTy).Contents (Elt F) → (⟨S65536x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)) x_main_v21 (constant S_ .f32 0x00000000#32 : (⟨S_, .f32⟩ : BufTy).Contents (Elt F)))) ((broadcastInDim S1x128 ![] bcast_S_S1x128 : (⟨S_, .f32⟩ : BufTy).Contents (Elt F) → (⟨S1x128, .f32⟩ : BufTy).Contents (Elt F)) (constant S_ .f32 0x47800000#32 : (⟨S_, .f32⟩ : BufTy).Contents (Elt F))))))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47800000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S128 ![] bcast_S_S128 : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))))

/-- The stage that writes main_v40, as a function of the arrays it reads. -/
def st_main_v40 (x_main_arg3 : (⟨S128, .f32⟩ : BufTy).Contents (Elt F)) (x_main_v21 : (⟨S65536x128, .f32⟩ : BufTy).Contents (Elt F)) (x_main_v24 : (⟨S128, .f32⟩ : BufTy).Contents (Elt F)) (x_main_v25 : (⟨S128, .f32⟩ : BufTy).Contents (Elt F)) (x_main_arg4 : (⟨S128, .f32⟩ : BufTy).Contents (Elt F)) : (⟨S65536x128, .f32⟩ : BufTy).Contents (Elt F) :=
  ((addf : (⟨S65536x128, .f32⟩ : BufTy).Contents (Elt F) → (⟨S65536x128, .f32⟩ : BufTy).Contents (Elt F) → (⟨S65536x128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg3)) ((subf : (⟨S65536x128, .f32⟩ : BufTy).Contents (Elt F) → (⟨S65536x128, .f32⟩ : BufTy).Contents (Elt F) → (⟨S65536x128, .f32⟩ : BufTy).Contents (Elt F)) x_main_v21 ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_v24)))) ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) x_main_v25 ((broadcastInDim S128 ![] bcast_S_S128 : (⟨S_, .f32⟩ : BufTy).Contents (Elt F) → (⟨S128, .f32⟩ : BufTy).Contents (Elt F)) (constant S_ .f32 0x3727C5AC#32 : (⟨S_, .f32⟩ : BufTy).Contents (Elt F)))))))) ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg4)))

/-- The stage that writes main_v44, as a function of the arrays it reads. -/
def st_main_v44 (x_main_v40 : (⟨S65536x128, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (((fun x v => Host.reduce FloatOps.maximumf x v reducesTo_S65536x128_S_d0_1 h_S_) : (⟨S65536x128, .f32⟩ : BufTy).Contents (Elt F) → (⟨S_, .f32⟩ : BufTy).Contents (Elt F) → (⟨S_, .f32⟩ : BufTy).Contents (Elt F)) ((Host.absf : (⟨S65536x128, .f32⟩ : BufTy).Contents (Elt F) → (⟨S65536x128, .f32⟩ : BufTy).Contents (Elt F)) x_main_v40) (constant S_ .f32 0xFF800000#32 : (⟨S_, .f32⟩ : BufTy).Contents (Elt F))) (constant S_ .f32 0x322BCC77#32 : (⟨S_, .f32⟩ : BufTy).Contents (Elt F))) (constant S_ .f32 0x42FE0000#32 : (⟨S_, .f32⟩ : BufTy).Contents (Elt F)))

/-- The stage that writes main_v52, as a function of the arrays it reads. -/
def st_main_v52 (x_main_v40 : (⟨S65536x128, .f32⟩ : BufTy).Contents (Elt F)) (x_main_v44 : (⟨S_, .f32⟩ : BufTy).Contents (Elt F)) : (⟨S65536x128, .f32⟩ : BufTy).Contents (Elt F) :=
  ((addf : (⟨S65536x128, .f32⟩ : BufTy).Contents (Elt F) → (⟨S65536x128, .f32⟩ : BufTy).Contents (Elt F) → (⟨S65536x128, .f32⟩ : BufTy).Contents (Elt F)) x_main_v40 ((subf : (⟨S65536x128, .f32⟩ : BufTy).Contents (Elt F) → (⟨S65536x128, .f32⟩ : BufTy).Contents (Elt F) → (⟨S65536x128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) ((minimumf : (⟨S65536x128, .f32⟩ : BufTy).Contents (Elt F) → (⟨S65536x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) ((sitofp .f32 : (⟨S_, .i32⟩ : BufTy).Contents (Elt F) → (⟨S_, .f32⟩ : BufTy).Contents (Elt F)) (constantI S_ 32 127#32 : (⟨S_, .i32⟩ : BufTy).Contents (Elt F)))) ((maximumf : (⟨S65536x128, .f32⟩ : BufTy).Contents (Elt F) → (⟨S65536x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) ((sitofp .f32 : (⟨S_, .i32⟩ : BufTy).Contents (Elt F) → (⟨S_, .f32⟩ : BufTy).Contents (Elt F)) (constantI S_ 32 4294967168#32 : (⟨S_, .i32⟩ : BufTy).Contents (Elt F)))) ((Host.roundeven : (⟨S65536x128, .f32⟩ : BufTy).Contents (Elt F) → (⟨S65536x128, .f32⟩ : BufTy).Contents (Elt F)) ((Host.divf : (⟨S65536x128, .f32⟩ : BufTy).Contents (Elt F) → (⟨S65536x128, .f32⟩ : BufTy).Contents (Elt F) → (⟨S65536x128, .f32⟩ : BufTy).Contents (Elt F)) x_main_v40 ((broadcastInDim S65536x128 ![] bcast_S_S65536x128 : (⟨S_, .f32⟩ : BufTy).Contents (Elt F) → (⟨S65536x128, .f32⟩ : BufTy).Contents (Elt F)) x_main_v44))))) ((broadcastInDim S65536x128 ![] bcast_S_S65536x128 : (⟨S_, .f32⟩ : BufTy).Contents (Elt F) → (⟨S65536x128, .f32⟩ : BufTy).Contents (Elt F)) x_main_v44)) x_main_v40))

/-- The stage that writes main_v53, as a function of the arrays it reads. -/
def st_main_v53 (x_main_v52 : (⟨S65536x128, .f32⟩ : BufTy).Contents (Elt F)) : (⟨S65536x128, .f32⟩ : BufTy).Contents (Elt F) :=
  ((maximumf : (⟨S65536x128, .f32⟩ : BufTy).Contents (Elt F) → (⟨S65536x128, .f32⟩ : BufTy).Contents (Elt F) → (⟨S65536x128, .f32⟩ : BufTy).Contents (Elt F)) x_main_v52 ((broadcastInDim S65536x128 ![] bcast_S_S65536x128 : (⟨S_, .f32⟩ : BufTy).Contents (Elt F) → (⟨S65536x128, .f32⟩ : BufTy).Contents (Elt F)) (constant S_ .f32 0x00000000#32 : (⟨S_, .f32⟩ : BufTy).Contents (Elt F))))

/-- The stage that writes main_v57, as a function of the arrays it reads. -/
def st_main_v57 (x_main_v53 : (⟨S65536x128, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (((fun x v => Host.reduce FloatOps.maximumf x v reducesTo_S65536x128_S_d0_1 h_S_) : (⟨S65536x128, .f32⟩ : BufTy).Contents (Elt F) → (⟨S_, .f32⟩ : BufTy).Contents (Elt F) → (⟨S_, .f32⟩ : BufTy).Contents (Elt F)) ((Host.absf : (⟨S65536x128, .f32⟩ : BufTy).Contents (Elt F) → (⟨S65536x128, .f32⟩ : BufTy).Contents (Elt F)) x_main_v53) (constant S_ .f32 0xFF800000#32 : (⟨S_, .f32⟩ : BufTy).Contents (Elt F))) (constant S_ .f32 0x322BCC77#32 : (⟨S_, .f32⟩ : BufTy).Contents (Elt F))) (constant S_ .f32 0x42FE0000#32 : (⟨S_, .f32⟩ : BufTy).Contents (Elt F)))

/-- The stage that writes main_v65, as a function of the arrays it reads. -/
def st_main_v65 (x_main_v53 : (⟨S65536x128, .f32⟩ : BufTy).Contents (Elt F)) (x_main_v57 : (⟨S_, .f32⟩ : BufTy).Contents (Elt F)) : (⟨S65536x128, .f32⟩ : BufTy).Contents (Elt F) :=
  ((addf : (⟨S65536x128, .f32⟩ : BufTy).Contents (Elt F) → (⟨S65536x128, .f32⟩ : BufTy).Contents (Elt F) → (⟨S65536x128, .f32⟩ : BufTy).Contents (Elt F)) x_main_v53 ((subf : (⟨S65536x128, .f32⟩ : BufTy).Contents (Elt F) → (⟨S65536x128, .f32⟩ : BufTy).Contents (Elt F) → (⟨S65536x128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) ((minimumf : (⟨S65536x128, .f32⟩ : BufTy).Contents (Elt F) → (⟨S65536x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) ((sitofp .f32 : (⟨S_, .i32⟩ : BufTy).Contents (Elt F) → (⟨S_, .f32⟩ : BufTy).Contents (Elt F)) (constantI S_ 32 127#32 : (⟨S_, .i32⟩ : BufTy).Contents (Elt F)))) ((maximumf : (⟨S65536x128, .f32⟩ : BufTy).Contents (Elt F) → (⟨S65536x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) ((sitofp .f32 : (⟨S_, .i32⟩ : BufTy).Contents (Elt F) → (⟨S_, .f32⟩ : BufTy).Contents (Elt F)) (constantI S_ 32 4294967168#32 : (⟨S_, .i32⟩ : BufTy).Contents (Elt F)))) ((Host.roundeven : (⟨S65536x128, .f32⟩ : BufTy).Contents (Elt F) → (⟨S65536x128, .f32⟩ : BufTy).Contents (Elt F)) ((Host.divf : (⟨S65536x128, .f32⟩ : BufTy).Contents (Elt F) → (⟨S65536x128, .f32⟩ : BufTy).Contents (Elt F) → (⟨S65536x128, .f32⟩ : BufTy).Contents (Elt F)) x_main_v53 ((broadcastInDim S65536x128 ![] bcast_S_S65536x128 : (⟨S_, .f32⟩ : BufTy).Contents (Elt F) → (⟨S65536x128, .f32⟩ : BufTy).Contents (Elt F)) x_main_v57))))) ((broadcastInDim S65536x128 ![] bcast_S_S65536x128 : (⟨S_, .f32⟩ : BufTy).Contents (Elt F) → (⟨S65536x128, .f32⟩ : BufTy).Contents (Elt F)) x_main_v57)) x_main_v53))

/-- The stage that writes main_v71, as a function of the arrays it reads. -/
def st_main_v71 (x_main_arg5 : (⟨S128x128, .f32⟩ : BufTy).Contents (Elt F)) : (⟨S128x128, .f32⟩ : BufTy).Contents (Elt F) :=
  ((addf : (⟨S128x128, .f32⟩ : BufTy).Contents (Elt F) → (⟨S128x128, .f32⟩ : BufTy).Contents (Elt F) → (⟨S128x128, .f32⟩ : BufTy).Contents (Elt F)) x_main_arg5 ((subf : (⟨S128x128, .f32⟩ : BufTy).Contents (Elt F) → (⟨S128x128, .f32⟩ : BufTy).Contents (Elt F) → (⟨S128x128, .f32⟩ : BufTy).Contents (Elt F)) ((id : (⟨S128x128, .f32⟩ : BufTy).Contents (Elt F) → (⟨S128x128, .f32⟩ : BufTy).Contents (Elt F)) ((select : (⟨S128x128, .i1⟩ : BufTy).Contents (Elt F) → (⟨S128x128, .f32⟩ : BufTy).Contents (Elt F) → (⟨S128x128, .f32⟩ : BufTy).Contents (Elt F) → (⟨S128x128, .f32⟩ : BufTy).Contents (Elt F)) ((cmpf .oge : (⟨S128x128, .f32⟩ : BufTy).Contents (Elt F) → (⟨S128x128, .f32⟩ : BufTy).Contents (Elt F) → (⟨S128x128, .i1⟩ : BufTy).Contents (Elt F)) x_main_arg5 ((broadcastInDim S128x128 ![] bcast_S_S128x128 : (⟨S_, .f32⟩ : BufTy).Contents (Elt F) → (⟨S128x128, .f32⟩ : BufTy).Contents (Elt F)) (constant S_ .f32 0x00000000#32 : (⟨S_, .f32⟩ : BufTy).Contents (Elt F)))) ((broadcastInDim S128x128 ![] bcast_S_S128x128 : (⟨S_, .f32⟩ : BufTy).Contents (Elt F) → (⟨S128x128, .f32⟩ : BufTy).Contents (Elt F)) (constant S_ .f32 0x3F800000#32 : (⟨S_, .f32⟩ : BufTy).Contents (Elt F))) ((broadcastInDim S128x128 ![] bcast_S_S128x128 : (⟨S_, .f32⟩ : BufTy).Contents (Elt F) → (⟨S128x128, .f32⟩ : BufTy).Contents (Elt F)) (constant S_ .f32 0xBF800000#32 : (⟨S_, .f32⟩ : BufTy).Contents (Elt F))))) x_main_arg5))

/-- The stage that writes main_v75, as a function of the arrays it reads. -/
def st_main_v75 (x_main_v65 : (⟨S65536x128, .f32⟩ : BufTy).Contents (Elt F)) (x_main_v71 : (⟨S128x128, .f32⟩ : BufTy).Contents (Elt F)) (x_main_arg6 : (⟨S128, .f32⟩ : BufTy).Contents (Elt F)) : (⟨S65536x128, .f32⟩ : BufTy).Contents (Elt F) :=
  ((addf : (⟨S65536x128, .f32⟩ : BufTy).Contents (Elt F) → (⟨S65536x128, .f32⟩ : BufTy).Contents (Elt F) → (⟨S65536x128, .f32⟩ : BufTy).Contents (Elt F)) (((fun l r => Host.dotGeneral dot_S65536x128_S128x128_S65536x128_1_1_0_0_n_n none l r) : (⟨S65536x128, .f32⟩ : BufTy).Contents (Elt F) → (⟨S128x128, .f32⟩ : BufTy).Contents (Elt F) → (⟨S65536x128, .f32⟩ : BufTy).Contents (Elt F)) x_main_v65 x_main_v71) ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg6)))

/-- The stage that writes main_v78, as a function of the arrays it reads. -/
def st_main_v78 (x_main_v75 : (⟨S65536x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)) x_main_v75 (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x47800000#32 : (⟨S_, .f32⟩ : BufTy).Contents (Elt F))))

/-- The stage that writes main_v79, as a function of the arrays it reads. -/
def st_main_v79 (x_main_v75 : (⟨S65536x128, .f32⟩ : BufTy).Contents (Elt F)) : (⟨S128, .f32⟩ : BufTy).Contents (Elt F) :=
  ((fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47800000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S128, .f32⟩ : BufTy).Contents (Elt F) → (⟨S128, .f32⟩ : BufTy).Contents (Elt F) → (⟨S128, .f32⟩ : BufTy).Contents (Elt F)) ((fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) ((subf : (⟨S65536x128, .f32⟩ : BufTy).Contents (Elt F) → (⟨S65536x128, .f32⟩ : BufTy).Contents (Elt F) → (⟨S65536x128, .f32⟩ : BufTy).Contents (Elt F)) x_main_v75 ((broadcastInDim S65536x128 ![0, 1] bcast_S1x128_S65536x128_0_1 : (⟨S1x128, .f32⟩ : BufTy).Contents (Elt F) → (⟨S65536x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)) x_main_v75 (constant S_ .f32 0x00000000#32 : (⟨S_, .f32⟩ : BufTy).Contents (Elt F)))) ((broadcastInDim S1x128 ![] bcast_S_S1x128 : (⟨S_, .f32⟩ : BufTy).Contents (Elt F) → (⟨S1x128, .f32⟩ : BufTy).Contents (Elt F)) (constant S_ .f32 0x47800000#32 : (⟨S_, .f32⟩ : BufTy).Contents (Elt F)))))) ((subf : (⟨S65536x128, .f32⟩ : BufTy).Contents (Elt F) → (⟨S65536x128, .f32⟩ : BufTy).Contents (Elt F) → (⟨S65536x128, .f32⟩ : BufTy).Contents (Elt F)) x_main_v75 ((broadcastInDim S65536x128 ![0, 1] bcast_S1x128_S65536x128_0_1 : (⟨S1x128, .f32⟩ : BufTy).Contents (Elt F) → (⟨S65536x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) ((fun x v => Host.reduceAdd x v reducesTo_S65536x128_S128_d0 h_S_ : (⟨S65536x128, .f32⟩ : BufTy).Contents (Elt F) → (⟨S_, .f32⟩ : BufTy).Contents (Elt F) → (⟨S128, .f32⟩ : BufTy).Contents (Elt F)) x_main_v75 (constant S_ .f32 0x00000000#32 : (⟨S_, .f32⟩ : BufTy).Contents (Elt F)))) ((broadcastInDim S1x128 ![] bcast_S_S1x128 : (⟨S_, .f32⟩ : BufTy).Contents (Elt F) → (⟨S1x128, .f32⟩ : BufTy).Contents (Elt F)) (constant S_ .f32 0x47800000#32 : (⟨S_, .f32⟩ : BufTy).Contents (Elt F))))))) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47800000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S128 ![] bcast_S_S128 : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))))

/-- The stage that writes main_v85, as a function of the arrays it reads. -/
def st_main_v85 (x_main_arg7 : (⟨S128, .f32⟩ : BufTy).Contents (Elt F)) (x_main_v75 : (⟨S65536x128, .f32⟩ : BufTy).Contents (Elt F)) (x_main_v78 : (⟨S128, .f32⟩ : BufTy).Contents (Elt F)) : (⟨S65536x128, .f32⟩ : BufTy).Contents (Elt F) :=
  ((mulf : (⟨S65536x128, .f32⟩ : BufTy).Contents (Elt F) → (⟨S65536x128, .f32⟩ : BufTy).Contents (Elt F) → (⟨S65536x128, .f32⟩ : BufTy).Contents (Elt F)) ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg7)) ((subf : (⟨S65536x128, .f32⟩ : BufTy).Contents (Elt F) → (⟨S65536x128, .f32⟩ : BufTy).Contents (Elt F) → (⟨S65536x128, .f32⟩ : BufTy).Contents (Elt F)) x_main_v75 ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_v78))))

/-- The stage that writes main_v90, as a function of the arrays it reads. -/
def st_main_v90 (x_main_v79 : (⟨S128, .f32⟩ : BufTy).Contents (Elt F)) : (⟨S65536x128, .f32⟩ : BufTy).Contents (Elt F) :=
  ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) x_main_v79 ((broadcastInDim S128 ![] bcast_S_S128 : (⟨S_, .f32⟩ : BufTy).Contents (Elt F) → (⟨S128, .f32⟩ : BufTy).Contents (Elt F)) (constant S_ .f32 0x3727C5AC#32 : (⟨S_, .f32⟩ : BufTy).Contents (Elt F)))))))

/-- The stage that writes main_v94, as a function of the arrays it reads. -/
def st_main_v94 (x_main_v85 : (⟨S65536x128, .f32⟩ : BufTy).Contents (Elt F)) (x_main_v90 : (⟨S65536x128, .f32⟩ : BufTy).Contents (Elt F)) (x_main_arg8 : (⟨S128, .f32⟩ : BufTy).Contents (Elt F)) : (⟨S65536x128, .f32⟩ : BufTy).Contents (Elt F) :=
  ((addf : (⟨S65536x128, .f32⟩ : BufTy).Contents (Elt F) → (⟨S65536x128, .f32⟩ : BufTy).Contents (Elt F) → (⟨S65536x128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) x_main_v85 x_main_v90) ((broadcastInDim S65536x128 ![0, 1] bcast_S1x128_S65536x128_0_1 : (⟨S1x128, .f32⟩ : BufTy).Contents (Elt F) → (⟨S65536x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg8)))

/-- The stage that writes main_v98, as a function of the arrays it reads. -/
def st_main_v98 (x_main_v94 : (⟨S65536x128, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (((fun x v => Host.reduce FloatOps.maximumf x v reducesTo_S65536x128_S_d0_1 h_S_) : (⟨S65536x128, .f32⟩ : BufTy).Contents (Elt F) → (⟨S_, .f32⟩ : BufTy).Contents (Elt F) → (⟨S_, .f32⟩ : BufTy).Contents (Elt F)) ((Host.absf : (⟨S65536x128, .f32⟩ : BufTy).Contents (Elt F) → (⟨S65536x128, .f32⟩ : BufTy).Contents (Elt F)) x_main_v94) (constant S_ .f32 0xFF800000#32 : (⟨S_, .f32⟩ : BufTy).Contents (Elt F))) (constant S_ .f32 0x322BCC77#32 : (⟨S_, .f32⟩ : BufTy).Contents (Elt F))) (constant S_ .f32 0x42FE0000#32 : (⟨S_, .f32⟩ : BufTy).Contents (Elt F)))

/-- The stage that writes main_v106, as a function of the arrays it reads. -/
def st_main_v106 (x_main_v94 : (⟨S65536x128, .f32⟩ : BufTy).Contents (Elt F)) (x_main_v98 : (⟨S_, .f32⟩ : BufTy).Contents (Elt F)) : (⟨S65536x128, .f32⟩ : BufTy).Contents (Elt F) :=
  ((addf : (⟨S65536x128, .f32⟩ : BufTy).Contents (Elt F) → (⟨S65536x128, .f32⟩ : BufTy).Contents (Elt F) → (⟨S65536x128, .f32⟩ : BufTy).Contents (Elt F)) x_main_v94 ((subf : (⟨S65536x128, .f32⟩ : BufTy).Contents (Elt F) → (⟨S65536x128, .f32⟩ : BufTy).Contents (Elt F) → (⟨S65536x128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) ((minimumf : (⟨S65536x128, .f32⟩ : BufTy).Contents (Elt F) → (⟨S65536x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) ((sitofp .f32 : (⟨S_, .i32⟩ : BufTy).Contents (Elt F) → (⟨S_, .f32⟩ : BufTy).Contents (Elt F)) (constantI S_ 32 127#32 : (⟨S_, .i32⟩ : BufTy).Contents (Elt F)))) ((maximumf : (⟨S65536x128, .f32⟩ : BufTy).Contents (Elt F) → (⟨S65536x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) ((sitofp .f32 : (⟨S_, .i32⟩ : BufTy).Contents (Elt F) → (⟨S_, .f32⟩ : BufTy).Contents (Elt F)) (constantI S_ 32 4294967168#32 : (⟨S_, .i32⟩ : BufTy).Contents (Elt F)))) ((Host.roundeven : (⟨S65536x128, .f32⟩ : BufTy).Contents (Elt F) → (⟨S65536x128, .f32⟩ : BufTy).Contents (Elt F)) ((Host.divf : (⟨S65536x128, .f32⟩ : BufTy).Contents (Elt F) → (⟨S65536x128, .f32⟩ : BufTy).Contents (Elt F) → (⟨S65536x128, .f32⟩ : BufTy).Contents (Elt F)) x_main_v94 ((broadcastInDim S65536x128 ![] bcast_S_S65536x128 : (⟨S_, .f32⟩ : BufTy).Contents (Elt F) → (⟨S65536x128, .f32⟩ : BufTy).Contents (Elt F)) x_main_v98))))) ((broadcastInDim S65536x128 ![] bcast_S_S65536x128 : (⟨S_, .f32⟩ : BufTy).Contents (Elt F) → (⟨S65536x128, .f32⟩ : BufTy).Contents (Elt F)) x_main_v98)) x_main_v94))

/-- The stage that writes main_v107, as a function of the arrays it reads. -/
def st_main_v107 (x_main_v106 : (⟨S65536x128, .f32⟩ : BufTy).Contents (Elt F)) : (⟨S65536x128, .f32⟩ : BufTy).Contents (Elt F) :=
  ((maximumf : (⟨S65536x128, .f32⟩ : BufTy).Contents (Elt F) → (⟨S65536x128, .f32⟩ : BufTy).Contents (Elt F) → (⟨S65536x128, .f32⟩ : BufTy).Contents (Elt F)) x_main_v106 ((broadcastInDim S65536x128 ![] bcast_S_S65536x128 : (⟨S_, .f32⟩ : BufTy).Contents (Elt F) → (⟨S65536x128, .f32⟩ : BufTy).Contents (Elt F)) (constant S_ .f32 0x00000000#32 : (⟨S_, .f32⟩ : BufTy).Contents (Elt F))))

/-- The stage that writes main_v111, as a function of the arrays it reads. -/
def st_main_v111 (x_main_v107 : (⟨S65536x128, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (((fun x v => Host.reduce FloatOps.maximumf x v reducesTo_S65536x128_S_d0_1 h_S_) : (⟨S65536x128, .f32⟩ : BufTy).Contents (Elt F) → (⟨S_, .f32⟩ : BufTy).Contents (Elt F) → (⟨S_, .f32⟩ : BufTy).Contents (Elt F)) ((Host.absf : (⟨S65536x128, .f32⟩ : BufTy).Contents (Elt F) → (⟨S65536x128, .f32⟩ : BufTy).Contents (Elt F)) x_main_v107) (constant S_ .f32 0xFF800000#32 : (⟨S_, .f32⟩ : BufTy).Contents (Elt F))) (constant S_ .f32 0x322BCC77#32 : (⟨S_, .f32⟩ : BufTy).Contents (Elt F))) (constant S_ .f32 0x42FE0000#32 : (⟨S_, .f32⟩ : BufTy).Contents (Elt F)))

/-- The stage that writes main_v119, as a function of the arrays it reads. -/
def st_main_v119 (x_main_v107 : (⟨S65536x128, .f32⟩ : BufTy).Contents (Elt F)) (x_main_v111 : (⟨S_, .f32⟩ : BufTy).Contents (Elt F)) : (⟨S65536x128, .f32⟩ : BufTy).Contents (Elt F) :=
  ((addf : (⟨S65536x128, .f32⟩ : BufTy).Contents (Elt F) → (⟨S65536x128, .f32⟩ : BufTy).Contents (Elt F) → (⟨S65536x128, .f32⟩ : BufTy).Contents (Elt F)) x_main_v107 ((subf : (⟨S65536x128, .f32⟩ : BufTy).Contents (Elt F) → (⟨S65536x128, .f32⟩ : BufTy).Contents (Elt F) → (⟨S65536x128, .f32⟩ : BufTy).Contents (Elt F)) ((mulf : (⟨S65536x128, .f32⟩ : BufTy).Contents (Elt F) → (⟨S65536x128, .f32⟩ : BufTy).Contents (Elt F) → (⟨S65536x128, .f32⟩ : BufTy).Contents (Elt F)) ((minimumf : (⟨S65536x128, .f32⟩ : BufTy).Contents (Elt F) → (⟨S65536x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) ((sitofp .f32 : (⟨S_, .i32⟩ : BufTy).Contents (Elt F) → (⟨S_, .f32⟩ : BufTy).Contents (Elt F)) (constantI S_ 32 127#32 : (⟨S_, .i32⟩ : BufTy).Contents (Elt F)))) ((maximumf : (⟨S65536x128, .f32⟩ : BufTy).Contents (Elt F) → (⟨S65536x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) ((sitofp .f32 : (⟨S_, .i32⟩ : BufTy).Contents (Elt F) → (⟨S_, .f32⟩ : BufTy).Contents (Elt F)) (constantI S_ 32 4294967168#32 : (⟨S_, .i32⟩ : BufTy).Contents (Elt F)))) ((Host.roundeven : (⟨S65536x128, .f32⟩ : BufTy).Contents (Elt F) → (⟨S65536x128, .f32⟩ : BufTy).Contents (Elt F)) ((Host.divf : (⟨S65536x128, .f32⟩ : BufTy).Contents (Elt F) → (⟨S65536x128, .f32⟩ : BufTy).Contents (Elt F) → (⟨S65536x128, .f32⟩ : BufTy).Contents (Elt F)) x_main_v107 ((broadcastInDim S65536x128 ![] bcast_S_S65536x128 : (⟨S_, .f32⟩ : BufTy).Contents (Elt F) → (⟨S65536x128, .f32⟩ : BufTy).Contents (Elt F)) x_main_v111))))) ((broadcastInDim S65536x128 ![] bcast_S_S65536x128 : (⟨S_, .f32⟩ : BufTy).Contents (Elt F) → (⟨S65536x128, .f32⟩ : BufTy).Contents (Elt F)) x_main_v111)) x_main_v107))

/-- The stage that writes main_v125, as a function of the arrays it reads. -/
def st_main_v125 (x_main_arg9 : (⟨S10x128, .f32⟩ : BufTy).Contents (Elt F)) : (⟨S10x128, .f32⟩ : BufTy).Contents (Elt F) :=
  ((addf : (⟨S10x128, .f32⟩ : BufTy).Contents (Elt F) → (⟨S10x128, .f32⟩ : BufTy).Contents (Elt F) → (⟨S10x128, .f32⟩ : BufTy).Contents (Elt F)) x_main_arg9 ((subf : (⟨S10x128, .f32⟩ : BufTy).Contents (Elt F) → (⟨S10x128, .f32⟩ : BufTy).Contents (Elt F) → (⟨S10x128, .f32⟩ : BufTy).Contents (Elt F)) ((id : (⟨S10x128, .f32⟩ : BufTy).Contents (Elt F) → (⟨S10x128, .f32⟩ : BufTy).Contents (Elt F)) ((select : (⟨S10x128, .i1⟩ : BufTy).Contents (Elt F) → (⟨S10x128, .f32⟩ : BufTy).Contents (Elt F) → (⟨S10x128, .f32⟩ : BufTy).Contents (Elt F) → (⟨S10x128, .f32⟩ : BufTy).Contents (Elt F)) ((cmpf .oge : (⟨S10x128, .f32⟩ : BufTy).Contents (Elt F) → (⟨S10x128, .f32⟩ : BufTy).Contents (Elt F) → (⟨S10x128, .i1⟩ : BufTy).Contents (Elt F)) x_main_arg9 ((broadcastInDim S10x128 ![] bcast_S_S10x128 : (⟨S_, .f32⟩ : BufTy).Contents (Elt F) → (⟨S10x128, .f32⟩ : BufTy).Contents (Elt F)) (constant S_ .f32 0x00000000#32 : (⟨S_, .f32⟩ : BufTy).Contents (Elt F)))) ((broadcastInDim S10x128 ![] bcast_S_S10x128 : (⟨S_, .f32⟩ : BufTy).Contents (Elt F) → (⟨S10x128, .f32⟩ : BufTy).Contents (Elt F)) (constant S_ .f32 0x3F800000#32 : (⟨S_, .f32⟩ : BufTy).Contents (Elt F))) ((broadcastInDim S10x128 ![] bcast_S_S10x128 : (⟨S_, .f32⟩ : BufTy).Contents (Elt F) → (⟨S10x128, .f32⟩ : BufTy).Contents (Elt F)) (constant S_ .f32 0xBF800000#32 : (⟨S_, .f32⟩ : BufTy).Contents (Elt F))))) x_main_arg9))

/-- The stage that writes main_v129, as a function of the arrays it reads. -/
def st_main_v129 (x_main_v119 : (⟨S65536x128, .f32⟩ : BufTy).Contents (Elt F)) (x_main_v125 : (⟨S10x128, .f32⟩ : BufTy).Contents (Elt F)) (x_main_arg10 : (⟨S10, .f32⟩ : BufTy).Contents (Elt F)) : (⟨S65536x10, .f32⟩ : BufTy).Contents (Elt F) :=
  ((addf : (⟨S65536x10, .f32⟩ : BufTy).Contents (Elt F) → (⟨S65536x10, .f32⟩ : BufTy).Contents (Elt F) → (⟨S65536x10, .f32⟩ : BufTy).Contents (Elt F)) (((fun l r => Host.dotGeneral dot_S65536x128_S10x128_S65536x10_1_1_0_0_n_n none l r) : (⟨S65536x128, .f32⟩ : BufTy).Contents (Elt F) → (⟨S10x128, .f32⟩ : BufTy).Contents (Elt F) → (⟨S65536x10, .f32⟩ : BufTy).Contents (Elt F)) x_main_v119 x_main_v125) ((broadcastInDim S65536x10 ![0, 1] bcast_S1x10_S65536x10_0_1 : (⟨S1x10, .f32⟩ : BufTy).Contents (Elt F) → (⟨S65536x10, .f32⟩ : BufTy).Contents (Elt F)) ((broadcastInDim S1x10 ![1] bcast_S10_S1x10_1 : (⟨S10, .f32⟩ : BufTy).Contents (Elt F) → (⟨S1x10, .f32⟩ : BufTy).Contents (Elt F)) x_main_arg10)))

/-- The stage that writes main_v132, as a function of the arrays it reads. -/
def st_main_v132 (x_main_v129 : (⟨S65536x10, .f32⟩ : BufTy).Contents (Elt F)) : (⟨S10, .f32⟩ : BufTy).Contents (Elt F) :=
  ((Host.divf : (⟨S10, .f32⟩ : BufTy).Contents (Elt F) → (⟨S10, .f32⟩ : BufTy).Contents (Elt F) → (⟨S10, .f32⟩ : BufTy).Contents (Elt F)) (((fun x v => Host.reduceAdd x v reducesTo_S65536x10_S10_d0 h_S_) : (⟨S65536x10, .f32⟩ : BufTy).Contents (Elt F) → (⟨S_, .f32⟩ : BufTy).Contents (Elt F) → (⟨S10, .f32⟩ : BufTy).Contents (Elt F)) x_main_v129 (constant S_ .f32 0x00000000#32 : (⟨S_, .f32⟩ : BufTy).Contents (Elt F))) ((broadcastInDim S10 ![] bcast_S_S10 : (⟨S_, .f32⟩ : BufTy).Contents (Elt F) → (⟨S10, .f32⟩ : BufTy).Contents (Elt F)) (constant S_ .f32 0x47800000#32 : (⟨S_, .f32⟩ : BufTy).Contents (Elt F))))

/-- The stage that writes main_v133, as a function of the arrays it reads. -/
def st_main_v133 (x_main_v129 : (⟨S65536x10, .f32⟩ : BufTy).Contents (Elt F)) : (⟨S10, .f32⟩ : BufTy).Contents (Elt F) :=
  ((fun p a b => select (broadcastInDim S10 ![] bcast_S_S10 p) a b : (⟨S_, .i1⟩ : BufTy).Contents (Elt F) → (⟨S10, .f32⟩ : BufTy).Contents (Elt F) → (⟨S10, .f32⟩ : BufTy).Contents (Elt F) → (⟨S10, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47800000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) ((Host.divf : (⟨S10, .f32⟩ : BufTy).Contents (Elt F) → (⟨S10, .f32⟩ : BufTy).Contents (Elt F) → (⟨S10, .f32⟩ : BufTy).Contents (Elt F)) ((fun x v => Host.reduceAdd x v reducesTo_S65536x10_S10_d0 h_S_ : (⟨S65536x10, .f32⟩ : BufTy).Contents (Elt F) → (⟨S_, .f32⟩ : BufTy).Contents (Elt F) → (⟨S10, .f32⟩ : BufTy).Contents (Elt F)) ((mulf : (⟨S65536x10, .f32⟩ : BufTy).Contents (Elt F) → (⟨S65536x10, .f32⟩ : BufTy).Contents (Elt F) → (⟨S65536x10, .f32⟩ : BufTy).Contents (Elt F)) ((subf : (⟨S65536x10, .f32⟩ : BufTy).Contents (Elt F) → (⟨S65536x10, .f32⟩ : BufTy).Contents (Elt F) → (⟨S65536x10, .f32⟩ : BufTy).Contents (Elt F)) x_main_v129 ((broadcastInDim S65536x10 ![0, 1] bcast_S1x10_S65536x10_0_1 : (⟨S1x10, .f32⟩ : BufTy).Contents (Elt F) → (⟨S65536x10, .f32⟩ : BufTy).Contents (Elt F)) ((Host.divf : (⟨S1x10, .f32⟩ : BufTy).Contents (Elt F) → (⟨S1x10, .f32⟩ : BufTy).Contents (Elt F) → (⟨S1x10, .f32⟩ : BufTy).Contents (Elt F)) ((broadcastInDim S1x10 ![1] bcast_S10_S1x10_1 : (⟨S10, .f32⟩ : BufTy).Contents (Elt F) → (⟨S1x10, .f32⟩ : BufTy).Contents (Elt F)) ((fun x v => Host.reduceAdd x v reducesTo_S65536x10_S10_d0 h_S_ : (⟨S65536x10, .f32⟩ : BufTy).Contents (Elt F) → (⟨S_, .f32⟩ : BufTy).Contents (Elt F) → (⟨S10, .f32⟩ : BufTy).Contents (Elt F)) x_main_v129 (constant S_ .f32 0x00000000#32 : (⟨S_, .f32⟩ : BufTy).Contents (Elt F)))) ((broadcastInDim S1x10 ![] bcast_S_S1x10 : (⟨S_, .f32⟩ : BufTy).Contents (Elt F) → (⟨S1x10, .f32⟩ : BufTy).Contents (Elt F)) (constant S_ .f32 0x47800000#32 : (⟨S_, .f32⟩ : BufTy).Contents (Elt F)))))) ((subf : (⟨S65536x10, .f32⟩ : BufTy).Contents (Elt F) → (⟨S65536x10, .f32⟩ : BufTy).Contents (Elt F) → (⟨S65536x10, .f32⟩ : BufTy).Contents (Elt F)) x_main_v129 ((broadcastInDim S65536x10 ![0, 1] bcast_S1x10_S65536x10_0_1 : (⟨S1x10, .f32⟩ : BufTy).Contents (Elt F) → (⟨S65536x10, .f32⟩ : BufTy).Contents (Elt F)) ((Host.divf : (⟨S1x10, .f32⟩ : BufTy).Contents (Elt F) → (⟨S1x10, .f32⟩ : BufTy).Contents (Elt F) → (⟨S1x10, .f32⟩ : BufTy).Contents (Elt F)) ((broadcastInDim S1x10 ![1] bcast_S10_S1x10_1 : (⟨S10, .f32⟩ : BufTy).Contents (Elt F) → (⟨S1x10, .f32⟩ : BufTy).Contents (Elt F)) ((fun x v => Host.reduceAdd x v reducesTo_S65536x10_S10_d0 h_S_ : (⟨S65536x10, .f32⟩ : BufTy).Contents (Elt F) → (⟨S_, .f32⟩ : BufTy).Contents (Elt F) → (⟨S10, .f32⟩ : BufTy).Contents (Elt F)) x_main_v129 (constant S_ .f32 0x00000000#32 : (⟨S_, .f32⟩ : BufTy).Contents (Elt F)))) ((broadcastInDim S1x10 ![] bcast_S_S1x10 : (⟨S_, .f32⟩ : BufTy).Contents (Elt F) → (⟨S1x10, .f32⟩ : BufTy).Contents (Elt F)) (constant S_ .f32 0x47800000#32 : (⟨S_, .f32⟩ : BufTy).Contents (Elt F))))))) (constant S_ .f32 0x00000000#32 : (⟨S_, .f32⟩ : BufTy).Contents (Elt F))) ((broadcastInDim S10 ![] bcast_S_S10 : (⟨S_, .f32⟩ : BufTy).Contents (Elt F) → (⟨S10, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47800000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))))) ((broadcastInDim S10 ![] bcast_S_S10 : (⟨S_, .f32⟩ : BufTy).Contents (Elt F) → (⟨S10, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F)))))

/-- The stage that writes main_v134, as a function of the arrays it reads. -/
def st_main_v134 (x_main_v132 : (⟨S10, .f32⟩ : BufTy).Contents (Elt F)) : (⟨S1x10, .f32⟩ : BufTy).Contents (Elt F) :=
  ((broadcastInDim S1x10 ![1] bcast_S10_S1x10_1 : (⟨S10, .f32⟩ : BufTy).Contents (Elt F) → (⟨S1x10, .f32⟩ : BufTy).Contents (Elt F)) x_main_v132)

/-- The stage that writes main_v148, as a function of the arrays it reads. -/
def st_main_v148 (x_main_arg11 : (⟨S10, .f32⟩ : BufTy).Contents (Elt F)) (x_main_v129 : (⟨S65536x10, .f32⟩ : BufTy).Contents (Elt F)) (x_main_v134 : (⟨S1x10, .f32⟩ : BufTy).Contents (Elt F)) (x_main_v133 : (⟨S10, .f32⟩ : BufTy).Contents (Elt F)) (x_main_arg12 : (⟨S10, .f32⟩ : BufTy).Contents (Elt F)) : (⟨S65536x10, .f32⟩ : BufTy).Contents (Elt F) :=
  ((addf : (⟨S65536x10, .f32⟩ : BufTy).Contents (Elt F) → (⟨S65536x10, .f32⟩ : BufTy).Contents (Elt F) → (⟨S65536x10, .f32⟩ : BufTy).Contents (Elt F)) ((mulf : (⟨S65536x10, .f32⟩ : BufTy).Contents (Elt F) → (⟨S65536x10, .f32⟩ : BufTy).Contents (Elt F) → (⟨S65536x10, .f32⟩ : BufTy).Contents (Elt F)) ((mulf : (⟨S65536x10, .f32⟩ : BufTy).Contents (Elt F) → (⟨S65536x10, .f32⟩ : BufTy).Contents (Elt F) → (⟨S65536x10, .f32⟩ : BufTy).Contents (Elt F)) ((broadcastInDim S65536x10 ![0, 1] bcast_S1x10_S65536x10_0_1 : (⟨S1x10, .f32⟩ : BufTy).Contents (Elt F) → (⟨S65536x10, .f32⟩ : BufTy).Contents (Elt F)) ((broadcastInDim S1x10 ![1] bcast_S10_S1x10_1 : (⟨S10, .f32⟩ : BufTy).Contents (Elt F) → (⟨S1x10, .f32⟩ : BufTy).Contents (Elt F)) x_main_arg11)) ((subf : (⟨S65536x10, .f32⟩ : BufTy).Contents (Elt F) → (⟨S65536x10, .f32⟩ : BufTy).Contents (Elt F) → (⟨S65536x10, .f32⟩ : BufTy).Contents (Elt F)) x_main_v129 ((broadcastInDim S65536x10 ![0, 1] bcast_S1x10_S65536x10_0_1 : (⟨S1x10, .f32⟩ : BufTy).Contents (Elt F) → (⟨S65536x10, .f32⟩ : BufTy).Contents (Elt F)) x_main_v134))) ((broadcastInDim S65536x10 ![0, 1] bcast_S1x10_S65536x10_0_1 : (⟨S1x10, .f32⟩ : BufTy).Contents (Elt F) → (⟨S65536x10, .f32⟩ : BufTy).Contents (Elt F)) ((broadcastInDim S1x10 ![1] bcast_S10_S1x10_1 : (⟨S10, .f32⟩ : BufTy).Contents (Elt F) → (⟨S1x10, .f32⟩ : BufTy).Contents (Elt F)) ((Host.rsqrt : (⟨S10, .f32⟩ : BufTy).Contents (Elt F) → (⟨S10, .f32⟩ : BufTy).Contents (Elt F)) ((addf : (⟨S10, .f32⟩ : BufTy).Contents (Elt F) → (⟨S10, .f32⟩ : BufTy).Contents (Elt F) → (⟨S10, .f32⟩ : BufTy).Contents (Elt F)) x_main_v133 ((broadcastInDim S10 ![] bcast_S_S10 : (⟨S_, .f32⟩ : BufTy).Contents (Elt F) → (⟨S10, .f32⟩ : BufTy).Contents (Elt F)) (constant S_ .f32 0x3727C5AC#32 : (⟨S_, .f32⟩ : BufTy).Contents (Elt F)))))))) ((broadcastInDim S65536x10 ![0, 1] bcast_S1x10_S65536x10_0_1 : (⟨S1x10, .f32⟩ : BufTy).Contents (Elt F) → (⟨S65536x10, .f32⟩ : BufTy).Contents (Elt F)) ((broadcastInDim S1x10 ![1] bcast_S10_S1x10_1 : (⟨S10, .f32⟩ : BufTy).Contents (Elt F) → (⟨S1x10, .f32⟩ : BufTy).Contents (Elt F)) x_main_arg12)))

/-- The stage that writes main_v152, as a function of the arrays it reads. -/
def st_main_v152 (x_main_v148 : (⟨S65536x10, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (((fun x v => Host.reduce FloatOps.maximumf x v reducesTo_S65536x10_S_d0_1 h_S_) : (⟨S65536x10, .f32⟩ : BufTy).Contents (Elt F) → (⟨S_, .f32⟩ : BufTy).Contents (Elt F) → (⟨S_, .f32⟩ : BufTy).Contents (Elt F)) ((Host.absf : (⟨S65536x10, .f32⟩ : BufTy).Contents (Elt F) → (⟨S65536x10, .f32⟩ : BufTy).Contents (Elt F)) x_main_v148) (constant S_ .f32 0xFF800000#32 : (⟨S_, .f32⟩ : BufTy).Contents (Elt F))) (constant S_ .f32 0x322BCC77#32 : (⟨S_, .f32⟩ : BufTy).Contents (Elt F))) (constant S_ .f32 0x42FE0000#32 : (⟨S_, .f32⟩ : BufTy).Contents (Elt F)))

/-- The stage that writes main_v160, as a function of the arrays it reads. -/
def st_main_v160 (x_main_v148 : (⟨S65536x10, .f32⟩ : BufTy).Contents (Elt F)) (x_main_v152 : (⟨S_, .f32⟩ : BufTy).Contents (Elt F)) : (⟨S65536x10, .f32⟩ : BufTy).Contents (Elt F) :=
  ((addf : (⟨S65536x10, .f32⟩ : BufTy).Contents (Elt F) → (⟨S65536x10, .f32⟩ : BufTy).Contents (Elt F) → (⟨S65536x10, .f32⟩ : BufTy).Contents (Elt F)) x_main_v148 ((subf : (⟨S65536x10, .f32⟩ : BufTy).Contents (Elt F) → (⟨S65536x10, .f32⟩ : BufTy).Contents (Elt F) → (⟨S65536x10, .f32⟩ : BufTy).Contents (Elt F)) ((mulf : (⟨S65536x10, .f32⟩ : BufTy).Contents (Elt F) → (⟨S65536x10, .f32⟩ : BufTy).Contents (Elt F) → (⟨S65536x10, .f32⟩ : BufTy).Contents (Elt F)) ((minimumf : (⟨S65536x10, .f32⟩ : BufTy).Contents (Elt F) → (⟨S65536x10, .f32⟩ : BufTy).Contents (Elt F) → (⟨S65536x10, .f32⟩ : BufTy).Contents (Elt F)) ((broadcastInDim S65536x10 ![] bcast_S_S65536x10 : (⟨S_, .f32⟩ : BufTy).Contents (Elt F) → (⟨S65536x10, .f32⟩ : BufTy).Contents (Elt F)) ((sitofp .f32 : (⟨S_, .i32⟩ : BufTy).Contents (Elt F) → (⟨S_, .f32⟩ : BufTy).Contents (Elt F)) (constantI S_ 32 127#32 : (⟨S_, .i32⟩ : BufTy).Contents (Elt F)))) ((maximumf : (⟨S65536x10, .f32⟩ : BufTy).Contents (Elt F) → (⟨S65536x10, .f32⟩ : BufTy).Contents (Elt F) → (⟨S65536x10, .f32⟩ : BufTy).Contents (Elt F)) ((broadcastInDim S65536x10 ![] bcast_S_S65536x10 : (⟨S_, .f32⟩ : BufTy).Contents (Elt F) → (⟨S65536x10, .f32⟩ : BufTy).Contents (Elt F)) ((sitofp .f32 : (⟨S_, .i32⟩ : BufTy).Contents (Elt F) → (⟨S_, .f32⟩ : BufTy).Contents (Elt F)) (constantI S_ 32 4294967168#32 : (⟨S_, .i32⟩ : BufTy).Contents (Elt F)))) ((Host.roundeven : (⟨S65536x10, .f32⟩ : BufTy).Contents (Elt F) → (⟨S65536x10, .f32⟩ : BufTy).Contents (Elt F)) ((Host.divf : (⟨S65536x10, .f32⟩ : BufTy).Contents (Elt F) → (⟨S65536x10, .f32⟩ : BufTy).Contents (Elt F) → (⟨S65536x10, .f32⟩ : BufTy).Contents (Elt F)) x_main_v148 ((broadcastInDim S65536x10 ![] bcast_S_S65536x10 : (⟨S_, .f32⟩ : BufTy).Contents (Elt F) → (⟨S65536x10, .f32⟩ : BufTy).Contents (Elt F)) x_main_v152))))) ((broadcastInDim S65536x10 ![] bcast_S_S65536x10 : (⟨S_, .f32⟩ : BufTy).Contents (Elt F) → (⟨S65536x10, .f32⟩ : BufTy).Contents (Elt F)) x_main_v152)) x_main_v148))

/-- The stage that writes main_v166, as a function of the arrays it reads. -/
def st_main_v166 (x_main_v160 : (⟨S65536x10, .f32⟩ : BufTy).Contents (Elt F)) : (⟨S65536x10, .f32⟩ : BufTy).Contents (Elt F) :=
  ((Host.divf : (⟨S65536x10, .f32⟩ : BufTy).Contents (Elt F) → (⟨S65536x10, .f32⟩ : BufTy).Contents (Elt F) → (⟨S65536x10, .f32⟩ : BufTy).Contents (Elt F)) ((broadcastInDim S65536x10 ![] bcast_S_S65536x10 : (⟨S_, .f32⟩ : BufTy).Contents (Elt F) → (⟨S65536x10, .f32⟩ : BufTy).Contents (Elt F)) (constant S_ .f32 0x3F800000#32 : (⟨S_, .f32⟩ : BufTy).Contents (Elt F))) ((addf : (⟨S65536x10, .f32⟩ : BufTy).Contents (Elt F) → (⟨S65536x10, .f32⟩ : BufTy).Contents (Elt F) → (⟨S65536x10, .f32⟩ : BufTy).Contents (Elt F)) ((broadcastInDim S65536x10 ![] bcast_S_S65536x10 : (⟨S_, .f32⟩ : BufTy).Contents (Elt F) → (⟨S65536x10, .f32⟩ : BufTy).Contents (Elt F)) (constant S_ .f32 0x3F800000#32 : (⟨S_, .f32⟩ : BufTy).Contents (Elt F))) ((Host.exp : (⟨S65536x10, .f32⟩ : BufTy).Contents (Elt F) → (⟨S65536x10, .f32⟩ : BufTy).Contents (Elt F)) ((Host.negf : (⟨S65536x10, .f32⟩ : BufTy).Contents (Elt F) → (⟨S65536x10, .f32⟩ : BufTy).Contents (Elt F)) x_main_v160))))

/-- The stage that writes main_v170, as a function of the arrays it reads. -/
def st_main_v170 (x_main_v166 : (⟨S65536x10, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (((fun x v => Host.reduce FloatOps.maximumf x v reducesTo_S65536x10_S_d0_1 h_S_) : (⟨S65536x10, .f32⟩ : BufTy).Contents (Elt F) → (⟨S_, .f32⟩ : BufTy).Contents (Elt F) → (⟨S_, .f32⟩ : BufTy).Contents (Elt F)) ((Host.absf : (⟨S65536x10, .f32⟩ : BufTy).Contents (Elt F) → (⟨S65536x10, .f32⟩ : BufTy).Contents (Elt F)) x_main_v166) (constant S_ .f32 0xFF800000#32 : (⟨S_, .f32⟩ : BufTy).Contents (Elt F))) (constant S_ .f32 0x322BCC77#32 : (⟨S_, .f32⟩ : BufTy).Contents (Elt F))) (constant S_ .f32 0x42FE0000#32 : (⟨S_, .f32⟩ : BufTy).Contents (Elt F)))

/-- The stage that writes main_v178, as a function of the arrays it reads. -/
def st_main_v178 (x_main_v166 : (⟨S65536x10, .f32⟩ : BufTy).Contents (Elt F)) (x_main_v170 : (⟨S_, .f32⟩ : BufTy).Contents (Elt F)) : (⟨S65536x10, .f32⟩ : BufTy).Contents (Elt F) :=
  ((addf : (⟨S65536x10, .f32⟩ : BufTy).Contents (Elt F) → (⟨S65536x10, .f32⟩ : BufTy).Contents (Elt F) → (⟨S65536x10, .f32⟩ : BufTy).Contents (Elt F)) x_main_v166 ((subf : (⟨S65536x10, .f32⟩ : BufTy).Contents (Elt F) → (⟨S65536x10, .f32⟩ : BufTy).Contents (Elt F) → (⟨S65536x10, .f32⟩ : BufTy).Contents (Elt F)) ((mulf : (⟨S65536x10, .f32⟩ : BufTy).Contents (Elt F) → (⟨S65536x10, .f32⟩ : BufTy).Contents (Elt F) → (⟨S65536x10, .f32⟩ : BufTy).Contents (Elt F)) ((minimumf : (⟨S65536x10, .f32⟩ : BufTy).Contents (Elt F) → (⟨S65536x10, .f32⟩ : BufTy).Contents (Elt F) → (⟨S65536x10, .f32⟩ : BufTy).Contents (Elt F)) ((broadcastInDim S65536x10 ![] bcast_S_S65536x10 : (⟨S_, .f32⟩ : BufTy).Contents (Elt F) → (⟨S65536x10, .f32⟩ : BufTy).Contents (Elt F)) ((sitofp .f32 : (⟨S_, .i32⟩ : BufTy).Contents (Elt F) → (⟨S_, .f32⟩ : BufTy).Contents (Elt F)) (constantI S_ 32 127#32 : (⟨S_, .i32⟩ : BufTy).Contents (Elt F)))) ((maximumf : (⟨S65536x10, .f32⟩ : BufTy).Contents (Elt F) → (⟨S65536x10, .f32⟩ : BufTy).Contents (Elt F) → (⟨S65536x10, .f32⟩ : BufTy).Contents (Elt F)) ((broadcastInDim S65536x10 ![] bcast_S_S65536x10 : (⟨S_, .f32⟩ : BufTy).Contents (Elt F) → (⟨S65536x10, .f32⟩ : BufTy).Contents (Elt F)) ((sitofp .f32 : (⟨S_, .i32⟩ : BufTy).Contents (Elt F) → (⟨S_, .f32⟩ : BufTy).Contents (Elt F)) (constantI S_ 32 4294967168#32 : (⟨S_, .i32⟩ : BufTy).Contents (Elt F)))) ((Host.roundeven : (⟨S65536x10, .f32⟩ : BufTy).Contents (Elt F) → (⟨S65536x10, .f32⟩ : BufTy).Contents (Elt F)) ((Host.divf : (⟨S65536x10, .f32⟩ : BufTy).Contents (Elt F) → (⟨S65536x10, .f32⟩ : BufTy).Contents (Elt F) → (⟨S65536x10, .f32⟩ : BufTy).Contents (Elt F)) x_main_v166 ((broadcastInDim S65536x10 ![] bcast_S_S65536x10 : (⟨S_, .f32⟩ : BufTy).Contents (Elt F) → (⟨S65536x10, .f32⟩ : BufTy).Contents (Elt F)) x_main_v170))))) ((broadcastInDim S65536x10 ![] bcast_S_S65536x10 : (⟨S_, .f32⟩ : BufTy).Contents (Elt F) → (⟨S65536x10, .f32⟩ : BufTy).Contents (Elt F)) x_main_v170)) x_main_v166))

set_option maxRecDepth 8192 in
set_option maxHeartbeats 3300000 in
theorem w0_main_v3 (W : Valuation τ sig (Elt F)) :
    after w0 W (Proc.devRef .tc main_v3) = st_main_v3 (W (Proc.devRef .tc main_arg0)) := by
  simp only [w0]
  after_results_simp
  unfold st_main_v3
  rfl
set_option maxRecDepth 8192 in
set_option maxHeartbeats 3300000 in
theorem w0_main_v11 (W : Valuation τ sig (Elt F)) :
    after w0 W (Proc.devRef .tc main_v11) = st_main_v11 (W (Proc.devRef .tc main_arg0)) (st_main_v3 (W (Proc.devRef .tc main_arg0))) := by
  simp only [w0]
  after_results_simp
  unfold st_main_v11 st_main_v3
  rfl
set_option maxRecDepth 8192 in
set_option maxHeartbeats 3300000 in
theorem w0_main_v17 (W : Valuation τ sig (Elt F)) :
    after w0 W (Proc.devRef .tc main_v17) = st_main_v17 (W (Proc.devRef .tc main_arg1)) := by
  simp only [w0]
  after_results_simp
  unfold st_main_v17
  rfl
set_option maxRecDepth 8192 in
set_option maxHeartbeats 3200000 in
theorem w1_main_v21 (W : Valuation τ sig (Elt F)) :
    after w1 W (Proc.devRef .tc main_v21) = st_main_v21 (W (Proc.devRef .tc main_v11)) (W (Proc.devRef .tc main_v17)) (W (Proc.devRef .tc main_arg2)) := by
  simp only [w1]
  after_results_simp
  unfold st_main_v21
  rfl
set_option maxRecDepth 8192 in
set_option maxHeartbeats 3200000 in
theorem w1_main_v24 (W : Valuation τ sig (Elt F)) :
    after w1 W (Proc.devRef .tc main_v24) = st_main_v24 (st_main_v21 (W (Proc.devRef .tc main_v11)) (W (Proc.devRef .tc main_v17)) (W (Proc.devRef .tc main_arg2))) := by
  simp only [w1]
  after_results_simp
  unfold st_main_v24 st_main_v21
  rfl
set_option maxRecDepth 8192 in
set_option maxHeartbeats 3200000 in
theorem w1_main_v25 (W : Valuation τ sig (Elt F)) :
    after w1 W (Proc.devRef .tc main_v25) = st_main_v25 (st_main_v21 (W (Proc.devRef .tc main_v11)) (W (Proc.devRef .tc main_v17)) (W (Proc.devRef .tc main_arg2))) := by
  simp only [w1]
  after_results_simp
  unfold st_main_v25 st_main_v21
  rfl
set_option maxRecDepth 8192 in
set_option maxHeartbeats 2300000 in
theorem w2_main_v40 (W : Valuation τ sig (Elt F)) :
    after w2 W (Proc.devRef .tc main_v40) = st_main_v40 (W (Proc.devRef .tc main_arg3)) (W (Proc.devRef .tc main_v21)) (W (Proc.devRef .tc main_v24)) (W (Proc.devRef .tc main_v25)) (W (Proc.devRef .tc main_arg4)) := by
  simp only [w2]
  after_results_simp
  unfold st_main_v40
  rfl
set_option maxRecDepth 8192 in
set_option maxHeartbeats 2300000 in
theorem w2_main_v44 (W : Valuation τ sig (Elt F)) :
    after w2 W (Proc.devRef .tc main_v44) = st_main_v44 (st_main_v40 (W (Proc.devRef .tc main_arg3)) (W (Proc.devRef .tc main_v21)) (W (Proc.devRef .tc main_v24)) (W (Proc.devRef .tc main_v25)) (W (Proc.devRef .tc main_arg4))) := by
  simp only [w2]
  after_results_simp
  unfold st_main_v44 st_main_v40
  rfl
set_option maxRecDepth 8192 in
set_option maxHeartbeats 1800000 in
theorem w3_main_v52 (W : Valuation τ sig (Elt F)) :
    after w3 W (Proc.devRef .tc main_v52) = st_main_v52 (W (Proc.devRef .tc main_v40)) (W (Proc.devRef .tc main_v44)) := by
  simp only [w3]
  after_results_simp
  unfold st_main_v52
  rfl
set_option maxRecDepth 8192 in
set_option maxHeartbeats 1800000 in
theorem w3_main_v53 (W : Valuation τ sig (Elt F)) :
    after w3 W (Proc.devRef .tc main_v53) = st_main_v53 (st_main_v52 (W (Proc.devRef .tc main_v40)) (W (Proc.devRef .tc main_v44))) := by
  simp only [w3]
  after_results_simp
  unfold st_main_v53 st_main_v52
  rfl
set_option maxRecDepth 8192 in
set_option maxHeartbeats 3300000 in
theorem w4_main_v57 (W : Valuation τ sig (Elt F)) :
    after w4 W (Proc.devRef .tc main_v57) = st_main_v57 (W (Proc.devRef .tc main_v53)) := by
  simp only [w4]
  after_results_simp
  unfold st_main_v57
  rfl
set_option maxRecDepth 8192 in
set_option maxHeartbeats 3300000 in
theorem w4_main_v65 (W : Valuation τ sig (Elt F)) :
    after w4 W (Proc.devRef .tc main_v65) = st_main_v65 (W (Proc.devRef .tc main_v53)) (st_main_v57 (W (Proc.devRef .tc main_v53))) := by
  simp only [w4]
  after_results_simp
  unfold st_main_v65 st_main_v57
  rfl
set_option maxRecDepth 8192 in
set_option maxHeartbeats 3300000 in
theorem w4_main_v71 (W : Valuation τ sig (Elt F)) :
    after w4 W (Proc.devRef .tc main_v71) = st_main_v71 (W (Proc.devRef .tc main_arg5)) := by
  simp only [w4]
  after_results_simp
  unfold st_main_v71
  rfl
set_option maxRecDepth 8192 in
set_option maxHeartbeats 3200000 in
theorem w5_main_v75 (W : Valuation τ sig (Elt F)) :
    after w5 W (Proc.devRef .tc main_v75) = st_main_v75 (W (Proc.devRef .tc main_v65)) (W (Proc.devRef .tc main_v71)) (W (Proc.devRef .tc main_arg6)) := by
  simp only [w5]
  after_results_simp
  unfold st_main_v75
  rfl
set_option maxRecDepth 8192 in
set_option maxHeartbeats 3200000 in
theorem w5_main_v78 (W : Valuation τ sig (Elt F)) :
    after w5 W (Proc.devRef .tc main_v78) = st_main_v78 (st_main_v75 (W (Proc.devRef .tc main_v65)) (W (Proc.devRef .tc main_v71)) (W (Proc.devRef .tc main_arg6))) := by
  simp only [w5]
  after_results_simp
  unfold st_main_v78 st_main_v75
  rfl
set_option maxRecDepth 8192 in
set_option maxHeartbeats 3200000 in
theorem w5_main_v79 (W : Valuation τ sig (Elt F)) :
    after w5 W (Proc.devRef .tc main_v79) = st_main_v79 (st_main_v75 (W (Proc.devRef .tc main_v65)) (W (Proc.devRef .tc main_v71)) (W (Proc.devRef .tc main_arg6))) := by
  simp only [w5]
  after_results_simp
  unfold st_main_v79 st_main_v75
  rfl
set_option maxRecDepth 8192 in
set_option maxHeartbeats 1200000 in
theorem w6_main_v85 (W : Valuation τ sig (Elt F)) :
    after w6 W (Proc.devRef .tc main_v85) = st_main_v85 (W (Proc.devRef .tc main_arg7)) (W (Proc.devRef .tc main_v75)) (W (Proc.devRef .tc main_v78)) := by
  simp only [w6]
  after_results_simp
  unfold st_main_v85
  rfl
set_option maxRecDepth 8192 in
set_option maxHeartbeats 1200000 in
theorem w6_main_v90 (W : Valuation τ sig (Elt F)) :
    after w6 W (Proc.devRef .tc main_v90) = st_main_v90 (W (Proc.devRef .tc main_v79)) := by
  simp only [w6]
  after_results_simp
  unfold st_main_v90
  rfl
set_option maxRecDepth 8192 in
set_option maxHeartbeats 2900000 in
theorem w7_main_v94 (W : Valuation τ sig (Elt F)) :
    after w7 W (Proc.devRef .tc main_v94) = st_main_v94 (W (Proc.devRef .tc main_v85)) (W (Proc.devRef .tc main_v90)) (W (Proc.devRef .tc main_arg8)) := by
  simp only [w7]
  after_results_simp
  unfold st_main_v94
  rfl
set_option maxRecDepth 8192 in
set_option maxHeartbeats 2900000 in
theorem w7_main_v98 (W : Valuation τ sig (Elt F)) :
    after w7 W (Proc.devRef .tc main_v98) = st_main_v98 (st_main_v94 (W (Proc.devRef .tc main_v85)) (W (Proc.devRef .tc main_v90)) (W (Proc.devRef .tc main_arg8))) := by
  simp only [w7]
  after_results_simp
  unfold st_main_v98 st_main_v94
  rfl
set_option maxRecDepth 8192 in
set_option maxHeartbeats 2900000 in
theorem w7_main_v106 (W : Valuation τ sig (Elt F)) :
    after w7 W (Proc.devRef .tc main_v106) = st_main_v106 (st_main_v94 (W (Proc.devRef .tc main_v85)) (W (Proc.devRef .tc main_v90)) (W (Proc.devRef .tc main_arg8))) (st_main_v98 (st_main_v94 (W (Proc.devRef .tc main_v85)) (W (Proc.devRef .tc main_v90)) (W (Proc.devRef .tc main_arg8)))) := by
  simp only [w7]
  after_results_simp
  unfold st_main_v106 st_main_v94 st_main_v98
  rfl
set_option maxRecDepth 8192 in
set_option maxHeartbeats 2900000 in
theorem w7_main_v107 (W : Valuation τ sig (Elt F)) :
    after w7 W (Proc.devRef .tc main_v107) = st_main_v107 (st_main_v106 (st_main_v94 (W (Proc.devRef .tc main_v85)) (W (Proc.devRef .tc main_v90)) (W (Proc.devRef .tc main_arg8))) (st_main_v98 (st_main_v94 (W (Proc.devRef .tc main_v85)) (W (Proc.devRef .tc main_v90)) (W (Proc.devRef .tc main_arg8))))) := by
  simp only [w7]
  after_results_simp
  unfold st_main_v107 st_main_v106 st_main_v94 st_main_v98
  rfl
set_option maxRecDepth 8192 in
set_option maxHeartbeats 3300000 in
theorem w8_main_v111 (W : Valuation τ sig (Elt F)) :
    after w8 W (Proc.devRef .tc main_v111) = st_main_v111 (W (Proc.devRef .tc main_v107)) := by
  simp only [w8]
  after_results_simp
  unfold st_main_v111
  rfl
set_option maxRecDepth 8192 in
set_option maxHeartbeats 3300000 in
theorem w8_main_v119 (W : Valuation τ sig (Elt F)) :
    after w8 W (Proc.devRef .tc main_v119) = st_main_v119 (W (Proc.devRef .tc main_v107)) (st_main_v111 (W (Proc.devRef .tc main_v107))) := by
  simp only [w8]
  after_results_simp
  unfold st_main_v119 st_main_v111
  rfl
set_option maxRecDepth 8192 in
set_option maxHeartbeats 3300000 in
theorem w8_main_v125 (W : Valuation τ sig (Elt F)) :
    after w8 W (Proc.devRef .tc main_v125) = st_main_v125 (W (Proc.devRef .tc main_arg9)) := by
  simp only [w8]
  after_results_simp
  unfold st_main_v125
  rfl
set_option maxRecDepth 8192 in
set_option maxHeartbeats 3300000 in
theorem w9_main_v129 (W : Valuation τ sig (Elt F)) :
    after w9 W (Proc.devRef .tc main_v129) = st_main_v129 (W (Proc.devRef .tc main_v119)) (W (Proc.devRef .tc main_v125)) (W (Proc.devRef .tc main_arg10)) := by
  simp only [w9]
  after_results_simp
  unfold st_main_v129
  rfl
set_option maxRecDepth 8192 in
set_option maxHeartbeats 3300000 in
theorem w9_main_v132 (W : Valuation τ sig (Elt F)) :
    after w9 W (Proc.devRef .tc main_v132) = st_main_v132 (st_main_v129 (W (Proc.devRef .tc main_v119)) (W (Proc.devRef .tc main_v125)) (W (Proc.devRef .tc main_arg10))) := by
  simp only [w9]
  after_results_simp
  unfold st_main_v132 st_main_v129
  rfl
set_option maxRecDepth 8192 in
set_option maxHeartbeats 3300000 in
theorem w9_main_v133 (W : Valuation τ sig (Elt F)) :
    after w9 W (Proc.devRef .tc main_v133) = st_main_v133 (st_main_v129 (W (Proc.devRef .tc main_v119)) (W (Proc.devRef .tc main_v125)) (W (Proc.devRef .tc main_arg10))) := by
  simp only [w9]
  after_results_simp
  unfold st_main_v133 st_main_v129
  rfl
set_option maxRecDepth 8192 in
set_option maxHeartbeats 3300000 in
theorem w9_main_v134 (W : Valuation τ sig (Elt F)) :
    after w9 W (Proc.devRef .tc main_v134) = st_main_v134 (st_main_v132 (st_main_v129 (W (Proc.devRef .tc main_v119)) (W (Proc.devRef .tc main_v125)) (W (Proc.devRef .tc main_arg10)))) := by
  simp only [w9]
  after_results_simp
  unfold st_main_v134 st_main_v132 st_main_v129
  rfl
set_option maxRecDepth 8192 in
set_option maxHeartbeats 3700000 in
theorem w10_main_v148 (W : Valuation τ sig (Elt F)) :
    after w10 W (Proc.devRef .tc main_v148) = st_main_v148 (W (Proc.devRef .tc main_arg11)) (W (Proc.devRef .tc main_v129)) (W (Proc.devRef .tc main_v134)) (W (Proc.devRef .tc main_v133)) (W (Proc.devRef .tc main_arg12)) := by
  simp only [w10]
  after_results_simp
  unfold st_main_v148
  rfl
set_option maxRecDepth 8192 in
set_option maxHeartbeats 3700000 in
theorem w10_main_v152 (W : Valuation τ sig (Elt F)) :
    after w10 W (Proc.devRef .tc main_v152) = st_main_v152 (st_main_v148 (W (Proc.devRef .tc main_arg11)) (W (Proc.devRef .tc main_v129)) (W (Proc.devRef .tc main_v134)) (W (Proc.devRef .tc main_v133)) (W (Proc.devRef .tc main_arg12))) := by
  simp only [w10]
  after_results_simp
  unfold st_main_v152 st_main_v148
  rfl
set_option maxRecDepth 8192 in
set_option maxHeartbeats 3700000 in
theorem w10_main_v160 (W : Valuation τ sig (Elt F)) :
    after w10 W (Proc.devRef .tc main_v160) = st_main_v160 (st_main_v148 (W (Proc.devRef .tc main_arg11)) (W (Proc.devRef .tc main_v129)) (W (Proc.devRef .tc main_v134)) (W (Proc.devRef .tc main_v133)) (W (Proc.devRef .tc main_arg12))) (st_main_v152 (st_main_v148 (W (Proc.devRef .tc main_arg11)) (W (Proc.devRef .tc main_v129)) (W (Proc.devRef .tc main_v134)) (W (Proc.devRef .tc main_v133)) (W (Proc.devRef .tc main_arg12)))) := by
  simp only [w10]
  after_results_simp
  unfold st_main_v160 st_main_v148 st_main_v152
  rfl
set_option maxRecDepth 8192 in
set_option maxHeartbeats 3000000 in
theorem w11_main_v166 (W : Valuation τ sig (Elt F)) :
    after w11 W (Proc.devRef .tc main_v166) = st_main_v166 (W (Proc.devRef .tc main_v160)) := by
  simp only [w11]
  after_results_simp
  unfold st_main_v166
  rfl
set_option maxRecDepth 8192 in
set_option maxHeartbeats 3000000 in
theorem w11_main_v170 (W : Valuation τ sig (Elt F)) :
    after w11 W (Proc.devRef .tc main_v170) = st_main_v170 (st_main_v166 (W (Proc.devRef .tc main_v160))) := by
  simp only [w11]
  after_results_simp
  unfold st_main_v170 st_main_v166
  rfl
set_option maxRecDepth 8192 in
set_option maxHeartbeats 3000000 in
theorem w11_main_v178 (W : Valuation τ sig (Elt F)) :
    after w11 W (Proc.devRef .tc main_v178) = st_main_v178 (st_main_v166 (W (Proc.devRef .tc main_v160))) (st_main_v170 (st_main_v166 (W (Proc.devRef .tc main_v160)))) := by
  simp only [w11]
  after_results_simp
  unfold st_main_v178 st_main_v166 st_main_v170
  rfl

/-- The contents of main_v3 after the run, from the argument arrays: its stage at the contents of what it reads. -/
def T_main_v3 (V0 : Valuation τ sig (Elt F)) : (⟨S_, .f32⟩ : BufTy).Contents (Elt F) :=
  st_main_v3 (V0 (Proc.devRef .tc main_arg0))
/-- The contents of main_v11 after the run, from the argument arrays: its stage at the contents of what it reads. -/
def T_main_v11 (V0 : Valuation τ sig (Elt F)) : (⟨S65536x784, .f32⟩ : BufTy).Contents (Elt F) :=
  st_main_v11 (V0 (Proc.devRef .tc main_arg0)) (T_main_v3 V0)
/-- The contents of main_v17 after the run, from the argument arrays: its stage at the contents of what it reads. -/
def T_main_v17 (V0 : Valuation τ sig (Elt F)) : (⟨S128x784, .f32⟩ : BufTy).Contents (Elt F) :=
  st_main_v17 (V0 (Proc.devRef .tc main_arg1))
/-- The contents of main_v21 after the run, from the argument arrays: its stage at the contents of what it reads. -/
def T_main_v21 (V0 : Valuation τ sig (Elt F)) : (⟨S65536x128, .f32⟩ : BufTy).Contents (Elt F) :=
  st_main_v21 (T_main_v11 V0) (T_main_v17 V0) (V0 (Proc.devRef .tc main_arg2))
/-- The contents of main_v24 after the run, from the argument arrays: its stage at the contents of what it reads. -/
def T_main_v24 (V0 : Valuation τ sig (Elt F)) : (⟨S128, .f32⟩ : BufTy).Contents (Elt F) :=
  st_main_v24 (T_main_v21 V0)
/-- The contents of main_v25 after the run, from the argument arrays: its stage at the contents of what it reads. -/
def T_main_v25 (V0 : Valuation τ sig (Elt F)) : (⟨S128, .f32⟩ : BufTy).Contents (Elt F) :=
  st_main_v25 (T_main_v21 V0)
/-- The contents of main_v40 after the run, from the argument arrays: its stage at the contents of what it reads. -/
def T_main_v40 (V0 : Valuation τ sig (Elt F)) : (⟨S65536x128, .f32⟩ : BufTy).Contents (Elt F) :=
  st_main_v40 (V0 (Proc.devRef .tc main_arg3)) (T_main_v21 V0) (T_main_v24 V0) (T_main_v25 V0) (V0 (Proc.devRef .tc main_arg4))
/-- The contents of main_v44 after the run, from the argument arrays: its stage at the contents of what it reads. -/
def T_main_v44 (V0 : Valuation τ sig (Elt F)) : (⟨S_, .f32⟩ : BufTy).Contents (Elt F) :=
  st_main_v44 (T_main_v40 V0)
/-- The contents of main_v52 after the run, from the argument arrays: its stage at the contents of what it reads. -/
def T_main_v52 (V0 : Valuation τ sig (Elt F)) : (⟨S65536x128, .f32⟩ : BufTy).Contents (Elt F) :=
  st_main_v52 (T_main_v40 V0) (T_main_v44 V0)
/-- The contents of main_v53 after the run, from the argument arrays: its stage at the contents of what it reads. -/
def T_main_v53 (V0 : Valuation τ sig (Elt F)) : (⟨S65536x128, .f32⟩ : BufTy).Contents (Elt F) :=
  st_main_v53 (T_main_v52 V0)
/-- The contents of main_v57 after the run, from the argument arrays: its stage at the contents of what it reads. -/
def T_main_v57 (V0 : Valuation τ sig (Elt F)) : (⟨S_, .f32⟩ : BufTy).Contents (Elt F) :=
  st_main_v57 (T_main_v53 V0)
/-- The contents of main_v65 after the run, from the argument arrays: its stage at the contents of what it reads. -/
def T_main_v65 (V0 : Valuation τ sig (Elt F)) : (⟨S65536x128, .f32⟩ : BufTy).Contents (Elt F) :=
  st_main_v65 (T_main_v53 V0) (T_main_v57 V0)
/-- The contents of main_v71 after the run, from the argument arrays: its stage at the contents of what it reads. -/
def T_main_v71 (V0 : Valuation τ sig (Elt F)) : (⟨S128x128, .f32⟩ : BufTy).Contents (Elt F) :=
  st_main_v71 (V0 (Proc.devRef .tc main_arg5))
/-- The contents of main_v75 after the run, from the argument arrays: its stage at the contents of what it reads. -/
def T_main_v75 (V0 : Valuation τ sig (Elt F)) : (⟨S65536x128, .f32⟩ : BufTy).Contents (Elt F) :=
  st_main_v75 (T_main_v65 V0) (T_main_v71 V0) (V0 (Proc.devRef .tc main_arg6))
/-- The contents of main_v78 after the run, from the argument arrays: its stage at the contents of what it reads. -/
def T_main_v78 (V0 : Valuation τ sig (Elt F)) : (⟨S128, .f32⟩ : BufTy).Contents (Elt F) :=
  st_main_v78 (T_main_v75 V0)
/-- The contents of main_v79 after the run, from the argument arrays: its stage at the contents of what it reads. -/
def T_main_v79 (V0 : Valuation τ sig (Elt F)) : (⟨S128, .f32⟩ : BufTy).Contents (Elt F) :=
  st_main_v79 (T_main_v75 V0)
/-- The contents of main_v85 after the run, from the argument arrays: its stage at the contents of what it reads. -/
def T_main_v85 (V0 : Valuation τ sig (Elt F)) : (⟨S65536x128, .f32⟩ : BufTy).Contents (Elt F) :=
  st_main_v85 (V0 (Proc.devRef .tc main_arg7)) (T_main_v75 V0) (T_main_v78 V0)
/-- The contents of main_v90 after the run, from the argument arrays: its stage at the contents of what it reads. -/
def T_main_v90 (V0 : Valuation τ sig (Elt F)) : (⟨S65536x128, .f32⟩ : BufTy).Contents (Elt F) :=
  st_main_v90 (T_main_v79 V0)
/-- The contents of main_v94 after the run, from the argument arrays: its stage at the contents of what it reads. -/
def T_main_v94 (V0 : Valuation τ sig (Elt F)) : (⟨S65536x128, .f32⟩ : BufTy).Contents (Elt F) :=
  st_main_v94 (T_main_v85 V0) (T_main_v90 V0) (V0 (Proc.devRef .tc main_arg8))
/-- The contents of main_v98 after the run, from the argument arrays: its stage at the contents of what it reads. -/
def T_main_v98 (V0 : Valuation τ sig (Elt F)) : (⟨S_, .f32⟩ : BufTy).Contents (Elt F) :=
  st_main_v98 (T_main_v94 V0)
/-- The contents of main_v106 after the run, from the argument arrays: its stage at the contents of what it reads. -/
def T_main_v106 (V0 : Valuation τ sig (Elt F)) : (⟨S65536x128, .f32⟩ : BufTy).Contents (Elt F) :=
  st_main_v106 (T_main_v94 V0) (T_main_v98 V0)
/-- The contents of main_v107 after the run, from the argument arrays: its stage at the contents of what it reads. -/
def T_main_v107 (V0 : Valuation τ sig (Elt F)) : (⟨S65536x128, .f32⟩ : BufTy).Contents (Elt F) :=
  st_main_v107 (T_main_v106 V0)
/-- The contents of main_v111 after the run, from the argument arrays: its stage at the contents of what it reads. -/
def T_main_v111 (V0 : Valuation τ sig (Elt F)) : (⟨S_, .f32⟩ : BufTy).Contents (Elt F) :=
  st_main_v111 (T_main_v107 V0)
/-- The contents of main_v119 after the run, from the argument arrays: its stage at the contents of what it reads. -/
def T_main_v119 (V0 : Valuation τ sig (Elt F)) : (⟨S65536x128, .f32⟩ : BufTy).Contents (Elt F) :=
  st_main_v119 (T_main_v107 V0) (T_main_v111 V0)
/-- The contents of main_v125 after the run, from the argument arrays: its stage at the contents of what it reads. -/
def T_main_v125 (V0 : Valuation τ sig (Elt F)) : (⟨S10x128, .f32⟩ : BufTy).Contents (Elt F) :=
  st_main_v125 (V0 (Proc.devRef .tc main_arg9))
/-- The contents of main_v129 after the run, from the argument arrays: its stage at the contents of what it reads. -/
def T_main_v129 (V0 : Valuation τ sig (Elt F)) : (⟨S65536x10, .f32⟩ : BufTy).Contents (Elt F) :=
  st_main_v129 (T_main_v119 V0) (T_main_v125 V0) (V0 (Proc.devRef .tc main_arg10))
/-- The contents of main_v132 after the run, from the argument arrays: its stage at the contents of what it reads. -/
def T_main_v132 (V0 : Valuation τ sig (Elt F)) : (⟨S10, .f32⟩ : BufTy).Contents (Elt F) :=
  st_main_v132 (T_main_v129 V0)
/-- The contents of main_v133 after the run, from the argument arrays: its stage at the contents of what it reads. -/
def T_main_v133 (V0 : Valuation τ sig (Elt F)) : (⟨S10, .f32⟩ : BufTy).Contents (Elt F) :=
  st_main_v133 (T_main_v129 V0)
/-- The contents of main_v134 after the run, from the argument arrays: its stage at the contents of what it reads. -/
def T_main_v134 (V0 : Valuation τ sig (Elt F)) : (⟨S1x10, .f32⟩ : BufTy).Contents (Elt F) :=
  st_main_v134 (T_main_v132 V0)
/-- The contents of main_v148 after the run, from the argument arrays: its stage at the contents of what it reads. -/
def T_main_v148 (V0 : Valuation τ sig (Elt F)) : (⟨S65536x10, .f32⟩ : BufTy).Contents (Elt F) :=
  st_main_v148 (V0 (Proc.devRef .tc main_arg11)) (T_main_v129 V0) (T_main_v134 V0) (T_main_v133 V0) (V0 (Proc.devRef .tc main_arg12))
/-- The contents of main_v152 after the run, from the argument arrays: its stage at the contents of what it reads. -/
def T_main_v152 (V0 : Valuation τ sig (Elt F)) : (⟨S_, .f32⟩ : BufTy).Contents (Elt F) :=
  st_main_v152 (T_main_v148 V0)
/-- The contents of main_v160 after the run, from the argument arrays: its stage at the contents of what it reads. -/
def T_main_v160 (V0 : Valuation τ sig (Elt F)) : (⟨S65536x10, .f32⟩ : BufTy).Contents (Elt F) :=
  st_main_v160 (T_main_v148 V0) (T_main_v152 V0)
/-- The contents of main_v166 after the run, from the argument arrays: its stage at the contents of what it reads. -/
def T_main_v166 (V0 : Valuation τ sig (Elt F)) : (⟨S65536x10, .f32⟩ : BufTy).Contents (Elt F) :=
  st_main_v166 (T_main_v160 V0)
/-- The contents of main_v170 after the run, from the argument arrays: its stage at the contents of what it reads. -/
def T_main_v170 (V0 : Valuation τ sig (Elt F)) : (⟨S_, .f32⟩ : BufTy).Contents (Elt F) :=
  st_main_v170 (T_main_v166 V0)
/-- The contents of main_v178 after the run, from the argument arrays: its stage at the contents of what it reads. -/
def T_main_v178 (V0 : Valuation τ sig (Elt F)) : (⟨S65536x10, .f32⟩ : BufTy).Contents (Elt F) :=
  st_main_v178 (T_main_v166 V0) (T_main_v170 V0)

theorem val1_main_v3 (V0 : Valuation τ sig (Elt F)) : val1 V0 (Proc.devRef .tc main_v3) = T_main_v3 V0 := by
  unfold val1
  rw [w0_main_v3, val0_main_arg0 V0]
  rfl
theorem val1_main_v11 (V0 : Valuation τ sig (Elt F)) : val1 V0 (Proc.devRef .tc main_v11) = T_main_v11 V0 := by
  unfold val1
  rw [w0_main_v11, val0_main_arg0 V0]
  rfl
theorem val2_main_v11 (V0 : Valuation τ sig (Elt F)) : val2 V0 (Proc.devRef .tc main_v11) = T_main_v11 V0 :=
  (val2_keep V0 main_v11 (by decide)).trans (val1_main_v11 V0)
theorem val1_main_v17 (V0 : Valuation τ sig (Elt F)) : val1 V0 (Proc.devRef .tc main_v17) = T_main_v17 V0 := by
  unfold val1
  rw [w0_main_v17, val0_main_arg1 V0]
  rfl
theorem val2_main_v17 (V0 : Valuation τ sig (Elt F)) : val2 V0 (Proc.devRef .tc main_v17) = T_main_v17 V0 :=
  (val2_keep V0 main_v17 (by decide)).trans (val1_main_v17 V0)
theorem val2_main_v21 (V0 : Valuation τ sig (Elt F)) : val2 V0 (Proc.devRef .tc main_v21) = T_main_v21 V0 := by
  unfold val2
  rw [w1_main_v21, val1_main_v11 V0, val1_main_v17 V0, val1_main_arg2 V0]
  rfl
theorem val3_main_v21 (V0 : Valuation τ sig (Elt F)) : val3 V0 (Proc.devRef .tc main_v21) = T_main_v21 V0 :=
  (val3_keep V0 main_v21 (by decide)).trans (val2_main_v21 V0)
theorem val2_main_v24 (V0 : Valuation τ sig (Elt F)) : val2 V0 (Proc.devRef .tc main_v24) = T_main_v24 V0 := by
  unfold val2
  rw [w1_main_v24, val1_main_v11 V0, val1_main_v17 V0, val1_main_arg2 V0]
  rfl
theorem val3_main_v24 (V0 : Valuation τ sig (Elt F)) : val3 V0 (Proc.devRef .tc main_v24) = T_main_v24 V0 :=
  (val3_keep V0 main_v24 (by decide)).trans (val2_main_v24 V0)
theorem val2_main_v25 (V0 : Valuation τ sig (Elt F)) : val2 V0 (Proc.devRef .tc main_v25) = T_main_v25 V0 := by
  unfold val2
  rw [w1_main_v25, val1_main_v11 V0, val1_main_v17 V0, val1_main_arg2 V0]
  rfl
theorem val3_main_v25 (V0 : Valuation τ sig (Elt F)) : val3 V0 (Proc.devRef .tc main_v25) = T_main_v25 V0 :=
  (val3_keep V0 main_v25 (by decide)).trans (val2_main_v25 V0)
theorem val3_main_v40 (V0 : Valuation τ sig (Elt F)) : val3 V0 (Proc.devRef .tc main_v40) = T_main_v40 V0 := by
  unfold val3
  rw [w2_main_v40, val2_main_arg3 V0, val2_main_v21 V0, val2_main_v24 V0, val2_main_v25 V0, val2_main_arg4 V0]
  rfl
theorem val4_main_v40 (V0 : Valuation τ sig (Elt F)) : val4 V0 (Proc.devRef .tc main_v40) = T_main_v40 V0 :=
  (val4_keep V0 main_v40 (by decide)).trans (val3_main_v40 V0)
theorem val3_main_v44 (V0 : Valuation τ sig (Elt F)) : val3 V0 (Proc.devRef .tc main_v44) = T_main_v44 V0 := by
  unfold val3
  rw [w2_main_v44, val2_main_arg3 V0, val2_main_v21 V0, val2_main_v24 V0, val2_main_v25 V0, val2_main_arg4 V0]
  rfl
theorem val4_main_v44 (V0 : Valuation τ sig (Elt F)) : val4 V0 (Proc.devRef .tc main_v44) = T_main_v44 V0 :=
  (val4_keep V0 main_v44 (by decide)).trans (val3_main_v44 V0)
theorem val4_main_v52 (V0 : Valuation τ sig (Elt F)) : val4 V0 (Proc.devRef .tc main_v52) = T_main_v52 V0 := by
  unfold val4
  rw [w3_main_v52, val3_main_v40 V0, val3_main_v44 V0]
  rfl
theorem val4_main_v53 (V0 : Valuation τ sig (Elt F)) : val4 V0 (Proc.devRef .tc main_v53) = T_main_v53 V0 := by
  unfold val4
  rw [w3_main_v53, val3_main_v40 V0, val3_main_v44 V0]
  rfl
theorem val5_main_v53 (V0 : Valuation τ sig (Elt F)) : val5 V0 (Proc.devRef .tc main_v53) = T_main_v53 V0 :=
  (val5_keep V0 main_v53 (by decide)).trans (val4_main_v53 V0)
theorem val5_main_v57 (V0 : Valuation τ sig (Elt F)) : val5 V0 (Proc.devRef .tc main_v57) = T_main_v57 V0 := by
  unfold val5
  rw [w4_main_v57, val4_main_v53 V0]
  rfl
theorem val5_main_v65 (V0 : Valuation τ sig (Elt F)) : val5 V0 (Proc.devRef .tc main_v65) = T_main_v65 V0 := by
  unfold val5
  rw [w4_main_v65, val4_main_v53 V0]
  rfl
theorem val6_main_v65 (V0 : Valuation τ sig (Elt F)) : val6 V0 (Proc.devRef .tc main_v65) = T_main_v65 V0 :=
  (val6_keep V0 main_v65 (by decide)).trans (val5_main_v65 V0)
theorem val7_main_v65 (V0 : Valuation τ sig (Elt F)) : val7 V0 (Proc.devRef .tc main_v65) = T_main_v65 V0 :=
  (val7_keep V0 main_v65 (by decide)).trans (val6_main_v65 V0)
theorem val8_main_v65 (V0 : Valuation τ sig (Elt F)) : val8 V0 (Proc.devRef .tc main_v65) = T_main_v65 V0 :=
  (val8_keep V0 main_v65 (by decide)).trans (val7_main_v65 V0)
theorem val9_main_v65 (V0 : Valuation τ sig (Elt F)) : val9 V0 (Proc.devRef .tc main_v65) = T_main_v65 V0 :=
  (val9_keep V0 main_v65 (by decide)).trans (val8_main_v65 V0)
theorem val10_main_v65 (V0 : Valuation τ sig (Elt F)) : val10 V0 (Proc.devRef .tc main_v65) = T_main_v65 V0 :=
  (val10_keep V0 main_v65 (by decide)).trans (val9_main_v65 V0)
theorem val11_main_v65 (V0 : Valuation τ sig (Elt F)) : val11 V0 (Proc.devRef .tc main_v65) = T_main_v65 V0 :=
  (val11_keep V0 main_v65 (by decide)).trans (val10_main_v65 V0)
theorem val12_main_v65 (V0 : Valuation τ sig (Elt F)) : val12 V0 (Proc.devRef .tc main_v65) = T_main_v65 V0 :=
  (val12_keep V0 main_v65 (by decide)).trans (val11_main_v65 V0)
theorem val5_main_v71 (V0 : Valuation τ sig (Elt F)) : val5 V0 (Proc.devRef .tc main_v71) = T_main_v71 V0 := by
  unfold val5
  rw [w4_main_v71, val4_main_arg5 V0]
  rfl
theorem val6_main_v71 (V0 : Valuation τ sig (Elt F)) : val6 V0 (Proc.devRef .tc main_v71) = T_main_v71 V0 :=
  (val6_keep V0 main_v71 (by decide)).trans (val5_main_v71 V0)
theorem val6_main_v75 (V0 : Valuation τ sig (Elt F)) : val6 V0 (Proc.devRef .tc main_v75) = T_main_v75 V0 := by
  unfold val6
  rw [w5_main_v75, val5_main_v65 V0, val5_main_v71 V0, val5_main_arg6 V0]
  rfl
theorem val7_main_v75 (V0 : Valuation τ sig (Elt F)) : val7 V0 (Proc.devRef .tc main_v75) = T_main_v75 V0 :=
  (val7_keep V0 main_v75 (by decide)).trans (val6_main_v75 V0)
theorem val6_main_v78 (V0 : Valuation τ sig (Elt F)) : val6 V0 (Proc.devRef .tc main_v78) = T_main_v78 V0 := by
  unfold val6
  rw [w5_main_v78, val5_main_v65 V0, val5_main_v71 V0, val5_main_arg6 V0]
  rfl
theorem val7_main_v78 (V0 : Valuation τ sig (Elt F)) : val7 V0 (Proc.devRef .tc main_v78) = T_main_v78 V0 :=
  (val7_keep V0 main_v78 (by decide)).trans (val6_main_v78 V0)
theorem val6_main_v79 (V0 : Valuation τ sig (Elt F)) : val6 V0 (Proc.devRef .tc main_v79) = T_main_v79 V0 := by
  unfold val6
  rw [w5_main_v79, val5_main_v65 V0, val5_main_v71 V0, val5_main_arg6 V0]
  rfl
theorem val7_main_v79 (V0 : Valuation τ sig (Elt F)) : val7 V0 (Proc.devRef .tc main_v79) = T_main_v79 V0 :=
  (val7_keep V0 main_v79 (by decide)).trans (val6_main_v79 V0)
theorem val7_main_v85 (V0 : Valuation τ sig (Elt F)) : val7 V0 (Proc.devRef .tc main_v85) = T_main_v85 V0 := by
  unfold val7
  rw [w6_main_v85, val6_main_arg7 V0, val6_main_v75 V0, val6_main_v78 V0]
  rfl
theorem val8_main_v85 (V0 : Valuation τ sig (Elt F)) : val8 V0 (Proc.devRef .tc main_v85) = T_main_v85 V0 :=
  (val8_keep V0 main_v85 (by decide)).trans (val7_main_v85 V0)
theorem val7_main_v90 (V0 : Valuation τ sig (Elt F)) : val7 V0 (Proc.devRef .tc main_v90) = T_main_v90 V0 := by
  unfold val7
  rw [w6_main_v90, val6_main_v79 V0]
  rfl
theorem val8_main_v90 (V0 : Valuation τ sig (Elt F)) : val8 V0 (Proc.devRef .tc main_v90) = T_main_v90 V0 :=
  (val8_keep V0 main_v90 (by decide)).trans (val7_main_v90 V0)
theorem val8_main_v94 (V0 : Valuation τ sig (Elt F)) : val8 V0 (Proc.devRef .tc main_v94) = T_main_v94 V0 := by
  unfold val8
  rw [w7_main_v94, val7_main_v85 V0, val7_main_v90 V0, val7_main_arg8 V0]
  rfl
theorem val8_main_v98 (V0 : Valuation τ sig (Elt F)) : val8 V0 (Proc.devRef .tc main_v98) = T_main_v98 V0 := by
  unfold val8
  rw [w7_main_v98, val7_main_v85 V0, val7_main_v90 V0, val7_main_arg8 V0]
  rfl
theorem val8_main_v106 (V0 : Valuation τ sig (Elt F)) : val8 V0 (Proc.devRef .tc main_v106) = T_main_v106 V0 := by
  unfold val8
  rw [w7_main_v106, val7_main_v85 V0, val7_main_v90 V0, val7_main_arg8 V0]
  rfl
theorem val8_main_v107 (V0 : Valuation τ sig (Elt F)) : val8 V0 (Proc.devRef .tc main_v107) = T_main_v107 V0 := by
  unfold val8
  rw [w7_main_v107, val7_main_v85 V0, val7_main_v90 V0, val7_main_arg8 V0]
  rfl
theorem val9_main_v107 (V0 : Valuation τ sig (Elt F)) : val9 V0 (Proc.devRef .tc main_v107) = T_main_v107 V0 :=
  (val9_keep V0 main_v107 (by decide)).trans (val8_main_v107 V0)
theorem val9_main_v111 (V0 : Valuation τ sig (Elt F)) : val9 V0 (Proc.devRef .tc main_v111) = T_main_v111 V0 := by
  unfold val9
  rw [w8_main_v111, val8_main_v107 V0]
  rfl
theorem val9_main_v119 (V0 : Valuation τ sig (Elt F)) : val9 V0 (Proc.devRef .tc main_v119) = T_main_v119 V0 := by
  unfold val9
  rw [w8_main_v119, val8_main_v107 V0]
  rfl
theorem val10_main_v119 (V0 : Valuation τ sig (Elt F)) : val10 V0 (Proc.devRef .tc main_v119) = T_main_v119 V0 :=
  (val10_keep V0 main_v119 (by decide)).trans (val9_main_v119 V0)
theorem val11_main_v119 (V0 : Valuation τ sig (Elt F)) : val11 V0 (Proc.devRef .tc main_v119) = T_main_v119 V0 :=
  (val11_keep V0 main_v119 (by decide)).trans (val10_main_v119 V0)
theorem val12_main_v119 (V0 : Valuation τ sig (Elt F)) : val12 V0 (Proc.devRef .tc main_v119) = T_main_v119 V0 :=
  (val12_keep V0 main_v119 (by decide)).trans (val11_main_v119 V0)
theorem val9_main_v125 (V0 : Valuation τ sig (Elt F)) : val9 V0 (Proc.devRef .tc main_v125) = T_main_v125 V0 := by
  unfold val9
  rw [w8_main_v125, val8_main_arg9 V0]
  rfl
theorem val10_main_v125 (V0 : Valuation τ sig (Elt F)) : val10 V0 (Proc.devRef .tc main_v125) = T_main_v125 V0 :=
  (val10_keep V0 main_v125 (by decide)).trans (val9_main_v125 V0)
theorem val10_main_v129 (V0 : Valuation τ sig (Elt F)) : val10 V0 (Proc.devRef .tc main_v129) = T_main_v129 V0 := by
  unfold val10
  rw [w9_main_v129, val9_main_v119 V0, val9_main_v125 V0, val9_main_arg10 V0]
  rfl
theorem val11_main_v129 (V0 : Valuation τ sig (Elt F)) : val11 V0 (Proc.devRef .tc main_v129) = T_main_v129 V0 :=
  (val11_keep V0 main_v129 (by decide)).trans (val10_main_v129 V0)
theorem val10_main_v132 (V0 : Valuation τ sig (Elt F)) : val10 V0 (Proc.devRef .tc main_v132) = T_main_v132 V0 := by
  unfold val10
  rw [w9_main_v132, val9_main_v119 V0, val9_main_v125 V0, val9_main_arg10 V0]
  rfl
theorem val10_main_v133 (V0 : Valuation τ sig (Elt F)) : val10 V0 (Proc.devRef .tc main_v133) = T_main_v133 V0 := by
  unfold val10
  rw [w9_main_v133, val9_main_v119 V0, val9_main_v125 V0, val9_main_arg10 V0]
  rfl
theorem val11_main_v133 (V0 : Valuation τ sig (Elt F)) : val11 V0 (Proc.devRef .tc main_v133) = T_main_v133 V0 :=
  (val11_keep V0 main_v133 (by decide)).trans (val10_main_v133 V0)
theorem val10_main_v134 (V0 : Valuation τ sig (Elt F)) : val10 V0 (Proc.devRef .tc main_v134) = T_main_v134 V0 := by
  unfold val10
  rw [w9_main_v134, val9_main_v119 V0, val9_main_v125 V0, val9_main_arg10 V0]
  rfl
theorem val11_main_v134 (V0 : Valuation τ sig (Elt F)) : val11 V0 (Proc.devRef .tc main_v134) = T_main_v134 V0 :=
  (val11_keep V0 main_v134 (by decide)).trans (val10_main_v134 V0)
theorem val11_main_v148 (V0 : Valuation τ sig (Elt F)) : val11 V0 (Proc.devRef .tc main_v148) = T_main_v148 V0 := by
  unfold val11
  rw [w10_main_v148, val10_main_arg11 V0, val10_main_v129 V0, val10_main_v134 V0, val10_main_v133 V0, val10_main_arg12 V0]
  rfl
theorem val11_main_v152 (V0 : Valuation τ sig (Elt F)) : val11 V0 (Proc.devRef .tc main_v152) = T_main_v152 V0 := by
  unfold val11
  rw [w10_main_v152, val10_main_arg11 V0, val10_main_v129 V0, val10_main_v134 V0, val10_main_v133 V0, val10_main_arg12 V0]
  rfl
theorem val11_main_v160 (V0 : Valuation τ sig (Elt F)) : val11 V0 (Proc.devRef .tc main_v160) = T_main_v160 V0 := by
  unfold val11
  rw [w10_main_v160, val10_main_arg11 V0, val10_main_v129 V0, val10_main_v134 V0, val10_main_v133 V0, val10_main_arg12 V0]
  rfl
theorem val12_main_v160 (V0 : Valuation τ sig (Elt F)) : val12 V0 (Proc.devRef .tc main_v160) = T_main_v160 V0 :=
  (val12_keep V0 main_v160 (by decide)).trans (val11_main_v160 V0)
theorem val12_main_v166 (V0 : Valuation τ sig (Elt F)) : val12 V0 (Proc.devRef .tc main_v166) = T_main_v166 V0 := by
  unfold val12
  rw [w11_main_v166, val11_main_v160 V0]
  rfl
theorem val12_main_v170 (V0 : Valuation τ sig (Elt F)) : val12 V0 (Proc.devRef .tc main_v170) = T_main_v170 V0 := by
  unfold val12
  rw [w11_main_v170, val11_main_v160 V0]
  rfl
theorem val12_main_v178 (V0 : Valuation τ sig (Elt F)) : val12 V0 (Proc.devRef .tc main_v178) = T_main_v178 V0 := by
  unfold val12
  rw [w11_main_v178, val11_main_v160 V0]
  rfl

/-- The result main_v178 after the run is its stages' composition from the argument arrays. -/
theorem after_ops_main_v178 (V0 : Valuation τ sig (Elt F)) : after ops V0 (Proc.devRef .tc main_v178) = T_main_v178 V0 := by
  rw [after_ops]; exact val12_main_v178 V0
/-- The result main_v65 after the run is its stages' composition from the argument arrays. -/
theorem after_ops_main_v65 (V0 : Valuation τ sig (Elt F)) : after ops V0 (Proc.devRef .tc main_v65) = T_main_v65 V0 := by
  rw [after_ops]; exact val12_main_v65 V0
/-- The result main_v119 after the run is its stages' composition from the argument arrays. -/
theorem after_ops_main_v119 (V0 : Valuation τ sig (Elt F)) : after ops V0 (Proc.devRef .tc main_v119) = T_main_v119 V0 := by
  rw [after_ops]; exact val12_main_v119 V0

end Cert.ReferenceIdeal.RefRun

end
-- ==== Proof.RefRead.lean ====
/- The reference's stages read at an index, at the extended reals: each stage's array function (a composition of the
   host operations' array functions) at a coordinate is the network's stage function of the coordinates' entries. Generic
   in the extents, so that the three layers use the same lemmas. -/
import proofs.«131146_j57208964383148_1_alg».proof.Proof.NetPlain
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefRead

open Idealize.ShloMosaic Idealize.ShloMosaic.ValueIdx
open scoped BigOperators

/-- The rank-zero shape. -/
abbrev S0 : Shape := ⟨0, ![]⟩

variable {B D H : ℕ}

/-! ## The words whose value a stage needs -/

/-- The word of minus infinity is the bottom of the extended reals. -/
theorem lit_ninf : Ideal.ofBits .f32 0xFF800000#32 = (⊥ : EReal) := by
  simp [Ideal.ofBits, Ideal.ieee]

/-- The word 0x47800000 is 65536. -/
theorem lit_cnt : Ideal.ofBits .f32 0x47800000#32 = ((65536 : ℝ) : EReal) := by
  simp [Ideal.ofBits, Ideal.ieee, -EReal.coe_mul]; norm_num

/-- The integer 127 converted is the real 127. -/
theorem sitofp_hi : FloatOps.sitofp (F := Ideal) .f32 (127#32 : BitVec 32) = Net.hiI := by
  show (((127#32 : BitVec 32).toInt : ℝ) : EReal) = Net.hiI
  rw [show (127#32 : BitVec 32).toInt = 127 by decide]; unfold Net.hiI; norm_num

/-- The integer -128 (as a 32-bit word) converted is the real -128. -/
theorem sitofp_lo : FloatOps.sitofp (F := Ideal) .f32 (4294967168#32 : BitVec 32) = Net.loI := by
  show (((4294967168#32 : BitVec 32).toInt : ℝ) : EReal) = Net.loI
  rw [show (4294967168#32 : BitVec 32).toInt = -128 by decide]; unfold Net.loI; norm_num

/-- The integer 0 converted is the real 0. -/
theorem sitofp_zero : FloatOps.sitofp (F := Ideal) .f32 (0#32 : BitVec 32) = Net.zeroI := by
  show (((0#32 : BitVec 32).toInt : ℝ) : EReal) = Net.zeroI
  rw [show (0#32 : BitVec 32).toInt = 0 by decide]; unfold Net.zeroI; norm_num

/-! ## The largest magnitude and the quantisation step -/

/-- A supremum over the indices of a matrix is the supremum over rows of the suprema over columns. -/
theorem sup_idx2 (g : (⟨2, ![B, D]⟩ : Shape).Idx → EReal) :
    (Finset.univ.sup g) = Finset.univ.sup fun r : Fin B => Finset.univ.sup fun c : Fin D => g (ix2 r c) := by
  apply le_antisymm
  · refine Finset.sup_le fun i _ => ?_
    rw [eq_ix2 i]
    exact le_trans (Finset.le_sup (f := fun c : Fin D => g (ix2 (i 0) c)) (Finset.mem_univ (i 1)))
      (Finset.le_sup (f := fun r : Fin B => Finset.univ.sup fun c : Fin D => g (ix2 r c)) (Finset.mem_univ (i 0)))
  · refine Finset.sup_le fun r _ => Finset.sup_le fun c _ => ?_
    exact Finset.le_sup (f := g) (Finset.mem_univ (ix2 r c))

/-- The host's maximum-reduce of the magnitudes over both axes, started at the word of minus infinity, is the largest
    magnitude of the matrix. -/
theorem maxAll_apply (hred : (⟨2, ![B, D]⟩ : Shape).ReducesTo [0, 1] S0) (hu : 0 < S0.numel)
    (x : FVec Ideal ⟨2, ![B, D]⟩ .f32) (j : S0.Idx) :
    Host.reduce (FloatOps.maximumf (F := Ideal) (φ := .f32)) (Host.absf x) (constant (F := Ideal) S0 .f32 0xFF800000#32) hred hu j
      = Net.supMag fun r c => x (ix2 r c) := by
  rw [Host.reduce_eq_fold]
  rw [Finset.filter_true_of_mem fun i _ => funext fun b => b.elim0]
  show Finset.fold max (Ideal.ofBits .f32 0xFF800000#32) (fun i => max (x i) (-(x i))) Finset.univ = _
  rw [lit_ninf]
  exact sup_idx2 (fun i => max (x i) (-(x i)))

/-- The quantisation step of a matrix: its largest magnitude, floored at the tiny word, over the word of 127. -/
theorem step_apply (hred : (⟨2, ![B, D]⟩ : Shape).ReducesTo [0, 1] S0) (hu : 0 < S0.numel)
    (x : FVec Ideal ⟨2, ![B, D]⟩ .f32) (j : S0.Idx) :
    Host.divf (maximumf (Host.reduce (FloatOps.maximumf (F := Ideal) (φ := .f32)) (Host.absf x) (constant (F := Ideal) S0 .f32 0xFF800000#32) hred hu)
        (constant S0 .f32 0x322BCC77#32)) (constant S0 .f32 0x42FE0000#32) j
      = Net.step (Net.supMag fun r c => x (ix2 r c)) := by
  show Ideal.div (max (Host.reduce (FloatOps.maximumf (F := Ideal) (φ := .f32)) (Host.absf x) (constant (F := Ideal) S0 .f32 0xFF800000#32) hred hu j)
      (Ideal.ofBits .f32 0x322BCC77#32)) (Ideal.ofBits .f32 0x42FE0000#32) = _
  rw [maxAll_apply]
  rfl

/-! ## Elementwise stages -/

/-- A quantised entry, spelt as a correction of the entry: the entry over the step rounded, clipped to the converted
    integer bounds, times the step. -/
theorem quant_apply (hb : S0.BroadcastsInDim (⟨2, ![B, D]⟩ : Shape) ![]) (x : FVec Ideal ⟨2, ![B, D]⟩ .f32)
    (s : FVec Ideal S0 .f32) (r : Fin B) (c : Fin D) :
    addf x (subf (mulf (minimumf (broadcastInDim _ ![] hb (sitofp .f32 (constantI S0 32 127#32)))
        (maximumf (broadcastInDim _ ![] hb (sitofp .f32 (constantI S0 32 4294967168#32)))
          (Host.roundeven (Host.divf x (broadcastInDim _ ![] hb s))))) (broadcastInDim _ ![] hb s)) x) (ix2 r c)
      = x (ix2 r c) + (Net.quantWith Net.loI Net.hiI (s ix0) (x (ix2 r c)) - x (ix2 r c)) := by
  show x (ix2 r c) + (min (broadcastInDim _ ![] hb (sitofp (F := Ideal) .f32 (constantI S0 32 127#32)) (ix2 r c))
      (max (broadcastInDim _ ![] hb (sitofp (F := Ideal) .f32 (constantI S0 32 4294967168#32)) (ix2 r c))
        (Ideal.liftRound Ideal.roundHalfEven (Ideal.div (x (ix2 r c)) (broadcastInDim _ ![] hb s (ix2 r c)))))
      * broadcastInDim _ ![] hb s (ix2 r c) - x (ix2 r c)) = _
  rw [broadcastInDim_scalar_apply, broadcastInDim_scalar_apply, broadcastInDim_scalar_apply]
  show x (ix2 r c) + (min (FloatOps.sitofp (F := Ideal) .f32 (127#32 : BitVec 32))
      (max (FloatOps.sitofp (F := Ideal) .f32 (4294967168#32 : BitVec 32))
        (Ideal.liftRound Ideal.roundHalfEven (Ideal.div (x (ix2 r c)) (s ix0)))) * s ix0 - x (ix2 r c)) = _
  rw [sitofp_hi, sitofp_lo]
  rfl

/-- The sign of a weight, spelt as a correction of the weight. -/
theorem signs_apply (hb : S0.BroadcastsInDim (⟨2, ![H, D]⟩ : Shape) ![]) (W : FVec Ideal ⟨2, ![H, D]⟩ .f32)
    (c : Fin H) (k : Fin D) :
    addf W (subf (id (select (cmpf .oge W (broadcastInDim _ ![] hb (constant (F := Ideal) S0 .f32 0x00000000#32)))
        (broadcastInDim _ ![] hb (constant (F := Ideal) S0 .f32 0x3F800000#32))
        (broadcastInDim _ ![] hb (constant (F := Ideal) S0 .f32 0xBF800000#32)))) W) (ix2 c k)
      = Net.signsP (fun c k => W (ix2 c k)) c k := by
  show W (ix2 c k) + (Scalar.select (Ideal.cmp .oge (W (ix2 c k))
        (broadcastInDim _ ![] hb (constant (F := Ideal) S0 .f32 0x00000000#32) (ix2 c k)))
      (broadcastInDim _ ![] hb (constant (F := Ideal) S0 .f32 0x3F800000#32) (ix2 c k))
      (broadcastInDim _ ![] hb (constant (F := Ideal) S0 .f32 0xBF800000#32) (ix2 c k)) - W (ix2 c k)) = _
  rw [broadcastInDim_scalar_apply, broadcastInDim_scalar_apply, broadcastInDim_scalar_apply]
  show W (ix2 c k) + (Scalar.select (Ideal.cmp .oge (W (ix2 c k)) Net.zero) Net.one Net.mone - W (ix2 c k)) = _
  have key : Scalar.select (Ideal.cmp .oge (W (ix2 c k)) Net.zero) Net.one Net.mone = Net.sgn (W (ix2 c k)) := by
    show (if BitVec.ofBool (decide (Net.zero ≤ W (ix2 c k))) = 1#1 then Net.one else Net.mone)
      = if Net.zero ≤ W (ix2 c k) then Net.one else Net.mone
    by_cases h : Net.zero ≤ W (ix2 c k)
    · rw [if_pos h, decide_eq_true h]; exact if_pos rfl
    · rw [if_neg h, decide_eq_false h]; exact if_neg (by decide)
  rw [key]
  rfl

/-- The rectifier. -/
theorem relu_apply (hb : S0.BroadcastsInDim (⟨2, ![B, D]⟩ : Shape) ![]) (q : FVec Ideal ⟨2, ![B, D]⟩ .f32)
    (r : Fin B) (c : Fin D) :
    maximumf q (broadcastInDim _ ![] hb (constant (F := Ideal) S0 .f32 0x00000000#32)) (ix2 r c) = Net.relu (q (ix2 r c)) := by
  show max (q (ix2 r c)) (broadcastInDim _ ![] hb (constant (F := Ideal) S0 .f32 0x00000000#32) (ix2 r c)) = _
  rw [broadcastInDim_scalar_apply]
  rfl

/-- The logistic function: one over one plus the exponential of the negation. -/
theorem logistic_apply (hb : S0.BroadcastsInDim (⟨2, ![B, D]⟩ : Shape) ![]) (q : FVec Ideal ⟨2, ![B, D]⟩ .f32)
    (r : Fin B) (c : Fin D) :
    Host.divf (broadcastInDim _ ![] hb (constant (F := Ideal) S0 .f32 0x3F800000#32))
        (addf (broadcastInDim _ ![] hb (constant (F := Ideal) S0 .f32 0x3F800000#32)) (Host.exp (Host.negf q))) (ix2 r c)
      = Ideal.logistic (q (ix2 r c)) := by
  show Ideal.div (broadcastInDim _ ![] hb (constant (F := Ideal) S0 .f32 0x3F800000#32) (ix2 r c))
      (broadcastInDim _ ![] hb (constant (F := Ideal) S0 .f32 0x3F800000#32) (ix2 r c) + Ideal.exp (-(q (ix2 r c)))) = _
  rw [broadcastInDim_scalar_apply]
  show Ideal.div (Ideal.ofBits .f32 0x3F800000#32) (Ideal.ofBits .f32 0x3F800000#32 + Ideal.exp (-(q (ix2 r c)))) = _
  rw [Ideal.ofBits_one_f32]
  rfl

/-! ## A vector repeated over the rows -/

/-- A vector laid along the columns of a one-row matrix and repeated over the rows reads, at a coordinate, the vector at
    the column. -/
theorem rows_apply {α : Type} (h1 : (⟨1, ![H]⟩ : Shape).BroadcastsInDim (⟨2, ![1, H]⟩ : Shape) ![1])
    (h2 : (⟨2, ![1, H]⟩ : Shape).BroadcastsInDim (⟨2, ![B, H]⟩ : Shape) ![0, 1]) (v : (⟨1, ![H]⟩ : Shape).Idx → α)
    (r : Fin B) (c : Fin H) :
    broadcastInDim (⟨2, ![B, H]⟩ : Shape) ![0, 1] h2 (broadcastInDim (⟨2, ![1, H]⟩ : Shape) ![1] h1 v) (ix2 r c) = v (ix1 c) := by
  have hc : c.val = if H = 1 then 0 else c.val := by
    split_ifs with h
    · have := c.isLt; omega
    · rfl
  rw [broadcastInDim_apply ![0, 1] h2 _ (ix2 r c) (ix2 (0 : Fin 1) c) (fun a => by
    match a with
    | ⟨0, _⟩ => rfl
    | ⟨1, _⟩ => exact hc)]
  rw [broadcastInDim_apply ![1] h1 v (ix2 (0 : Fin 1) c) (ix1 c) (fun a => by
    match a with
    | ⟨0, _⟩ => exact hc)]

/-- The same for a one-row matrix already in hand. -/
theorem row_apply {α : Type} (h2 : (⟨2, ![1, H]⟩ : Shape).BroadcastsInDim (⟨2, ![B, H]⟩ : Shape) ![0, 1])
    (v : (⟨2, ![1, H]⟩ : Shape).Idx → α) (r : Fin B) (c : Fin H) :
    broadcastInDim (⟨2, ![B, H]⟩ : Shape) ![0, 1] h2 v (ix2 r c) = v (ix2 (0 : Fin 1) c) := by
  have hc : c.val = if H = 1 then 0 else c.val := by
    split_ifs with h
    · have := c.isLt; omega
    · rfl
  rw [broadcastInDim_apply ![0, 1] h2 _ (ix2 r c) (ix2 (0 : Fin 1) c) (fun a => by
    match a with
    | ⟨0, _⟩ => rfl
    | ⟨1, _⟩ => exact hc)]

/-- A vector laid along the columns of a one-row matrix reads the vector at the column. -/
theorem lay_apply {α : Type} (h1 : (⟨1, ![H]⟩ : Shape).BroadcastsInDim (⟨2, ![1, H]⟩ : Shape) ![1])
    (v : (⟨1, ![H]⟩ : Shape).Idx → α) (c : Fin H) :
    broadcastInDim (⟨2, ![1, H]⟩ : Shape) ![1] h1 v (ix2 (0 : Fin 1) c) = v (ix1 c) := by
  have hc : c.val = if H = 1 then 0 else c.val := by
    split_ifs with h
    · have := c.isLt; omega
    · rfl
  rw [broadcastInDim_apply ![1] h1 v (ix2 (0 : Fin 1) c) (ix1 c) (fun a => by
    match a with
    | ⟨0, _⟩ => exact hc)]

/-! ## Column sums, means and variances -/

/-- The source index over a column with the row put back is the coordinate pair. -/
theorem lift_rows (h : (⟨2, ![B, H]⟩ : Shape).Reduces [0] (⟨1, ![H]⟩ : Shape)) (c : Fin H) (k : Fin B) :
    h.lift (ix1 c) k = ix2 k c := by
  funext a
  match a with
  | ⟨0, _⟩ => exact Fin.ext rfl
  | ⟨1, _⟩ => exact Fin.ext rfl

/-- The host's sum over the rows, started at the zero word, is the zero word plus the column's sum. -/
theorem colSum_apply (hred : (⟨2, ![B, H]⟩ : Shape).ReducesTo [0] (⟨1, ![H]⟩ : Shape))
    (h : (⟨2, ![B, H]⟩ : Shape).Reduces [0] (⟨1, ![H]⟩ : Shape)) (hu : 0 < S0.numel)
    (y : FVec Ideal ⟨2, ![B, H]⟩ .f32) (c : Fin H) :
    Host.reduceAdd y (constant (F := Ideal) S0 .f32 0x00000000#32) hred hu (ix1 c) = Net.zero + ∑ r : Fin B, y (ix2 r c) := by
  rw [hostReduceAdd_apply, Ideal.hostReduceAdd_single hred h]
  show Net.zero + ∑ k : Fin B, y (h.lift (ix1 c) k) = _
  simp only [lift_rows]

/-- The column mean. -/
theorem mean_apply (hred : (⟨2, ![B, H]⟩ : Shape).ReducesTo [0] (⟨1, ![H]⟩ : Shape))
    (h : (⟨2, ![B, H]⟩ : Shape).Reduces [0] (⟨1, ![H]⟩ : Shape)) (hu : 0 < S0.numel)
    (hb : S0.BroadcastsInDim (⟨1, ![H]⟩ : Shape) ![]) (y : FVec Ideal ⟨2, ![B, H]⟩ .f32) (c : Fin H) :
    Host.divf (Host.reduceAdd y (constant (F := Ideal) S0 .f32 0x00000000#32) hred hu)
        (broadcastInDim _ ![] hb (constant (F := Ideal) S0 .f32 0x47800000#32)) (ix1 c)
      = Net.meanP (fun r c => y (ix2 r c)) c := by
  show Ideal.div (Host.reduceAdd y (constant (F := Ideal) S0 .f32 0x00000000#32) hred hu (ix1 c))
      (broadcastInDim _ ![] hb (constant (F := Ideal) S0 .f32 0x47800000#32) (ix1 c)) = _
  rw [colSum_apply hred h, broadcastInDim_scalar_apply]
  rfl

/-- The same mean computed through a one-row matrix, as the variance's function does. -/
theorem meanRow_apply (hred : (⟨2, ![B, H]⟩ : Shape).ReducesTo [0] (⟨1, ![H]⟩ : Shape))
    (h : (⟨2, ![B, H]⟩ : Shape).Reduces [0] (⟨1, ![H]⟩ : Shape)) (hu : 0 < S0.numel)
    (h1 : (⟨1, ![H]⟩ : Shape).BroadcastsInDim (⟨2, ![1, H]⟩ : Shape) ![1])
    (hbR : S0.BroadcastsInDim (⟨2, ![1, H]⟩ : Shape) ![]) (y : FVec Ideal ⟨2, ![B, H]⟩ .f32) (c : Fin H) :
    Host.divf (broadcastInDim (⟨2, ![1, H]⟩ : Shape) ![1] h1 (Host.reduceAdd y (constant (F := Ideal) S0 .f32 0x00000000#32) hred hu))
        (broadcastInDim _ ![] hbR (constant (F := Ideal) S0 .f32 0x47800000#32)) (ix2 (0 : Fin 1) c)
      = Net.meanP (fun r c => y (ix2 r c)) c := by
  show Ideal.div (broadcastInDim (⟨2, ![1, H]⟩ : Shape) ![1] h1
        (Host.reduceAdd y (constant (F := Ideal) S0 .f32 0x00000000#32) hred hu) (ix2 (0 : Fin 1) c))
      (broadcastInDim _ ![] hbR (constant (F := Ideal) S0 .f32 0x47800000#32) (ix2 (0 : Fin 1) c)) = _
  rw [lay_apply, colSum_apply hred h, broadcastInDim_scalar_apply]
  rfl

/-- The row count less the converted integer zero is above the zero word. -/
theorem cnt_pos : Net.zero < Net.cnt - Net.zeroI := by
  show Ideal.ofBits .f32 0x00000000#32 < Ideal.ofBits .f32 0x47800000#32 - Net.zeroI
  rw [Ideal.ofBits_zero_f32, lit_cnt]
  unfold Net.zeroI
  rw [← EReal.coe_sub]
  exact EReal.coe_pos.mpr (by norm_num)

/-- The column variance as the reference's function computes it: the squared deviations' sum over the row count less the
    converted integer zero, which the comparison of that divisor with zero selects. -/
theorem var_apply (hred : (⟨2, ![B, H]⟩ : Shape).ReducesTo [0] (⟨1, ![H]⟩ : Shape))
    (h : (⟨2, ![B, H]⟩ : Shape).Reduces [0] (⟨1, ![H]⟩ : Shape)) (hu : 0 < S0.numel)
    (h1 : (⟨1, ![H]⟩ : Shape).BroadcastsInDim (⟨2, ![1, H]⟩ : Shape) ![1])
    (h2 : (⟨2, ![1, H]⟩ : Shape).BroadcastsInDim (⟨2, ![B, H]⟩ : Shape) ![0, 1])
    (hbR : S0.BroadcastsInDim (⟨2, ![1, H]⟩ : Shape) ![]) (hbV : S0.BroadcastsInDim (⟨1, ![H]⟩ : Shape) ![])
    (y : FVec Ideal ⟨2, ![B, H]⟩ .f32) (c : Fin H) :
    (fun (p : IVec S0 1) (a b : FVec Ideal ⟨1, ![H]⟩ .f32) => select (broadcastInDim (⟨1, ![H]⟩ : Shape) ![] hbV p) a b)
      (cmpf .ogt (subf (constant (F := Ideal) S0 .f32 0x47800000#32) (sitofp .f32 (constantI S0 32 0#32)))
        (constant (F := Ideal) S0 .f32 0x00000000#32))
      (Host.divf (Host.reduceAdd
          (mulf (subf y (broadcastInDim (⟨2, ![B, H]⟩ : Shape) ![0, 1] h2
              (Host.divf (broadcastInDim (⟨2, ![1, H]⟩ : Shape) ![1] h1 (Host.reduceAdd y (constant (F := Ideal) S0 .f32 0x00000000#32) hred hu))
                (broadcastInDim _ ![] hbR (constant (F := Ideal) S0 .f32 0x47800000#32)))))
            (subf y (broadcastInDim (⟨2, ![B, H]⟩ : Shape) ![0, 1] h2
              (Host.divf (broadcastInDim (⟨2, ![1, H]⟩ : Shape) ![1] h1 (Host.reduceAdd y (constant (F := Ideal) S0 .f32 0x00000000#32) hred hu))
                (broadcastInDim _ ![] hbR (constant (F := Ideal) S0 .f32 0x47800000#32))))))
          (constant (F := Ideal) S0 .f32 0x00000000#32) hred hu)
        (broadcastInDim _ ![] hbV (subf (constant (F := Ideal) S0 .f32 0x47800000#32) (sitofp .f32 (constantI S0 32 0#32)))))
      (broadcastInDim _ ![] hbV (id (constant (F := Ideal) S0 .f32 0x7FC00000#32))) (ix1 c)
      = Net.varP (fun r c => y (ix2 r c)) c := by
  set m : FVec Ideal ⟨2, ![1, H]⟩ .f32 :=
    Host.divf (broadcastInDim (⟨2, ![1, H]⟩ : Shape) ![1] h1 (Host.reduceAdd y (constant (F := Ideal) S0 .f32 0x00000000#32) hred hu))
      (broadcastInDim _ ![] hbR (constant (F := Ideal) S0 .f32 0x47800000#32)) with hm
  have hmc : ∀ c : Fin H, m (ix2 (0 : Fin 1) c) = Net.meanP (fun r c => y (ix2 r c)) c := fun c => by
    rw [hm]; exact meanRow_apply hred h hu h1 hbR y c
  set d : FVec Ideal ⟨2, ![B, H]⟩ .f32 := subf y (broadcastInDim (⟨2, ![B, H]⟩ : Shape) ![0, 1] h2 m) with hd
  have hdv : ∀ (r : Fin B) (c : Fin H), d (ix2 r c) = y (ix2 r c) - Net.meanP (fun r c => y (ix2 r c)) c := fun r c => by
    rw [hd]
    show y (ix2 r c) - broadcastInDim (⟨2, ![B, H]⟩ : Shape) ![0, 1] h2 m (ix2 r c) = _
    rw [row_apply, hmc]
  show Scalar.select (broadcastInDim (⟨1, ![H]⟩ : Shape) ![] hbV
        (cmpf .ogt (subf (constant (F := Ideal) S0 .f32 0x47800000#32) (sitofp .f32 (constantI S0 32 0#32)))
          (constant (F := Ideal) S0 .f32 0x00000000#32)) (ix1 c))
      (Ideal.div (Host.reduceAdd (mulf d d) (constant (F := Ideal) S0 .f32 0x00000000#32) hred hu (ix1 c))
        (broadcastInDim _ ![] hbV (subf (constant (F := Ideal) S0 .f32 0x47800000#32) (sitofp .f32 (constantI S0 32 0#32))) (ix1 c)))
      (broadcastInDim _ ![] hbV (id (constant (F := Ideal) S0 .f32 0x7FC00000#32)) (ix1 c)) = _
  rw [broadcastInDim_scalar_apply, broadcastInDim_scalar_apply, colSum_apply hred h]
  have hsel : cmpf .ogt (subf (constant (F := Ideal) S0 .f32 0x47800000#32) (sitofp .f32 (constantI S0 32 0#32)))
      (constant (F := Ideal) S0 .f32 0x00000000#32) ix0 = 1#1 := by
    show BitVec.ofBool (decide (Net.zero < Net.cnt - FloatOps.sitofp (F := Ideal) .f32 (0#32 : BitVec 32))) = 1#1
    rw [sitofp_zero, decide_eq_true cnt_pos]
    rfl
  rw [hsel, select_one]
  show Ideal.div (Net.zero + ∑ r : Fin B, d (ix2 r c) * d (ix2 r c))
      (Net.cnt - FloatOps.sitofp (F := Ideal) .f32 (0#32 : BitVec 32)) = _
  rw [sitofp_zero]
  simp only [hdv]
  rfl

/-- The normalisation: the scale vector times the deviation from the mean times the reciprocal square root of the
    regularised variance, plus the shift vector. -/
theorem norm_apply (h1 : (⟨1, ![H]⟩ : Shape).BroadcastsInDim (⟨2, ![1, H]⟩ : Shape) ![1])
    (h2 : (⟨2, ![1, H]⟩ : Shape).BroadcastsInDim (⟨2, ![B, H]⟩ : Shape) ![0, 1])
    (hbV : S0.BroadcastsInDim (⟨1, ![H]⟩ : Shape) ![])
    (g be mu va : FVec Ideal ⟨1, ![H]⟩ .f32) (y : FVec Ideal ⟨2, ![B, H]⟩ .f32) (r : Fin B) (c : Fin H) :
    addf (mulf (mulf (broadcastInDim (⟨2, ![B, H]⟩ : Shape) ![0, 1] h2 (broadcastInDim (⟨2, ![1, H]⟩ : Shape) ![1] h1 g))
          (subf y (broadcastInDim (⟨2, ![B, H]⟩ : Shape) ![0, 1] h2 (broadcastInDim (⟨2, ![1, H]⟩ : Shape) ![1] h1 mu))))
        (broadcastInDim (⟨2, ![B, H]⟩ : Shape) ![0, 1] h2 (broadcastInDim (⟨2, ![1, H]⟩ : Shape) ![1] h1
          (Host.rsqrt (addf va (broadcastInDim _ ![] hbV (constant (F := Ideal) S0 .f32 0x3727C5AC#32)))))))
      (broadcastInDim (⟨2, ![B, H]⟩ : Shape) ![0, 1] h2 (broadcastInDim (⟨2, ![1, H]⟩ : Shape) ![1] h1 be)) (ix2 r c)
      = g (ix1 c) * (y (ix2 r c) - mu (ix1 c)) * Ideal.rsqrt (va (ix1 c) + Net.eps) + be (ix1 c) := by
  show broadcastInDim (⟨2, ![B, H]⟩ : Shape) ![0, 1] h2 (broadcastInDim (⟨2, ![1, H]⟩ : Shape) ![1] h1 g) (ix2 r c)
        * (y (ix2 r c) - broadcastInDim (⟨2, ![B, H]⟩ : Shape) ![0, 1] h2 (broadcastInDim (⟨2, ![1, H]⟩ : Shape) ![1] h1 mu) (ix2 r c))
        * broadcastInDim (⟨2, ![B, H]⟩ : Shape) ![0, 1] h2 (broadcastInDim (⟨2, ![1, H]⟩ : Shape) ![1] h1
            (Host.rsqrt (addf va (broadcastInDim _ ![] hbV (constant (F := Ideal) S0 .f32 0x3727C5AC#32))))) (ix2 r c)
      + broadcastInDim (⟨2, ![B, H]⟩ : Shape) ![0, 1] h2 (broadcastInDim (⟨2, ![1, H]⟩ : Shape) ![1] h1 be) (ix2 r c) = _
  rw [rows_apply, rows_apply, rows_apply, rows_apply]
  show g (ix1 c) * (y (ix2 r c) - mu (ix1 c))
      * Ideal.rsqrt (va (ix1 c) + broadcastInDim _ ![] hbV (constant (F := Ideal) S0 .f32 0x3727C5AC#32) (ix1 c)) + be (ix1 c) = _
  rw [broadcastInDim_scalar_apply]
  rfl

/-! ## The linear map: a product contracting the second axis of both operands, plus the bias repeated over the rows -/

section Dense

variable {K : ℕ}

/-- The dimension numbers of the product: both operands contract their second axis, their first axes are the result's. -/
abbrev ddot (wf : DotDims.WF (⟨2, ![B, K]⟩ : Shape) (⟨2, ![H, K]⟩ : Shape) (⟨2, ![B, H]⟩ : Shape) [1] [1] [0] [0] [] []) :
    DotDims (⟨2, ![B, K]⟩ : Shape) (⟨2, ![H, K]⟩ : Shape) (⟨2, ![B, H]⟩ : Shape) where
  lhsContracting := [1]
  rhsContracting := [1]
  lhsNonContracting := [0]
  rhsNonContracting := [0]
  lhsBatch := []
  rhsBatch := []
  wf := wf

variable (wf : DotDims.WF (⟨2, ![B, K]⟩ : Shape) (⟨2, ![H, K]⟩ : Shape) (⟨2, ![B, H]⟩ : Shape) [1] [1] [0] [0] [] [])

theorem lhs0 (i : (⟨2, ![B, H]⟩ : Shape).Idx) (q : (ddot wf).contr.Idx) : ((ddot wf).lhsIdx i q 0).val = (i 0).val := by
  unfold DotDims.lhsIdx
  rw [dif_neg (show ¬(0 : Fin (⟨2, ![B, K]⟩ : Shape).rank) ∈ (ddot wf).lhsBatch from List.not_mem_nil),
    dif_pos (show (0 : Fin (⟨2, ![B, K]⟩ : Shape).rank) ∈ (ddot wf).lhsNonContracting from List.mem_singleton.mpr rfl)]
  rfl

theorem lhs1 (i : (⟨2, ![B, H]⟩ : Shape).Idx) (q : (ddot wf).contr.Idx) :
    ((ddot wf).lhsIdx i q 1).val = (q ⟨0, by rw [DotDims.rank_contr]; exact Nat.one_pos⟩).val :=
  (ddot wf).lhsIdx_val_of_single rfl i q

theorem rhs0 (i : (⟨2, ![B, H]⟩ : Shape).Idx) (q : (ddot wf).contr.Idx) : ((ddot wf).rhsIdx i q 0).val = (i 1).val := by
  unfold DotDims.rhsIdx
  rw [dif_neg (show ¬(0 : Fin (⟨2, ![H, K]⟩ : Shape).rank) ∈ (ddot wf).rhsBatch from List.not_mem_nil),
    dif_pos (show (0 : Fin (⟨2, ![H, K]⟩ : Shape).rank) ∈ (ddot wf).rhsNonContracting from List.mem_singleton.mpr rfl)]
  rfl

theorem rhs1 (i : (⟨2, ![B, H]⟩ : Shape).Idx) (q : (ddot wf).contr.Idx) :
    ((ddot wf).rhsIdx i q 1).val = (q ⟨0, by rw [DotDims.rank_contr]; exact Nat.one_pos⟩).val :=
  (ddot wf).rhsIdx_val_of_single rfl i q

/-- The product at a coordinate is the sum over the contracted coordinate of the products of the operands' entries. -/
theorem dot_apply (x : FVec Ideal ⟨2, ![B, K]⟩ .f32) (w : FVec Ideal ⟨2, ![H, K]⟩ .f32) (r : Fin B) (c : Fin H) :
    Host.dotGeneral (ddot wf) none x w (ix2 r c) = ∑ k : Fin K, x (ix2 r k) * w (ix2 c k) := by
  show FloatOps.dotGeneral (ddot wf) none .single x w (ix2 r c) = _
  rw [Ideal.dotGeneral_apply, ← Equiv.sum_comp (contrEquiv1 (ddot wf) K rfl rfl).symm]
  refine Finset.sum_congr rfl fun k _ => ?_
  have hk := contrEquiv1_symm_val (ddot wf) K rfl rfl k
  have el : (ddot wf).lhsIdx (ix2 r c) ((contrEquiv1 (ddot wf) K rfl rfl).symm k) = ix2 r k := funext fun a => Fin.ext (by
    match a with
    | ⟨0, _⟩ => exact lhs0 wf _ _
    | ⟨1, _⟩ => exact (lhs1 wf _ _).trans hk)
  have er : (ddot wf).rhsIdx (ix2 r c) ((contrEquiv1 (ddot wf) K rfl rfl).symm k) = ix2 c k := funext fun a => Fin.ext (by
    match a with
    | ⟨0, _⟩ => exact rhs0 wf _ _
    | ⟨1, _⟩ => exact (rhs1 wf _ _).trans hk)
  rw [el, er]

/-- The linear map at a coordinate. -/
theorem dense_apply (h1 : (⟨1, ![H]⟩ : Shape).BroadcastsInDim (⟨2, ![1, H]⟩ : Shape) ![1])
    (h2 : (⟨2, ![1, H]⟩ : Shape).BroadcastsInDim (⟨2, ![B, H]⟩ : Shape) ![0, 1])
    (x : FVec Ideal ⟨2, ![B, K]⟩ .f32) (w : FVec Ideal ⟨2, ![H, K]⟩ .f32) (b : FVec Ideal ⟨1, ![H]⟩ .f32) (r : Fin B) (c : Fin H) :
    addf (Host.dotGeneral (ddot wf) none x w)
        (broadcastInDim (⟨2, ![B, H]⟩ : Shape) ![0, 1] h2 (broadcastInDim (⟨2, ![1, H]⟩ : Shape) ![1] h1 b)) (ix2 r c)
      = Net.denseP (fun r k => x (ix2 r k)) (fun c k => w (ix2 c k)) (fun c => b (ix1 c)) r c := by
  show Host.dotGeneral (ddot wf) none x w (ix2 r c)
      + broadcastInDim (⟨2, ![B, H]⟩ : Shape) ![0, 1] h2 (broadcastInDim (⟨2, ![1, H]⟩ : Shape) ![1] h1 b) (ix2 r c) = _
  rw [dot_apply, rows_apply]
  rfl

end Dense

end Cert.ReferenceIdeal.RefRead

end
-- ==== Proof.RefNet.lean ====
/- The reference's three results, read at a coordinate at the extended reals, are the network's plain spelling of the
   argument arrays: stage by stage (quantisation, weight signs, linear map, column mean and variance, normalisation,
   activation), then layer by layer. -/
import proofs.«131146_j57208964383148_1_alg».proof.Proof.RefStages
import proofs.«131146_j57208964383148_1_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRead

/-- A matrix buffer's contents as a function of the two coordinates. -/
abbrev mat {n0 n1 : ℕ} (a : (⟨2, ![n0, n1]⟩ : Shape).Idx → EReal) : Fin n0 → Fin n1 → EReal := fun r c => a (ix2 r c)
/-- A vector buffer's contents as a function of the coordinate. -/
abbrev vec {n : ℕ} (a : (⟨1, ![n]⟩ : Shape).Idx → EReal) : Fin n → EReal := fun c => a (ix1 c)

/-! ## Each stage's array function is the network's stage function of its operands -/

theorem stepN_main_v3 (x_main_arg0 : (⟨S65536x784, .f32⟩ : BufTy).Contents (Elt Ideal)) : st_main_v3 (F := Ideal) x_main_arg0 ix0 = Net.step (Net.supMag (mat x_main_arg0)) := by
  unfold st_main_v3; exact step_apply _ _ x_main_arg0 ix0
theorem quantN_main_v11 (x_main_arg0 : (⟨S65536x784, .f32⟩ : BufTy).Contents (Elt Ideal)) (x_main_v3 : (⟨S_, .f32⟩ : BufTy).Contents (Elt Ideal)) (r : Fin _) (c : Fin _) :
    st_main_v11 (F := Ideal) x_main_arg0 x_main_v3 (ix2 r c) = x_main_arg0 (ix2 r c) + (Net.quantWith Net.loI Net.hiI (x_main_v3 ix0) (x_main_arg0 (ix2 r c)) - x_main_arg0 (ix2 r c)) := by
  unfold st_main_v11; exact quant_apply _ x_main_arg0 x_main_v3 r c
/-- The quantisation of a tensor by its own step. -/
theorem fqN_main_v11 (x_main_arg0 : (⟨S65536x784, .f32⟩ : BufTy).Contents (Elt Ideal)) : mat (st_main_v11 (F := Ideal) x_main_arg0 (st_main_v3 (F := Ideal) x_main_arg0)) = Net.fq (mat x_main_arg0) := by
  funext r c
  show st_main_v11 (F := Ideal) x_main_arg0 (st_main_v3 (F := Ideal) x_main_arg0) (ix2 r c) = _
  rw [quantN_main_v11, stepN_main_v3]
  rfl

/-! ### Layer 1 -/

theorem signsN_main_v17 (x_main_arg1 : (⟨S128x784, .f32⟩ : BufTy).Contents (Elt Ideal)) : mat (st_main_v17 (F := Ideal) x_main_arg1) = Net.signsP (mat x_main_arg1) := by
  funext c k; show st_main_v17 (F := Ideal) x_main_arg1 (ix2 c k) = _; unfold st_main_v17; exact signs_apply _ x_main_arg1 c k
theorem denseN_main_v21 (x_main_v11 : (⟨S65536x784, .f32⟩ : BufTy).Contents (Elt Ideal)) (x_main_v17 : (⟨S128x784, .f32⟩ : BufTy).Contents (Elt Ideal)) (x_main_arg2 : (⟨S128, .f32⟩ : BufTy).Contents (Elt Ideal)) :
    mat (st_main_v21 (F := Ideal) x_main_v11 x_main_v17 x_main_arg2) = Net.denseP (mat x_main_v11) (mat x_main_v17) (vec x_main_arg2) := by
  funext r c; show st_main_v21 (F := Ideal) x_main_v11 x_main_v17 x_main_arg2 (ix2 r c) = _; unfold st_main_v21; exact dense_apply _ _ _ x_main_v11 x_main_v17 x_main_arg2 r c
theorem meanN_main_v24 (x_main_v21 : (⟨S65536x128, .f32⟩ : BufTy).Contents (Elt Ideal)) : vec (st_main_v24 (F := Ideal) x_main_v21) = Net.meanP (mat x_main_v21) := by
  funext c; show st_main_v24 (F := Ideal) x_main_v21 (ix1 c) = _; unfold st_main_v24; exact mean_apply _ (by decide) _ _ x_main_v21 c
theorem varN_main_v25 (x_main_v21 : (⟨S65536x128, .f32⟩ : BufTy).Contents (Elt Ideal)) : vec (st_main_v25 (F := Ideal) x_main_v21) = Net.varP (mat x_main_v21) := by
  funext c; show st_main_v25 (F := Ideal) x_main_v21 (ix1 c) = _; unfold st_main_v25; exact var_apply _ (by decide) _ _ _ _ _ x_main_v21 c
theorem normN_main_v40 (x_main_arg3 : (⟨S128, .f32⟩ : BufTy).Contents (Elt Ideal)) (x_main_v21 : (⟨S65536x128, .f32⟩ : BufTy).Contents (Elt Ideal)) (x_main_v24 : (⟨S128, .f32⟩ : BufTy).Contents (Elt Ideal)) (x_main_v25 : (⟨S128, .f32⟩ : BufTy).Contents (Elt Ideal)) (x_main_arg4 : (⟨S128, .f32⟩ : BufTy).Contents (Elt Ideal)) (r : Fin _) (c : Fin _) :
    st_main_v40 (F := Ideal) x_main_arg3 x_main_v21 x_main_v24 x_main_v25 x_main_arg4 (ix2 r c)
      = x_main_arg3 (ix1 c) * (x_main_v21 (ix2 r c) - x_main_v24 (ix1 c)) * Ideal.rsqrt (x_main_v25 (ix1 c) + Net.eps) + x_main_arg4 (ix1 c) := by
  unfold st_main_v40; exact norm_apply _ _ _ x_main_arg3 x_main_arg4 x_main_v24 x_main_v25 x_main_v21 r c
theorem stepN_main_v44 (x_main_v40 : (⟨S65536x128, .f32⟩ : BufTy).Contents (Elt Ideal)) : st_main_v44 (F := Ideal) x_main_v40 ix0 = Net.step (Net.supMag (mat x_main_v40)) := by
  unfold st_main_v44; exact step_apply _ _ x_main_v40 ix0
theorem quantN_main_v52 (x_main_v40 : (⟨S65536x128, .f32⟩ : BufTy).Contents (Elt Ideal)) (x_main_v44 : (⟨S_, .f32⟩ : BufTy).Contents (Elt Ideal)) (r : Fin _) (c : Fin _) :
    st_main_v52 (F := Ideal) x_main_v40 x_main_v44 (ix2 r c) = x_main_v40 (ix2 r c) + (Net.quantWith Net.loI Net.hiI (x_main_v44 ix0) (x_main_v40 (ix2 r c)) - x_main_v40 (ix2 r c)) := by
  unfold st_main_v52; exact quant_apply _ x_main_v40 x_main_v44 r c
/-- The quantisation of a tensor by its own step. -/
theorem fqN_main_v52 (x_main_v40 : (⟨S65536x128, .f32⟩ : BufTy).Contents (Elt Ideal)) : mat (st_main_v52 (F := Ideal) x_main_v40 (st_main_v44 (F := Ideal) x_main_v40)) = Net.fq (mat x_main_v40) := by
  funext r c
  show st_main_v52 (F := Ideal) x_main_v40 (st_main_v44 (F := Ideal) x_main_v40) (ix2 r c) = _
  rw [quantN_main_v52, stepN_main_v44]
  rfl
theorem actN_main_v53 (x_main_v52 : (⟨S65536x128, .f32⟩ : BufTy).Contents (Elt Ideal)) : mat (st_main_v53 (F := Ideal) x_main_v52) = fun r c => Net.relu (mat x_main_v52 r c) := by
  funext r c; show st_main_v53 (F := Ideal) x_main_v52 (ix2 r c) = _; unfold st_main_v53; exact relu_apply _ x_main_v52 r c
theorem stepN_main_v57 (x_main_v53 : (⟨S65536x128, .f32⟩ : BufTy).Contents (Elt Ideal)) : st_main_v57 (F := Ideal) x_main_v53 ix0 = Net.step (Net.supMag (mat x_main_v53)) := by
  unfold st_main_v57; exact step_apply _ _ x_main_v53 ix0
theorem quantN_main_v65 (x_main_v53 : (⟨S65536x128, .f32⟩ : BufTy).Contents (Elt Ideal)) (x_main_v57 : (⟨S_, .f32⟩ : BufTy).Contents (Elt Ideal)) (r : Fin _) (c : Fin _) :
    st_main_v65 (F := Ideal) x_main_v53 x_main_v57 (ix2 r c) = x_main_v53 (ix2 r c) + (Net.quantWith Net.loI Net.hiI (x_main_v57 ix0) (x_main_v53 (ix2 r c)) - x_main_v53 (ix2 r c)) := by
  unfold st_main_v65; exact quant_apply _ x_main_v53 x_main_v57 r c
/-- The quantisation of a tensor by its own step. -/
theorem fqN_main_v65 (x_main_v53 : (⟨S65536x128, .f32⟩ : BufTy).Contents (Elt Ideal)) : mat (st_main_v65 (F := Ideal) x_main_v53 (st_main_v57 (F := Ideal) x_main_v53)) = Net.fq (mat x_main_v53) := by
  funext r c
  show st_main_v65 (F := Ideal) x_main_v53 (st_main_v57 (F := Ideal) x_main_v53) (ix2 r c) = _
  rw [quantN_main_v65, stepN_main_v57]
  rfl

/-! ### Layer 2 -/

theorem signsN_main_v71 (x_main_arg5 : (⟨S128x128, .f32⟩ : BufTy).Contents (Elt Ideal)) : mat (st_main_v71 (F := Ideal) x_main_arg5) = Net.signsP (mat x_main_arg5) := by
  funext c k; show st_main_v71 (F := Ideal) x_main_arg5 (ix2 c k) = _; unfold st_main_v71; exact signs_apply _ x_main_arg5 c k
theorem denseN_main_v75 (x_main_v65 : (⟨S65536x128, .f32⟩ : BufTy).Contents (Elt Ideal)) (x_main_v71 : (⟨S128x128, .f32⟩ : BufTy).Contents (Elt Ideal)) (x_main_arg6 : (⟨S128, .f32⟩ : BufTy).Contents (Elt Ideal)) :
    mat (st_main_v75 (F := Ideal) x_main_v65 x_main_v71 x_main_arg6) = Net.denseP (mat x_main_v65) (mat x_main_v71) (vec x_main_arg6) := by
  funext r c; show st_main_v75 (F := Ideal) x_main_v65 x_main_v71 x_main_arg6 (ix2 r c) = _; unfold st_main_v75; exact dense_apply _ _ _ x_main_v65 x_main_v71 x_main_arg6 r c
theorem meanN_main_v78 (x_main_v75 : (⟨S65536x128, .f32⟩ : BufTy).Contents (Elt Ideal)) : vec (st_main_v78 (F := Ideal) x_main_v75) = Net.meanP (mat x_main_v75) := by
  funext c; show st_main_v78 (F := Ideal) x_main_v75 (ix1 c) = _; unfold st_main_v78; exact mean_apply _ (by decide) _ _ x_main_v75 c
theorem varN_main_v79 (x_main_v75 : (⟨S65536x128, .f32⟩ : BufTy).Contents (Elt Ideal)) : vec (st_main_v79 (F := Ideal) x_main_v75) = Net.varP (mat x_main_v75) := by
  funext c; show st_main_v79 (F := Ideal) x_main_v75 (ix1 c) = _; unfold st_main_v79; exact var_apply _ (by decide) _ _ _ _ _ x_main_v75 c
theorem normN_main_v94 (x_main_arg7 : (⟨S128, .f32⟩ : BufTy).Contents (Elt Ideal)) (x_main_v75 : (⟨S65536x128, .f32⟩ : BufTy).Contents (Elt Ideal)) (x_main_v78 : (⟨S128, .f32⟩ : BufTy).Contents (Elt Ideal)) (x_main_v79 : (⟨S128, .f32⟩ : BufTy).Contents (Elt Ideal)) (x_main_arg8 : (⟨S128, .f32⟩ : BufTy).Contents (Elt Ideal)) (r : Fin _) (c : Fin _) :
    st_main_v94 (F := Ideal) (st_main_v85 (F := Ideal) x_main_arg7 x_main_v75 x_main_v78) (st_main_v90 (F := Ideal) x_main_v79) x_main_arg8 (ix2 r c)
      = x_main_arg7 (ix1 c) * (x_main_v75 (ix2 r c) - x_main_v78 (ix1 c)) * Ideal.rsqrt (x_main_v79 (ix1 c) + Net.eps) + x_main_arg8 (ix1 c) := by
  unfold st_main_v94 st_main_v85 st_main_v90; exact norm_apply _ _ _ x_main_arg7 x_main_arg8 x_main_v78 x_main_v79 x_main_v75 r c
theorem stepN_main_v98 (x_main_v94 : (⟨S65536x128, .f32⟩ : BufTy).Contents (Elt Ideal)) : st_main_v98 (F := Ideal) x_main_v94 ix0 = Net.step (Net.supMag (mat x_main_v94)) := by
  unfold st_main_v98; exact step_apply _ _ x_main_v94 ix0
theorem quantN_main_v106 (x_main_v94 : (⟨S65536x128, .f32⟩ : BufTy).Contents (Elt Ideal)) (x_main_v98 : (⟨S_, .f32⟩ : BufTy).Contents (Elt Ideal)) (r : Fin _) (c : Fin _) :
    st_main_v106 (F := Ideal) x_main_v94 x_main_v98 (ix2 r c) = x_main_v94 (ix2 r c) + (Net.quantWith Net.loI Net.hiI (x_main_v98 ix0) (x_main_v94 (ix2 r c)) - x_main_v94 (ix2 r c)) := by
  unfold st_main_v106; exact quant_apply _ x_main_v94 x_main_v98 r c
/-- The quantisation of a tensor by its own step. -/
theorem fqN_main_v106 (x_main_v94 : (⟨S65536x128, .f32⟩ : BufTy).Contents (Elt Ideal)) : mat (st_main_v106 (F := Ideal) x_main_v94 (st_main_v98 (F := Ideal) x_main_v94)) = Net.fq (mat x_main_v94) := by
  funext r c
  show st_main_v106 (F := Ideal) x_main_v94 (st_main_v98 (F := Ideal) x_main_v94) (ix2 r c) = _
  rw [quantN_main_v106, stepN_main_v98]
  rfl
theorem actN_main_v107 (x_main_v106 : (⟨S65536x128, .f32⟩ : BufTy).Contents (Elt Ideal)) : mat (st_main_v107 (F := Ideal) x_main_v106) = fun r c => Net.relu (mat x_main_v106 r c) := by
  funext r c; show st_main_v107 (F := Ideal) x_main_v106 (ix2 r c) = _; unfold st_main_v107; exact relu_apply _ x_main_v106 r c
theorem stepN_main_v111 (x_main_v107 : (⟨S65536x128, .f32⟩ : BufTy).Contents (Elt Ideal)) : st_main_v111 (F := Ideal) x_main_v107 ix0 = Net.step (Net.supMag (mat x_main_v107)) := by
  unfold st_main_v111; exact step_apply _ _ x_main_v107 ix0
theorem quantN_main_v119 (x_main_v107 : (⟨S65536x128, .f32⟩ : BufTy).Contents (Elt Ideal)) (x_main_v111 : (⟨S_, .f32⟩ : BufTy).Contents (Elt Ideal)) (r : Fin _) (c : Fin _) :
    st_main_v119 (F := Ideal) x_main_v107 x_main_v111 (ix2 r c) = x_main_v107 (ix2 r c) + (Net.quantWith Net.loI Net.hiI (x_main_v111 ix0) (x_main_v107 (ix2 r c)) - x_main_v107 (ix2 r c)) := by
  unfold st_main_v119; exact quant_apply _ x_main_v107 x_main_v111 r c
/-- The quantisation of a tensor by its own step. -/
theorem fqN_main_v119 (x_main_v107 : (⟨S65536x128, .f32⟩ : BufTy).Contents (Elt Ideal)) : mat (st_main_v119 (F := Ideal) x_main_v107 (st_main_v111 (F := Ideal) x_main_v107)) = Net.fq (mat x_main_v107) := by
  funext r c
  show st_main_v119 (F := Ideal) x_main_v107 (st_main_v111 (F := Ideal) x_main_v107) (ix2 r c) = _
  rw [quantN_main_v119, stepN_main_v111]
  rfl

/-! ### Layer 3 -/

theorem signsN_main_v125 (x_main_arg9 : (⟨S10x128, .f32⟩ : BufTy).Contents (Elt Ideal)) : mat (st_main_v125 (F := Ideal) x_main_arg9) = Net.signsP (mat x_main_arg9) := by
  funext c k; show st_main_v125 (F := Ideal) x_main_arg9 (ix2 c k) = _; unfold st_main_v125; exact signs_apply _ x_main_arg9 c k
theorem denseN_main_v129 (x_main_v119 : (⟨S65536x128, .f32⟩ : BufTy).Contents (Elt Ideal)) (x_main_v125 : (⟨S10x128, .f32⟩ : BufTy).Contents (Elt Ideal)) (x_main_arg10 : (⟨S10, .f32⟩ : BufTy).Contents (Elt Ideal)) :
    mat (st_main_v129 (F := Ideal) x_main_v119 x_main_v125 x_main_arg10) = Net.denseP (mat x_main_v119) (mat x_main_v125) (vec x_main_arg10) := by
  funext r c; show st_main_v129 (F := Ideal) x_main_v119 x_main_v125 x_main_arg10 (ix2 r c) = _; unfold st_main_v129; exact dense_apply _ _ _ x_main_v119 x_main_v125 x_main_arg10 r c
theorem meanN_main_v132 (x_main_v129 : (⟨S65536x10, .f32⟩ : BufTy).Contents (Elt Ideal)) : vec (st_main_v132 (F := Ideal) x_main_v129) = Net.meanP (mat x_main_v129) := by
  funext c; show st_main_v132 (F := Ideal) x_main_v129 (ix1 c) = _; unfold st_main_v132; exact mean_apply _ (by decide) _ _ x_main_v129 c
theorem varN_main_v133 (x_main_v129 : (⟨S65536x10, .f32⟩ : BufTy).Contents (Elt Ideal)) : vec (st_main_v133 (F := Ideal) x_main_v129) = Net.varP (mat x_main_v129) := by
  funext c; show st_main_v133 (F := Ideal) x_main_v129 (ix1 c) = _; unfold st_main_v133; exact var_apply _ (by decide) _ _ _ _ _ x_main_v129 c
theorem normN_main_v148 (x_main_arg11 : (⟨S10, .f32⟩ : BufTy).Contents (Elt Ideal)) (x_main_v129 : (⟨S65536x10, .f32⟩ : BufTy).Contents (Elt Ideal)) (x_main_v132 : (⟨S10, .f32⟩ : BufTy).Contents (Elt Ideal)) (x_main_v133 : (⟨S10, .f32⟩ : BufTy).Contents (Elt Ideal)) (x_main_arg12 : (⟨S10, .f32⟩ : BufTy).Contents (Elt Ideal)) (r : Fin _) (c : Fin _) :
    st_main_v148 (F := Ideal) x_main_arg11 x_main_v129 (st_main_v134 (F := Ideal) x_main_v132) x_main_v133 x_main_arg12 (ix2 r c)
      = x_main_arg11 (ix1 c) * (x_main_v129 (ix2 r c) - x_main_v132 (ix1 c)) * Ideal.rsqrt (x_main_v133 (ix1 c) + Net.eps) + x_main_arg12 (ix1 c) := by
  unfold st_main_v148 st_main_v134; exact norm_apply _ _ _ x_main_arg11 x_main_arg12 x_main_v132 x_main_v133 x_main_v129 r c
theorem stepN_main_v152 (x_main_v148 : (⟨S65536x10, .f32⟩ : BufTy).Contents (Elt Ideal)) : st_main_v152 (F := Ideal) x_main_v148 ix0 = Net.step (Net.supMag (mat x_main_v148)) := by
  unfold st_main_v152; exact step_apply _ _ x_main_v148 ix0
theorem quantN_main_v160 (x_main_v148 : (⟨S65536x10, .f32⟩ : BufTy).Contents (Elt Ideal)) (x_main_v152 : (⟨S_, .f32⟩ : BufTy).Contents (Elt Ideal)) (r : Fin _) (c : Fin _) :
    st_main_v160 (F := Ideal) x_main_v148 x_main_v152 (ix2 r c) = x_main_v148 (ix2 r c) + (Net.quantWith Net.loI Net.hiI (x_main_v152 ix0) (x_main_v148 (ix2 r c)) - x_main_v148 (ix2 r c)) := by
  unfold st_main_v160; exact quant_apply _ x_main_v148 x_main_v152 r c
/-- The quantisation of a tensor by its own step. -/
theorem fqN_main_v160 (x_main_v148 : (⟨S65536x10, .f32⟩ : BufTy).Contents (Elt Ideal)) : mat (st_main_v160 (F := Ideal) x_main_v148 (st_main_v152 (F := Ideal) x_main_v148)) = Net.fq (mat x_main_v148) := by
  funext r c
  show st_main_v160 (F := Ideal) x_main_v148 (st_main_v152 (F := Ideal) x_main_v148) (ix2 r c) = _
  rw [quantN_main_v160, stepN_main_v152]
  rfl
theorem actN_main_v166 (x_main_v160 : (⟨S65536x10, .f32⟩ : BufTy).Contents (Elt Ideal)) : mat (st_main_v166 (F := Ideal) x_main_v160) = fun r c => Ideal.logistic (mat x_main_v160 r c) := by
  funext r c; show st_main_v166 (F := Ideal) x_main_v160 (ix2 r c) = _; unfold st_main_v166; exact logistic_apply _ x_main_v160 r c
theorem stepN_main_v170 (x_main_v166 : (⟨S65536x10, .f32⟩ : BufTy).Contents (Elt Ideal)) : st_main_v170 (F := Ideal) x_main_v166 ix0 = Net.step (Net.supMag (mat x_main_v166)) := by
  unfold st_main_v170; exact step_apply _ _ x_main_v166 ix0
theorem quantN_main_v178 (x_main_v166 : (⟨S65536x10, .f32⟩ : BufTy).Contents (Elt Ideal)) (x_main_v170 : (⟨S_, .f32⟩ : BufTy).Contents (Elt Ideal)) (r : Fin _) (c : Fin _) :
    st_main_v178 (F := Ideal) x_main_v166 x_main_v170 (ix2 r c) = x_main_v166 (ix2 r c) + (Net.quantWith Net.loI Net.hiI (x_main_v170 ix0) (x_main_v166 (ix2 r c)) - x_main_v166 (ix2 r c)) := by
  unfold st_main_v178; exact quant_apply _ x_main_v166 x_main_v170 r c
/-- The quantisation of a tensor by its own step. -/
theorem fqN_main_v178 (x_main_v166 : (⟨S65536x10, .f32⟩ : BufTy).Contents (Elt Ideal)) : mat (st_main_v178 (F := Ideal) x_main_v166 (st_main_v170 (F := Ideal) x_main_v166)) = Net.fq (mat x_main_v166) := by
  funext r c
  show st_main_v178 (F := Ideal) x_main_v166 (st_main_v170 (F := Ideal) x_main_v166) (ix2 r c) = _
  rw [quantN_main_v178, stepN_main_v170]
  rfl

/-! ## The run's buffers, from the argument arrays -/

variable (V0 : Valuation τ sig (Elt Ideal))

theorem N_main_v11 : mat (T_main_v11 V0) = Net.fq (mat (V0 (Proc.devRef .tc main_arg0) : (⟨S65536x784, .f32⟩ : BufTy).Contents (Elt Ideal))) := by
  unfold T_main_v11 T_main_v3; exact fqN_main_v11 _
theorem N_main_v17 : mat (T_main_v17 V0) = Net.signsP (mat (V0 (Proc.devRef .tc main_arg1) : (⟨S128x784, .f32⟩ : BufTy).Contents (Elt Ideal))) := by
  unfold T_main_v17; exact signsN_main_v17 _
theorem N_main_v21 : mat (T_main_v21 V0) = Net.denseP (Net.fq (mat (V0 (Proc.devRef .tc main_arg0) : (⟨S65536x784, .f32⟩ : BufTy).Contents (Elt Ideal)))) (Net.signsP (mat (V0 (Proc.devRef .tc main_arg1) : (⟨S128x784, .f32⟩ : BufTy).Contents (Elt Ideal)))) (vec (V0 (Proc.devRef .tc main_arg2) : (⟨S128, .f32⟩ : BufTy).Contents (Elt Ideal))) := by
  unfold T_main_v21; rw [denseN_main_v21, N_main_v11, N_main_v17]
theorem N_main_v24 : vec (T_main_v24 V0) = Net.meanP (Net.denseP (Net.fq (mat (V0 (Proc.devRef .tc main_arg0) : (⟨S65536x784, .f32⟩ : BufTy).Contents (Elt Ideal)))) (Net.signsP (mat (V0 (Proc.devRef .tc main_arg1) : (⟨S128x784, .f32⟩ : BufTy).Contents (Elt Ideal)))) (vec (V0 (Proc.devRef .tc main_arg2) : (⟨S128, .f32⟩ : BufTy).Contents (Elt Ideal)))) := by
  unfold T_main_v24; rw [meanN_main_v24, N_main_v21]
theorem N_main_v25 : vec (T_main_v25 V0) = Net.varP (Net.denseP (Net.fq (mat (V0 (Proc.devRef .tc main_arg0) : (⟨S65536x784, .f32⟩ : BufTy).Contents (Elt Ideal)))) (Net.signsP (mat (V0 (Proc.devRef .tc main_arg1) : (⟨S128x784, .f32⟩ : BufTy).Contents (Elt Ideal)))) (vec (V0 (Proc.devRef .tc main_arg2) : (⟨S128, .f32⟩ : BufTy).Contents (Elt Ideal)))) := by
  unfold T_main_v25; rw [varN_main_v25, N_main_v21]
theorem N_main_v40 : mat (T_main_v40 V0) = Net.normP (Net.denseP (Net.fq (mat (V0 (Proc.devRef .tc main_arg0) : (⟨S65536x784, .f32⟩ : BufTy).Contents (Elt Ideal)))) (Net.signsP (mat (V0 (Proc.devRef .tc main_arg1) : (⟨S128x784, .f32⟩ : BufTy).Contents (Elt Ideal)))) (vec (V0 (Proc.devRef .tc main_arg2) : (⟨S128, .f32⟩ : BufTy).Contents (Elt Ideal)))) (vec (V0 (Proc.devRef .tc main_arg3) : (⟨S128, .f32⟩ : BufTy).Contents (Elt Ideal))) (vec (V0 (Proc.devRef .tc main_arg4) : (⟨S128, .f32⟩ : BufTy).Contents (Elt Ideal))) := by
  funext r c
  have hd := congrFun (congrFun (N_main_v21 V0) r) c
  have hm := congrFun (N_main_v24 V0) c
  have hv := congrFun (N_main_v25 V0) c
  show T_main_v40 V0 (ix2 r c) = _
  unfold T_main_v40
  rw [normN_main_v40]
  show _ * (mat (T_main_v21 V0) r c - vec (T_main_v24 V0) c) * Ideal.rsqrt (vec (T_main_v25 V0) c + Net.eps) + _ = _
  rw [hd, hm, hv]
  rfl
theorem N_main_v52 : mat (T_main_v52 V0) = Net.fq (Net.normP (Net.denseP (Net.fq (mat (V0 (Proc.devRef .tc main_arg0) : (⟨S65536x784, .f32⟩ : BufTy).Contents (Elt Ideal)))) (Net.signsP (mat (V0 (Proc.devRef .tc main_arg1) : (⟨S128x784, .f32⟩ : BufTy).Contents (Elt Ideal)))) (vec (V0 (Proc.devRef .tc main_arg2) : (⟨S128, .f32⟩ : BufTy).Contents (Elt Ideal)))) (vec (V0 (Proc.devRef .tc main_arg3) : (⟨S128, .f32⟩ : BufTy).Contents (Elt Ideal))) (vec (V0 (Proc.devRef .tc main_arg4) : (⟨S128, .f32⟩ : BufTy).Contents (Elt Ideal)))) := by
  unfold T_main_v52 T_main_v44; rw [fqN_main_v52, N_main_v40]
theorem N_main_v53 : mat (T_main_v53 V0) = fun r c => Net.relu (Net.fq (Net.normP (Net.denseP (Net.fq (mat (V0 (Proc.devRef .tc main_arg0) : (⟨S65536x784, .f32⟩ : BufTy).Contents (Elt Ideal)))) (Net.signsP (mat (V0 (Proc.devRef .tc main_arg1) : (⟨S128x784, .f32⟩ : BufTy).Contents (Elt Ideal)))) (vec (V0 (Proc.devRef .tc main_arg2) : (⟨S128, .f32⟩ : BufTy).Contents (Elt Ideal)))) (vec (V0 (Proc.devRef .tc main_arg3) : (⟨S128, .f32⟩ : BufTy).Contents (Elt Ideal))) (vec (V0 (Proc.devRef .tc main_arg4) : (⟨S128, .f32⟩ : BufTy).Contents (Elt Ideal)))) r c) := by
  unfold T_main_v53; rw [actN_main_v53, N_main_v52]
/-- Layer 1's result. -/
theorem N_main_v65 : mat (T_main_v65 V0) = Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal))) := by
  unfold T_main_v65 T_main_v57; rw [fqN_main_v65, N_main_v53]
  rfl
theorem N_main_v71 : mat (T_main_v71 V0) = Net.signsP (mat (V0 (Proc.devRef .tc main_arg5) : (⟨S128x128, .f32⟩ : BufTy).Contents (Elt Ideal))) := by
  unfold T_main_v71; exact signsN_main_v71 _
theorem N_main_v75 : mat (T_main_v75 V0) = Net.denseP (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (Net.signsP (mat (V0 (Proc.devRef .tc main_arg5) : (⟨S128x128, .f32⟩ : BufTy).Contents (Elt Ideal)))) (vec (V0 (Proc.devRef .tc main_arg6) : (⟨S128, .f32⟩ : BufTy).Contents (Elt Ideal))) := by
  unfold T_main_v75; rw [denseN_main_v75, N_main_v65, N_main_v71]
theorem N_main_v78 : vec (T_main_v78 V0) = Net.meanP (Net.denseP (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (Net.signsP (mat (V0 (Proc.devRef .tc main_arg5) : (⟨S128x128, .f32⟩ : BufTy).Contents (Elt Ideal)))) (vec (V0 (Proc.devRef .tc main_arg6) : (⟨S128, .f32⟩ : BufTy).Contents (Elt Ideal)))) := by
  unfold T_main_v78; rw [meanN_main_v78, N_main_v75]
theorem N_main_v79 : vec (T_main_v79 V0) = Net.varP (Net.denseP (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (Net.signsP (mat (V0 (Proc.devRef .tc main_arg5) : (⟨S128x128, .f32⟩ : BufTy).Contents (Elt Ideal)))) (vec (V0 (Proc.devRef .tc main_arg6) : (⟨S128, .f32⟩ : BufTy).Contents (Elt Ideal)))) := by
  unfold T_main_v79; rw [varN_main_v79, N_main_v75]
theorem N_main_v94 : mat (T_main_v94 V0) = Net.normP (Net.denseP (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (Net.signsP (mat (V0 (Proc.devRef .tc main_arg5) : (⟨S128x128, .f32⟩ : BufTy).Contents (Elt Ideal)))) (vec (V0 (Proc.devRef .tc main_arg6) : (⟨S128, .f32⟩ : BufTy).Contents (Elt Ideal)))) (vec (V0 (Proc.devRef .tc main_arg7) : (⟨S128, .f32⟩ : BufTy).Contents (Elt Ideal))) (vec (V0 (Proc.devRef .tc main_arg8) : (⟨S128, .f32⟩ : BufTy).Contents (Elt Ideal))) := by
  funext r c
  have hd := congrFun (congrFun (N_main_v75 V0) r) c
  have hm := congrFun (N_main_v78 V0) c
  have hv := congrFun (N_main_v79 V0) c
  show T_main_v94 V0 (ix2 r c) = _
  unfold T_main_v94 T_main_v85 T_main_v90
  rw [normN_main_v94]
  show _ * (mat (T_main_v75 V0) r c - vec (T_main_v78 V0) c) * Ideal.rsqrt (vec (T_main_v79 V0) c + Net.eps) + _ = _
  rw [hd, hm, hv]
  rfl
theorem N_main_v106 : mat (T_main_v106 V0) = Net.fq (Net.normP (Net.denseP (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (Net.signsP (mat (V0 (Proc.devRef .tc main_arg5) : (⟨S128x128, .f32⟩ : BufTy).Contents (Elt Ideal)))) (vec (V0 (Proc.devRef .tc main_arg6) : (⟨S128, .f32⟩ : BufTy).Contents (Elt Ideal)))) (vec (V0 (Proc.devRef .tc main_arg7) : (⟨S128, .f32⟩ : BufTy).Contents (Elt Ideal))) (vec (V0 (Proc.devRef .tc main_arg8) : (⟨S128, .f32⟩ : BufTy).Contents (Elt Ideal)))) := by
  unfold T_main_v106 T_main_v98; rw [fqN_main_v106, N_main_v94]
theorem N_main_v107 : mat (T_main_v107 V0) = fun r c => Net.relu (Net.fq (Net.normP (Net.denseP (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (Net.signsP (mat (V0 (Proc.devRef .tc main_arg5) : (⟨S128x128, .f32⟩ : BufTy).Contents (Elt Ideal)))) (vec (V0 (Proc.devRef .tc main_arg6) : (⟨S128, .f32⟩ : BufTy).Contents (Elt Ideal)))) (vec (V0 (Proc.devRef .tc main_arg7) : (⟨S128, .f32⟩ : BufTy).Contents (Elt Ideal))) (vec (V0 (Proc.devRef .tc main_arg8) : (⟨S128, .f32⟩ : BufTy).Contents (Elt Ideal)))) r c) := by
  unfold T_main_v107; rw [actN_main_v107, N_main_v106]
/-- Layer 2's result. -/
theorem N_main_v119 : mat (T_main_v119 V0) = Net.layerP Net.relu (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal))) := by
  unfold T_main_v119 T_main_v111; rw [fqN_main_v119, N_main_v107]
  rfl
theorem N_main_v125 : mat (T_main_v125 V0) = Net.signsP (mat (V0 (Proc.devRef .tc main_arg9) : (⟨S10x128, .f32⟩ : BufTy).Contents (Elt Ideal))) := by
  unfold T_main_v125; exact signsN_main_v125 _
theorem N_main_v129 : mat (T_main_v129 V0) = Net.denseP (Net.layerP Net.relu (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal)))) (Net.signsP (mat (V0 (Proc.devRef .tc main_arg9) : (⟨S10x128, .f32⟩ : BufTy).Contents (Elt Ideal)))) (vec (V0 (Proc.devRef .tc main_arg10) : (⟨S10, .f32⟩ : BufTy).Contents (Elt Ideal))) := by
  unfold T_main_v129; rw [denseN_main_v129, N_main_v119, N_main_v125]
theorem N_main_v132 : vec (T_main_v132 V0) = Net.meanP (Net.denseP (Net.layerP Net.relu (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal)))) (Net.signsP (mat (V0 (Proc.devRef .tc main_arg9) : (⟨S10x128, .f32⟩ : BufTy).Contents (Elt Ideal)))) (vec (V0 (Proc.devRef .tc main_arg10) : (⟨S10, .f32⟩ : BufTy).Contents (Elt Ideal)))) := by
  unfold T_main_v132; rw [meanN_main_v132, N_main_v129]
theorem N_main_v133 : vec (T_main_v133 V0) = Net.varP (Net.denseP (Net.layerP Net.relu (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal)))) (Net.signsP (mat (V0 (Proc.devRef .tc main_arg9) : (⟨S10x128, .f32⟩ : BufTy).Contents (Elt Ideal)))) (vec (V0 (Proc.devRef .tc main_arg10) : (⟨S10, .f32⟩ : BufTy).Contents (Elt Ideal)))) := by
  unfold T_main_v133; rw [varN_main_v133, N_main_v129]
theorem N_main_v148 : mat (T_main_v148 V0) = Net.normP (Net.denseP (Net.layerP Net.relu (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal)))) (Net.signsP (mat (V0 (Proc.devRef .tc main_arg9) : (⟨S10x128, .f32⟩ : BufTy).Contents (Elt Ideal)))) (vec (V0 (Proc.devRef .tc main_arg10) : (⟨S10, .f32⟩ : BufTy).Contents (Elt Ideal)))) (vec (V0 (Proc.devRef .tc main_arg11) : (⟨S10, .f32⟩ : BufTy).Contents (Elt Ideal))) (vec (V0 (Proc.devRef .tc main_arg12) : (⟨S10, .f32⟩ : BufTy).Contents (Elt Ideal))) := by
  funext r c
  have hd := congrFun (congrFun (N_main_v129 V0) r) c
  have hm := congrFun (N_main_v132 V0) c
  have hv := congrFun (N_main_v133 V0) c
  show T_main_v148 V0 (ix2 r c) = _
  unfold T_main_v148 T_main_v134
  rw [normN_main_v148]
  show _ * (mat (T_main_v129 V0) r c - vec (T_main_v132 V0) c) * Ideal.rsqrt (vec (T_main_v133 V0) c + Net.eps) + _ = _
  rw [hd, hm, hv]
  rfl
theorem N_main_v160 : mat (T_main_v160 V0) = Net.fq (Net.normP (Net.denseP (Net.layerP Net.relu (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal)))) (Net.signsP (mat (V0 (Proc.devRef .tc main_arg9) : (⟨S10x128, .f32⟩ : BufTy).Contents (Elt Ideal)))) (vec (V0 (Proc.devRef .tc main_arg10) : (⟨S10, .f32⟩ : BufTy).Contents (Elt Ideal)))) (vec (V0 (Proc.devRef .tc main_arg11) : (⟨S10, .f32⟩ : BufTy).Contents (Elt Ideal))) (vec (V0 (Proc.devRef .tc main_arg12) : (⟨S10, .f32⟩ : BufTy).Contents (Elt Ideal)))) := by
  unfold T_main_v160 T_main_v152; rw [fqN_main_v160, N_main_v148]
theorem N_main_v166 : mat (T_main_v166 V0) = fun r c => Ideal.logistic (Net.fq (Net.normP (Net.denseP (Net.layerP Net.relu (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal)))) (Net.signsP (mat (V0 (Proc.devRef .tc main_arg9) : (⟨S10x128, .f32⟩ : BufTy).Contents (Elt Ideal)))) (vec (V0 (Proc.devRef .tc main_arg10) : (⟨S10, .f32⟩ : BufTy).Contents (Elt Ideal)))) (vec (V0 (Proc.devRef .tc main_arg11) : (⟨S10, .f32⟩ : BufTy).Contents (Elt Ideal))) (vec (V0 (Proc.devRef .tc main_arg12) : (⟨S10, .f32⟩ : BufTy).Contents (Elt Ideal)))) r c) := by
  unfold T_main_v166; rw [actN_main_v166, N_main_v160]
/-- Layer 3's result. -/
theorem N_main_v178 : mat (T_main_v178 V0) = Net.layerP Ideal.logistic (Net.layerP Net.relu (Net.layerP Net.relu (Net.fq (mat (V0 (Proc.devRef .tc main_arg0) : (⟨S65536x784, .f32⟩ : BufTy).Contents (Elt Ideal)))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal)))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal)))) (mat (V0 (Proc.devRef .tc main_arg9) : (⟨S10x128, .f32⟩ : BufTy).Contents (Elt Ideal))) (vec (V0 (Proc.devRef .tc main_arg10) : (⟨S10, .f32⟩ : BufTy).Contents (Elt Ideal))) (vec (V0 (Proc.devRef .tc main_arg11) : (⟨S10, .f32⟩ : BufTy).Contents (Elt Ideal))) (vec (V0 (Proc.devRef .tc main_arg12) : (⟨S10, .f32⟩ : BufTy).Contents (Elt Ideal))) := by
  unfold T_main_v178 T_main_v170; rw [fqN_main_v178, N_main_v166]
  rfl

/-! ## The three results -/

/-- The result main_v65 at a coordinate is the network's, of the argument arrays' entries. -/
theorem result_main_v65 (r : Fin 65536) (c : Fin 128) :
    after ops V0 (Proc.devRef .tc main_v65) (ix2 r c) = (Net.netP (mat (V0 (Proc.devRef .tc main_arg0) : (⟨S65536x784, .f32⟩ : BufTy).Contents (Elt Ideal))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal))) (mat (V0 (Proc.devRef .tc main_arg9) : (⟨S10x128, .f32⟩ : BufTy).Contents (Elt Ideal))) (vec (V0 (Proc.devRef .tc main_arg10) : (⟨S10, .f32⟩ : BufTy).Contents (Elt Ideal))) (vec (V0 (Proc.devRef .tc main_arg11) : (⟨S10, .f32⟩ : BufTy).Contents (Elt Ideal))) (vec (V0 (Proc.devRef .tc main_arg12) : (⟨S10, .f32⟩ : BufTy).Contents (Elt Ideal)))).1 r c := by
  rw [after_ops_main_v65]
  show mat (T_main_v65 V0) r c = _
  rw [N_main_v65]
  rfl
/-- The result main_v119 at a coordinate is the network's, of the argument arrays' entries. -/
theorem result_main_v119 (r : Fin 65536) (c : Fin 128) :
    after ops V0 (Proc.devRef .tc main_v119) (ix2 r c) = (Net.netP (mat (V0 (Proc.devRef .tc main_arg0) : (⟨S65536x784, .f32⟩ : BufTy).Contents (Elt Ideal))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal))) (mat (V0 (Proc.devRef .tc main_arg9) : (⟨S10x128, .f32⟩ : BufTy).Contents (Elt Ideal))) (vec (V0 (Proc.devRef .tc main_arg10) : (⟨S10, .f32⟩ : BufTy).Contents (Elt Ideal))) (vec (V0 (Proc.devRef .tc main_arg11) : (⟨S10, .f32⟩ : BufTy).Contents (Elt Ideal))) (vec (V0 (Proc.devRef .tc main_arg12) : (⟨S10, .f32⟩ : BufTy).Contents (Elt Ideal)))).2.1 r c := by
  rw [after_ops_main_v119]
  show mat (T_main_v119 V0) r c = _
  rw [N_main_v119]
  rfl
/-- The result main_v178 at a coordinate is the network's, of the argument arrays' entries. -/
theorem result_main_v178 (r : Fin 65536) (c : Fin 10) :
    after ops V0 (Proc.devRef .tc main_v178) (ix2 r c) = (Net.netP (mat (V0 (Proc.devRef .tc main_arg0) : (⟨S65536x784, .f32⟩ : BufTy).Contents (Elt Ideal))) (mat (V0 (Proc.devRef .tc main_arg1) : (⟨S128x784, .f32⟩ : BufTy).Contents (Elt Ideal))) (vec (V0 (Proc.devRef .tc main_arg2) : (⟨S128, .f32⟩ : BufTy).Contents (Elt Ideal))) (vec (V0 (Proc.devRef .tc main_arg3) : (⟨S128, .f32⟩ : BufTy).Contents (Elt Ideal))) (vec (V0 (Proc.devRef .tc main_arg4) : (⟨S128, .f32⟩ : BufTy).Contents (Elt Ideal))) (mat (V0 (Proc.devRef .tc main_arg5) : (⟨S128x128, .f32⟩ : BufTy).Contents (Elt Ideal))) (vec (V0 (Proc.devRef .tc main_arg6) : (⟨S128, .f32⟩ : BufTy).Contents (Elt Ideal))) (vec (V0 (Proc.devRef .tc main_arg7) : (⟨S128, .f32⟩ : BufTy).Contents (Elt Ideal))) (vec (V0 (Proc.devRef .tc main_arg8) : (⟨S128, .f32⟩ : BufTy).Contents (Elt Ideal))) (mat (V0 (Proc.devRef .tc main_arg9) : (⟨S10x128, .f32⟩ : BufTy).Contents (Elt Ideal))) (vec (V0 (Proc.devRef .tc main_arg10) : (⟨S10, .f32⟩ : BufTy).Contents (Elt Ideal))) (vec (V0 (Proc.devRef .tc main_arg11) : (⟨S10, .f32⟩ : BufTy).Contents (Elt Ideal))) (vec (V0 (Proc.devRef .tc main_arg12) : (⟨S10, .f32⟩ : BufTy).Contents (Elt Ideal)))).2.2 r c := by
  rw [after_ops_main_v178]
  show mat (T_main_v178 V0) r c = _
  rw [N_main_v178]
  rfl

/-- The same from a launch memory, on device d: the result main_v65 at a coordinate. -/
theorem result_at_main_v65 (m : (ℓ : Loc nD τ sig) → Buf (Elt Ideal) ℓ) (d : Dev nD) (r : Fin 65536) (c : Fin 128) :
    after ops (launchContents m d) (Proc.devRef .tc main_v65) (ix2 r c)
      = (Net.netP (fun (r : Fin 65536) (k : Fin 784) => m ((d.tc : Thread nD τ).loc main_arg0) (ix2 r k))
        (fun (r : Fin 128) (k : Fin 784) => m ((d.tc : Thread nD τ).loc main_arg1) (ix2 r k))
        (fun (c : Fin 128) => m ((d.tc : Thread nD τ).loc main_arg2) (ix1 c))
        (fun (c : Fin 128) => m ((d.tc : Thread nD τ).loc main_arg3) (ix1 c))
        (fun (c : Fin 128) => m ((d.tc : Thread nD τ).loc main_arg4) (ix1 c))
        (fun (r : Fin 128) (k : Fin 128) => m ((d.tc : Thread nD τ).loc main_arg5) (ix2 r k))
        (fun (c : Fin 128) => m ((d.tc : Thread nD τ).loc main_arg6) (ix1 c))
        (fun (c : Fin 128) => m ((d.tc : Thread nD τ).loc main_arg7) (ix1 c))
        (fun (c : Fin 128) => m ((d.tc : Thread nD τ).loc main_arg8) (ix1 c))
        (fun (r : Fin 10) (k : Fin 128) => m ((d.tc : Thread nD τ).loc main_arg9) (ix2 r k))
        (fun (c : Fin 10) => m ((d.tc : Thread nD τ).loc main_arg10) (ix1 c))
        (fun (c : Fin 10) => m ((d.tc : Thread nD τ).loc main_arg11) (ix1 c))
        (fun (c : Fin 10) => m ((d.tc : Thread nD τ).loc main_arg12) (ix1 c))).1 r c :=
  result_main_v65 (launchContents m d) r c
/-- The same from a launch memory, on device d: the result main_v119 at a coordinate. -/
theorem result_at_main_v119 (m : (ℓ : Loc nD τ sig) → Buf (Elt Ideal) ℓ) (d : Dev nD) (r : Fin 65536) (c : Fin 128) :
    after ops (launchContents m d) (Proc.devRef .tc main_v119) (ix2 r c)
      = (Net.netP (fun (r : Fin 65536) (k : Fin 784) => m ((d.tc : Thread nD τ).loc main_arg0) (ix2 r k))
        (fun (r : Fin 128) (k : Fin 784) => m ((d.tc : Thread nD τ).loc main_arg1) (ix2 r k))
        (fun (c : Fin 128) => m ((d.tc : Thread nD τ).loc main_arg2) (ix1 c))
        (fun (c : Fin 128) => m ((d.tc : Thread nD τ).loc main_arg3) (ix1 c))
        (fun (c : Fin 128) => m ((d.tc : Thread nD τ).loc main_arg4) (ix1 c))
        (fun (r : Fin 128) (k : Fin 128) => m ((d.tc : Thread nD τ).loc main_arg5) (ix2 r k))
        (fun (c : Fin 128) => m ((d.tc : Thread nD τ).loc main_arg6) (ix1 c))
        (fun (c : Fin 128) => m ((d.tc : Thread nD τ).loc main_arg7) (ix1 c))
        (fun (c : Fin 128) => m ((d.tc : Thread nD τ).loc main_arg8) (ix1 c))
        (fun (r : Fin 10) (k : Fin 128) => m ((d.tc : Thread nD τ).loc main_arg9) (ix2 r k))
        (fun (c : Fin 10) => m ((d.tc : Thread nD τ).loc main_arg10) (ix1 c))
        (fun (c : Fin 10) => m ((d.tc : Thread nD τ).loc main_arg11) (ix1 c))
        (fun (c : Fin 10) => m ((d.tc : Thread nD τ).loc main_arg12) (ix1 c))).2.1 r c :=
  result_main_v119 (launchContents m d) r c
/-- The same from a launch memory, on device d: the result main_v178 at a coordinate. -/
theorem result_at_main_v178 (m : (ℓ : Loc nD τ sig) → Buf (Elt Ideal) ℓ) (d : Dev nD) (r : Fin 65536) (c : Fin 10) :
    after ops (launchContents m d) (Proc.devRef .tc main_v178) (ix2 r c)
      = (Net.netP (fun (r : Fin 65536) (k : Fin 784) => m ((d.tc : Thread nD τ).loc main_arg0) (ix2 r k))
        (fun (r : Fin 128) (k : Fin 784) => m ((d.tc : Thread nD τ).loc main_arg1) (ix2 r k))
        (fun (c : Fin 128) => m ((d.tc : Thread nD τ).loc main_arg2) (ix1 c))
        (fun (c : Fin 128) => m ((d.tc : Thread nD τ).loc main_arg3) (ix1 c))
        (fun (c : Fin 128) => m ((d.tc : Thread nD τ).loc main_arg4) (ix1 c))
        (fun (r : Fin 128) (k : Fin 128) => m ((d.tc : Thread nD τ).loc main_arg5) (ix2 r k))
        (fun (c : Fin 128) => m ((d.tc : Thread nD τ).loc main_arg6) (ix1 c))
        (fun (c : Fin 128) => m ((d.tc : Thread nD τ).loc main_arg7) (ix1 c))
        (fun (c : Fin 128) => m ((d.tc : Thread nD τ).loc main_arg8) (ix1 c))
        (fun (r : Fin 10) (k : Fin 128) => m ((d.tc : Thread nD τ).loc main_arg9) (ix2 r k))
        (fun (c : Fin 10) => m ((d.tc : Thread nD τ).loc main_arg10) (ix1 c))
        (fun (c : Fin 10) => m ((d.tc : Thread nD τ).loc main_arg11) (ix1 c))
        (fun (c : Fin 10) => m ((d.tc : Thread nD τ).loc main_arg12) (ix1 c))).2.2 r c :=
  result_main_v178 (launchContents m d) r c

end Cert.ReferenceIdeal.RefRun

namespace Cert.ReferenceIdeal.RefRead

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRun

/-- The argument array main_arg0 of a valuation, as a function of its coordinates. -/
abbrev rX (V0 : Valuation τ sig (Elt Ideal)) : Fin 65536 → Fin 784 → EReal := fun r k => (V0 (Proc.devRef .tc main_arg0) : S65536x784.Idx → EReal) (ix2 r k)
/-- The argument array main_arg1 of a valuation, as a function of its coordinates. -/
abbrev rW1 (V0 : Valuation τ sig (Elt Ideal)) : Fin 128 → Fin 784 → EReal := fun r k => (V0 (Proc.devRef .tc main_arg1) : S128x784.Idx → EReal) (ix2 r k)
/-- The argument array main_arg2 of a valuation, as a function of its coordinates. -/
abbrev rb1 (V0 : Valuation τ sig (Elt Ideal)) : Fin 128 → EReal := fun j => (V0 (Proc.devRef .tc main_arg2) : S128.Idx → EReal) (ix1 j)
/-- The argument array main_arg3 of a valuation, as a function of its coordinates. -/
abbrev rg1 (V0 : Valuation τ sig (Elt Ideal)) : Fin 128 → EReal := fun j => (V0 (Proc.devRef .tc main_arg3) : S128.Idx → EReal) (ix1 j)
/-- The argument array main_arg4 of a valuation, as a function of its coordinates. -/
abbrev rbe1 (V0 : Valuation τ sig (Elt Ideal)) : Fin 128 → EReal := fun j => (V0 (Proc.devRef .tc main_arg4) : S128.Idx → EReal) (ix1 j)
/-- The argument array main_arg5 of a valuation, as a function of its coordinates. -/
abbrev rW2 (V0 : Valuation τ sig (Elt Ideal)) : Fin 128 → Fin 128 → EReal := fun r k => (V0 (Proc.devRef .tc main_arg5) : S128x128.Idx → EReal) (ix2 r k)
/-- The argument array main_arg6 of a valuation, as a function of its coordinates. -/
abbrev rb2 (V0 : Valuation τ sig (Elt Ideal)) : Fin 128 → EReal := fun j => (V0 (Proc.devRef .tc main_arg6) : S128.Idx → EReal) (ix1 j)
/-- The argument array main_arg7 of a valuation, as a function of its coordinates. -/
abbrev rg2 (V0 : Valuation τ sig (Elt Ideal)) : Fin 128 → EReal := fun j => (V0 (Proc.devRef .tc main_arg7) : S128.Idx → EReal) (ix1 j)
/-- The argument array main_arg8 of a valuation, as a function of its coordinates. -/
abbrev rbe2 (V0 : Valuation τ sig (Elt Ideal)) : Fin 128 → EReal := fun j => (V0 (Proc.devRef .tc main_arg8) : S128.Idx → EReal) (ix1 j)
/-- The argument array main_arg9 of a valuation, as a function of its coordinates. -/
abbrev rW3 (V0 : Valuation τ sig (Elt Ideal)) : Fin 10 → Fin 128 → EReal := fun r k => (V0 (Proc.devRef .tc main_arg9) : S10x128.Idx → EReal) (ix2 r k)
/-- The argument array main_arg10 of a valuation, as a function of its coordinates. -/
abbrev rb3 (V0 : Valuation τ sig (Elt Ideal)) : Fin 10 → EReal := fun j => (V0 (Proc.devRef .tc main_arg10) : S10.Idx → EReal) (ix1 j)
/-- The argument array main_arg11 of a valuation, as a function of its coordinates. -/
abbrev rg3 (V0 : Valuation τ sig (Elt Ideal)) : Fin 10 → EReal := fun j => (V0 (Proc.devRef .tc main_arg11) : S10.Idx → EReal) (ix1 j)
/-- The argument array main_arg12 of a valuation, as a function of its coordinates. -/
abbrev rbe3 (V0 : Valuation τ sig (Elt Ideal)) : Fin 10 → EReal := fun j => (V0 (Proc.devRef .tc main_arg12) : S10.Idx → EReal) (ix1 j)
/-- The network's plain spelling at a valuation's argument arrays. -/
abbrev rnet (V0 : Valuation τ sig (Elt Ideal)) := Net.netP (rX V0) (rW1 V0) (rb1 V0) (rg1 V0) (rbe1 V0) (rW2 V0) (rb2 V0) (rg2 V0) (rbe2 V0) (rW3 V0) (rb3 V0) (rg3 V0) (rbe3 V0)
/-- The result main_v65 after the run, at a coordinate, is the network's. -/
theorem read_v65 (V0 : Valuation τ sig (Elt Ideal)) (r : Fin 65536) (c : Fin 128) :
    (StableHlo.after ops V0 (Proc.devRef .tc main_v65) : S65536x128.Idx → EReal) (ix2 r c) = (rnet V0).1 r c :=
  result_main_v65 V0 r c
/-- The result main_v119 after the run, at a coordinate, is the network's. -/
theorem read_v119 (V0 : Valuation τ sig (Elt Ideal)) (r : Fin 65536) (c : Fin 128) :
    (StableHlo.after ops V0 (Proc.devRef .tc main_v119) : S65536x128.Idx → EReal) (ix2 r c) = (rnet V0).2.1 r c :=
  result_main_v119 V0 r c
/-- The result main_v178 after the run, at a coordinate, is the network's. -/
theorem read_v178 (V0 : Valuation τ sig (Elt Ideal)) (r : Fin 65536) (c : Fin 10) :
    (StableHlo.after ops V0 (Proc.devRef .tc main_v178) : S65536x10.Idx → EReal) (ix2 r c) = (rnet V0).2.2 r c :=
  result_main_v178 V0 r c

end Cert.ReferenceIdeal.RefRead

end
-- ==== Proof.lean ====
/-
  The certificate's claim.  Both programs compute one three-layer network on the thirteen input arrays: quantise the
  input to 8 bits with a step taken from its largest magnitude; then, three times, multiply by the signs of a weight
  matrix and add a bias, normalise every column by the batch mean and variance, quantise, apply the activation, and
  quantise again.  The streaming program keeps running maxima and column sums over blocks of rows, computes the
  variance as the mean square minus the squared mean and applies the normalisation as one multiply-add; the textbook
  program takes suprema and sums over the whole batch, centres before it scales, and spells a quantised value q of x as
  x + (q - x).  Each program's result arrays are read as the folded, respectively the plain, spelling of that network of
  the same inputs (the fourteen regions and the host operations between them on one side, the straight line of host
  operations on the other); under the precondition every input entry is a real number, and on real tensors the two
  spellings are equal, because sums and maxima do not depend on the grouping, a real number cancels, and multiplication
  distributes over addition on the reals.  The frames are the generated ones and the reference's run; no operation was
  rewritten by the idealisation, so that conjunct is trivial.
-/
import proofs.«131146_j57208964383148_1_alg».proof.Defs
import proofs.«131146_j57208964383148_1_alg».proof.Proof.Gen.Kernel
import proofs.«131146_j57208964383148_1_alg».proof.Proof.Gen.Kernel.Frame
import proofs.«131146_j57208964383148_1_alg».proof.Proof.Gen.KernelIdeal
import proofs.«131146_j57208964383148_1_alg».proof.Proof.Gen.KernelIdeal.Frame
import proofs.«131146_j57208964383148_1_alg».proof.Proof.Gen.ReferenceIdeal
import proofs.«131146_j57208964383148_1_alg».proof.Proof.Gen.Pre_finite_inputs
import proofs.«131146_j57208964383148_1_alg».proof.Proof.KernelRun
import proofs.«131146_j57208964383148_1_alg».proof.Proof.KernelChain
import proofs.«131146_j57208964383148_1_alg».proof.Proof.FinitePre
import proofs.«131146_j57208964383148_1_alg».proof.Proof.LibNetBridge
import proofs.«131146_j57208964383148_1_alg».proof.Proof.RefRun
import proofs.«131146_j57208964383148_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.KernelIdeal.Chain Cert.ReferenceIdeal.RefRead

/-- The reference's network of its own inputs is the kernel's three results, when the two memories agree on the inputs
    and the inputs are real: the plain spelling of real tensors is the folded one. -/
theorem ref_net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : @Cert.Pre_KernelIdeal Cert.Pre_finite_inputs.Gen.facts m)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    rnet (StableHlo.launchContents m' c) = (h1 m c, h2 m c, h3 m c) := by
  obtain ⟨r0, r1, r2, r3, r4, r5, r6, r7, r8, r9, r10, r11, r12⟩ := Cert.FinitePre.real_inputs _ _ _ _ _ _ _ _ _ _ _ _ _ (hpre c)
  have e0 : rX (StableHlo.launchContents m' c) = X m c := funext fun p => funext fun q => congrFun a0 (ix2 p q)
  have e1 : rW1 (StableHlo.launchContents m' c) = Wm1 m c := funext fun p => funext fun q => congrFun a1 (ix2 p q)
  have e2 : rb1 (StableHlo.launchContents m' c) = bv1 m c := funext fun p => congrFun a2 (ix1 p)
  have e3 : rg1 (StableHlo.launchContents m' c) = gv1 m c := funext fun p => congrFun a3 (ix1 p)
  have e4 : rbe1 (StableHlo.launchContents m' c) = bev1 m c := funext fun p => congrFun a4 (ix1 p)
  have e5 : rW2 (StableHlo.launchContents m' c) = Wm2 m c := funext fun p => funext fun q => congrFun a5 (ix2 p q)
  have e6 : rb2 (StableHlo.launchContents m' c) = bv2 m c := funext fun p => congrFun a6 (ix1 p)
  have e7 : rg2 (StableHlo.launchContents m' c) = gv2 m c := funext fun p => congrFun a7 (ix1 p)
  have e8 : rbe2 (StableHlo.launchContents m' c) = bev2 m c := funext fun p => congrFun a8 (ix1 p)
  have e9 : rW3 (StableHlo.launchContents m' c) = Wm3 m c := funext fun p => funext fun q => congrFun a9 (ix2 p q)
  have e10 : rb3 (StableHlo.launchContents m' c) = bv3 m c := funext fun p => congrFun a10 (ix1 p)
  have e11 : rg3 (StableHlo.launchContents m' c) = gv3 m c := funext fun p => congrFun a11 (ix1 p)
  have e12 : rbe3 (StableHlo.launchContents m' c) = bev3 m c := funext fun p => congrFun a12 (ix1 p)
  have e : rnet (StableHlo.launchContents m' c) = Net.netP (X m c) (Wm1 m c) (bv1 m c) (gv1 m c) (bev1 m c) (Wm2 m c) (bv2 m c) (gv2 m c) (bev2 m c) (Wm3 m c) (bv3 m c) (gv3 m c) (bev3 m c) :=
    congr (congr (congr (congr (congr (congr (congr (congr (congr (congr (congr (congr (congrArg Net.netP e0) e1) e2) e3) e4) e5) e6) e7) e8) e9) e10) e11) e12
  rw [e, ← Net.netF_eq_netP (X m c) (Wm1 m c) (bv1 m c) (gv1 m c) (bev1 m c) (Wm2 m c) (bv2 m c) (gv2 m c) (bev2 m c) (Wm3 m c) (bv3 m c) (gv3 m c) (bev3 m c)
    (fun p q => r0 (ix2 p q))
    (fun p q => r1 (ix2 p q))
    (fun p => r2 (ix1 p))
    (fun p => r3 (ix1 p))
    (fun p => r4 (ix1 p))
    (fun p q => r5 (ix2 p q))
    (fun p => r6 (ix1 p))
    (fun p => r7 (ix1 p))
    (fun p => r8 (ix1 p))
    (fun p q => r9 (ix2 p q))
    (fun p => r10 (ix1 p))
    (fun p => r11 (ix1 p))
    (fun p => r12 (ix1 p))]
  exact net_eq m c

theorem frame_kernel : @Cert.frame_Kernel Cert.Kernel.Gen.facts Cert.Pre_finite_inputs.Gen.facts :=
  fun m ρ _ => Cert.Kernel.Gen.frame m ρ
theorem frame_kernelIdeal : @Cert.frame_KernelIdeal Cert.KernelIdeal.Gen.facts Cert.Pre_finite_inputs.Gen.facts :=
  fun m ρ _ => Cert.KernelIdeal.Gen.frame m ρ
theorem frame_reference : @Cert.frame_ReferenceIdeal Cert.ReferenceIdeal.Gen.facts Cert.Pre_finite_inputs.Gen.facts :=
  @Cert.ReferenceIdeal.RefRun.frame Cert.Pre_finite_inputs.Gen.facts

/-- At the extended reals both programs end with the folded network's three results of the inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => arr2 (h3 m c), fun c => arr2 (h1 m c), fun c => arr2 (h2 m c), fun c => arr2 (h3 m c), ?_, ?_⟩
  · refine (θ_run _ _ _).mono (fun r h c => ?_) (Cert.KernelIdeal.RunAll.run_at (F := Ideal) m ρ)
    exact ⟨(h c Cert.KernelIdeal.main_v107 (by decide)).trans (W33_v107 m ρ c), (h c Cert.KernelIdeal.main_v39 (by decide)).trans (W33_v39 m ρ c),
      (h c Cert.KernelIdeal.main_v73 (by decide)).trans (W33_v73 m ρ c), (h c Cert.KernelIdeal.main_v107 (by decide)).trans (W33_v107 m ρ c),
      (h c Cert.KernelIdeal.main_arg0 (by decide)).trans (Cert.KernelIdeal.Gen.W33_main_arg0 m ρ c),
      (h c Cert.KernelIdeal.main_arg1 (by decide)).trans (Cert.KernelIdeal.Gen.W33_main_arg1 m ρ c),
      (h c Cert.KernelIdeal.main_arg2 (by decide)).trans (Cert.KernelIdeal.Gen.W33_main_arg2 m ρ c),
      (h c Cert.KernelIdeal.main_arg3 (by decide)).trans (Cert.KernelIdeal.Gen.W33_main_arg3 m ρ c),
      (h c Cert.KernelIdeal.main_arg4 (by decide)).trans (Cert.KernelIdeal.Gen.W33_main_arg4 m ρ c),
      (h c Cert.KernelIdeal.main_arg5 (by decide)).trans (Cert.KernelIdeal.Gen.W33_main_arg5 m ρ c),
      (h c Cert.KernelIdeal.main_arg6 (by decide)).trans (Cert.KernelIdeal.Gen.W33_main_arg6 m ρ c),
      (h c Cert.KernelIdeal.main_arg7 (by decide)).trans (Cert.KernelIdeal.Gen.W33_main_arg7 m ρ c),
      (h c Cert.KernelIdeal.main_arg8 (by decide)).trans (Cert.KernelIdeal.Gen.W33_main_arg8 m ρ c),
      (h c Cert.KernelIdeal.main_arg9 (by decide)).trans (Cert.KernelIdeal.Gen.W33_main_arg9 m ρ c),
      (h c Cert.KernelIdeal.main_arg10 (by decide)).trans (Cert.KernelIdeal.Gen.W33_main_arg10 m ρ c),
      (h c Cert.KernelIdeal.main_arg11 (by decide)).trans (Cert.KernelIdeal.Gen.W33_main_arg11 m ρ c),
      (h c Cert.KernelIdeal.main_arg12 (by decide)).trans (Cert.KernelIdeal.Gen.W33_main_arg12 m ρ c)⟩
  · refine (θ_run _ _ _).mono (fun r h c => ?_) (Cert.ReferenceIdeal.RefRun.run (F := Ideal) m' ρ')
    obtain ⟨h178, h65, h119, hargs⟩ := h c
    obtain ⟨a0, a1, a2, a3, a4, a5, a6, a7, a8, a9, a10, a11, a12⟩ := hagree c
    have key := ref_net_eq m m' c hpre a0 a1 a2 a3 a4 a5 a6 a7 a8 a9 a10 a11 a12
    have k178 : r.2.mem ((c.tc : Thread Cert.ReferenceIdeal.nD Cert.ReferenceIdeal.τ).loc Cert.ReferenceIdeal.main_v178) = arr2 (h3 m c) :=
      h178.trans (funext fun i => by rw [eq_ix2 i]; exact (read_v178 _ _ _).trans (congrFun (congrFun (congrArg (fun t => t.2.2) key) _) _))
    exact ⟨k178,
      h65.trans (funext fun i => by rw [eq_ix2 i]; exact (read_v65 _ _ _).trans (congrFun (congrFun (congrArg (fun t => t.1) key) _) _)),
      h119.trans (funext fun i => by rw [eq_ix2 i]; exact (read_v119 _ _ _).trans (congrFun (congrFun (congrArg (fun t => t.2.1) key) _) _)),
      k178, hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
